-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S2x262144 : S_.BroadcastsInDim S2x262144 (![] : Fin 0 → Fin S2x262144.rank)
  reducesTo_S2x262144_S_d0_1 : S2x262144.ReducesTo [0, 1] S_

variable [Facts]

def fn_part3 {F : FTy → Type} [FloatOps F] (main_arg1 : IVec S2x262144 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x262144 32 := broadcastInDim S2x262144 ![] bcast_S_S2x262144 main_c_20
  let main_v55 : IVec S2x262144 1 := cmpi .sge main_arg1 main_v54
  let main_c_21 : IVec S_ 32 := constantI S_ 32 8192#32
  let main_v56 : IVec S2x262144 32 := broadcastInDim S2x262144 ![] bcast_S_S2x262144 main_c_21
  let main_v57 : IVec S2x262144 1 := cmpi .slt main_arg1 main_v56
  let main_v58 : IVec S2x262144 1 := andi main_v55 main_v57
  let main_c_22 : IVec S_ 1 := constantI S_ 1 1#1
  let main_v59 : IVec S_ 1 := (fun x v => Host.reduce IntOp.andi x v reducesTo_S2x262144_S_d0_1 h_S_) main_v58 main_c_22
  let main_v60 : IVec S_ 1 := andi main_v53 main_v59
  main_v60

def fn_part2 {F : FTy → Type} [FloatOps F] (main_arg1 : IVec S2x262144 32) (main_arg8 : FVec F S128x512 .f32) (main_arg9 : FVec F S512 .f32) (main_arg10 : FVec F S128x128 .f32) (main_arg11 : FVec F S128 .f32) (main_v33 : IVec S_ 1) : IVec S_ 1 :=
  let main_v34 : FVec F S128x512 .f32 := Host.absf main_arg8
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x262144 32) (main_arg5 : FVec F S128 .f32) (main_arg6 : FVec F S128x128 .f32) (main_arg7 : FVec F S128 .f32) (main_arg8 : FVec F S128x512 .f32) (main_arg9 : FVec F S512 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S8192x512 .f32) (main_arg1 : IVec S2x262144 32) (main_arg2 : FVec F S512x128 .f32) (main_arg3 : FVec F S128 .f32) (main_arg4 : FVec F S128x128 .f32) (main_arg5 : FVec F S128 .f32) (main_arg6 : FVec F S128x128 .f32) (main_arg7 : FVec F S128 .f32) (main_arg8 : FVec F S128x512 .f32) (main_arg9 : FVec F S512 .f32) (main_arg10 : FVec F S128x128 .f32) (main_arg11 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S8192x512 : Shape := ⟨2, ![8192, 512]⟩
abbrev S2x262144 : Shape := ⟨2, ![2, 262144]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S8192x128 : Shape := ⟨2, ![8192, 128]⟩
abbrev S1024x512 : Shape := ⟨2, ![1024, 512]⟩
abbrev S1024x128 : Shape := ⟨2, ![1024, 128]⟩
abbrev S1x128 : Shape := ⟨2, ![1, 128]⟩
abbrev S1024x2048 : Shape := ⟨2, ![1024, 2048]⟩
abbrev S2048x128 : Shape := ⟨2, ![2048, 128]⟩
abbrev S1x512 : Shape := ⟨2, ![1, 512]⟩
abbrev S2048x512 : Shape := ⟨2, ![2048, 512]⟩
abbrev S1024x1024 : Shape := ⟨2, ![1024, 1024]⟩
abbrev S128x1024 : Shape := ⟨2, ![128, 1024]⟩

abbrev nBuf : Space → Nat
  | .hbm => 95
  | .vmem => 71
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x512, .f32⟩
  | .hbm, ⟨9, _⟩ => ⟨S512, .f32⟩
  | .hbm, ⟨10, _⟩ => ⟨S128x128, .f32⟩
  | .hbm, ⟨11, _⟩ => ⟨S128, .f32⟩
  | .hbm, ⟨12, _⟩ => ⟨S8192, .i32⟩
  | .hbm, ⟨13, _⟩ => ⟨S1x262144, .i32⟩
  | .hbm, ⟨14, _⟩ => ⟨S262144, .i32⟩
  | .hbm, ⟨15, _⟩ => ⟨S270336, .i32⟩
  | .hbm, ⟨16, _⟩ => ⟨S1x262144, .i32⟩
  | .hbm, ⟨17, _⟩ => ⟨S262144, .i32⟩
  | .hbm, ⟨18, _⟩ => ⟨S270336, .i32⟩
  | .hbm, ⟨19, _⟩ => ⟨S_, .f32⟩
  | .hbm, ⟨20, _⟩ => ⟨S270336, .f32⟩
  | .hbm, ⟨21, _⟩ => ⟨S_, .f32⟩
  | .hbm, ⟨22, _⟩ => ⟨S8192, .f32⟩
  | .hbm, ⟨23, _⟩ => ⟨S270336x1, .i32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .i1⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .i32⟩
  | .hbm, ⟨34, _⟩ => ⟨S270336, .i32⟩
  | .hbm, ⟨35, _⟩ => ⟨S270336, .i1⟩
  | .hbm, ⟨36, _⟩ => ⟨S_, .i32⟩
  | .hbm, ⟨37, _⟩ => ⟨S270336, .i32⟩
  | .hbm, ⟨38, _⟩ => ⟨S270336, .i32⟩
  | .hbm, ⟨39, _⟩ => ⟨S270336, .i32⟩
  | .hbm, ⟨40, _⟩ => ⟨S270336x1, .i32⟩
  | .hbm, ⟨41, _⟩ => ⟨S270336, .f32⟩
  | .hbm, ⟨42, _⟩ => ⟨S_, .i32⟩
  | .hbm, ⟨43, _⟩ => ⟨S270336, .i32⟩
  | .hbm, ⟨44, _⟩ => ⟨S270336, .i1⟩
  | .hbm, ⟨45, _⟩ => ⟨S_, .i32⟩
  | .hbm, ⟨46, _⟩ => ⟨S270336, .i32⟩
  | .hbm, ⟨47, _⟩ => ⟨S270336, .i32⟩
  | .hbm, ⟨48, _⟩ => ⟨S270336, .i32⟩
  | .hbm, ⟨49, _⟩ => ⟨S270336x1, .i32⟩
  | .hbm, ⟨50, _⟩ => ⟨S270336, .f32⟩
  | .hbm, ⟨51, _⟩ => ⟨S270336, .f32⟩
  | .hbm, ⟨52, _⟩ => ⟨S_, .f32⟩
  | .hbm, ⟨53, _⟩ => ⟨S8192x8192, .f32⟩
  | .hbm, ⟨54, _⟩ => ⟨S_, .i32⟩
  | .hbm, ⟨55, _⟩ => ⟨S270336, .i32⟩
  | .hbm, ⟨56, _⟩ => ⟨S270336, .i1⟩
  | .hbm, ⟨57, _⟩ => ⟨S_, .i32⟩
  | .hbm, ⟨58, _⟩ => ⟨S270336, .i32⟩
  | .hbm, ⟨59, _⟩ => ⟨S270336, .i32⟩
  | .hbm, ⟨60, _⟩ => ⟨S270336, .i32⟩
  | .hbm, ⟨61, _⟩ => ⟨S_, .i32⟩
  | .hbm, ⟨62, _⟩ => ⟨S270336, .i32⟩
  | .hbm, ⟨63, _⟩ => ⟨S270336, .i1⟩
  | .hbm, ⟨64, _⟩ => ⟨S_, .i32⟩
  | .hbm, ⟨65, _⟩ => ⟨S270336, .i32⟩
  | .hbm, ⟨66, _⟩ => ⟨S270336, .i32⟩
  | .hbm, ⟨67, _⟩ => ⟨S270336, .i32⟩
  | .hbm, ⟨68, _⟩ => ⟨S270336x1, .i32⟩
  | .hbm, ⟨69, _⟩ => ⟨S270336x1, .i32⟩
  | .hbm, ⟨70, _⟩ => ⟨S270336x2, .i32⟩
  | .hbm, ⟨71, _⟩ => ⟨S8192x8192, .f32⟩
  | .hbm, ⟨72, _⟩ => ⟨S8192x8192, .bf16⟩
  | .hbm, ⟨73, _⟩ => ⟨S8192x512, .bf16⟩
  | .hbm, ⟨74, _⟩ => ⟨S512x128, .bf16⟩
  | .hbm, ⟨75, _⟩ => ⟨S128x128, .bf16⟩
  | .hbm, ⟨76, _⟩ => ⟨S128x128, .bf16⟩
  | .hbm, ⟨77, _⟩ => ⟨S128x512, .bf16⟩
  | .hbm, ⟨78, _⟩ => ⟨S128x128, .bf16⟩
  | .hbm, ⟨79, _⟩ => ⟨S8192x128, .bf16⟩
  | .hbm, ⟨80, _⟩ => ⟨S1x128, .f32⟩
  | .hbm, ⟨81, _⟩ => ⟨S8192x128, .bf16⟩
  | .hbm, ⟨82, _⟩ => ⟨S8192x128, .bf16⟩
  | .hbm, ⟨83, _⟩ => ⟨S1x128, .f32⟩
  | .hbm, ⟨84, _⟩ => ⟨S8192x128, .bf16⟩
  | .hbm, ⟨85, _⟩ => ⟨S8192x128, .bf16⟩
  | .hbm, ⟨86, _⟩ => ⟨S1x128, .f32⟩
  | .hbm, ⟨87, _⟩ => ⟨S8192x128, .bf16⟩
  | .hbm, ⟨88, _⟩ => ⟨S8192x512, .bf16⟩
  | .hbm, ⟨89, _⟩ => ⟨S1x512, .f32⟩
  | .hbm, ⟨90, _⟩ => ⟨S8192x512, .f32⟩
  | .hbm, ⟨91, _⟩ => ⟨S8192x128, .bf16⟩
  | .hbm, ⟨92, _⟩ => ⟨S1x128, .f32⟩
  | .hbm, ⟨93, _⟩ => ⟨S8192x128, .bf16⟩
  | .hbm, ⟨94, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S512x128, .bf16⟩
  | .local _ .vmem, ⟨3, _⟩ => ⟨S1024x128, .bf16⟩
  | .local _ .vmem, ⟨4, _⟩ => ⟨S1024x128, .bf16⟩
  | .local _ .vmem, ⟨5, _⟩ => ⟨S1024x2048, .bf16⟩
  | .local _ .vmem, ⟨6, _⟩ => ⟨S1024x2048, .bf16⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .bf16⟩
  | .local _ .vmem, ⟨14, _⟩ => ⟨S1024x128, .bf16⟩
  | .local _ .vmem, ⟨15, _⟩ => ⟨S128x128, .bf16⟩
  | .local _ .vmem, ⟨16, _⟩ => ⟨S1024x128, .bf16⟩
  | .local _ .vmem, ⟨17, _⟩ => ⟨S1024x128, .bf16⟩
  | .local _ .vmem, ⟨18, _⟩ => ⟨S1024x2048, .bf16⟩
  | .local _ .vmem, ⟨19, _⟩ => ⟨S1024x2048, .bf16⟩
  | .local _ .vmem, ⟨20, _⟩ => ⟨S2048x128, .bf16⟩
  | .local _ .vmem, ⟨21, _⟩ => ⟨S2048x128, .bf16⟩
  | .local _ .vmem, ⟨22, _⟩ => ⟨S1x128, .f32⟩
  | .local _ .vmem, ⟨23, _⟩ => ⟨S1024x128, .bf16⟩
  | .local _ .vmem, ⟨24, _⟩ => ⟨S1024x128, .bf16⟩
  | .local _ .vmem, ⟨25, _⟩ => ⟨S1024x128, .f32⟩
  | .local _ .vmem, ⟨26, _⟩ => ⟨S1024x128, .bf16⟩
  | .local _ .vmem, ⟨27, _⟩ => ⟨S1024x128, .bf16⟩
  | .local _ .vmem, ⟨28, _⟩ => ⟨S128x128, .bf16⟩
  | .local _ .vmem, ⟨29, _⟩ => ⟨S1024x128, .bf16⟩
  | .local _ .vmem, ⟨30, _⟩ => ⟨S1024x128, .bf16⟩
  | .local _ .vmem, ⟨31, _⟩ => ⟨S1024x2048, .bf16⟩
  | .local _ .vmem, ⟨32, _⟩ => ⟨S1024x2048, .bf16⟩
  | .local _ .vmem, ⟨33, _⟩ => ⟨S2048x128, .bf16⟩
  | .local _ .vmem, ⟨34, _⟩ => ⟨S2048x128, .bf16⟩
  | .local _ .vmem, ⟨35, _⟩ => ⟨S1x128, .f32⟩
  | .local _ .vmem, ⟨36, _⟩ => ⟨S1024x128, .bf16⟩
  | .local _ .vmem, ⟨37, _⟩ => ⟨S1024x128, .bf16⟩
  | .local _ .vmem, ⟨38, _⟩ => ⟨S1024x128, .f32⟩
  | .local _ .vmem, ⟨39, _⟩ => ⟨S1024x128, .bf16⟩
  | .local _ .vmem, ⟨40, _⟩ => ⟨S1024x128, .bf16⟩
  | .local _ .vmem, ⟨41, _⟩ => ⟨S128x512, .bf16⟩
  | .local _ .vmem, ⟨42, _⟩ => ⟨S1024x512, .bf16⟩
  | .local _ .vmem, ⟨43, _⟩ => ⟨S1024x512, .bf16⟩
  | .local _ .vmem, ⟨44, _⟩ => ⟨S1024x2048, .bf16⟩
  | .local _ .vmem, ⟨45, _⟩ => ⟨S1024x2048, .bf16⟩
  | .local _ .vmem, ⟨46, _⟩ => ⟨S2048x512, .bf16⟩
  | .local _ .vmem, ⟨47, _⟩ => ⟨S2048x512, .bf16⟩
  | .local _ .vmem, ⟨48, _⟩ => ⟨S1x512, .f32⟩
  | .local _ .vmem, ⟨49, _⟩ => ⟨S1024x512, .f32⟩
  | .local _ .vmem, ⟨50, _⟩ => ⟨S1024x512, .f32⟩
  | .local _ .vmem, ⟨51, _⟩ => ⟨S1024x512, .f32⟩
  | .local _ .vmem, ⟨52, _⟩ => ⟨S1024x128, .bf16⟩
  | .local _ .vmem, ⟨53, _⟩ => ⟨S1024x128, .bf16⟩
  | .local _ .vmem, ⟨54, _⟩ => ⟨S128x128, .bf16⟩
  | .local _ .vmem, ⟨55, _⟩ => ⟨S1024x128, .bf16⟩
  | .local _ .vmem, ⟨56, _⟩ => ⟨S1024x128, .bf16⟩
  | .local _ .vmem, ⟨57, _⟩ => ⟨S1024x2048, .bf16⟩
  | .local _ .vmem, ⟨58, _⟩ => ⟨S1024x2048, .bf16⟩
  | .local _ .vmem, ⟨59, _⟩ => ⟨S2048x128, .bf16⟩
  | .local _ .vmem, ⟨60, _⟩ => ⟨S2048x128, .bf16⟩
  | .local _ .vmem, ⟨61, _⟩ => ⟨S1x128, .f32⟩
  | .local _ .vmem, ⟨62, _⟩ => ⟨S1024x128, .bf16⟩
  | .local _ .vmem, ⟨63, _⟩ => ⟨S1024x128, .bf16⟩
  | .local _ .vmem, ⟨64, _⟩ => ⟨S1024x128, .f32⟩
  | .local _ .vmem, ⟨65, _⟩ => ⟨S1024x128, .bf16⟩
  | .local _ .vmem, ⟨66, _⟩ => ⟨S1024x128, .bf16⟩
  | .local _ .vmem, ⟨67, _⟩ => ⟨S1024x128, .bf16⟩
  | .local _ .vmem, ⟨68, _⟩ => ⟨S1024x128, .bf16⟩
  | .local _ .vmem, ⟨69, _⟩ => ⟨S1024x1024, .f32⟩
  | .local _ .vmem, ⟨70, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc7_scratch0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg3_1 : Ref sig .tc := ⟨.vmem, 63, rfl⟩
abbrev cc9_scratch0 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg1_1 : Ref sig .tc := ⟨.vmem, 68, rfl⟩
abbrev cc10_stg2_0 : Ref sig .tc := ⟨.vmem, 69, rfl⟩
abbrev cc10_stg2_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem2_1 : DmaSem sig := 65

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![8, 4], ![false, false]⟩

def k7_cond2 (i : grid7.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![8, 4], ![false, false]⟩

def k9_cond2 (i : grid9.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S2048x128 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1024x128 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![8, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1024x128 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  packedbf16_S1024x512_S1024x512_0_0 : (Rect.unit (s := S1024x512) ![0, 0] S1024x512.size inb_S1024x512_S1024x512_0_0).PackedRows (EltTy.packing .bf16)
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S1024x512_S512x128_S1024x128_1_0_0_1_n_n_wf : DotDims.WF S1024x512 S512x128 S1024x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  dot_S1024x128_S128x512_S1024x512_1_0_0_1_n_n_wf : DotDims.WF S1024x128 S128x512 S1024x512 [1] [0] [0] [1] [] []
  dot_S1024x2048_S2048x512_S1024x512_1_0_0_1_n_n_wf : DotDims.WF S1024x2048 S2048x512 S1024x512 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .bf16 = 32 ∨ (Rect.block (s := S8192x128) S2048x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .bf16 = 32 ∨ (Rect.block (s := S8192x128) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .bf16 = 32 ∨ (Rect.block (s := S8192x128) S1024x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .bf16 = 32 ∨ (Rect.block (s := S8192x128) S1024x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .bf16 = 32 ∨ (Rect.block (s := S8192x128) S2048x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S8192x128.size a
  hwx3_3 : ∀ i : grid3.Coords, EltTy.bits .bf16 = 32 ∨ (Rect.block (s := S8192x128) S1024x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .bf16 = 32 ∨ (Rect.block (s := S8192x128) S1024x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .bf16 = 32 ∨ (Rect.block (s := S8192x128) S1024x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .bf16 = 32 ∨ (Rect.block (s := S8192x8192) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S8192x128.size a
  hwx5_1 : ∀ i : grid5.Coords, EltTy.bits .bf16 = 32 ∨ (Rect.block (s := S8192x128) S2048x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S8192x128.size a
  hwx5_3 : ∀ i : grid5.Coords, EltTy.bits .bf16 = 32 ∨ (Rect.block (s := S8192x128) S1024x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S8192x128.size a
  hwx6_0 : ∀ i : grid6.Coords, EltTy.bits .bf16 = 32 ∨ (Rect.block (s := S8192x128) S1024x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x512.size a ≤ S128x512.size a
  hwx6_1 : ∀ i : grid6.Coords, EltTy.bits .bf16 = 32 ∨ (Rect.block (s := S128x512) S128x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S8192x512.size a
  hwx6_2 : ∀ i : grid6.Coords, EltTy.bits .bf16 = 32 ∨ (Rect.block (s := S8192x512) S1024x512.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S8192x8192.size a
  hwx7_0 : ∀ i : grid7.Coords, EltTy.bits .bf16 = 32 ∨ (Rect.block (s := S8192x8192) S1024x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x512.size a ≤ S8192x512.size a
  hwx7_1 : ∀ i : grid7.Coords, EltTy.bits .bf16 = 32 ∨ (Rect.block (s := S8192x512) S2048x512.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x512.size a ≤ S8192x512.size a
  hwx7_3 : ∀ i : grid7.Coords, EltTy.bits .f32 = 32 ∨ (Rect.block (s := S8192x512) S1024x512.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x128.size a ≤ S8192x128.size a
  hwx8_0 : ∀ i : grid8.Coords, EltTy.bits .bf16 = 32 ∨ (Rect.block (s := S8192x128) S1024x128.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .bf16 = 32 ∨ (Rect.block (s := S128x128) S128x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S8192x128.size a
  hwx8_2 : ∀ i : grid8.Coords, EltTy.bits .bf16 = 32 ∨ (Rect.block (s := S8192x128) S1024x128.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x2048.size a ≤ S8192x8192.size a
  hwx9_0 : ∀ i : grid9.Coords, EltTy.bits .bf16 = 32 ∨ (Rect.block (s := S8192x8192) S1024x2048.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2048x128.size a ≤ S8192x128.size a
  hwx9_1 : ∀ i : grid9.Coords, EltTy.bits .bf16 = 32 ∨ (Rect.block (s := S8192x128) S2048x128.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x128.size a ≤ S8192x128.size a
  hwx9_3 : ∀ i : grid9.Coords, EltTy.bits .bf16 = 32 ∨ (Rect.block (s := S8192x128) S1024x128.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x128.size a ≤ S8192x128.size a
  hwx10_0 : ∀ i : grid10.Coords, EltTy.bits .bf16 = 32 ∨ (Rect.block (s := S8192x128) S1024x128.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1024x128.size a ≤ S8192x128.size a
  hwx10_1 : ∀ i : grid10.Coords, EltTy.bits .bf16 = 32 ∨ (Rect.block (s := S8192x128) S1024x128.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x1024.size a ≤ S8192x8192.size a
  hwx10_2 : ∀ i : grid10.Coords, EltTy.bits .f32 = 32 ∨ (Rect.block (s := S8192x8192) S1024x1024.size (cc10_transform_2 i) (hinb10_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v46) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v54) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v57) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v60) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v50) S128x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1024x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v45) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v61) S2048x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v62) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v63) S1024x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v57) S1024x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v51) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v64) S1024x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v45) S1024x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v64) S2048x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v65) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v66) S1024x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v66) S1024x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v66) S1024x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v67) S1024x1024.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x128 : Shape := ⟨2, ![8192, 128]⟩
abbrev S270336x128 : Shape := ⟨2, ![270336, 128]⟩
abbrev S1x128 : Shape := ⟨2, ![1, 128]⟩
abbrev S270336x512 : Shape := ⟨2, ![270336, 512]⟩
abbrev S1x512 : Shape := ⟨2, ![1, 512]⟩
abbrev S128x8192 : Shape := ⟨2, ![128, 8192]⟩
abbrev S8192x8192 : Shape := ⟨2, ![8192, 8192]⟩

abbrev nBuf : Space → Nat
  | .hbm => 329
  | .vmem => 0
  | .smem => 0
  | _ => 0

abbrev hbmTy0_0 (i : Nat) : BufTy := match i % 128 with
  | 0 => ⟨S8192x512, .f32⟩
  | 1 => ⟨S2x262144, .i32⟩
  | 2 => ⟨S512x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x512, .f32⟩
  | 9 => ⟨S512, .f32⟩
  | 10 => ⟨S128x128, .f32⟩
  | 11 => ⟨S128, .f32⟩
  | 12 => ⟨S8192, .i32⟩
  | 13 => ⟨S1x262144, .i32⟩
  | 14 => ⟨S262144, .i32⟩
  | 15 => ⟨S270336, .i32⟩
  | 16 => ⟨S1x262144, .i32⟩
  | 17 => ⟨S262144, .i32⟩
  | 18 => ⟨S270336, .i32⟩
  | 19 => ⟨S_, .f32⟩
  | 20 => ⟨S270336, .f32⟩
  | 21 => ⟨S_, .f32⟩
  | 22 => ⟨S8192, .f32⟩
  | 23 => ⟨S270336x1, .i32⟩
  | 24 => ⟨S8192, .f32⟩
  | 25 => ⟨S_, .f32⟩
  | 26 => ⟨S8192, .f32⟩
  | 27 => ⟨S8192, .i1⟩
  | 28 => ⟨S8192, .f32⟩
  | 29 => ⟨S_, .f32⟩
  | 30 => ⟨S_, .f32⟩
  | 31 => ⟨S8192, .f32⟩
  | 32 => ⟨S8192, .f32⟩
  | 33 => ⟨S_, .i32⟩
  | 34 => ⟨S270336, .i32⟩
  | 35 => ⟨S270336, .i1⟩
  | 36 => ⟨S_, .i32⟩
  | 37 => ⟨S270336, .i32⟩
  | 38 => ⟨S270336, .i32⟩
  | 39 => ⟨S270336, .i32⟩
  | 40 => ⟨S270336x1, .i32⟩
  | 41 => ⟨S270336, .f32⟩
  | 42 => ⟨S_, .i32⟩
  | 43 => ⟨S270336, .i32⟩
  | 44 => ⟨S270336, .i1⟩
  | 45 => ⟨S_, .i32⟩
  | 46 => ⟨S270336, .i32⟩
  | 47 => ⟨S270336, .i32⟩
  | 48 => ⟨S270336, .i32⟩
  | 49 => ⟨S270336x1, .i32⟩
  | 50 => ⟨S270336, .f32⟩
  | 51 => ⟨S270336, .f32⟩
  | 52 => ⟨S8192x128, .f32⟩
  | 53 => ⟨S_, .i32⟩
  | 54 => ⟨S270336, .i32⟩
  | 55 => ⟨S270336, .i1⟩
  | 56 => ⟨S_, .i32⟩
  | 57 => ⟨S270336, .i32⟩
  | 58 => ⟨S270336, .i32⟩
  | 59 => ⟨S270336, .i32⟩
  | 60 => ⟨S270336x1, .i32⟩
  | 61 => ⟨S270336x128, .f32⟩
  | 62 => ⟨S270336x1, .f32⟩
  | 63 => ⟨S270336x128, .f32⟩
  | 64 => ⟨S270336x128, .f32⟩
  | 65 => ⟨S_, .f32⟩
  | 66 => ⟨S8192x128, .f32⟩
  | 67 => ⟨S270336x1, .i32⟩
  | 68 => ⟨S8192x128, .f32⟩
  | 69 => ⟨S1x128, .f32⟩
  | 70 => ⟨S8192x128, .f32⟩
  | 71 => ⟨S8192x128, .f32⟩
  | 72 => ⟨S_, .f32⟩
  | 73 => ⟨S8192x128, .f32⟩
  | 74 => ⟨S8192x128, .f32⟩
  | 75 => ⟨S8192, .i32⟩
  | 76 => ⟨S1x262144, .i32⟩
  | 77 => ⟨S262144, .i32⟩
  | 78 => ⟨S270336, .i32⟩
  | 79 => ⟨S1x262144, .i32⟩
  | 80 => ⟨S262144, .i32⟩
  | 81 => ⟨S270336, .i32⟩
  | 82 => ⟨S_, .f32⟩
  | 83 => ⟨S270336, .f32⟩
  | 84 => ⟨S_, .f32⟩
  | 85 => ⟨S8192, .f32⟩
  | 86 => ⟨S270336x1, .i32⟩
  | 87 => ⟨S8192, .f32⟩
  | 88 => ⟨S_, .f32⟩
  | 89 => ⟨S8192, .f32⟩
  | 90 => ⟨S8192, .i1⟩
  | 91 => ⟨S8192, .f32⟩
  | 92 => ⟨S_, .f32⟩
  | 93 => ⟨S_, .f32⟩
  | 94 => ⟨S8192, .f32⟩
  | 95 => ⟨S8192, .f32⟩
  | 96 => ⟨S_, .i32⟩
  | 97 => ⟨S270336, .i32⟩
  | 98 => ⟨S270336, .i1⟩
  | 99 => ⟨S_, .i32⟩
  | 100 => ⟨S270336, .i32⟩
  | 101 => ⟨S270336, .i32⟩
  | 102 => ⟨S270336, .i32⟩
  | 103 => ⟨S270336x1, .i32⟩
  | 104 => ⟨S270336, .f32⟩
  | 105 => ⟨S_, .i32⟩
  | 106 => ⟨S270336, .i32⟩
  | 107 => ⟨S270336, .i1⟩
  | 108 => ⟨S_, .i32⟩
  | 109 => ⟨S270336, .i32⟩
  | 110 => ⟨S270336, .i32⟩
  | 111 => ⟨S270336, .i32⟩
  | 112 => ⟨S270336x1, .i32⟩
  | 113 => ⟨S270336, .f32⟩
  | 114 => ⟨S270336, .f32⟩
  | 115 => ⟨S8192x128, .f32⟩
  | 116 => ⟨S_, .i32⟩
  | 117 => ⟨S270336, .i32⟩
  | 118 => ⟨S270336, .i1⟩
  | 119 => ⟨S_, .i32⟩
  | 120 => ⟨S270336, .i32⟩
  | 121 => ⟨S270336, .i32⟩
  | 122 => ⟨S270336, .i32⟩
  | 123 => ⟨S270336x1, .i32⟩
  | 124 => ⟨S270336x128, .f32⟩
  | 125 => ⟨S270336x1, .f32⟩
  | 126 => ⟨S270336x128, .f32⟩
  | 127 => ⟨S270336x128, .f32⟩
  | _ => ⟨S8192x512, .f32⟩

abbrev hbmTy0_1 (i : Nat) : BufTy := match i % 128 with
  | 0 => ⟨S_, .f32⟩
  | 1 => ⟨S8192x128, .f32⟩
  | 2 => ⟨S270336x1, .i32⟩
  | 3 => ⟨S8192x128, .f32⟩
  | 4 => ⟨S1x128, .f32⟩
  | 5 => ⟨S8192x128, .f32⟩
  | 6 => ⟨S8192x128, .f32⟩
  | 7 => ⟨S_, .f32⟩
  | 8 => ⟨S8192x128, .f32⟩
  | 9 => ⟨S8192x128, .f32⟩
  | 10 => ⟨S8192, .i32⟩
  | 11 => ⟨S1x262144, .i32⟩
  | 12 => ⟨S262144, .i32⟩
  | 13 => ⟨S270336, .i32⟩
  | 14 => ⟨S1x262144, .i32⟩
  | 15 => ⟨S262144, .i32⟩
  | 16 => ⟨S270336, .i32⟩
  | 17 => ⟨S_, .f32⟩
  | 18 => ⟨S270336, .f32⟩
  | 19 => ⟨S_, .f32⟩
  | 20 => ⟨S8192, .f32⟩
  | 21 => ⟨S270336x1, .i32⟩
  | 22 => ⟨S8192, .f32⟩
  | 23 => ⟨S_, .f32⟩
  | 24 => ⟨S8192, .f32⟩
  | 25 => ⟨S8192, .i1⟩
  | 26 => ⟨S8192, .f32⟩
  | 27 => ⟨S_, .f32⟩
  | 28 => ⟨S_, .f32⟩
  | 29 => ⟨S8192, .f32⟩
  | 30 => ⟨S8192, .f32⟩
  | 31 => ⟨S_, .i32⟩
  | 32 => ⟨S270336, .i32⟩
  | 33 => ⟨S270336, .i1⟩
  | 34 => ⟨S_, .i32⟩
  | 35 => ⟨S270336, .i32⟩
  | 36 => ⟨S270336, .i32⟩
  | 37 => ⟨S270336, .i32⟩
  | 38 => ⟨S270336x1, .i32⟩
  | 39 => ⟨S270336, .f32⟩
  | 40 => ⟨S_, .i32⟩
  | 41 => ⟨S270336, .i32⟩
  | 42 => ⟨S270336, .i1⟩
  | 43 => ⟨S_, .i32⟩
  | 44 => ⟨S270336, .i32⟩
  | 45 => ⟨S270336, .i32⟩
  | 46 => ⟨S270336, .i32⟩
  | 47 => ⟨S270336x1, .i32⟩
  | 48 => ⟨S270336, .f32⟩
  | 49 => ⟨S270336, .f32⟩
  | 50 => ⟨S8192x128, .f32⟩
  | 51 => ⟨S_, .i32⟩
  | 52 => ⟨S270336, .i32⟩
  | 53 => ⟨S270336, .i1⟩
  | 54 => ⟨S_, .i32⟩
  | 55 => ⟨S270336, .i32⟩
  | 56 => ⟨S270336, .i32⟩
  | 57 => ⟨S270336, .i32⟩
  | 58 => ⟨S270336x1, .i32⟩
  | 59 => ⟨S270336x128, .f32⟩
  | 60 => ⟨S270336x1, .f32⟩
  | 61 => ⟨S270336x128, .f32⟩
  | 62 => ⟨S270336x128, .f32⟩
  | 63 => ⟨S_, .f32⟩
  | 64 => ⟨S8192x128, .f32⟩
  | 65 => ⟨S270336x1, .i32⟩
  | 66 => ⟨S8192x128, .f32⟩
  | 67 => ⟨S1x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S8192, .i32⟩
  | 74 => ⟨S1x262144, .i32⟩
  | 75 => ⟨S262144, .i32⟩
  | 76 => ⟨S270336, .i32⟩
  | 77 => ⟨S1x262144, .i32⟩
  | 78 => ⟨S262144, .i32⟩
  | 79 => ⟨S270336, .i32⟩
  | 80 => ⟨S_, .f32⟩
  | 81 => ⟨S270336, .f32⟩
  | 82 => ⟨S_, .f32⟩
  | 83 => ⟨S8192, .f32⟩
  | 84 => ⟨S270336x1, .i32⟩
  | 85 => ⟨S8192, .f32⟩
  | 86 => ⟨S_, .f32⟩
  | 87 => ⟨S8192, .f32⟩
  | 88 => ⟨S8192, .i1⟩
  | 89 => ⟨S8192, .f32⟩
  | 90 => ⟨S_, .f32⟩
  | 91 => ⟨S_, .f32⟩
  | 92 => ⟨S8192, .f32⟩
  | 93 => ⟨S8192, .f32⟩
  | 94 => ⟨S_, .i32⟩
  | 95 => ⟨S270336, .i32⟩
  | 96 => ⟨S270336, .i1⟩
  | 97 => ⟨S_, .i32⟩
  | 98 => ⟨S270336, .i32⟩
  | 99 => ⟨S270336, .i32⟩
  | 100 => ⟨S270336, .i32⟩
  | 101 => ⟨S270336x1, .i32⟩
  | 102 => ⟨S270336, .f32⟩
  | 103 => ⟨S_, .i32⟩
  | 104 => ⟨S270336, .i32⟩
  | 105 => ⟨S270336, .i1⟩
  | 106 => ⟨S_, .i32⟩
  | 107 => ⟨S270336, .i32⟩
  | 108 => ⟨S270336, .i32⟩
  | 109 => ⟨S270336, .i32⟩
  | 110 => ⟨S270336x1, .i32⟩
  | 111 => ⟨S270336, .f32⟩
  | 112 => ⟨S270336, .f32⟩
  | 113 => ⟨S8192x512, .f32⟩
  | 114 => ⟨S_, .i32⟩
  | 115 => ⟨S270336, .i32⟩
  | 116 => ⟨S270336, .i1⟩
  | 117 => ⟨S_, .i32⟩
  | 118 => ⟨S270336, .i32⟩
  | 119 => ⟨S270336, .i32⟩
  | 120 => ⟨S270336, .i32⟩
  | 121 => ⟨S270336x1, .i32⟩
  | 122 => ⟨S270336x512, .f32⟩
  | 123 => ⟨S270336x1, .f32⟩
  | 124 => ⟨S270336x512, .f32⟩
  | 125 => ⟨S270336x512, .f32⟩
  | 126 => ⟨S_, .f32⟩
  | 127 => ⟨S8192x512, .f32⟩
  | _ => ⟨S8192x512, .f32⟩

abbrev hbmTy0_2 (i : Nat) : BufTy := match i % 128 with
  | 0 => ⟨S270336x1, .i32⟩
  | 1 => ⟨S8192x512, .f32⟩
  | 2 => ⟨S1x512, .f32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192, .i32⟩
  | 9 => ⟨S1x262144, .i32⟩
  | 10 => ⟨S262144, .i32⟩
  | 11 => ⟨S270336, .i32⟩
  | 12 => ⟨S1x262144, .i32⟩
  | 13 => ⟨S262144, .i32⟩
  | 14 => ⟨S270336, .i32⟩
  | 15 => ⟨S_, .f32⟩
  | 16 => ⟨S270336, .f32⟩
  | 17 => ⟨S_, .f32⟩
  | 18 => ⟨S8192, .f32⟩
  | 19 => ⟨S270336x1, .i32⟩
  | 20 => ⟨S8192, .f32⟩
  | 21 => ⟨S_, .f32⟩
  | 22 => ⟨S8192, .f32⟩
  | 23 => ⟨S8192, .i1⟩
  | 24 => ⟨S8192, .f32⟩
  | 25 => ⟨S_, .f32⟩
  | 26 => ⟨S_, .f32⟩
  | 27 => ⟨S8192, .f32⟩
  | 28 => ⟨S8192, .f32⟩
  | 29 => ⟨S_, .i32⟩
  | 30 => ⟨S270336, .i32⟩
  | 31 => ⟨S270336, .i1⟩
  | 32 => ⟨S_, .i32⟩
  | 33 => ⟨S270336, .i32⟩
  | 34 => ⟨S270336, .i32⟩
  | 35 => ⟨S270336, .i32⟩
  | 36 => ⟨S270336x1, .i32⟩
  | 37 => ⟨S270336, .f32⟩
  | 38 => ⟨S_, .i32⟩
  | 39 => ⟨S270336, .i32⟩
  | 40 => ⟨S270336, .i1⟩
  | 41 => ⟨S_, .i32⟩
  | 42 => ⟨S270336, .i32⟩
  | 43 => ⟨S270336, .i32⟩
  | 44 => ⟨S270336, .i32⟩
  | 45 => ⟨S270336x1, .i32⟩
  | 46 => ⟨S270336, .f32⟩
  | 47 => ⟨S270336, .f32⟩
  | 48 => ⟨S8192x128, .f32⟩
  | 49 => ⟨S_, .i32⟩
  | 50 => ⟨S270336, .i32⟩
  | 51 => ⟨S270336, .i1⟩
  | 52 => ⟨S_, .i32⟩
  | 53 => ⟨S270336, .i32⟩
  | 54 => ⟨S270336, .i32⟩
  | 55 => ⟨S270336, .i32⟩
  | 56 => ⟨S270336x1, .i32⟩
  | 57 => ⟨S270336x128, .f32⟩
  | 58 => ⟨S270336x1, .f32⟩
  | 59 => ⟨S270336x128, .f32⟩
  | 60 => ⟨S270336x128, .f32⟩
  | 61 => ⟨S_, .f32⟩
  | 62 => ⟨S8192x128, .f32⟩
  | 63 => ⟨S270336x1, .i32⟩
  | 64 => ⟨S8192x128, .f32⟩
  | 65 => ⟨S1x128, .f32⟩
  | 66 => ⟨S8192x128, .f32⟩
  | 67 => ⟨S8192x128, .f32⟩
  | 68 => ⟨S_, .f32⟩
  | 69 => ⟨S8192x128, .f32⟩
  | 70 => ⟨S8192x128, .f32⟩
  | 71 => ⟨S128x8192, .f32⟩
  | 72 => ⟨S8192x8192, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_17 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call3_cst : Ref sig .tc := ⟨.hbm, 135, rfl⟩
abbrev main_call3_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_22 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_23 : Ref sig .tc := ⟨.hbm, 155, rfl⟩
abbrev main_call4_v0 : Ref sig .tc := ⟨.hbm, 156, rfl⟩
abbrev main_call4_v1 : Ref sig .tc := ⟨.hbm, 157, rfl⟩
abbrev main_v110 : Ref sig .tc := ⟨.hbm, 158, rfl⟩
abbrev main_c_24 : Ref sig .tc := ⟨.hbm, 159, rfl⟩
abbrev main_v111 : Ref sig .tc := ⟨.hbm, 160, rfl⟩
abbrev main_v112 : Ref sig .tc := ⟨.hbm, 161, rfl⟩
abbrev main_c_25 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_26 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_28 : Ref sig .tc := ⟨.hbm, 179, rfl⟩
abbrev main_v127 : Ref sig .tc := ⟨.hbm, 180, rfl⟩
abbrev main_v128 : Ref sig .tc := ⟨.hbm, 181, rfl⟩
abbrev main_c_29 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_30 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call5_cst : Ref sig .tc := ⟨.hbm, 198, rfl⟩
abbrev main_call5_v0 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_31 : Ref sig .tc := ⟨.hbm, 208, rfl⟩
abbrev main_v151 : Ref sig .tc := ⟨.hbm, 209, rfl⟩
abbrev main_cst_32 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_33 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_34 : Ref sig .tc := ⟨.hbm, 218, rfl⟩
abbrev main_call6_v0 : Ref sig .tc := ⟨.hbm, 219, rfl⟩
abbrev main_call6_v1 : Ref sig .tc := ⟨.hbm, 220, rfl⟩
abbrev main_v158 : Ref sig .tc := ⟨.hbm, 221, rfl⟩
abbrev main_c_35 : Ref sig .tc := ⟨.hbm, 222, rfl⟩
abbrev main_v159 : Ref sig .tc := ⟨.hbm, 223, rfl⟩
abbrev main_v160 : Ref sig .tc := ⟨.hbm, 224, rfl⟩
abbrev main_c_36 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_c_37 : Ref sig .tc := ⟨.hbm, 231, rfl⟩
abbrev main_v166 : Ref sig .tc := ⟨.hbm, 232, rfl⟩
abbrev main_v167 : Ref sig .tc := ⟨.hbm, 233, rfl⟩
abbrev main_c_38 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_c_39 : Ref sig .tc := ⟨.hbm, 242, rfl⟩
abbrev main_v175 : Ref sig .tc := ⟨.hbm, 243, rfl⟩
abbrev main_v176 : Ref sig .tc := ⟨.hbm, 244, rfl⟩
abbrev main_c_40 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_cst_41 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_call7_cst : Ref sig .tc := ⟨.hbm, 261, rfl⟩
abbrev main_call7_v0 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_cst_42 : Ref sig .tc := ⟨.hbm, 271, rfl⟩
abbrev main_v199 : Ref sig .tc := ⟨.hbm, 272, rfl⟩
abbrev main_cst_43 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_44 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_cst_45 : Ref sig .tc := ⟨.hbm, 281, rfl⟩
abbrev main_call8_v0 : Ref sig .tc := ⟨.hbm, 282, rfl⟩
abbrev main_call8_v1 : Ref sig .tc := ⟨.hbm, 283, rfl⟩
abbrev main_v206 : Ref sig .tc := ⟨.hbm, 284, rfl⟩
abbrev main_c_46 : Ref sig .tc := ⟨.hbm, 285, rfl⟩
abbrev main_v207 : Ref sig .tc := ⟨.hbm, 286, rfl⟩
abbrev main_v208 : Ref sig .tc := ⟨.hbm, 287, rfl⟩
abbrev main_c_47 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_c_48 : Ref sig .tc := ⟨.hbm, 294, rfl⟩
abbrev main_v214 : Ref sig .tc := ⟨.hbm, 295, rfl⟩
abbrev main_v215 : Ref sig .tc := ⟨.hbm, 296, rfl⟩
abbrev main_c_49 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_c_50 : Ref sig .tc := ⟨.hbm, 305, rfl⟩
abbrev main_v223 : Ref sig .tc := ⟨.hbm, 306, rfl⟩
abbrev main_v224 : Ref sig .tc := ⟨.hbm, 307, rfl⟩
abbrev main_c_51 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_cst_52 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_call9_cst : Ref sig .tc := ⟨.hbm, 324, rfl⟩
abbrev main_call9_v0 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x128_S128x8192_1_0 : S8192x128.Transposes [1, 0] S128x8192
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x512_S512x128_S8192x128_1_0_0_1_n_n_wf : DotDims.WF S8192x512 S512x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x128_S8192x128_1_0_0_1_n_n_wf : DotDims.WF S8192x128 S128x128 S8192x128 [1] [0] [0] [1] [] []
  dot_S8192x128_S128x512_S8192x512_1_0_0_1_n_n_wf : DotDims.WF S8192x128 S128x512 S8192x512 [1] [0] [0] [1] [] []
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S8192x128_S128x8192_S8192x8192_1_0_0_1_n_n_wf : DotDims.WF S8192x128 S128x8192 S8192x8192 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Region0.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.Value
import Idealize.ShloMosaic.Lib.Tactic

/-! # Region 0: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of `X`'s window holds the point's row block at every point, for any proof data whose array is the entry
    contents and whose body leaves the block in place: where the block was not fetched its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of `W`'s window holds the whole of `W` at every point: it is fetched at the first point, its block
    index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole buffer -/

abbrev r0_0 : Rect S1024x512 := Rect.unit (s := S1024x512) ![0, 0] S1024x512.size inb_S1024x512_S1024x512_0_0
abbrev r0_1 : Rect S512x128 := Rect.unit (s := S512x128) ![0, 0] S512x128.size inb_S512x128_S512x128_0_0
abbrev r0_2 : Rect S1024x128 := Rect.unit (s := S1024x128) ![0, 0] S1024x128.size inb_S1024x128_S1024x128_0_0

/-! ## What the body leaves in the output buffer -/

/-- The output buffer after the body, from the two input blocks: the one store's payload, the rounded product. -/
def out0_2 (x0 : Vec F S1024x512 .bf16) (x1 : Vec F S512x128 .bf16) : Vec F S1024x128 .bf16 :=
  View.canon [⟨r0_2, k0_pay1 (View.ld x0 r0_0) (View.ld x1 r0_1)⟩]

/-- The store is of the whole buffer, so it covers it. -/
theorem cover0_2 (p0 : Vec F S1024x128 .bf16) (y : S1024x128.Idx) :
    ∃ pc ∈ ([⟨r0_2, p0⟩] : List (View.Piece (Elt F) S1024x128 .bf16)), y ∈ pc.1.set :=
  View.cover_of_tiled [⟨r0_2, p0⟩] S1024x128.size (by rfl) y

/-! ## The body's triple -/

set_option maxHeartbeats 1000000 in
/-- The body on whole buffers — the inputs' at contents reading `x0` and `x1`, the output's at anything — runs to a
    state where the inputs' are as they were and the output's reads `out0_2 x0 x1`. -/
theorem sound_kernel0 (c : Dev nD) (E : Set ℕ) (i : grid0.Coords)
    (arg1 : Memref sig .tc .vmem S1024x512 .bf16) (harg1 : arg1.IsWhole)
    (arg2 : Memref sig .tc .vmem S512x128 .bf16) (harg2 : arg2.IsWhole)
    (arg3 : Memref sig .tc .vmem S1024x128 .bf16) (harg3 : arg3.IsWhole)
    (x0 : Vec F S1024x512 .bf16) (x1 : Vec F S512x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t` each
    input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every window is held at the full share, and no point owes anything. -/
theorem q_eq0 (c : Dev nD) (w : Fin cfg0.W) : (dat0 V c).q w = fullShare := by dsimp only [dat0]
theorem owed_eq0 (c : Dev nD) (t) : (dat0 V c).owed t = 0 := by dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest make the invariant at the first point. -/
theorem phi_in0 (c : Dev nD) :
    iprop((∃ r, prngReg c r) ∗ Pipeline.scopedRest (Ix := Unit) (Name := ℕ) (U := UR sig nD τ) (Lvl := ℕ) spec0 c)
      ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- Leaving: the invariant at the last point gives them back. -/
theorem phi_out0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) spec0 c) := by
  rw [show (dat0 V c).Φ (Fin.last cfg0.N) = Pipeline.ΦA spec0 c from rfl]; unfold Pipeline.ΦA
  iintro ⟨Hr, Hp⟩
  isplitl [Hp]; · iexact Hp
  iexact Hr

end Region

end Cert.Kernel.Hand

end
-- ==== Proof.K.Region1.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 1: O = max(A·H + b, 0), the product accumulated over the four column blocks of A -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    point has the block index of the point before it, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The first conditional's condition (the second grid coordinate is 0), as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the second grid coordinate is 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle at the points whose second coordinate is not 3: the body stores nothing into it there, -/
theorem idleAt1_3 : ∀ t : Fin cfg1.N, ¬t.val % 4 = 3 → cfg1.idle 3 (grid1.coords t) = true := by decide +kernel
/-- live at the others, -/
theorem liveAt1_3 : ∀ t : Fin cfg1.N, t.val % 4 = 3 → cfg1.idle 3 (grid1.coords t) = false := by decide +kernel
/-- and written back only at those. -/
theorem noFlush1_3 (t : Fin cfg1.N) (h : ¬t.val % 4 = 3) : (cfg1.win 3).flush t = false := by
  cases hf : (cfg1.win 3).flush t with
  | false => rfl
  | true => exact absurd ((flush1_3 t).mp hf) h

/-! ## The body's accesses -/

abbrev rA1 : Rect S1024x2048 := Rect.unit (s := S1024x2048) ![0, 0] S1024x2048.size inb_S1024x2048_S1024x2048_0_0
abbrev rH1 : Rect S2048x128 := Rect.unit (s := S2048x128) ![0, 0] S2048x128.size inb_S2048x128_S2048x128_0_0
abbrev rB1 : Rect S1x128 := Rect.unit (s := S1x128) ![0, 0] S1x128.size inb_S1x128_S1x128_0_0
abbrev rO1 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA1 (x0 : Vec F S1024x2048 .bf16) (x1 : Vec F S2048x128 .bf16) : Vec F S1024x128 .f32 :=
  View.canon [⟨rO1, k1_pay2 (View.ld x0 rA1) (View.ld x1 rH1) (View.ld (View.canon [⟨rO1, k1_pay1 (F := F)⟩]) rO1)⟩, ⟨rO1, k1_pay1 (F := F)⟩]

/-- The accumulator after the body at any other point, from what the point before left in it (`a`). -/
def accB1 (x0 : Vec F S1024x2048 .bf16) (x1 : Vec F S2048x128 .bf16) (a : Vec F S1024x128 .f32) : Vec F S1024x128 .f32 :=
  View.canon [⟨rO1, k1_pay2 (View.ld x0 rA1) (View.ld x1 rH1) (View.ld a rO1)⟩]

/-- The output window's buffer after the body at a point whose second coordinate is 3, from the accumulator as
    the point leaves it (`a`) and the bias block. -/
def out1_3 (a : Vec F S1024x128 .f32) (x2 : Vec F S1x128 .f32) : Vec F S1024x128 .bf16 :=
  View.canon [⟨rO1, k1_pay3 (View.ld a rO1) (View.ld x2 rB1)⟩]

/-- One whole-buffer store covers the buffer (checked by evaluation). -/
theorem coverS1 (p0 : Vec F S1024x128 .f32) (y : S1024x128.Idx) :
    ∃ pc ∈ ([⟨rO1, p0⟩] : List (View.Piece (Elt F) S1024x128 .f32)), y ∈ pc.1.set :=
  View.cover_of_tiled [⟨rO1, p0⟩] S1024x128.size (by rfl) y

theorem coverS21 (p0 p1 : Vec F S1024x128 .f32) (y : S1024x128.Idx) :
    ∃ pc ∈ ([⟨rO1, p0⟩, ⟨rO1, p1⟩] : List (View.Piece (Elt F) S1024x128 .f32)), y ∈ pc.1.set := by
  obtain ⟨pc, hm, hy⟩ := coverS1 p0 y
  exact ⟨pc, List.mem_cons.mpr (Or.inl (List.mem_singleton.mp hm)), hy⟩

theorem coverO1 (p0 : Vec F S1024x128 .bf16) (y : S1024x128.Idx) :
    ∃ pc ∈ ([⟨rO1, p0⟩] : List (View.Piece (Elt F) S1024x128 .bf16)), y ∈ pc.1.set :=
  View.cover_of_tiled [⟨rO1, p0⟩] S1024x128.size (by rfl) y

/-! ## The body's triple, case by case -/

set_option maxHeartbeats 2000000 in
/-- Second coordinate 0: the accumulator, at anything, is zeroed and takes the product; the output window's
    buffer is not touched. -/
theorem sound_kernel1_A (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond1_0 i) (hc1 : ¬cond1_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA1 x0 x1)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS1 _)]
  exact View.read_writes_eq_canon _ _ _ (coverS21 _ _)

set_option maxHeartbeats 2000000 in
/-- Second coordinate 1 or 2: the product is added to what the accumulator held; the output window's buffer is
    not touched. -/
theorem sound_kernel1_B (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond1_0 i) (hc1 : ¬cond1_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB1 x0 x1 a)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS1 _)

set_option maxHeartbeats 2000000 in
/-- Second coordinate 3: the product is added to what the accumulator held, and the output window's buffer,
    at anything, is stored whole from the accumulator and the bias. -/
theorem sound_kernel1_C (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond1_0 i) (hc1 : cond1_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out1_3 (accB1 x0 x1 a) x2) ∗ owns (c : Thread nD τ) arg6 fullShare (accB1 x0 x1 a)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS1 _)]
    exact View.read_writes_eq_canon _ _ _ (coverO1 _)
  iexists _; isplitr
  swap; · iexact H6
  ipureintro
  exact View.read_writes_eq_canon _ _ _ (coverS1 _)

/-! ## The accumulation, point by point -/

/-- What the accumulator holds after the body at position `n` (as `accN1 (n + 1)`): at a point whose second
    coordinate is 0 the product of the point's blocks over zero, at any other the product added to what the
    point before left. (Before the first point, and past the grid, nothing is claimed: a placeholder.) -/
def accN1 (c : Dev nD) : ℕ → Vec F S1024x128 .f32
  | 0 => k1_pay1 (F := F)
  | n + 1 =>
    if h : n < cfg1.N then
      if n % 4 = 0 then accA1 (iblk1 V c 0 ⟨n, h⟩) (iblk1 V c 1 ⟨n, h⟩)
      else accB1 (iblk1 V c 0 ⟨n, h⟩) (iblk1 V c 1 ⟨n, h⟩) (accN1 c n)
    else k1_pay1 (F := F)

theorem accN1_A (c : Dev nD) (t : Fin cfg1.N) (h0 : t.val % 4 = 0) :
    accN1 V c (t.val + 1) = accA1 (iblk1 V c 0 t) (iblk1 V c 1 t) := by
  rw [accN1, dif_pos t.isLt, if_pos h0]

theorem accN1_B (c : Dev nD) (t : Fin cfg1.N) (h0 : ¬t.val % 4 = 0) :
    accN1 V c (t.val + 1) = accB1 (iblk1 V c 0 t) (iblk1 V c 1 t) (accN1 V c t.val) := by
  rw [accN1, dif_pos t.isLt, if_neg h0]

/-- The region's invariant before position `n`: the generator register at some state, every scoped buffer but
    the accumulator at anything, and the accumulator — at anything before a point whose second coordinate is 0
    (the body zeroes it there), else at what the point before left. -/
def Phi1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0]
    ∗ (∃ a : Vec F S1024x128 .f32, ⌜n % 4 ≠ 0 → a = accN1 V c n⌝
        ∗ owns (c : Thread nD τ) (Memref.whole cc1_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (accN1 V c (t.val + 1)) (iblk1 V c 2 t)
  Φ t := Phi1 V c t.val
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem Phi1_castSucc (c : Dev nD) (t : Fin cfg1.N) : (dat1 V c).Φ t.castSucc = Phi1 V c t.val := by
  dsimp only [dat1]; simp only [Fin.coe_castSucc]

theorem Phi1_succ (c : Dev nD) (t : Fin cfg1.N) : (dat1 V c).Φ t.succ = Phi1 V c (t.val + 1) := by
  dsimp only [dat1]; simp only [Fin.val_succ]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (accN1 V c (t.val + 1)) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_castSucc, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  unfold Phi1
  by_cases h0 : t.val % 4 = 0
  · have h3 : ¬t.val % 4 = 3 := by omega
    rw [Dat.leavesExact_idle (dat1 V c) 3 t (idleAt1_3 t h3) (noFlush1_3 t h3)]
    iintro ⟨⟨Hg, Hr, ⟨%a, -, HS⟩⟩, Ho, ⟨%d0, H0⟩, ⟨%d1, H1⟩, ⟨%d2, H2⟩, ⟨%d3, H3⟩⟩
    iapply (sound_kernel1_A c Set.univ (grid1.coords t) _ _ _ _ _ _ _ _ _ _ ((hcond1_0 t).mpr h0) (fun h => h3 ((hcond1_1 t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN1_A V c t h0).symm
    isplitl [Ho]; · iexact Ho
    isplitl [H0]; · iexact H0
    isplitl [H1]; · iexact H1
    isplitl [H2]; · iexact H2
    iexists d3; iexact H3
  · by_cases h3 : t.val % 4 = 3
    · rw [show (dat1 V c).leavesExact 3 t = owns (c : Thread nD τ) (st1_3 t) fullShare ((dat1 V c).after 3 t) from by
        unfold Dat.leavesExact; rw [liveAt1_3 t h3], after1_3, accN1_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel1_C c Set.univ (grid1.coords t) _ _ _ _ _ _ _ _ _ _ (fun h => h0 ((hcond1_0 t).mp h)) ((hcond1_1 t).mpr h3)
        (iblk1 V c 0 t) (iblk1 V c 1 t) (iblk1 V c 2 t) (accN1 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat1 V c) 3 t (idleAt1_3 t h3) (noFlush1_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel1_B c Set.univ (grid1.coords t) _ _ _ _ _ _ _ _ _ _ (fun h => h0 ((hcond1_0 t).mp h)) (fun h => h3 ((hcond1_1 t).mp h))
        (iblk1 V c 0 t) (iblk1 V c 1 t) (iblk1 V c 2 t) ((dat1 V c).before 3 t d3) (accN1 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN1_B V c t h0).symm
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is entered with — the generator register and every scoped buffer at anything — is the
    invariant before the first point. -/
theorem phi_in1 (c : Dev nD) :
    iprop((∃ r, prngReg c r) ∗ Pipeline.scopedRest (Ix := Unit) (Name := ℕ) (U := UR sig nD τ) (Lvl := ℕ) spec1 c)
      ⊢ ((dat1 V c).Φ 0 : sProp 𝕄) := by
  rw [show (dat1 V c).Φ 0 = Phi1 V c 0 from by dsimp only [dat1]; rfl]
  unfold Phi1
  rw [scopedRest1_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) spec1 c) := by
  rw [show (dat1 V c).Φ (Fin.last cfg1.N) = Phi1 V c cfg1.N from by dsimp only [dat1]; rfl]
  unfold Phi1
  rw [scopedRest1_split]
  simp only [owns_whole]
  iintro ⟨Hg, Hr, ⟨%a, -, Hs⟩⟩
  isplitl [Hg]; · iexact Hg
  isplitl [Hs]; · iexists a; iexact Hs
  iexact Hr

end Cert.Kernel.Hand

end
-- ==== Proof.K.Region2.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.Value
import Idealize.ShloMosaic.Lib.Tactic

/-! # Region 2: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer of `X`'s window holds the point's row block at every point, for any proof data whose array is the entry
    contents and whose body leaves the block in place: where the block was not fetched its index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The buffer of `W`'s window holds the whole of `W` at every point: it is fetched at the first point, its block
    index never moves, and the body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is of a whole buffer -/

abbrev r2_0 : Rect S1024x128 := Rect.unit (s := S1024x128) ![0, 0] S1024x128.size inb_S1024x128_S1024x128_0_0
abbrev r2_1 : Rect S128x128 := Rect.unit (s := S128x128) ![0, 0] S128x128.size inb_S128x128_S128x128_0_0
abbrev r2_2 : Rect S1024x128 := Rect.unit (s := S1024x128) ![0, 0] S1024x128.size inb_S1024x128_S1024x128_0_0

/-! ## What the body leaves in the output buffer -/

/-- The output buffer after the body, from the two input blocks: the one store's payload, the rounded product. -/
def out2_2 (x0 : Vec F S1024x128 .bf16) (x1 : Vec F S128x128 .bf16) : Vec F S1024x128 .bf16 :=
  View.canon [⟨r2_2, k2_pay1 (View.ld x0 r2_0) (View.ld x1 r2_1)⟩]

/-- The store is of the whole buffer, so it covers it. -/
theorem cover2_2 (p0 : Vec F S1024x128 .bf16) (y : S1024x128.Idx) :
    ∃ pc ∈ ([⟨r2_2, p0⟩] : List (View.Piece (Elt F) S1024x128 .bf16)), y ∈ pc.1.set :=
  View.cover_of_tiled [⟨r2_2, p0⟩] S1024x128.size (by rfl) y

/-! ## The body's triple -/

set_option maxHeartbeats 1000000 in
/-- The body on whole buffers — the inputs' at contents reading `x0` and `x1`, the output's at anything — runs to a
    state where the inputs' are as they were and the output's reads `out2_2 x0 x1`. -/
theorem sound_kernel2 (c : Dev nD) (E : Set ℕ) (i : grid2.Coords)
    (arg1 : Memref sig .tc .vmem S1024x128 .bf16) (harg1 : arg1.IsWhole)
    (arg2 : Memref sig .tc .vmem S128x128 .bf16) (harg2 : arg2.IsWhole)
    (arg3 : Memref sig .tc .vmem S1024x128 .bf16) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`: the arrays as the region finds them; after the body at point `t` each
    input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Every window is held at the full share, and no point owes anything. -/
theorem q_eq2 (c : Dev nD) (w : Fin cfg2.W) : (dat2 V c).q w = fullShare := by dsimp only [dat2]
theorem owed_eq2 (c : Dev nD) (t) : (dat2 V c).owed t = 0 := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- Entering: the generator register and the scoped rest make the invariant at the first point. -/
theorem phi_in2 (c : Dev nD) :
    iprop((∃ r, prngReg c r) ∗ Pipeline.scopedRest (Ix := Unit) (Name := ℕ) (U := UR sig nD τ) (Lvl := ℕ) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

/-- Leaving: the invariant at the last point gives them back. -/
theorem phi_out2 (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) spec2 c) := by
  rw [show (dat2 V c).Φ (Fin.last cfg2.N) = Pipeline.ΦA spec2 c from rfl]; unfold Pipeline.ΦA
  iintro ⟨Hr, Hp⟩
  isplitl [Hp]; · iexact Hp
  iexact Hr

end Region

end Cert.Kernel.Hand

end
-- ==== Proof.K.Region3.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 3: O = max(A·H + b, 0), the product accumulated over the four column blocks of A -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: an unfetched
    point has the block index of the point before it, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions, decided over the grid -/

/-- The first conditional's condition (the second grid coordinate is 0), as the body computes it. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's condition (the second grid coordinate is 3). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- The output window is idle at the points whose second coordinate is not 3: the body stores nothing into it there, -/
theorem idleAt3_3 : ∀ t : Fin cfg3.N, ¬t.val % 4 = 3 → cfg3.idle 3 (grid3.coords t) = true := by decide +kernel
/-- live at the others, -/
theorem liveAt3_3 : ∀ t : Fin cfg3.N, t.val % 4 = 3 → cfg3.idle 3 (grid3.coords t) = false := by decide +kernel
/-- and written back only at those. -/
theorem noFlush3_3 (t : Fin cfg3.N) (h : ¬t.val % 4 = 3) : (cfg3.win 3).flush t = false := by
  cases hf : (cfg3.win 3).flush t with
  | false => rfl
  | true => exact absurd ((flush3_3 t).mp hf) h

/-! ## The body's accesses -/

abbrev rA3 : Rect S1024x2048 := Rect.unit (s := S1024x2048) ![0, 0] S1024x2048.size inb_S1024x2048_S1024x2048_0_0
abbrev rH3 : Rect S2048x128 := Rect.unit (s := S2048x128) ![0, 0] S2048x128.size inb_S2048x128_S2048x128_0_0
abbrev rB3 : Rect S1x128 := Rect.unit (s := S1x128) ![0, 0] S1x128.size inb_S1x128_S1x128_0_0
abbrev rO3 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA3 (x0 : Vec F S1024x2048 .bf16) (x1 : Vec F S2048x128 .bf16) : Vec F S1024x128 .f32 :=
  View.canon [⟨rO3, k3_pay2 (View.ld x0 rA3) (View.ld x1 rH3) (View.ld (View.canon [⟨rO3, k3_pay1 (F := F)⟩]) rO3)⟩, ⟨rO3, k3_pay1 (F := F)⟩]

/-- The accumulator after the body at any other point, from what the point before left in it (`a`). -/
def accB3 (x0 : Vec F S1024x2048 .bf16) (x1 : Vec F S2048x128 .bf16) (a : Vec F S1024x128 .f32) : Vec F S1024x128 .f32 :=
  View.canon [⟨rO3, k3_pay2 (View.ld x0 rA3) (View.ld x1 rH3) (View.ld a rO3)⟩]

/-- The output window's buffer after the body at a point whose second coordinate is 3, from the accumulator as
    the point leaves it (`a`) and the bias block. -/
def out3_3 (a : Vec F S1024x128 .f32) (x2 : Vec F S1x128 .f32) : Vec F S1024x128 .bf16 :=
  View.canon [⟨rO3, k3_pay3 (View.ld a rO3) (View.ld x2 rB3)⟩]

/-- One whole-buffer store covers the buffer (checked by evaluation). -/
theorem coverS3 (p0 : Vec F S1024x128 .f32) (y : S1024x128.Idx) :
    ∃ pc ∈ ([⟨rO3, p0⟩] : List (View.Piece (Elt F) S1024x128 .f32)), y ∈ pc.1.set :=
  View.cover_of_tiled [⟨rO3, p0⟩] S1024x128.size (by rfl) y

theorem coverS23 (p0 p1 : Vec F S1024x128 .f32) (y : S1024x128.Idx) :
    ∃ pc ∈ ([⟨rO3, p0⟩, ⟨rO3, p1⟩] : List (View.Piece (Elt F) S1024x128 .f32)), y ∈ pc.1.set := by
  obtain ⟨pc, hm, hy⟩ := coverS3 p0 y
  exact ⟨pc, List.mem_cons.mpr (Or.inl (List.mem_singleton.mp hm)), hy⟩

theorem coverO3 (p0 : Vec F S1024x128 .bf16) (y : S1024x128.Idx) :
    ∃ pc ∈ ([⟨rO3, p0⟩] : List (View.Piece (Elt F) S1024x128 .bf16)), y ∈ pc.1.set :=
  View.cover_of_tiled [⟨rO3, p0⟩] S1024x128.size (by rfl) y

/-! ## The body's triple, case by case -/

set_option maxHeartbeats 2000000 in
/-- Second coordinate 0: the accumulator, at anything, is zeroed and takes the product; the output window's
    buffer is not touched. -/
theorem sound_kernel3_A (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond3_0 i) (hc1 : ¬cond3_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA3 x0 x1)) -∗ K ⟨⟩))
      ⊢ wp frame (wpE (defs₀ (F := F)) Variants.none c none) E (cc3__spmm_kernel i arg2 harg2 arg3 harg3 arg4 harg4 arg5 harg5 arg6 harg6) K := by
  simp only [cc3__spmm_kernel_eq_skeleton]; unfold cc3__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS3 _)]
  exact View.read_writes_eq_canon _ _ _ (coverS23 _ _)

set_option maxHeartbeats 2000000 in
/-- Second coordinate 1 or 2: the product is added to what the accumulator held; the output window's buffer is
    not touched. -/
theorem sound_kernel3_B (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond3_0 i) (hc1 : ¬cond3_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB3 x0 x1 a)) -∗ K ⟨⟩))
      ⊢ wp frame (wpE (defs₀ (F := F)) Variants.none c none) E (cc3__spmm_kernel i arg2 harg2 arg3 harg3 arg4 harg4 arg5 harg5 arg6 harg6) K := by
  simp only [cc3__spmm_kernel_eq_skeleton]; unfold cc3__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS3 _)

set_option maxHeartbeats 2000000 in
/-- Second coordinate 3: the product is added to what the accumulator held, and the output window's buffer,
    at anything, is stored whole from the accumulator and the bias. -/
theorem sound_kernel3_C (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond3_0 i) (hc1 : cond3_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out3_3 (accB3 x0 x1 a) x2) ∗ owns (c : Thread nD τ) arg6 fullShare (accB3 x0 x1 a)) -∗ K ⟨⟩))
      ⊢ wp frame (wpE (defs₀ (F := F)) Variants.none c none) E (cc3__spmm_kernel i arg2 harg2 arg3 harg3 arg4 harg4 arg5 harg5 arg6 harg6) K := by
  simp only [cc3__spmm_kernel_eq_skeleton]; unfold cc3__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS3 _)]
    exact View.read_writes_eq_canon _ _ _ (coverO3 _)
  iexists _; isplitr
  swap; · iexact H6
  ipureintro
  exact View.read_writes_eq_canon _ _ _ (coverS3 _)

/-! ## The accumulation, point by point -/

/-- What the accumulator holds after the body at position `n` (as `accN3 (n + 1)`): at a point whose second
    coordinate is 0 the product of the point's blocks over zero, at any other the product added to what the
    point before left. (Before the first point, and past the grid, nothing is claimed: a placeholder.) -/
def accN3 (c : Dev nD) : ℕ → Vec F S1024x128 .f32
  | 0 => k3_pay1 (F := F)
  | n + 1 =>
    if h : n < cfg3.N then
      if n % 4 = 0 then accA3 (iblk3 V c 0 ⟨n, h⟩) (iblk3 V c 1 ⟨n, h⟩)
      else accB3 (iblk3 V c 0 ⟨n, h⟩) (iblk3 V c 1 ⟨n, h⟩) (accN3 c n)
    else k3_pay1 (F := F)

theorem accN3_A (c : Dev nD) (t : Fin cfg3.N) (h0 : t.val % 4 = 0) :
    accN3 V c (t.val + 1) = accA3 (iblk3 V c 0 t) (iblk3 V c 1 t) := by
  rw [accN3, dif_pos t.isLt, if_pos h0]

theorem accN3_B (c : Dev nD) (t : Fin cfg3.N) (h0 : ¬t.val % 4 = 0) :
    accN3 V c (t.val + 1) = accB3 (iblk3 V c 0 t) (iblk3 V c 1 t) (accN3 V c t.val) := by
  rw [accN3, dif_pos t.isLt, if_neg h0]

/-- The region's invariant before position `n`: the generator register at some state, every scoped buffer but
    the accumulator at anything, and the accumulator — at anything before a point whose second coordinate is 0
    (the body zeroes it there), else at what the point before left. -/
def Phi3 (c : Dev nD) (n : ℕ) : sProp 𝕄 :=
  iprop((∃ r, prngReg c r)
    ∗ Pipeline.scopedRestBut (Ix := Unit) (Name := ℕ) (U := UR sig nD τ) (Lvl := ℕ) (Val := Elt F) spec3 c [cc3_scratch0]
    ∗ (∃ a : Vec F S1024x128 .f32, ⌜n % 4 ≠ 0 → a = accN3 V c n⌝
        ∗ owns (c : Thread nD τ) (Memref.whole cc3_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (accN3 V c (t.val + 1)) (iblk3 V c 2 t)
  Φ t := Phi3 V c t.val
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem Phi3_castSucc (c : Dev nD) (t : Fin cfg3.N) : (dat3 V c).Φ t.castSucc = Phi3 V c t.val := by
  dsimp only [dat3]; simp only [Fin.coe_castSucc]

theorem Phi3_succ (c : Dev nD) (t : Fin cfg3.N) : (dat3 V c).Φ t.succ = Phi3 V c (t.val + 1) := by
  dsimp only [dat3]; simp only [Fin.val_succ]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (accN3 V c (t.val + 1)) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [Phi3_castSucc, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  unfold Phi3
  by_cases h0 : t.val % 4 = 0
  · have h3 : ¬t.val % 4 = 3 := by omega
    rw [Dat.leavesExact_idle (dat3 V c) 3 t (idleAt3_3 t h3) (noFlush3_3 t h3)]
    iintro ⟨⟨Hg, Hr, ⟨%a, -, HS⟩⟩, Ho, ⟨%d0, H0⟩, ⟨%d1, H1⟩, ⟨%d2, H2⟩, ⟨%d3, H3⟩⟩
    iapply (sound_kernel3_A c Set.univ (grid3.coords t) _ _ _ _ _ _ _ _ _ _ ((hcond3_0 t).mpr h0) (fun h => h3 ((hcond3_1 t).mp h))
      (iblk3 V c 0 t) (iblk3 V c 1 t) (iblk3 V c 2 t) ((dat3 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN3_A V c t h0).symm
    isplitl [Ho]; · iexact Ho
    isplitl [H0]; · iexact H0
    isplitl [H1]; · iexact H1
    isplitl [H2]; · iexact H2
    iexists d3; iexact H3
  · by_cases h3 : t.val % 4 = 3
    · rw [show (dat3 V c).leavesExact 3 t = owns (c : Thread nD τ) (st3_3 t) fullShare ((dat3 V c).after 3 t) from by
        unfold Dat.leavesExact; rw [liveAt3_3 t h3], after3_3, accN3_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel3_C c Set.univ (grid3.coords t) _ _ _ _ _ _ _ _ _ _ (fun h => h0 ((hcond3_0 t).mp h)) ((hcond3_1 t).mpr h3)
        (iblk3 V c 0 t) (iblk3 V c 1 t) (iblk3 V c 2 t) (accN3 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat3 V c) 3 t (idleAt3_3 t h3) (noFlush3_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel3_B c Set.univ (grid3.coords t) _ _ _ _ _ _ _ _ _ _ (fun h => h0 ((hcond3_0 t).mp h)) (fun h => h3 ((hcond3_1 t).mp h))
        (iblk3 V c 0 t) (iblk3 V c 1 t) (iblk3 V c 2 t) ((dat3 V c).before 3 t d3) (accN3 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN3_B V c t h0).symm
      isplitl [Ho]; · iexact Ho
      isplitl [H0]; · iexact H0
      isplitl [H1]; · iexact H1
      isplitl [H2]; · iexact H2
      iexists d3; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is entered with — the generator register and every scoped buffer at anything — is the
    invariant before the first point. -/
theorem phi_in3 (c : Dev nD) :
    iprop((∃ r, prngReg c r) ∗ Pipeline.scopedRest (Ix := Unit) (Name := ℕ) (U := UR sig nD τ) (Lvl := ℕ) spec3 c)
      ⊢ ((dat3 V c).Φ 0 : sProp 𝕄) := by
  rw [show (dat3 V c).Φ 0 = Phi3 V c 0 from by dsimp only [dat3]; rfl]
  unfold Phi3
  rw [scopedRest3_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out3 (c : Dev nD) :
    ((dat3 V c).Φ (Fin.last cfg3.N) : sProp 𝕄)
      ⊢ iprop((∃ r, prngReg c r) ∗ Pipeline.scopedRest (Ix := Unit) (Name := ℕ) (U := UR sig nD τ) (Lvl := ℕ) spec3 c) := by
  rw [show (dat3 V c).Φ (Fin.last cfg3.N) = Phi3 V c cfg3.N from by dsimp only [dat3]; rfl]
  unfold Phi3
  rw [scopedRest3_split]
  simp only [owns_whole]
  iintro ⟨Hg, Hr, ⟨%a, -, Hs⟩⟩
  isplitl [Hg]; · iexact Hg
  isplitl [Hs]; · iexists a; iexact Hs
  iexact Hr

end Cert.Kernel.Hand

end
-- ==== Proof.K.Region4.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.Value
import Idealize.ShloMosaic.Lib.Tactic

/-! # Region 4: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The buffer of `X`'s window holds the point's row block at every point, for any proof data whose array is the entry
    contents and whose body leaves the block in place: where the block was not fetched its index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The buffer of `W`'s window holds the whole of `W` at every point: it is fetched at the first point, its block
    index never moves, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is of a whole buffer -/

abbrev r4_0 : Rect S1024x128 := Rect.unit (s := S1024x128) ![0, 0] S1024x128.size inb_S1024x128_S1024x128_0_0
abbrev r4_1 : Rect S128x128 := Rect.unit (s := S128x128) ![0, 0] S128x128.size inb_S128x128_S128x128_0_0
abbrev r4_2 : Rect S1024x128 := Rect.unit (s := S1024x128) ![0, 0] S1024x128.size inb_S1024x128_S1024x128_0_0

/-! ## What the body leaves in the output buffer -/

/-- The output buffer after the body, from the two input blocks: the one store's payload, the rounded product. -/
def out4_2 (x0 : Vec F S1024x128 .bf16) (x1 : Vec F S128x128 .bf16) : Vec F S1024x128 .bf16 :=
  View.canon [⟨r4_2, k4_pay1 (View.ld x0 r4_0) (View.ld x1 r4_1)⟩]

/-- The store is of the whole buffer, so it covers it. -/
theorem cover4_2 (p0 : Vec F S1024x128 .bf16) (y : S1024x128.Idx) :
    ∃ pc ∈ ([⟨r4_2, p0⟩] : List (View.Piece (Elt F) S1024x128 .bf16)), y ∈ pc.1.set :=
  View.cover_of_tiled [⟨r4_2, p0⟩] S1024x128.size (by rfl) y

/-! ## The body's triple -/

set_option maxHeartbeats 1000000 in
/-- The body on whole buffers — the inputs' at contents reading `x0` and `x1`, the output's at anything — runs to a
    state where the inputs' are as they were and the output's reads `out4_2 x0 x1`. -/
theorem sound_kernel4 (c : Dev nD) (E : Set ℕ) (i : grid4.Coords)
    (arg1 : Memref sig .tc .vmem S1024x128 .bf16) (harg1 : arg1.IsWhole)
    (arg2 : Memref sig .tc .vmem S128x128 .bf16) (harg2 : arg2.IsWhole)
    (arg3 : Memref sig .tc .vmem S1024x128 .bf16) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core `c`: the arrays as the region finds them; after the body at point `t` each
    input's buffer at its block and the output's at `out4_2` of the two input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- Every window is held at the full share, and no point owes anything. -/
theorem q_eq4 (c : Dev nD) (w : Fin cfg4.W) : (dat4 V c).q w = fullShare := by dsimp only [dat4]
theorem owed_eq4 (c : Dev nD) (t) : (dat4 V c).owed t = 0 := by dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

/-- Each input's buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- Entering: the generator register and the scoped rest make the invariant at the first point. -/
theorem phi_in4 (c : Dev nD) :
    iprop((∃ r, prngReg c r) ∗ Pipeline.scopedRest (Ix := Unit) (Name := ℕ) (U := UR sig nD τ) (Lvl := ℕ) spec4 c)
      ⊢ ((dat4 V c).Φ 0 : sProp 𝕄) := by
  rw [show (dat4 V c).Φ 0 = Pipeline.ΦA spec4 c from rfl]; unfold Pipeline.ΦA
  iintro ⟨Hp, Hr⟩
  isplitl [Hr]; · iexact Hr
  iexact Hp

/-- Leaving: the invariant at the last point gives them back. -/
theorem phi_out4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) spec4 c) := by
  rw [show (dat4 V c).Φ (Fin.last cfg4.N) = Pipeline.ΦA spec4 c from rfl]; unfold Pipeline.ΦA
  iintro ⟨Hr, Hp⟩
  isplitl [Hp]; · iexact Hp
  iexact Hr

end Region

end Cert.Kernel.Hand

end
-- ==== Proof.K.Region5.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 5: O = max(A·H + b, 0), the product accumulated over the four column blocks of A -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not: an unfetched
    point has the block index of the point before it, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions, decided over the grid -/

/-- The first conditional's condition (the second grid coordinate is 0), as the body computes it. -/
abbrev cond5_0 (i : grid5.Coords) : Prop := (Scalar.cmpi .ne (Scalar.extui (Scalar.cmpi .eq (BitVec.ofNat 32 (i 1).val) 0#32)) 0#32) = 1#1
/-- It holds at the points ≡ 0 (mod 4). -/
theorem hcond5_0 : ∀ t : Fin cfg5.N, cond5_0 (grid5.coords t) ↔ t.val % 4 = 0 :=
  (by decide +kernel : ∀ t : Fin grid5.N, cond5_0 (grid5.coords t) ↔ t.val % 4 = 0)

/-- The second conditional's condition (the second grid coordinate is 3). -/
abbrev cond5_1 (i : grid5.Coords) : Prop := k5_cond2 i = 1#1
/-- It holds at the points ≡ 3 (mod 4). -/
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- The output window is idle at the points whose second coordinate is not 3: the body stores nothing into it there, -/
theorem idleAt5_3 : ∀ t : Fin cfg5.N, ¬t.val % 4 = 3 → cfg5.idle 3 (grid5.coords t) = true := by decide +kernel
/-- live at the others, -/
theorem liveAt5_3 : ∀ t : Fin cfg5.N, t.val % 4 = 3 → cfg5.idle 3 (grid5.coords t) = false := by decide +kernel
/-- and written back only at those. -/
theorem noFlush5_3 (t : Fin cfg5.N) (h : ¬t.val % 4 = 3) : (cfg5.win 3).flush t = false := by
  cases hf : (cfg5.win 3).flush t with
  | false => rfl
  | true => exact absurd ((flush5_3 t).mp hf) h

/-! ## The body's accesses -/

abbrev rA5 : Rect S1024x2048 := Rect.unit (s := S1024x2048) ![0, 0] S1024x2048.size inb_S1024x2048_S1024x2048_0_0
abbrev rH5 : Rect S2048x128 := Rect.unit (s := S2048x128) ![0, 0] S2048x128.size inb_S2048x128_S2048x128_0_0
abbrev rB5 : Rect S1x128 := Rect.unit (s := S1x128) ![0, 0] S1x128.size inb_S1x128_S1x128_0_0
abbrev rO5 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA5 (x0 : Vec F S1024x2048 .bf16) (x1 : Vec F S2048x128 .bf16) : Vec F S1024x128 .f32 :=
  View.canon [⟨rO5, k5_pay2 (View.ld x0 rA5) (View.ld x1 rH5) (View.ld (View.canon [⟨rO5, k5_pay1 (F := F)⟩]) rO5)⟩, ⟨rO5, k5_pay1 (F := F)⟩]

/-- The accumulator after the body at any other point, from what the point before left in it (`a`). -/
def accB5 (x0 : Vec F S1024x2048 .bf16) (x1 : Vec F S2048x128 .bf16) (a : Vec F S1024x128 .f32) : Vec F S1024x128 .f32 :=
  View.canon [⟨rO5, k5_pay2 (View.ld x0 rA5) (View.ld x1 rH5) (View.ld a rO5)⟩]

/-- The output window's buffer after the body at a point whose second coordinate is 3, from the accumulator as
    the point leaves it (`a`) and the bias block. -/
def out5_3 (a : Vec F S1024x128 .f32) (x2 : Vec F S1x128 .f32) : Vec F S1024x128 .bf16 :=
  View.canon [⟨rO5, k5_pay3 (View.ld a rO5) (View.ld x2 rB5)⟩]

/-- One whole-buffer store covers the buffer (checked by evaluation). -/
theorem coverS5 (p0 : Vec F S1024x128 .f32) (y : S1024x128.Idx) :
    ∃ pc ∈ ([⟨rO5, p0⟩] : List (View.Piece (Elt F) S1024x128 .f32)), y ∈ pc.1.set :=
  View.cover_of_tiled [⟨rO5, p0⟩] S1024x128.size (by rfl) y

theorem coverS25 (p0 p1 : Vec F S1024x128 .f32) (y : S1024x128.Idx) :
    ∃ pc ∈ ([⟨rO5, p0⟩, ⟨rO5, p1⟩] : List (View.Piece (Elt F) S1024x128 .f32)), y ∈ pc.1.set := by
  obtain ⟨pc, hm, hy⟩ := coverS5 p0 y
  exact ⟨pc, List.mem_cons.mpr (Or.inl (List.mem_singleton.mp hm)), hy⟩

theorem coverO5 (p0 : Vec F S1024x128 .bf16) (y : S1024x128.Idx) :
    ∃ pc ∈ ([⟨rO5, p0⟩] : List (View.Piece (Elt F) S1024x128 .bf16)), y ∈ pc.1.set :=
  View.cover_of_tiled [⟨rO5, p0⟩] S1024x128.size (by rfl) y

/-! ## The body's triple, case by case -/

set_option maxHeartbeats 2000000 in
/-- Second coordinate 0: the accumulator, at anything, is zeroed and takes the product; the output window's
    buffer is not touched. -/
theorem sound_kernel5_A (c : Dev nD) (E : Set ℕ) (i : grid5.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond5_0 i) (hc1 : ¬cond5_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA5 x0 x1)) -∗ K ⟨⟩))
      ⊢ wp frame (wpE (defs₀ (F := F)) Variants.none c none) E (cc5__spmm_kernel i arg2 harg2 arg3 harg3 arg4 harg4 arg5 harg5 arg6 harg6) K := by
  simp only [cc5__spmm_kernel_eq_skeleton]; unfold cc5__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS5 _)]
  exact View.read_writes_eq_canon _ _ _ (coverS25 _ _)

set_option maxHeartbeats 2000000 in
/-- Second coordinate 1 or 2: the product is added to what the accumulator held; the output window's buffer is
    not touched. -/
theorem sound_kernel5_B (c : Dev nD) (E : Set ℕ) (i : grid5.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond5_0 i) (hc1 : ¬cond5_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB5 x0 x1 a)) -∗ K ⟨⟩))
      ⊢ wp frame (wpE (defs₀ (F := F)) Variants.none c none) E (cc5__spmm_kernel i arg2 harg2 arg3 harg3 arg4 harg4 arg5 harg5 arg6 harg6) K := by
  simp only [cc5__spmm_kernel_eq_skeleton]; unfold cc5__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS5 _)

set_option maxHeartbeats 2000000 in
/-- Second coordinate 3: the product is added to what the accumulator held, and the output window's buffer,
    at anything, is stored whole from the accumulator and the bias. -/
theorem sound_kernel5_C (c : Dev nD) (E : Set ℕ) (i : grid5.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond5_0 i) (hc1 : cond5_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out5_3 (accB5 x0 x1 a) x2) ∗ owns (c : Thread nD τ) arg6 fullShare (accB5 x0 x1 a)) -∗ K ⟨⟩))
      ⊢ wp frame (wpE (defs₀ (F := F)) Variants.none c none) E (cc5__spmm_kernel i arg2 harg2 arg3 harg3 arg4 harg4 arg5 harg5 arg6 harg6) K := by
  simp only [cc5__spmm_kernel_eq_skeleton]; unfold cc5__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS5 _)]
    exact View.read_writes_eq_canon _ _ _ (coverO5 _)
  iexists _; isplitr
  swap; · iexact H6
  ipureintro
  exact View.read_writes_eq_canon _ _ _ (coverS5 _)

/-! ## The accumulation, point by point -/

/-- What the accumulator holds after the body at position `n` (as `accN5 (n + 1)`): at a point whose second
    coordinate is 0 the product of the point's blocks over zero, at any other the product added to what the
    point before left. (Before the first point, and past the grid, nothing is claimed: a placeholder.) -/
def accN5 (c : Dev nD) : ℕ → Vec F S1024x128 .f32
  | 0 => k5_pay1 (F := F)
  | n + 1 =>
    if h : n < cfg5.N then
      if n % 4 = 0 then accA5 (iblk5 V c 0 ⟨n, h⟩) (iblk5 V c 1 ⟨n, h⟩)
      else accB5 (iblk5 V c 0 ⟨n, h⟩) (iblk5 V c 1 ⟨n, h⟩) (accN5 c n)
    else k5_pay1 (F := F)

theorem accN5_A (c : Dev nD) (t : Fin cfg5.N) (h0 : t.val % 4 = 0) :
    accN5 V c (t.val + 1) = accA5 (iblk5 V c 0 t) (iblk5 V c 1 t) := by
  rw [accN5, dif_pos t.isLt, if_pos h0]

theorem accN5_B (c : Dev nD) (t : Fin cfg5.N) (h0 : ¬t.val % 4 = 0) :
    accN5 V c (t.val + 1) = accB5 (iblk5 V c 0 t) (iblk5 V c 1 t) (accN5 V c t.val) := by
  rw [accN5, dif_pos t.isLt, if_neg h0]

/-- The region's invariant before position `n`: the generator register at some state, every scoped buffer but
    the accumulator at anything, and the accumulator — at anything before a point whose second coordinate is 0
    (the body zeroes it there), else at what the point before left. -/
def Phi5 (c : Dev nD) (n : ℕ) : sProp 𝕄 :=
  iprop((∃ r, prngReg c r)
    ∗ Pipeline.scopedRestBut (Ix := Unit) (Name := ℕ) (U := UR sig nD τ) (Lvl := ℕ) (Val := Elt F) spec5 c [cc5_scratch0]
    ∗ (∃ a : Vec F S1024x128 .f32, ⌜n % 4 ≠ 0 → a = accN5 V c n⌝
        ∗ owns (c : Thread nD τ) (Memref.whole cc5_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (accN5 V c (t.val + 1)) (iblk5 V c 2 t)
  Φ t := Phi5 V c t.val
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem Phi5_castSucc (c : Dev nD) (t : Fin cfg5.N) : (dat5 V c).Φ t.castSucc = Phi5 V c t.val := by
  dsimp only [dat5]; simp only [Fin.coe_castSucc]

theorem Phi5_succ (c : Dev nD) (t : Fin cfg5.N) : (dat5 V c).Φ t.succ = Phi5 V c (t.val + 1) := by
  dsimp only [dat5]; simp only [Fin.val_succ]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (accN5 V c (t.val + 1)) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [Phi5_castSucc, Phi5_succ]
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  rw [show (dat5 V c).leavesExact 2 t = owns (c : Thread nD τ) (st5_2 t) fullShare ((dat5 V c).after 2 t) from by
    unfold Dat.leavesExact; rw [liveAt5_2 t], after5_2]
  unfold Phi5
  by_cases h0 : t.val % 4 = 0
  · have h3 : ¬t.val % 4 = 3 := by omega
    rw [Dat.leavesExact_idle (dat5 V c) 3 t (idleAt5_3 t h3) (noFlush5_3 t h3)]
    iintro ⟨⟨Hg, Hr, ⟨%a, -, HS⟩⟩, Ho, ⟨%d0, H0⟩, ⟨%d1, H1⟩, ⟨%d2, H2⟩, ⟨%d3, H3⟩⟩
    iapply (sound_kernel5_A c Set.univ (grid5.coords t) _ _ _ _ _ _ _ _ _ _ ((hcond5_0 t).mpr h0) (fun h => h3 ((hcond5_1 t).mp h))
      (iblk5 V c 0 t) (iblk5 V c 1 t) (iblk5 V c 2 t) ((dat5 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN5_A V c t h0).symm
    isplitl [Ho]; · iexact Ho
    isplitl [H0]; · iexact H0
    isplitl [H1]; · iexact H1
    isplitl [H2]; · iexact H2
    iexists d3; iexact H3
  · by_cases h3 : t.val % 4 = 3
    · rw [show (dat5 V c).leavesExact 3 t = owns (c : Thread nD τ) (st5_3 t) fullShare ((dat5 V c).after 3 t) from by
        unfold Dat.leavesExact; rw [liveAt5_3 t h3], after5_3, accN5_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel5_C c Set.univ (grid5.coords t) _ _ _ _ _ _ _ _ _ _ (fun h => h0 ((hcond5_0 t).mp h)) ((hcond5_1 t).mpr h3)
        (iblk5 V c 0 t) (iblk5 V c 1 t) (iblk5 V c 2 t) (accN5 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat5 V c) 3 t (idleAt5_3 t h3) (noFlush5_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel5_B c Set.univ (grid5.coords t) _ _ _ _ _ _ _ _ _ _ (fun h => h0 ((hcond5_0 t).mp h)) (fun h => h3 ((hcond5_1 t).mp h))
        (iblk5 V c 0 t) (iblk5 V c 1 t) (iblk5 V c 2 t) ((dat5 V c).before 3 t d3) (accN5 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN5_B V c t h0).symm
      isplitl [Ho]; · iexact Ho
      isplitl [H0]; · iexact H0
      isplitl [H1]; · iexact H1
      isplitl [H2]; · iexact H2
      iexists d3; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- What the region is entered with — the generator register and every scoped buffer at anything — is the
    invariant before the first point. -/
theorem phi_in5 (c : Dev nD) :
    iprop((∃ r, prngReg c r) ∗ Pipeline.scopedRest (Ix := Unit) (Name := ℕ) (U := UR sig nD τ) (Lvl := ℕ) spec5 c)
      ⊢ ((dat5 V c).Φ 0 : sProp 𝕄) := by
  rw [show (dat5 V c).Φ 0 = Phi5 V c 0 from by dsimp only [dat5]; rfl]
  unfold Phi5
  rw [scopedRest5_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out5 (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) spec5 c) := by
  rw [show (dat5 V c).Φ (Fin.last cfg5.N) = Phi5 V c cfg5.N from by dsimp only [dat5]; rfl]
  unfold Phi5
  rw [scopedRest5_split]
  simp only [owns_whole]
  iintro ⟨Hg, Hr, ⟨%a, -, Hs⟩⟩
  isplitl [Hg]; · iexact Hg
  isplitl [Hs]; · iexists a; iexact Hs
  iexact Hr

end Cert.Kernel.Hand

end
-- ==== Proof.K.Region6.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.Value
import Idealize.ShloMosaic.Lib.Tactic

/-! # Region 6: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The buffer of `X`'s window holds the point's row block at every point, for any proof data whose array is the entry
    contents and whose body leaves the block in place: where the block was not fetched its index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The buffer of `W`'s window holds the whole of `W` at every point: it is fetched at the first point, its block
    index never moves, and the body leaves it in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is of a whole buffer -/

abbrev r6_0 : Rect S1024x128 := Rect.unit (s := S1024x128) ![0, 0] S1024x128.size inb_S1024x128_S1024x128_0_0
abbrev r6_1 : Rect S128x512 := Rect.unit (s := S128x512) ![0, 0] S128x512.size inb_S128x512_S128x512_0_0
abbrev r6_2 : Rect S1024x512 := Rect.unit (s := S1024x512) ![0, 0] S1024x512.size inb_S1024x512_S1024x512_0_0

/-! ## What the body leaves in the output buffer -/

/-- The output buffer after the body, from the two input blocks: the one store's payload, the rounded product. -/
def out6_2 (x0 : Vec F S1024x128 .bf16) (x1 : Vec F S128x512 .bf16) : Vec F S1024x512 .bf16 :=
  View.canon [⟨r6_2, k6_pay1 (View.ld x0 r6_0) (View.ld x1 r6_1)⟩]

/-- The store is of the whole buffer, so it covers it. -/
theorem cover6_2 (p0 : Vec F S1024x512 .bf16) (y : S1024x512.Idx) :
    ∃ pc ∈ ([⟨r6_2, p0⟩] : List (View.Piece (Elt F) S1024x512 .bf16)), y ∈ pc.1.set :=
  View.cover_of_tiled [⟨r6_2, p0⟩] S1024x512.size (by rfl) y

/-! ## The body's triple -/

set_option maxHeartbeats 1000000 in
/-- The body on whole buffers — the inputs' at contents reading `x0` and `x1`, the output's at anything — runs to a
    state where the inputs' are as they were and the output's reads `out6_2 x0 x1`. -/
theorem sound_kernel6 (c : Dev nD) (E : Set ℕ) (i : grid6.Coords)
    (arg1 : Memref sig .tc .vmem S1024x128 .bf16) (harg1 : arg1.IsWhole)
    (arg2 : Memref sig .tc .vmem S128x512 .bf16) (harg2 : arg2.IsWhole)
    (arg3 : Memref sig .tc .vmem S1024x512 .bf16) (harg3 : arg3.IsWhole)
    (x0 : Vec F S1024x128 .bf16) (x1 : Vec F S128x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region on core `c`: the arrays as the region finds them; after the body at point `t` each
    input's buffer at its block and the output's at `out6_2` of the two input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- Every window is held at the full share, and no point owes anything. -/
theorem q_eq6 (c : Dev nD) (w : Fin cfg6.W) : (dat6 V c).q w = fullShare := by dsimp only [dat6]
theorem owed_eq6 (c : Dev nD) (t) : (dat6 V c).owed t = 0 := by dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each input's buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- Entering: the generator register and the scoped rest make the invariant at the first point. -/
theorem phi_in6 (c : Dev nD) :
    iprop((∃ r, prngReg c r) ∗ Pipeline.scopedRest (Ix := Unit) (Name := ℕ) (U := UR sig nD τ) (Lvl := ℕ) spec6 c)
      ⊢ ((dat6 V c).Φ 0 : sProp 𝕄) := by
  rw [show (dat6 V c).Φ 0 = Pipeline.ΦA spec6 c from rfl]; unfold Pipeline.ΦA
  iintro ⟨Hp, Hr⟩
  isplitl [Hr]; · iexact Hr
  iexact Hp

/-- Leaving: the invariant at the last point gives them back. -/
theorem phi_out6 (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) spec6 c) := by
  rw [show (dat6 V c).Φ (Fin.last cfg6.N) = Pipeline.ΦA spec6 c from rfl]; unfold Pipeline.ΦA
  iintro ⟨Hr, Hp⟩
  isplitl [Hp]; · iexact Hp
  iexact Hr

end Region

end Cert.Kernel.Hand

end
-- ==== Proof.K.Region7.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 7: O = max(A·H + b, 0), the product accumulated over the four column blocks of A -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: an unfetched
    point has the block index of the point before it, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions, decided over the grid -/

/-- The first conditional's condition (the second grid coordinate is 0), as the body computes it. -/
abbrev cond7_0 (i : grid7.Coords) : Prop := (Scalar.cmpi .ne (Scalar.extui (Scalar.cmpi .eq (BitVec.ofNat 32 (i 1).val) 0#32)) 0#32) = 1#1
/-- It holds at the points ≡ 0 (mod 4). -/
theorem hcond7_0 : ∀ t : Fin cfg7.N, cond7_0 (grid7.coords t) ↔ t.val % 4 = 0 :=
  (by decide +kernel : ∀ t : Fin grid7.N, cond7_0 (grid7.coords t) ↔ t.val % 4 = 0)

/-- The second conditional's condition (the second grid coordinate is 3). -/
abbrev cond7_1 (i : grid7.Coords) : Prop := k7_cond2 i = 1#1
/-- It holds at the points ≡ 3 (mod 4). -/
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- The output window is idle at the points whose second coordinate is not 3: the body stores nothing into it there, -/
theorem idleAt7_3 : ∀ t : Fin cfg7.N, ¬t.val % 4 = 3 → cfg7.idle 3 (grid7.coords t) = true := by decide +kernel
/-- live at the others, -/
theorem liveAt7_3 : ∀ t : Fin cfg7.N, t.val % 4 = 3 → cfg7.idle 3 (grid7.coords t) = false := by decide +kernel
/-- and written back only at those. -/
theorem noFlush7_3 (t : Fin cfg7.N) (h : ¬t.val % 4 = 3) : (cfg7.win 3).flush t = false := by
  cases hf : (cfg7.win 3).flush t with
  | false => rfl
  | true => exact absurd ((flush7_3 t).mp hf) h

/-! ## The body's accesses -/

abbrev rA7 : Rect S1024x2048 := Rect.unit (s := S1024x2048) ![0, 0] S1024x2048.size inb_S1024x2048_S1024x2048_0_0
abbrev rH7 : Rect S2048x512 := Rect.unit (s := S2048x512) ![0, 0] S2048x512.size inb_S2048x512_S2048x512_0_0
abbrev rB7 : Rect S1x512 := Rect.unit (s := S1x512) ![0, 0] S1x512.size inb_S1x512_S1x512_0_0
abbrev rO7 : Rect S1024x512 := Rect.unit (s := S1024x512) ![0, 0] S1024x512.size inb_S1024x512_S1024x512_0_0

/-! ## What the body leaves in the accumulator and in the output window's buffer -/

/-- The accumulator after the body at a point whose second coordinate is 0: zeroed, then the product of the
    point's blocks added (the stores as pieces, last first; the payloads are the skeleton's). -/
def accA7 (x0 : Vec F S1024x2048 .bf16) (x1 : Vec F S2048x512 .bf16) : Vec F S1024x512 .f32 :=
  View.canon [⟨rO7, k7_pay2 (View.ld x0 rA7) (View.ld x1 rH7) (View.ld (View.canon [⟨rO7, k7_pay1 (F := F)⟩]) rO7)⟩, ⟨rO7, k7_pay1 (F := F)⟩]

/-- The accumulator after the body at any other point, from what the point before left in it (`a`). -/
def accB7 (x0 : Vec F S1024x2048 .bf16) (x1 : Vec F S2048x512 .bf16) (a : Vec F S1024x512 .f32) : Vec F S1024x512 .f32 :=
  View.canon [⟨rO7, k7_pay2 (View.ld x0 rA7) (View.ld x1 rH7) (View.ld a rO7)⟩]

/-- The output window's buffer after the body at a point whose second coordinate is 3, from the accumulator as
    the point leaves it (`a`) and the bias block. -/
def out7_3 (a : Vec F S1024x512 .f32) (x2 : Vec F S1x512 .f32) : Vec F S1024x512 .f32 :=
  View.canon [⟨rO7, k7_pay3 (View.ld a rO7) (View.ld x2 rB7)⟩]

/-- One whole-buffer store covers the buffer (checked by evaluation). -/
theorem coverS7 (p0 : Vec F S1024x512 .f32) (y : S1024x512.Idx) :
    ∃ pc ∈ ([⟨rO7, p0⟩] : List (View.Piece (Elt F) S1024x512 .f32)), y ∈ pc.1.set :=
  View.cover_of_tiled [⟨rO7, p0⟩] S1024x512.size (by rfl) y

theorem coverS27 (p0 p1 : Vec F S1024x512 .f32) (y : S1024x512.Idx) :
    ∃ pc ∈ ([⟨rO7, p0⟩, ⟨rO7, p1⟩] : List (View.Piece (Elt F) S1024x512 .f32)), y ∈ pc.1.set := by
  obtain ⟨pc, hm, hy⟩ := coverS7 p0 y
  exact ⟨pc, List.mem_cons.mpr (Or.inl (List.mem_singleton.mp hm)), hy⟩

/-! ## The body's triple, case by case -/

set_option maxHeartbeats 2000000 in
/-- Second coordinate 0: the accumulator, at anything, is zeroed and takes the product; the output window's
    buffer is not touched. -/
theorem sound_kernel7_A (c : Dev nD) (E : Set ℕ) (i : grid7.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : ¬cond7_1 i)
    (x0 : Vec F S1024x2048 .bf16) (x1 : Vec F S2048x512 .bf16) (x2 : Vec F S1x512 .f32) (x3 : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA7 x0 x1)) -∗ K ⟨⟩))
      ⊢ wp frame (wpE (defs₀ (F := F)) Variants.none c none) E (cc7__spmm_kernel i arg2 harg2 arg3 harg3 arg4 harg4 arg5 harg5 arg6 harg6) K := by
  simp only [cc7__spmm_kernel_eq_skeleton]; unfold cc7__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS7 _)]
  exact View.read_writes_eq_canon _ _ _ (coverS27 _ _)

set_option maxHeartbeats 2000000 in
/-- Second coordinate 1 or 2: the product is added to what the accumulator held; the output window's buffer is
    not touched. -/
theorem sound_kernel7_B (c : Dev nD) (E : Set ℕ) (i : grid7.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : ¬cond7_0 i) (hc1 : ¬cond7_1 i)
    (x0 : Vec F S1024x2048 .bf16) (x1 : Vec F S2048x512 .bf16) (x2 : Vec F S1x512 .f32) (x3 : Vec F S1024x512 .f32) (a : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB7 x0 x1 a)) -∗ K ⟨⟩))
      ⊢ wp frame (wpE (defs₀ (F := F)) Variants.none c none) E (cc7__spmm_kernel i arg2 harg2 arg3 harg3 arg4 harg4 arg5 harg5 arg6 harg6) K := by
  simp only [cc7__spmm_kernel_eq_skeleton]; unfold cc7__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS7 _)

set_option maxHeartbeats 2000000 in
/-- Second coordinate 3: the product is added to what the accumulator held, and the output window's buffer,
    at anything, is stored whole from the accumulator and the bias. -/
theorem sound_kernel7_C (c : Dev nD) (E : Set ℕ) (i : grid7.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : ¬cond7_0 i) (hc1 : cond7_1 i)
    (x0 : Vec F S1024x2048 .bf16) (x1 : Vec F S2048x512 .bf16) (x2 : Vec F S1x512 .f32) (a : Vec F S1024x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out7_3 (accB7 x0 x1 a) x2) ∗ owns (c : Thread nD τ) arg6 fullShare (accB7 x0 x1 a)) -∗ K ⟨⟩))
      ⊢ wp frame (wpE (defs₀ (F := F)) Variants.none c none) E (cc7__spmm_kernel i arg2 harg2 arg3 harg3 arg4 harg4 arg5 harg5 arg6 harg6) K := by
  simp only [cc7__spmm_kernel_eq_skeleton]; unfold cc7__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS7 _)]
    exact View.read_writes_eq_canon _ _ _ (coverS7 _)
  iexists _; isplitr
  swap; · iexact H6
  ipureintro
  exact View.read_writes_eq_canon _ _ _ (coverS7 _)

/-! ## The accumulation, point by point -/

/-- What the accumulator holds after the body at position `n` (as `accN7 (n + 1)`): at a point whose second
    coordinate is 0 the product of the point's blocks over zero, at any other the product added to what the
    point before left. (Before the first point, and past the grid, nothing is claimed: a placeholder.) -/
def accN7 (c : Dev nD) : ℕ → Vec F S1024x512 .f32
  | 0 => k7_pay1 (F := F)
  | n + 1 =>
    if h : n < cfg7.N then
      if n % 4 = 0 then accA7 (iblk7 V c 0 ⟨n, h⟩) (iblk7 V c 1 ⟨n, h⟩)
      else accB7 (iblk7 V c 0 ⟨n, h⟩) (iblk7 V c 1 ⟨n, h⟩) (accN7 c n)
    else k7_pay1 (F := F)

theorem accN7_A (c : Dev nD) (t : Fin cfg7.N) (h0 : t.val % 4 = 0) :
    accN7 V c (t.val + 1) = accA7 (iblk7 V c 0 t) (iblk7 V c 1 t) := by
  rw [accN7, dif_pos t.isLt, if_pos h0]

theorem accN7_B (c : Dev nD) (t : Fin cfg7.N) (h0 : ¬t.val % 4 = 0) :
    accN7 V c (t.val + 1) = accB7 (iblk7 V c 0 t) (iblk7 V c 1 t) (accN7 V c t.val) := by
  rw [accN7, dif_pos t.isLt, if_neg h0]

/-- The region's invariant before position `n`: the generator register at some state, every scoped buffer but
    the accumulator at anything, and the accumulator — at anything before a point whose second coordinate is 0
    (the body zeroes it there), else at what the point before left. -/
def Phi7 (c : Dev nD) (n : ℕ) : sProp 𝕄 :=
  iprop((∃ r, prngReg c r)
    ∗ Pipeline.scopedRestBut (Ix := Unit) (Name := ℕ) (U := UR sig nD τ) (Lvl := ℕ) (Val := Elt F) spec7 c [cc7_scratch0]
    ∗ (∃ a : Vec F S1024x512 .f32, ⌜n % 4 ≠ 0 → a = accN7 V c n⌝
        ∗ owns (c : Thread nD τ) (Memref.whole cc7_scratch0 : Memref sig .tc .vmem S1024x512 .f32) fullShare a))

/-! ## The pipeline's proof data -/

/-- The proof data of the pipeline on core `c`: the arrays as the region finds them (`V`); after the body each
    input's buffer at its block, the output's (consulted only where the second coordinate is 3) at the stored
    block; the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (accN7 V c (t.val + 1)) (iblk7 V c 2 t)
  Φ t := Phi7 V c t.val
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem Phi7_castSucc (c : Dev nD) (t : Fin cfg7.N) : (dat7 V c).Φ t.castSucc = Phi7 V c t.val := by
  dsimp only [dat7]; simp only [Fin.coe_castSucc]

theorem Phi7_succ (c : Dev nD) (t : Fin cfg7.N) : (dat7 V c).Φ t.succ = Phi7 V c (t.val + 1) := by
  dsimp only [dat7]; simp only [Fin.val_succ]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (accN7 V c (t.val + 1)) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [Phi7_castSucc, Phi7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  unfold Phi7
  by_cases h0 : t.val % 4 = 0
  · have h3 : ¬t.val % 4 = 3 := by omega
    rw [Dat.leavesExact_idle (dat7 V c) 3 t (idleAt7_3 t h3) (noFlush7_3 t h3)]
    iintro ⟨⟨Hg, Hr, ⟨%a, -, HS⟩⟩, Ho, ⟨%d0, H0⟩, ⟨%d1, H1⟩, ⟨%d2, H2⟩, ⟨%d3, H3⟩⟩
    iapply (sound_kernel7_A c Set.univ (grid7.coords t) _ _ _ _ _ _ _ _ _ _ ((hcond7_0 t).mpr h0) (fun h => h3 ((hcond7_1 t).mp h))
      (iblk7 V c 0 t) (iblk7 V c 1 t) (iblk7 V c 2 t) ((dat7 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN7_A V c t h0).symm
    isplitl [Ho]; · iexact Ho
    isplitl [H0]; · iexact H0
    isplitl [H1]; · iexact H1
    isplitl [H2]; · iexact H2
    iexists d3; iexact H3
  · by_cases h3 : t.val % 4 = 3
    · rw [show (dat7 V c).leavesExact 3 t = owns (c : Thread nD τ) (st7_3 t) fullShare ((dat7 V c).after 3 t) from by
        unfold Dat.leavesExact; rw [liveAt7_3 t h3], after7_3, accN7_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel7_C c Set.univ (grid7.coords t) _ _ _ _ _ _ _ _ _ _ (fun h => h0 ((hcond7_0 t).mp h)) ((hcond7_1 t).mpr h3)
        (iblk7 V c 0 t) (iblk7 V c 1 t) (iblk7 V c 2 t) (accN7 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat7 V c) 3 t (idleAt7_3 t h3) (noFlush7_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel7_B c Set.univ (grid7.coords t) _ _ _ _ _ _ _ _ _ _ (fun h => h0 ((hcond7_0 t).mp h)) (fun h => h3 ((hcond7_1 t).mp h))
        (iblk7 V c 0 t) (iblk7 V c 1 t) (iblk7 V c 2 t) ((dat7 V c).before 3 t d3) (accN7 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN7_B V c t h0).symm
      isplitl [Ho]; · iexact Ho
      isplitl [H0]; · iexact H0
      isplitl [H1]; · iexact H1
      isplitl [H2]; · iexact H2
      iexists d3; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- What the region is entered with — the generator register and every scoped buffer at anything — is the
    invariant before the first point. -/
theorem phi_in7 (c : Dev nD) :
    iprop((∃ r, prngReg c r) ∗ Pipeline.scopedRest (Ix := Unit) (Name := ℕ) (U := UR sig nD τ) (Lvl := ℕ) spec7 c)
      ⊢ ((dat7 V c).Φ 0 : sProp 𝕄) := by
  rw [show (dat7 V c).Φ 0 = Phi7 V c 0 from by dsimp only [dat7]; rfl]
  unfold Phi7
  rw [scopedRest7_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out7 (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) spec7 c) := by
  rw [show (dat7 V c).Φ (Fin.last cfg7.N) = Phi7 V c cfg7.N from by dsimp only [dat7]; rfl]
  unfold Phi7
  rw [scopedRest7_split]
  simp only [owns_whole]
  iintro ⟨Hg, Hr, ⟨%a, -, Hs⟩⟩
  isplitl [Hg]; · iexact Hg
  isplitl [Hs]; · iexists a; iexact Hs
  iexact Hr

end Cert.Kernel.Hand

end
-- ==== Proof.K.Region8.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.Value
import Idealize.ShloMosaic.Lib.Tactic

/-! # Region 8: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The buffer of `X`'s window holds the point's row block at every point, for any proof data whose array is the entry
    contents and whose body leaves the block in place: where the block was not fetched its index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The buffer of `W`'s window holds the whole of `W` at every point: it is fetched at the first point, its block
    index never moves, and the body leaves it in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is of a whole buffer -/

abbrev r8_0 : Rect S1024x128 := Rect.unit (s := S1024x128) ![0, 0] S1024x128.size inb_S1024x128_S1024x128_0_0
abbrev r8_1 : Rect S128x128 := Rect.unit (s := S128x128) ![0, 0] S128x128.size inb_S128x128_S128x128_0_0
abbrev r8_2 : Rect S1024x128 := Rect.unit (s := S1024x128) ![0, 0] S1024x128.size inb_S1024x128_S1024x128_0_0

/-! ## What the body leaves in the output buffer -/

/-- The output buffer after the body, from the two input blocks: the one store's payload, the rounded product. -/
def out8_2 (x0 : Vec F S1024x128 .bf16) (x1 : Vec F S128x128 .bf16) : Vec F S1024x128 .bf16 :=
  View.canon [⟨r8_2, k8_pay1 (View.ld x0 r8_0) (View.ld x1 r8_1)⟩]

/-- The store is of the whole buffer, so it covers it. -/
theorem cover8_2 (p0 : Vec F S1024x128 .bf16) (y : S1024x128.Idx) :
    ∃ pc ∈ ([⟨r8_2, p0⟩] : List (View.Piece (Elt F) S1024x128 .bf16)), y ∈ pc.1.set :=
  View.cover_of_tiled [⟨r8_2, p0⟩] S1024x128.size (by rfl) y

/-! ## The body's triple -/

set_option maxHeartbeats 1000000 in
/-- The body on whole buffers — the inputs' at contents reading `x0` and `x1`, the output's at anything — runs to a
    state where the inputs' are as they were and the output's reads `out8_2 x0 x1`. -/
theorem sound_kernel8 (c : Dev nD) (E : Set ℕ) (i : grid8.Coords)
    (arg1 : Memref sig .tc .vmem S1024x128 .bf16) (harg1 : arg1.IsWhole)
    (arg2 : Memref sig .tc .vmem S128x128 .bf16) (harg2 : arg2.IsWhole)
    (arg3 : Memref sig .tc .vmem S1024x128 .bf16) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__linear_kernel i arg1 harg1 arg2 harg2 arg3 harg3) K := by
  simp only [cc8__linear_kernel_eq_skeleton]; unfold cc8__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region on core `c`: the arrays as the region finds them; after the body at point `t` each
    input's buffer at its block and the output's at `out8_2` of the two input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- Every window is held at the full share, and no point owes anything. -/
theorem q_eq8 (c : Dev nD) (w : Fin cfg8.W) : (dat8 V c).q w = fullShare := by dsimp only [dat8]
theorem owed_eq8 (c : Dev nD) (t) : (dat8 V c).owed t = 0 := by dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (iblk8 V c 0 t) (iblk8 V c 1 t) := by dsimp only [dat8]

/-- Each input's buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- Entering: the generator register and the scoped rest make the invariant at the first point. -/
theorem phi_in8 (c : Dev nD) :
    iprop((∃ r, prngReg c r) ∗ Pipeline.scopedRest (Ix := Unit) (Name := ℕ) (U := UR sig nD τ) (Lvl := ℕ) spec8 c)
      ⊢ ((dat8 V c).Φ 0 : sProp 𝕄) := by
  rw [show (dat8 V c).Φ 0 = Pipeline.ΦA spec8 c from rfl]; unfold Pipeline.ΦA
  iintro ⟨Hp, Hr⟩
  isplitl [Hr]; · iexact Hr
  iexact Hp

/-- Leaving: the invariant at the last point gives them back. -/
theorem phi_out8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) spec8 c) := by
  rw [show (dat8 V c).Φ (Fin.last cfg8.N) = Pipeline.ΦA spec8 c from rfl]; unfold Pipeline.ΦA
  iintro ⟨Hr, Hp⟩
  isplitl [Hp]; · iexact Hp
  iexact Hr

end Region

end Cert.Kernel.Hand

end
-- ==== Proof.K.Region9.lean ====
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 9: O = max(A·H + b, 0), the product accumulated over the four column blocks of A -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not: an unfetched
    point has the block index of the point before it, and the body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions, decided over the grid -/

/-- The first conditional's condition (the second grid coordinate is 0), as the body computes it. -/
abbrev cond9_0 (i : grid9.Coords) : Prop := (Scalar.cmpi .ne (Scalar.extui (Scalar.cmpi .eq (BitVec.ofNat 32 (i 1).val) 0#32)) 0#32) = 1#1
/-- It holds at the points ≡ 0 (mod 4). -/
theorem hcond9_0 : ∀ t : Fin cfg9.N, cond9_0 (grid9.coords t) ↔ t.val % 4 = 0 :=
  (by decide +kernel : ∀ t : Fin grid9.N, cond9_0 (grid9.coords t) ↔ t.val % 4 = 0)

/-- The second conditional's condition (the second grid coordinate is 3). -/
abbrev cond9_1 (i : grid9.Coords) : Prop := k9_cond2 i = 1#1
/-- It holds at the points ≡ 3 (mod 4). -/
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
/-- The output window is idle at the points whose second coordinate is not 3: the body stores nothing into it there, -/
theorem idleAt9_3 : ∀ t : Fin cfg9.N, ¬t.val % 4 = 3 → cfg9.idle 3 (grid9.coords t) = true := by decide +kernel
/-- live at the others, -/
theorem liveAt9_3 : ∀ t : Fin cfg9.N, t.val % 4 = 3 → cfg9.idle 3 (grid9.coords t) = false := by decide +kernel
/-- and written back only at those. -/
theorem noFlush9_3 (t : Fin cfg9.N) (h : ¬t.val % 4 = 3) : (cfg9.win 3).flush t = false := by
  cases hf : (cfg9.win 3).flush t with
  | false => rfl
  | true => exact absurd ((flush9_3 t).mp hf) h

/-! ## The body's accesses -/

abbrev rA9 : Rect S1024x2048 := Rect.unit (s := S1024x2048) ![0, 0] S1024x2048.size inb_S1024x2048_S1024x2048_0_0
abbrev rH9 : Rect S2048x128 := Rect.unit (s := S2048x128) ![0, 0] S2048x128.size inb_S2048x128_S2048x128_0_0
abbrev rB9 : Rect S1x128 := Rect.unit (s := S1x128) ![0, 0] S1x128.size inb_S1x128_S1x128_0_0
abbrev rO9 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA9 (x0 : Vec F S1024x2048 .bf16) (x1 : Vec F S2048x128 .bf16) : Vec F S1024x128 .f32 :=
  View.canon [⟨rO9, k9_pay2 (View.ld x0 rA9) (View.ld x1 rH9) (View.ld (View.canon [⟨rO9, k9_pay1 (F := F)⟩]) rO9)⟩, ⟨rO9, k9_pay1 (F := F)⟩]

/-- The accumulator after the body at any other point, from what the point before left in it (`a`). -/
def accB9 (x0 : Vec F S1024x2048 .bf16) (x1 : Vec F S2048x128 .bf16) (a : Vec F S1024x128 .f32) : Vec F S1024x128 .f32 :=
  View.canon [⟨rO9, k9_pay2 (View.ld x0 rA9) (View.ld x1 rH9) (View.ld a rO9)⟩]

/-- The output window's buffer after the body at a point whose second coordinate is 3, from the accumulator as
    the point leaves it (`a`) and the bias block. -/
def out9_3 (a : Vec F S1024x128 .f32) (x2 : Vec F S1x128 .f32) : Vec F S1024x128 .bf16 :=
  View.canon [⟨rO9, k9_pay3 (View.ld a rO9) (View.ld x2 rB9)⟩]

/-- One whole-buffer store covers the buffer (checked by evaluation). -/
theorem coverS9 (p0 : Vec F S1024x128 .f32) (y : S1024x128.Idx) :
    ∃ pc ∈ ([⟨rO9, p0⟩] : List (View.Piece (Elt F) S1024x128 .f32)), y ∈ pc.1.set :=
  View.cover_of_tiled [⟨rO9, p0⟩] S1024x128.size (by rfl) y

theorem coverS29 (p0 p1 : Vec F S1024x128 .f32) (y : S1024x128.Idx) :
    ∃ pc ∈ ([⟨rO9, p0⟩, ⟨rO9, p1⟩] : List (View.Piece (Elt F) S1024x128 .f32)), y ∈ pc.1.set := by
  obtain ⟨pc, hm, hy⟩ := coverS9 p0 y
  exact ⟨pc, List.mem_cons.mpr (Or.inl (List.mem_singleton.mp hm)), hy⟩

theorem coverO9 (p0 : Vec F S1024x128 .bf16) (y : S1024x128.Idx) :
    ∃ pc ∈ ([⟨rO9, p0⟩] : List (View.Piece (Elt F) S1024x128 .bf16)), y ∈ pc.1.set :=
  View.cover_of_tiled [⟨rO9, p0⟩] S1024x128.size (by rfl) y

/-! ## The body's triple, case by case -/

set_option maxHeartbeats 2000000 in
/-- Second coordinate 0: the accumulator, at anything, is zeroed and takes the product; the output window's
    buffer is not touched. -/
theorem sound_kernel9_A (c : Dev nD) (E : Set ℕ) (i : grid9.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond9_0 i) (hc1 : ¬cond9_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA9 x0 x1)) -∗ K ⟨⟩))
      ⊢ wp frame (wpE (defs₀ (F := F)) Variants.none c none) E (cc9__spmm_kernel i arg2 harg2 arg3 harg3 arg4 harg4 arg5 harg5 arg6 harg6) K := by
  simp only [cc9__spmm_kernel_eq_skeleton]; unfold cc9__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS9 _)]
  exact View.read_writes_eq_canon _ _ _ (coverS29 _ _)

set_option maxHeartbeats 2000000 in
/-- Second coordinate 1 or 2: the product is added to what the accumulator held; the output window's buffer is
    not touched. -/
theorem sound_kernel9_B (c : Dev nD) (E : Set ℕ) (i : grid9.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond9_0 i) (hc1 : ¬cond9_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB9 x0 x1 a)) -∗ K ⟨⟩))
      ⊢ wp frame (wpE (defs₀ (F := F)) Variants.none c none) E (cc9__spmm_kernel i arg2 harg2 arg3 harg3 arg4 harg4 arg5 harg5 arg6 harg6) K := by
  simp only [cc9__spmm_kernel_eq_skeleton]; unfold cc9__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS9 _)

set_option maxHeartbeats 2000000 in
/-- Second coordinate 3: the product is added to what the accumulator held, and the output window's buffer,
    at anything, is stored whole from the accumulator and the bias. -/
theorem sound_kernel9_C (c : Dev nD) (E : Set ℕ) (i : grid9.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond9_0 i) (hc1 : cond9_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out9_3 (accB9 x0 x1 a) x2) ∗ owns (c : Thread nD τ) arg6 fullShare (accB9 x0 x1 a)) -∗ K ⟨⟩))
      ⊢ wp frame (wpE (defs₀ (F := F)) Variants.none c none) E (cc9__spmm_kernel i arg2 harg2 arg3 harg3 arg4 harg4 arg5 harg5 arg6 harg6) K := by
  simp only [cc9__spmm_kernel_eq_skeleton]; unfold cc9__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS9 _)]
    exact View.read_writes_eq_canon _ _ _ (coverO9 _)
  iexists _; isplitr
  swap; · iexact H6
  ipureintro
  exact View.read_writes_eq_canon _ _ _ (coverS9 _)

/-! ## The accumulation, point by point -/

/-- What the accumulator holds after the body at position `n` (as `accN9 (n + 1)`): at a point whose second
    coordinate is 0 the product of the point's blocks over zero, at any other the product added to what the
    point before left. (Before the first point, and past the grid, nothing is claimed: a placeholder.) -/
def accN9 (c : Dev nD) : ℕ → Vec F S1024x128 .f32
  | 0 => k9_pay1 (F := F)
  | n + 1 =>
    if h : n < cfg9.N then
      if n % 4 = 0 then accA9 (iblk9 V c 0 ⟨n, h⟩) (iblk9 V c 1 ⟨n, h⟩)
      else accB9 (iblk9 V c 0 ⟨n, h⟩) (iblk9 V c 1 ⟨n, h⟩) (accN9 c n)
    else k9_pay1 (F := F)

theorem accN9_A (c : Dev nD) (t : Fin cfg9.N) (h0 : t.val % 4 = 0) :
    accN9 V c (t.val + 1) = accA9 (iblk9 V c 0 t) (iblk9 V c 1 t) := by
  rw [accN9, dif_pos t.isLt, if_pos h0]

theorem accN9_B (c : Dev nD) (t : Fin cfg9.N) (h0 : ¬t.val % 4 = 0) :
    accN9 V c (t.val + 1) = accB9 (iblk9 V c 0 t) (iblk9 V c 1 t) (accN9 V c t.val) := by
  rw [accN9, dif_pos t.isLt, if_neg h0]

/-- The region's invariant before position `n`: the generator register at some state, every scoped buffer but
    the accumulator at anything, and the accumulator — at anything before a point whose second coordinate is 0
    (the body zeroes it there), else at what the point before left. -/
def Phi9 (c : Dev nD) (n : ℕ) : sProp 𝕄 :=
  iprop((∃ r, prngReg c r)
    ∗ Pipeline.scopedRestBut (Ix := Unit) (Name := ℕ) (U := UR sig nD τ) (Lvl := ℕ) (Val := Elt F) spec9 c [cc9_scratch0]
    ∗ (∃ a : Vec F S1024x128 .f32, ⌜n % 4 ≠ 0 → a = accN9 V c n⌝
        ∗ owns (c : Thread nD τ) (Memref.whole cc9_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (accN9 V c (t.val + 1)) (iblk9 V c 2 t)
  Φ t := Phi9 V c t.val
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (t : Fin (cfg9.N + 1)) : (dat9 V c).owed t = 0 := by
  dsimp only [dat9]

theorem Phi9_castSucc (c : Dev nD) (t : Fin cfg9.N) : (dat9 V c).Φ t.castSucc = Phi9 V c t.val := by
  dsimp only [dat9]; simp only [Fin.coe_castSucc]

theorem Phi9_succ (c : Dev nD) (t : Fin cfg9.N) : (dat9 V c).Φ t.succ = Phi9 V c (t.val + 1) := by
  dsimp only [dat9]; simp only [Fin.val_succ]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (accN9 V c (t.val + 1)) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [Phi9_castSucc, Phi9_succ]
  rw [show (dat9 V c).leavesExact 0 t = owns (c : Thread nD τ) (st9_0 t) fullShare ((dat9 V c).after 0 t) from by
    unfold Dat.leavesExact; rw [liveAt9_0 t], after9_0]
  rw [show (dat9 V c).leavesExact 1 t = owns (c : Thread nD τ) (st9_1 t) fullShare ((dat9 V c).after 1 t) from by
    unfold Dat.leavesExact; rw [liveAt9_1 t], after9_1]
  rw [show (dat9 V c).leavesExact 2 t = owns (c : Thread nD τ) (st9_2 t) fullShare ((dat9 V c).after 2 t) from by
    unfold Dat.leavesExact; rw [liveAt9_2 t], after9_2]
  unfold Phi9
  by_cases h0 : t.val % 4 = 0
  · have h3 : ¬t.val % 4 = 3 := by omega
    rw [Dat.leavesExact_idle (dat9 V c) 3 t (idleAt9_3 t h3) (noFlush9_3 t h3)]
    iintro ⟨⟨Hg, Hr, ⟨%a, -, HS⟩⟩, Ho, ⟨%d0, H0⟩, ⟨%d1, H1⟩, ⟨%d2, H2⟩, ⟨%d3, H3⟩⟩
    iapply (sound_kernel9_A c Set.univ (grid9.coords t) _ _ _ _ _ _ _ _ _ _ ((hcond9_0 t).mpr h0) (fun h => h3 ((hcond9_1 t).mp h))
      (iblk9 V c 0 t) (iblk9 V c 1 t) (iblk9 V c 2 t) ((dat9 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN9_A V c t h0).symm
    isplitl [Ho]; · iexact Ho
    isplitl [H0]; · iexact H0
    isplitl [H1]; · iexact H1
    isplitl [H2]; · iexact H2
    iexists d3; iexact H3
  · by_cases h3 : t.val % 4 = 3
    · rw [show (dat9 V c).leavesExact 3 t = owns (c : Thread nD τ) (st9_3 t) fullShare ((dat9 V c).after 3 t) from by
        unfold Dat.leavesExact; rw [liveAt9_3 t h3], after9_3, accN9_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel9_C c Set.univ (grid9.coords t) _ _ _ _ _ _ _ _ _ _ (fun h => h0 ((hcond9_0 t).mp h)) ((hcond9_1 t).mpr h3)
        (iblk9 V c 0 t) (iblk9 V c 1 t) (iblk9 V c 2 t) (accN9 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat9 V c) 3 t (idleAt9_3 t h3) (noFlush9_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel9_B c Set.univ (grid9.coords t) _ _ _ _ _ _ _ _ _ _ (fun h => h0 ((hcond9_0 t).mp h)) (fun h => h3 ((hcond9_1 t).mp h))
        (iblk9 V c 0 t) (iblk9 V c 1 t) (iblk9 V c 2 t) ((dat9 V c).before 3 t d3) (accN9 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN9_B V c t h0).symm
      isplitl [Ho]; · iexact Ho
      isplitl [H0]; · iexact H0
      isplitl [H1]; · iexact H1
      isplitl [H2]; · iexact H2
      iexists d3; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- What the region is entered with — the generator register and every scoped buffer at anything — is the
    invariant before the first point. -/
theorem phi_in9 (c : Dev nD) :
    iprop((∃ r, prngReg c r) ∗ Pipeline.scopedRest (Ix := Unit) (Name := ℕ) (U := UR sig nD τ) (Lvl := ℕ) spec9 c)
      ⊢ ((dat9 V c).Φ 0 : sProp 𝕄) := by
  rw [show (dat9 V c).Φ 0 = Phi9 V c 0 from by dsimp only [dat9]; rfl]
  unfold Phi9
  rw [scopedRest9_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out9 (c : Dev nD) :
    ((dat9 V c).Φ (Fin.last cfg9.N) : sProp 𝕄)
      ⊢ iprop((∃ r, prngReg c r) ∗ Pipeline.scopedRest (Ix := Unit) (Name := ℕ) (U := UR sig nD τ) (Lvl := ℕ) spec9 c) := by
  rw [show (dat9 V c).Φ (Fin.last cfg9.N) = Phi9 V c cfg9.N from by dsimp only [dat9]; rfl]
  unfold Phi9
  rw [scopedRest9_split]
  simp only [owns_whole]
  iintro ⟨Hg, Hr, ⟨%a, -, Hs⟩⟩
  isplitl [Hg]; · iexact Hg
  isplitl [Hs]; · iexists a; iexact Hs
  iexact Hr

end Cert.Kernel.Hand

end
-- ==== Proof.K.Region10.lean ====
/- The outer-product region (custom_call 10): the proof data of its pipeline, the body's triple, the body
   obligation, the invariant at its two ends, and how the core's unscoped buffers make the windows' arrays when two
   input windows read one array (the array's points-to split in two halves by share, one per window). -/
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 (the row block, whose index moves only with the first grid coordinate) holds its block at every
    point, fetched there or not: unfetched, the block index has not moved since the point before. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the column block) likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_in : Rect S1024x128 := Rect.unit (s := S1024x128) ![0, 0] S1024x128.size inb_S1024x128_S1024x128_0_0
abbrev r10_out : Rect S1024x1024 := Rect.unit (s := S1024x1024) ![0, 0] S1024x1024.size inb_S1024x1024_S1024x1024_0_0

/-! ## What the body leaves in the output window's buffer -/

/-- The output buffer after the body, from the two input blocks: its one store, of the product of the first block with
    the transpose of the second. -/
def out10_2 (x0 x1 : Vec F S1024x128 .bf16) : Vec F S1024x1024 .f32 :=
  View.canon [⟨r10_out, k10_pay1 (View.ld x0 r10_in) (View.ld x1 r10_in)⟩]

/-- The store is of the whole buffer, so it covers it. -/
theorem cover10_2 (p0 : Vec F S1024x1024 .f32) (y : S1024x1024.Idx) :
    ∃ pc ∈ ([⟨r10_out, p0⟩] : List (View.Piece (Elt F) S1024x1024 .f32)), y ∈ pc.1.set :=
  View.cover_of_tiled [⟨r10_out, p0⟩] S1024x1024.size (by rfl) y

/-! ## The body's triple -/

set_option maxHeartbeats 1000000 in
/-- The kernel body on whole staging memrefs, the two inputs' at read contents `x0`, `x1` and the output's at anything,
    runs to the continuation holding the inputs' as they were and the output's at `out10_2 x0 x1`. -/
theorem sound_kernel10 (c : Dev nD) (E : Set ℕ) (i : grid10.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out10_2 x0 x1)) -∗ K ⟨⟩))
      ⊢ wp frame (wpE (defs₀ (F := F)) Variants.none c none) E (cc10__outer_kernel i arg2 harg2 arg3 harg3 arg4 harg4) K := by
  simp only [cc10__outer_kernel_eq_skeleton]; unfold cc10__outer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of the pipeline on core `c`: the arrays as the region finds them; after the body at point `t` each
    input's buffer at its block and the output's at `out10_2` of the two blocks; the invariant the scoped rest and the
    generator register, untouched; nothing owed. The two input windows read ONE array: each holds half of it (the
    left and the right half of the full share), the output window its array whole. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q w := match w with
    | ⟨0, _⟩ => fullShare.left
    | ⟨1, _⟩ => fullShare.right
    | ⟨2, _⟩ => fullShare
  owed _ := 0

/-- The proof data's arrays are the region-entry contents. -/
theorem A_eq10 (c : Dev nD) (w : Fin cfg10.W) : (dat10 V c).A w = V c (Pipeline.arrRef spec10 w) := by
  dsimp only [dat10]

/-- Nothing is owed at any point. -/
theorem owed_eq10 (c : Dev nD) (t : Fin (cfg10.N + 1)) : (dat10 V c).owed t = 0 := by
  dsimp only [dat10]

/-- The shares of the three windows. -/
theorem q_eq10_0 (c : Dev nD) : (dat10 V c).q 0 = fullShare.left := by dsimp only [dat10]
theorem q_eq10_1 (c : Dev nD) : (dat10 V c).q 1 = fullShare.right := by dsimp only [dat10]
theorem q_eq10_2 (c : Dev nD) : (dat10 V c).q 2 = fullShare := by dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so the body's triple applies; the invariant and
    the core's tallies pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's two ends -/

/-- The generator register and the scoped buffers no window stages make the invariant at the first point, -/
theorem phi_in10 (c : Dev nD) :
    iprop((∃ r, prngReg c r) ∗ Pipeline.scopedRest (Ix := Unit) (Name := ℕ) (U := UR sig nD τ) (Lvl := ℕ) spec10 c)
      ⊢ ((dat10 V c).Φ 0 : sProp 𝕄) := by
  rw [show (dat10 V c).Φ 0 = Pipeline.ΦA spec10 c from rfl]; unfold Pipeline.ΦA
  iintro ⟨Hp, Hr⟩
  isplitl [Hr]; · iexact Hr
  iexact Hp

/-- and the invariant at the last point gives them back. -/
theorem phi_out10 (c : Dev nD) :
    ((dat10 V c).Φ (Fin.last cfg10.N) : sProp 𝕄)
      ⊢ iprop((∃ r, prngReg c r) ∗ Pipeline.scopedRest (Ix := Unit) (Name := ℕ) (U := UR sig nD τ) (Lvl := ℕ) spec10 c) := by
  rw [show (dat10 V c).Φ (Fin.last cfg10.N) = Pipeline.ΦA spec10 c from rfl]; unfold Pipeline.ΦA
  iintro ⟨Hr, Hp⟩
  isplitl [Hp]; · iexact Hp
  iexact Hr

/-! ## The windows' arrays among the core's unscoped buffers

Two input windows read ONE array (the factor `S`, both as the row block and as the column block), so the arrays'
buffers are two, not three: the factor's points-to is split in two halves by share, one per input window, at the
region's entry, and the halves are joined again at its exit; the product's buffer goes to the output window whole. -/

/-- The buffers behind the three windows' arrays: the factor and the product. -/
theorem arrImage10 : (Finset.univ.image (Pipeline.arrRef spec10) : Finset (Ref sig .tc)) = {main_v66, main_v67} := by decide

/-- Every unscoped buffer that is no array of the region, at its entry contents: what bypasses the region. -/
abbrev rest10 (c : Dev nD) : sProp 𝕄 :=
  Pipeline.unscopedRest (Ix := Unit) (Name := ℕ) (U := UR sig nD τ) (Lvl := ℕ) spec10 c (V c)

/-- The two buffers, each whole at the full share. -/
theorem arrBufs10_eq (c : Dev nD) (Vc : (b : Ref sig .tc) → Buf (Elt F) ((c : Thread nD τ).loc b)) :
    (Pipeline.arrBufs (Ix := Unit) (Name := ℕ) (U := UR sig nD τ) (Lvl := ℕ) spec10 c Vc : sProp 𝕄)
      = iprop((((c : Thread nD τ).loc main_v66) ↦{fullShare} Vc main_v66) ∗ (((c : Thread nD τ).loc main_v67) ↦{fullShare} Vc main_v67)) := by
  unfold Pipeline.arrBufs
  rw [arrImage10, bigSep_insert (by decide), bigSep_singleton]
  rfl

/-- The pipeline's arrays, window by window: the factor at the left half for the row window, at the right half for
    the column window, the product whole. -/
theorem arrays10_eq (c : Dev nD) (G : (w : Fin cfg10.W) → Buf (Elt F) ((cfg10.win w).arr.view.loc (c : Thread nD τ))) :
    ((dat10 V c).arrays G : sProp 𝕄)
      = iprop((((c : Thread nD τ).loc main_v66) ↦{fullShare.left} G 0) ∗ (((c : Thread nD τ).loc main_v66) ↦{fullShare.right} G 1)
          ∗ (((c : Thread nD τ).loc main_v67) ↦{fullShare} G 2)) := by
  unfold Pipeline.Dat.arrays
  rw [bigSep_W10, (arr_whole10 0).set_eq_univ, (arr_whole10 2).set_eq_univ]
  rfl

/-- ENTRY: the core's unscoped buffers at the entry contents are the pipeline's arrays at those contents and the rest. -/
theorem entry10 (c : Dev nD) :
    (unscopedBufs (Ix := Unit) (Name := ℕ) (U := UR sig nD τ) (Lvl := ℕ) c (V c) : sProp 𝕄)
      ⊢ iprop((dat10 V c).arrays ((dat10 V c).arrAt · 0) ∗ rest10 V c) := by
  rw [Pipeline.unscopedBufs_split₀ (cfgs := cfgs) (p := (10 : Fin 11)) winFacts₀10.arr_unscoped c (V c)]
  show iprop(Pipeline.arrBufs spec10 c (V c) ∗ rest10 V c) ⊢ _
  rw [arrBufs10_eq, arrays10_eq]
  iintro ⟨⟨H66, H67⟩, Hrest⟩
  ihave H := (pointsTo_share (PosShare.mem_left_op_right fullShare)).1 $$ H66
  icases H with ⟨Hl, Hr⟩
  isplitr [Hrest]
  · isplitl [Hl]; · iexact Hl
    isplitl [Hr]; · iexact Hr
    iexact H67
  iexact Hrest

/-- EXIT: the pipeline's arrays at what the run leaves — the factor unchanged in both halves, the product at its
    write-backs — and the rest are the core's unscoped buffers at any contents that have the product there and agree
    with the entry contents elsewhere. -/
theorem exit10 (c : Dev nD) (V' : (b : Ref sig .tc) → Buf (Elt F) ((c : Thread nD τ).loc b))
    (hout : V' main_v67 = (dat10 V c).arrAt 2 cfg10.N) (hrest : ∀ b, b ≠ main_v67 → V' b = V c b) :
    iprop((dat10 V c).arrays ((dat10 V c).arrAt · cfg10.N) ∗ rest10 V c)
      ⊢ (unscopedBufs (Ix := Unit) (Name := ℕ) (U := UR sig nD τ) (Lvl := ℕ) c V' : sProp 𝕄) := by
  have hR : rest10 V c = Pipeline.unscopedRest (Ix := Unit) (Name := ℕ) (U := UR sig nD τ) (Lvl := ℕ) spec10 c V' := by
    unfold rest10 Pipeline.unscopedRest
    exact bigSep_congr fun b hb => by
      rw [hrest b fun e => (Finset.mem_sdiff.mp hb).2 (e ▸ Finset.mem_image.mpr ⟨2, Finset.mem_univ _, rfl⟩)]
  rw [Pipeline.unscopedBufs_split₀ (cfgs := cfgs) (p := (10 : Fin 11)) winFacts₀10.arr_unscoped c V']
  show _ ⊢ iprop(Pipeline.arrBufs spec10 c V' ∗ Pipeline.unscopedRest spec10 c V')
  rw [hR, arrBufs10_eq, arrays10_eq, hout, hrest main_v66 (by decide),
    (dat10 V c).arrAt_in 0 rfl, (dat10 V c).arrAt_in 1 rfl, A_eq10, A_eq10]
  iintro ⟨⟨Hl, Hr, H67⟩, Hrest⟩
  isplitr [Hrest]
  · isplitr [H67]
    · iapply (pointsTo_share (PosShare.mem_left_op_right fullShare)).2
      isplitl [Hl]; · iexact Hl
      iexact Hr
    iexact H67
  iexact Hrest

end Region10

/-! ## The same two entailments over a valuation of the device's references -/

/-- ENTRY from the thread state "every unscoped buffer held at the valuation `Wv c`". -/
theorem entry10_held (Wv : Dev nD → Valuation τ sig (Elt F)) (c : Dev nD) :
    (StableHlo.held (c : Thread nD τ) (Pipeline.ucRefs τ sig) (Wv c) : sProp 𝕄)
      ⊢ iprop((dat10 (fun c b => Wv c b) c).arrays ((dat10 (fun c b => Wv c b) c).arrAt · 0) ∗ rest10 (fun c b => Wv c b) c) := by
  rw [← Pipeline.unscopedBufs_held]; exact entry10 (fun c b => Wv c b) c

/-- EXIT into the thread state "every unscoped buffer held at the valuation `Wv'`", which has the product at what the
    run leaves and every other buffer as entered. -/
theorem exit10_held (Wv : Dev nD → Valuation τ sig (Elt F)) (c : Dev nD) (Wv' : Valuation τ sig (Elt F))
    (hout : Wv' (Proc.devRef .tc main_v67) = (dat10 (fun c b => Wv c b) c).arrAt 2 cfg10.N)
    (hrest : ∀ b : Ref sig .tc, b ≠ main_v67 → Wv' (Proc.devRef .tc b) = Wv c (Proc.devRef .tc b)) :
    iprop((dat10 (fun c b => Wv c b) c).arrays ((dat10 (fun c b => Wv c b) c).arrAt · cfg10.N) ∗ rest10 (fun c b => Wv c b) c)
      ⊢ (StableHlo.held (c : Thread nD τ) (Pipeline.ucRefs τ sig) Wv' : sProp 𝕄) := by
  rw [← Pipeline.unscopedBufs_held]; exact exit10 (fun c b => Wv c b) c (fun b => Wv' b) hout hrest

end Cert.Kernel.Hand
end
-- ==== Proof.K.Fold.lean ====
/- The buffers' contents at every boundary of @main, as a fold from the launch memory: a stretch of host operations
   applies its operations; a kernel region replaces its one output array by what its grid of write-backs leaves and
   changes no other buffer. No stretch and no region writes an argument array. -/
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import proofs.«179362_j6141803233546_1_alg».proof.Proof.Gen.Kernel.Regions
import proofs.«179362_j6141803233546_1_alg».proof.Proof.K.Region0
import proofs.«179362_j6141803233546_1_alg».proof.Proof.K.Region1
import proofs.«179362_j6141803233546_1_alg».proof.Proof.K.Region2
import proofs.«179362_j6141803233546_1_alg».proof.Proof.K.Region3
import proofs.«179362_j6141803233546_1_alg».proof.Proof.K.Region4
import proofs.«179362_j6141803233546_1_alg».proof.Proof.K.Region5
import proofs.«179362_j6141803233546_1_alg».proof.Proof.K.Region6
import proofs.«179362_j6141803233546_1_alg».proof.Proof.K.Region7
import proofs.«179362_j6141803233546_1_alg».proof.Proof.K.Region8
import proofs.«179362_j6141803233546_1_alg».proof.Proof.K.Region9
import proofs.«179362_j6141803233546_1_alg».proof.Proof.K.Region10
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main: a fold from the launch memory -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev T3 : (c : Dev nD) → (b : Ref sig .tc) → Buf (Elt F) ((c : Thread nD τ).loc b) := fun c b => W3 m c b
def W4 (c : Dev nD) : Valuation τ sig (Elt F) :=
  Function.update (W3 m c) (Proc.devRef .tc main_v52) ((dat0 (T3 m) c).arrAt 2 cfg0.N)
abbrev T4' : (c : Dev nD) → (b : Ref sig .tc) → Buf (Elt F) ((c : Thread nD τ).loc b) := fun c b => W4 m c b
abbrev W5 (c : Dev nD) : Valuation τ sig (Elt F) := StableHlo.after hostOps1 (W4 m c)
abbrev T5 : (c : Dev nD) → (b : Ref sig .tc) → Buf (Elt F) ((c : Thread nD τ).loc b) := fun c b => W5 m c b
def W6 (c : Dev nD) : Valuation τ sig (Elt F) :=
  Function.update (W5 m c) (Proc.devRef .tc main_v54) ((dat1 (T5 m) c).arrAt 3 cfg1.N)
abbrev T6' : (c : Dev nD) → (b : Ref sig .tc) → Buf (Elt F) ((c : Thread nD τ).loc b) := fun c b => W6 m c b
abbrev T6 : (c : Dev nD) → (b : Ref sig .tc) → Buf (Elt F) ((c : Thread nD τ).loc b) := fun c b => W6 m c b
def W7 (c : Dev nD) : Valuation τ sig (Elt F) :=
  Function.update (W6 m c) (Proc.devRef .tc main_v55) ((dat2 (T6 m) c).arrAt 2 cfg2.N)
abbrev T7' : (c : Dev nD) → (b : Ref sig .tc) → Buf (Elt F) ((c : Thread nD τ).loc b) := fun c b => W7 m c b
abbrev W8 (c : Dev nD) : Valuation τ sig (Elt F) := StableHlo.after hostOps3 (W7 m c)
abbrev T8 : (c : Dev nD) → (b : Ref sig .tc) → Buf (Elt F) ((c : Thread nD τ).loc b) := fun c b => W8 m c b
def W9 (c : Dev nD) : Valuation τ sig (Elt F) :=
  Function.update (W8 m c) (Proc.devRef .tc main_v57) ((dat3 (T8 m) c).arrAt 3 cfg3.N)
abbrev T9' : (c : Dev nD) → (b : Ref sig .tc) → Buf (Elt F) ((c : Thread nD τ).loc b) := fun c b => W9 m c b
abbrev T9 : (c : Dev nD) → (b : Ref sig .tc) → Buf (Elt F) ((c : Thread nD τ).loc b) := fun c b => W9 m c b
def W10 (c : Dev nD) : Valuation τ sig (Elt F) :=
  Function.update (W9 m c) (Proc.devRef .tc main_v58) ((dat4 (T9 m) c).arrAt 2 cfg4.N)
abbrev T10' : (c : Dev nD) → (b : Ref sig .tc) → Buf (Elt F) ((c : Thread nD τ).loc b) := fun c b => W10 m c b
abbrev W11 (c : Dev nD) : Valuation τ sig (Elt F) := StableHlo.after hostOps5 (W10 m c)
abbrev T11 : (c : Dev nD) → (b : Ref sig .tc) → Buf (Elt F) ((c : Thread nD τ).loc b) := fun c b => W11 m c b
def W12 (c : Dev nD) : Valuation τ sig (Elt F) :=
  Function.update (W11 m c) (Proc.devRef .tc main_v60) ((dat5 (T11 m) c).arrAt 3 cfg5.N)
abbrev T12' : (c : Dev nD) → (b : Ref sig .tc) → Buf (Elt F) ((c : Thread nD τ).loc b) := fun c b => W12 m c b
abbrev T12 : (c : Dev nD) → (b : Ref sig .tc) → Buf (Elt F) ((c : Thread nD τ).loc b) := fun c b => W12 m c b
def W13 (c : Dev nD) : Valuation τ sig (Elt F) :=
  Function.update (W12 m c) (Proc.devRef .tc main_v61) ((dat6 (T12 m) c).arrAt 2 cfg6.N)
abbrev T13' : (c : Dev nD) → (b : Ref sig .tc) → Buf (Elt F) ((c : Thread nD τ).loc b) := fun c b => W13 m c b
abbrev W14 (c : Dev nD) : Valuation τ sig (Elt F) := StableHlo.after hostOps7 (W13 m c)
abbrev T14 : (c : Dev nD) → (b : Ref sig .tc) → Buf (Elt F) ((c : Thread nD τ).loc b) := fun c b => W14 m c b
def W15 (c : Dev nD) : Valuation τ sig (Elt F) :=
  Function.update (W14 m c) (Proc.devRef .tc main_v63) ((dat7 (T14 m) c).arrAt 3 cfg7.N)
abbrev T15' : (c : Dev nD) → (b : Ref sig .tc) → Buf (Elt F) ((c : Thread nD τ).loc b) := fun c b => W15 m c b
abbrev T15 : (c : Dev nD) → (b : Ref sig .tc) → Buf (Elt F) ((c : Thread nD τ).loc b) := fun c b => W15 m c b
def W16 (c : Dev nD) : Valuation τ sig (Elt F) :=
  Function.update (W15 m c) (Proc.devRef .tc main_v64) ((dat8 (T15 m) c).arrAt 2 cfg8.N)
abbrev T16' : (c : Dev nD) → (b : Ref sig .tc) → Buf (Elt F) ((c : Thread nD τ).loc b) := fun c b => W16 m c b
abbrev W17 (c : Dev nD) : Valuation τ sig (Elt F) := StableHlo.after hostOps9 (W16 m c)
abbrev T17 : (c : Dev nD) → (b : Ref sig .tc) → Buf (Elt F) ((c : Thread nD τ).loc b) := fun c b => W17 m c b
def W18 (c : Dev nD) : Valuation τ sig (Elt F) :=
  Function.update (W17 m c) (Proc.devRef .tc main_v66) ((dat9 (T17 m) c).arrAt 3 cfg9.N)
abbrev T18' : (c : Dev nD) → (b : Ref sig .tc) → Buf (Elt F) ((c : Thread nD τ).loc b) := fun c b => W18 m c b
abbrev T18 : (c : Dev nD) → (b : Ref sig .tc) → Buf (Elt F) ((c : Thread nD τ).loc b) := fun c b => W18 m c b
def W19 (c : Dev nD) : Valuation τ sig (Elt F) :=
  Function.update (W18 m c) (Proc.devRef .tc main_v67) ((dat10 (T18 m) c).arrAt 2 cfg10.N)
abbrev T19' : (c : Dev nD) → (b : Ref sig .tc) → Buf (Elt F) ((c : Thread nD τ).loc b) := fun c b => W19 m c b

/-! ## Each region's arrays at its exit, and every other buffer as entered -/

theorem hF0_0 (c : Dev nD) : (dat0 (T3 m) c).arrAt 0 cfg0.N = T4' m c (Pipeline.arrRef spec0 0) := by
  rw [(dat0 (T3 m) c).arrAt_in 0 rfl _, A_eq0]
  show _ = W4 m c _
  unfold W4
  rw [Function.update_of_ne (StableHlo.devRef_ne_of_ne (by decide))]
theorem hF0_1 (c : Dev nD) : (dat0 (T3 m) c).arrAt 1 cfg0.N = T4' m c (Pipeline.arrRef spec0 1) := by
  rw [(dat0 (T3 m) c).arrAt_in 1 rfl _, A_eq0]
  show _ = W4 m c _
  unfold W4
  rw [Function.update_of_ne (StableHlo.devRef_ne_of_ne (by decide))]
theorem hF0_2 (c : Dev nD) : (dat0 (T3 m) c).arrAt 2 cfg0.N = T4' m c (Pipeline.arrRef spec0 2) := by
  show _ = W4 m c (Proc.devRef .tc main_v52)
  unfold W4
  exact (Function.update_self (Proc.devRef .tc main_v52 : DevRef τ sig) _ (W3 m c)).symm
theorem hF0 (c : Dev nD) (w : Fin cfg0.W) : (dat0 (T3 m) c).arrAt w cfg0.N = T4' m c (Pipeline.arrRef spec0 w) :=
  match w with
  | ⟨0, _⟩ => hF0_0 m c
  | ⟨1, _⟩ => hF0_1 m c
  | ⟨2, _⟩ => hF0_2 m c
theorem hrest0 (c : Dev nD) : ∀ b, b ∉ Finset.univ.image (Pipeline.arrRef spec0) → T4' m c b = T3 m c b := by
  intro b hb
  show W4 m c _ = W3 m c _
  unfold W4
  refine Function.update_of_ne (StableHlo.devRef_ne_of_ne ?_) _ _
  rintro rfl
  exact hb (Finset.mem_image.mpr ⟨2, Finset.mem_univ _, rfl⟩)
theorem W4_of (c : Dev nD) (r : Ref sig .tc) (h : r ≠ main_v52) : W4 m c (Proc.devRef .tc r) = W3 m c (Proc.devRef .tc r) := by
  unfold W4
  exact Function.update_of_ne (StableHlo.devRef_ne_of_ne h) _ _
theorem W4_out (c : Dev nD) : W4 m c (Proc.devRef .tc main_v52) = (dat0 (T3 m) c).arrAt 2 cfg0.N := by
  unfold W4
  exact Function.update_self (Proc.devRef .tc main_v52 : DevRef τ sig) _ (W3 m c)

theorem hF1_0 (c : Dev nD) : (dat1 (T5 m) c).arrAt 0 cfg1.N = T6' m c (Pipeline.arrRef spec1 0) := by
  rw [(dat1 (T5 m) c).arrAt_in 0 rfl _, A_eq1]
  show _ = W6 m c _
  unfold W6
  rw [Function.update_of_ne (StableHlo.devRef_ne_of_ne (by decide))]
theorem hF1_1 (c : Dev nD) : (dat1 (T5 m) c).arrAt 1 cfg1.N = T6' m c (Pipeline.arrRef spec1 1) := by
  rw [(dat1 (T5 m) c).arrAt_in 1 rfl _, A_eq1]
  show _ = W6 m c _
  unfold W6
  rw [Function.update_of_ne (StableHlo.devRef_ne_of_ne (by decide))]
theorem hF1_2 (c : Dev nD) : (dat1 (T5 m) c).arrAt 2 cfg1.N = T6' m c (Pipeline.arrRef spec1 2) := by
  rw [(dat1 (T5 m) c).arrAt_in 2 rfl _, A_eq1]
  show _ = W6 m c _
  unfold W6
  rw [Function.update_of_ne (StableHlo.devRef_ne_of_ne (by decide))]
theorem hF1_3 (c : Dev nD) : (dat1 (T5 m) c).arrAt 3 cfg1.N = T6' m c (Pipeline.arrRef spec1 3) := by
  show _ = W6 m c (Proc.devRef .tc main_v54)
  unfold W6
  exact (Function.update_self (Proc.devRef .tc main_v54 : DevRef τ sig) _ (W5 m c)).symm
theorem hF1 (c : Dev nD) (w : Fin cfg1.W) : (dat1 (T5 m) c).arrAt w cfg1.N = T6' m c (Pipeline.arrRef spec1 w) :=
  match w with
  | ⟨0, _⟩ => hF1_0 m c
  | ⟨1, _⟩ => hF1_1 m c
  | ⟨2, _⟩ => hF1_2 m c
  | ⟨3, _⟩ => hF1_3 m c
theorem hrest1 (c : Dev nD) : ∀ b, b ∉ Finset.univ.image (Pipeline.arrRef spec1) → T6' m c b = T5 m c b := by
  intro b hb
  show W6 m c _ = W5 m c _
  unfold W6
  refine Function.update_of_ne (StableHlo.devRef_ne_of_ne ?_) _ _
  rintro rfl
  exact hb (Finset.mem_image.mpr ⟨3, Finset.mem_univ _, rfl⟩)
theorem W6_of (c : Dev nD) (r : Ref sig .tc) (h : r ≠ main_v54) : W6 m c (Proc.devRef .tc r) = W5 m c (Proc.devRef .tc r) := by
  unfold W6
  exact Function.update_of_ne (StableHlo.devRef_ne_of_ne h) _ _
theorem W6_out (c : Dev nD) : W6 m c (Proc.devRef .tc main_v54) = (dat1 (T5 m) c).arrAt 3 cfg1.N := by
  unfold W6
  exact Function.update_self (Proc.devRef .tc main_v54 : DevRef τ sig) _ (W5 m c)

theorem hF2_0 (c : Dev nD) : (dat2 (T6 m) c).arrAt 0 cfg2.N = T7' m c (Pipeline.arrRef spec2 0) := by
  rw [(dat2 (T6 m) c).arrAt_in 0 rfl _, A_eq2]
  show _ = W7 m c _
  unfold W7
  rw [Function.update_of_ne (StableHlo.devRef_ne_of_ne (by decide))]
theorem hF2_1 (c : Dev nD) : (dat2 (T6 m) c).arrAt 1 cfg2.N = T7' m c (Pipeline.arrRef spec2 1) := by
  rw [(dat2 (T6 m) c).arrAt_in 1 rfl _, A_eq2]
  show _ = W7 m c _
  unfold W7
  rw [Function.update_of_ne (StableHlo.devRef_ne_of_ne (by decide))]
theorem hF2_2 (c : Dev nD) : (dat2 (T6 m) c).arrAt 2 cfg2.N = T7' m c (Pipeline.arrRef spec2 2) := by
  show _ = W7 m c (Proc.devRef .tc main_v55)
  unfold W7
  exact (Function.update_self (Proc.devRef .tc main_v55 : DevRef τ sig) _ (W6 m c)).symm
theorem hF2 (c : Dev nD) (w : Fin cfg2.W) : (dat2 (T6 m) c).arrAt w cfg2.N = T7' m c (Pipeline.arrRef spec2 w) :=
  match w with
  | ⟨0, _⟩ => hF2_0 m c
  | ⟨1, _⟩ => hF2_1 m c
  | ⟨2, _⟩ => hF2_2 m c
theorem hrest2 (c : Dev nD) : ∀ b, b ∉ Finset.univ.image (Pipeline.arrRef spec2) → T7' m c b = T6 m c b := by
  intro b hb
  show W7 m c _ = W6 m c _
  unfold W7
  refine Function.update_of_ne (StableHlo.devRef_ne_of_ne ?_) _ _
  rintro rfl
  exact hb (Finset.mem_image.mpr ⟨2, Finset.mem_univ _, rfl⟩)
theorem W7_of (c : Dev nD) (r : Ref sig .tc) (h : r ≠ main_v55) : W7 m c (Proc.devRef .tc r) = W6 m c (Proc.devRef .tc r) := by
  unfold W7
  exact Function.update_of_ne (StableHlo.devRef_ne_of_ne h) _ _
theorem W7_out (c : Dev nD) : W7 m c (Proc.devRef .tc main_v55) = (dat2 (T6 m) c).arrAt 2 cfg2.N := by
  unfold W7
  exact Function.update_self (Proc.devRef .tc main_v55 : DevRef τ sig) _ (W6 m c)

theorem hF3_0 (c : Dev nD) : (dat3 (T8 m) c).arrAt 0 cfg3.N = T9' m c (Pipeline.arrRef spec3 0) := by
  rw [(dat3 (T8 m) c).arrAt_in 0 rfl _, A_eq3]
  show _ = W9 m c _
  unfold W9
  rw [Function.update_of_ne (StableHlo.devRef_ne_of_ne (by decide))]
theorem hF3_1 (c : Dev nD) : (dat3 (T8 m) c).arrAt 1 cfg3.N = T9' m c (Pipeline.arrRef spec3 1) := by
  rw [(dat3 (T8 m) c).arrAt_in 1 rfl _, A_eq3]
  show _ = W9 m c _
  unfold W9
  rw [Function.update_of_ne (StableHlo.devRef_ne_of_ne (by decide))]
theorem hF3_2 (c : Dev nD) : (dat3 (T8 m) c).arrAt 2 cfg3.N = T9' m c (Pipeline.arrRef spec3 2) := by
  rw [(dat3 (T8 m) c).arrAt_in 2 rfl _, A_eq3]
  show _ = W9 m c _
  unfold W9
  rw [Function.update_of_ne (StableHlo.devRef_ne_of_ne (by decide))]
theorem hF3_3 (c : Dev nD) : (dat3 (T8 m) c).arrAt 3 cfg3.N = T9' m c (Pipeline.arrRef spec3 3) := by
  show _ = W9 m c (Proc.devRef .tc main_v57)
  unfold W9
  exact (Function.update_self (Proc.devRef .tc main_v57 : DevRef τ sig) _ (W8 m c)).symm
theorem hF3 (c : Dev nD) (w : Fin cfg3.W) : (dat3 (T8 m) c).arrAt w cfg3.N = T9' m c (Pipeline.arrRef spec3 w) :=
  match w with
  | ⟨0, _⟩ => hF3_0 m c
  | ⟨1, _⟩ => hF3_1 m c
  | ⟨2, _⟩ => hF3_2 m c
  | ⟨3, _⟩ => hF3_3 m c
theorem hrest3 (c : Dev nD) : ∀ b, b ∉ Finset.univ.image (Pipeline.arrRef spec3) → T9' m c b = T8 m c b := by
  intro b hb
  show W9 m c _ = W8 m c _
  unfold W9
  refine Function.update_of_ne (StableHlo.devRef_ne_of_ne ?_) _ _
  rintro rfl
  exact hb (Finset.mem_image.mpr ⟨3, Finset.mem_univ _, rfl⟩)
theorem W9_of (c : Dev nD) (r : Ref sig .tc) (h : r ≠ main_v57) : W9 m c (Proc.devRef .tc r) = W8 m c (Proc.devRef .tc r) := by
  unfold W9
  exact Function.update_of_ne (StableHlo.devRef_ne_of_ne h) _ _
theorem W9_out (c : Dev nD) : W9 m c (Proc.devRef .tc main_v57) = (dat3 (T8 m) c).arrAt 3 cfg3.N := by
  unfold W9
  exact Function.update_self (Proc.devRef .tc main_v57 : DevRef τ sig) _ (W8 m c)

theorem hF4_0 (c : Dev nD) : (dat4 (T9 m) c).arrAt 0 cfg4.N = T10' m c (Pipeline.arrRef spec4 0) := by
  rw [(dat4 (T9 m) c).arrAt_in 0 rfl _, A_eq4]
  show _ = W10 m c _
  unfold W10
  rw [Function.update_of_ne (StableHlo.devRef_ne_of_ne (by decide))]
theorem hF4_1 (c : Dev nD) : (dat4 (T9 m) c).arrAt 1 cfg4.N = T10' m c (Pipeline.arrRef spec4 1) := by
  rw [(dat4 (T9 m) c).arrAt_in 1 rfl _, A_eq4]
  show _ = W10 m c _
  unfold W10
  rw [Function.update_of_ne (StableHlo.devRef_ne_of_ne (by decide))]
theorem hF4_2 (c : Dev nD) : (dat4 (T9 m) c).arrAt 2 cfg4.N = T10' m c (Pipeline.arrRef spec4 2) := by
  show _ = W10 m c (Proc.devRef .tc main_v58)
  unfold W10
  exact (Function.update_self (Proc.devRef .tc main_v58 : DevRef τ sig) _ (W9 m c)).symm
theorem hF4 (c : Dev nD) (w : Fin cfg4.W) : (dat4 (T9 m) c).arrAt w cfg4.N = T10' m c (Pipeline.arrRef spec4 w) :=
  match w with
  | ⟨0, _⟩ => hF4_0 m c
  | ⟨1, _⟩ => hF4_1 m c
  | ⟨2, _⟩ => hF4_2 m c
theorem hrest4 (c : Dev nD) : ∀ b, b ∉ Finset.univ.image (Pipeline.arrRef spec4) → T10' m c b = T9 m c b := by
  intro b hb
  show W10 m c _ = W9 m c _
  unfold W10
  refine Function.update_of_ne (StableHlo.devRef_ne_of_ne ?_) _ _
  rintro rfl
  exact hb (Finset.mem_image.mpr ⟨2, Finset.mem_univ _, rfl⟩)
theorem W10_of (c : Dev nD) (r : Ref sig .tc) (h : r ≠ main_v58) : W10 m c (Proc.devRef .tc r) = W9 m c (Proc.devRef .tc r) := by
  unfold W10
  exact Function.update_of_ne (StableHlo.devRef_ne_of_ne h) _ _
theorem W10_out (c : Dev nD) : W10 m c (Proc.devRef .tc main_v58) = (dat4 (T9 m) c).arrAt 2 cfg4.N := by
  unfold W10
  exact Function.update_self (Proc.devRef .tc main_v58 : DevRef τ sig) _ (W9 m c)

theorem hF5_0 (c : Dev nD) : (dat5 (T11 m) c).arrAt 0 cfg5.N = T12' m c (Pipeline.arrRef spec5 0) := by
  rw [(dat5 (T11 m) c).arrAt_in 0 rfl _, A_eq5]
  show _ = W12 m c _
  unfold W12
  rw [Function.update_of_ne (StableHlo.devRef_ne_of_ne (by decide))]
theorem hF5_1 (c : Dev nD) : (dat5 (T11 m) c).arrAt 1 cfg5.N = T12' m c (Pipeline.arrRef spec5 1) := by
  rw [(dat5 (T11 m) c).arrAt_in 1 rfl _, A_eq5]
  show _ = W12 m c _
  unfold W12
  rw [Function.update_of_ne (StableHlo.devRef_ne_of_ne (by decide))]
theorem hF5_2 (c : Dev nD) : (dat5 (T11 m) c).arrAt 2 cfg5.N = T12' m c (Pipeline.arrRef spec5 2) := by
  rw [(dat5 (T11 m) c).arrAt_in 2 rfl _, A_eq5]
  show _ = W12 m c _
  unfold W12
  rw [Function.update_of_ne (StableHlo.devRef_ne_of_ne (by decide))]
theorem hF5_3 (c : Dev nD) : (dat5 (T11 m) c).arrAt 3 cfg5.N = T12' m c (Pipeline.arrRef spec5 3) := by
  show _ = W12 m c (Proc.devRef .tc main_v60)
  unfold W12
  exact (Function.update_self (Proc.devRef .tc main_v60 : DevRef τ sig) _ (W11 m c)).symm
theorem hF5 (c : Dev nD) (w : Fin cfg5.W) : (dat5 (T11 m) c).arrAt w cfg5.N = T12' m c (Pipeline.arrRef spec5 w) :=
  match w with
  | ⟨0, _⟩ => hF5_0 m c
  | ⟨1, _⟩ => hF5_1 m c
  | ⟨2, _⟩ => hF5_2 m c
  | ⟨3, _⟩ => hF5_3 m c
theorem hrest5 (c : Dev nD) : ∀ b, b ∉ Finset.univ.image (Pipeline.arrRef spec5) → T12' m c b = T11 m c b := by
  intro b hb
  show W12 m c _ = W11 m c _
  unfold W12
  refine Function.update_of_ne (StableHlo.devRef_ne_of_ne ?_) _ _
  rintro rfl
  exact hb (Finset.mem_image.mpr ⟨3, Finset.mem_univ _, rfl⟩)
theorem W12_of (c : Dev nD) (r : Ref sig .tc) (h : r ≠ main_v60) : W12 m c (Proc.devRef .tc r) = W11 m c (Proc.devRef .tc r) := by
  unfold W12
  exact Function.update_of_ne (StableHlo.devRef_ne_of_ne h) _ _
theorem W12_out (c : Dev nD) : W12 m c (Proc.devRef .tc main_v60) = (dat5 (T11 m) c).arrAt 3 cfg5.N := by
  unfold W12
  exact Function.update_self (Proc.devRef .tc main_v60 : DevRef τ sig) _ (W11 m c)

theorem hF6_0 (c : Dev nD) : (dat6 (T12 m) c).arrAt 0 cfg6.N = T13' m c (Pipeline.arrRef spec6 0) := by
  rw [(dat6 (T12 m) c).arrAt_in 0 rfl _, A_eq6]
  show _ = W13 m c _
  unfold W13
  rw [Function.update_of_ne (StableHlo.devRef_ne_of_ne (by decide))]
theorem hF6_1 (c : Dev nD) : (dat6 (T12 m) c).arrAt 1 cfg6.N = T13' m c (Pipeline.arrRef spec6 1) := by
  rw [(dat6 (T12 m) c).arrAt_in 1 rfl _, A_eq6]
  show _ = W13 m c _
  unfold W13
  rw [Function.update_of_ne (StableHlo.devRef_ne_of_ne (by decide))]
theorem hF6_2 (c : Dev nD) : (dat6 (T12 m) c).arrAt 2 cfg6.N = T13' m c (Pipeline.arrRef spec6 2) := by
  show _ = W13 m c (Proc.devRef .tc main_v61)
  unfold W13
  exact (Function.update_self (Proc.devRef .tc main_v61 : DevRef τ sig) _ (W12 m c)).symm
theorem hF6 (c : Dev nD) (w : Fin cfg6.W) : (dat6 (T12 m) c).arrAt w cfg6.N = T13' m c (Pipeline.arrRef spec6 w) :=
  match w with
  | ⟨0, _⟩ => hF6_0 m c
  | ⟨1, _⟩ => hF6_1 m c
  | ⟨2, _⟩ => hF6_2 m c
theorem hrest6 (c : Dev nD) : ∀ b, b ∉ Finset.univ.image (Pipeline.arrRef spec6) → T13' m c b = T12 m c b := by
  intro b hb
  show W13 m c _ = W12 m c _
  unfold W13
  refine Function.update_of_ne (StableHlo.devRef_ne_of_ne ?_) _ _
  rintro rfl
  exact hb (Finset.mem_image.mpr ⟨2, Finset.mem_univ _, rfl⟩)
theorem W13_of (c : Dev nD) (r : Ref sig .tc) (h : r ≠ main_v61) : W13 m c (Proc.devRef .tc r) = W12 m c (Proc.devRef .tc r) := by
  unfold W13
  exact Function.update_of_ne (StableHlo.devRef_ne_of_ne h) _ _
theorem W13_out (c : Dev nD) : W13 m c (Proc.devRef .tc main_v61) = (dat6 (T12 m) c).arrAt 2 cfg6.N := by
  unfold W13
  exact Function.update_self (Proc.devRef .tc main_v61 : DevRef τ sig) _ (W12 m c)

theorem hF7_0 (c : Dev nD) : (dat7 (T14 m) c).arrAt 0 cfg7.N = T15' m c (Pipeline.arrRef spec7 0) := by
  rw [(dat7 (T14 m) c).arrAt_in 0 rfl _, A_eq7]
  show _ = W15 m c _
  unfold W15
  rw [Function.update_of_ne (StableHlo.devRef_ne_of_ne (by decide))]
theorem hF7_1 (c : Dev nD) : (dat7 (T14 m) c).arrAt 1 cfg7.N = T15' m c (Pipeline.arrRef spec7 1) := by
  rw [(dat7 (T14 m) c).arrAt_in 1 rfl _, A_eq7]
  show _ = W15 m c _
  unfold W15
  rw [Function.update_of_ne (StableHlo.devRef_ne_of_ne (by decide))]
theorem hF7_2 (c : Dev nD) : (dat7 (T14 m) c).arrAt 2 cfg7.N = T15' m c (Pipeline.arrRef spec7 2) := by
  rw [(dat7 (T14 m) c).arrAt_in 2 rfl _, A_eq7]
  show _ = W15 m c _
  unfold W15
  rw [Function.update_of_ne (StableHlo.devRef_ne_of_ne (by decide))]
theorem hF7_3 (c : Dev nD) : (dat7 (T14 m) c).arrAt 3 cfg7.N = T15' m c (Pipeline.arrRef spec7 3) := by
  show _ = W15 m c (Proc.devRef .tc main_v63)
  unfold W15
  exact (Function.update_self (Proc.devRef .tc main_v63 : DevRef τ sig) _ (W14 m c)).symm
theorem hF7 (c : Dev nD) (w : Fin cfg7.W) : (dat7 (T14 m) c).arrAt w cfg7.N = T15' m c (Pipeline.arrRef spec7 w) :=
  match w with
  | ⟨0, _⟩ => hF7_0 m c
  | ⟨1, _⟩ => hF7_1 m c
  | ⟨2, _⟩ => hF7_2 m c
  | ⟨3, _⟩ => hF7_3 m c
theorem hrest7 (c : Dev nD) : ∀ b, b ∉ Finset.univ.image (Pipeline.arrRef spec7) → T15' m c b = T14 m c b := by
  intro b hb
  show W15 m c _ = W14 m c _
  unfold W15
  refine Function.update_of_ne (StableHlo.devRef_ne_of_ne ?_) _ _
  rintro rfl
  exact hb (Finset.mem_image.mpr ⟨3, Finset.mem_univ _, rfl⟩)
theorem W15_of (c : Dev nD) (r : Ref sig .tc) (h : r ≠ main_v63) : W15 m c (Proc.devRef .tc r) = W14 m c (Proc.devRef .tc r) := by
  unfold W15
  exact Function.update_of_ne (StableHlo.devRef_ne_of_ne h) _ _
theorem W15_out (c : Dev nD) : W15 m c (Proc.devRef .tc main_v63) = (dat7 (T14 m) c).arrAt 3 cfg7.N := by
  unfold W15
  exact Function.update_self (Proc.devRef .tc main_v63 : DevRef τ sig) _ (W14 m c)

theorem hF8_0 (c : Dev nD) : (dat8 (T15 m) c).arrAt 0 cfg8.N = T16' m c (Pipeline.arrRef spec8 0) := by
  rw [(dat8 (T15 m) c).arrAt_in 0 rfl _, A_eq8]
  show _ = W16 m c _
  unfold W16
  rw [Function.update_of_ne (StableHlo.devRef_ne_of_ne (by decide))]
theorem hF8_1 (c : Dev nD) : (dat8 (T15 m) c).arrAt 1 cfg8.N = T16' m c (Pipeline.arrRef spec8 1) := by
  rw [(dat8 (T15 m) c).arrAt_in 1 rfl _, A_eq8]
  show _ = W16 m c _
  unfold W16
  rw [Function.update_of_ne (StableHlo.devRef_ne_of_ne (by decide))]
theorem hF8_2 (c : Dev nD) : (dat8 (T15 m) c).arrAt 2 cfg8.N = T16' m c (Pipeline.arrRef spec8 2) := by
  show _ = W16 m c (Proc.devRef .tc main_v64)
  unfold W16
  exact (Function.update_self (Proc.devRef .tc main_v64 : DevRef τ sig) _ (W15 m c)).symm
theorem hF8 (c : Dev nD) (w : Fin cfg8.W) : (dat8 (T15 m) c).arrAt w cfg8.N = T16' m c (Pipeline.arrRef spec8 w) :=
  match w with
  | ⟨0, _⟩ => hF8_0 m c
  | ⟨1, _⟩ => hF8_1 m c
  | ⟨2, _⟩ => hF8_2 m c
theorem hrest8 (c : Dev nD) : ∀ b, b ∉ Finset.univ.image (Pipeline.arrRef spec8) → T16' m c b = T15 m c b := by
  intro b hb
  show W16 m c _ = W15 m c _
  unfold W16
  refine Function.update_of_ne (StableHlo.devRef_ne_of_ne ?_) _ _
  rintro rfl
  exact hb (Finset.mem_image.mpr ⟨2, Finset.mem_univ _, rfl⟩)
theorem W16_of (c : Dev nD) (r : Ref sig .tc) (h : r ≠ main_v64) : W16 m c (Proc.devRef .tc r) = W15 m c (Proc.devRef .tc r) := by
  unfold W16
  exact Function.update_of_ne (StableHlo.devRef_ne_of_ne h) _ _
theorem W16_out (c : Dev nD) : W16 m c (Proc.devRef .tc main_v64) = (dat8 (T15 m) c).arrAt 2 cfg8.N := by
  unfold W16
  exact Function.update_self (Proc.devRef .tc main_v64 : DevRef τ sig) _ (W15 m c)

theorem hF9_0 (c : Dev nD) : (dat9 (T17 m) c).arrAt 0 cfg9.N = T18' m c (Pipeline.arrRef spec9 0) := by
  rw [(dat9 (T17 m) c).arrAt_in 0 rfl _, A_eq9]
  show _ = W18 m c _
  unfold W18
  rw [Function.update_of_ne (StableHlo.devRef_ne_of_ne (by decide))]
theorem hF9_1 (c : Dev nD) : (dat9 (T17 m) c).arrAt 1 cfg9.N = T18' m c (Pipeline.arrRef spec9 1) := by
  rw [(dat9 (T17 m) c).arrAt_in 1 rfl _, A_eq9]
  show _ = W18 m c _
  unfold W18
  rw [Function.update_of_ne (StableHlo.devRef_ne_of_ne (by decide))]
theorem hF9_2 (c : Dev nD) : (dat9 (T17 m) c).arrAt 2 cfg9.N = T18' m c (Pipeline.arrRef spec9 2) := by
  rw [(dat9 (T17 m) c).arrAt_in 2 rfl _, A_eq9]
  show _ = W18 m c _
  unfold W18
  rw [Function.update_of_ne (StableHlo.devRef_ne_of_ne (by decide))]
theorem hF9_3 (c : Dev nD) : (dat9 (T17 m) c).arrAt 3 cfg9.N = T18' m c (Pipeline.arrRef spec9 3) := by
  show _ = W18 m c (Proc.devRef .tc main_v66)
  unfold W18
  exact (Function.update_self (Proc.devRef .tc main_v66 : DevRef τ sig) _ (W17 m c)).symm
theorem hF9 (c : Dev nD) (w : Fin cfg9.W) : (dat9 (T17 m) c).arrAt w cfg9.N = T18' m c (Pipeline.arrRef spec9 w) :=
  match w with
  | ⟨0, _⟩ => hF9_0 m c
  | ⟨1, _⟩ => hF9_1 m c
  | ⟨2, _⟩ => hF9_2 m c
  | ⟨3, _⟩ => hF9_3 m c
theorem hrest9 (c : Dev nD) : ∀ b, b ∉ Finset.univ.image (Pipeline.arrRef spec9) → T18' m c b = T17 m c b := by
  intro b hb
  show W18 m c _ = W17 m c _
  unfold W18
  refine Function.update_of_ne (StableHlo.devRef_ne_of_ne ?_) _ _
  rintro rfl
  exact hb (Finset.mem_image.mpr ⟨3, Finset.mem_univ _, rfl⟩)
theorem W18_of (c : Dev nD) (r : Ref sig .tc) (h : r ≠ main_v66) : W18 m c (Proc.devRef .tc r) = W17 m c (Proc.devRef .tc r) := by
  unfold W18
  exact Function.update_of_ne (StableHlo.devRef_ne_of_ne h) _ _
theorem W18_out (c : Dev nD) : W18 m c (Proc.devRef .tc main_v66) = (dat9 (T17 m) c).arrAt 3 cfg9.N := by
  unfold W18
  exact Function.update_self (Proc.devRef .tc main_v66 : DevRef τ sig) _ (W17 m c)

theorem hF10_0 (c : Dev nD) : (dat10 (T18 m) c).arrAt 0 cfg10.N = T19' m c (Pipeline.arrRef spec10 0) := by
  rw [(dat10 (T18 m) c).arrAt_in 0 rfl _, A_eq10]
  show _ = W19 m c _
  unfold W19
  rw [Function.update_of_ne (StableHlo.devRef_ne_of_ne (by decide))]
theorem hF10_1 (c : Dev nD) : (dat10 (T18 m) c).arrAt 1 cfg10.N = T19' m c (Pipeline.arrRef spec10 1) := by
  rw [(dat10 (T18 m) c).arrAt_in 1 rfl _, A_eq10]
  show _ = W19 m c _
  unfold W19
  rw [Function.update_of_ne (StableHlo.devRef_ne_of_ne (by decide))]
theorem hF10_2 (c : Dev nD) : (dat10 (T18 m) c).arrAt 2 cfg10.N = T19' m c (Pipeline.arrRef spec10 2) := by
  show _ = W19 m c (Proc.devRef .tc main_v67)
  unfold W19
  exact (Function.update_self (Proc.devRef .tc main_v67 : DevRef τ sig) _ (W18 m c)).symm
theorem hF10 (c : Dev nD) (w : Fin cfg10.W) : (dat10 (T18 m) c).arrAt w cfg10.N = T19' m c (Pipeline.arrRef spec10 w) :=
  match w with
  | ⟨0, _⟩ => hF10_0 m c
  | ⟨1, _⟩ => hF10_1 m c
  | ⟨2, _⟩ => hF10_2 m c
theorem hrest10 (c : Dev nD) : ∀ b, b ∉ Finset.univ.image (Pipeline.arrRef spec10) → T19' m c b = T18 m c b := by
  intro b hb
  show W19 m c _ = W18 m c _
  unfold W19
  refine Function.update_of_ne (StableHlo.devRef_ne_of_ne ?_) _ _
  rintro rfl
  exact hb (Finset.mem_image.mpr ⟨2, Finset.mem_univ _, rfl⟩)
theorem W19_of (c : Dev nD) (r : Ref sig .tc) (h : r ≠ main_v67) : W19 m c (Proc.devRef .tc r) = W18 m c (Proc.devRef .tc r) := by
  unfold W19
  exact Function.update_of_ne (StableHlo.devRef_ne_of_ne h) _ _
theorem W19_out (c : Dev nD) : W19 m c (Proc.devRef .tc main_v67) = (dat10 (T18 m) c).arrAt 2 cfg10.N := by
  unfold W19
  exact Function.update_self (Proc.devRef .tc main_v67 : DevRef τ sig) _ (W18 m c)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W8_of (c : Dev nD) (r : Ref sig .tc) (h : r ∉ hostOps3_W) : W8 m c (Proc.devRef .tc r) = W7 m c (Proc.devRef .tc r) :=
  StableHlo.after_of_writes_sub hostOps3 _ hostOps3_writes h
theorem W11_of (c : Dev nD) (r : Ref sig .tc) (h : r ∉ hostOps5_W) : W11 m c (Proc.devRef .tc r) = W10 m c (Proc.devRef .tc r) :=
  StableHlo.after_of_writes_sub hostOps5 _ hostOps5_writes h
theorem W14_of (c : Dev nD) (r : Ref sig .tc) (h : r ∉ hostOps7_W) : W14 m c (Proc.devRef .tc r) = W13 m c (Proc.devRef .tc r) :=
  StableHlo.after_of_writes_sub hostOps7 _ hostOps7_writes h
theorem W17_of (c : Dev nD) (r : Ref sig .tc) (h : r ∉ hostOps9_W) : W17 m c (Proc.devRef .tc r) = W16 m c (Proc.devRef .tc r) :=
  StableHlo.after_of_writes_sub hostOps9 _ hostOps9_writes h

/-! ## No operation and no region writes an argument -/

theorem W19_main_arg0 (c : Dev nD) : W19 m c (Proc.devRef .tc main_arg0) = m ((c : Thread nD τ).loc main_arg0) :=
  (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W19_main_arg1 (c : Dev nD) : W19 m c (Proc.devRef .tc main_arg1) = m ((c : Thread nD τ).loc main_arg1) :=
  (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W19_main_arg2 (c : Dev nD) : W19 m c (Proc.devRef .tc main_arg2) = m ((c : Thread nD τ).loc main_arg2) :=
  (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W19_main_arg3 (c : Dev nD) : W19 m c (Proc.devRef .tc main_arg3) = m ((c : Thread nD τ).loc main_arg3) :=
  (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W19_main_arg4 (c : Dev nD) : W19 m c (Proc.devRef .tc main_arg4) = m ((c : Thread nD τ).loc main_arg4) :=
  (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W19_main_arg5 (c : Dev nD) : W19 m c (Proc.devRef .tc main_arg5) = m ((c : Thread nD τ).loc main_arg5) :=
  (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W19_main_arg6 (c : Dev nD) : W19 m c (Proc.devRef .tc main_arg6) = m ((c : Thread nD τ).loc main_arg6) :=
  (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W19_main_arg7 (c : Dev nD) : W19 m c (Proc.devRef .tc main_arg7) = m ((c : Thread nD τ).loc main_arg7) :=
  (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W19_main_arg8 (c : Dev nD) : W19 m c (Proc.devRef .tc main_arg8) = m ((c : Thread nD τ).loc main_arg8) :=
  (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W19_main_arg9 (c : Dev nD) : W19 m c (Proc.devRef .tc main_arg9) = m ((c : Thread nD τ).loc main_arg9) :=
  (W19_of m c main_arg9 (by decide)).trans <| (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W19_main_arg10 (c : Dev nD) : W19 m c (Proc.devRef .tc main_arg10) = m ((c : Thread nD τ).loc main_arg10) :=
  (W19_of m c main_arg10 (by decide)).trans <| (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W19_main_arg11 (c : Dev nD) : W19 m c (Proc.devRef .tc main_arg11) = m ((c : Thread nD τ).loc main_arg11) :=
  (W19_of m c main_arg11 (by decide)).trans <| (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl

end Cert.Kernel.Hand
end
-- ==== Proof.K.Run.lean ====
/- @main as a list of segments — host stretches and kernel regions — over the boundary contents of the fold, each region's
   record assembled from its proof data and body obligation; the launch theorem for several regions then gives the run:
   every weakly fair execution terminates, nothing faulting, every unscoped buffer ending at the last boundary's contents;
   the argument arrays therefore end as launched. -/
import proofs.«179362_j6141803233546_1_alg».proof.Proof.K.Fold
import proofs.«179362_j6141803233546_1_alg».proof.Proof.Gen.Kernel.Launch
import proofs.«179362_j6141803233546_1_alg».proof.Proof.Gen.Kernel.Skeleton
import proofs.«179362_j6141803233546_1_alg».proof.Proof.Gen.Kernel.Points
import proofs.«179362_j6141803233546_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pallas_call has a prefetched table. -/
abbrev adm' : (p : Fin 11) → (pcfgs (F := F) p).Adm := fun p => (cfgs p).toPCfg_adm
/-- Every region's proof data, each at its region's entry contents. -/
def pdats : (p : Fin 11) → (c : Dev nD) → Dat τ (Elt F) Unit ℕ (UR sig nD τ) ℕ (Pipeline.pin (pcfgs (F := F)) adm' p) c
  | ⟨0, _⟩ => fun c => dat0 (T3 m) c
  | ⟨1, _⟩ => fun c => dat1 (T5 m) c
  | ⟨2, _⟩ => fun c => dat2 (T6 m) c
  | ⟨3, _⟩ => fun c => dat3 (T8 m) c
  | ⟨4, _⟩ => fun c => dat4 (T9 m) c
  | ⟨5, _⟩ => fun c => dat5 (T11 m) c
  | ⟨6, _⟩ => fun c => dat6 (T12 m) c
  | ⟨7, _⟩ => fun c => dat7 (T14 m) c
  | ⟨8, _⟩ => fun c => dat8 (T15 m) c
  | ⟨9, _⟩ => fun c => dat9 (T17 m) c
  | ⟨10, _⟩ => fun c => dat10 (T18 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m c) ∗ ∃ r, prngReg c r)

/-! ## The regions as segments -/

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun c t => owed_eq0 (T3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm' (pdats m) launch0.win launch0.arr_whole c
      ((pdats m 0 c).share_full fun w => q_eq0 (T3 m) c w) (T3 m c) fun w => A_eq0 (T3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec0 c)).trans (phi_in0 (T3 m) c)
    iintro ⟨Hp, -, Hr⟩
    isplitl [Hp]; · iexact Hp
    iexact Hr
  hout c := by
    rw [Pipeline.ownSems0_none]
    refine (phi_out0 (T3 m) c).trans ?_
    iintro ⟨Hp, Hr⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun w => q_eq0 (T3 m) c w)
      (T3 m c) (T4' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun c t => owed_eq1 (T5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm' (pdats m) launch1.win launch1.arr_whole c
      ((pdats m 1 c).share_full fun w => q_eq1 (T5 m) c w) (T5 m c) fun w => A_eq1 (T5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec1 c)).trans (phi_in1 (T5 m) c)
    iintro ⟨Hp, -, Hr⟩
    isplitl [Hp]; · iexact Hp
    iexact Hr
  hout c := by
    rw [Pipeline.ownSems0_none]
    refine (phi_out1 (T5 m) c).trans ?_
    iintro ⟨Hp, Hr⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun w => q_eq1 (T5 m) c w)
      (T5 m c) (T6' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ L lv 2 fun c t => owed_eq2 (T6 m) c t
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := by
    rw [Pipeline.ownSems0_none]
    have hsplit := Pipeline.arrays_of_unscopedBufs (p := 2) (pcfgs (F := F)) adm' (pdats m) launch2.win launch2.arr_whole c
      ((pdats m 2 c).share_full fun w => q_eq2 (T6 m) c w) (T6 m c) fun w => A_eq2 (T6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec2 c)).trans (phi_in2 (T6 m) c)
    iintro ⟨Hp, -, Hr⟩
    isplitl [Hp]; · iexact Hp
    iexact Hr
  hout c := by
    rw [Pipeline.ownSems0_none]
    refine (phi_out2 (T6 m) c).trans ?_
    iintro ⟨Hp, Hr⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun w => q_eq2 (T6 m) c w)
      (T6 m c) (T7' m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm' (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T8 m) c).loose
  hwaits := Pipeline.hwaits_of_owed_zero _ _ _ _ L lv 3 fun c t => owed_eq3 (T8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (T8 m c)
  hentry c := by
    rw [Pipeline.ownSems0_none]
    have hsplit := Pipeline.arrays_of_unscopedBufs (p := 3) (pcfgs (F := F)) adm' (pdats m) launch3.win launch3.arr_whole c
      ((pdats m 3 c).share_full fun w => q_eq3 (T8 m) c w) (T8 m c) fun w => A_eq3 (T8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec3 c)).trans (phi_in3 (T8 m) c)
    iintro ⟨Hp, -, Hr⟩
    isplitl [Hp]; · iexact Hp
    iexact Hr
  hout c := by
    rw [Pipeline.ownSems0_none]
    refine (phi_out3 (T8 m) c).trans ?_
    iintro ⟨Hp, Hr⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun w => q_eq3 (T8 m) c w)
      (T8 m c) (T9' m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm' (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun c t => owed_eq4 (T9 m) c t
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm' (pdats m) launch4.win launch4.arr_whole c
      ((pdats m 4 c).share_full fun w => q_eq4 (T9 m) c w) (T9 m c) fun w => A_eq4 (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec4 c)).trans (phi_in4 (T9 m) c)
    iintro ⟨Hp, -, Hr⟩
    isplitl [Hp]; · iexact Hp
    iexact Hr
  hout c := by
    rw [Pipeline.ownSems0_none]
    refine (phi_out4 (T9 m) c).trans ?_
    iintro ⟨Hp, Hr⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m) ((pdats m 4 c).share_full fun w => q_eq4 (T9 m) c w)
      (T9 m c) (T10' m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm' (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun c t => owed_eq5 (T11 m) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) adm' (pdats m) launch5.win launch5.arr_whole c
      ((pdats m 5 c).share_full fun w => q_eq5 (T11 m) c w) (T11 m c) fun w => A_eq5 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec5 c)).trans (phi_in5 (T11 m) c)
    iintro ⟨Hp, -, Hr⟩
    isplitl [Hp]; · iexact Hp
    iexact Hr
  hout c := by
    rw [Pipeline.ownSems0_none]
    refine (phi_out5 (T11 m) c).trans ?_
    iintro ⟨Hp, Hr⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m) ((pdats m 5 c).share_full fun w => q_eq5 (T11 m) c w)
      (T11 m c) (T12' m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm' (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T12 m) c).loose
  hwaits := Pipeline.hwaits_of_owed_zero _ _ _ _ L lv 6 fun c t => owed_eq6 (T12 m) c t
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec6 c (T12 m c)
  hentry c := by
    rw [Pipeline.ownSems0_none]
    have hsplit := Pipeline.arrays_of_unscopedBufs (p := 6) (pcfgs (F := F)) adm' (pdats m) launch6.win launch6.arr_whole c
      ((pdats m 6 c).share_full fun w => q_eq6 (T12 m) c w) (T12 m c) fun w => A_eq6 (T12 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec6 c)).trans (phi_in6 (T12 m) c)
    iintro ⟨Hp, -, Hr⟩
    isplitl [Hp]; · iexact Hp
    iexact Hr
  hout c := by
    rw [Pipeline.ownSems0_none]
    refine (phi_out6 (T12 m) c).trans ?_
    iintro ⟨Hp, Hr⟩
    isplitl [Hp]; · iexact Hp
    isplitr; · iempintro
    iexact Hr
  hexit c := by
    have hjoin := Pipeline.unscopedBufs_of_arrays (p := 6) (pcfgs (F := F)) adm' (Ix := Unit) (Name := ℕ) (U := UR sig nD τ) (Lvl := ℕ)
      launch6.win launch6.arr_whole c (pdats m) ((pdats m 6 c).share_full fun w => q_eq6 (T12 m) c w)
      (T12 m c) (T13' m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 : Pipeline.RegionSeg (pcfgs (F := F)) adm' (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T14 m) c).loose
  hwaits := Pipeline.hwaits_of_owed_zero _ _ _ _ L lv 7 fun c t => owed_eq7 (T14 m) c t
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec7 c (T14 m c)
  hentry c := by
    rw [Pipeline.ownSems0_none]
    have hsplit := Pipeline.arrays_of_unscopedBufs (p := 7) (pcfgs (F := F)) adm' (pdats m) launch7.win launch7.arr_whole c
      ((pdats m 7 c).share_full fun w => q_eq7 (T14 m) c w) (T14 m c) fun w => A_eq7 (T14 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec7 c)).trans (phi_in7 (T14 m) c)
    iintro ⟨Hp, -, Hr⟩
    isplitl [Hp]; · iexact Hp
    iexact Hr
  hout c := by
    rw [Pipeline.ownSems0_none]
    refine (phi_out7 (T14 m) c).trans ?_
    iintro ⟨Hp, Hr⟩
    isplitl [Hp]; · iexact Hp
    isplitr; · iempintro
    iexact Hr
  hexit c := by
    have hjoin := Pipeline.unscopedBufs_of_arrays (p := 7) (pcfgs (F := F)) adm' (Ix := Unit) (Name := ℕ) (U := UR sig nD τ) (Lvl := ℕ)
      launch7.win launch7.arr_whole c (pdats m) ((pdats m 7 c).share_full fun w => q_eq7 (T14 m) c w)
      (T14 m c) (T15' m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg8 : Pipeline.RegionSeg (pcfgs (F := F)) adm' (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T15 m) c).loose
  hwaits := Pipeline.hwaits_of_owed_zero _ _ _ _ L lv 8 fun c t => owed_eq8 (T15 m) c t
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec8 c (T15 m c)
  hentry c := by
    rw [Pipeline.ownSems0_none]
    have hsplit := Pipeline.arrays_of_unscopedBufs (p := 8) (pcfgs (F := F)) adm' (pdats m) launch8.win launch8.arr_whole c
      ((pdats m 8 c).share_full fun w => q_eq8 (T15 m) c w) (T15 m c) fun w => A_eq8 (T15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec8 c)).trans (phi_in8 (T15 m) c)
    iintro ⟨Hp, -, Hr⟩
    isplitl [Hp]; · iexact Hp
    iexact Hr
  hout c := by
    rw [Pipeline.ownSems0_none]
    refine (phi_out8 (T15 m) c).trans ?_
    iintro ⟨Hp, Hr⟩
    isplitl [Hp]; · iexact Hp
    isplitr; · iempintro
    iexact Hr
  hexit c := by
    have hjoin := Pipeline.unscopedBufs_of_arrays (p := 8) (pcfgs (F := F)) adm' (Ix := Unit) (Name := ℕ) (U := UR sig nD τ) (Lvl := ℕ)
      launch8.win launch8.arr_whole c (pdats m) ((pdats m 8 c).share_full fun w => q_eq8 (T15 m) c w)
      (T15 m c) (T16' m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg9 : Pipeline.RegionSeg (pcfgs (F := F)) adm' (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T17 m) c).loose
  hwaits := Pipeline.hwaits_of_owed_zero _ _ _ _ L lv 9 fun c t => owed_eq9 (T17 m) c t
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec9 c (T17 m c)
  hentry c := by
    rw [Pipeline.ownSems0_none]
    have hsplit := Pipeline.arrays_of_unscopedBufs (p := 9) (pcfgs (F := F)) adm' (pdats m) launch9.win launch9.arr_whole c
      ((pdats m 9 c).share_full fun w => q_eq9 (T17 m) c w) (T17 m c) fun w => A_eq9 (T17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec9 c)).trans (phi_in9 (T17 m) c)
    iintro ⟨Hp, -, Hr⟩
    isplitl [Hp]; · iexact Hp
    iexact Hr
  hout c := by
    rw [Pipeline.ownSems0_none]
    refine (phi_out9 (T17 m) c).trans ?_
    iintro ⟨Hp, Hr⟩
    isplitl [Hp]; · iexact Hp
    isplitr; · iempintro
    iexact Hr
  hexit c := by
    have hjoin := Pipeline.unscopedBufs_of_arrays (p := 9) (pcfgs (F := F)) adm' (Ix := Unit) (Name := ℕ) (U := UR sig nD τ) (Lvl := ℕ)
      launch9.win launch9.arr_whole c (pdats m) ((pdats m 9 c).share_full fun w => q_eq9 (T17 m) c w)
      (T17 m c) (T18' m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg10 : Pipeline.RegionSeg (pcfgs (F := F)) adm' (pdats m) () defs₀ 𝒱₀ L lv 10 where
  win := winFacts₀10
  block_pos := block_pos10
  stage_whole := stage_whole10
  K := PEmpty
  osem k := k.elim
  ho := Pipeline.OwnSemFacts.none _
  hbody c := (body_obligation10 (T18 m) c).loose
  hwaits := Pipeline.hwaits_of_owed_zero _ _ _ _ L lv 10 fun c t => owed_eq10 (T18 m) c t
  pre c := iprop(StableHlo.held (c : Thread nD τ) (Pipeline.ucRefs τ sig) (W18 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (T18 m c)
  hentry c := by
    rw [Pipeline.ownSems0_none]
    have hsplit := entry10_held (W18 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec10 c)).trans (phi_in10 (T18 m) c)
    iintro ⟨Hp, -, Hr⟩
    isplitl [Hp]; · iexact Hp
    iexact Hr
  hout c := by
    rw [Pipeline.ownSems0_none]
    refine (phi_out10 (T18 m) c).trans ?_
    iintro ⟨Hp, Hr⟩
    isplitl [Hp]; · iexact Hp
    isplitr; · iempintro
    iexact Hr
  hexit c := by
    have hjoin : iprop((pdats m 10 c).arrays ((pdats m 10 c).arrAt · cfg10.N) ∗ Pipeline.unscopedRest (Ix := Unit) (Name := ℕ) (U := UR sig nD τ) (Lvl := ℕ) spec10 c (T18 m c))
        ⊢ (StableHlo.held (c : Thread nD τ) (Pipeline.ucRefs τ sig) (W19 m c) : sProp 𝕄) :=
      exit10_held (W18 m) c (W19 m c) (W19_out m c) (fun b hb => W19_of m c b hb)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)),
    .region (reg5 m),
    .region (reg6 m),
    .host (hseg hostOps7 hostOps7_sub hostOps7_fresh (W13 m)),
    .region (reg7 m),
    .region (reg8 m),
    .host (hseg hostOps9 hostOps9_sub hostOps9_fresh (W16 m)),
    .region (reg9 m),
    .region (reg10 m) ]

theorem main_run (c : Dev nD) : main (F := F) c = Pipeline.Seg.run (segs m) := (main_chain c).trans (by chain_rfl)

set_option backward.isDefEq.respectTransparency.types false in
/-- The run: from any memory with zero counters every weakly fair execution of @main terminates, nothing faulting, and in
    every final state each unscoped buffer of every core holds the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W19_main_arg0 m c),
    (h c _ (mem_uc main_arg1 (by decide))).trans (W19_main_arg1 m c),
    (h c _ (mem_uc main_arg2 (by decide))).trans (W19_main_arg2 m c),
    (h c _ (mem_uc main_arg3 (by decide))).trans (W19_main_arg3 m c),
    (h c _ (mem_uc main_arg4 (by decide))).trans (W19_main_arg4 m c),
    (h c _ (mem_uc main_arg5 (by decide))).trans (W19_main_arg5 m c),
    (h c _ (mem_uc main_arg6 (by decide))).trans (W19_main_arg6 m c),
    (h c _ (mem_uc main_arg7 (by decide))).trans (W19_main_arg7 m c),
    (h c _ (mem_uc main_arg8 (by decide))).trans (W19_main_arg8 m c),
    (h c _ (mem_uc main_arg9 (by decide))).trans (W19_main_arg9 m c),
    (h c _ (mem_uc main_arg10 (by decide))).trans (W19_main_arg10 m c),
    (h c _ (mem_uc main_arg11 (by decide))).trans (W19_main_arg11 m c)⟩) (run m ρ)

end Cert.Kernel.Hand
end
-- ==== Proof.KI.Region0.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.Value
import Idealize.ShloMosaic.Lib.Tactic

/-! # Region 0: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of `X`'s window holds the point's row block at every point, for any proof data whose array is the entry
    contents and whose body leaves the block in place: where the block was not fetched its index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of `W`'s window holds the whole of `W` at every point: it is fetched at the first point, its block
    index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole buffer -/

abbrev r0_0 : Rect S1024x512 := Rect.unit (s := S1024x512) ![0, 0] S1024x512.size inb_S1024x512_S1024x512_0_0
abbrev r0_1 : Rect S512x128 := Rect.unit (s := S512x128) ![0, 0] S512x128.size inb_S512x128_S512x128_0_0
abbrev r0_2 : Rect S1024x128 := Rect.unit (s := S1024x128) ![0, 0] S1024x128.size inb_S1024x128_S1024x128_0_0

/-! ## What the body leaves in the output buffer -/

/-- The output buffer after the body, from the two input blocks: the one store's payload, the rounded product. -/
def out0_2 (x0 : Vec F S1024x512 .bf16) (x1 : Vec F S512x128 .bf16) : Vec F S1024x128 .bf16 :=
  View.canon [⟨r0_2, k0_pay1 (View.ld x0 r0_0) (View.ld x1 r0_1)⟩]

/-- The store is of the whole buffer, so it covers it. -/
theorem cover0_2 (p0 : Vec F S1024x128 .bf16) (y : S1024x128.Idx) :
    ∃ pc ∈ ([⟨r0_2, p0⟩] : List (View.Piece (Elt F) S1024x128 .bf16)), y ∈ pc.1.set :=
  View.cover_of_tiled [⟨r0_2, p0⟩] S1024x128.size (by rfl) y

/-! ## The body's triple -/

set_option maxHeartbeats 1000000 in
/-- The body on whole buffers — the inputs' at contents reading `x0` and `x1`, the output's at anything — runs to a
    state where the inputs' are as they were and the output's reads `out0_2 x0 x1`. -/
theorem sound_kernel0 (c : Dev nD) (E : Set ℕ) (i : grid0.Coords)
    (arg1 : Memref sig .tc .vmem S1024x512 .bf16) (harg1 : arg1.IsWhole)
    (arg2 : Memref sig .tc .vmem S512x128 .bf16) (harg2 : arg2.IsWhole)
    (arg3 : Memref sig .tc .vmem S1024x128 .bf16) (harg3 : arg3.IsWhole)
    (x0 : Vec F S1024x512 .bf16) (x1 : Vec F S512x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t` each
    input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every window is held at the full share, and no point owes anything. -/
theorem q_eq0 (c : Dev nD) (w : Fin cfg0.W) : (dat0 V c).q w = fullShare := by dsimp only [dat0]
theorem owed_eq0 (c : Dev nD) (t) : (dat0 V c).owed t = 0 := by dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering: the generator register and the scoped rest make the invariant at the first point. -/
theorem phi_in0 (c : Dev nD) :
    iprop((∃ r, prngReg c r) ∗ Pipeline.scopedRest (Ix := Unit) (Name := ℕ) (U := UR sig nD τ) (Lvl := ℕ) spec0 c)
      ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- Leaving: the invariant at the last point gives them back. -/
theorem phi_out0 (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) spec0 c) := by
  rw [show (dat0 V c).Φ (Fin.last cfg0.N) = Pipeline.ΦA spec0 c from rfl]; unfold Pipeline.ΦA
  iintro ⟨Hr, Hp⟩
  isplitl [Hp]; · iexact Hp
  iexact Hr

end Region

end Cert.KernelIdeal.Hand

end
-- ==== Proof.KI.Region1.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 1: O = max(A·H + b, 0), the product accumulated over the four column blocks of A -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    point has the block index of the point before it, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The first conditional's condition (the second grid coordinate is 0), as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the second grid coordinate is 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle at the points whose second coordinate is not 3: the body stores nothing into it there, -/
theorem idleAt1_3 : ∀ t : Fin cfg1.N, ¬t.val % 4 = 3 → cfg1.idle 3 (grid1.coords t) = true := by decide +kernel
/-- live at the others, -/
theorem liveAt1_3 : ∀ t : Fin cfg1.N, t.val % 4 = 3 → cfg1.idle 3 (grid1.coords t) = false := by decide +kernel
/-- and written back only at those. -/
theorem noFlush1_3 (t : Fin cfg1.N) (h : ¬t.val % 4 = 3) : (cfg1.win 3).flush t = false := by
  cases hf : (cfg1.win 3).flush t with
  | false => rfl
  | true => exact absurd ((flush1_3 t).mp hf) h

/-! ## The body's accesses -/

abbrev rA1 : Rect S1024x2048 := Rect.unit (s := S1024x2048) ![0, 0] S1024x2048.size inb_S1024x2048_S1024x2048_0_0
abbrev rH1 : Rect S2048x128 := Rect.unit (s := S2048x128) ![0, 0] S2048x128.size inb_S2048x128_S2048x128_0_0
abbrev rB1 : Rect S1x128 := Rect.unit (s := S1x128) ![0, 0] S1x128.size inb_S1x128_S1x128_0_0
abbrev rO1 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA1 (x0 : Vec F S1024x2048 .bf16) (x1 : Vec F S2048x128 .bf16) : Vec F S1024x128 .f32 :=
  View.canon [⟨rO1, k1_pay2 (View.ld x0 rA1) (View.ld x1 rH1) (View.ld (View.canon [⟨rO1, k1_pay1 (F := F)⟩]) rO1)⟩, ⟨rO1, k1_pay1 (F := F)⟩]

/-- The accumulator after the body at any other point, from what the point before left in it (`a`). -/
def accB1 (x0 : Vec F S1024x2048 .bf16) (x1 : Vec F S2048x128 .bf16) (a : Vec F S1024x128 .f32) : Vec F S1024x128 .f32 :=
  View.canon [⟨rO1, k1_pay2 (View.ld x0 rA1) (View.ld x1 rH1) (View.ld a rO1)⟩]

/-- The output window's buffer after the body at a point whose second coordinate is 3, from the accumulator as
    the point leaves it (`a`) and the bias block. -/
def out1_3 (a : Vec F S1024x128 .f32) (x2 : Vec F S1x128 .f32) : Vec F S1024x128 .bf16 :=
  View.canon [⟨rO1, k1_pay3 (View.ld a rO1) (View.ld x2 rB1)⟩]

/-- One whole-buffer store covers the buffer (checked by evaluation). -/
theorem coverS1 (p0 : Vec F S1024x128 .f32) (y : S1024x128.Idx) :
    ∃ pc ∈ ([⟨rO1, p0⟩] : List (View.Piece (Elt F) S1024x128 .f32)), y ∈ pc.1.set :=
  View.cover_of_tiled [⟨rO1, p0⟩] S1024x128.size (by rfl) y

theorem coverS21 (p0 p1 : Vec F S1024x128 .f32) (y : S1024x128.Idx) :
    ∃ pc ∈ ([⟨rO1, p0⟩, ⟨rO1, p1⟩] : List (View.Piece (Elt F) S1024x128 .f32)), y ∈ pc.1.set := by
  obtain ⟨pc, hm, hy⟩ := coverS1 p0 y
  exact ⟨pc, List.mem_cons.mpr (Or.inl (List.mem_singleton.mp hm)), hy⟩

theorem coverO1 (p0 : Vec F S1024x128 .bf16) (y : S1024x128.Idx) :
    ∃ pc ∈ ([⟨rO1, p0⟩] : List (View.Piece (Elt F) S1024x128 .bf16)), y ∈ pc.1.set :=
  View.cover_of_tiled [⟨rO1, p0⟩] S1024x128.size (by rfl) y

/-! ## The body's triple, case by case -/

set_option maxHeartbeats 2000000 in
/-- Second coordinate 0: the accumulator, at anything, is zeroed and takes the product; the output window's
    buffer is not touched. -/
theorem sound_kernel1_A (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond1_0 i) (hc1 : ¬cond1_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA1 x0 x1)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS1 _)]
  exact View.read_writes_eq_canon _ _ _ (coverS21 _ _)

set_option maxHeartbeats 2000000 in
/-- Second coordinate 1 or 2: the product is added to what the accumulator held; the output window's buffer is
    not touched. -/
theorem sound_kernel1_B (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond1_0 i) (hc1 : ¬cond1_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB1 x0 x1 a)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS1 _)

set_option maxHeartbeats 2000000 in
/-- Second coordinate 3: the product is added to what the accumulator held, and the output window's buffer,
    at anything, is stored whole from the accumulator and the bias. -/
theorem sound_kernel1_C (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond1_0 i) (hc1 : cond1_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out1_3 (accB1 x0 x1 a) x2) ∗ owns (c : Thread nD τ) arg6 fullShare (accB1 x0 x1 a)) -∗ K ⟨⟩))
      ⊢ wp frame (wpE (defs₀ (F := F)) Variants.none c none) E (cc1__spmm_kernel i arg2 harg2 arg3 harg3 arg4 harg4 arg5 harg5 arg6 harg6) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS1 _)]
    exact View.read_writes_eq_canon _ _ _ (coverO1 _)
  iexists _; isplitr
  swap; · iexact H6
  ipureintro
  exact View.read_writes_eq_canon _ _ _ (coverS1 _)

/-! ## The accumulation, point by point -/

/-- What the accumulator holds after the body at position `n` (as `accN1 (n + 1)`): at a point whose second
    coordinate is 0 the product of the point's blocks over zero, at any other the product added to what the
    point before left. (Before the first point, and past the grid, nothing is claimed: a placeholder.) -/
def accN1 (c : Dev nD) : ℕ → Vec F S1024x128 .f32
  | 0 => k1_pay1 (F := F)
  | n + 1 =>
    if h : n < cfg1.N then
      if n % 4 = 0 then accA1 (iblk1 V c 0 ⟨n, h⟩) (iblk1 V c 1 ⟨n, h⟩)
      else accB1 (iblk1 V c 0 ⟨n, h⟩) (iblk1 V c 1 ⟨n, h⟩) (accN1 c n)
    else k1_pay1 (F := F)

theorem accN1_A (c : Dev nD) (t : Fin cfg1.N) (h0 : t.val % 4 = 0) :
    accN1 V c (t.val + 1) = accA1 (iblk1 V c 0 t) (iblk1 V c 1 t) := by
  rw [accN1, dif_pos t.isLt, if_pos h0]

theorem accN1_B (c : Dev nD) (t : Fin cfg1.N) (h0 : ¬t.val % 4 = 0) :
    accN1 V c (t.val + 1) = accB1 (iblk1 V c 0 t) (iblk1 V c 1 t) (accN1 V c t.val) := by
  rw [accN1, dif_pos t.isLt, if_neg h0]

/-- The region's invariant before position `n`: the generator register at some state, every scoped buffer but
    the accumulator at anything, and the accumulator — at anything before a point whose second coordinate is 0
    (the body zeroes it there), else at what the point before left. -/
def Phi1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0]
    ∗ (∃ a : Vec F S1024x128 .f32, ⌜n % 4 ≠ 0 → a = accN1 V c n⌝
        ∗ owns (c : Thread nD τ) (Memref.whole cc1_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (accN1 V c (t.val + 1)) (iblk1 V c 2 t)
  Φ t := Phi1 V c t.val
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem Phi1_castSucc (c : Dev nD) (t : Fin cfg1.N) : (dat1 V c).Φ t.castSucc = Phi1 V c t.val := by
  dsimp only [dat1]; simp only [Fin.coe_castSucc]

theorem Phi1_succ (c : Dev nD) (t : Fin cfg1.N) : (dat1 V c).Φ t.succ = Phi1 V c (t.val + 1) := by
  dsimp only [dat1]; simp only [Fin.val_succ]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (accN1 V c (t.val + 1)) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_castSucc, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  unfold Phi1
  by_cases h0 : t.val % 4 = 0
  · have h3 : ¬t.val % 4 = 3 := by omega
    rw [Dat.leavesExact_idle (dat1 V c) 3 t (idleAt1_3 t h3) (noFlush1_3 t h3)]
    iintro ⟨⟨Hg, Hr, ⟨%a, -, HS⟩⟩, Ho, ⟨%d0, H0⟩, ⟨%d1, H1⟩, ⟨%d2, H2⟩, ⟨%d3, H3⟩⟩
    iapply (sound_kernel1_A c Set.univ (grid1.coords t) _ _ _ _ _ _ _ _ _ _ ((hcond1_0 t).mpr h0) (fun h => h3 ((hcond1_1 t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN1_A V c t h0).symm
    isplitl [Ho]; · iexact Ho
    isplitl [H0]; · iexact H0
    isplitl [H1]; · iexact H1
    isplitl [H2]; · iexact H2
    iexists d3; iexact H3
  · by_cases h3 : t.val % 4 = 3
    · rw [show (dat1 V c).leavesExact 3 t = owns (c : Thread nD τ) (st1_3 t) fullShare ((dat1 V c).after 3 t) from by
        unfold Dat.leavesExact; rw [liveAt1_3 t h3], after1_3, accN1_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel1_C c Set.univ (grid1.coords t) _ _ _ _ _ _ _ _ _ _ (fun h => h0 ((hcond1_0 t).mp h)) ((hcond1_1 t).mpr h3)
        (iblk1 V c 0 t) (iblk1 V c 1 t) (iblk1 V c 2 t) (accN1 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat1 V c) 3 t (idleAt1_3 t h3) (noFlush1_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel1_B c Set.univ (grid1.coords t) _ _ _ _ _ _ _ _ _ _ (fun h => h0 ((hcond1_0 t).mp h)) (fun h => h3 ((hcond1_1 t).mp h))
        (iblk1 V c 0 t) (iblk1 V c 1 t) (iblk1 V c 2 t) ((dat1 V c).before 3 t d3) (accN1 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN1_B V c t h0).symm
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is entered with — the generator register and every scoped buffer at anything — is the
    invariant before the first point. -/
theorem phi_in1 (c : Dev nD) :
    iprop((∃ r, prngReg c r) ∗ Pipeline.scopedRest (Ix := Unit) (Name := ℕ) (U := UR sig nD τ) (Lvl := ℕ) spec1 c)
      ⊢ ((dat1 V c).Φ 0 : sProp 𝕄) := by
  rw [show (dat1 V c).Φ 0 = Phi1 V c 0 from by dsimp only [dat1]; rfl]
  unfold Phi1
  rw [scopedRest1_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) spec1 c) := by
  rw [show (dat1 V c).Φ (Fin.last cfg1.N) = Phi1 V c cfg1.N from by dsimp only [dat1]; rfl]
  unfold Phi1
  rw [scopedRest1_split]
  simp only [owns_whole]
  iintro ⟨Hg, Hr, ⟨%a, -, Hs⟩⟩
  isplitl [Hg]; · iexact Hg
  isplitl [Hs]; · iexists a; iexact Hs
  iexact Hr

end Cert.KernelIdeal.Hand

end
-- ==== Proof.KI.Region2.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.Value
import Idealize.ShloMosaic.Lib.Tactic

/-! # Region 2: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer of `X`'s window holds the point's row block at every point, for any proof data whose array is the entry
    contents and whose body leaves the block in place: where the block was not fetched its index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The buffer of `W`'s window holds the whole of `W` at every point: it is fetched at the first point, its block
    index never moves, and the body leaves it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is of a whole buffer -/

abbrev r2_0 : Rect S1024x128 := Rect.unit (s := S1024x128) ![0, 0] S1024x128.size inb_S1024x128_S1024x128_0_0
abbrev r2_1 : Rect S128x128 := Rect.unit (s := S128x128) ![0, 0] S128x128.size inb_S128x128_S128x128_0_0
abbrev r2_2 : Rect S1024x128 := Rect.unit (s := S1024x128) ![0, 0] S1024x128.size inb_S1024x128_S1024x128_0_0

/-! ## What the body leaves in the output buffer -/

/-- The output buffer after the body, from the two input blocks: the one store's payload, the rounded product. -/
def out2_2 (x0 : Vec F S1024x128 .bf16) (x1 : Vec F S128x128 .bf16) : Vec F S1024x128 .bf16 :=
  View.canon [⟨r2_2, k2_pay1 (View.ld x0 r2_0) (View.ld x1 r2_1)⟩]

/-- The store is of the whole buffer, so it covers it. -/
theorem cover2_2 (p0 : Vec F S1024x128 .bf16) (y : S1024x128.Idx) :
    ∃ pc ∈ ([⟨r2_2, p0⟩] : List (View.Piece (Elt F) S1024x128 .bf16)), y ∈ pc.1.set :=
  View.cover_of_tiled [⟨r2_2, p0⟩] S1024x128.size (by rfl) y

/-! ## The body's triple -/

set_option maxHeartbeats 1000000 in
/-- The body on whole buffers — the inputs' at contents reading `x0` and `x1`, the output's at anything — runs to a
    state where the inputs' are as they were and the output's reads `out2_2 x0 x1`. -/
theorem sound_kernel2 (c : Dev nD) (E : Set ℕ) (i : grid2.Coords)
    (arg1 : Memref sig .tc .vmem S1024x128 .bf16) (harg1 : arg1.IsWhole)
    (arg2 : Memref sig .tc .vmem S128x128 .bf16) (harg2 : arg2.IsWhole)
    (arg3 : Memref sig .tc .vmem S1024x128 .bf16) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region on core `c`: the arrays as the region finds them; after the body at point `t` each
    input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- Every window is held at the full share, and no point owes anything. -/
theorem q_eq2 (c : Dev nD) (w : Fin cfg2.W) : (dat2 V c).q w = fullShare := by dsimp only [dat2]
theorem owed_eq2 (c : Dev nD) (t) : (dat2 V c).owed t = 0 := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- Entering: the generator register and the scoped rest make the invariant at the first point. -/
theorem phi_in2 (c : Dev nD) :
    iprop((∃ r, prngReg c r) ∗ Pipeline.scopedRest (Ix := Unit) (Name := ℕ) (U := UR sig nD τ) (Lvl := ℕ) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

/-- Leaving: the invariant at the last point gives them back. -/
theorem phi_out2 (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) spec2 c) := by
  rw [show (dat2 V c).Φ (Fin.last cfg2.N) = Pipeline.ΦA spec2 c from rfl]; unfold Pipeline.ΦA
  iintro ⟨Hr, Hp⟩
  isplitl [Hp]; · iexact Hp
  iexact Hr

end Region

end Cert.KernelIdeal.Hand

end
-- ==== Proof.KI.Region3.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 3: O = max(A·H + b, 0), the product accumulated over the four column blocks of A -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: an unfetched
    point has the block index of the point before it, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions, decided over the grid -/

/-- The first conditional's condition (the second grid coordinate is 0), as the body computes it. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's condition (the second grid coordinate is 3). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- The output window is idle at the points whose second coordinate is not 3: the body stores nothing into it there, -/
theorem idleAt3_3 : ∀ t : Fin cfg3.N, ¬t.val % 4 = 3 → cfg3.idle 3 (grid3.coords t) = true := by decide +kernel
/-- live at the others, -/
theorem liveAt3_3 : ∀ t : Fin cfg3.N, t.val % 4 = 3 → cfg3.idle 3 (grid3.coords t) = false := by decide +kernel
/-- and written back only at those. -/
theorem noFlush3_3 (t : Fin cfg3.N) (h : ¬t.val % 4 = 3) : (cfg3.win 3).flush t = false := by
  cases hf : (cfg3.win 3).flush t with
  | false => rfl
  | true => exact absurd ((flush3_3 t).mp hf) h

/-! ## The body's accesses -/

abbrev rA3 : Rect S1024x2048 := Rect.unit (s := S1024x2048) ![0, 0] S1024x2048.size inb_S1024x2048_S1024x2048_0_0
abbrev rH3 : Rect S2048x128 := Rect.unit (s := S2048x128) ![0, 0] S2048x128.size inb_S2048x128_S2048x128_0_0
abbrev rB3 : Rect S1x128 := Rect.unit (s := S1x128) ![0, 0] S1x128.size inb_S1x128_S1x128_0_0
abbrev rO3 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA3 (x0 : Vec F S1024x2048 .bf16) (x1 : Vec F S2048x128 .bf16) : Vec F S1024x128 .f32 :=
  View.canon [⟨rO3, k3_pay2 (View.ld x0 rA3) (View.ld x1 rH3) (View.ld (View.canon [⟨rO3, k3_pay1 (F := F)⟩]) rO3)⟩, ⟨rO3, k3_pay1 (F := F)⟩]

/-- The accumulator after the body at any other point, from what the point before left in it (`a`). -/
def accB3 (x0 : Vec F S1024x2048 .bf16) (x1 : Vec F S2048x128 .bf16) (a : Vec F S1024x128 .f32) : Vec F S1024x128 .f32 :=
  View.canon [⟨rO3, k3_pay2 (View.ld x0 rA3) (View.ld x1 rH3) (View.ld a rO3)⟩]

/-- The output window's buffer after the body at a point whose second coordinate is 3, from the accumulator as
    the point leaves it (`a`) and the bias block. -/
def out3_3 (a : Vec F S1024x128 .f32) (x2 : Vec F S1x128 .f32) : Vec F S1024x128 .bf16 :=
  View.canon [⟨rO3, k3_pay3 (View.ld a rO3) (View.ld x2 rB3)⟩]

/-- One whole-buffer store covers the buffer (checked by evaluation). -/
theorem coverS3 (p0 : Vec F S1024x128 .f32) (y : S1024x128.Idx) :
    ∃ pc ∈ ([⟨rO3, p0⟩] : List (View.Piece (Elt F) S1024x128 .f32)), y ∈ pc.1.set :=
  View.cover_of_tiled [⟨rO3, p0⟩] S1024x128.size (by rfl) y

theorem coverS23 (p0 p1 : Vec F S1024x128 .f32) (y : S1024x128.Idx) :
    ∃ pc ∈ ([⟨rO3, p0⟩, ⟨rO3, p1⟩] : List (View.Piece (Elt F) S1024x128 .f32)), y ∈ pc.1.set := by
  obtain ⟨pc, hm, hy⟩ := coverS3 p0 y
  exact ⟨pc, List.mem_cons.mpr (Or.inl (List.mem_singleton.mp hm)), hy⟩

theorem coverO3 (p0 : Vec F S1024x128 .bf16) (y : S1024x128.Idx) :
    ∃ pc ∈ ([⟨rO3, p0⟩] : List (View.Piece (Elt F) S1024x128 .bf16)), y ∈ pc.1.set :=
  View.cover_of_tiled [⟨rO3, p0⟩] S1024x128.size (by rfl) y

/-! ## The body's triple, case by case -/

set_option maxHeartbeats 2000000 in
/-- Second coordinate 0: the accumulator, at anything, is zeroed and takes the product; the output window's
    buffer is not touched. -/
theorem sound_kernel3_A (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond3_0 i) (hc1 : ¬cond3_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA3 x0 x1)) -∗ K ⟨⟩))
      ⊢ wp frame (wpE (defs₀ (F := F)) Variants.none c none) E (cc3__spmm_kernel i arg2 harg2 arg3 harg3 arg4 harg4 arg5 harg5 arg6 harg6) K := by
  simp only [cc3__spmm_kernel_eq_skeleton]; unfold cc3__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS3 _)]
  exact View.read_writes_eq_canon _ _ _ (coverS23 _ _)

set_option maxHeartbeats 2000000 in
/-- Second coordinate 1 or 2: the product is added to what the accumulator held; the output window's buffer is
    not touched. -/
theorem sound_kernel3_B (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond3_0 i) (hc1 : ¬cond3_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB3 x0 x1 a)) -∗ K ⟨⟩))
      ⊢ wp frame (wpE (defs₀ (F := F)) Variants.none c none) E (cc3__spmm_kernel i arg2 harg2 arg3 harg3 arg4 harg4 arg5 harg5 arg6 harg6) K := by
  simp only [cc3__spmm_kernel_eq_skeleton]; unfold cc3__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS3 _)

set_option maxHeartbeats 2000000 in
/-- Second coordinate 3: the product is added to what the accumulator held, and the output window's buffer,
    at anything, is stored whole from the accumulator and the bias. -/
theorem sound_kernel3_C (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond3_0 i) (hc1 : cond3_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out3_3 (accB3 x0 x1 a) x2) ∗ owns (c : Thread nD τ) arg6 fullShare (accB3 x0 x1 a)) -∗ K ⟨⟩))
      ⊢ wp frame (wpE (defs₀ (F := F)) Variants.none c none) E (cc3__spmm_kernel i arg2 harg2 arg3 harg3 arg4 harg4 arg5 harg5 arg6 harg6) K := by
  simp only [cc3__spmm_kernel_eq_skeleton]; unfold cc3__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS3 _)]
    exact View.read_writes_eq_canon _ _ _ (coverO3 _)
  iexists _; isplitr
  swap; · iexact H6
  ipureintro
  exact View.read_writes_eq_canon _ _ _ (coverS3 _)

/-! ## The accumulation, point by point -/

/-- What the accumulator holds after the body at position `n` (as `accN3 (n + 1)`): at a point whose second
    coordinate is 0 the product of the point's blocks over zero, at any other the product added to what the
    point before left. (Before the first point, and past the grid, nothing is claimed: a placeholder.) -/
def accN3 (c : Dev nD) : ℕ → Vec F S1024x128 .f32
  | 0 => k3_pay1 (F := F)
  | n + 1 =>
    if h : n < cfg3.N then
      if n % 4 = 0 then accA3 (iblk3 V c 0 ⟨n, h⟩) (iblk3 V c 1 ⟨n, h⟩)
      else accB3 (iblk3 V c 0 ⟨n, h⟩) (iblk3 V c 1 ⟨n, h⟩) (accN3 c n)
    else k3_pay1 (F := F)

theorem accN3_A (c : Dev nD) (t : Fin cfg3.N) (h0 : t.val % 4 = 0) :
    accN3 V c (t.val + 1) = accA3 (iblk3 V c 0 t) (iblk3 V c 1 t) := by
  rw [accN3, dif_pos t.isLt, if_pos h0]

theorem accN3_B (c : Dev nD) (t : Fin cfg3.N) (h0 : ¬t.val % 4 = 0) :
    accN3 V c (t.val + 1) = accB3 (iblk3 V c 0 t) (iblk3 V c 1 t) (accN3 V c t.val) := by
  rw [accN3, dif_pos t.isLt, if_neg h0]

/-- The region's invariant before position `n`: the generator register at some state, every scoped buffer but
    the accumulator at anything, and the accumulator — at anything before a point whose second coordinate is 0
    (the body zeroes it there), else at what the point before left. -/
def Phi3 (c : Dev nD) (n : ℕ) : sProp 𝕄 :=
  iprop((∃ r, prngReg c r)
    ∗ Pipeline.scopedRestBut (Ix := Unit) (Name := ℕ) (U := UR sig nD τ) (Lvl := ℕ) (Val := Elt F) spec3 c [cc3_scratch0]
    ∗ (∃ a : Vec F S1024x128 .f32, ⌜n % 4 ≠ 0 → a = accN3 V c n⌝
        ∗ owns (c : Thread nD τ) (Memref.whole cc3_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (accN3 V c (t.val + 1)) (iblk3 V c 2 t)
  Φ t := Phi3 V c t.val
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem Phi3_castSucc (c : Dev nD) (t : Fin cfg3.N) : (dat3 V c).Φ t.castSucc = Phi3 V c t.val := by
  dsimp only [dat3]; simp only [Fin.coe_castSucc]

theorem Phi3_succ (c : Dev nD) (t : Fin cfg3.N) : (dat3 V c).Φ t.succ = Phi3 V c (t.val + 1) := by
  dsimp only [dat3]; simp only [Fin.val_succ]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (accN3 V c (t.val + 1)) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [Phi3_castSucc, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  unfold Phi3
  by_cases h0 : t.val % 4 = 0
  · have h3 : ¬t.val % 4 = 3 := by omega
    rw [Dat.leavesExact_idle (dat3 V c) 3 t (idleAt3_3 t h3) (noFlush3_3 t h3)]
    iintro ⟨⟨Hg, Hr, ⟨%a, -, HS⟩⟩, Ho, ⟨%d0, H0⟩, ⟨%d1, H1⟩, ⟨%d2, H2⟩, ⟨%d3, H3⟩⟩
    iapply (sound_kernel3_A c Set.univ (grid3.coords t) _ _ _ _ _ _ _ _ _ _ ((hcond3_0 t).mpr h0) (fun h => h3 ((hcond3_1 t).mp h))
      (iblk3 V c 0 t) (iblk3 V c 1 t) (iblk3 V c 2 t) ((dat3 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN3_A V c t h0).symm
    isplitl [Ho]; · iexact Ho
    isplitl [H0]; · iexact H0
    isplitl [H1]; · iexact H1
    isplitl [H2]; · iexact H2
    iexists d3; iexact H3
  · by_cases h3 : t.val % 4 = 3
    · rw [show (dat3 V c).leavesExact 3 t = owns (c : Thread nD τ) (st3_3 t) fullShare ((dat3 V c).after 3 t) from by
        unfold Dat.leavesExact; rw [liveAt3_3 t h3], after3_3, accN3_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel3_C c Set.univ (grid3.coords t) _ _ _ _ _ _ _ _ _ _ (fun h => h0 ((hcond3_0 t).mp h)) ((hcond3_1 t).mpr h3)
        (iblk3 V c 0 t) (iblk3 V c 1 t) (iblk3 V c 2 t) (accN3 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat3 V c) 3 t (idleAt3_3 t h3) (noFlush3_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel3_B c Set.univ (grid3.coords t) _ _ _ _ _ _ _ _ _ _ (fun h => h0 ((hcond3_0 t).mp h)) (fun h => h3 ((hcond3_1 t).mp h))
        (iblk3 V c 0 t) (iblk3 V c 1 t) (iblk3 V c 2 t) ((dat3 V c).before 3 t d3) (accN3 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN3_B V c t h0).symm
      isplitl [Ho]; · iexact Ho
      isplitl [H0]; · iexact H0
      isplitl [H1]; · iexact H1
      isplitl [H2]; · iexact H2
      iexists d3; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is entered with — the generator register and every scoped buffer at anything — is the
    invariant before the first point. -/
theorem phi_in3 (c : Dev nD) :
    iprop((∃ r, prngReg c r) ∗ Pipeline.scopedRest (Ix := Unit) (Name := ℕ) (U := UR sig nD τ) (Lvl := ℕ) spec3 c)
      ⊢ ((dat3 V c).Φ 0 : sProp 𝕄) := by
  rw [show (dat3 V c).Φ 0 = Phi3 V c 0 from by dsimp only [dat3]; rfl]
  unfold Phi3
  rw [scopedRest3_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out3 (c : Dev nD) :
    ((dat3 V c).Φ (Fin.last cfg3.N) : sProp 𝕄)
      ⊢ iprop((∃ r, prngReg c r) ∗ Pipeline.scopedRest (Ix := Unit) (Name := ℕ) (U := UR sig nD τ) (Lvl := ℕ) spec3 c) := by
  rw [show (dat3 V c).Φ (Fin.last cfg3.N) = Phi3 V c cfg3.N from by dsimp only [dat3]; rfl]
  unfold Phi3
  rw [scopedRest3_split]
  simp only [owns_whole]
  iintro ⟨Hg, Hr, ⟨%a, -, Hs⟩⟩
  isplitl [Hg]; · iexact Hg
  isplitl [Hs]; · iexists a; iexact Hs
  iexact Hr

end Cert.KernelIdeal.Hand

end
-- ==== Proof.KI.Region4.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.Value
import Idealize.ShloMosaic.Lib.Tactic

/-! # Region 4: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The buffer of `X`'s window holds the point's row block at every point, for any proof data whose array is the entry
    contents and whose body leaves the block in place: where the block was not fetched its index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The buffer of `W`'s window holds the whole of `W` at every point: it is fetched at the first point, its block
    index never moves, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is of a whole buffer -/

abbrev r4_0 : Rect S1024x128 := Rect.unit (s := S1024x128) ![0, 0] S1024x128.size inb_S1024x128_S1024x128_0_0
abbrev r4_1 : Rect S128x128 := Rect.unit (s := S128x128) ![0, 0] S128x128.size inb_S128x128_S128x128_0_0
abbrev r4_2 : Rect S1024x128 := Rect.unit (s := S1024x128) ![0, 0] S1024x128.size inb_S1024x128_S1024x128_0_0

/-! ## What the body leaves in the output buffer -/

/-- The output buffer after the body, from the two input blocks: the one store's payload, the rounded product. -/
def out4_2 (x0 : Vec F S1024x128 .bf16) (x1 : Vec F S128x128 .bf16) : Vec F S1024x128 .bf16 :=
  View.canon [⟨r4_2, k4_pay1 (View.ld x0 r4_0) (View.ld x1 r4_1)⟩]

/-- The store is of the whole buffer, so it covers it. -/
theorem cover4_2 (p0 : Vec F S1024x128 .bf16) (y : S1024x128.Idx) :
    ∃ pc ∈ ([⟨r4_2, p0⟩] : List (View.Piece (Elt F) S1024x128 .bf16)), y ∈ pc.1.set :=
  View.cover_of_tiled [⟨r4_2, p0⟩] S1024x128.size (by rfl) y

/-! ## The body's triple -/

set_option maxHeartbeats 1000000 in
/-- The body on whole buffers — the inputs' at contents reading `x0` and `x1`, the output's at anything — runs to a
    state where the inputs' are as they were and the output's reads `out4_2 x0 x1`. -/
theorem sound_kernel4 (c : Dev nD) (E : Set ℕ) (i : grid4.Coords)
    (arg1 : Memref sig .tc .vmem S1024x128 .bf16) (harg1 : arg1.IsWhole)
    (arg2 : Memref sig .tc .vmem S128x128 .bf16) (harg2 : arg2.IsWhole)
    (arg3 : Memref sig .tc .vmem S1024x128 .bf16) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core `c`: the arrays as the region finds them; after the body at point `t` each
    input's buffer at its block and the output's at `out4_2` of the two input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- Every window is held at the full share, and no point owes anything. -/
theorem q_eq4 (c : Dev nD) (w : Fin cfg4.W) : (dat4 V c).q w = fullShare := by dsimp only [dat4]
theorem owed_eq4 (c : Dev nD) (t) : (dat4 V c).owed t = 0 := by dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

/-- Each input's buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- Entering: the generator register and the scoped rest make the invariant at the first point. -/
theorem phi_in4 (c : Dev nD) :
    iprop((∃ r, prngReg c r) ∗ Pipeline.scopedRest (Ix := Unit) (Name := ℕ) (U := UR sig nD τ) (Lvl := ℕ) spec4 c)
      ⊢ ((dat4 V c).Φ 0 : sProp 𝕄) := by
  rw [show (dat4 V c).Φ 0 = Pipeline.ΦA spec4 c from rfl]; unfold Pipeline.ΦA
  iintro ⟨Hp, Hr⟩
  isplitl [Hr]; · iexact Hr
  iexact Hp

/-- Leaving: the invariant at the last point gives them back. -/
theorem phi_out4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) spec4 c) := by
  rw [show (dat4 V c).Φ (Fin.last cfg4.N) = Pipeline.ΦA spec4 c from rfl]; unfold Pipeline.ΦA
  iintro ⟨Hr, Hp⟩
  isplitl [Hp]; · iexact Hp
  iexact Hr

end Region

end Cert.KernelIdeal.Hand

end
-- ==== Proof.KI.Region5.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 5: O = max(A·H + b, 0), the product accumulated over the four column blocks of A -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not: an unfetched
    point has the block index of the point before it, and the body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions, decided over the grid -/

/-- The first conditional's condition (the second grid coordinate is 0), as the body computes it. -/
abbrev cond5_0 (i : grid5.Coords) : Prop := (Scalar.cmpi .ne (Scalar.extui (Scalar.cmpi .eq (BitVec.ofNat 32 (i 1).val) 0#32)) 0#32) = 1#1
/-- It holds at the points ≡ 0 (mod 4). -/
theorem hcond5_0 : ∀ t : Fin cfg5.N, cond5_0 (grid5.coords t) ↔ t.val % 4 = 0 :=
  (by decide +kernel : ∀ t : Fin grid5.N, cond5_0 (grid5.coords t) ↔ t.val % 4 = 0)

/-- The second conditional's condition (the second grid coordinate is 3). -/
abbrev cond5_1 (i : grid5.Coords) : Prop := k5_cond2 i = 1#1
/-- It holds at the points ≡ 3 (mod 4). -/
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
/-- The output window is idle at the points whose second coordinate is not 3: the body stores nothing into it there, -/
theorem idleAt5_3 : ∀ t : Fin cfg5.N, ¬t.val % 4 = 3 → cfg5.idle 3 (grid5.coords t) = true := by decide +kernel
/-- live at the others, -/
theorem liveAt5_3 : ∀ t : Fin cfg5.N, t.val % 4 = 3 → cfg5.idle 3 (grid5.coords t) = false := by decide +kernel
/-- and written back only at those. -/
theorem noFlush5_3 (t : Fin cfg5.N) (h : ¬t.val % 4 = 3) : (cfg5.win 3).flush t = false := by
  cases hf : (cfg5.win 3).flush t with
  | false => rfl
  | true => exact absurd ((flush5_3 t).mp hf) h

/-! ## The body's accesses -/

abbrev rA5 : Rect S1024x2048 := Rect.unit (s := S1024x2048) ![0, 0] S1024x2048.size inb_S1024x2048_S1024x2048_0_0
abbrev rH5 : Rect S2048x128 := Rect.unit (s := S2048x128) ![0, 0] S2048x128.size inb_S2048x128_S2048x128_0_0
abbrev rB5 : Rect S1x128 := Rect.unit (s := S1x128) ![0, 0] S1x128.size inb_S1x128_S1x128_0_0
abbrev rO5 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA5 (x0 : Vec F S1024x2048 .bf16) (x1 : Vec F S2048x128 .bf16) : Vec F S1024x128 .f32 :=
  View.canon [⟨rO5, k5_pay2 (View.ld x0 rA5) (View.ld x1 rH5) (View.ld (View.canon [⟨rO5, k5_pay1 (F := F)⟩]) rO5)⟩, ⟨rO5, k5_pay1 (F := F)⟩]

/-- The accumulator after the body at any other point, from what the point before left in it (`a`). -/
def accB5 (x0 : Vec F S1024x2048 .bf16) (x1 : Vec F S2048x128 .bf16) (a : Vec F S1024x128 .f32) : Vec F S1024x128 .f32 :=
  View.canon [⟨rO5, k5_pay2 (View.ld x0 rA5) (View.ld x1 rH5) (View.ld a rO5)⟩]

/-- The output window's buffer after the body at a point whose second coordinate is 3, from the accumulator as
    the point leaves it (`a`) and the bias block. -/
def out5_3 (a : Vec F S1024x128 .f32) (x2 : Vec F S1x128 .f32) : Vec F S1024x128 .bf16 :=
  View.canon [⟨rO5, k5_pay3 (View.ld a rO5) (View.ld x2 rB5)⟩]

/-- One whole-buffer store covers the buffer (checked by evaluation). -/
theorem coverS5 (p0 : Vec F S1024x128 .f32) (y : S1024x128.Idx) :
    ∃ pc ∈ ([⟨rO5, p0⟩] : List (View.Piece (Elt F) S1024x128 .f32)), y ∈ pc.1.set :=
  View.cover_of_tiled [⟨rO5, p0⟩] S1024x128.size (by rfl) y

theorem coverS25 (p0 p1 : Vec F S1024x128 .f32) (y : S1024x128.Idx) :
    ∃ pc ∈ ([⟨rO5, p0⟩, ⟨rO5, p1⟩] : List (View.Piece (Elt F) S1024x128 .f32)), y ∈ pc.1.set := by
  obtain ⟨pc, hm, hy⟩ := coverS5 p0 y
  exact ⟨pc, List.mem_cons.mpr (Or.inl (List.mem_singleton.mp hm)), hy⟩

theorem coverO5 (p0 : Vec F S1024x128 .bf16) (y : S1024x128.Idx) :
    ∃ pc ∈ ([⟨rO5, p0⟩] : List (View.Piece (Elt F) S1024x128 .bf16)), y ∈ pc.1.set :=
  View.cover_of_tiled [⟨rO5, p0⟩] S1024x128.size (by rfl) y

/-! ## The body's triple, case by case -/

set_option maxHeartbeats 2000000 in
/-- Second coordinate 0: the accumulator, at anything, is zeroed and takes the product; the output window's
    buffer is not touched. -/
theorem sound_kernel5_A (c : Dev nD) (E : Set ℕ) (i : grid5.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond5_0 i) (hc1 : ¬cond5_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA5 x0 x1)) -∗ K ⟨⟩))
      ⊢ wp frame (wpE (defs₀ (F := F)) Variants.none c none) E (cc5__spmm_kernel i arg2 harg2 arg3 harg3 arg4 harg4 arg5 harg5 arg6 harg6) K := by
  simp only [cc5__spmm_kernel_eq_skeleton]; unfold cc5__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS5 _)]
  exact View.read_writes_eq_canon _ _ _ (coverS25 _ _)

set_option maxHeartbeats 2000000 in
/-- Second coordinate 1 or 2: the product is added to what the accumulator held; the output window's buffer is
    not touched. -/
theorem sound_kernel5_B (c : Dev nD) (E : Set ℕ) (i : grid5.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond5_0 i) (hc1 : ¬cond5_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB5 x0 x1 a)) -∗ K ⟨⟩))
      ⊢ wp frame (wpE (defs₀ (F := F)) Variants.none c none) E (cc5__spmm_kernel i arg2 harg2 arg3 harg3 arg4 harg4 arg5 harg5 arg6 harg6) K := by
  simp only [cc5__spmm_kernel_eq_skeleton]; unfold cc5__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS5 _)

set_option maxHeartbeats 2000000 in
/-- Second coordinate 3: the product is added to what the accumulator held, and the output window's buffer,
    at anything, is stored whole from the accumulator and the bias. -/
theorem sound_kernel5_C (c : Dev nD) (E : Set ℕ) (i : grid5.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond5_0 i) (hc1 : cond5_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out5_3 (accB5 x0 x1 a) x2) ∗ owns (c : Thread nD τ) arg6 fullShare (accB5 x0 x1 a)) -∗ K ⟨⟩))
      ⊢ wp frame (wpE (defs₀ (F := F)) Variants.none c none) E (cc5__spmm_kernel i arg2 harg2 arg3 harg3 arg4 harg4 arg5 harg5 arg6 harg6) K := by
  simp only [cc5__spmm_kernel_eq_skeleton]; unfold cc5__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS5 _)]
    exact View.read_writes_eq_canon _ _ _ (coverO5 _)
  iexists _; isplitr
  swap; · iexact H6
  ipureintro
  exact View.read_writes_eq_canon _ _ _ (coverS5 _)

/-! ## The accumulation, point by point -/

/-- What the accumulator holds after the body at position `n` (as `accN5 (n + 1)`): at a point whose second
    coordinate is 0 the product of the point's blocks over zero, at any other the product added to what the
    point before left. (Before the first point, and past the grid, nothing is claimed: a placeholder.) -/
def accN5 (c : Dev nD) : ℕ → Vec F S1024x128 .f32
  | 0 => k5_pay1 (F := F)
  | n + 1 =>
    if h : n < cfg5.N then
      if n % 4 = 0 then accA5 (iblk5 V c 0 ⟨n, h⟩) (iblk5 V c 1 ⟨n, h⟩)
      else accB5 (iblk5 V c 0 ⟨n, h⟩) (iblk5 V c 1 ⟨n, h⟩) (accN5 c n)
    else k5_pay1 (F := F)

theorem accN5_A (c : Dev nD) (t : Fin cfg5.N) (h0 : t.val % 4 = 0) :
    accN5 V c (t.val + 1) = accA5 (iblk5 V c 0 t) (iblk5 V c 1 t) := by
  rw [accN5, dif_pos t.isLt, if_pos h0]

theorem accN5_B (c : Dev nD) (t : Fin cfg5.N) (h0 : ¬t.val % 4 = 0) :
    accN5 V c (t.val + 1) = accB5 (iblk5 V c 0 t) (iblk5 V c 1 t) (accN5 V c t.val) := by
  rw [accN5, dif_pos t.isLt, if_neg h0]

/-- The region's invariant before position `n`: the generator register at some state, every scoped buffer but
    the accumulator at anything, and the accumulator — at anything before a point whose second coordinate is 0
    (the body zeroes it there), else at what the point before left. -/
def Phi5 (c : Dev nD) (n : ℕ) : sProp 𝕄 :=
  iprop((∃ r, prngReg c r)
    ∗ Pipeline.scopedRestBut (Ix := Unit) (Name := ℕ) (U := UR sig nD τ) (Lvl := ℕ) (Val := Elt F) spec5 c [cc5_scratch0]
    ∗ (∃ a : Vec F S1024x128 .f32, ⌜n % 4 ≠ 0 → a = accN5 V c n⌝
        ∗ owns (c : Thread nD τ) (Memref.whole cc5_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (accN5 V c (t.val + 1)) (iblk5 V c 2 t)
  Φ t := Phi5 V c t.val
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem Phi5_castSucc (c : Dev nD) (t : Fin cfg5.N) : (dat5 V c).Φ t.castSucc = Phi5 V c t.val := by
  dsimp only [dat5]; simp only [Fin.coe_castSucc]

theorem Phi5_succ (c : Dev nD) (t : Fin cfg5.N) : (dat5 V c).Φ t.succ = Phi5 V c (t.val + 1) := by
  dsimp only [dat5]; simp only [Fin.val_succ]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (accN5 V c (t.val + 1)) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [Phi5_castSucc, Phi5_succ]
  rw [show (dat5 V c).leavesExact 0 t = owns (c : Thread nD τ) (st5_0 t) fullShare ((dat5 V c).after 0 t) from by
    unfold Dat.leavesExact; rw [liveAt5_0 t], after5_0]
  rw [show (dat5 V c).leavesExact 1 t = owns (c : Thread nD τ) (st5_1 t) fullShare ((dat5 V c).after 1 t) from by
    unfold Dat.leavesExact; rw [liveAt5_1 t], after5_1]
  rw [show (dat5 V c).leavesExact 2 t = owns (c : Thread nD τ) (st5_2 t) fullShare ((dat5 V c).after 2 t) from by
    unfold Dat.leavesExact; rw [liveAt5_2 t], after5_2]
  unfold Phi5
  by_cases h0 : t.val % 4 = 0
  · have h3 : ¬t.val % 4 = 3 := by omega
    rw [Dat.leavesExact_idle (dat5 V c) 3 t (idleAt5_3 t h3) (noFlush5_3 t h3)]
    iintro ⟨⟨Hg, Hr, ⟨%a, -, HS⟩⟩, Ho, ⟨%d0, H0⟩, ⟨%d1, H1⟩, ⟨%d2, H2⟩, ⟨%d3, H3⟩⟩
    iapply (sound_kernel5_A c Set.univ (grid5.coords t) _ _ _ _ _ _ _ _ _ _ ((hcond5_0 t).mpr h0) (fun h => h3 ((hcond5_1 t).mp h))
      (iblk5 V c 0 t) (iblk5 V c 1 t) (iblk5 V c 2 t) ((dat5 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN5_A V c t h0).symm
    isplitl [Ho]; · iexact Ho
    isplitl [H0]; · iexact H0
    isplitl [H1]; · iexact H1
    isplitl [H2]; · iexact H2
    iexists d3; iexact H3
  · by_cases h3 : t.val % 4 = 3
    · rw [show (dat5 V c).leavesExact 3 t = owns (c : Thread nD τ) (st5_3 t) fullShare ((dat5 V c).after 3 t) from by
        unfold Dat.leavesExact; rw [liveAt5_3 t h3], after5_3, accN5_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel5_C c Set.univ (grid5.coords t) _ _ _ _ _ _ _ _ _ _ (fun h => h0 ((hcond5_0 t).mp h)) ((hcond5_1 t).mpr h3)
        (iblk5 V c 0 t) (iblk5 V c 1 t) (iblk5 V c 2 t) (accN5 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat5 V c) 3 t (idleAt5_3 t h3) (noFlush5_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel5_B c Set.univ (grid5.coords t) _ _ _ _ _ _ _ _ _ _ (fun h => h0 ((hcond5_0 t).mp h)) (fun h => h3 ((hcond5_1 t).mp h))
        (iblk5 V c 0 t) (iblk5 V c 1 t) (iblk5 V c 2 t) ((dat5 V c).before 3 t d3) (accN5 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN5_B V c t h0).symm
      isplitl [Ho]; · iexact Ho
      isplitl [H0]; · iexact H0
      isplitl [H1]; · iexact H1
      isplitl [H2]; · iexact H2
      iexists d3; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- What the region is entered with — the generator register and every scoped buffer at anything — is the
    invariant before the first point. -/
theorem phi_in5 (c : Dev nD) :
    iprop((∃ r, prngReg c r) ∗ Pipeline.scopedRest (Ix := Unit) (Name := ℕ) (U := UR sig nD τ) (Lvl := ℕ) spec5 c)
      ⊢ ((dat5 V c).Φ 0 : sProp 𝕄) := by
  rw [show (dat5 V c).Φ 0 = Phi5 V c 0 from by dsimp only [dat5]; rfl]
  unfold Phi5
  rw [scopedRest5_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out5 (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) spec5 c) := by
  rw [show (dat5 V c).Φ (Fin.last cfg5.N) = Phi5 V c cfg5.N from by dsimp only [dat5]; rfl]
  unfold Phi5
  rw [scopedRest5_split]
  simp only [owns_whole]
  iintro ⟨Hg, Hr, ⟨%a, -, Hs⟩⟩
  isplitl [Hg]; · iexact Hg
  isplitl [Hs]; · iexists a; iexact Hs
  iexact Hr

end Cert.KernelIdeal.Hand

end
-- ==== Proof.KI.Region6.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.Value
import Idealize.ShloMosaic.Lib.Tactic

/-! # Region 6: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The buffer of `X`'s window holds the point's row block at every point, for any proof data whose array is the entry
    contents and whose body leaves the block in place: where the block was not fetched its index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The buffer of `W`'s window holds the whole of `W` at every point: it is fetched at the first point, its block
    index never moves, and the body leaves it in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is of a whole buffer -/

abbrev r6_0 : Rect S1024x128 := Rect.unit (s := S1024x128) ![0, 0] S1024x128.size inb_S1024x128_S1024x128_0_0
abbrev r6_1 : Rect S128x512 := Rect.unit (s := S128x512) ![0, 0] S128x512.size inb_S128x512_S128x512_0_0
abbrev r6_2 : Rect S1024x512 := Rect.unit (s := S1024x512) ![0, 0] S1024x512.size inb_S1024x512_S1024x512_0_0

/-! ## What the body leaves in the output buffer -/

/-- The output buffer after the body, from the two input blocks: the one store's payload, the rounded product. -/
def out6_2 (x0 : Vec F S1024x128 .bf16) (x1 : Vec F S128x512 .bf16) : Vec F S1024x512 .bf16 :=
  View.canon [⟨r6_2, k6_pay1 (View.ld x0 r6_0) (View.ld x1 r6_1)⟩]

/-- The store is of the whole buffer, so it covers it. -/
theorem cover6_2 (p0 : Vec F S1024x512 .bf16) (y : S1024x512.Idx) :
    ∃ pc ∈ ([⟨r6_2, p0⟩] : List (View.Piece (Elt F) S1024x512 .bf16)), y ∈ pc.1.set :=
  View.cover_of_tiled [⟨r6_2, p0⟩] S1024x512.size (by rfl) y

/-! ## The body's triple -/

set_option maxHeartbeats 1000000 in
/-- The body on whole buffers — the inputs' at contents reading `x0` and `x1`, the output's at anything — runs to a
    state where the inputs' are as they were and the output's reads `out6_2 x0 x1`. -/
theorem sound_kernel6 (c : Dev nD) (E : Set ℕ) (i : grid6.Coords)
    (arg1 : Memref sig .tc .vmem S1024x128 .bf16) (harg1 : arg1.IsWhole)
    (arg2 : Memref sig .tc .vmem S128x512 .bf16) (harg2 : arg2.IsWhole)
    (arg3 : Memref sig .tc .vmem S1024x512 .bf16) (harg3 : arg3.IsWhole)
    (x0 : Vec F S1024x128 .bf16) (x1 : Vec F S128x512 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region on core `c`: the arrays as the region finds them; after the body at point `t` each
    input's buffer at its block and the output's at `out6_2` of the two input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- Every window is held at the full share, and no point owes anything. -/
theorem q_eq6 (c : Dev nD) (w : Fin cfg6.W) : (dat6 V c).q w = fullShare := by dsimp only [dat6]
theorem owed_eq6 (c : Dev nD) (t) : (dat6 V c).owed t = 0 := by dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) :
    (dat6 V c).after 2 t = out6_2 (iblk6 V c 0 t) (iblk6 V c 1 t) := by dsimp only [dat6]

/-- Each input's buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- Entering: the generator register and the scoped rest make the invariant at the first point. -/
theorem phi_in6 (c : Dev nD) :
    iprop((∃ r, prngReg c r) ∗ Pipeline.scopedRest (Ix := Unit) (Name := ℕ) (U := UR sig nD τ) (Lvl := ℕ) spec6 c)
      ⊢ ((dat6 V c).Φ 0 : sProp 𝕄) := by
  rw [show (dat6 V c).Φ 0 = Pipeline.ΦA spec6 c from rfl]; unfold Pipeline.ΦA
  iintro ⟨Hp, Hr⟩
  isplitl [Hr]; · iexact Hr
  iexact Hp

/-- Leaving: the invariant at the last point gives them back. -/
theorem phi_out6 (c : Dev nD) :
    ((dat6 V c).Φ (Fin.last cfg6.N) : sProp 𝕄)
      ⊢ iprop((∃ r, prngReg c r) ∗ Pipeline.scopedRest (Ix := Unit) (Name := ℕ) (U := UR sig nD τ) (Lvl := ℕ) spec6 c) := by
  rw [show (dat6 V c).Φ (Fin.last cfg6.N) = Pipeline.ΦA spec6 c from rfl]; unfold Pipeline.ΦA
  iintro ⟨Hr, Hp⟩
  isplitl [Hp]; · iexact Hp
  iexact Hr

end Region

end Cert.KernelIdeal.Hand

end
-- ==== Proof.KI.Region7.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 7: O = max(A·H + b, 0), the product accumulated over the four column blocks of A -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: an unfetched
    point has the block index of the point before it, and the body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions, decided over the grid -/

/-- The first conditional's condition (the second grid coordinate is 0), as the body computes it. -/
abbrev cond7_0 (i : grid7.Coords) : Prop := (Scalar.cmpi .ne (Scalar.extui (Scalar.cmpi .eq (BitVec.ofNat 32 (i 1).val) 0#32)) 0#32) = 1#1
/-- It holds at the points ≡ 0 (mod 4). -/
theorem hcond7_0 : ∀ t : Fin cfg7.N, cond7_0 (grid7.coords t) ↔ t.val % 4 = 0 :=
  (by decide +kernel : ∀ t : Fin grid7.N, cond7_0 (grid7.coords t) ↔ t.val % 4 = 0)

/-- The second conditional's condition (the second grid coordinate is 3). -/
abbrev cond7_1 (i : grid7.Coords) : Prop := k7_cond2 i = 1#1
/-- It holds at the points ≡ 3 (mod 4). -/
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- The output window is idle at the points whose second coordinate is not 3: the body stores nothing into it there, -/
theorem idleAt7_3 : ∀ t : Fin cfg7.N, ¬t.val % 4 = 3 → cfg7.idle 3 (grid7.coords t) = true := by decide +kernel
/-- live at the others, -/
theorem liveAt7_3 : ∀ t : Fin cfg7.N, t.val % 4 = 3 → cfg7.idle 3 (grid7.coords t) = false := by decide +kernel
/-- and written back only at those. -/
theorem noFlush7_3 (t : Fin cfg7.N) (h : ¬t.val % 4 = 3) : (cfg7.win 3).flush t = false := by
  cases hf : (cfg7.win 3).flush t with
  | false => rfl
  | true => exact absurd ((flush7_3 t).mp hf) h

/-! ## The body's accesses -/

abbrev rA7 : Rect S1024x2048 := Rect.unit (s := S1024x2048) ![0, 0] S1024x2048.size inb_S1024x2048_S1024x2048_0_0
abbrev rH7 : Rect S2048x512 := Rect.unit (s := S2048x512) ![0, 0] S2048x512.size inb_S2048x512_S2048x512_0_0
abbrev rB7 : Rect S1x512 := Rect.unit (s := S1x512) ![0, 0] S1x512.size inb_S1x512_S1x512_0_0
abbrev rO7 : Rect S1024x512 := Rect.unit (s := S1024x512) ![0, 0] S1024x512.size inb_S1024x512_S1024x512_0_0

/-! ## What the body leaves in the accumulator and in the output window's buffer -/

/-- The accumulator after the body at a point whose second coordinate is 0: zeroed, then the product of the
    point's blocks added (the stores as pieces, last first; the payloads are the skeleton's). -/
def accA7 (x0 : Vec F S1024x2048 .bf16) (x1 : Vec F S2048x512 .bf16) : Vec F S1024x512 .f32 :=
  View.canon [⟨rO7, k7_pay2 (View.ld x0 rA7) (View.ld x1 rH7) (View.ld (View.canon [⟨rO7, k7_pay1 (F := F)⟩]) rO7)⟩, ⟨rO7, k7_pay1 (F := F)⟩]

/-- The accumulator after the body at any other point, from what the point before left in it (`a`). -/
def accB7 (x0 : Vec F S1024x2048 .bf16) (x1 : Vec F S2048x512 .bf16) (a : Vec F S1024x512 .f32) : Vec F S1024x512 .f32 :=
  View.canon [⟨rO7, k7_pay2 (View.ld x0 rA7) (View.ld x1 rH7) (View.ld a rO7)⟩]

/-- The output window's buffer after the body at a point whose second coordinate is 3, from the accumulator as
    the point leaves it (`a`) and the bias block. -/
def out7_3 (a : Vec F S1024x512 .f32) (x2 : Vec F S1x512 .f32) : Vec F S1024x512 .f32 :=
  View.canon [⟨rO7, k7_pay3 (View.ld a rO7) (View.ld x2 rB7)⟩]

/-- One whole-buffer store covers the buffer (checked by evaluation). -/
theorem coverS7 (p0 : Vec F S1024x512 .f32) (y : S1024x512.Idx) :
    ∃ pc ∈ ([⟨rO7, p0⟩] : List (View.Piece (Elt F) S1024x512 .f32)), y ∈ pc.1.set :=
  View.cover_of_tiled [⟨rO7, p0⟩] S1024x512.size (by rfl) y

theorem coverS27 (p0 p1 : Vec F S1024x512 .f32) (y : S1024x512.Idx) :
    ∃ pc ∈ ([⟨rO7, p0⟩, ⟨rO7, p1⟩] : List (View.Piece (Elt F) S1024x512 .f32)), y ∈ pc.1.set := by
  obtain ⟨pc, hm, hy⟩ := coverS7 p0 y
  exact ⟨pc, List.mem_cons.mpr (Or.inl (List.mem_singleton.mp hm)), hy⟩

/-! ## The body's triple, case by case -/

set_option maxHeartbeats 2000000 in
/-- Second coordinate 0: the accumulator, at anything, is zeroed and takes the product; the output window's
    buffer is not touched. -/
theorem sound_kernel7_A (c : Dev nD) (E : Set ℕ) (i : grid7.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : ¬cond7_1 i)
    (x0 : Vec F S1024x2048 .bf16) (x1 : Vec F S2048x512 .bf16) (x2 : Vec F S1x512 .f32) (x3 : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA7 x0 x1)) -∗ K ⟨⟩))
      ⊢ wp frame (wpE (defs₀ (F := F)) Variants.none c none) E (cc7__spmm_kernel i arg2 harg2 arg3 harg3 arg4 harg4 arg5 harg5 arg6 harg6) K := by
  simp only [cc7__spmm_kernel_eq_skeleton]; unfold cc7__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS7 _)]
  exact View.read_writes_eq_canon _ _ _ (coverS27 _ _)

set_option maxHeartbeats 2000000 in
/-- Second coordinate 1 or 2: the product is added to what the accumulator held; the output window's buffer is
    not touched. -/
theorem sound_kernel7_B (c : Dev nD) (E : Set ℕ) (i : grid7.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : ¬cond7_0 i) (hc1 : ¬cond7_1 i)
    (x0 : Vec F S1024x2048 .bf16) (x1 : Vec F S2048x512 .bf16) (x2 : Vec F S1x512 .f32) (x3 : Vec F S1024x512 .f32) (a : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB7 x0 x1 a)) -∗ K ⟨⟩))
      ⊢ wp frame (wpE (defs₀ (F := F)) Variants.none c none) E (cc7__spmm_kernel i arg2 harg2 arg3 harg3 arg4 harg4 arg5 harg5 arg6 harg6) K := by
  simp only [cc7__spmm_kernel_eq_skeleton]; unfold cc7__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS7 _)

set_option maxHeartbeats 2000000 in
/-- Second coordinate 3: the product is added to what the accumulator held, and the output window's buffer,
    at anything, is stored whole from the accumulator and the bias. -/
theorem sound_kernel7_C (c : Dev nD) (E : Set ℕ) (i : grid7.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : ¬cond7_0 i) (hc1 : cond7_1 i)
    (x0 : Vec F S1024x2048 .bf16) (x1 : Vec F S2048x512 .bf16) (x2 : Vec F S1x512 .f32) (a : Vec F S1024x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out7_3 (accB7 x0 x1 a) x2) ∗ owns (c : Thread nD τ) arg6 fullShare (accB7 x0 x1 a)) -∗ K ⟨⟩))
      ⊢ wp frame (wpE (defs₀ (F := F)) Variants.none c none) E (cc7__spmm_kernel i arg2 harg2 arg3 harg3 arg4 harg4 arg5 harg5 arg6 harg6) K := by
  simp only [cc7__spmm_kernel_eq_skeleton]; unfold cc7__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS7 _)]
    exact View.read_writes_eq_canon _ _ _ (coverS7 _)
  iexists _; isplitr
  swap; · iexact H6
  ipureintro
  exact View.read_writes_eq_canon _ _ _ (coverS7 _)

/-! ## The accumulation, point by point -/

/-- What the accumulator holds after the body at position `n` (as `accN7 (n + 1)`): at a point whose second
    coordinate is 0 the product of the point's blocks over zero, at any other the product added to what the
    point before left. (Before the first point, and past the grid, nothing is claimed: a placeholder.) -/
def accN7 (c : Dev nD) : ℕ → Vec F S1024x512 .f32
  | 0 => k7_pay1 (F := F)
  | n + 1 =>
    if h : n < cfg7.N then
      if n % 4 = 0 then accA7 (iblk7 V c 0 ⟨n, h⟩) (iblk7 V c 1 ⟨n, h⟩)
      else accB7 (iblk7 V c 0 ⟨n, h⟩) (iblk7 V c 1 ⟨n, h⟩) (accN7 c n)
    else k7_pay1 (F := F)

theorem accN7_A (c : Dev nD) (t : Fin cfg7.N) (h0 : t.val % 4 = 0) :
    accN7 V c (t.val + 1) = accA7 (iblk7 V c 0 t) (iblk7 V c 1 t) := by
  rw [accN7, dif_pos t.isLt, if_pos h0]

theorem accN7_B (c : Dev nD) (t : Fin cfg7.N) (h0 : ¬t.val % 4 = 0) :
    accN7 V c (t.val + 1) = accB7 (iblk7 V c 0 t) (iblk7 V c 1 t) (accN7 V c t.val) := by
  rw [accN7, dif_pos t.isLt, if_neg h0]

/-- The region's invariant before position `n`: the generator register at some state, every scoped buffer but
    the accumulator at anything, and the accumulator — at anything before a point whose second coordinate is 0
    (the body zeroes it there), else at what the point before left. -/
def Phi7 (c : Dev nD) (n : ℕ) : sProp 𝕄 :=
  iprop((∃ r, prngReg c r)
    ∗ Pipeline.scopedRestBut (Ix := Unit) (Name := ℕ) (U := UR sig nD τ) (Lvl := ℕ) (Val := Elt F) spec7 c [cc7_scratch0]
    ∗ (∃ a : Vec F S1024x512 .f32, ⌜n % 4 ≠ 0 → a = accN7 V c n⌝
        ∗ owns (c : Thread nD τ) (Memref.whole cc7_scratch0 : Memref sig .tc .vmem S1024x512 .f32) fullShare a))

/-! ## The pipeline's proof data -/

/-- The proof data of the pipeline on core `c`: the arrays as the region finds them (`V`); after the body each
    input's buffer at its block, the output's (consulted only where the second coordinate is 3) at the stored
    block; the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (accN7 V c (t.val + 1)) (iblk7 V c 2 t)
  Φ t := Phi7 V c t.val
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem Phi7_castSucc (c : Dev nD) (t : Fin cfg7.N) : (dat7 V c).Φ t.castSucc = Phi7 V c t.val := by
  dsimp only [dat7]; simp only [Fin.coe_castSucc]

theorem Phi7_succ (c : Dev nD) (t : Fin cfg7.N) : (dat7 V c).Φ t.succ = Phi7 V c (t.val + 1) := by
  dsimp only [dat7]; simp only [Fin.val_succ]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (accN7 V c (t.val + 1)) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [Phi7_castSucc, Phi7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  unfold Phi7
  by_cases h0 : t.val % 4 = 0
  · have h3 : ¬t.val % 4 = 3 := by omega
    rw [Dat.leavesExact_idle (dat7 V c) 3 t (idleAt7_3 t h3) (noFlush7_3 t h3)]
    iintro ⟨⟨Hg, Hr, ⟨%a, -, HS⟩⟩, Ho, ⟨%d0, H0⟩, ⟨%d1, H1⟩, ⟨%d2, H2⟩, ⟨%d3, H3⟩⟩
    iapply (sound_kernel7_A c Set.univ (grid7.coords t) _ _ _ _ _ _ _ _ _ _ ((hcond7_0 t).mpr h0) (fun h => h3 ((hcond7_1 t).mp h))
      (iblk7 V c 0 t) (iblk7 V c 1 t) (iblk7 V c 2 t) ((dat7 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN7_A V c t h0).symm
    isplitl [Ho]; · iexact Ho
    isplitl [H0]; · iexact H0
    isplitl [H1]; · iexact H1
    isplitl [H2]; · iexact H2
    iexists d3; iexact H3
  · by_cases h3 : t.val % 4 = 3
    · rw [show (dat7 V c).leavesExact 3 t = owns (c : Thread nD τ) (st7_3 t) fullShare ((dat7 V c).after 3 t) from by
        unfold Dat.leavesExact; rw [liveAt7_3 t h3], after7_3, accN7_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel7_C c Set.univ (grid7.coords t) _ _ _ _ _ _ _ _ _ _ (fun h => h0 ((hcond7_0 t).mp h)) ((hcond7_1 t).mpr h3)
        (iblk7 V c 0 t) (iblk7 V c 1 t) (iblk7 V c 2 t) (accN7 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat7 V c) 3 t (idleAt7_3 t h3) (noFlush7_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel7_B c Set.univ (grid7.coords t) _ _ _ _ _ _ _ _ _ _ (fun h => h0 ((hcond7_0 t).mp h)) (fun h => h3 ((hcond7_1 t).mp h))
        (iblk7 V c 0 t) (iblk7 V c 1 t) (iblk7 V c 2 t) ((dat7 V c).before 3 t d3) (accN7 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN7_B V c t h0).symm
      isplitl [Ho]; · iexact Ho
      isplitl [H0]; · iexact H0
      isplitl [H1]; · iexact H1
      isplitl [H2]; · iexact H2
      iexists d3; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's two ends -/

/-- What the region is entered with — the generator register and every scoped buffer at anything — is the
    invariant before the first point. -/
theorem phi_in7 (c : Dev nD) :
    iprop((∃ r, prngReg c r) ∗ Pipeline.scopedRest (Ix := Unit) (Name := ℕ) (U := UR sig nD τ) (Lvl := ℕ) spec7 c)
      ⊢ ((dat7 V c).Φ 0 : sProp 𝕄) := by
  rw [show (dat7 V c).Φ 0 = Phi7 V c 0 from by dsimp only [dat7]; rfl]
  unfold Phi7
  rw [scopedRest7_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out7 (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) spec7 c) := by
  rw [show (dat7 V c).Φ (Fin.last cfg7.N) = Phi7 V c cfg7.N from by dsimp only [dat7]; rfl]
  unfold Phi7
  rw [scopedRest7_split]
  simp only [owns_whole]
  iintro ⟨Hg, Hr, ⟨%a, -, Hs⟩⟩
  isplitl [Hg]; · iexact Hg
  isplitl [Hs]; · iexists a; iexact Hs
  iexact Hr

end Cert.KernelIdeal.Hand

end
-- ==== Proof.KI.Region8.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.Value
import Idealize.ShloMosaic.Lib.Tactic

/-! # Region 8: the dense layer `Y = X · W`, one row block of `X` per grid point

The pipeline of this region walks the 8 row blocks of `X`. At each point the body reads the current block of `X`
(window 0) and the whole of `W` (window 1, fetched once and kept), forms their product from a zero accumulator, rounds
it, and stores it over the whole of the output block (window 2), which is written back at every point. The body also
reads the output buffer before it stores into it; that read is of contents nobody chose, and nothing depends on it.

This file states the region's proof data at any entry contents `V` of the core's buffers and proves the body's
obligation: each input buffer holds its block at every point (fetched there, or kept from the point before), the
body's one store covers the output buffer, and so the output buffer after the body is a function of the two input
blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the core's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The buffer of `X`'s window holds the point's row block at every point, for any proof data whose array is the entry
    contents and whose body leaves the block in place: where the block was not fetched its index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The buffer of `W`'s window holds the whole of `W` at every point: it is fetched at the first point, its block
    index never moves, and the body leaves it in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is of a whole buffer -/

abbrev r8_0 : Rect S1024x128 := Rect.unit (s := S1024x128) ![0, 0] S1024x128.size inb_S1024x128_S1024x128_0_0
abbrev r8_1 : Rect S128x128 := Rect.unit (s := S128x128) ![0, 0] S128x128.size inb_S128x128_S128x128_0_0
abbrev r8_2 : Rect S1024x128 := Rect.unit (s := S1024x128) ![0, 0] S1024x128.size inb_S1024x128_S1024x128_0_0

/-! ## What the body leaves in the output buffer -/

/-- The output buffer after the body, from the two input blocks: the one store's payload, the rounded product. -/
def out8_2 (x0 : Vec F S1024x128 .bf16) (x1 : Vec F S128x128 .bf16) : Vec F S1024x128 .bf16 :=
  View.canon [⟨r8_2, k8_pay1 (View.ld x0 r8_0) (View.ld x1 r8_1)⟩]

/-- The store is of the whole buffer, so it covers it. -/
theorem cover8_2 (p0 : Vec F S1024x128 .bf16) (y : S1024x128.Idx) :
    ∃ pc ∈ ([⟨r8_2, p0⟩] : List (View.Piece (Elt F) S1024x128 .bf16)), y ∈ pc.1.set :=
  View.cover_of_tiled [⟨r8_2, p0⟩] S1024x128.size (by rfl) y

/-! ## The body's triple -/

set_option maxHeartbeats 1000000 in
/-- The body on whole buffers — the inputs' at contents reading `x0` and `x1`, the output's at anything — runs to a
    state where the inputs' are as they were and the output's reads `out8_2 x0 x1`. -/
theorem sound_kernel8 (c : Dev nD) (E : Set ℕ) (i : grid8.Coords)
    (arg1 : Memref sig .tc .vmem S1024x128 .bf16) (harg1 : arg1.IsWhole)
    (arg2 : Memref sig .tc .vmem S128x128 .bf16) (harg2 : arg2.IsWhole)
    (arg3 : Memref sig .tc .vmem S1024x128 .bf16) (harg3 : arg3.IsWhole)
    (x0 : Vec F S1024x128 .bf16) (x1 : Vec F S128x128 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out8_2 x0 x1)) -∗ K ⟨⟩))
      ⊢ wp frame (wpE (defs₀ (F := F)) Variants.none c none) E (cc8__linear_kernel i arg1 harg1 arg2 harg2 arg3 harg3) K := by
  simp only [cc8__linear_kernel_eq_skeleton]; unfold cc8__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region on core `c`: the arrays as the region finds them; after the body at point `t` each
    input's buffer at its block and the output's at `out8_2` of the two input blocks; the invariant is the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- Every window is held at the full share, and no point owes anything. -/
theorem q_eq8 (c : Dev nD) (w : Fin cfg8.W) : (dat8 V c).q w = fullShare := by dsimp only [dat8]
theorem owed_eq8 (c : Dev nD) (t) : (dat8 V c).owed t = 0 := by dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (iblk8 V c 0 t) (iblk8 V c 1 t) := by dsimp only [dat8]

/-- Each input's buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the region's two ends -/

/-- Entering: the generator register and the scoped rest make the invariant at the first point. -/
theorem phi_in8 (c : Dev nD) :
    iprop((∃ r, prngReg c r) ∗ Pipeline.scopedRest (Ix := Unit) (Name := ℕ) (U := UR sig nD τ) (Lvl := ℕ) spec8 c)
      ⊢ ((dat8 V c).Φ 0 : sProp 𝕄) := by
  rw [show (dat8 V c).Φ 0 = Pipeline.ΦA spec8 c from rfl]; unfold Pipeline.ΦA
  iintro ⟨Hp, Hr⟩
  isplitl [Hr]; · iexact Hr
  iexact Hp

/-- Leaving: the invariant at the last point gives them back. -/
theorem phi_out8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) spec8 c) := by
  rw [show (dat8 V c).Φ (Fin.last cfg8.N) = Pipeline.ΦA spec8 c from rfl]; unfold Pipeline.ΦA
  iintro ⟨Hr, Hp⟩
  isplitl [Hp]; · iexact Hp
  iexact Hr

end Region

end Cert.KernelIdeal.Hand

end
-- ==== Proof.KI.Region9.lean ====
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # custom_call 9: O = max(A·H + b, 0), the product accumulated over the four column blocks of A -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not: an unfetched
    point has the block index of the point before it, and the body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions, decided over the grid -/

/-- The first conditional's condition (the second grid coordinate is 0), as the body computes it. -/
abbrev cond9_0 (i : grid9.Coords) : Prop := (Scalar.cmpi .ne (Scalar.extui (Scalar.cmpi .eq (BitVec.ofNat 32 (i 1).val) 0#32)) 0#32) = 1#1
/-- It holds at the points ≡ 0 (mod 4). -/
theorem hcond9_0 : ∀ t : Fin cfg9.N, cond9_0 (grid9.coords t) ↔ t.val % 4 = 0 :=
  (by decide +kernel : ∀ t : Fin grid9.N, cond9_0 (grid9.coords t) ↔ t.val % 4 = 0)

/-- The second conditional's condition (the second grid coordinate is 3). -/
abbrev cond9_1 (i : grid9.Coords) : Prop := k9_cond2 i = 1#1
/-- It holds at the points ≡ 3 (mod 4). -/
theorem hcond9_1 : ∀ t : Fin cfg9.N, cond9_1 (grid9.coords t) ↔ t.val % 4 = 3 :=
  (by decide +kernel : ∀ t : Fin grid9.N, cond9_1 (grid9.coords t) ↔ t.val % 4 = 3)

/-! ## Where the windows are idle -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
/-- The output window is idle at the points whose second coordinate is not 3: the body stores nothing into it there, -/
theorem idleAt9_3 : ∀ t : Fin cfg9.N, ¬t.val % 4 = 3 → cfg9.idle 3 (grid9.coords t) = true := by decide +kernel
/-- live at the others, -/
theorem liveAt9_3 : ∀ t : Fin cfg9.N, t.val % 4 = 3 → cfg9.idle 3 (grid9.coords t) = false := by decide +kernel
/-- and written back only at those. -/
theorem noFlush9_3 (t : Fin cfg9.N) (h : ¬t.val % 4 = 3) : (cfg9.win 3).flush t = false := by
  cases hf : (cfg9.win 3).flush t with
  | false => rfl
  | true => exact absurd ((flush9_3 t).mp hf) h

/-! ## The body's accesses -/

abbrev rA9 : Rect S1024x2048 := Rect.unit (s := S1024x2048) ![0, 0] S1024x2048.size inb_S1024x2048_S1024x2048_0_0
abbrev rH9 : Rect S2048x128 := Rect.unit (s := S2048x128) ![0, 0] S2048x128.size inb_S2048x128_S2048x128_0_0
abbrev rB9 : Rect S1x128 := Rect.unit (s := S1x128) ![0, 0] S1x128.size inb_S1x128_S1x128_0_0
abbrev rO9 : Rect S1024x128 := Rect.unit (s := S1024x128) ![0, 0] S1024x128.size inb_S1024x128_S1024x128_0_0

/-! ## What the body leaves in the accumulator and in the output window's buffer -/

/-- The accumulator after the body at a point whose second coordinate is 0: zeroed, then the product of the
    point's blocks added (the stores as pieces, last first; the payloads are the skeleton's). -/
def accA9 (x0 : Vec F S1024x2048 .bf16) (x1 : Vec F S2048x128 .bf16) : Vec F S1024x128 .f32 :=
  View.canon [⟨rO9, k9_pay2 (View.ld x0 rA9) (View.ld x1 rH9) (View.ld (View.canon [⟨rO9, k9_pay1 (F := F)⟩]) rO9)⟩, ⟨rO9, k9_pay1 (F := F)⟩]

/-- The accumulator after the body at any other point, from what the point before left in it (`a`). -/
def accB9 (x0 : Vec F S1024x2048 .bf16) (x1 : Vec F S2048x128 .bf16) (a : Vec F S1024x128 .f32) : Vec F S1024x128 .f32 :=
  View.canon [⟨rO9, k9_pay2 (View.ld x0 rA9) (View.ld x1 rH9) (View.ld a rO9)⟩]

/-- The output window's buffer after the body at a point whose second coordinate is 3, from the accumulator as
    the point leaves it (`a`) and the bias block. -/
def out9_3 (a : Vec F S1024x128 .f32) (x2 : Vec F S1x128 .f32) : Vec F S1024x128 .bf16 :=
  View.canon [⟨rO9, k9_pay3 (View.ld a rO9) (View.ld x2 rB9)⟩]

/-- One whole-buffer store covers the buffer (checked by evaluation). -/
theorem coverS9 (p0 : Vec F S1024x128 .f32) (y : S1024x128.Idx) :
    ∃ pc ∈ ([⟨rO9, p0⟩] : List (View.Piece (Elt F) S1024x128 .f32)), y ∈ pc.1.set :=
  View.cover_of_tiled [⟨rO9, p0⟩] S1024x128.size (by rfl) y

theorem coverS29 (p0 p1 : Vec F S1024x128 .f32) (y : S1024x128.Idx) :
    ∃ pc ∈ ([⟨rO9, p0⟩, ⟨rO9, p1⟩] : List (View.Piece (Elt F) S1024x128 .f32)), y ∈ pc.1.set := by
  obtain ⟨pc, hm, hy⟩ := coverS9 p0 y
  exact ⟨pc, List.mem_cons.mpr (Or.inl (List.mem_singleton.mp hm)), hy⟩

theorem coverO9 (p0 : Vec F S1024x128 .bf16) (y : S1024x128.Idx) :
    ∃ pc ∈ ([⟨rO9, p0⟩] : List (View.Piece (Elt F) S1024x128 .bf16)), y ∈ pc.1.set :=
  View.cover_of_tiled [⟨rO9, p0⟩] S1024x128.size (by rfl) y

/-! ## The body's triple, case by case -/

set_option maxHeartbeats 2000000 in
/-- Second coordinate 0: the accumulator, at anything, is zeroed and takes the product; the output window's
    buffer is not touched. -/
theorem sound_kernel9_A (c : Dev nD) (E : Set ℕ) (i : grid9.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : cond9_0 i) (hc1 : ¬cond9_1 i)
    (x0 : Vec F S1024x2048 .bf16) (x1 : Vec F S2048x128 .bf16) (x2 : Vec F S1x128 .f32) (x3 : Vec F S1024x128 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accA9 x0 x1)) -∗ K ⟨⟩))
      ⊢ wp frame (wpE (defs₀ (F := F)) Variants.none c none) E (cc9__spmm_kernel i arg2 harg2 arg3 harg3 arg4 harg4 arg5 harg5 arg6 harg6) K := by
  simp only [cc9__spmm_kernel_eq_skeleton]; unfold cc9__spmm_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [View.readCov_eq_canon_ld _ _ _ (coverS9 _)]
  exact View.read_writes_eq_canon _ _ _ (coverS29 _ _)

set_option maxHeartbeats 2000000 in
/-- Second coordinate 1 or 2: the product is added to what the accumulator held; the output window's buffer is
    not touched. -/
theorem sound_kernel9_B (c : Dev nD) (E : Set ℕ) (i : grid9.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond9_0 i) (hc1 : ¬cond9_1 i)
    (x0 : Vec F S1024x2048 .bf16) (x1 : Vec F S2048x128 .bf16) (x2 : Vec F S1x128 .f32) (x3 : Vec F S1024x128 .bf16) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (accB9 x0 x1 a)) -∗ K ⟨⟩))
      ⊢ wp frame (wpE (defs₀ (F := F)) Variants.none c none) E (cc9__spmm_kernel i arg2 harg2 arg3 harg3 arg4 harg4 arg5 harg5 arg6 harg6) K := by
  simp only [cc9__spmm_kernel_eq_skeleton]; unfold cc9__spmm_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  exact View.read_writes_eq_canon _ _ _ (coverS9 _)

set_option maxHeartbeats 2000000 in
/-- Second coordinate 3: the product is added to what the accumulator held, and the output window's buffer,
    at anything, is stored whole from the accumulator and the bias. -/
theorem sound_kernel9_C (c : Dev nD) (E : Set ℕ) (i : grid9.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .bf16) (harg5 : arg5.IsWhole)
    (arg6 : Memref sig .tc .vmem S1024x128 .f32) (harg6 : arg6.IsWhole) (hc0 : ¬cond9_0 i) (hc1 : cond9_1 i)
    (x0 : Vec F S1024x2048 .bf16) (x1 : Vec F S2048x128 .bf16) (x2 : Vec F S1x128 .f32) (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (out9_3 (accB9 x0 x1 a) x2) ∗ owns (c : Thread nD τ) arg6 fullShare (accB9 x0 x1 a)) -∗ K ⟨⟩))
      ⊢ wp frame (wpE (defs₀ (F := F)) Variants.none c none) E (cc9__spmm_kernel i arg2 harg2 arg3 harg3 arg4 harg4 arg5 harg5 arg6 harg6) K := by
  simp only [cc9__spmm_kernel_eq_skeleton]; unfold cc9__spmm_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.readCov_eq_canon_ld _ _ _ (coverS9 _)]
    exact View.read_writes_eq_canon _ _ _ (coverO9 _)
  iexists _; isplitr
  swap; · iexact H6
  ipureintro
  exact View.read_writes_eq_canon _ _ _ (coverS9 _)

/-! ## The accumulation, point by point -/

/-- What the accumulator holds after the body at position `n` (as `accN9 (n + 1)`): at a point whose second
    coordinate is 0 the product of the point's blocks over zero, at any other the product added to what the
    point before left. (Before the first point, and past the grid, nothing is claimed: a placeholder.) -/
def accN9 (c : Dev nD) : ℕ → Vec F S1024x128 .f32
  | 0 => k9_pay1 (F := F)
  | n + 1 =>
    if h : n < cfg9.N then
      if n % 4 = 0 then accA9 (iblk9 V c 0 ⟨n, h⟩) (iblk9 V c 1 ⟨n, h⟩)
      else accB9 (iblk9 V c 0 ⟨n, h⟩) (iblk9 V c 1 ⟨n, h⟩) (accN9 c n)
    else k9_pay1 (F := F)

theorem accN9_A (c : Dev nD) (t : Fin cfg9.N) (h0 : t.val % 4 = 0) :
    accN9 V c (t.val + 1) = accA9 (iblk9 V c 0 t) (iblk9 V c 1 t) := by
  rw [accN9, dif_pos t.isLt, if_pos h0]

theorem accN9_B (c : Dev nD) (t : Fin cfg9.N) (h0 : ¬t.val % 4 = 0) :
    accN9 V c (t.val + 1) = accB9 (iblk9 V c 0 t) (iblk9 V c 1 t) (accN9 V c t.val) := by
  rw [accN9, dif_pos t.isLt, if_neg h0]

/-- The region's invariant before position `n`: the generator register at some state, every scoped buffer but
    the accumulator at anything, and the accumulator — at anything before a point whose second coordinate is 0
    (the body zeroes it there), else at what the point before left. -/
def Phi9 (c : Dev nD) (n : ℕ) : sProp 𝕄 :=
  iprop((∃ r, prngReg c r)
    ∗ Pipeline.scopedRestBut (Ix := Unit) (Name := ℕ) (U := UR sig nD τ) (Lvl := ℕ) (Val := Elt F) spec9 c [cc9_scratch0]
    ∗ (∃ a : Vec F S1024x128 .f32, ⌜n % 4 ≠ 0 → a = accN9 V c n⌝
        ∗ owns (c : Thread nD τ) (Memref.whole cc9_scratch0 : Memref sig .tc .vmem S1024x128 .f32) fullShare a))

/-! ## The pipeline's proof data -/

/-- The proof data of the pipeline on core `c`: the arrays as the region finds them (`V`); after the body each
    input's buffer at its block, the output's (consulted only where the second coordinate is 3) at the stored
    block; the invariant `Phi9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (accN9 V c (t.val + 1)) (iblk9 V c 2 t)
  Φ t := Phi9 V c t.val
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (t : Fin (cfg9.N + 1)) : (dat9 V c).owed t = 0 := by
  dsimp only [dat9]

theorem Phi9_castSucc (c : Dev nD) (t : Fin cfg9.N) : (dat9 V c).Φ t.castSucc = Phi9 V c t.val := by
  dsimp only [dat9]; simp only [Fin.coe_castSucc]

theorem Phi9_succ (c : Dev nD) (t : Fin cfg9.N) : (dat9 V c).Φ t.succ = Phi9 V c (t.val + 1) := by
  dsimp only [dat9]; simp only [Fin.val_succ]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (accN9 V c (t.val + 1)) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

set_option maxHeartbeats 4800000 in
/-- The body at any point: the inputs' buffers hold their blocks; the point's second coordinate (its position
    mod 4) says which case it is in; the invariant hands the body the accumulator at what the point before left
    (at anything where the body zeroes it) and takes it back at this point's contents; the output window's buffer
    is handed back as found except where the second coordinate is 3, where it holds the stored block. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [Phi9_castSucc, Phi9_succ]
  rw [show (dat9 V c).leavesExact 0 t = owns (c : Thread nD τ) (st9_0 t) fullShare ((dat9 V c).after 0 t) from by
    unfold Dat.leavesExact; rw [liveAt9_0 t], after9_0]
  rw [show (dat9 V c).leavesExact 1 t = owns (c : Thread nD τ) (st9_1 t) fullShare ((dat9 V c).after 1 t) from by
    unfold Dat.leavesExact; rw [liveAt9_1 t], after9_1]
  rw [show (dat9 V c).leavesExact 2 t = owns (c : Thread nD τ) (st9_2 t) fullShare ((dat9 V c).after 2 t) from by
    unfold Dat.leavesExact; rw [liveAt9_2 t], after9_2]
  unfold Phi9
  by_cases h0 : t.val % 4 = 0
  · have h3 : ¬t.val % 4 = 3 := by omega
    rw [Dat.leavesExact_idle (dat9 V c) 3 t (idleAt9_3 t h3) (noFlush9_3 t h3)]
    iintro ⟨⟨Hg, Hr, ⟨%a, -, HS⟩⟩, Ho, ⟨%d0, H0⟩, ⟨%d1, H1⟩, ⟨%d2, H2⟩, ⟨%d3, H3⟩⟩
    iapply (sound_kernel9_A c Set.univ (grid9.coords t) _ _ _ _ _ _ _ _ _ _ ((hcond9_0 t).mpr h0) (fun h => h3 ((hcond9_1 t).mp h))
      (iblk9 V c 0 t) (iblk9 V c 1 t) (iblk9 V c 2 t) ((dat9 V c).before 3 t d3) _)
    isplitl [H0]; · iexact H0
    isplitl [H1]; · iexact H1
    isplitl [H2]; · iexact H2
    isplitl [H3]; · iexact H3
    isplitl [HS]; · iexists a; iexact HS
    iintro ⟨H0, H1, H2, H3, HS⟩
    isplitl [Hg Hr HS]
    · isplitl [Hg]; · iexact Hg
      isplitl [Hr]; · iexact Hr
      iexists _; isplitr
      swap; · iexact HS
      ipureintro; intro _; exact (accN9_A V c t h0).symm
    isplitl [Ho]; · iexact Ho
    isplitl [H0]; · iexact H0
    isplitl [H1]; · iexact H1
    isplitl [H2]; · iexact H2
    iexists d3; iexact H3
  · by_cases h3 : t.val % 4 = 3
    · rw [show (dat9 V c).leavesExact 3 t = owns (c : Thread nD τ) (st9_3 t) fullShare ((dat9 V c).after 3 t) from by
        unfold Dat.leavesExact; rw [liveAt9_3 t h3], after9_3, accN9_B V c t h0]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel9_C c Set.univ (grid9.coords t) _ _ _ _ _ _ _ _ _ _ (fun h => h0 ((hcond9_0 t).mp h)) ((hcond9_1 t).mpr h3)
        (iblk9 V c 0 t) (iblk9 V c 1 t) (iblk9 V c 2 t) (accN9 V c t.val) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; rfl
      isplitl [Ho]; · iexact Ho
      isplitl [H0]; · iexact H0
      isplitl [H1]; · iexact H1
      isplitl [H2]; · iexact H2
      iexact H3
    · rw [Dat.leavesExact_idle (dat9 V c) 3 t (idleAt9_3 t h3) (noFlush9_3 t h3)]
      iintro ⟨⟨Hg, Hr, ⟨%a, %ha, HS⟩⟩, Ho, ⟨%d0, H0⟩, ⟨%d1, H1⟩, ⟨%d2, H2⟩, ⟨%d3, H3⟩⟩
      obtain rfl := ha h0
      iapply (sound_kernel9_B c Set.univ (grid9.coords t) _ _ _ _ _ _ _ _ _ _ (fun h => h0 ((hcond9_0 t).mp h)) (fun h => h3 ((hcond9_1 t).mp h))
        (iblk9 V c 0 t) (iblk9 V c 1 t) (iblk9 V c 2 t) ((dat9 V c).before 3 t d3) (accN9 V c t.val) _)
      isplitl [H0]; · iexact H0
      isplitl [H1]; · iexact H1
      isplitl [H2]; · iexact H2
      isplitl [H3]; · iexact H3
      isplitl [HS]; · iexact HS
      iintro ⟨H0, H1, H2, H3, HS⟩
      isplitl [Hg Hr HS]
      · isplitl [Hg]; · iexact Hg
        isplitl [Hr]; · iexact Hr
        iexists _; isplitr
        swap; · iexact HS
        ipureintro; intro _; exact (accN9_B V c t h0).symm
      isplitl [Ho]; · iexact Ho
      isplitl [H0]; · iexact H0
      isplitl [H1]; · iexact H1
      isplitl [H2]; · iexact H2
      iexists d3; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- What the region is entered with — the generator register and every scoped buffer at anything — is the
    invariant before the first point. -/
theorem phi_in9 (c : Dev nD) :
    iprop((∃ r, prngReg c r) ∗ Pipeline.scopedRest (Ix := Unit) (Name := ℕ) (U := UR sig nD τ) (Lvl := ℕ) spec9 c)
      ⊢ ((dat9 V c).Φ 0 : sProp 𝕄) := by
  rw [show (dat9 V c).Φ 0 = Phi9 V c 0 from by dsimp only [dat9]; rfl]
  unfold Phi9
  rw [scopedRest9_split]
  simp only [owns_whole]
  iintro ⟨Hg, ⟨%f, Hs⟩, Hr⟩
  isplitl [Hg]; · iexact Hg
  isplitl [Hr]; · iexact Hr
  iexists f; isplitr
  · ipureintro; intro h; exact absurd (Nat.zero_mod 4) h
  iexact Hs

/-- After the last point the invariant gives the same back: the accumulator's named contents are forgotten. -/
theorem phi_out9 (c : Dev nD) :
    ((dat9 V c).Φ (Fin.last cfg9.N) : sProp 𝕄)
      ⊢ iprop((∃ r, prngReg c r) ∗ Pipeline.scopedRest (Ix := Unit) (Name := ℕ) (U := UR sig nD τ) (Lvl := ℕ) spec9 c) := by
  rw [show (dat9 V c).Φ (Fin.last cfg9.N) = Phi9 V c cfg9.N from by dsimp only [dat9]; rfl]
  unfold Phi9
  rw [scopedRest9_split]
  simp only [owns_whole]
  iintro ⟨Hg, Hr, ⟨%a, -, Hs⟩⟩
  isplitl [Hg]; · iexact Hg
  isplitl [Hs]; · iexists a; iexact Hs
  iexact Hr

end Cert.KernelIdeal.Hand

end
-- ==== Proof.KI.Region10.lean ====
/- The outer-product region (custom_call 10): the proof data of its pipeline, the body's triple, the body
   obligation, the invariant at its two ends, and how the core's unscoped buffers make the windows' arrays when two
   input windows read one array (the array's points-to split in two halves by share, one per window). -/
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region10
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 (the row block, whose index moves only with the first grid coordinate) holds its block at every
    point, fetched there or not: unfetched, the block index has not moved since the point before. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the column block) likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_in : Rect S1024x128 := Rect.unit (s := S1024x128) ![0, 0] S1024x128.size inb_S1024x128_S1024x128_0_0
abbrev r10_out : Rect S1024x1024 := Rect.unit (s := S1024x1024) ![0, 0] S1024x1024.size inb_S1024x1024_S1024x1024_0_0

/-! ## What the body leaves in the output window's buffer -/

/-- The output buffer after the body, from the two input blocks: its one store, of the product of the first block with
    the transpose of the second. -/
def out10_2 (x0 x1 : Vec F S1024x128 .bf16) : Vec F S1024x1024 .f32 :=
  View.canon [⟨r10_out, k10_pay1 (View.ld x0 r10_in) (View.ld x1 r10_in)⟩]

/-- The store is of the whole buffer, so it covers it. -/
theorem cover10_2 (p0 : Vec F S1024x1024 .f32) (y : S1024x1024.Idx) :
    ∃ pc ∈ ([⟨r10_out, p0⟩] : List (View.Piece (Elt F) S1024x1024 .f32)), y ∈ pc.1.set :=
  View.cover_of_tiled [⟨r10_out, p0⟩] S1024x1024.size (by rfl) y

/-! ## The body's triple -/

set_option maxHeartbeats 1000000 in
/-- The kernel body on whole staging memrefs, the two inputs' at read contents `x0`, `x1` and the output's at anything,
    runs to the continuation holding the inputs' as they were and the output's at `out10_2 x0 x1`. -/
theorem sound_kernel10 (c : Dev nD) (E : Set ℕ) (i : grid10.Coords)
    (arg2 : Memref sig .tc .vmem S1024x128 .bf16) (harg2 : arg2.IsWhole)
    (arg3 : Memref sig .tc .vmem S1024x128 .bf16) (harg3 : arg3.IsWhole)
    (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out10_2 x0 x1)) -∗ K ⟨⟩))
      ⊢ wp frame (wpE (defs₀ (F := F)) Variants.none c none) E (cc10__outer_kernel i arg2 harg2 arg3 harg3 arg4 harg4) K := by
  simp only [cc10__outer_kernel_eq_skeleton]; unfold cc10__outer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of the pipeline on core `c`: the arrays as the region finds them; after the body at point `t` each
    input's buffer at its block and the output's at `out10_2` of the two blocks; the invariant the scoped rest and the
    generator register, untouched; nothing owed. The two input windows read ONE array: each holds half of it (the
    left and the right half of the full share), the output window its array whole. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q w := match w with
    | ⟨0, _⟩ => fullShare.left
    | ⟨1, _⟩ => fullShare.right
    | ⟨2, _⟩ => fullShare
  owed _ := 0

/-- The proof data's arrays are the region-entry contents. -/
theorem A_eq10 (c : Dev nD) (w : Fin cfg10.W) : (dat10 V c).A w = V c (Pipeline.arrRef spec10 w) := by
  dsimp only [dat10]

/-- Nothing is owed at any point. -/
theorem owed_eq10 (c : Dev nD) (t : Fin (cfg10.N + 1)) : (dat10 V c).owed t = 0 := by
  dsimp only [dat10]

/-- The shares of the three windows. -/
theorem q_eq10_0 (c : Dev nD) : (dat10 V c).q 0 = fullShare.left := by dsimp only [dat10]
theorem q_eq10_1 (c : Dev nD) : (dat10 V c).q 1 = fullShare.right := by dsimp only [dat10]
theorem q_eq10_2 (c : Dev nD) : (dat10 V c).q 2 = fullShare := by dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so the body's triple applies; the invariant and
    the core's tallies pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's two ends -/

/-- The generator register and the scoped buffers no window stages make the invariant at the first point, -/
theorem phi_in10 (c : Dev nD) :
    iprop((∃ r, prngReg c r) ∗ Pipeline.scopedRest (Ix := Unit) (Name := ℕ) (U := UR sig nD τ) (Lvl := ℕ) spec10 c)
      ⊢ ((dat10 V c).Φ 0 : sProp 𝕄) := by
  rw [show (dat10 V c).Φ 0 = Pipeline.ΦA spec10 c from rfl]; unfold Pipeline.ΦA
  iintro ⟨Hp, Hr⟩
  isplitl [Hr]; · iexact Hr
  iexact Hp

/-- and the invariant at the last point gives them back. -/
theorem phi_out10 (c : Dev nD) :
    ((dat10 V c).Φ (Fin.last cfg10.N) : sProp 𝕄)
      ⊢ iprop((∃ r, prngReg c r) ∗ Pipeline.scopedRest (Ix := Unit) (Name := ℕ) (U := UR sig nD τ) (Lvl := ℕ) spec10 c) := by
  rw [show (dat10 V c).Φ (Fin.last cfg10.N) = Pipeline.ΦA spec10 c from rfl]; unfold Pipeline.ΦA
  iintro ⟨Hr, Hp⟩
  isplitl [Hp]; · iexact Hp
  iexact Hr

/-! ## The windows' arrays among the core's unscoped buffers

Two input windows read ONE array (the factor `S`, both as the row block and as the column block), so the arrays'
buffers are two, not three: the factor's points-to is split in two halves by share, one per input window, at the
region's entry, and the halves are joined again at its exit; the product's buffer goes to the output window whole. -/

/-- The buffers behind the three windows' arrays: the factor and the product. -/
theorem arrImage10 : (Finset.univ.image (Pipeline.arrRef spec10) : Finset (Ref sig .tc)) = {main_v66, main_v67} := by decide

/-- Every unscoped buffer that is no array of the region, at its entry contents: what bypasses the region. -/
abbrev rest10 (c : Dev nD) : sProp 𝕄 :=
  Pipeline.unscopedRest (Ix := Unit) (Name := ℕ) (U := UR sig nD τ) (Lvl := ℕ) spec10 c (V c)

/-- The two buffers, each whole at the full share. -/
theorem arrBufs10_eq (c : Dev nD) (Vc : (b : Ref sig .tc) → Buf (Elt F) ((c : Thread nD τ).loc b)) :
    (Pipeline.arrBufs (Ix := Unit) (Name := ℕ) (U := UR sig nD τ) (Lvl := ℕ) spec10 c Vc : sProp 𝕄)
      = iprop((((c : Thread nD τ).loc main_v66) ↦{fullShare} Vc main_v66) ∗ (((c : Thread nD τ).loc main_v67) ↦{fullShare} Vc main_v67)) := by
  unfold Pipeline.arrBufs
  rw [arrImage10, bigSep_insert (by decide), bigSep_singleton]
  rfl

/-- The pipeline's arrays, window by window: the factor at the left half for the row window, at the right half for
    the column window, the product whole. -/
theorem arrays10_eq (c : Dev nD) (G : (w : Fin cfg10.W) → Buf (Elt F) ((cfg10.win w).arr.view.loc (c : Thread nD τ))) :
    ((dat10 V c).arrays G : sProp 𝕄)
      = iprop((((c : Thread nD τ).loc main_v66) ↦{fullShare.left} G 0) ∗ (((c : Thread nD τ).loc main_v66) ↦{fullShare.right} G 1)
          ∗ (((c : Thread nD τ).loc main_v67) ↦{fullShare} G 2)) := by
  unfold Pipeline.Dat.arrays
  rw [bigSep_W10, (arr_whole10 0).set_eq_univ, (arr_whole10 2).set_eq_univ]
  rfl

/-- ENTRY: the core's unscoped buffers at the entry contents are the pipeline's arrays at those contents and the rest. -/
theorem entry10 (c : Dev nD) :
    (unscopedBufs (Ix := Unit) (Name := ℕ) (U := UR sig nD τ) (Lvl := ℕ) c (V c) : sProp 𝕄)
      ⊢ iprop((dat10 V c).arrays ((dat10 V c).arrAt · 0) ∗ rest10 V c) := by
  rw [Pipeline.unscopedBufs_split₀ (cfgs := cfgs) (p := (10 : Fin 11)) winFacts₀10.arr_unscoped c (V c)]
  show iprop(Pipeline.arrBufs spec10 c (V c) ∗ rest10 V c) ⊢ _
  rw [arrBufs10_eq, arrays10_eq]
  iintro ⟨⟨H66, H67⟩, Hrest⟩
  ihave H := (pointsTo_share (PosShare.mem_left_op_right fullShare)).1 $$ H66
  icases H with ⟨Hl, Hr⟩
  isplitr [Hrest]
  · isplitl [Hl]; · iexact Hl
    isplitl [Hr]; · iexact Hr
    iexact H67
  iexact Hrest

/-- EXIT: the pipeline's arrays at what the run leaves — the factor unchanged in both halves, the product at its
    write-backs — and the rest are the core's unscoped buffers at any contents that have the product there and agree
    with the entry contents elsewhere. -/
theorem exit10 (c : Dev nD) (V' : (b : Ref sig .tc) → Buf (Elt F) ((c : Thread nD τ).loc b))
    (hout : V' main_v67 = (dat10 V c).arrAt 2 cfg10.N) (hrest : ∀ b, b ≠ main_v67 → V' b = V c b) :
    iprop((dat10 V c).arrays ((dat10 V c).arrAt · cfg10.N) ∗ rest10 V c)
      ⊢ (unscopedBufs (Ix := Unit) (Name := ℕ) (U := UR sig nD τ) (Lvl := ℕ) c V' : sProp 𝕄) := by
  have hR : rest10 V c = Pipeline.unscopedRest (Ix := Unit) (Name := ℕ) (U := UR sig nD τ) (Lvl := ℕ) spec10 c V' := by
    unfold rest10 Pipeline.unscopedRest
    exact bigSep_congr fun b hb => by
      rw [hrest b fun e => (Finset.mem_sdiff.mp hb).2 (e ▸ Finset.mem_image.mpr ⟨2, Finset.mem_univ _, rfl⟩)]
  rw [Pipeline.unscopedBufs_split₀ (cfgs := cfgs) (p := (10 : Fin 11)) winFacts₀10.arr_unscoped c V']
  show _ ⊢ iprop(Pipeline.arrBufs spec10 c V' ∗ Pipeline.unscopedRest spec10 c V')
  rw [hR, arrBufs10_eq, arrays10_eq, hout, hrest main_v66 (by decide),
    (dat10 V c).arrAt_in 0 rfl, (dat10 V c).arrAt_in 1 rfl, A_eq10, A_eq10]
  iintro ⟨⟨Hl, Hr, H67⟩, Hrest⟩
  isplitr [Hrest]
  · isplitr [H67]
    · iapply (pointsTo_share (PosShare.mem_left_op_right fullShare)).2
      isplitl [Hl]; · iexact Hl
      iexact Hr
    iexact H67
  iexact Hrest

end Region10

/-! ## The same two entailments over a valuation of the device's references -/

/-- ENTRY from the thread state "every unscoped buffer held at the valuation `Wv c`". -/
theorem entry10_held (Wv : Dev nD → Valuation τ sig (Elt F)) (c : Dev nD) :
    (StableHlo.held (c : Thread nD τ) (Pipeline.ucRefs τ sig) (Wv c) : sProp 𝕄)
      ⊢ iprop((dat10 (fun c b => Wv c b) c).arrays ((dat10 (fun c b => Wv c b) c).arrAt · 0) ∗ rest10 (fun c b => Wv c b) c) := by
  rw [← Pipeline.unscopedBufs_held]; exact entry10 (fun c b => Wv c b) c

/-- EXIT into the thread state "every unscoped buffer held at the valuation `Wv'`", which has the product at what the
    run leaves and every other buffer as entered. -/
theorem exit10_held (Wv : Dev nD → Valuation τ sig (Elt F)) (c : Dev nD) (Wv' : Valuation τ sig (Elt F))
    (hout : Wv' (Proc.devRef .tc main_v67) = (dat10 (fun c b => Wv c b) c).arrAt 2 cfg10.N)
    (hrest : ∀ b : Ref sig .tc, b ≠ main_v67 → Wv' (Proc.devRef .tc b) = Wv c (Proc.devRef .tc b)) :
    iprop((dat10 (fun c b => Wv c b) c).arrays ((dat10 (fun c b => Wv c b) c).arrAt · cfg10.N) ∗ rest10 (fun c b => Wv c b) c)
      ⊢ (StableHlo.held (c : Thread nD τ) (Pipeline.ucRefs τ sig) Wv' : sProp 𝕄) := by
  rw [← Pipeline.unscopedBufs_held]; exact exit10 (fun c b => Wv c b) c (fun b => Wv' b) hout hrest

/-! # The region's value at the ideal numbers: the product of the factor with its transpose

The output array after the run, index by index: entry `(p, q)` is the sum over the 128 columns `k` of
`S (p, k) * S (q, k)`, `S` the factor as the region finds it. The body's payload at an index is that sum over the two
blocks; the row block of point `(i, j)` is rows `1024 i …` of `S`, the column block rows `1024 j …`; the output blocks
tile the array. -/

section Value10

open ValueIdx

theorem hz10 : (![0, 0] : Fin 2 → Nat) = fun _ => 0 := funext fun a => by fin_cases a <;> rfl

/-- Row `r` of the factor at column `k` (zero past the last row: never read). -/
def rowAt (S : S8192x128.Idx → EReal) (r : ℕ) (k : Fin 128) : EReal :=
  if h : r < 8192 then S (ix2 (⟨r, h⟩ : Fin 8192) k) else 0

theorem rowAt_fin (S : S8192x128.Idx → EReal) (p : Fin 8192) (k : Fin 128) : rowAt S p.val k = S (ix2 p k) := by
  unfold rowAt; rw [dif_pos p.isLt]

/-- The product of the factor with its transpose, index by index. -/
def G10 (S : S8192x128.Idx → EReal) : S8192x8192.Idx → EReal :=
  fun i => ∑ k : Fin 128, rowAt S (i 0).val k * rowAt S (i 1).val k

theorem lhs10_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs10_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs10_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs10_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The payload at entry `(p, q)` of the block: row `p` of the first block against row `q` of the second. -/
theorem pay10_apply (x0 x1 : Vec Ideal S1024x128 .bf16) (p q : Fin 1024) :
    k10_pay1 (F := Ideal) x0 x1 (ix2 p q) = ∑ k : Fin 128, x0 (ix2 p k) * x1 (ix2 q k) := by
  unfold k10_pay1
  simp only [shapeCast_self]
  refine (Ideal.matmul_constant_zero_apply dot_S1024x128_S128x1024_S1024x1024_1_0_0_1_n_n none _ _ (ix2 p q)).trans ?_
  rw [← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs10_0 _ _
    | ⟨1, _⟩ => exact (lhs10_1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs10_0 _ _).trans hk
    | ⟨1, _⟩ => exact rhs10_1 _ _)
  rw [el, er, transpose_ix2_apply]

/-- The payload of two blocks that are rows `1024 bi …` and rows `1024 bj …` of `S`, at entry `(p, q)`, is the product's
    entry at any index `i` of the array with those coordinates. -/
theorem block10_apply (S : S8192x128.Idx → EReal) (x0 x1 : Vec Ideal S1024x128 .bf16) (bi bj : ℕ)
    (h0 : ∀ (p : Fin 1024) (k : Fin 128), x0 (ix2 p k) = rowAt S (bi * 1024 + p.val) k)
    (h1 : ∀ (q : Fin 1024) (k : Fin 128), x1 (ix2 q k) = rowAt S (bj * 1024 + q.val) k)
    (p q : Fin 1024) (i : S8192x8192.Idx) (hi0 : (i 0).val = bi * 1024 + p.val) (hi1 : (i 1).val = bj * 1024 + q.val) :
    k10_pay1 (F := Ideal) x0 x1 (ix2 p q) = G10 S i := by
  rw [pay10_apply]; unfold G10
  refine Finset.sum_congr rfl fun k _ => ?_
  rw [h0, h1, hi0, hi1]

/-- The printed index maps over the grid: the row window moves with the output's first block index, the column window
    with its second, neither along the columns of the factor; the output's block indices stay below 8. -/
theorem idx_facts10 : ∀ t : Fin cfg10.N, win10_0.index t (0 : Fin 2) = win10_2.index t (0 : Fin 2)
    ∧ win10_0.index t (1 : Fin 2) = 0
    ∧ win10_1.index t (0 : Fin 2) = win10_2.index t (1 : Fin 2)
    ∧ win10_1.index t (1 : Fin 2) = 0
    ∧ win10_2.index t (0 : Fin 2) ≤ 7 ∧ win10_2.index t (1 : Fin 2) ≤ 7 :=
  (by decide +kernel : ∀ t : Fin grid10.N, _)

/-- Every block of the output is some point's. -/
theorem idx_onto10 : ∀ (q0 : Fin 8) (q1 : Fin 8), ∃ t : Fin cfg10.N, win10_2.index t = ![q0.val, q1.val] :=
  (by decide +kernel : ∀ (q0 : Fin 8) (q1 : Fin 8), ∃ t : Fin grid10.N, win10_2.index t = ![q0.val, q1.val])

variable (V : (c : Dev nD) → (b : Ref sig .tc) → Buf (Elt Ideal) ((c : Thread nD τ).loc b))

/-- The row block at point `t` is rows `1024 i …` of the factor, `i` the output's first block index there. -/
theorem iblk10_0_apply (c : Dev nD) (t : Fin cfg10.N) (p : Fin 1024) (k : Fin 128) :
    iblk10 V c 0 t (ix2 p k) = rowAt (V c main_v66) (win10_2.index t (0 : Fin 2) * 1024 + p.val) k := by
  obtain ⟨e0, e1, e2, e3, e4, e5⟩ := idx_facts10 t
  have hlt : win10_2.index t (0 : Fin 2) * 1024 + p.val < 8192 := by have := p.isLt; omega
  unfold rowAt; rw [dif_pos hlt]
  show V c main_v66 (((cfg10.win 0).blk t).view.emb (ix2 p k)) = V c main_v66 (ix2 (⟨_, hlt⟩ : Fin 8192) k)
  refine congrArg (V c main_v66) ?_
  funext a; apply Fin.ext
  match a with
  | ⟨0, _⟩ => show win10_0.index t (0 : Fin 2) * 1024 + 1 * p.val = win10_2.index t (0 : Fin 2) * 1024 + p.val; omega
  | ⟨1, _⟩ => show win10_0.index t (1 : Fin 2) * 128 + 1 * k.val = k.val; omega

/-- The column block at point `t` is rows `1024 j …` of the factor, `j` the output's second block index there. -/
theorem iblk10_1_apply (c : Dev nD) (t : Fin cfg10.N) (q : Fin 1024) (k : Fin 128) :
    iblk10 V c 1 t (ix2 q k) = rowAt (V c main_v66) (win10_2.index t (1 : Fin 2) * 1024 + q.val) k := by
  obtain ⟨e0, e1, e2, e3, e4, e5⟩ := idx_facts10 t
  have hlt : win10_2.index t (1 : Fin 2) * 1024 + q.val < 8192 := by have := q.isLt; omega
  unfold rowAt; rw [dif_pos hlt]
  show V c main_v66 (((cfg10.win 1).blk t).view.emb (ix2 q k)) = V c main_v66 (ix2 (⟨_, hlt⟩ : Fin 8192) k)
  refine congrArg (V c main_v66) ?_
  funext a; apply Fin.ext
  match a with
  | ⟨0, _⟩ => show win10_1.index t (0 : Fin 2) * 1024 + 1 * q.val = win10_2.index t (1 : Fin 2) * 1024 + q.val; omega
  | ⟨1, _⟩ => show win10_1.index t (1 : Fin 2) * 128 + 1 * k.val = k.val; omega

/-- What point `t` writes back is block `t` of the product. -/
theorem flushed10_eq (c : Dev nD) (t : Fin cfg10.N) :
    (dat10 (F := Ideal) V c).flushed 2 t = ((cfg10.win 2).blk t).view.read (Elt Ideal) (G10 (V c main_v66)) := by
  show (cfg10.win 2).cut (grid10.coords t) ((dat10 (F := Ideal) V c).after 2 t) = _
  rw [after10_2]
  unfold out10_2
  rw [View.canon_unit_zero hz10]
  simp only [View.ld_unit_zero (S := S1024x128) hz10]
  funext j
  obtain ⟨p, q, rfl⟩ : ∃ (p : Fin 1024) (q : Fin 1024), j = ix2 p q := ⟨j 0, j 1, eq_ix2 j⟩
  show k10_pay1 (F := Ideal) (iblk10 V c 0 t) (iblk10 V c 1 t) (ix2 p q) = G10 (V c main_v66) (((cfg10.win 2).blk t).view.emb (ix2 p q))
  refine block10_apply (V c main_v66) (iblk10 V c 0 t) (iblk10 V c 1 t) (win10_2.index t (0 : Fin 2)) (win10_2.index t (1 : Fin 2))
    (iblk10_0_apply V c t) (iblk10_1_apply V c t) p q _ ?_ ?_
  · show win10_2.index t (0 : Fin 2) * 1024 + 1 * p.val = win10_2.index t (0 : Fin 2) * 1024 + p.val; omega
  · show win10_2.index t (1 : Fin 2) * 1024 + 1 * q.val = win10_2.index t (1 : Fin 2) * 1024 + q.val; omega

/-- An index of the output array is in point `t`'s block iff each coordinate is in the block's range on its axis. -/
theorem mem_blk10 (t : Fin cfg10.N) (i : S8192x8192.Idx) :
    i ∈ ((cfg10.win 2).blk t).view.set ↔ ∀ a : Fin 2, win10_2.index t a * S1024x1024.size a ≤ (i a).val ∧ (i a).val < win10_2.index t a * S1024x1024.size a + S1024x1024.size a := by
  show i ∈ ((View.whole main_v67).slice (win10_2.rect t)).set ↔ _
  rw [View.set_slice_whole, Rect.mem_set_unit]
  exact Iff.rfl

/-- The output's blocks tile the array: every index is in the block of the point whose block indices are its
    coordinates divided by 1024. -/
theorem cover10 (i : S8192x8192.Idx) : ∃ t : Fin cfg10.N, (cfg10.win 2).flush t = true ∧ i ∈ ((cfg10.win 2).blk t).view.set := by
  have hi0 : (i 0).val < 8192 := (i 0).isLt
  have hi1 : (i 1).val < 8192 := (i 1).isLt
  obtain ⟨t, ht⟩ := idx_onto10 ⟨(i 0).val / 1024, by omega⟩ ⟨(i 1).val / 1024, by omega⟩
  have q0 : win10_2.index t (0 : Fin 2) = (i 0).val / 1024 := congrFun ht 0
  have q1 : win10_2.index t (1 : Fin 2) = (i 1).val / 1024 := congrFun ht 1
  refine ⟨t, flush10_2 t, ?_⟩
  rw [mem_blk10]
  intro a
  match a with
  | ⟨0, _⟩ => show win10_2.index t (0 : Fin 2) * 1024 ≤ (i 0).val ∧ (i 0).val < win10_2.index t (0 : Fin 2) * 1024 + 1024; omega
  | ⟨1, _⟩ => show win10_2.index t (1 : Fin 2) * 1024 ≤ (i 1).val ∧ (i 1).val < win10_2.index t (1 : Fin 2) * 1024 + 1024; omega

/-- The output array after the run is the product. -/
theorem final10_arr (c : Dev nD) : (dat10 (F := Ideal) V c).arrAt 2 cfg10.N = G10 (V c main_v66) :=
  (dat10 (F := Ideal) V c).arrAt_eq_of_cover 2 (G10 (V c main_v66)) (fun t _ => flushed10_eq V c t) cover10

/-- Entry `(p, q)` of the product of `S` with its transpose: the sum over the columns of the products of rows `p` and `q`. -/
def gram10 (S : S8192x128.Idx → EReal) (p q : Fin 8192) : EReal := ∑ k : Fin 128, S (ix2 p k) * S (ix2 q k)

theorem gram10_def (S : S8192x128.Idx → EReal) (p q : Fin 8192) : gram10 S p q = ∑ k : Fin 128, S (ix2 p k) * S (ix2 q k) := rfl

theorem G10_ix2 (S : S8192x128.Idx → EReal) (p q : Fin 8192) : G10 S (ix2 p q) = gram10 S p q := by
  unfold G10 gram10
  exact Finset.sum_congr rfl fun k _ => by
    rw [show ((ix2 p q : S8192x8192.Idx) 0).val = p.val from rfl, show ((ix2 p q : S8192x8192.Idx) 1).val = q.val from rfl, rowAt_fin, rowAt_fin]

/-- The same, index by index: entry `(p, q)` of the output array after the run is `gram10` of the factor as entered. -/
theorem final10 (c : Dev nD) (p q : Fin 8192) :
    (dat10 (F := Ideal) V c).arrAt 2 cfg10.N (ValueIdx.ix2 p q) = gram10 (V c main_v66) p q := by
  rw [final10_arr]
  exact G10_ix2 (V c main_v66) p q

end Value10

end Cert.KernelIdeal.Hand
end
-- ==== Proof.KI.Fold.lean ====
/- The buffers' contents at every boundary of @main, as a fold from the launch memory: a stretch of host operations
   applies its operations; a kernel region replaces its one output array by what its grid of write-backs leaves and
   changes no other buffer. No stretch and no region writes an argument array. -/
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import proofs.«179362_j6141803233546_1_alg».proof.Proof.Gen.KernelIdeal.Regions
import proofs.«179362_j6141803233546_1_alg».proof.Proof.KI.Region0
import proofs.«179362_j6141803233546_1_alg».proof.Proof.KI.Region1
import proofs.«179362_j6141803233546_1_alg».proof.Proof.KI.Region2
import proofs.«179362_j6141803233546_1_alg».proof.Proof.KI.Region3
import proofs.«179362_j6141803233546_1_alg».proof.Proof.KI.Region4
import proofs.«179362_j6141803233546_1_alg».proof.Proof.KI.Region5
import proofs.«179362_j6141803233546_1_alg».proof.Proof.KI.Region6
import proofs.«179362_j6141803233546_1_alg».proof.Proof.KI.Region7
import proofs.«179362_j6141803233546_1_alg».proof.Proof.KI.Region8
import proofs.«179362_j6141803233546_1_alg».proof.Proof.KI.Region9
import proofs.«179362_j6141803233546_1_alg».proof.Proof.KI.Region10
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main: a fold from the launch memory -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev T3 : (c : Dev nD) → (b : Ref sig .tc) → Buf (Elt F) ((c : Thread nD τ).loc b) := fun c b => W3 m c b
def W4 (c : Dev nD) : Valuation τ sig (Elt F) :=
  Function.update (W3 m c) (Proc.devRef .tc main_v52) ((dat0 (T3 m) c).arrAt 2 cfg0.N)
abbrev T4' : (c : Dev nD) → (b : Ref sig .tc) → Buf (Elt F) ((c : Thread nD τ).loc b) := fun c b => W4 m c b
abbrev W5 (c : Dev nD) : Valuation τ sig (Elt F) := StableHlo.after hostOps1 (W4 m c)
abbrev T5 : (c : Dev nD) → (b : Ref sig .tc) → Buf (Elt F) ((c : Thread nD τ).loc b) := fun c b => W5 m c b
def W6 (c : Dev nD) : Valuation τ sig (Elt F) :=
  Function.update (W5 m c) (Proc.devRef .tc main_v54) ((dat1 (T5 m) c).arrAt 3 cfg1.N)
abbrev T6' : (c : Dev nD) → (b : Ref sig .tc) → Buf (Elt F) ((c : Thread nD τ).loc b) := fun c b => W6 m c b
abbrev T6 : (c : Dev nD) → (b : Ref sig .tc) → Buf (Elt F) ((c : Thread nD τ).loc b) := fun c b => W6 m c b
def W7 (c : Dev nD) : Valuation τ sig (Elt F) :=
  Function.update (W6 m c) (Proc.devRef .tc main_v55) ((dat2 (T6 m) c).arrAt 2 cfg2.N)
abbrev T7' : (c : Dev nD) → (b : Ref sig .tc) → Buf (Elt F) ((c : Thread nD τ).loc b) := fun c b => W7 m c b
abbrev W8 (c : Dev nD) : Valuation τ sig (Elt F) := StableHlo.after hostOps3 (W7 m c)
abbrev T8 : (c : Dev nD) → (b : Ref sig .tc) → Buf (Elt F) ((c : Thread nD τ).loc b) := fun c b => W8 m c b
def W9 (c : Dev nD) : Valuation τ sig (Elt F) :=
  Function.update (W8 m c) (Proc.devRef .tc main_v57) ((dat3 (T8 m) c).arrAt 3 cfg3.N)
abbrev T9' : (c : Dev nD) → (b : Ref sig .tc) → Buf (Elt F) ((c : Thread nD τ).loc b) := fun c b => W9 m c b
abbrev T9 : (c : Dev nD) → (b : Ref sig .tc) → Buf (Elt F) ((c : Thread nD τ).loc b) := fun c b => W9 m c b
def W10 (c : Dev nD) : Valuation τ sig (Elt F) :=
  Function.update (W9 m c) (Proc.devRef .tc main_v58) ((dat4 (T9 m) c).arrAt 2 cfg4.N)
abbrev T10' : (c : Dev nD) → (b : Ref sig .tc) → Buf (Elt F) ((c : Thread nD τ).loc b) := fun c b => W10 m c b
abbrev W11 (c : Dev nD) : Valuation τ sig (Elt F) := StableHlo.after hostOps5 (W10 m c)
abbrev T11 : (c : Dev nD) → (b : Ref sig .tc) → Buf (Elt F) ((c : Thread nD τ).loc b) := fun c b => W11 m c b
def W12 (c : Dev nD) : Valuation τ sig (Elt F) :=
  Function.update (W11 m c) (Proc.devRef .tc main_v60) ((dat5 (T11 m) c).arrAt 3 cfg5.N)
abbrev T12' : (c : Dev nD) → (b : Ref sig .tc) → Buf (Elt F) ((c : Thread nD τ).loc b) := fun c b => W12 m c b
abbrev T12 : (c : Dev nD) → (b : Ref sig .tc) → Buf (Elt F) ((c : Thread nD τ).loc b) := fun c b => W12 m c b
def W13 (c : Dev nD) : Valuation τ sig (Elt F) :=
  Function.update (W12 m c) (Proc.devRef .tc main_v61) ((dat6 (T12 m) c).arrAt 2 cfg6.N)
abbrev T13' : (c : Dev nD) → (b : Ref sig .tc) → Buf (Elt F) ((c : Thread nD τ).loc b) := fun c b => W13 m c b
abbrev W14 (c : Dev nD) : Valuation τ sig (Elt F) := StableHlo.after hostOps7 (W13 m c)
abbrev T14 : (c : Dev nD) → (b : Ref sig .tc) → Buf (Elt F) ((c : Thread nD τ).loc b) := fun c b => W14 m c b
def W15 (c : Dev nD) : Valuation τ sig (Elt F) :=
  Function.update (W14 m c) (Proc.devRef .tc main_v63) ((dat7 (T14 m) c).arrAt 3 cfg7.N)
abbrev T15' : (c : Dev nD) → (b : Ref sig .tc) → Buf (Elt F) ((c : Thread nD τ).loc b) := fun c b => W15 m c b
abbrev T15 : (c : Dev nD) → (b : Ref sig .tc) → Buf (Elt F) ((c : Thread nD τ).loc b) := fun c b => W15 m c b
def W16 (c : Dev nD) : Valuation τ sig (Elt F) :=
  Function.update (W15 m c) (Proc.devRef .tc main_v64) ((dat8 (T15 m) c).arrAt 2 cfg8.N)
abbrev T16' : (c : Dev nD) → (b : Ref sig .tc) → Buf (Elt F) ((c : Thread nD τ).loc b) := fun c b => W16 m c b
abbrev W17 (c : Dev nD) : Valuation τ sig (Elt F) := StableHlo.after hostOps9 (W16 m c)
abbrev T17 : (c : Dev nD) → (b : Ref sig .tc) → Buf (Elt F) ((c : Thread nD τ).loc b) := fun c b => W17 m c b
def W18 (c : Dev nD) : Valuation τ sig (Elt F) :=
  Function.update (W17 m c) (Proc.devRef .tc main_v66) ((dat9 (T17 m) c).arrAt 3 cfg9.N)
abbrev T18' : (c : Dev nD) → (b : Ref sig .tc) → Buf (Elt F) ((c : Thread nD τ).loc b) := fun c b => W18 m c b
abbrev T18 : (c : Dev nD) → (b : Ref sig .tc) → Buf (Elt F) ((c : Thread nD τ).loc b) := fun c b => W18 m c b
def W19 (c : Dev nD) : Valuation τ sig (Elt F) :=
  Function.update (W18 m c) (Proc.devRef .tc main_v67) ((dat10 (T18 m) c).arrAt 2 cfg10.N)
abbrev T19' : (c : Dev nD) → (b : Ref sig .tc) → Buf (Elt F) ((c : Thread nD τ).loc b) := fun c b => W19 m c b

/-! ## Each region's arrays at its exit, and every other buffer as entered -/

theorem hF0_0 (c : Dev nD) : (dat0 (T3 m) c).arrAt 0 cfg0.N = T4' m c (Pipeline.arrRef spec0 0) := by
  rw [(dat0 (T3 m) c).arrAt_in 0 rfl _, A_eq0]
  show _ = W4 m c _
  unfold W4
  rw [Function.update_of_ne (StableHlo.devRef_ne_of_ne (by decide))]
theorem hF0_1 (c : Dev nD) : (dat0 (T3 m) c).arrAt 1 cfg0.N = T4' m c (Pipeline.arrRef spec0 1) := by
  rw [(dat0 (T3 m) c).arrAt_in 1 rfl _, A_eq0]
  show _ = W4 m c _
  unfold W4
  rw [Function.update_of_ne (StableHlo.devRef_ne_of_ne (by decide))]
theorem hF0_2 (c : Dev nD) : (dat0 (T3 m) c).arrAt 2 cfg0.N = T4' m c (Pipeline.arrRef spec0 2) := by
  show _ = W4 m c (Proc.devRef .tc main_v52)
  unfold W4
  exact (Function.update_self (Proc.devRef .tc main_v52 : DevRef τ sig) _ (W3 m c)).symm
theorem hF0 (c : Dev nD) (w : Fin cfg0.W) : (dat0 (T3 m) c).arrAt w cfg0.N = T4' m c (Pipeline.arrRef spec0 w) :=
  match w with
  | ⟨0, _⟩ => hF0_0 m c
  | ⟨1, _⟩ => hF0_1 m c
  | ⟨2, _⟩ => hF0_2 m c
theorem hrest0 (c : Dev nD) : ∀ b, b ∉ Finset.univ.image (Pipeline.arrRef spec0) → T4' m c b = T3 m c b := by
  intro b hb
  show W4 m c _ = W3 m c _
  unfold W4
  refine Function.update_of_ne (StableHlo.devRef_ne_of_ne ?_) _ _
  rintro rfl
  exact hb (Finset.mem_image.mpr ⟨2, Finset.mem_univ _, rfl⟩)
theorem W4_of (c : Dev nD) (r : Ref sig .tc) (h : r ≠ main_v52) : W4 m c (Proc.devRef .tc r) = W3 m c (Proc.devRef .tc r) := by
  unfold W4
  exact Function.update_of_ne (StableHlo.devRef_ne_of_ne h) _ _
theorem W4_out (c : Dev nD) : W4 m c (Proc.devRef .tc main_v52) = (dat0 (T3 m) c).arrAt 2 cfg0.N := by
  unfold W4
  exact Function.update_self (Proc.devRef .tc main_v52 : DevRef τ sig) _ (W3 m c)

theorem hF1_0 (c : Dev nD) : (dat1 (T5 m) c).arrAt 0 cfg1.N = T6' m c (Pipeline.arrRef spec1 0) := by
  rw [(dat1 (T5 m) c).arrAt_in 0 rfl _, A_eq1]
  show _ = W6 m c _
  unfold W6
  rw [Function.update_of_ne (StableHlo.devRef_ne_of_ne (by decide))]
theorem hF1_1 (c : Dev nD) : (dat1 (T5 m) c).arrAt 1 cfg1.N = T6' m c (Pipeline.arrRef spec1 1) := by
  rw [(dat1 (T5 m) c).arrAt_in 1 rfl _, A_eq1]
  show _ = W6 m c _
  unfold W6
  rw [Function.update_of_ne (StableHlo.devRef_ne_of_ne (by decide))]
theorem hF1_2 (c : Dev nD) : (dat1 (T5 m) c).arrAt 2 cfg1.N = T6' m c (Pipeline.arrRef spec1 2) := by
  rw [(dat1 (T5 m) c).arrAt_in 2 rfl _, A_eq1]
  show _ = W6 m c _
  unfold W6
  rw [Function.update_of_ne (StableHlo.devRef_ne_of_ne (by decide))]
theorem hF1_3 (c : Dev nD) : (dat1 (T5 m) c).arrAt 3 cfg1.N = T6' m c (Pipeline.arrRef spec1 3) := by
  show _ = W6 m c (Proc.devRef .tc main_v54)
  unfold W6
  exact (Function.update_self (Proc.devRef .tc main_v54 : DevRef τ sig) _ (W5 m c)).symm
theorem hF1 (c : Dev nD) (w : Fin cfg1.W) : (dat1 (T5 m) c).arrAt w cfg1.N = T6' m c (Pipeline.arrRef spec1 w) :=
  match w with
  | ⟨0, _⟩ => hF1_0 m c
  | ⟨1, _⟩ => hF1_1 m c
  | ⟨2, _⟩ => hF1_2 m c
  | ⟨3, _⟩ => hF1_3 m c
theorem hrest1 (c : Dev nD) : ∀ b, b ∉ Finset.univ.image (Pipeline.arrRef spec1) → T6' m c b = T5 m c b := by
  intro b hb
  show W6 m c _ = W5 m c _
  unfold W6
  refine Function.update_of_ne (StableHlo.devRef_ne_of_ne ?_) _ _
  rintro rfl
  exact hb (Finset.mem_image.mpr ⟨3, Finset.mem_univ _, rfl⟩)
theorem W6_of (c : Dev nD) (r : Ref sig .tc) (h : r ≠ main_v54) : W6 m c (Proc.devRef .tc r) = W5 m c (Proc.devRef .tc r) := by
  unfold W6
  exact Function.update_of_ne (StableHlo.devRef_ne_of_ne h) _ _
theorem W6_out (c : Dev nD) : W6 m c (Proc.devRef .tc main_v54) = (dat1 (T5 m) c).arrAt 3 cfg1.N := by
  unfold W6
  exact Function.update_self (Proc.devRef .tc main_v54 : DevRef τ sig) _ (W5 m c)

theorem hF2_0 (c : Dev nD) : (dat2 (T6 m) c).arrAt 0 cfg2.N = T7' m c (Pipeline.arrRef spec2 0) := by
  rw [(dat2 (T6 m) c).arrAt_in 0 rfl _, A_eq2]
  show _ = W7 m c _
  unfold W7
  rw [Function.update_of_ne (StableHlo.devRef_ne_of_ne (by decide))]
theorem hF2_1 (c : Dev nD) : (dat2 (T6 m) c).arrAt 1 cfg2.N = T7' m c (Pipeline.arrRef spec2 1) := by
  rw [(dat2 (T6 m) c).arrAt_in 1 rfl _, A_eq2]
  show _ = W7 m c _
  unfold W7
  rw [Function.update_of_ne (StableHlo.devRef_ne_of_ne (by decide))]
theorem hF2_2 (c : Dev nD) : (dat2 (T6 m) c).arrAt 2 cfg2.N = T7' m c (Pipeline.arrRef spec2 2) := by
  show _ = W7 m c (Proc.devRef .tc main_v55)
  unfold W7
  exact (Function.update_self (Proc.devRef .tc main_v55 : DevRef τ sig) _ (W6 m c)).symm
theorem hF2 (c : Dev nD) (w : Fin cfg2.W) : (dat2 (T6 m) c).arrAt w cfg2.N = T7' m c (Pipeline.arrRef spec2 w) :=
  match w with
  | ⟨0, _⟩ => hF2_0 m c
  | ⟨1, _⟩ => hF2_1 m c
  | ⟨2, _⟩ => hF2_2 m c
theorem hrest2 (c : Dev nD) : ∀ b, b ∉ Finset.univ.image (Pipeline.arrRef spec2) → T7' m c b = T6 m c b := by
  intro b hb
  show W7 m c _ = W6 m c _
  unfold W7
  refine Function.update_of_ne (StableHlo.devRef_ne_of_ne ?_) _ _
  rintro rfl
  exact hb (Finset.mem_image.mpr ⟨2, Finset.mem_univ _, rfl⟩)
theorem W7_of (c : Dev nD) (r : Ref sig .tc) (h : r ≠ main_v55) : W7 m c (Proc.devRef .tc r) = W6 m c (Proc.devRef .tc r) := by
  unfold W7
  exact Function.update_of_ne (StableHlo.devRef_ne_of_ne h) _ _
theorem W7_out (c : Dev nD) : W7 m c (Proc.devRef .tc main_v55) = (dat2 (T6 m) c).arrAt 2 cfg2.N := by
  unfold W7
  exact Function.update_self (Proc.devRef .tc main_v55 : DevRef τ sig) _ (W6 m c)

theorem hF3_0 (c : Dev nD) : (dat3 (T8 m) c).arrAt 0 cfg3.N = T9' m c (Pipeline.arrRef spec3 0) := by
  rw [(dat3 (T8 m) c).arrAt_in 0 rfl _, A_eq3]
  show _ = W9 m c _
  unfold W9
  rw [Function.update_of_ne (StableHlo.devRef_ne_of_ne (by decide))]
theorem hF3_1 (c : Dev nD) : (dat3 (T8 m) c).arrAt 1 cfg3.N = T9' m c (Pipeline.arrRef spec3 1) := by
  rw [(dat3 (T8 m) c).arrAt_in 1 rfl _, A_eq3]
  show _ = W9 m c _
  unfold W9
  rw [Function.update_of_ne (StableHlo.devRef_ne_of_ne (by decide))]
theorem hF3_2 (c : Dev nD) : (dat3 (T8 m) c).arrAt 2 cfg3.N = T9' m c (Pipeline.arrRef spec3 2) := by
  rw [(dat3 (T8 m) c).arrAt_in 2 rfl _, A_eq3]
  show _ = W9 m c _
  unfold W9
  rw [Function.update_of_ne (StableHlo.devRef_ne_of_ne (by decide))]
theorem hF3_3 (c : Dev nD) : (dat3 (T8 m) c).arrAt 3 cfg3.N = T9' m c (Pipeline.arrRef spec3 3) := by
  show _ = W9 m c (Proc.devRef .tc main_v57)
  unfold W9
  exact (Function.update_self (Proc.devRef .tc main_v57 : DevRef τ sig) _ (W8 m c)).symm
theorem hF3 (c : Dev nD) (w : Fin cfg3.W) : (dat3 (T8 m) c).arrAt w cfg3.N = T9' m c (Pipeline.arrRef spec3 w) :=
  match w with
  | ⟨0, _⟩ => hF3_0 m c
  | ⟨1, _⟩ => hF3_1 m c
  | ⟨2, _⟩ => hF3_2 m c
  | ⟨3, _⟩ => hF3_3 m c
theorem hrest3 (c : Dev nD) : ∀ b, b ∉ Finset.univ.image (Pipeline.arrRef spec3) → T9' m c b = T8 m c b := by
  intro b hb
  show W9 m c _ = W8 m c _
  unfold W9
  refine Function.update_of_ne (StableHlo.devRef_ne_of_ne ?_) _ _
  rintro rfl
  exact hb (Finset.mem_image.mpr ⟨3, Finset.mem_univ _, rfl⟩)
theorem W9_of (c : Dev nD) (r : Ref sig .tc) (h : r ≠ main_v57) : W9 m c (Proc.devRef .tc r) = W8 m c (Proc.devRef .tc r) := by
  unfold W9
  exact Function.update_of_ne (StableHlo.devRef_ne_of_ne h) _ _
theorem W9_out (c : Dev nD) : W9 m c (Proc.devRef .tc main_v57) = (dat3 (T8 m) c).arrAt 3 cfg3.N := by
  unfold W9
  exact Function.update_self (Proc.devRef .tc main_v57 : DevRef τ sig) _ (W8 m c)

theorem hF4_0 (c : Dev nD) : (dat4 (T9 m) c).arrAt 0 cfg4.N = T10' m c (Pipeline.arrRef spec4 0) := by
  rw [(dat4 (T9 m) c).arrAt_in 0 rfl _, A_eq4]
  show _ = W10 m c _
  unfold W10
  rw [Function.update_of_ne (StableHlo.devRef_ne_of_ne (by decide))]
theorem hF4_1 (c : Dev nD) : (dat4 (T9 m) c).arrAt 1 cfg4.N = T10' m c (Pipeline.arrRef spec4 1) := by
  rw [(dat4 (T9 m) c).arrAt_in 1 rfl _, A_eq4]
  show _ = W10 m c _
  unfold W10
  rw [Function.update_of_ne (StableHlo.devRef_ne_of_ne (by decide))]
theorem hF4_2 (c : Dev nD) : (dat4 (T9 m) c).arrAt 2 cfg4.N = T10' m c (Pipeline.arrRef spec4 2) := by
  show _ = W10 m c (Proc.devRef .tc main_v58)
  unfold W10
  exact (Function.update_self (Proc.devRef .tc main_v58 : DevRef τ sig) _ (W9 m c)).symm
theorem hF4 (c : Dev nD) (w : Fin cfg4.W) : (dat4 (T9 m) c).arrAt w cfg4.N = T10' m c (Pipeline.arrRef spec4 w) :=
  match w with
  | ⟨0, _⟩ => hF4_0 m c
  | ⟨1, _⟩ => hF4_1 m c
  | ⟨2, _⟩ => hF4_2 m c
theorem hrest4 (c : Dev nD) : ∀ b, b ∉ Finset.univ.image (Pipeline.arrRef spec4) → T10' m c b = T9 m c b := by
  intro b hb
  show W10 m c _ = W9 m c _
  unfold W10
  refine Function.update_of_ne (StableHlo.devRef_ne_of_ne ?_) _ _
  rintro rfl
  exact hb (Finset.mem_image.mpr ⟨2, Finset.mem_univ _, rfl⟩)
theorem W10_of (c : Dev nD) (r : Ref sig .tc) (h : r ≠ main_v58) : W10 m c (Proc.devRef .tc r) = W9 m c (Proc.devRef .tc r) := by
  unfold W10
  exact Function.update_of_ne (StableHlo.devRef_ne_of_ne h) _ _
theorem W10_out (c : Dev nD) : W10 m c (Proc.devRef .tc main_v58) = (dat4 (T9 m) c).arrAt 2 cfg4.N := by
  unfold W10
  exact Function.update_self (Proc.devRef .tc main_v58 : DevRef τ sig) _ (W9 m c)

theorem hF5_0 (c : Dev nD) : (dat5 (T11 m) c).arrAt 0 cfg5.N = T12' m c (Pipeline.arrRef spec5 0) := by
  rw [(dat5 (T11 m) c).arrAt_in 0 rfl _, A_eq5]
  show _ = W12 m c _
  unfold W12
  rw [Function.update_of_ne (StableHlo.devRef_ne_of_ne (by decide))]
theorem hF5_1 (c : Dev nD) : (dat5 (T11 m) c).arrAt 1 cfg5.N = T12' m c (Pipeline.arrRef spec5 1) := by
  rw [(dat5 (T11 m) c).arrAt_in 1 rfl _, A_eq5]
  show _ = W12 m c _
  unfold W12
  rw [Function.update_of_ne (StableHlo.devRef_ne_of_ne (by decide))]
theorem hF5_2 (c : Dev nD) : (dat5 (T11 m) c).arrAt 2 cfg5.N = T12' m c (Pipeline.arrRef spec5 2) := by
  rw [(dat5 (T11 m) c).arrAt_in 2 rfl _, A_eq5]
  show _ = W12 m c _
  unfold W12
  rw [Function.update_of_ne (StableHlo.devRef_ne_of_ne (by decide))]
theorem hF5_3 (c : Dev nD) : (dat5 (T11 m) c).arrAt 3 cfg5.N = T12' m c (Pipeline.arrRef spec5 3) := by
  show _ = W12 m c (Proc.devRef .tc main_v60)
  unfold W12
  exact (Function.update_self (Proc.devRef .tc main_v60 : DevRef τ sig) _ (W11 m c)).symm
theorem hF5 (c : Dev nD) (w : Fin cfg5.W) : (dat5 (T11 m) c).arrAt w cfg5.N = T12' m c (Pipeline.arrRef spec5 w) :=
  match w with
  | ⟨0, _⟩ => hF5_0 m c
  | ⟨1, _⟩ => hF5_1 m c
  | ⟨2, _⟩ => hF5_2 m c
  | ⟨3, _⟩ => hF5_3 m c
theorem hrest5 (c : Dev nD) : ∀ b, b ∉ Finset.univ.image (Pipeline.arrRef spec5) → T12' m c b = T11 m c b := by
  intro b hb
  show W12 m c _ = W11 m c _
  unfold W12
  refine Function.update_of_ne (StableHlo.devRef_ne_of_ne ?_) _ _
  rintro rfl
  exact hb (Finset.mem_image.mpr ⟨3, Finset.mem_univ _, rfl⟩)
theorem W12_of (c : Dev nD) (r : Ref sig .tc) (h : r ≠ main_v60) : W12 m c (Proc.devRef .tc r) = W11 m c (Proc.devRef .tc r) := by
  unfold W12
  exact Function.update_of_ne (StableHlo.devRef_ne_of_ne h) _ _
theorem W12_out (c : Dev nD) : W12 m c (Proc.devRef .tc main_v60) = (dat5 (T11 m) c).arrAt 3 cfg5.N := by
  unfold W12
  exact Function.update_self (Proc.devRef .tc main_v60 : DevRef τ sig) _ (W11 m c)

theorem hF6_0 (c : Dev nD) : (dat6 (T12 m) c).arrAt 0 cfg6.N = T13' m c (Pipeline.arrRef spec6 0) := by
  rw [(dat6 (T12 m) c).arrAt_in 0 rfl _, A_eq6]
  show _ = W13 m c _
  unfold W13
  rw [Function.update_of_ne (StableHlo.devRef_ne_of_ne (by decide))]
theorem hF6_1 (c : Dev nD) : (dat6 (T12 m) c).arrAt 1 cfg6.N = T13' m c (Pipeline.arrRef spec6 1) := by
  rw [(dat6 (T12 m) c).arrAt_in 1 rfl _, A_eq6]
  show _ = W13 m c _
  unfold W13
  rw [Function.update_of_ne (StableHlo.devRef_ne_of_ne (by decide))]
theorem hF6_2 (c : Dev nD) : (dat6 (T12 m) c).arrAt 2 cfg6.N = T13' m c (Pipeline.arrRef spec6 2) := by
  show _ = W13 m c (Proc.devRef .tc main_v61)
  unfold W13
  exact (Function.update_self (Proc.devRef .tc main_v61 : DevRef τ sig) _ (W12 m c)).symm
theorem hF6 (c : Dev nD) (w : Fin cfg6.W) : (dat6 (T12 m) c).arrAt w cfg6.N = T13' m c (Pipeline.arrRef spec6 w) :=
  match w with
  | ⟨0, _⟩ => hF6_0 m c
  | ⟨1, _⟩ => hF6_1 m c
  | ⟨2, _⟩ => hF6_2 m c
theorem hrest6 (c : Dev nD) : ∀ b, b ∉ Finset.univ.image (Pipeline.arrRef spec6) → T13' m c b = T12 m c b := by
  intro b hb
  show W13 m c _ = W12 m c _
  unfold W13
  refine Function.update_of_ne (StableHlo.devRef_ne_of_ne ?_) _ _
  rintro rfl
  exact hb (Finset.mem_image.mpr ⟨2, Finset.mem_univ _, rfl⟩)
theorem W13_of (c : Dev nD) (r : Ref sig .tc) (h : r ≠ main_v61) : W13 m c (Proc.devRef .tc r) = W12 m c (Proc.devRef .tc r) := by
  unfold W13
  exact Function.update_of_ne (StableHlo.devRef_ne_of_ne h) _ _
theorem W13_out (c : Dev nD) : W13 m c (Proc.devRef .tc main_v61) = (dat6 (T12 m) c).arrAt 2 cfg6.N := by
  unfold W13
  exact Function.update_self (Proc.devRef .tc main_v61 : DevRef τ sig) _ (W12 m c)

theorem hF7_0 (c : Dev nD) : (dat7 (T14 m) c).arrAt 0 cfg7.N = T15' m c (Pipeline.arrRef spec7 0) := by
  rw [(dat7 (T14 m) c).arrAt_in 0 rfl _, A_eq7]
  show _ = W15 m c _
  unfold W15
  rw [Function.update_of_ne (StableHlo.devRef_ne_of_ne (by decide))]
theorem hF7_1 (c : Dev nD) : (dat7 (T14 m) c).arrAt 1 cfg7.N = T15' m c (Pipeline.arrRef spec7 1) := by
  rw [(dat7 (T14 m) c).arrAt_in 1 rfl _, A_eq7]
  show _ = W15 m c _
  unfold W15
  rw [Function.update_of_ne (StableHlo.devRef_ne_of_ne (by decide))]
theorem hF7_2 (c : Dev nD) : (dat7 (T14 m) c).arrAt 2 cfg7.N = T15' m c (Pipeline.arrRef spec7 2) := by
  rw [(dat7 (T14 m) c).arrAt_in 2 rfl _, A_eq7]
  show _ = W15 m c _
  unfold W15
  rw [Function.update_of_ne (StableHlo.devRef_ne_of_ne (by decide))]
theorem hF7_3 (c : Dev nD) : (dat7 (T14 m) c).arrAt 3 cfg7.N = T15' m c (Pipeline.arrRef spec7 3) := by
  show _ = W15 m c (Proc.devRef .tc main_v63)
  unfold W15
  exact (Function.update_self (Proc.devRef .tc main_v63 : DevRef τ sig) _ (W14 m c)).symm
theorem hF7 (c : Dev nD) (w : Fin cfg7.W) : (dat7 (T14 m) c).arrAt w cfg7.N = T15' m c (Pipeline.arrRef spec7 w) :=
  match w with
  | ⟨0, _⟩ => hF7_0 m c
  | ⟨1, _⟩ => hF7_1 m c
  | ⟨2, _⟩ => hF7_2 m c
  | ⟨3, _⟩ => hF7_3 m c
theorem hrest7 (c : Dev nD) : ∀ b, b ∉ Finset.univ.image (Pipeline.arrRef spec7) → T15' m c b = T14 m c b := by
  intro b hb
  show W15 m c _ = W14 m c _
  unfold W15
  refine Function.update_of_ne (StableHlo.devRef_ne_of_ne ?_) _ _
  rintro rfl
  exact hb (Finset.mem_image.mpr ⟨3, Finset.mem_univ _, rfl⟩)
theorem W15_of (c : Dev nD) (r : Ref sig .tc) (h : r ≠ main_v63) : W15 m c (Proc.devRef .tc r) = W14 m c (Proc.devRef .tc r) := by
  unfold W15
  exact Function.update_of_ne (StableHlo.devRef_ne_of_ne h) _ _
theorem W15_out (c : Dev nD) : W15 m c (Proc.devRef .tc main_v63) = (dat7 (T14 m) c).arrAt 3 cfg7.N := by
  unfold W15
  exact Function.update_self (Proc.devRef .tc main_v63 : DevRef τ sig) _ (W14 m c)

theorem hF8_0 (c : Dev nD) : (dat8 (T15 m) c).arrAt 0 cfg8.N = T16' m c (Pipeline.arrRef spec8 0) := by
  rw [(dat8 (T15 m) c).arrAt_in 0 rfl _, A_eq8]
  show _ = W16 m c _
  unfold W16
  rw [Function.update_of_ne (StableHlo.devRef_ne_of_ne (by decide))]
theorem hF8_1 (c : Dev nD) : (dat8 (T15 m) c).arrAt 1 cfg8.N = T16' m c (Pipeline.arrRef spec8 1) := by
  rw [(dat8 (T15 m) c).arrAt_in 1 rfl _, A_eq8]
  show _ = W16 m c _
  unfold W16
  rw [Function.update_of_ne (StableHlo.devRef_ne_of_ne (by decide))]
theorem hF8_2 (c : Dev nD) : (dat8 (T15 m) c).arrAt 2 cfg8.N = T16' m c (Pipeline.arrRef spec8 2) := by
  show _ = W16 m c (Proc.devRef .tc main_v64)
  unfold W16
  exact (Function.update_self (Proc.devRef .tc main_v64 : DevRef τ sig) _ (W15 m c)).symm
theorem hF8 (c : Dev nD) (w : Fin cfg8.W) : (dat8 (T15 m) c).arrAt w cfg8.N = T16' m c (Pipeline.arrRef spec8 w) :=
  match w with
  | ⟨0, _⟩ => hF8_0 m c
  | ⟨1, _⟩ => hF8_1 m c
  | ⟨2, _⟩ => hF8_2 m c
theorem hrest8 (c : Dev nD) : ∀ b, b ∉ Finset.univ.image (Pipeline.arrRef spec8) → T16' m c b = T15 m c b := by
  intro b hb
  show W16 m c _ = W15 m c _
  unfold W16
  refine Function.update_of_ne (StableHlo.devRef_ne_of_ne ?_) _ _
  rintro rfl
  exact hb (Finset.mem_image.mpr ⟨2, Finset.mem_univ _, rfl⟩)
theorem W16_of (c : Dev nD) (r : Ref sig .tc) (h : r ≠ main_v64) : W16 m c (Proc.devRef .tc r) = W15 m c (Proc.devRef .tc r) := by
  unfold W16
  exact Function.update_of_ne (StableHlo.devRef_ne_of_ne h) _ _
theorem W16_out (c : Dev nD) : W16 m c (Proc.devRef .tc main_v64) = (dat8 (T15 m) c).arrAt 2 cfg8.N := by
  unfold W16
  exact Function.update_self (Proc.devRef .tc main_v64 : DevRef τ sig) _ (W15 m c)

theorem hF9_0 (c : Dev nD) : (dat9 (T17 m) c).arrAt 0 cfg9.N = T18' m c (Pipeline.arrRef spec9 0) := by
  rw [(dat9 (T17 m) c).arrAt_in 0 rfl _, A_eq9]
  show _ = W18 m c _
  unfold W18
  rw [Function.update_of_ne (StableHlo.devRef_ne_of_ne (by decide))]
theorem hF9_1 (c : Dev nD) : (dat9 (T17 m) c).arrAt 1 cfg9.N = T18' m c (Pipeline.arrRef spec9 1) := by
  rw [(dat9 (T17 m) c).arrAt_in 1 rfl _, A_eq9]
  show _ = W18 m c _
  unfold W18
  rw [Function.update_of_ne (StableHlo.devRef_ne_of_ne (by decide))]
theorem hF9_2 (c : Dev nD) : (dat9 (T17 m) c).arrAt 2 cfg9.N = T18' m c (Pipeline.arrRef spec9 2) := by
  rw [(dat9 (T17 m) c).arrAt_in 2 rfl _, A_eq9]
  show _ = W18 m c _
  unfold W18
  rw [Function.update_of_ne (StableHlo.devRef_ne_of_ne (by decide))]
theorem hF9_3 (c : Dev nD) : (dat9 (T17 m) c).arrAt 3 cfg9.N = T18' m c (Pipeline.arrRef spec9 3) := by
  show _ = W18 m c (Proc.devRef .tc main_v66)
  unfold W18
  exact (Function.update_self (Proc.devRef .tc main_v66 : DevRef τ sig) _ (W17 m c)).symm
theorem hF9 (c : Dev nD) (w : Fin cfg9.W) : (dat9 (T17 m) c).arrAt w cfg9.N = T18' m c (Pipeline.arrRef spec9 w) :=
  match w with
  | ⟨0, _⟩ => hF9_0 m c
  | ⟨1, _⟩ => hF9_1 m c
  | ⟨2, _⟩ => hF9_2 m c
  | ⟨3, _⟩ => hF9_3 m c
theorem hrest9 (c : Dev nD) : ∀ b, b ∉ Finset.univ.image (Pipeline.arrRef spec9) → T18' m c b = T17 m c b := by
  intro b hb
  show W18 m c _ = W17 m c _
  unfold W18
  refine Function.update_of_ne (StableHlo.devRef_ne_of_ne ?_) _ _
  rintro rfl
  exact hb (Finset.mem_image.mpr ⟨3, Finset.mem_univ _, rfl⟩)
theorem W18_of (c : Dev nD) (r : Ref sig .tc) (h : r ≠ main_v66) : W18 m c (Proc.devRef .tc r) = W17 m c (Proc.devRef .tc r) := by
  unfold W18
  exact Function.update_of_ne (StableHlo.devRef_ne_of_ne h) _ _
theorem W18_out (c : Dev nD) : W18 m c (Proc.devRef .tc main_v66) = (dat9 (T17 m) c).arrAt 3 cfg9.N := by
  unfold W18
  exact Function.update_self (Proc.devRef .tc main_v66 : DevRef τ sig) _ (W17 m c)

theorem hF10_0 (c : Dev nD) : (dat10 (T18 m) c).arrAt 0 cfg10.N = T19' m c (Pipeline.arrRef spec10 0) := by
  rw [(dat10 (T18 m) c).arrAt_in 0 rfl _, A_eq10]
  show _ = W19 m c _
  unfold W19
  rw [Function.update_of_ne (StableHlo.devRef_ne_of_ne (by decide))]
theorem hF10_1 (c : Dev nD) : (dat10 (T18 m) c).arrAt 1 cfg10.N = T19' m c (Pipeline.arrRef spec10 1) := by
  rw [(dat10 (T18 m) c).arrAt_in 1 rfl _, A_eq10]
  show _ = W19 m c _
  unfold W19
  rw [Function.update_of_ne (StableHlo.devRef_ne_of_ne (by decide))]
theorem hF10_2 (c : Dev nD) : (dat10 (T18 m) c).arrAt 2 cfg10.N = T19' m c (Pipeline.arrRef spec10 2) := by
  show _ = W19 m c (Proc.devRef .tc main_v67)
  unfold W19
  exact (Function.update_self (Proc.devRef .tc main_v67 : DevRef τ sig) _ (W18 m c)).symm
theorem hF10 (c : Dev nD) (w : Fin cfg10.W) : (dat10 (T18 m) c).arrAt w cfg10.N = T19' m c (Pipeline.arrRef spec10 w) :=
  match w with
  | ⟨0, _⟩ => hF10_0 m c
  | ⟨1, _⟩ => hF10_1 m c
  | ⟨2, _⟩ => hF10_2 m c
theorem hrest10 (c : Dev nD) : ∀ b, b ∉ Finset.univ.image (Pipeline.arrRef spec10) → T19' m c b = T18 m c b := by
  intro b hb
  show W19 m c _ = W18 m c _
  unfold W19
  refine Function.update_of_ne (StableHlo.devRef_ne_of_ne ?_) _ _
  rintro rfl
  exact hb (Finset.mem_image.mpr ⟨2, Finset.mem_univ _, rfl⟩)
theorem W19_of (c : Dev nD) (r : Ref sig .tc) (h : r ≠ main_v67) : W19 m c (Proc.devRef .tc r) = W18 m c (Proc.devRef .tc r) := by
  unfold W19
  exact Function.update_of_ne (StableHlo.devRef_ne_of_ne h) _ _
theorem W19_out (c : Dev nD) : W19 m c (Proc.devRef .tc main_v67) = (dat10 (T18 m) c).arrAt 2 cfg10.N := by
  unfold W19
  exact Function.update_self (Proc.devRef .tc main_v67 : DevRef τ sig) _ (W18 m c)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W8_of (c : Dev nD) (r : Ref sig .tc) (h : r ∉ hostOps3_W) : W8 m c (Proc.devRef .tc r) = W7 m c (Proc.devRef .tc r) :=
  StableHlo.after_of_writes_sub hostOps3 _ hostOps3_writes h
theorem W11_of (c : Dev nD) (r : Ref sig .tc) (h : r ∉ hostOps5_W) : W11 m c (Proc.devRef .tc r) = W10 m c (Proc.devRef .tc r) :=
  StableHlo.after_of_writes_sub hostOps5 _ hostOps5_writes h
theorem W14_of (c : Dev nD) (r : Ref sig .tc) (h : r ∉ hostOps7_W) : W14 m c (Proc.devRef .tc r) = W13 m c (Proc.devRef .tc r) :=
  StableHlo.after_of_writes_sub hostOps7 _ hostOps7_writes h
theorem W17_of (c : Dev nD) (r : Ref sig .tc) (h : r ∉ hostOps9_W) : W17 m c (Proc.devRef .tc r) = W16 m c (Proc.devRef .tc r) :=
  StableHlo.after_of_writes_sub hostOps9 _ hostOps9_writes h

/-! ## No operation and no region writes an argument -/

theorem W19_main_arg0 (c : Dev nD) : W19 m c (Proc.devRef .tc main_arg0) = m ((c : Thread nD τ).loc main_arg0) :=
  (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W19_main_arg1 (c : Dev nD) : W19 m c (Proc.devRef .tc main_arg1) = m ((c : Thread nD τ).loc main_arg1) :=
  (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W19_main_arg2 (c : Dev nD) : W19 m c (Proc.devRef .tc main_arg2) = m ((c : Thread nD τ).loc main_arg2) :=
  (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W19_main_arg3 (c : Dev nD) : W19 m c (Proc.devRef .tc main_arg3) = m ((c : Thread nD τ).loc main_arg3) :=
  (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W19_main_arg4 (c : Dev nD) : W19 m c (Proc.devRef .tc main_arg4) = m ((c : Thread nD τ).loc main_arg4) :=
  (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W19_main_arg5 (c : Dev nD) : W19 m c (Proc.devRef .tc main_arg5) = m ((c : Thread nD τ).loc main_arg5) :=
  (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W19_main_arg6 (c : Dev nD) : W19 m c (Proc.devRef .tc main_arg6) = m ((c : Thread nD τ).loc main_arg6) :=
  (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W19_main_arg7 (c : Dev nD) : W19 m c (Proc.devRef .tc main_arg7) = m ((c : Thread nD τ).loc main_arg7) :=
  (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W19_main_arg8 (c : Dev nD) : W19 m c (Proc.devRef .tc main_arg8) = m ((c : Thread nD τ).loc main_arg8) :=
  (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W19_main_arg9 (c : Dev nD) : W19 m c (Proc.devRef .tc main_arg9) = m ((c : Thread nD τ).loc main_arg9) :=
  (W19_of m c main_arg9 (by decide)).trans <| (W18_of m c main_arg9 (by decide)).trans <| (W17_of m c main_arg9 (by decide)).trans <| (W16_of m c main_arg9 (by decide)).trans <| (W15_of m c main_arg9 (by decide)).trans <| (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W19_main_arg10 (c : Dev nD) : W19 m c (Proc.devRef .tc main_arg10) = m ((c : Thread nD τ).loc main_arg10) :=
  (W19_of m c main_arg10 (by decide)).trans <| (W18_of m c main_arg10 (by decide)).trans <| (W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W19_main_arg11 (c : Dev nD) : W19 m c (Proc.devRef .tc main_arg11) = m ((c : Thread nD τ).loc main_arg11) :=
  (W19_of m c main_arg11 (by decide)).trans <| (W18_of m c main_arg11 (by decide)).trans <| (W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl

end Cert.KernelIdeal.Hand
end
-- ==== Proof.KI.Run.lean ====
/- @main as a list of segments — host stretches and kernel regions — over the boundary contents of the fold, each region's
   record assembled from its proof data and body obligation; the launch theorem for several regions then gives the run:
   every weakly fair execution terminates, nothing faulting, every unscoped buffer ending at the last boundary's contents;
   the argument arrays therefore end as launched. -/
import proofs.«179362_j6141803233546_1_alg».proof.Proof.KI.Fold
import proofs.«179362_j6141803233546_1_alg».proof.Proof.Gen.KernelIdeal.Launch
import proofs.«179362_j6141803233546_1_alg».proof.Proof.Gen.KernelIdeal.Skeleton
import proofs.«179362_j6141803233546_1_alg».proof.Proof.Gen.KernelIdeal.Points
import proofs.«179362_j6141803233546_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pallas_call has a prefetched table. -/
abbrev adm' : (p : Fin 11) → (pcfgs (F := F) p).Adm := fun p => (cfgs p).toPCfg_adm
/-- Every region's proof data, each at its region's entry contents. -/
def pdats : (p : Fin 11) → (c : Dev nD) → Dat τ (Elt F) Unit ℕ (UR sig nD τ) ℕ (Pipeline.pin (pcfgs (F := F)) adm' p) c
  | ⟨0, _⟩ => fun c => dat0 (T3 m) c
  | ⟨1, _⟩ => fun c => dat1 (T5 m) c
  | ⟨2, _⟩ => fun c => dat2 (T6 m) c
  | ⟨3, _⟩ => fun c => dat3 (T8 m) c
  | ⟨4, _⟩ => fun c => dat4 (T9 m) c
  | ⟨5, _⟩ => fun c => dat5 (T11 m) c
  | ⟨6, _⟩ => fun c => dat6 (T12 m) c
  | ⟨7, _⟩ => fun c => dat7 (T14 m) c
  | ⟨8, _⟩ => fun c => dat8 (T15 m) c
  | ⟨9, _⟩ => fun c => dat9 (T17 m) c
  | ⟨10, _⟩ => fun c => dat10 (T18 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m c) ∗ ∃ r, prngReg c r)

/-! ## The regions as segments -/

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun c t => owed_eq0 (T3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm' (pdats m) launch0.win launch0.arr_whole c
      ((pdats m 0 c).share_full fun w => q_eq0 (T3 m) c w) (T3 m c) fun w => A_eq0 (T3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec0 c)).trans (phi_in0 (T3 m) c)
    iintro ⟨Hp, -, Hr⟩
    isplitl [Hp]; · iexact Hp
    iexact Hr
  hout c := by
    rw [Pipeline.ownSems0_none]
    refine (phi_out0 (T3 m) c).trans ?_
    iintro ⟨Hp, Hr⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun w => q_eq0 (T3 m) c w)
      (T3 m c) (T4' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun c t => owed_eq1 (T5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm' (pdats m) launch1.win launch1.arr_whole c
      ((pdats m 1 c).share_full fun w => q_eq1 (T5 m) c w) (T5 m c) fun w => A_eq1 (T5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec1 c)).trans (phi_in1 (T5 m) c)
    iintro ⟨Hp, -, Hr⟩
    isplitl [Hp]; · iexact Hp
    iexact Hr
  hout c := by
    rw [Pipeline.ownSems0_none]
    refine (phi_out1 (T5 m) c).trans ?_
    iintro ⟨Hp, Hr⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun w => q_eq1 (T5 m) c w)
      (T5 m c) (T6' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ L lv 2 fun c t => owed_eq2 (T6 m) c t
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := by
    rw [Pipeline.ownSems0_none]
    have hsplit := Pipeline.arrays_of_unscopedBufs (p := 2) (pcfgs (F := F)) adm' (pdats m) launch2.win launch2.arr_whole c
      ((pdats m 2 c).share_full fun w => q_eq2 (T6 m) c w) (T6 m c) fun w => A_eq2 (T6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec2 c)).trans (phi_in2 (T6 m) c)
    iintro ⟨Hp, -, Hr⟩
    isplitl [Hp]; · iexact Hp
    iexact Hr
  hout c := by
    rw [Pipeline.ownSems0_none]
    refine (phi_out2 (T6 m) c).trans ?_
    iintro ⟨Hp, Hr⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun w => q_eq2 (T6 m) c w)
      (T6 m c) (T7' m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm' (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T8 m) c).loose
  hwaits := Pipeline.hwaits_of_owed_zero _ _ _ _ L lv 3 fun c t => owed_eq3 (T8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (T8 m c)
  hentry c := by
    rw [Pipeline.ownSems0_none]
    have hsplit := Pipeline.arrays_of_unscopedBufs (p := 3) (pcfgs (F := F)) adm' (pdats m) launch3.win launch3.arr_whole c
      ((pdats m 3 c).share_full fun w => q_eq3 (T8 m) c w) (T8 m c) fun w => A_eq3 (T8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec3 c)).trans (phi_in3 (T8 m) c)
    iintro ⟨Hp, -, Hr⟩
    isplitl [Hp]; · iexact Hp
    iexact Hr
  hout c := by
    rw [Pipeline.ownSems0_none]
    refine (phi_out3 (T8 m) c).trans ?_
    iintro ⟨Hp, Hr⟩
    isplitl [Hp]; · iexact Hp
    isplitr; · iempintro
    iexact Hr
  hexit c := by
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun w => q_eq3 (T8 m) c w)
      (T8 m c) (T9' m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm' (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun c t => owed_eq4 (T9 m) c t
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) adm' (pdats m) launch4.win launch4.arr_whole c
      ((pdats m 4 c).share_full fun w => q_eq4 (T9 m) c w) (T9 m c) fun w => A_eq4 (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec4 c)).trans (phi_in4 (T9 m) c)
    iintro ⟨Hp, -, Hr⟩
    isplitl [Hp]; · iexact Hp
    iexact Hr
  hout c := by
    rw [Pipeline.ownSems0_none]
    refine (phi_out4 (T9 m) c).trans ?_
    iintro ⟨Hp, Hr⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m) ((pdats m 4 c).share_full fun w => q_eq4 (T9 m) c w)
      (T9 m c) (T10' m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm' (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun c t => owed_eq5 (T11 m) c t
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) adm' (pdats m) launch5.win launch5.arr_whole c
      ((pdats m 5 c).share_full fun w => q_eq5 (T11 m) c w) (T11 m c) fun w => A_eq5 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec5 c)).trans (phi_in5 (T11 m) c)
    iintro ⟨Hp, -, Hr⟩
    isplitl [Hp]; · iexact Hp
    iexact Hr
  hout c := by
    rw [Pipeline.ownSems0_none]
    refine (phi_out5 (T11 m) c).trans ?_
    iintro ⟨Hp, Hr⟩
    isplitl [Hp]; · iexact Hp
    isplitr; · iempintro
    iexact Hr
  hexit c := by
    have hjoin := Pipeline.unscopedBufs_of_arrays (p := 5) (pcfgs (F := F)) adm' (Ix := Unit) (Name := ℕ) (U := UR sig nD τ) (Lvl := ℕ)
      launch5.win launch5.arr_whole c (pdats m) ((pdats m 5 c).share_full fun w => q_eq5 (T11 m) c w)
      (T11 m c) (T12' m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm' (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T12 m) c).loose
  hwaits := Pipeline.hwaits_of_owed_zero _ _ _ _ L lv 6 fun c t => owed_eq6 (T12 m) c t
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec6 c (T12 m c)
  hentry c := by
    rw [Pipeline.ownSems0_none]
    have hsplit := Pipeline.arrays_of_unscopedBufs (p := 6) (pcfgs (F := F)) adm' (pdats m) launch6.win launch6.arr_whole c
      ((pdats m 6 c).share_full fun w => q_eq6 (T12 m) c w) (T12 m c) fun w => A_eq6 (T12 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec6 c)).trans (phi_in6 (T12 m) c)
    iintro ⟨Hp, -, Hr⟩
    isplitl [Hp]; · iexact Hp
    iexact Hr
  hout c := by
    rw [Pipeline.ownSems0_none]
    refine (phi_out6 (T12 m) c).trans ?_
    iintro ⟨Hp, Hr⟩
    isplitl [Hp]; · iexact Hp
    isplitr; · iempintro
    iexact Hr
  hexit c := by
    have hjoin := Pipeline.unscopedBufs_of_arrays (p := 6) (pcfgs (F := F)) adm' (Ix := Unit) (Name := ℕ) (U := UR sig nD τ) (Lvl := ℕ)
      launch6.win launch6.arr_whole c (pdats m) ((pdats m 6 c).share_full fun w => q_eq6 (T12 m) c w)
      (T12 m c) (T13' m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 : Pipeline.RegionSeg (pcfgs (F := F)) adm' (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T14 m) c).loose
  hwaits := Pipeline.hwaits_of_owed_zero _ _ _ _ L lv 7 fun c t => owed_eq7 (T14 m) c t
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec7 c (T14 m c)
  hentry c := by
    rw [Pipeline.ownSems0_none]
    have hsplit := Pipeline.arrays_of_unscopedBufs (p := 7) (pcfgs (F := F)) adm' (pdats m) launch7.win launch7.arr_whole c
      ((pdats m 7 c).share_full fun w => q_eq7 (T14 m) c w) (T14 m c) fun w => A_eq7 (T14 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec7 c)).trans (phi_in7 (T14 m) c)
    iintro ⟨Hp, -, Hr⟩
    isplitl [Hp]; · iexact Hp
    iexact Hr
  hout c := by
    rw [Pipeline.ownSems0_none]
    refine (phi_out7 (T14 m) c).trans ?_
    iintro ⟨Hp, Hr⟩
    isplitl [Hp]; · iexact Hp
    isplitr; · iempintro
    iexact Hr
  hexit c := by
    have hjoin := Pipeline.unscopedBufs_of_arrays (p := 7) (pcfgs (F := F)) adm' (Ix := Unit) (Name := ℕ) (U := UR sig nD τ) (Lvl := ℕ)
      launch7.win launch7.arr_whole c (pdats m) ((pdats m 7 c).share_full fun w => q_eq7 (T14 m) c w)
      (T14 m c) (T15' m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg8 : Pipeline.RegionSeg (pcfgs (F := F)) adm' (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T15 m) c).loose
  hwaits := Pipeline.hwaits_of_owed_zero _ _ _ _ L lv 8 fun c t => owed_eq8 (T15 m) c t
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec8 c (T15 m c)
  hentry c := by
    rw [Pipeline.ownSems0_none]
    have hsplit := Pipeline.arrays_of_unscopedBufs (p := 8) (pcfgs (F := F)) adm' (pdats m) launch8.win launch8.arr_whole c
      ((pdats m 8 c).share_full fun w => q_eq8 (T15 m) c w) (T15 m c) fun w => A_eq8 (T15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec8 c)).trans (phi_in8 (T15 m) c)
    iintro ⟨Hp, -, Hr⟩
    isplitl [Hp]; · iexact Hp
    iexact Hr
  hout c := by
    rw [Pipeline.ownSems0_none]
    refine (phi_out8 (T15 m) c).trans ?_
    iintro ⟨Hp, Hr⟩
    isplitl [Hp]; · iexact Hp
    isplitr; · iempintro
    iexact Hr
  hexit c := by
    have hjoin := Pipeline.unscopedBufs_of_arrays (p := 8) (pcfgs (F := F)) adm' (Ix := Unit) (Name := ℕ) (U := UR sig nD τ) (Lvl := ℕ)
      launch8.win launch8.arr_whole c (pdats m) ((pdats m 8 c).share_full fun w => q_eq8 (T15 m) c w)
      (T15 m c) (T16' m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg9 : Pipeline.RegionSeg (pcfgs (F := F)) adm' (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T17 m) c).loose
  hwaits := Pipeline.hwaits_of_owed_zero _ _ _ _ L lv 9 fun c t => owed_eq9 (T17 m) c t
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec9 c (T17 m c)
  hentry c := by
    rw [Pipeline.ownSems0_none]
    have hsplit := Pipeline.arrays_of_unscopedBufs (p := 9) (pcfgs (F := F)) adm' (pdats m) launch9.win launch9.arr_whole c
      ((pdats m 9 c).share_full fun w => q_eq9 (T17 m) c w) (T17 m c) fun w => A_eq9 (T17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec9 c)).trans (phi_in9 (T17 m) c)
    iintro ⟨Hp, -, Hr⟩
    isplitl [Hp]; · iexact Hp
    iexact Hr
  hout c := by
    rw [Pipeline.ownSems0_none]
    refine (phi_out9 (T17 m) c).trans ?_
    iintro ⟨Hp, Hr⟩
    isplitl [Hp]; · iexact Hp
    isplitr; · iempintro
    iexact Hr
  hexit c := by
    have hjoin := Pipeline.unscopedBufs_of_arrays (p := 9) (pcfgs (F := F)) adm' (Ix := Unit) (Name := ℕ) (U := UR sig nD τ) (Lvl := ℕ)
      launch9.win launch9.arr_whole c (pdats m) ((pdats m 9 c).share_full fun w => q_eq9 (T17 m) c w)
      (T17 m c) (T18' m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg10 : Pipeline.RegionSeg (pcfgs (F := F)) adm' (pdats m) () defs₀ 𝒱₀ L lv 10 where
  win := winFacts₀10
  block_pos := block_pos10
  stage_whole := stage_whole10
  K := PEmpty
  osem k := k.elim
  ho := Pipeline.OwnSemFacts.none _
  hbody c := (body_obligation10 (T18 m) c).loose
  hwaits := Pipeline.hwaits_of_owed_zero _ _ _ _ L lv 10 fun c t => owed_eq10 (T18 m) c t
  pre c := iprop(StableHlo.held (c : Thread nD τ) (Pipeline.ucRefs τ sig) (W18 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (T18 m c)
  hentry c := by
    rw [Pipeline.ownSems0_none]
    have hsplit := entry10_held (W18 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ iprop((∃ r, prngReg c r) ∗ Pipeline.scopedRest (Ix := Unit) (Name := ℕ) (U := UR sig nD τ) (Lvl := ℕ) spec10 c)).trans (phi_in10 (T18 m) c)
    iintro ⟨Hp, -, Hr⟩
    isplitl [Hp]; · iexact Hp
    iexact Hr
  hout c := by
    rw [Pipeline.ownSems0_none]
    refine (phi_out10 (T18 m) c).trans ?_
    iintro ⟨Hp, Hr⟩
    isplitl [Hp]; · iexact Hp
    isplitr; · iempintro
    iexact Hr
  hexit c := by
    have hjoin : iprop((pdats m 10 c).arrays ((pdats m 10 c).arrAt · cfg10.N) ∗ Pipeline.unscopedRest (Ix := Unit) (Name := ℕ) (U := UR sig nD τ) (Lvl := ℕ) spec10 c (T18 m c))
        ⊢ (StableHlo.held (c : Thread nD τ) (Pipeline.ucRefs τ sig) (W19 m c) : sProp 𝕄) :=
      exit10_held (W18 m) c (W19 m c) (W19_out m c) (fun b hb => W19_of m c b hb)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)),
    .region (reg5 m),
    .region (reg6 m),
    .host (hseg hostOps7 hostOps7_sub hostOps7_fresh (W13 m)),
    .region (reg7 m),
    .region (reg8 m),
    .host (hseg hostOps9 hostOps9_sub hostOps9_fresh (W16 m)),
    .region (reg9 m),
    .region (reg10 m) ]

theorem main_run (c : Dev nD) : main (F := F) c = Pipeline.Seg.run (segs m) := (main_chain c).trans (by chain_rfl)

set_option backward.isDefEq.respectTransparency.types false in
/-- The run: from any memory with zero counters every weakly fair execution of @main terminates, nothing faulting, and in
    every final state each unscoped buffer of every core holds the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W19_main_arg0 m c),
    (h c _ (mem_uc main_arg1 (by decide))).trans (W19_main_arg1 m c),
    (h c _ (mem_uc main_arg2 (by decide))).trans (W19_main_arg2 m c),
    (h c _ (mem_uc main_arg3 (by decide))).trans (W19_main_arg3 m c),
    (h c _ (mem_uc main_arg4 (by decide))).trans (W19_main_arg4 m c),
    (h c _ (mem_uc main_arg5 (by decide))).trans (W19_main_arg5 m c),
    (h c _ (mem_uc main_arg6 (by decide))).trans (W19_main_arg6 m c),
    (h c _ (mem_uc main_arg7 (by decide))).trans (W19_main_arg7 m c),
    (h c _ (mem_uc main_arg8 (by decide))).trans (W19_main_arg8 m c),
    (h c _ (mem_uc main_arg9 (by decide))).trans (W19_main_arg9 m c),
    (h c _ (mem_uc main_arg10 (by decide))).trans (W19_main_arg10 m c),
    (h c _ (mem_uc main_arg11 (by decide))).trans (W19_main_arg11 m c)⟩) (run m ρ)

end Cert.KernelIdeal.Hand
end
-- ==== Proof.KI.Final0.lean ====
import proofs.«179362_j6141803233546_1_alg».proof.Proof.KI.Region0
import Idealize.ShloMosaic.PureOps.Ideal.Laws
import Idealize.ShloMosaic.Lib.ValueIdx

/-! # Region 0 at the ideal numbers: the output array is the matrix product of the two input arrays -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The region's value at the ideal numbers

Read at the ideal numbers, rounding is the identity and a matrix product into a zero accumulator is the plain sum of
products. Each grid point writes back one row block of the product of the two input arrays, and the eight row blocks
tile the output array: after the region the output array IS the matrix product of the two input arrays as the region
found them. -/

section Value

open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The operand entries that entry `y` of a block product reads at contraction coordinate `k`: row `y 0` of the left
    block, column `y 1` of the right one. -/
abbrev li0 (y : S1024x128.Idx) (k : Fin 512) : S1024x512.Idx := fun a => match a with
  | ⟨0, _⟩ => ⟨(y 0).val, (y 0).isLt⟩
  | ⟨1, _⟩ => ⟨k.val, k.isLt⟩
abbrev ri0 (y : S1024x128.Idx) (k : Fin 512) : S512x128.Idx := fun a => match a with
  | ⟨0, _⟩ => ⟨k.val, k.isLt⟩
  | ⟨1, _⟩ => ⟨(y 1).val, (y 1).isLt⟩

theorem lhs0_0 (y : S1024x128.Idx) (q : dot_S1024x512_S512x128_S1024x128_1_0_0_1_n_n.contr.Idx) : (dot_S1024x512_S512x128_S1024x128_1_0_0_1_n_n.lhsIdx y q 0).val = (y 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhs0_1 (y : S1024x128.Idx) (q : dot_S1024x512_S512x128_S1024x128_1_0_0_1_n_n.contr.Idx) : (dot_S1024x512_S512x128_S1024x128_1_0_0_1_n_n.lhsIdx y q 1).val = (q ⟨0, by decide⟩).val :=
  dot_S1024x512_S512x128_S1024x128_1_0_0_1_n_n.lhsIdx_val_of_single rfl y q
theorem rhs0_0 (y : S1024x128.Idx) (q : dot_S1024x512_S512x128_S1024x128_1_0_0_1_n_n.contr.Idx) : (dot_S1024x512_S512x128_S1024x128_1_0_0_1_n_n.rhsIdx y q 0).val = (q ⟨0, by decide⟩).val :=
  dot_S1024x512_S512x128_S1024x128_1_0_0_1_n_n.rhsIdx_val_of_single rfl y q
theorem rhs0_1 (y : S1024x128.Idx) (q : dot_S1024x512_S512x128_S1024x128_1_0_0_1_n_n.contr.Idx) : (dot_S1024x512_S512x128_S1024x128_1_0_0_1_n_n.rhsIdx y q 1).val = (y 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The body's payload, entry by entry: the sum over the contraction coordinate of the operands' products. -/
theorem pay0_at (x0 : S1024x512.Idx → EReal) (x1 : S512x128.Idx → EReal) (y : S1024x128.Idx) :
    k0_pay1 (F := Ideal) x0 x1 y = ∑ k : Fin 512, x0 (li0 y k) * x1 (ri0 y k) := by
  show FloatOps.matmul (F := Ideal) (φ₁ := .bf16) (φ₂ := .bf16) dot_S1024x512_S512x128_S1024x128_1_0_0_1_n_n none (shapeCast S1024x512 x0 _) (shapeCast S512x128 x1 _)
    (constant S1024x128 .f32 0x00000000#32) y = _
  rw [shapeCast_self, shapeCast_self, Ideal.matmul_constant_zero_apply,
    ← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx y ((contrEquiv1 dot_S1024x512_S512x128_S1024x128_1_0_0_1_n_n 512 rfl rfl).symm k) = li0 y k := funext fun a => Fin.ext (by
    match a with
    | ⟨0, _⟩ => exact lhs0_0 _ _
    | ⟨1, _⟩ => exact (lhs0_1 _ _).trans hk)
  have er : dot_S1024x512_S512x128_S1024x128_1_0_0_1_n_n.rhsIdx y ((contrEquiv1 dot_S1024x512_S512x128_S1024x128_1_0_0_1_n_n 512 rfl rfl).symm k) = ri0 y k := funext fun a => Fin.ext (by
    match a with
    | ⟨0, _⟩ => exact (rhs0_0 _ _).trans hk
    | ⟨1, _⟩ => exact rhs0_1 _ _)
  rw [el, er]

/-- The array entries that entry `i` of the product of two arrays reads at contraction coordinate `k`. -/
abbrev Li0 (i : S8192x128.Idx) (k : Fin 512) : S8192x512.Idx := fun a => match a with
  | ⟨0, _⟩ => ⟨(i 0).val, (i 0).isLt⟩
  | ⟨1, _⟩ => ⟨k.val, k.isLt⟩
abbrev Ri0 (i : S8192x128.Idx) (k : Fin 512) : S512x128.Idx := fun a => match a with
  | ⟨0, _⟩ => ⟨k.val, k.isLt⟩
  | ⟨1, _⟩ => ⟨(i 1).val, (i 1).isLt⟩

/-- The matrix product of two arrays, entry by entry. -/
def G0 (a0 : S8192x512.Idx → EReal) (a1 : S512x128.Idx → EReal) : S8192x128.Idx → EReal :=
  fun i => ∑ k : Fin 512, a0 (Li0 i k) * a1 (Ri0 i k)

/-- The printed index maps over the grid: the left operand's row block moves with the output's, every other block
    coordinate stays at zero, and the output's row block index is below 8. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every row block of the output is some point's. -/
theorem idx_onto0 : ∀ (q0 : Fin 8), ∃ t : Fin cfg0.N, win0_2.index t = ![q0.val, 0] :=
  (by decide +kernel : ∀ (q0 : Fin 8), ∃ t : Fin grid0.N, win0_2.index t = ![q0.val, 0])

/-- An entry of an input window's block is the array's entry at the block's place. -/
theorem iblk0_0_apply (c : Dev nD) (t : Fin cfg0.N) (y : S1024x512.Idx) :
    (iblk0 V c 0 t : S1024x512.Idx → EReal) y = (V c (Pipeline.arrRef spec0 0) : S8192x512.Idx → EReal) (((cfg0.win 0).blk t).view.emb y) := rfl
theorem iblk0_1_apply (c : Dev nD) (t : Fin cfg0.N) (y : S512x128.Idx) :
    (iblk0 V c 1 t : S512x128.Idx → EReal) y = (V c (Pipeline.arrRef spec0 1) : S512x128.Idx → EReal) (((cfg0.win 1).blk t).view.emb y) := rfl
/-- An entry of the output window's block of any array is the array's entry at the block's place. -/
theorem read_blk0_2 (t : Fin cfg0.N) (A : S8192x128.Idx → EReal) (j : ((cfg0.win 2).xblock (cfg0.grid.coords t)).Idx) :
    (((cfg0.win 2).blk t).view.read (Elt Ideal) A : _ → EReal) j = A (((cfg0.win 2).blk t).view.emb j) := rfl

set_option maxHeartbeats 1000000 in
/-- What point `t` writes back is its row block of the product of the two input arrays. -/
theorem flushed0_eq (c : Dev nD) (t : Fin cfg0.N) :
    (dat0 (F := Ideal) V c).flushed 2 t
      = ((cfg0.win 2).blk t).view.read (Elt Ideal) (G0 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S1024x512) hz0, View.ld_unit_zero (S := S512x128) hz0]
  obtain ⟨e0, e1, e2, e3, e4, e5⟩ := idx_facts0 t
  funext j
  refine (pay0_at (iblk0 V c 0 t) (iblk0 V c 1 t) _).trans ?_
  refine Eq.trans ?_ (read_blk0_2 t (G0 (V c (Pipeline.arrRef spec0 0)) (V c (Pipeline.arrRef spec0 1))) j).symm
  unfold G0
  refine Finset.sum_congr rfl fun k _ => ?_
  have h0 : ((cfg0.win 0).blk t).view.emb (li0 ((cfg0.win 2).xinj (grid0.coords t) j) k)
      = Li0 (((cfg0.win 2).blk t).view.emb j) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * k.val = k.val; omega
  have h1 : ((cfg0.win 1).blk t).view.emb (ri0 ((cfg0.win 2).xinj (grid0.coords t) j) k)
      = Ri0 (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [iblk0_0_apply, iblk0_1_apply, h0, h1]

/-- An index of the output array is in point `t`'s block iff each coordinate is in the block's range on its axis. -/
theorem mem_blk0 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v52).slice (win0_2.rect t)).set ↔ _
  rw [View.set_slice_whole, Rect.mem_set_unit]
  exact Iff.rfl

/-- The eight row blocks tile the output array: row `r` lies in the block of the point whose row block index is `r / 1024`. -/
theorem cover0_arr (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- After the region the output array is the product of the two input arrays as the region found them. -/
theorem final0_arr (c : Dev nD) :
    (dat0 (F := Ideal) V c).arrAt 2 cfg0.N = G0 (V c (Pipeline.arrRef spec0 0)) (V c (Pipeline.arrRef spec0 1)) :=
  (dat0 V c).arrAt_eq_of_cover 2 _ (fun t _ => flushed0_eq V c t) cover0_arr

/-- The product of two arrays at row `p`, column `q`: the sum over `k` of the left array's entry at (p, k) times the
    right array's at (k, q). -/
theorem G0_apply (a0 : S8192x512.Idx → EReal) (a1 : S512x128.Idx → EReal) (p : Fin 8192) (q : Fin 128) :
    G0 a0 a1 (ix2 p q) = ∑ k : Fin 512, a0 (ix2 p k) * a1 (ix2 k q) := by
  unfold G0
  refine Finset.sum_congr rfl fun k _ => ?_
  have hl : Li0 (ix2 p q) k = ix2 p k := funext fun a => by match a with | ⟨0, _⟩ => rfl | ⟨1, _⟩ => rfl
  have hr : Ri0 (ix2 p q) k = ix2 k q := funext fun a => by match a with | ⟨0, _⟩ => rfl | ⟨1, _⟩ => rfl
  rw [hl, hr]

/-- The region's two input arrays as it finds them and its output array as it leaves it, as plain functions of the index. -/
abbrev arrIn0_0 (c : Dev nD) : S8192x512.Idx → EReal := V c (Pipeline.arrRef spec0 0)
abbrev arrIn0_1 (c : Dev nD) : S512x128.Idx → EReal := V c (Pipeline.arrRef spec0 1)
abbrev arrOut0 (c : Dev nD) : S8192x128.Idx → EReal := (dat0 (F := Ideal) V c).arrAt 2 cfg0.N

/-- Entry by entry: row `p`, column `q` of the output array is the sum over `k` of the products of the left array's
    entry at (p, k) and the right array's at (k, q). -/
theorem final0 (c : Dev nD) (p : Fin 8192) (q : Fin 128) :
    arrOut0 V c (ix2 p q) = ∑ k : Fin 512, arrIn0_0 V c (ix2 p k) * arrIn0_1 V c (ix2 k q) :=
  (congrFun (final0_arr V c) (ix2 p q)).trans (G0_apply _ _ p q)

end Value

end Cert.KernelIdeal.Hand

end
-- ==== Proof.KI.Final1.lean ====
import proofs.«179362_j6141803233546_1_alg».proof.Proof.KI.Region1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The region's value at the ideal instance: O = max(A·H + b, 0), index by index -/

section Value

open ValueIdx

variable (Vi : (c : Dev nD) → (b : Ref sig .tc) → Buf (Elt Ideal) ((c : Thread nD τ).loc b))

theorem hz1 : (![0, 0] : Fin 2 → Nat) = fun _ => 0 := funext fun a => by fin_cases a <;> rfl

/-! ## The product of two blocks at an index -/

theorem lhs1_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

theorem rhs1_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero accumulator, at row `a` and column `b`: the sum over the 2048 contracted
    positions of the products. -/
theorem mm1_apply (x0 : FVec Ideal S1024x2048 .bf16) (x1 : FVec Ideal S2048x128 .bf16) (a : Fin 1024) (b : Fin 128) :
    matmul dot_S1024x2048_S2048x128_S1024x128_1_0_0_1_n_n none x0 x1 (constant S1024x128 .f32 0x00000000#32) (ix2 a b)
      = ∑ k : Fin 2048, x0 (ix2 a k) * x1 (ix2 k b) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 a b) ((ValueIdx.contrEquiv1 dot_S1024x2048_S2048x128_S1024x128_1_0_0_1_n_n 2048 rfl rfl).symm k) = ix2 a k := funext fun d => Fin.ext (by
    match d with
    | ⟨0, _⟩ => exact lhs1_0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 a b) ((ValueIdx.contrEquiv1 dot_S1024x2048_S2048x128_S1024x128_1_0_0_1_n_n 2048 rfl rfl).symm k) = ix2 k b := funext fun d => Fin.ext (by
    match d with
    | ⟨0, _⟩ => exact (dot_S1024x2048_S2048x128_S1024x128_1_0_0_1_n_n.rhsIdx_val_of_single rfl _ _).trans hk
    | ⟨1, _⟩ => exact rhs1_1 _ _)
  rw [el, er]

/-! ## What the body leaves, at an index -/

theorem accA1_apply (x0 : Vec Ideal S1024x2048 .bf16) (x1 : Vec Ideal S2048x128 .bf16) (a : Fin 1024) (b : Fin 128) :
    accA1 x0 x1 (ix2 a b) = 0 + ∑ k : Fin 2048, (x0 (ix2 a k) : EReal) * x1 (ix2 k b) := by
  unfold accA1
  rw [View.canon_cons_unit_zero hz1]
  unfold k1_pay2 k1_pay1
  simp only [View.canon_unit_zero (S := S1024x128) hz1, View.ld_unit_zero (S := S1024x2048) hz1, View.ld_unit_zero (S := S2048x128) hz1, View.ld_unit_zero (S := S1024x128) hz1, shapeCast_self]
  show Ideal.ofBits .f32 0x00000000#32 + matmul (F := Ideal) dot_S1024x2048_S2048x128_S1024x128_1_0_0_1_n_n none x0 x1 (constant (F := Ideal) S1024x128 .f32 0x00000000#32) (ix2 a b) = _
  rw [Ideal.ofBits_zero_f32, mm1_apply]

theorem accB1_apply (x0 : Vec Ideal S1024x2048 .bf16) (x1 : Vec Ideal S2048x128 .bf16) (acc : Vec Ideal S1024x128 .f32) (a : Fin 1024) (b : Fin 128) :
    accB1 x0 x1 acc (ix2 a b) = (acc (ix2 a b) : EReal) + ∑ k : Fin 2048, (x0 (ix2 a k) : EReal) * x1 (ix2 k b) := by
  unfold accB1
  rw [View.canon_unit_zero hz1]
  unfold k1_pay2
  simp only [View.ld_unit_zero (S := S1024x2048) hz1, View.ld_unit_zero (S := S2048x128) hz1, View.ld_unit_zero (S := S1024x128) hz1, shapeCast_self]
  show (acc (ix2 a b) : EReal) + matmul (F := Ideal) dot_S1024x2048_S2048x128_S1024x128_1_0_0_1_n_n none x0 x1 (constant (F := Ideal) S1024x128 .f32 0x00000000#32) (ix2 a b) = _
  rw [mm1_apply]

theorem out1_3_apply (acc : Vec Ideal S1024x128 .f32) (x2 : Vec Ideal S1x128 .f32) (a : Fin 1024) (b : Fin 128) :
    (out1_3 acc x2 (ix2 a b) : EReal) = max ((acc (ix2 a b) : EReal) + x2 (ix2 0 b)) 0 := by
  unfold out1_3
  rw [View.canon_unit_zero hz1]
  unfold k1_pay3
  simp only [View.ld_unit_zero (S := S1024x128) hz1, View.ld_unit_zero (S := S1x128) hz1, shapeCast_self]
  show max ((acc (ix2 a b) : EReal) + broadcastTo S1024x128 x2 broadcasts_S1x128_S1024x128 (ix2 a b)) (Ideal.ofBits .f32 0x00000000#32) = _
  rw [Ideal.ofBits_zero_f32, broadcastTo_apply x2 _ (ix2 a b) (ix2 0 b) (fun d => by
    match d with
    | ⟨0, _⟩ => rfl
    | ⟨1, _⟩ => rfl)]

/-! ## The windows' blocks as entries of their arrays -/

/-- The printed index maps, decided over the grid: point `t` is row block `t / 4`, column block `t % 4`. -/
theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The three input arrays as the region finds them, read as functions of a literal index. -/
abbrev VA1 (c : Dev nD) : S8192x8192.Idx → EReal := Vi c (Pipeline.arrRef spec1 0)
abbrev VH1 (c : Dev nD) : S8192x128.Idx → EReal := Vi c (Pipeline.arrRef spec1 1)
abbrev VB1 (c : Dev nD) : S1x128.Idx → EReal := Vi c (Pipeline.arrRef spec1 2)

theorem iblk1_0_apply (c : Dev nD) (t : Fin cfg1.N) (x : S1024x2048.Idx) (k : S8192x8192.Idx)
    (hk0 : (k 0).val = 1024 * (t.val / 4) + (x 0).val) (hk1 : (k 1).val = 2048 * (t.val % 4) + (x 1).val) :
    (iblk1 Vi c 0 t : Vec Ideal S1024x2048 .bf16) x = VA1 Vi c k := by
  obtain ⟨e0, e1, -⟩ := idx1 t
  unfold iblk1
  rw [View.read_apply]
  show Vi c (Pipeline.arrRef spec1 0) _ = Vi c (Pipeline.arrRef spec1 0) _
  congr 1
  funext a
  apply Fin.ext
  match a with
  | ⟨0, _⟩ => show win1_0.index t 0 * 1024 + 1 * (x 0).val = (k 0).val; rw [e0, hk0]; omega
  | ⟨1, _⟩ => show win1_0.index t 1 * 2048 + 1 * (x 1).val = (k 1).val; rw [e1, hk1]; omega

theorem iblk1_1_apply (c : Dev nD) (t : Fin cfg1.N) (x : S2048x128.Idx) (k : S8192x128.Idx)
    (hk0 : (k 0).val = 2048 * (t.val % 4) + (x 0).val) (hk1 : (k 1).val = (x 1).val) :
    (iblk1 Vi c 1 t : Vec Ideal S2048x128 .bf16) x = VH1 Vi c k := by
  obtain ⟨-, -, e0, e1, -⟩ := idx1 t
  unfold iblk1
  rw [View.read_apply]
  show Vi c (Pipeline.arrRef spec1 1) _ = Vi c (Pipeline.arrRef spec1 1) _
  congr 1
  funext a
  apply Fin.ext
  match a with
  | ⟨0, _⟩ => show win1_1.index t 0 * 2048 + 1 * (x 0).val = (k 0).val; rw [e0, hk0]; omega
  | ⟨1, _⟩ => show win1_1.index t 1 * 128 + 1 * (x 1).val = (k 1).val; rw [e1, hk1]; omega

theorem iblk1_2_apply (c : Dev nD) (t : Fin cfg1.N) (x : S1x128.Idx) (k : S1x128.Idx)
    (hk0 : (k 0).val = (x 0).val) (hk1 : (k 1).val = (x 1).val) :
    (iblk1 Vi c 2 t : Vec Ideal S1x128 .f32) x = VB1 Vi c k := by
  obtain ⟨-, -, -, -, e0, e1, -⟩ := idx1 t
  unfold iblk1
  rw [View.read_apply]
  show Vi c (Pipeline.arrRef spec1 2) _ = Vi c (Pipeline.arrRef spec1 2) _
  congr 1
  funext a
  apply Fin.ext
  match a with
  | ⟨0, _⟩ => show win1_2.index t 0 * 1 + 1 * (x 0).val = (k 0).val; rw [e0, hk0]; omega
  | ⟨1, _⟩ => show win1_2.index t 1 * 128 + 1 * (x 1).val = (k 1).val; rw [e1, hk1]; omega

/-! ## The four column blocks of a row sum to the whole row -/

/-- The product of row `p` of A with column `q` of H at contracted position `k` (zero past the arrays). -/
def term1 (c : Dev nD) (p : Fin 8192) (q : Fin 128) (k : ℕ) : EReal :=
  if h : k < 8192 then VA1 Vi c (ix2 p ⟨k, h⟩) * VH1 Vi c (ix2 ⟨k, h⟩ q) else 0

theorem term1_sum (c : Dev nD) (p : Fin 8192) (q : Fin 128) :
    ∑ k : Fin 8192, term1 Vi c p q k.val = ∑ k : Fin 8192, VA1 Vi c (ix2 p k) * VH1 Vi c (ix2 k q) :=
  Finset.sum_congr rfl fun k _ => by unfold term1; rw [dif_pos k.isLt]

/-- A sum over 8192 positions is the sum over four blocks of 2048. -/
theorem sum_blocks1 (f : ℕ → EReal) :
    ∑ k : Fin 8192, f k.val = ∑ j : Fin 4, ∑ k : Fin 2048, f (2048 * j.val + k.val) :=
  calc ∑ k : Fin 8192, f k.val = ∑ k : Fin (4 * 2048), f k.val := rfl
    _ = ∑ x : Fin 4 × Fin 2048, f (finProdFinEquiv x).val :=
        (Equiv.sum_comp finProdFinEquiv (fun k : Fin (4 * 2048) => f k.val)).symm
    _ = ∑ j : Fin 4, ∑ k : Fin 2048, f (finProdFinEquiv (j, k)).val := Fintype.sum_prod_type _
    _ = _ := Finset.sum_congr rfl fun j _ => Finset.sum_congr rfl fun k _ => by
        refine congrArg f ?_
        show k.val + 2048 * j.val = 2048 * j.val + k.val
        omega

/-- A block product whose operands are column block `j` of row `p` of A and row block `j` of column `b` of H is
    that block's part of the row's sum. -/
theorem mmAt1 (c : Dev nD) (x0 : Vec Ideal S1024x2048 .bf16) (x1 : Vec Ideal S2048x128 .bf16) (j : ℕ) (hj : j < 4)
    (a : Fin 1024) (b : Fin 128) (p : Fin 8192)
    (h0 : ∀ (k : Fin 2048) (hlt : 2048 * j + k.val < 8192), x0 (ix2 a k) = VA1 Vi c (ix2 p ⟨2048 * j + k.val, hlt⟩))
    (h1 : ∀ (k : Fin 2048) (hlt : 2048 * j + k.val < 8192), x1 (ix2 k b) = VH1 Vi c (ix2 ⟨2048 * j + k.val, hlt⟩ b)) :
    ∑ k : Fin 2048, (x0 (ix2 a k) : EReal) * x1 (ix2 k b) = ∑ k : Fin 2048, term1 Vi c p b (2048 * j + k.val) := by
  refine Finset.sum_congr rfl fun k _ => ?_
  have hlt : 2048 * j + k.val < 8192 := by have := k.isLt; omega
  unfold term1
  rw [dif_pos hlt, h0 k hlt, h1 k hlt]

/-! ## The accumulator where the row block's last point leaves it -/

theorem accN1_succ_A (c : Dev nD) (n : ℕ) (h : n < cfg1.N) (h0 : n % 4 = 0) :
    accN1 Vi c (n + 1) = accA1 (iblk1 Vi c 0 ⟨n, h⟩) (iblk1 Vi c 1 ⟨n, h⟩) :=
  accN1_A Vi c ⟨n, h⟩ h0

theorem accN1_succ_B (c : Dev nD) (n : ℕ) (h : n < cfg1.N) (h0 : ¬n % 4 = 0) :
    accN1 Vi c (n + 1) = accB1 (iblk1 Vi c 0 ⟨n, h⟩) (iblk1 Vi c 1 ⟨n, h⟩) (accN1 Vi c n) :=
  accN1_B Vi c ⟨n, h⟩ h0

/-- After the point whose column block is 3 the accumulator holds, at row `a` of the block and column `b`, the
    whole product of row `p` of A with column `b` of H. -/
theorem accN1_flush (c : Dev nD) (t : Fin cfg1.N) (h3 : t.val % 4 = 3) (a : Fin 1024) (b : Fin 128) (p : Fin 8192)
    (hp : p.val = 1024 * (t.val / 4) + a.val) :
    (accN1 Vi c (t.val + 1) (ix2 a b) : EReal) = ∑ k : Fin 8192, VA1 Vi c (ix2 p k) * VH1 Vi c (ix2 k b) := by
  have hN : t.val < 32 := lt_of_lt_of_eq t.isLt (show cfg1.N = 32 from N_1)
  obtain ⟨n, hn⟩ : ∃ n, t.val = n + 1 + 1 + 1 := ⟨t.val - 3, by omega⟩
  have hc : cfg1.N = 32 := N_1
  have l0 : n < cfg1.N := by omega
  have l1 : n + 1 < cfg1.N := by omega
  have l2 : n + 1 + 1 < cfg1.N := by omega
  have l3 : n + 1 + 1 + 1 < cfg1.N := by omega
  have e3 := (congrFun (accN1_succ_B Vi c (n + 1 + 1 + 1) l3 (by omega)) (ix2 a b)).trans (accB1_apply _ _ _ a b)
  have e2 := (congrFun (accN1_succ_B Vi c (n + 1 + 1) l2 (by omega)) (ix2 a b)).trans (accB1_apply _ _ _ a b)
  have e1 := (congrFun (accN1_succ_B Vi c (n + 1) l1 (by omega)) (ix2 a b)).trans (accB1_apply _ _ _ a b)
  have e0 := (congrFun (accN1_succ_A Vi c n l0 (by omega)) (ix2 a b)).trans (accA1_apply _ _ a b)
  have m0 := mmAt1 Vi c (iblk1 Vi c 0 ⟨n, l0⟩) (iblk1 Vi c 1 ⟨n, l0⟩) 0 (by omega) a b p
    (fun k hlt => iblk1_0_apply Vi c ⟨n, l0⟩ (ix2 a k) (ix2 p ⟨2048 * 0 + k.val, hlt⟩)
      (by show p.val = 1024 * ((n) / 4) + a.val; omega) (by show 2048 * 0 + k.val = 2048 * ((n) % 4) + k.val; omega))
    (fun k hlt => iblk1_1_apply Vi c ⟨n, l0⟩ (ix2 k b) (ix2 ⟨2048 * 0 + k.val, hlt⟩ b)
      (by show 2048 * 0 + k.val = 2048 * ((n) % 4) + k.val; omega) rfl)
  have m1 := mmAt1 Vi c (iblk1 Vi c 0 ⟨n + 1, l1⟩) (iblk1 Vi c 1 ⟨n + 1, l1⟩) 1 (by omega) a b p
    (fun k hlt => iblk1_0_apply Vi c ⟨n + 1, l1⟩ (ix2 a k) (ix2 p ⟨2048 * 1 + k.val, hlt⟩)
      (by show p.val = 1024 * ((n + 1) / 4) + a.val; omega) (by show 2048 * 1 + k.val = 2048 * ((n + 1) % 4) + k.val; omega))
    (fun k hlt => iblk1_1_apply Vi c ⟨n + 1, l1⟩ (ix2 k b) (ix2 ⟨2048 * 1 + k.val, hlt⟩ b)
      (by show 2048 * 1 + k.val = 2048 * ((n + 1) % 4) + k.val; omega) rfl)
  have m2 := mmAt1 Vi c (iblk1 Vi c 0 ⟨n + 1 + 1, l2⟩) (iblk1 Vi c 1 ⟨n + 1 + 1, l2⟩) 2 (by omega) a b p
    (fun k hlt => iblk1_0_apply Vi c ⟨n + 1 + 1, l2⟩ (ix2 a k) (ix2 p ⟨2048 * 2 + k.val, hlt⟩)
      (by show p.val = 1024 * ((n + 1 + 1) / 4) + a.val; omega) (by show 2048 * 2 + k.val = 2048 * ((n + 1 + 1) % 4) + k.val; omega))
    (fun k hlt => iblk1_1_apply Vi c ⟨n + 1 + 1, l2⟩ (ix2 k b) (ix2 ⟨2048 * 2 + k.val, hlt⟩ b)
      (by show 2048 * 2 + k.val = 2048 * ((n + 1 + 1) % 4) + k.val; omega) rfl)
  have m3 := mmAt1 Vi c (iblk1 Vi c 0 ⟨n + 1 + 1 + 1, l3⟩) (iblk1 Vi c 1 ⟨n + 1 + 1 + 1, l3⟩) 3 (by omega) a b p
    (fun k hlt => iblk1_0_apply Vi c ⟨n + 1 + 1 + 1, l3⟩ (ix2 a k) (ix2 p ⟨2048 * 3 + k.val, hlt⟩)
      (by show p.val = 1024 * ((n + 1 + 1 + 1) / 4) + a.val; omega) (by show 2048 * 3 + k.val = 2048 * ((n + 1 + 1 + 1) % 4) + k.val; omega))
    (fun k hlt => iblk1_1_apply Vi c ⟨n + 1 + 1 + 1, l3⟩ (ix2 k b) (ix2 ⟨2048 * 3 + k.val, hlt⟩ b)
      (by show 2048 * 3 + k.val = 2048 * ((n + 1 + 1 + 1) % 4) + k.val; omega) rfl)
  rw [hn, e3, e2, e1, e0, m0, m1, m2, m3, zero_add, ← term1_sum Vi c p b, sum_blocks1 (term1 Vi c p b), Fin.sum_univ_four]
  rfl

/-! ## The write-backs and the array -/

/-- Entry (p, q) of the result: the row of A times the column of H, plus the bias, clamped below at zero. -/
def g1 (c : Dev nD) (p : Fin 8192) (q : Fin 128) : EReal :=
  max ((∑ k : Fin 8192, VA1 Vi c (ix2 p k) * VH1 Vi c (ix2 k q)) + VB1 Vi c (ix2 0 q)) 0

/-- The result array, index by index. -/
abbrev G1 (c : Dev nD) : S8192x128.Idx → EReal := fun i => g1 Vi c (i 0) (i 1)

/-- What a point that writes back writes is its block of the result. -/
theorem flushed1_eq (c : Dev nD) (t : Fin cfg1.N) (hf : (cfg1.win 3).flush t = true) :
    (dat1 (F := Ideal) Vi c).flushed 3 t = ((cfg1.win 3).blk t).view.read (Elt Ideal) (G1 Vi c) := by
  have h3 : t.val % 4 = 3 := (flush1_3 t).mp hf
  have hN : t.val < 32 := lt_of_lt_of_eq t.isLt (show cfg1.N = 32 from N_1)
  obtain ⟨-, -, -, -, -, -, e6, e7⟩ := idx1 t
  show (cfg1.win 3).cut (grid1.coords t) ((dat1 (F := Ideal) Vi c).after 3 t) = _
  rw [after1_3]
  funext y
  obtain ⟨a, b, rfl⟩ : ∃ (a : Fin 1024) (b : Fin 128), y = ix2 a b := ⟨y 0, y 1, eq_ix2 y⟩
  have hP : 1024 * (t.val / 4) + a.val < 8192 := by have := a.isLt; omega
  have e : ((cfg1.win 3).blk t).view.emb (ix2 a b) = (ix2 (⟨1024 * (t.val / 4) + a.val, hP⟩ : Fin 8192) b : S8192x128.Idx) :=
    funext fun d => Fin.ext (by
      match d with
      | ⟨0, _⟩ => show win1_3.index t 0 * 1024 + 1 * a.val = 1024 * (t.val / 4) + a.val; rw [e6]; omega
      | ⟨1, _⟩ => show win1_3.index t 1 * 128 + 1 * b.val = b.val; rw [e7]; omega)
  rw [View.read_apply]
  show (out1_3 (accN1 Vi c (t.val + 1)) (iblk1 Vi c 2 t) (ix2 a b) : EReal) = G1 Vi c (((cfg1.win 3).blk t).view.emb (ix2 a b))
  rw [e]
  refine (out1_3_apply _ _ a b).trans ?_
  show _ = g1 Vi c ⟨1024 * (t.val / 4) + a.val, hP⟩ b
  unfold g1
  rw [accN1_flush Vi c t h3 a b ⟨1024 * (t.val / 4) + a.val, hP⟩ rfl,
    iblk1_2_apply Vi c t (ix2 0 b) (ix2 0 b) rfl rfl]

/-- An index of the result array is in point `t`'s block iff each coordinate is in the block's range on its axis. -/
theorem mem_blk1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v54).slice (win1_3.rect t)).set ↔ _
  rw [View.set_slice_whole, Rect.mem_set_unit]
  exact Iff.rfl

/-- THE ARRAY after the region: the result, index by index. -/
theorem arrAt1_final (c : Dev nD) : (dat1 (F := Ideal) Vi c).arrAt 3 cfg1.N = G1 Vi c :=
  (dat1 (F := Ideal) Vi c).arrAt_eq_of_cover 3 (G1 Vi c) (flushed1_eq Vi c) fun i => by
    have hi0 : (i 0).val < 8192 := (i 0).isLt
    have hi1 : (i 1).val < 128 := (i 1).isLt
    have hc : cfg1.N = 32 := N_1
    have ht : 4 * ((i 0).val / 1024) + 3 < cfg1.N := by omega
    obtain ⟨-, -, -, -, -, -, e6, e7⟩ := idx1 ⟨4 * ((i 0).val / 1024) + 3, ht⟩
    refine ⟨⟨4 * ((i 0).val / 1024) + 3, ht⟩, (flush1_3 _).mpr (by show (4 * ((i 0).val / 1024) + 3) % 4 = 3; omega), ?_⟩
    refine (mem_blk1 _ i).mpr fun a => ?_
    match a with
    | ⟨0, _⟩ =>
      show win1_3.index ⟨4 * ((i 0).val / 1024) + 3, ht⟩ (0 : Fin 2) * 1024 ≤ (i 0).val ∧ (i 0).val < win1_3.index ⟨4 * ((i 0).val / 1024) + 3, ht⟩ (0 : Fin 2) * 1024 + 1024
      rw [e6]; show (4 * ((i 0).val / 1024) + 3) / 4 * 1024 ≤ (i 0).val ∧ (i 0).val < (4 * ((i 0).val / 1024) + 3) / 4 * 1024 + 1024; omega
    | ⟨1, _⟩ =>
      show win1_3.index ⟨4 * ((i 0).val / 1024) + 3, ht⟩ (1 : Fin 2) * 128 ≤ (i 1).val ∧ (i 1).val < win1_3.index ⟨4 * ((i 0).val / 1024) + 3, ht⟩ (1 : Fin 2) * 128 + 128
      rw [e7]; omega

/-- THE REGION'S VALUE: entry (p, q) of the output array after the region (`VA1`, `VH1`, `VB1`: the three
    input arrays as the region finds them, `Vi c (Pipeline.arrRef spec1 w)` read at literal index types). -/
theorem final1 (c : Dev nD) (p : Fin 8192) (q : Fin 128) :
    (dat1 (F := Ideal) Vi c).arrAt 3 cfg1.N (ix2 p q)
      = max ((∑ k : Fin 8192, VA1 Vi c (ix2 p k) * VH1 Vi c (ix2 k q)) + VB1 Vi c (ix2 0 q)) 0 := by
  rw [arrAt1_final Vi c]
  rfl

end Value

end Cert.KernelIdeal.Hand

end
-- ==== Proof.KI.Final2.lean ====
import proofs.«179362_j6141803233546_1_alg».proof.Proof.KI.Region2
import Idealize.ShloMosaic.PureOps.Ideal.Laws
import Idealize.ShloMosaic.Lib.ValueIdx

/-! # Region 2 at the ideal numbers: the output array is the matrix product of the two input arrays -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The region's value at the ideal numbers

Read at the ideal numbers, rounding is the identity and a matrix product into a zero accumulator is the plain sum of
products. Each grid point writes back one row block of the product of the two input arrays, and the eight row blocks
tile the output array: after the region the output array IS the matrix product of the two input arrays as the region
found them. -/

section Value

open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The operand entries that entry `y` of a block product reads at contraction coordinate `k`: row `y 0` of the left
    block, column `y 1` of the right one. -/
abbrev li2 (y : S1024x128.Idx) (k : Fin 128) : S1024x128.Idx := fun a => match a with
  | ⟨0, _⟩ => ⟨(y 0).val, (y 0).isLt⟩
  | ⟨1, _⟩ => ⟨k.val, k.isLt⟩
abbrev ri2 (y : S1024x128.Idx) (k : Fin 128) : S128x128.Idx := fun a => match a with
  | ⟨0, _⟩ => ⟨k.val, k.isLt⟩
  | ⟨1, _⟩ => ⟨(y 1).val, (y 1).isLt⟩

theorem lhs2_0 (y : S1024x128.Idx) (q : dot_S1024x128_S128x128_S1024x128_1_0_0_1_n_n.contr.Idx) : (dot_S1024x128_S128x128_S1024x128_1_0_0_1_n_n.lhsIdx y q 0).val = (y 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs2_1 (y : S1024x128.Idx) (q : dot_S1024x128_S128x128_S1024x128_1_0_0_1_n_n.contr.Idx) : (dot_S1024x128_S128x128_S1024x128_1_0_0_1_n_n.lhsIdx y q 1).val = (q ⟨0, by decide⟩).val :=
  dot_S1024x128_S128x128_S1024x128_1_0_0_1_n_n.lhsIdx_val_of_single rfl y q
theorem rhs2_0 (y : S1024x128.Idx) (q : dot_S1024x128_S128x128_S1024x128_1_0_0_1_n_n.contr.Idx) : (dot_S1024x128_S128x128_S1024x128_1_0_0_1_n_n.rhsIdx y q 0).val = (q ⟨0, by decide⟩).val :=
  dot_S1024x128_S128x128_S1024x128_1_0_0_1_n_n.rhsIdx_val_of_single rfl y q
theorem rhs2_1 (y : S1024x128.Idx) (q : dot_S1024x128_S128x128_S1024x128_1_0_0_1_n_n.contr.Idx) : (dot_S1024x128_S128x128_S1024x128_1_0_0_1_n_n.rhsIdx y q 1).val = (y 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The body's payload, entry by entry: the sum over the contraction coordinate of the operands' products. -/
theorem pay2_at (x0 : S1024x128.Idx → EReal) (x1 : S128x128.Idx → EReal) (y : S1024x128.Idx) :
    k2_pay1 (F := Ideal) x0 x1 y = ∑ k : Fin 128, x0 (li2 y k) * x1 (ri2 y k) := by
  show FloatOps.matmul (F := Ideal) (φ₁ := .bf16) (φ₂ := .bf16) dot_S1024x128_S128x128_S1024x128_1_0_0_1_n_n none (shapeCast S1024x128 x0 _) (shapeCast S128x128 x1 _)
    (constant S1024x128 .f32 0x00000000#32) y = _
  rw [shapeCast_self, shapeCast_self, Ideal.matmul_constant_zero_apply,
    ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx y ((contrEquiv1 dot_S1024x128_S128x128_S1024x128_1_0_0_1_n_n 128 rfl rfl).symm k) = li2 y k := funext fun a => Fin.ext (by
    match a with
    | ⟨0, _⟩ => exact lhs2_0 _ _
    | ⟨1, _⟩ => exact (lhs2_1 _ _).trans hk)
  have er : dot_S1024x128_S128x128_S1024x128_1_0_0_1_n_n.rhsIdx y ((contrEquiv1 dot_S1024x128_S128x128_S1024x128_1_0_0_1_n_n 128 rfl rfl).symm k) = ri2 y k := funext fun a => Fin.ext (by
    match a with
    | ⟨0, _⟩ => exact (rhs2_0 _ _).trans hk
    | ⟨1, _⟩ => exact rhs2_1 _ _)
  rw [el, er]

/-- The array entries that entry `i` of the product of two arrays reads at contraction coordinate `k`. -/
abbrev Li2 (i : S8192x128.Idx) (k : Fin 128) : S8192x128.Idx := fun a => match a with
  | ⟨0, _⟩ => ⟨(i 0).val, (i 0).isLt⟩
  | ⟨1, _⟩ => ⟨k.val, k.isLt⟩
abbrev Ri2 (i : S8192x128.Idx) (k : Fin 128) : S128x128.Idx := fun a => match a with
  | ⟨0, _⟩ => ⟨k.val, k.isLt⟩
  | ⟨1, _⟩ => ⟨(i 1).val, (i 1).isLt⟩

/-- The matrix product of two arrays, entry by entry. -/
def G2 (a0 : S8192x128.Idx → EReal) (a1 : S128x128.Idx → EReal) : S8192x128.Idx → EReal :=
  fun i => ∑ k : Fin 128, a0 (Li2 i k) * a1 (Ri2 i k)

/-- The printed index maps over the grid: the left operand's row block moves with the output's, every other block
    coordinate stays at zero, and the output's row block index is below 8. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 7 :=
  (by decide +kernel : ∀ t : Fin grid2.N, _)

/-- Every row block of the output is some point's. -/
theorem idx_onto2 : ∀ (q0 : Fin 8), ∃ t : Fin cfg2.N, win2_2.index t = ![q0.val, 0] :=
  (by decide +kernel : ∀ (q0 : Fin 8), ∃ t : Fin grid2.N, win2_2.index t = ![q0.val, 0])

/-- An entry of an input window's block is the array's entry at the block's place. -/
theorem iblk2_0_apply (c : Dev nD) (t : Fin cfg2.N) (y : S1024x128.Idx) :
    (iblk2 V c 0 t : S1024x128.Idx → EReal) y = (V c (Pipeline.arrRef spec2 0) : S8192x128.Idx → EReal) (((cfg2.win 0).blk t).view.emb y) := rfl
theorem iblk2_1_apply (c : Dev nD) (t : Fin cfg2.N) (y : S128x128.Idx) :
    (iblk2 V c 1 t : S128x128.Idx → EReal) y = (V c (Pipeline.arrRef spec2 1) : S128x128.Idx → EReal) (((cfg2.win 1).blk t).view.emb y) := rfl
/-- An entry of the output window's block of any array is the array's entry at the block's place. -/
theorem read_blk2_2 (t : Fin cfg2.N) (A : S8192x128.Idx → EReal) (j : ((cfg2.win 2).xblock (cfg2.grid.coords t)).Idx) :
    (((cfg2.win 2).blk t).view.read (Elt Ideal) A : _ → EReal) j = A (((cfg2.win 2).blk t).view.emb j) := rfl

set_option maxHeartbeats 1000000 in
/-- What point `t` writes back is its row block of the product of the two input arrays. -/
theorem flushed2_eq (c : Dev nD) (t : Fin cfg2.N) :
    (dat2 (F := Ideal) V c).flushed 2 t
      = ((cfg2.win 2).blk t).view.read (Elt Ideal) (G2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S1024x128) hz2, View.ld_unit_zero (S := S128x128) hz2]
  obtain ⟨e0, e1, e2, e3, e4, e5⟩ := idx_facts2 t
  funext j
  refine (pay2_at (iblk2 V c 0 t) (iblk2 V c 1 t) _).trans ?_
  refine Eq.trans ?_ (read_blk2_2 t (G2 (V c (Pipeline.arrRef spec2 0)) (V c (Pipeline.arrRef spec2 1))) j).symm
  unfold G2
  refine Finset.sum_congr rfl fun k _ => ?_
  have h0 : ((cfg2.win 0).blk t).view.emb (li2 ((cfg2.win 2).xinj (grid2.coords t) j) k)
      = Li2 (((cfg2.win 2).blk t).view.emb j) k := by
    funext a; apply Fin.ext
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 128 + 1 * k.val = k.val; omega
  have h1 : ((cfg2.win 1).blk t).view.emb (ri2 ((cfg2.win 2).xinj (grid2.coords t) j) k)
      = Ri2 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [iblk2_0_apply, iblk2_1_apply, h0, h1]

/-- An index of the output array is in point `t`'s block iff each coordinate is in the block's range on its axis. -/
theorem mem_blk2 (t : Fin cfg2.N) (i : S8192x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v55).slice (win2_2.rect t)).set ↔ _
  rw [View.set_slice_whole, Rect.mem_set_unit]
  exact Iff.rfl

/-- The eight row blocks tile the output array: row `r` lies in the block of the point whose row block index is `r / 1024`. -/
theorem cover2_arr (i : S8192x128.Idx) :
    ∃ t : Fin cfg2.N, (cfg2.win 2).flush t = true ∧ i ∈ ((cfg2.win 2).blk t).view.set := by
  have hi0 : (i 0).val < 8192 := (i 0).isLt
  have hi1 : (i 1).val < 128 := (i 1).isLt
  obtain ⟨t, ht⟩ := idx_onto2 ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-- After the region the output array is the product of the two input arrays as the region found them. -/
theorem final2_arr (c : Dev nD) :
    (dat2 (F := Ideal) V c).arrAt 2 cfg2.N = G2 (V c (Pipeline.arrRef spec2 0)) (V c (Pipeline.arrRef spec2 1)) :=
  (dat2 V c).arrAt_eq_of_cover 2 _ (fun t _ => flushed2_eq V c t) cover2_arr

/-- The product of two arrays at row `p`, column `q`: the sum over `k` of the left array's entry at (p, k) times the
    right array's at (k, q). -/
theorem G2_apply (a0 : S8192x128.Idx → EReal) (a1 : S128x128.Idx → EReal) (p : Fin 8192) (q : Fin 128) :
    G2 a0 a1 (ix2 p q) = ∑ k : Fin 128, a0 (ix2 p k) * a1 (ix2 k q) := by
  unfold G2
  refine Finset.sum_congr rfl fun k _ => ?_
  have hl : Li2 (ix2 p q) k = ix2 p k := funext fun a => by match a with | ⟨0, _⟩ => rfl | ⟨1, _⟩ => rfl
  have hr : Ri2 (ix2 p q) k = ix2 k q := funext fun a => by match a with | ⟨0, _⟩ => rfl | ⟨1, _⟩ => rfl
  rw [hl, hr]

/-- The region's two input arrays as it finds them and its output array as it leaves it, as plain functions of the index. -/
abbrev arrIn2_0 (c : Dev nD) : S8192x128.Idx → EReal := V c (Pipeline.arrRef spec2 0)
abbrev arrIn2_1 (c : Dev nD) : S128x128.Idx → EReal := V c (Pipeline.arrRef spec2 1)
abbrev arrOut2 (c : Dev nD) : S8192x128.Idx → EReal := (dat2 (F := Ideal) V c).arrAt 2 cfg2.N

/-- Entry by entry: row `p`, column `q` of the output array is the sum over `k` of the products of the left array's
    entry at (p, k) and the right array's at (k, q). -/
theorem final2 (c : Dev nD) (p : Fin 8192) (q : Fin 128) :
    arrOut2 V c (ix2 p q) = ∑ k : Fin 128, arrIn2_0 V c (ix2 p k) * arrIn2_1 V c (ix2 k q) :=
  (congrFun (final2_arr V c) (ix2 p q)).trans (G2_apply _ _ p q)

end Value

end Cert.KernelIdeal.Hand

end
-- ==== Proof.KI.Final3.lean ====
import proofs.«179362_j6141803233546_1_alg».proof.Proof.KI.Region3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The region's value at the ideal instance: O = max(A·H + b, 0), index by index -/

section Value

open ValueIdx

variable (Vi : (c : Dev nD) → (b : Ref sig .tc) → Buf (Elt Ideal) ((c : Thread nD τ).loc b))

theorem hz3 : (![0, 0] : Fin 2 → Nat) = fun _ => 0 := funext fun a => by fin_cases a <;> rfl

/-! ## The product of two blocks at an index -/

theorem lhs3_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

theorem rhs3_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero accumulator, at row `a` and column `b`: the sum over the 2048 contracted
    positions of the products. -/
theorem mm3_apply (x0 : FVec Ideal S1024x2048 .bf16) (x1 : FVec Ideal S2048x128 .bf16) (a : Fin 1024) (b : Fin 128) :
    matmul dot_S1024x2048_S2048x128_S1024x128_1_0_0_1_n_n none x0 x1 (constant S1024x128 .f32 0x00000000#32) (ix2 a b)
      = ∑ k : Fin 2048, x0 (ix2 a k) * x1 (ix2 k b) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 a b) ((ValueIdx.contrEquiv1 dot_S1024x2048_S2048x128_S1024x128_1_0_0_1_n_n 2048 rfl rfl).symm k) = ix2 a k := funext fun d => Fin.ext (by
    match d with
    | ⟨0, _⟩ => exact lhs3_0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 a b) ((ValueIdx.contrEquiv1 dot_S1024x2048_S2048x128_S1024x128_1_0_0_1_n_n 2048 rfl rfl).symm k) = ix2 k b := funext fun d => Fin.ext (by
    match d with
    | ⟨0, _⟩ => exact (dot_S1024x2048_S2048x128_S1024x128_1_0_0_1_n_n.rhsIdx_val_of_single rfl _ _).trans hk
    | ⟨1, _⟩ => exact rhs3_1 _ _)
  rw [el, er]

/-! ## What the body leaves, at an index -/

theorem accA3_apply (x0 : Vec Ideal S1024x2048 .bf16) (x1 : Vec Ideal S2048x128 .bf16) (a : Fin 1024) (b : Fin 128) :
    accA3 x0 x1 (ix2 a b) = 0 + ∑ k : Fin 2048, (x0 (ix2 a k) : EReal) * x1 (ix2 k b) := by
  unfold accA3
  rw [View.canon_cons_unit_zero hz3]
  unfold k3_pay2 k3_pay1
  simp only [View.canon_unit_zero (S := S1024x128) hz3, View.ld_unit_zero (S := S1024x2048) hz3, View.ld_unit_zero (S := S2048x128) hz3, View.ld_unit_zero (S := S1024x128) hz3, shapeCast_self]
  show Ideal.ofBits .f32 0x00000000#32 + matmul (F := Ideal) dot_S1024x2048_S2048x128_S1024x128_1_0_0_1_n_n none x0 x1 (constant (F := Ideal) S1024x128 .f32 0x00000000#32) (ix2 a b) = _
  rw [Ideal.ofBits_zero_f32, mm3_apply]

theorem accB3_apply (x0 : Vec Ideal S1024x2048 .bf16) (x1 : Vec Ideal S2048x128 .bf16) (acc : Vec Ideal S1024x128 .f32) (a : Fin 1024) (b : Fin 128) :
    accB3 x0 x1 acc (ix2 a b) = (acc (ix2 a b) : EReal) + ∑ k : Fin 2048, (x0 (ix2 a k) : EReal) * x1 (ix2 k b) := by
  unfold accB3
  rw [View.canon_unit_zero hz3]
  unfold k3_pay2
  simp only [View.ld_unit_zero (S := S1024x2048) hz3, View.ld_unit_zero (S := S2048x128) hz3, View.ld_unit_zero (S := S1024x128) hz3, shapeCast_self]
  show (acc (ix2 a b) : EReal) + matmul (F := Ideal) dot_S1024x2048_S2048x128_S1024x128_1_0_0_1_n_n none x0 x1 (constant (F := Ideal) S1024x128 .f32 0x00000000#32) (ix2 a b) = _
  rw [mm3_apply]

theorem out3_3_apply (acc : Vec Ideal S1024x128 .f32) (x2 : Vec Ideal S1x128 .f32) (a : Fin 1024) (b : Fin 128) :
    (out3_3 acc x2 (ix2 a b) : EReal) = max ((acc (ix2 a b) : EReal) + x2 (ix2 0 b)) 0 := by
  unfold out3_3
  rw [View.canon_unit_zero hz3]
  unfold k3_pay3
  simp only [View.ld_unit_zero (S := S1024x128) hz3, View.ld_unit_zero (S := S1x128) hz3, shapeCast_self]
  show max ((acc (ix2 a b) : EReal) + broadcastTo S1024x128 x2 broadcasts_S1x128_S1024x128 (ix2 a b)) (Ideal.ofBits .f32 0x00000000#32) = _
  rw [Ideal.ofBits_zero_f32, broadcastTo_apply x2 _ (ix2 a b) (ix2 0 b) (fun d => by
    match d with
    | ⟨0, _⟩ => rfl
    | ⟨1, _⟩ => rfl)]

/-! ## The windows' blocks as entries of their arrays -/

/-- The printed index maps, decided over the grid: point `t` is row block `t / 4`, column block `t % 4`. -/
theorem idx3 : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

/-- The three input arrays as the region finds them, read as functions of a literal index. -/
abbrev VA3 (c : Dev nD) : S8192x8192.Idx → EReal := Vi c (Pipeline.arrRef spec3 0)
abbrev VH3 (c : Dev nD) : S8192x128.Idx → EReal := Vi c (Pipeline.arrRef spec3 1)
abbrev VB3 (c : Dev nD) : S1x128.Idx → EReal := Vi c (Pipeline.arrRef spec3 2)

theorem iblk3_0_apply (c : Dev nD) (t : Fin cfg3.N) (x : S1024x2048.Idx) (k : S8192x8192.Idx)
    (hk0 : (k 0).val = 1024 * (t.val / 4) + (x 0).val) (hk1 : (k 1).val = 2048 * (t.val % 4) + (x 1).val) :
    (iblk3 Vi c 0 t : Vec Ideal S1024x2048 .bf16) x = VA3 Vi c k := by
  obtain ⟨e0, e1, -⟩ := idx3 t
  unfold iblk3
  rw [View.read_apply]
  show Vi c (Pipeline.arrRef spec3 0) _ = Vi c (Pipeline.arrRef spec3 0) _
  congr 1
  funext a
  apply Fin.ext
  match a with
  | ⟨0, _⟩ => show win3_0.index t 0 * 1024 + 1 * (x 0).val = (k 0).val; rw [e0, hk0]; omega
  | ⟨1, _⟩ => show win3_0.index t 1 * 2048 + 1 * (x 1).val = (k 1).val; rw [e1, hk1]; omega

theorem iblk3_1_apply (c : Dev nD) (t : Fin cfg3.N) (x : S2048x128.Idx) (k : S8192x128.Idx)
    (hk0 : (k 0).val = 2048 * (t.val % 4) + (x 0).val) (hk1 : (k 1).val = (x 1).val) :
    (iblk3 Vi c 1 t : Vec Ideal S2048x128 .bf16) x = VH3 Vi c k := by
  obtain ⟨-, -, e0, e1, -⟩ := idx3 t
  unfold iblk3
  rw [View.read_apply]
  show Vi c (Pipeline.arrRef spec3 1) _ = Vi c (Pipeline.arrRef spec3 1) _
  congr 1
  funext a
  apply Fin.ext
  match a with
  | ⟨0, _⟩ => show win3_1.index t 0 * 2048 + 1 * (x 0).val = (k 0).val; rw [e0, hk0]; omega
  | ⟨1, _⟩ => show win3_1.index t 1 * 128 + 1 * (x 1).val = (k 1).val; rw [e1, hk1]; omega

theorem iblk3_2_apply (c : Dev nD) (t : Fin cfg3.N) (x : S1x128.Idx) (k : S1x128.Idx)
    (hk0 : (k 0).val = (x 0).val) (hk1 : (k 1).val = (x 1).val) :
    (iblk3 Vi c 2 t : Vec Ideal S1x128 .f32) x = VB3 Vi c k := by
  obtain ⟨-, -, -, -, e0, e1, -⟩ := idx3 t
  unfold iblk3
  rw [View.read_apply]
  show Vi c (Pipeline.arrRef spec3 2) _ = Vi c (Pipeline.arrRef spec3 2) _
  congr 1
  funext a
  apply Fin.ext
  match a with
  | ⟨0, _⟩ => show win3_2.index t 0 * 1 + 1 * (x 0).val = (k 0).val; rw [e0, hk0]; omega
  | ⟨1, _⟩ => show win3_2.index t 1 * 128 + 1 * (x 1).val = (k 1).val; rw [e1, hk1]; omega

/-! ## The four column blocks of a row sum to the whole row -/

/-- The product of row `p` of A with column `q` of H at contracted position `k` (zero past the arrays). -/
def term3 (c : Dev nD) (p : Fin 8192) (q : Fin 128) (k : ℕ) : EReal :=
  if h : k < 8192 then VA3 Vi c (ix2 p ⟨k, h⟩) * VH3 Vi c (ix2 ⟨k, h⟩ q) else 0

theorem term3_sum (c : Dev nD) (p : Fin 8192) (q : Fin 128) :
    ∑ k : Fin 8192, term3 Vi c p q k.val = ∑ k : Fin 8192, VA3 Vi c (ix2 p k) * VH3 Vi c (ix2 k q) :=
  Finset.sum_congr rfl fun k _ => by unfold term3; rw [dif_pos k.isLt]

/-- A sum over 8192 positions is the sum over four blocks of 2048. -/
theorem sum_blocks3 (f : ℕ → EReal) :
    ∑ k : Fin 8192, f k.val = ∑ j : Fin 4, ∑ k : Fin 2048, f (2048 * j.val + k.val) :=
  calc ∑ k : Fin 8192, f k.val = ∑ k : Fin (4 * 2048), f k.val := rfl
    _ = ∑ x : Fin 4 × Fin 2048, f (finProdFinEquiv x).val :=
        (Equiv.sum_comp finProdFinEquiv (fun k : Fin (4 * 2048) => f k.val)).symm
    _ = ∑ j : Fin 4, ∑ k : Fin 2048, f (finProdFinEquiv (j, k)).val := Fintype.sum_prod_type _
    _ = _ := Finset.sum_congr rfl fun j _ => Finset.sum_congr rfl fun k _ => by
        refine congrArg f ?_
        show k.val + 2048 * j.val = 2048 * j.val + k.val
        omega

/-- A block product whose operands are column block `j` of row `p` of A and row block `j` of column `b` of H is
    that block's part of the row's sum. -/
theorem mmAt3 (c : Dev nD) (x0 : Vec Ideal S1024x2048 .bf16) (x1 : Vec Ideal S2048x128 .bf16) (j : ℕ) (hj : j < 4)
    (a : Fin 1024) (b : Fin 128) (p : Fin 8192)
    (h0 : ∀ (k : Fin 2048) (hlt : 2048 * j + k.val < 8192), x0 (ix2 a k) = VA3 Vi c (ix2 p ⟨2048 * j + k.val, hlt⟩))
    (h1 : ∀ (k : Fin 2048) (hlt : 2048 * j + k.val < 8192), x1 (ix2 k b) = VH3 Vi c (ix2 ⟨2048 * j + k.val, hlt⟩ b)) :
    ∑ k : Fin 2048, (x0 (ix2 a k) : EReal) * x1 (ix2 k b) = ∑ k : Fin 2048, term3 Vi c p b (2048 * j + k.val) := by
  refine Finset.sum_congr rfl fun k _ => ?_
  have hlt : 2048 * j + k.val < 8192 := by have := k.isLt; omega
  unfold term3
  rw [dif_pos hlt, h0 k hlt, h1 k hlt]

/-! ## The accumulator where the row block's last point leaves it -/

theorem accN3_succ_A (c : Dev nD) (n : ℕ) (h : n < cfg3.N) (h0 : n % 4 = 0) :
    accN3 Vi c (n + 1) = accA3 (iblk3 Vi c 0 ⟨n, h⟩) (iblk3 Vi c 1 ⟨n, h⟩) :=
  accN3_A Vi c ⟨n, h⟩ h0

theorem accN3_succ_B (c : Dev nD) (n : ℕ) (h : n < cfg3.N) (h0 : ¬n % 4 = 0) :
    accN3 Vi c (n + 1) = accB3 (iblk3 Vi c 0 ⟨n, h⟩) (iblk3 Vi c 1 ⟨n, h⟩) (accN3 Vi c n) :=
  accN3_B Vi c ⟨n, h⟩ h0

/-- After the point whose column block is 3 the accumulator holds, at row `a` of the block and column `b`, the
    whole product of row `p` of A with column `b` of H. -/
theorem accN3_flush (c : Dev nD) (t : Fin cfg3.N) (h3 : t.val % 4 = 3) (a : Fin 1024) (b : Fin 128) (p : Fin 8192)
    (hp : p.val = 1024 * (t.val / 4) + a.val) :
    (accN3 Vi c (t.val + 1) (ix2 a b) : EReal) = ∑ k : Fin 8192, VA3 Vi c (ix2 p k) * VH3 Vi c (ix2 k b) := by
  have hN : t.val < 32 := lt_of_lt_of_eq t.isLt (show cfg3.N = 32 from N_3)
  obtain ⟨n, hn⟩ : ∃ n, t.val = n + 1 + 1 + 1 := ⟨t.val - 3, by omega⟩
  have hc : cfg3.N = 32 := N_3
  have l0 : n < cfg3.N := by omega
  have l1 : n + 1 < cfg3.N := by omega
  have l2 : n + 1 + 1 < cfg3.N := by omega
  have l3 : n + 1 + 1 + 1 < cfg3.N := by omega
  have e3 := (congrFun (accN3_succ_B Vi c (n + 1 + 1 + 1) l3 (by omega)) (ix2 a b)).trans (accB3_apply _ _ _ a b)
  have e2 := (congrFun (accN3_succ_B Vi c (n + 1 + 1) l2 (by omega)) (ix2 a b)).trans (accB3_apply _ _ _ a b)
  have e1 := (congrFun (accN3_succ_B Vi c (n + 1) l1 (by omega)) (ix2 a b)).trans (accB3_apply _ _ _ a b)
  have e0 := (congrFun (accN3_succ_A Vi c n l0 (by omega)) (ix2 a b)).trans (accA3_apply _ _ a b)
  have m0 := mmAt3 Vi c (iblk3 Vi c 0 ⟨n, l0⟩) (iblk3 Vi c 1 ⟨n, l0⟩) 0 (by omega) a b p
    (fun k hlt => iblk3_0_apply Vi c ⟨n, l0⟩ (ix2 a k) (ix2 p ⟨2048 * 0 + k.val, hlt⟩)
      (by show p.val = 1024 * ((n) / 4) + a.val; omega) (by show 2048 * 0 + k.val = 2048 * ((n) % 4) + k.val; omega))
    (fun k hlt => iblk3_1_apply Vi c ⟨n, l0⟩ (ix2 k b) (ix2 ⟨2048 * 0 + k.val, hlt⟩ b)
      (by show 2048 * 0 + k.val = 2048 * ((n) % 4) + k.val; omega) rfl)
  have m1 := mmAt3 Vi c (iblk3 Vi c 0 ⟨n + 1, l1⟩) (iblk3 Vi c 1 ⟨n + 1, l1⟩) 1 (by omega) a b p
    (fun k hlt => iblk3_0_apply Vi c ⟨n + 1, l1⟩ (ix2 a k) (ix2 p ⟨2048 * 1 + k.val, hlt⟩)
      (by show p.val = 1024 * ((n + 1) / 4) + a.val; omega) (by show 2048 * 1 + k.val = 2048 * ((n + 1) % 4) + k.val; omega))
    (fun k hlt => iblk3_1_apply Vi c ⟨n + 1, l1⟩ (ix2 k b) (ix2 ⟨2048 * 1 + k.val, hlt⟩ b)
      (by show 2048 * 1 + k.val = 2048 * ((n + 1) % 4) + k.val; omega) rfl)
  have m2 := mmAt3 Vi c (iblk3 Vi c 0 ⟨n + 1 + 1, l2⟩) (iblk3 Vi c 1 ⟨n + 1 + 1, l2⟩) 2 (by omega) a b p
    (fun k hlt => iblk3_0_apply Vi c ⟨n + 1 + 1, l2⟩ (ix2 a k) (ix2 p ⟨2048 * 2 + k.val, hlt⟩)
      (by show p.val = 1024 * ((n + 1 + 1) / 4) + a.val; omega) (by show 2048 * 2 + k.val = 2048 * ((n + 1 + 1) % 4) + k.val; omega))
    (fun k hlt => iblk3_1_apply Vi c ⟨n + 1 + 1, l2⟩ (ix2 k b) (ix2 ⟨2048 * 2 + k.val, hlt⟩ b)
      (by show 2048 * 2 + k.val = 2048 * ((n + 1 + 1) % 4) + k.val; omega) rfl)
  have m3 := mmAt3 Vi c (iblk3 Vi c 0 ⟨n + 1 + 1 + 1, l3⟩) (iblk3 Vi c 1 ⟨n + 1 + 1 + 1, l3⟩) 3 (by omega) a b p
    (fun k hlt => iblk3_0_apply Vi c ⟨n + 1 + 1 + 1, l3⟩ (ix2 a k) (ix2 p ⟨2048 * 3 + k.val, hlt⟩)
      (by show p.val = 1024 * ((n + 1 + 1 + 1) / 4) + a.val; omega) (by show 2048 * 3 + k.val = 2048 * ((n + 1 + 1 + 1) % 4) + k.val; omega))
    (fun k hlt => iblk3_1_apply Vi c ⟨n + 1 + 1 + 1, l3⟩ (ix2 k b) (ix2 ⟨2048 * 3 + k.val, hlt⟩ b)
      (by show 2048 * 3 + k.val = 2048 * ((n + 1 + 1 + 1) % 4) + k.val; omega) rfl)
  rw [hn, e3, e2, e1, e0, m0, m1, m2, m3, zero_add, ← term3_sum Vi c p b, sum_blocks3 (term3 Vi c p b), Fin.sum_univ_four]
  rfl

/-! ## The write-backs and the array -/

/-- Entry (p, q) of the result: the row of A times the column of H, plus the bias, clamped below at zero. -/
def g3 (c : Dev nD) (p : Fin 8192) (q : Fin 128) : EReal :=
  max ((∑ k : Fin 8192, VA3 Vi c (ix2 p k) * VH3 Vi c (ix2 k q)) + VB3 Vi c (ix2 0 q)) 0

/-- The result array, index by index. -/
abbrev G3 (c : Dev nD) : S8192x128.Idx → EReal := fun i => g3 Vi c (i 0) (i 1)

/-- What a point that writes back writes is its block of the result. -/
theorem flushed3_eq (c : Dev nD) (t : Fin cfg3.N) (hf : (cfg3.win 3).flush t = true) :
    (dat3 (F := Ideal) Vi c).flushed 3 t = ((cfg3.win 3).blk t).view.read (Elt Ideal) (G3 Vi c) := by
  have h3 : t.val % 4 = 3 := (flush3_3 t).mp hf
  have hN : t.val < 32 := lt_of_lt_of_eq t.isLt (show cfg3.N = 32 from N_3)
  obtain ⟨-, -, -, -, -, -, e6, e7⟩ := idx3 t
  show (cfg3.win 3).cut (grid3.coords t) ((dat3 (F := Ideal) Vi c).after 3 t) = _
  rw [after3_3]
  funext y
  obtain ⟨a, b, rfl⟩ : ∃ (a : Fin 1024) (b : Fin 128), y = ix2 a b := ⟨y 0, y 1, eq_ix2 y⟩
  have hP : 1024 * (t.val / 4) + a.val < 8192 := by have := a.isLt; omega
  have e : ((cfg3.win 3).blk t).view.emb (ix2 a b) = (ix2 (⟨1024 * (t.val / 4) + a.val, hP⟩ : Fin 8192) b : S8192x128.Idx) :=
    funext fun d => Fin.ext (by
      match d with
      | ⟨0, _⟩ => show win3_3.index t 0 * 1024 + 1 * a.val = 1024 * (t.val / 4) + a.val; rw [e6]; omega
      | ⟨1, _⟩ => show win3_3.index t 1 * 128 + 1 * b.val = b.val; rw [e7]; omega)
  rw [View.read_apply]
  show (out3_3 (accN3 Vi c (t.val + 1)) (iblk3 Vi c 2 t) (ix2 a b) : EReal) = G3 Vi c (((cfg3.win 3).blk t).view.emb (ix2 a b))
  rw [e]
  refine (out3_3_apply _ _ a b).trans ?_
  show _ = g3 Vi c ⟨1024 * (t.val / 4) + a.val, hP⟩ b
  unfold g3
  rw [accN3_flush Vi c t h3 a b ⟨1024 * (t.val / 4) + a.val, hP⟩ rfl,
    iblk3_2_apply Vi c t (ix2 0 b) (ix2 0 b) rfl rfl]

/-- An index of the result array is in point `t`'s block iff each coordinate is in the block's range on its axis. -/
theorem mem_blk3 (t : Fin cfg3.N) (i : S8192x128.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v57).slice (win3_3.rect t)).set ↔ _
  rw [View.set_slice_whole, Rect.mem_set_unit]
  exact Iff.rfl

/-- THE ARRAY after the region: the result, index by index. -/
theorem arrAt3_final (c : Dev nD) : (dat3 (F := Ideal) Vi c).arrAt 3 cfg3.N = G3 Vi c :=
  (dat3 (F := Ideal) Vi c).arrAt_eq_of_cover 3 (G3 Vi c) (flushed3_eq Vi c) fun i => by
    have hi0 : (i 0).val < 8192 := (i 0).isLt
    have hi1 : (i 1).val < 128 := (i 1).isLt
    have hc : cfg3.N = 32 := N_3
    have ht : 4 * ((i 0).val / 1024) + 3 < cfg3.N := by omega
    obtain ⟨-, -, -, -, -, -, e6, e7⟩ := idx3 ⟨4 * ((i 0).val / 1024) + 3, ht⟩
    refine ⟨⟨4 * ((i 0).val / 1024) + 3, ht⟩, (flush3_3 _).mpr (by show (4 * ((i 0).val / 1024) + 3) % 4 = 3; omega), ?_⟩
    refine (mem_blk3 _ i).mpr fun a => ?_
    match a with
    | ⟨0, _⟩ =>
      show win3_3.index ⟨4 * ((i 0).val / 1024) + 3, ht⟩ (0 : Fin 2) * 1024 ≤ (i 0).val ∧ (i 0).val < win3_3.index ⟨4 * ((i 0).val / 1024) + 3, ht⟩ (0 : Fin 2) * 1024 + 1024
      rw [e6]; show (4 * ((i 0).val / 1024) + 3) / 4 * 1024 ≤ (i 0).val ∧ (i 0).val < (4 * ((i 0).val / 1024) + 3) / 4 * 1024 + 1024; omega
    | ⟨1, _⟩ =>
      show win3_3.index ⟨4 * ((i 0).val / 1024) + 3, ht⟩ (1 : Fin 2) * 128 ≤ (i 1).val ∧ (i 1).val < win3_3.index ⟨4 * ((i 0).val / 1024) + 3, ht⟩ (1 : Fin 2) * 128 + 128
      rw [e7]; omega

/-- THE REGION'S VALUE: entry (p, q) of the output array after the region (`VA3`, `VH3`, `VB3`: the three
    input arrays as the region finds them, `Vi c (Pipeline.arrRef spec3 w)` read at literal index types). -/
theorem final3 (c : Dev nD) (p : Fin 8192) (q : Fin 128) :
    (dat3 (F := Ideal) Vi c).arrAt 3 cfg3.N (ix2 p q)
      = max ((∑ k : Fin 8192, VA3 Vi c (ix2 p k) * VH3 Vi c (ix2 k q)) + VB3 Vi c (ix2 0 q)) 0 := by
  rw [arrAt3_final Vi c]
  rfl

end Value

end Cert.KernelIdeal.Hand

end
-- ==== Proof.KI.Final4.lean ====
import proofs.«179362_j6141803233546_1_alg».proof.Proof.KI.Region4
import Idealize.ShloMosaic.PureOps.Ideal.Laws
import Idealize.ShloMosaic.Lib.ValueIdx

/-! # Region 4 at the ideal numbers: the output array is the matrix product of the two input arrays -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The region's value at the ideal numbers

Read at the ideal numbers, rounding is the identity and a matrix product into a zero accumulator is the plain sum of
products. Each grid point writes back one row block of the product of the two input arrays, and the eight row blocks
tile the output array: after the region the output array IS the matrix product of the two input arrays as the region
found them. -/

section Value

open Idealize.ShloMosaic.ValueIdx

variable (V : (c : Dev nD) → (b : Ref sig .tc) → Buf (Elt Ideal) ((c : Thread nD τ).loc b))

theorem hz4 : (![0, 0] : Fin 2 → Nat) = fun _ => 0 := funext fun a => by fin_cases a <;> rfl

/-- The operand entries that entry `y` of a block product reads at contraction coordinate `k`: row `y 0` of the left
    block, column `y 1` of the right one. -/
abbrev li4 (y : S1024x128.Idx) (k : Fin 128) : S1024x128.Idx := fun a => match a with
  | ⟨0, _⟩ => ⟨(y 0).val, (y 0).isLt⟩
  | ⟨1, _⟩ => ⟨k.val, k.isLt⟩
abbrev ri4 (y : S1024x128.Idx) (k : Fin 128) : S128x128.Idx := fun a => match a with
  | ⟨0, _⟩ => ⟨k.val, k.isLt⟩
  | ⟨1, _⟩ => ⟨(y 1).val, (y 1).isLt⟩

theorem lhs4_0 (y : S1024x128.Idx) (q : dot_S1024x128_S128x128_S1024x128_1_0_0_1_n_n.contr.Idx) : (dot_S1024x128_S128x128_S1024x128_1_0_0_1_n_n.lhsIdx y q 0).val = (y 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs4_1 (y : S1024x128.Idx) (q : dot_S1024x128_S128x128_S1024x128_1_0_0_1_n_n.contr.Idx) : (dot_S1024x128_S128x128_S1024x128_1_0_0_1_n_n.lhsIdx y q 1).val = (q ⟨0, by decide⟩).val :=
  dot_S1024x128_S128x128_S1024x128_1_0_0_1_n_n.lhsIdx_val_of_single rfl y q
theorem rhs4_0 (y : S1024x128.Idx) (q : dot_S1024x128_S128x128_S1024x128_1_0_0_1_n_n.contr.Idx) : (dot_S1024x128_S128x128_S1024x128_1_0_0_1_n_n.rhsIdx y q 0).val = (q ⟨0, by decide⟩).val :=
  dot_S1024x128_S128x128_S1024x128_1_0_0_1_n_n.rhsIdx_val_of_single rfl y q
theorem rhs4_1 (y : S1024x128.Idx) (q : dot_S1024x128_S128x128_S1024x128_1_0_0_1_n_n.contr.Idx) : (dot_S1024x128_S128x128_S1024x128_1_0_0_1_n_n.rhsIdx y q 1).val = (y 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The body's payload, entry by entry: the sum over the contraction coordinate of the operands' products. -/
theorem pay4_at (x0 : S1024x128.Idx → EReal) (x1 : S128x128.Idx → EReal) (y : S1024x128.Idx) :
    k4_pay1 (F := Ideal) x0 x1 y = ∑ k : Fin 128, x0 (li4 y k) * x1 (ri4 y k) := by
  show FloatOps.matmul (F := Ideal) (φ₁ := .bf16) (φ₂ := .bf16) dot_S1024x128_S128x128_S1024x128_1_0_0_1_n_n none (shapeCast S1024x128 x0 _) (shapeCast S128x128 x1 _)
    (constant S1024x128 .f32 0x00000000#32) y = _
  rw [shapeCast_self, shapeCast_self, Ideal.matmul_constant_zero_apply,
    ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx y ((contrEquiv1 dot_S1024x128_S128x128_S1024x128_1_0_0_1_n_n 128 rfl rfl).symm k) = li4 y k := funext fun a => Fin.ext (by
    match a with
    | ⟨0, _⟩ => exact lhs4_0 _ _
    | ⟨1, _⟩ => exact (lhs4_1 _ _).trans hk)
  have er : dot_S1024x128_S128x128_S1024x128_1_0_0_1_n_n.rhsIdx y ((contrEquiv1 dot_S1024x128_S128x128_S1024x128_1_0_0_1_n_n 128 rfl rfl).symm k) = ri4 y k := funext fun a => Fin.ext (by
    match a with
    | ⟨0, _⟩ => exact (rhs4_0 _ _).trans hk
    | ⟨1, _⟩ => exact rhs4_1 _ _)
  rw [el, er]

/-- The array entries that entry `i` of the product of two arrays reads at contraction coordinate `k`. -/
abbrev Li4 (i : S8192x128.Idx) (k : Fin 128) : S8192x128.Idx := fun a => match a with
  | ⟨0, _⟩ => ⟨(i 0).val, (i 0).isLt⟩
  | ⟨1, _⟩ => ⟨k.val, k.isLt⟩
abbrev Ri4 (i : S8192x128.Idx) (k : Fin 128) : S128x128.Idx := fun a => match a with
  | ⟨0, _⟩ => ⟨k.val, k.isLt⟩
  | ⟨1, _⟩ => ⟨(i 1).val, (i 1).isLt⟩

/-- The matrix product of two arrays, entry by entry. -/
def G4 (a0 : S8192x128.Idx → EReal) (a1 : S128x128.Idx → EReal) : S8192x128.Idx → EReal :=
  fun i => ∑ k : Fin 128, a0 (Li4 i k) * a1 (Ri4 i k)

/-- The printed index maps over the grid: the left operand's row block moves with the output's, every other block
    coordinate stays at zero, and the output's row block index is below 8. -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 7 :=
  (by decide +kernel : ∀ t : Fin grid4.N, _)

/-- Every row block of the output is some point's. -/
theorem idx_onto4 : ∀ (q0 : Fin 8), ∃ t : Fin cfg4.N, win4_2.index t = ![q0.val, 0] :=
  (by decide +kernel : ∀ (q0 : Fin 8), ∃ t : Fin grid4.N, win4_2.index t = ![q0.val, 0])

/-- An entry of an input window's block is the array's entry at the block's place. -/
theorem iblk4_0_apply (c : Dev nD) (t : Fin cfg4.N) (y : S1024x128.Idx) :
    (iblk4 V c 0 t : S1024x128.Idx → EReal) y = (V c (Pipeline.arrRef spec4 0) : S8192x128.Idx → EReal) (((cfg4.win 0).blk t).view.emb y) := rfl
theorem iblk4_1_apply (c : Dev nD) (t : Fin cfg4.N) (y : S128x128.Idx) :
    (iblk4 V c 1 t : S128x128.Idx → EReal) y = (V c (Pipeline.arrRef spec4 1) : S128x128.Idx → EReal) (((cfg4.win 1).blk t).view.emb y) := rfl
/-- An entry of the output window's block of any array is the array's entry at the block's place. -/
theorem read_blk4_2 (t : Fin cfg4.N) (A : S8192x128.Idx → EReal) (j : ((cfg4.win 2).xblock (cfg4.grid.coords t)).Idx) :
    (((cfg4.win 2).blk t).view.read (Elt Ideal) A : _ → EReal) j = A (((cfg4.win 2).blk t).view.emb j) := rfl

set_option maxHeartbeats 1000000 in
/-- What point `t` writes back is its row block of the product of the two input arrays. -/
theorem flushed4_eq (c : Dev nD) (t : Fin cfg4.N) :
    (dat4 (F := Ideal) V c).flushed 2 t
      = ((cfg4.win 2).blk t).view.read (Elt Ideal) (G4 (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S1024x128) hz4, View.ld_unit_zero (S := S128x128) hz4]
  obtain ⟨e0, e1, e2, e3, e4, e5⟩ := idx_facts4 t
  funext j
  refine (pay4_at (iblk4 V c 0 t) (iblk4 V c 1 t) _).trans ?_
  refine Eq.trans ?_ (read_blk4_2 t (G4 (V c (Pipeline.arrRef spec4 0)) (V c (Pipeline.arrRef spec4 1))) j).symm
  unfold G4
  refine Finset.sum_congr rfl fun k _ => ?_
  have h0 : ((cfg4.win 0).blk t).view.emb (li4 ((cfg4.win 2).xinj (grid4.coords t) j) k)
      = Li4 (((cfg4.win 2).blk t).view.emb j) k := by
    funext a; apply Fin.ext
    match a with
    | ⟨0, _⟩ => show win4_0.index t (0 : Fin 2) * 1024 + 1 * (j 0).val = win4_2.index t (0 : Fin 2) * 1024 + 1 * (j 0).val; omega
    | ⟨1, _⟩ => show win4_0.index t (1 : Fin 2) * 128 + 1 * k.val = k.val; omega
  have h1 : ((cfg4.win 1).blk t).view.emb (ri4 ((cfg4.win 2).xinj (grid4.coords t) j) k)
      = Ri4 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [iblk4_0_apply, iblk4_1_apply, h0, h1]

/-- An index of the output array is in point `t`'s block iff each coordinate is in the block's range on its axis. -/
theorem mem_blk4 (t : Fin cfg4.N) (i : S8192x128.Idx) :
    i ∈ ((cfg4.win 2).blk t).view.set ↔ ∀ a : Fin 2, win4_2.index t a * S1024x128.size a ≤ (i a).val ∧ (i a).val < win4_2.index t a * S1024x128.size a + S1024x128.size a := by
  show i ∈ ((View.whole main_v58).slice (win4_2.rect t)).set ↔ _
  rw [View.set_slice_whole, Rect.mem_set_unit]
  exact Iff.rfl

/-- The eight row blocks tile the output array: row `r` lies in the block of the point whose row block index is `r / 1024`. -/
theorem cover4_arr (i : S8192x128.Idx) :
    ∃ t : Fin cfg4.N, (cfg4.win 2).flush t = true ∧ i ∈ ((cfg4.win 2).blk t).view.set := by
  have hi0 : (i 0).val < 8192 := (i 0).isLt
  have hi1 : (i 1).val < 128 := (i 1).isLt
  obtain ⟨t, ht⟩ := idx_onto4 ⟨(i 0).val / 1024, by omega⟩
  have q0 : win4_2.index t (0 : Fin 2) = (i 0).val / 1024 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 128 ≤ (i 1).val ∧ (i 1).val < win4_2.index t (1 : Fin 2) * 128 + 128; omega

/-- After the region the output array is the product of the two input arrays as the region found them. -/
theorem final4_arr (c : Dev nD) :
    (dat4 (F := Ideal) V c).arrAt 2 cfg4.N = G4 (V c (Pipeline.arrRef spec4 0)) (V c (Pipeline.arrRef spec4 1)) :=
  (dat4 V c).arrAt_eq_of_cover 2 _ (fun t _ => flushed4_eq V c t) cover4_arr

/-- The product of two arrays at row `p`, column `q`: the sum over `k` of the left array's entry at (p, k) times the
    right array's at (k, q). -/
theorem G4_apply (a0 : S8192x128.Idx → EReal) (a1 : S128x128.Idx → EReal) (p : Fin 8192) (q : Fin 128) :
    G4 a0 a1 (ix2 p q) = ∑ k : Fin 128, a0 (ix2 p k) * a1 (ix2 k q) := by
  unfold G4
  refine Finset.sum_congr rfl fun k _ => ?_
  have hl : Li4 (ix2 p q) k = ix2 p k := funext fun a => by match a with | ⟨0, _⟩ => rfl | ⟨1, _⟩ => rfl
  have hr : Ri4 (ix2 p q) k = ix2 k q := funext fun a => by match a with | ⟨0, _⟩ => rfl | ⟨1, _⟩ => rfl
  rw [hl, hr]

/-- The region's two input arrays as it finds them and its output array as it leaves it, as plain functions of the index. -/
abbrev arrIn4_0 (c : Dev nD) : S8192x128.Idx → EReal := V c (Pipeline.arrRef spec4 0)
abbrev arrIn4_1 (c : Dev nD) : S128x128.Idx → EReal := V c (Pipeline.arrRef spec4 1)
abbrev arrOut4 (c : Dev nD) : S8192x128.Idx → EReal := (dat4 (F := Ideal) V c).arrAt 2 cfg4.N

/-- Entry by entry: row `p`, column `q` of the output array is the sum over `k` of the products of the left array's
    entry at (p, k) and the right array's at (k, q). -/
theorem final4 (c : Dev nD) (p : Fin 8192) (q : Fin 128) :
    arrOut4 V c (ix2 p q) = ∑ k : Fin 128, arrIn4_0 V c (ix2 p k) * arrIn4_1 V c (ix2 k q) :=
  (congrFun (final4_arr V c) (ix2 p q)).trans (G4_apply _ _ p q)

end Value

end Cert.KernelIdeal.Hand

end
-- ==== Proof.KI.Final5.lean ====
import proofs.«179362_j6141803233546_1_alg».proof.Proof.KI.Region5
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The region's value at the ideal instance: O = max(A·H + b, 0), index by index -/

section Value

open ValueIdx

variable (Vi : (c : Dev nD) → (b : Ref sig .tc) → Buf (Elt Ideal) ((c : Thread nD τ).loc b))

theorem hz5 : (![0, 0] : Fin 2 → Nat) = fun _ => 0 := funext fun a => by fin_cases a <;> rfl

/-! ## The product of two blocks at an index -/

theorem lhs5_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

theorem rhs5_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero accumulator, at row `a` and column `b`: the sum over the 2048 contracted
    positions of the products. -/
theorem mm5_apply (x0 : FVec Ideal S1024x2048 .bf16) (x1 : FVec Ideal S2048x128 .bf16) (a : Fin 1024) (b : Fin 128) :
    matmul dot_S1024x2048_S2048x128_S1024x128_1_0_0_1_n_n none x0 x1 (constant S1024x128 .f32 0x00000000#32) (ix2 a b)
      = ∑ k : Fin 2048, x0 (ix2 a k) * x1 (ix2 k b) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 a b) ((ValueIdx.contrEquiv1 dot_S1024x2048_S2048x128_S1024x128_1_0_0_1_n_n 2048 rfl rfl).symm k) = ix2 a k := funext fun d => Fin.ext (by
    match d with
    | ⟨0, _⟩ => exact lhs5_0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 a b) ((ValueIdx.contrEquiv1 dot_S1024x2048_S2048x128_S1024x128_1_0_0_1_n_n 2048 rfl rfl).symm k) = ix2 k b := funext fun d => Fin.ext (by
    match d with
    | ⟨0, _⟩ => exact (dot_S1024x2048_S2048x128_S1024x128_1_0_0_1_n_n.rhsIdx_val_of_single rfl _ _).trans hk
    | ⟨1, _⟩ => exact rhs5_1 _ _)
  rw [el, er]

/-! ## What the body leaves, at an index -/

theorem accA5_apply (x0 : Vec Ideal S1024x2048 .bf16) (x1 : Vec Ideal S2048x128 .bf16) (a : Fin 1024) (b : Fin 128) :
    accA5 x0 x1 (ix2 a b) = 0 + ∑ k : Fin 2048, (x0 (ix2 a k) : EReal) * x1 (ix2 k b) := by
  unfold accA5
  rw [View.canon_cons_unit_zero hz5]
  unfold k5_pay2 k5_pay1
  simp only [View.canon_unit_zero (S := S1024x128) hz5, View.ld_unit_zero (S := S1024x2048) hz5, View.ld_unit_zero (S := S2048x128) hz5, View.ld_unit_zero (S := S1024x128) hz5, shapeCast_self]
  show Ideal.ofBits .f32 0x00000000#32 + matmul (F := Ideal) dot_S1024x2048_S2048x128_S1024x128_1_0_0_1_n_n none x0 x1 (constant (F := Ideal) S1024x128 .f32 0x00000000#32) (ix2 a b) = _
  rw [Ideal.ofBits_zero_f32, mm5_apply]

theorem accB5_apply (x0 : Vec Ideal S1024x2048 .bf16) (x1 : Vec Ideal S2048x128 .bf16) (acc : Vec Ideal S1024x128 .f32) (a : Fin 1024) (b : Fin 128) :
    accB5 x0 x1 acc (ix2 a b) = (acc (ix2 a b) : EReal) + ∑ k : Fin 2048, (x0 (ix2 a k) : EReal) * x1 (ix2 k b) := by
  unfold accB5
  rw [View.canon_unit_zero hz5]
  unfold k5_pay2
  simp only [View.ld_unit_zero (S := S1024x2048) hz5, View.ld_unit_zero (S := S2048x128) hz5, View.ld_unit_zero (S := S1024x128) hz5, shapeCast_self]
  show (acc (ix2 a b) : EReal) + matmul (F := Ideal) dot_S1024x2048_S2048x128_S1024x128_1_0_0_1_n_n none x0 x1 (constant (F := Ideal) S1024x128 .f32 0x00000000#32) (ix2 a b) = _
  rw [mm5_apply]

theorem out5_3_apply (acc : Vec Ideal S1024x128 .f32) (x2 : Vec Ideal S1x128 .f32) (a : Fin 1024) (b : Fin 128) :
    (out5_3 acc x2 (ix2 a b) : EReal) = max ((acc (ix2 a b) : EReal) + x2 (ix2 0 b)) 0 := by
  unfold out5_3
  rw [View.canon_unit_zero hz5]
  unfold k5_pay3
  simp only [View.ld_unit_zero (S := S1024x128) hz5, View.ld_unit_zero (S := S1x128) hz5, shapeCast_self]
  show max ((acc (ix2 a b) : EReal) + broadcastTo S1024x128 x2 broadcasts_S1x128_S1024x128 (ix2 a b)) (Ideal.ofBits .f32 0x00000000#32) = _
  rw [Ideal.ofBits_zero_f32, broadcastTo_apply x2 _ (ix2 a b) (ix2 0 b) (fun d => by
    match d with
    | ⟨0, _⟩ => rfl
    | ⟨1, _⟩ => rfl)]

/-! ## The windows' blocks as entries of their arrays -/

/-- The printed index maps, decided over the grid: point `t` is row block `t / 4`, column block `t % 4`. -/
theorem idx5 : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0 :=
  (by decide +kernel : ∀ t : Fin grid5.N, _)

/-- The three input arrays as the region finds them, read as functions of a literal index. -/
abbrev VA5 (c : Dev nD) : S8192x8192.Idx → EReal := Vi c (Pipeline.arrRef spec5 0)
abbrev VH5 (c : Dev nD) : S8192x128.Idx → EReal := Vi c (Pipeline.arrRef spec5 1)
abbrev VB5 (c : Dev nD) : S1x128.Idx → EReal := Vi c (Pipeline.arrRef spec5 2)

theorem iblk5_0_apply (c : Dev nD) (t : Fin cfg5.N) (x : S1024x2048.Idx) (k : S8192x8192.Idx)
    (hk0 : (k 0).val = 1024 * (t.val / 4) + (x 0).val) (hk1 : (k 1).val = 2048 * (t.val % 4) + (x 1).val) :
    (iblk5 Vi c 0 t : Vec Ideal S1024x2048 .bf16) x = VA5 Vi c k := by
  obtain ⟨e0, e1, -⟩ := idx5 t
  unfold iblk5
  rw [View.read_apply]
  show Vi c (Pipeline.arrRef spec5 0) _ = Vi c (Pipeline.arrRef spec5 0) _
  congr 1
  funext a
  apply Fin.ext
  match a with
  | ⟨0, _⟩ => show win5_0.index t 0 * 1024 + 1 * (x 0).val = (k 0).val; rw [e0, hk0]; omega
  | ⟨1, _⟩ => show win5_0.index t 1 * 2048 + 1 * (x 1).val = (k 1).val; rw [e1, hk1]; omega

theorem iblk5_1_apply (c : Dev nD) (t : Fin cfg5.N) (x : S2048x128.Idx) (k : S8192x128.Idx)
    (hk0 : (k 0).val = 2048 * (t.val % 4) + (x 0).val) (hk1 : (k 1).val = (x 1).val) :
    (iblk5 Vi c 1 t : Vec Ideal S2048x128 .bf16) x = VH5 Vi c k := by
  obtain ⟨-, -, e0, e1, -⟩ := idx5 t
  unfold iblk5
  rw [View.read_apply]
  show Vi c (Pipeline.arrRef spec5 1) _ = Vi c (Pipeline.arrRef spec5 1) _
  congr 1
  funext a
  apply Fin.ext
  match a with
  | ⟨0, _⟩ => show win5_1.index t 0 * 2048 + 1 * (x 0).val = (k 0).val; rw [e0, hk0]; omega
  | ⟨1, _⟩ => show win5_1.index t 1 * 128 + 1 * (x 1).val = (k 1).val; rw [e1, hk1]; omega

theorem iblk5_2_apply (c : Dev nD) (t : Fin cfg5.N) (x : S1x128.Idx) (k : S1x128.Idx)
    (hk0 : (k 0).val = (x 0).val) (hk1 : (k 1).val = (x 1).val) :
    (iblk5 Vi c 2 t : Vec Ideal S1x128 .f32) x = VB5 Vi c k := by
  obtain ⟨-, -, -, -, e0, e1, -⟩ := idx5 t
  unfold iblk5
  rw [View.read_apply]
  show Vi c (Pipeline.arrRef spec5 2) _ = Vi c (Pipeline.arrRef spec5 2) _
  congr 1
  funext a
  apply Fin.ext
  match a with
  | ⟨0, _⟩ => show win5_2.index t 0 * 1 + 1 * (x 0).val = (k 0).val; rw [e0, hk0]; omega
  | ⟨1, _⟩ => show win5_2.index t 1 * 128 + 1 * (x 1).val = (k 1).val; rw [e1, hk1]; omega

/-! ## The four column blocks of a row sum to the whole row -/

/-- The product of row `p` of A with column `q` of H at contracted position `k` (zero past the arrays). -/
def term5 (c : Dev nD) (p : Fin 8192) (q : Fin 128) (k : ℕ) : EReal :=
  if h : k < 8192 then VA5 Vi c (ix2 p ⟨k, h⟩) * VH5 Vi c (ix2 ⟨k, h⟩ q) else 0

theorem term5_sum (c : Dev nD) (p : Fin 8192) (q : Fin 128) :
    ∑ k : Fin 8192, term5 Vi c p q k.val = ∑ k : Fin 8192, VA5 Vi c (ix2 p k) * VH5 Vi c (ix2 k q) :=
  Finset.sum_congr rfl fun k _ => by unfold term5; rw [dif_pos k.isLt]

/-- A sum over 8192 positions is the sum over four blocks of 2048. -/
theorem sum_blocks5 (f : ℕ → EReal) :
    ∑ k : Fin 8192, f k.val = ∑ j : Fin 4, ∑ k : Fin 2048, f (2048 * j.val + k.val) :=
  calc ∑ k : Fin 8192, f k.val = ∑ k : Fin (4 * 2048), f k.val := rfl
    _ = ∑ x : Fin 4 × Fin 2048, f (finProdFinEquiv x).val :=
        (Equiv.sum_comp finProdFinEquiv (fun k : Fin (4 * 2048) => f k.val)).symm
    _ = ∑ j : Fin 4, ∑ k : Fin 2048, f (finProdFinEquiv (j, k)).val := Fintype.sum_prod_type _
    _ = _ := Finset.sum_congr rfl fun j _ => Finset.sum_congr rfl fun k _ => by
        refine congrArg f ?_
        show k.val + 2048 * j.val = 2048 * j.val + k.val
        omega

/-- A block product whose operands are column block `j` of row `p` of A and row block `j` of column `b` of H is
    that block's part of the row's sum. -/
theorem mmAt5 (c : Dev nD) (x0 : Vec Ideal S1024x2048 .bf16) (x1 : Vec Ideal S2048x128 .bf16) (j : ℕ) (hj : j < 4)
    (a : Fin 1024) (b : Fin 128) (p : Fin 8192)
    (h0 : ∀ (k : Fin 2048) (hlt : 2048 * j + k.val < 8192), x0 (ix2 a k) = VA5 Vi c (ix2 p ⟨2048 * j + k.val, hlt⟩))
    (h1 : ∀ (k : Fin 2048) (hlt : 2048 * j + k.val < 8192), x1 (ix2 k b) = VH5 Vi c (ix2 ⟨2048 * j + k.val, hlt⟩ b)) :
    ∑ k : Fin 2048, (x0 (ix2 a k) : EReal) * x1 (ix2 k b) = ∑ k : Fin 2048, term5 Vi c p b (2048 * j + k.val) := by
  refine Finset.sum_congr rfl fun k _ => ?_
  have hlt : 2048 * j + k.val < 8192 := by have := k.isLt; omega
  unfold term5
  rw [dif_pos hlt, h0 k hlt, h1 k hlt]

/-! ## The accumulator where the row block's last point leaves it -/

theorem accN5_succ_A (c : Dev nD) (n : ℕ) (h : n < cfg5.N) (h0 : n % 4 = 0) :
    accN5 Vi c (n + 1) = accA5 (iblk5 Vi c 0 ⟨n, h⟩) (iblk5 Vi c 1 ⟨n, h⟩) :=
  accN5_A Vi c ⟨n, h⟩ h0

theorem accN5_succ_B (c : Dev nD) (n : ℕ) (h : n < cfg5.N) (h0 : ¬n % 4 = 0) :
    accN5 Vi c (n + 1) = accB5 (iblk5 Vi c 0 ⟨n, h⟩) (iblk5 Vi c 1 ⟨n, h⟩) (accN5 Vi c n) :=
  accN5_B Vi c ⟨n, h⟩ h0

/-- After the point whose column block is 3 the accumulator holds, at row `a` of the block and column `b`, the
    whole product of row `p` of A with column `b` of H. -/
theorem accN5_flush (c : Dev nD) (t : Fin cfg5.N) (h3 : t.val % 4 = 3) (a : Fin 1024) (b : Fin 128) (p : Fin 8192)
    (hp : p.val = 1024 * (t.val / 4) + a.val) :
    (accN5 Vi c (t.val + 1) (ix2 a b) : EReal) = ∑ k : Fin 8192, VA5 Vi c (ix2 p k) * VH5 Vi c (ix2 k b) := by
  have hN : t.val < 32 := lt_of_lt_of_eq t.isLt (show cfg5.N = 32 from N_5)
  obtain ⟨n, hn⟩ : ∃ n, t.val = n + 1 + 1 + 1 := ⟨t.val - 3, by omega⟩
  have hc : cfg5.N = 32 := N_5
  have l0 : n < cfg5.N := by omega
  have l1 : n + 1 < cfg5.N := by omega
  have l2 : n + 1 + 1 < cfg5.N := by omega
  have l3 : n + 1 + 1 + 1 < cfg5.N := by omega
  have e3 := (congrFun (accN5_succ_B Vi c (n + 1 + 1 + 1) l3 (by omega)) (ix2 a b)).trans (accB5_apply _ _ _ a b)
  have e2 := (congrFun (accN5_succ_B Vi c (n + 1 + 1) l2 (by omega)) (ix2 a b)).trans (accB5_apply _ _ _ a b)
  have e1 := (congrFun (accN5_succ_B Vi c (n + 1) l1 (by omega)) (ix2 a b)).trans (accB5_apply _ _ _ a b)
  have e0 := (congrFun (accN5_succ_A Vi c n l0 (by omega)) (ix2 a b)).trans (accA5_apply _ _ a b)
  have m0 := mmAt5 Vi c (iblk5 Vi c 0 ⟨n, l0⟩) (iblk5 Vi c 1 ⟨n, l0⟩) 0 (by omega) a b p
    (fun k hlt => iblk5_0_apply Vi c ⟨n, l0⟩ (ix2 a k) (ix2 p ⟨2048 * 0 + k.val, hlt⟩)
      (by show p.val = 1024 * ((n) / 4) + a.val; omega) (by show 2048 * 0 + k.val = 2048 * ((n) % 4) + k.val; omega))
    (fun k hlt => iblk5_1_apply Vi c ⟨n, l0⟩ (ix2 k b) (ix2 ⟨2048 * 0 + k.val, hlt⟩ b)
      (by show 2048 * 0 + k.val = 2048 * ((n) % 4) + k.val; omega) rfl)
  have m1 := mmAt5 Vi c (iblk5 Vi c 0 ⟨n + 1, l1⟩) (iblk5 Vi c 1 ⟨n + 1, l1⟩) 1 (by omega) a b p
    (fun k hlt => iblk5_0_apply Vi c ⟨n + 1, l1⟩ (ix2 a k) (ix2 p ⟨2048 * 1 + k.val, hlt⟩)
      (by show p.val = 1024 * ((n + 1) / 4) + a.val; omega) (by show 2048 * 1 + k.val = 2048 * ((n + 1) % 4) + k.val; omega))
    (fun k hlt => iblk5_1_apply Vi c ⟨n + 1, l1⟩ (ix2 k b) (ix2 ⟨2048 * 1 + k.val, hlt⟩ b)
      (by show 2048 * 1 + k.val = 2048 * ((n + 1) % 4) + k.val; omega) rfl)
  have m2 := mmAt5 Vi c (iblk5 Vi c 0 ⟨n + 1 + 1, l2⟩) (iblk5 Vi c 1 ⟨n + 1 + 1, l2⟩) 2 (by omega) a b p
    (fun k hlt => iblk5_0_apply Vi c ⟨n + 1 + 1, l2⟩ (ix2 a k) (ix2 p ⟨2048 * 2 + k.val, hlt⟩)
      (by show p.val = 1024 * ((n + 1 + 1) / 4) + a.val; omega) (by show 2048 * 2 + k.val = 2048 * ((n + 1 + 1) % 4) + k.val; omega))
    (fun k hlt => iblk5_1_apply Vi c ⟨n + 1 + 1, l2⟩ (ix2 k b) (ix2 ⟨2048 * 2 + k.val, hlt⟩ b)
      (by show 2048 * 2 + k.val = 2048 * ((n + 1 + 1) % 4) + k.val; omega) rfl)
  have m3 := mmAt5 Vi c (iblk5 Vi c 0 ⟨n + 1 + 1 + 1, l3⟩) (iblk5 Vi c 1 ⟨n + 1 + 1 + 1, l3⟩) 3 (by omega) a b p
    (fun k hlt => iblk5_0_apply Vi c ⟨n + 1 + 1 + 1, l3⟩ (ix2 a k) (ix2 p ⟨2048 * 3 + k.val, hlt⟩)
      (by show p.val = 1024 * ((n + 1 + 1 + 1) / 4) + a.val; omega) (by show 2048 * 3 + k.val = 2048 * ((n + 1 + 1 + 1) % 4) + k.val; omega))
    (fun k hlt => iblk5_1_apply Vi c ⟨n + 1 + 1 + 1, l3⟩ (ix2 k b) (ix2 ⟨2048 * 3 + k.val, hlt⟩ b)
      (by show 2048 * 3 + k.val = 2048 * ((n + 1 + 1 + 1) % 4) + k.val; omega) rfl)
  rw [hn, e3, e2, e1, e0, m0, m1, m2, m3, zero_add, ← term5_sum Vi c p b, sum_blocks5 (term5 Vi c p b), Fin.sum_univ_four]
  rfl

/-! ## The write-backs and the array -/

/-- Entry (p, q) of the result: the row of A times the column of H, plus the bias, clamped below at zero. -/
def g5 (c : Dev nD) (p : Fin 8192) (q : Fin 128) : EReal :=
  max ((∑ k : Fin 8192, VA5 Vi c (ix2 p k) * VH5 Vi c (ix2 k q)) + VB5 Vi c (ix2 0 q)) 0

/-- The result array, index by index. -/
abbrev G5 (c : Dev nD) : S8192x128.Idx → EReal := fun i => g5 Vi c (i 0) (i 1)

/-- What a point that writes back writes is its block of the result. -/
theorem flushed5_eq (c : Dev nD) (t : Fin cfg5.N) (hf : (cfg5.win 3).flush t = true) :
    (dat5 (F := Ideal) Vi c).flushed 3 t = ((cfg5.win 3).blk t).view.read (Elt Ideal) (G5 Vi c) := by
  have h3 : t.val % 4 = 3 := (flush5_3 t).mp hf
  have hN : t.val < 32 := lt_of_lt_of_eq t.isLt (show cfg5.N = 32 from N_5)
  obtain ⟨-, -, -, -, -, -, e6, e7⟩ := idx5 t
  show (cfg5.win 3).cut (grid5.coords t) ((dat5 (F := Ideal) Vi c).after 3 t) = _
  rw [after5_3]
  funext y
  obtain ⟨a, b, rfl⟩ : ∃ (a : Fin 1024) (b : Fin 128), y = ix2 a b := ⟨y 0, y 1, eq_ix2 y⟩
  have hP : 1024 * (t.val / 4) + a.val < 8192 := by have := a.isLt; omega
  have e : ((cfg5.win 3).blk t).view.emb (ix2 a b) = (ix2 (⟨1024 * (t.val / 4) + a.val, hP⟩ : Fin 8192) b : S8192x128.Idx) :=
    funext fun d => Fin.ext (by
      match d with
      | ⟨0, _⟩ => show win5_3.index t 0 * 1024 + 1 * a.val = 1024 * (t.val / 4) + a.val; rw [e6]; omega
      | ⟨1, _⟩ => show win5_3.index t 1 * 128 + 1 * b.val = b.val; rw [e7]; omega)
  rw [View.read_apply]
  show (out5_3 (accN5 Vi c (t.val + 1)) (iblk5 Vi c 2 t) (ix2 a b) : EReal) = G5 Vi c (((cfg5.win 3).blk t).view.emb (ix2 a b))
  rw [e]
  refine (out5_3_apply _ _ a b).trans ?_
  show _ = g5 Vi c ⟨1024 * (t.val / 4) + a.val, hP⟩ b
  unfold g5
  rw [accN5_flush Vi c t h3 a b ⟨1024 * (t.val / 4) + a.val, hP⟩ rfl,
    iblk5_2_apply Vi c t (ix2 0 b) (ix2 0 b) rfl rfl]

/-- An index of the result array is in point `t`'s block iff each coordinate is in the block's range on its axis. -/
theorem mem_blk5 (t : Fin cfg5.N) (i : S8192x128.Idx) :
    i ∈ ((cfg5.win 3).blk t).view.set ↔ ∀ a : Fin 2, win5_3.index t a * S1024x128.size a ≤ (i a).val ∧ (i a).val < win5_3.index t a * S1024x128.size a + S1024x128.size a := by
  show i ∈ ((View.whole main_v60).slice (win5_3.rect t)).set ↔ _
  rw [View.set_slice_whole, Rect.mem_set_unit]
  exact Iff.rfl

/-- THE ARRAY after the region: the result, index by index. -/
theorem arrAt5_final (c : Dev nD) : (dat5 (F := Ideal) Vi c).arrAt 3 cfg5.N = G5 Vi c :=
  (dat5 (F := Ideal) Vi c).arrAt_eq_of_cover 3 (G5 Vi c) (flushed5_eq Vi c) fun i => by
    have hi0 : (i 0).val < 8192 := (i 0).isLt
    have hi1 : (i 1).val < 128 := (i 1).isLt
    have hc : cfg5.N = 32 := N_5
    have ht : 4 * ((i 0).val / 1024) + 3 < cfg5.N := by omega
    obtain ⟨-, -, -, -, -, -, e6, e7⟩ := idx5 ⟨4 * ((i 0).val / 1024) + 3, ht⟩
    refine ⟨⟨4 * ((i 0).val / 1024) + 3, ht⟩, (flush5_3 _).mpr (by show (4 * ((i 0).val / 1024) + 3) % 4 = 3; omega), ?_⟩
    refine (mem_blk5 _ i).mpr fun a => ?_
    match a with
    | ⟨0, _⟩ =>
      show win5_3.index ⟨4 * ((i 0).val / 1024) + 3, ht⟩ (0 : Fin 2) * 1024 ≤ (i 0).val ∧ (i 0).val < win5_3.index ⟨4 * ((i 0).val / 1024) + 3, ht⟩ (0 : Fin 2) * 1024 + 1024
      rw [e6]; show (4 * ((i 0).val / 1024) + 3) / 4 * 1024 ≤ (i 0).val ∧ (i 0).val < (4 * ((i 0).val / 1024) + 3) / 4 * 1024 + 1024; omega
    | ⟨1, _⟩ =>
      show win5_3.index ⟨4 * ((i 0).val / 1024) + 3, ht⟩ (1 : Fin 2) * 128 ≤ (i 1).val ∧ (i 1).val < win5_3.index ⟨4 * ((i 0).val / 1024) + 3, ht⟩ (1 : Fin 2) * 128 + 128
      rw [e7]; omega

/-- THE REGION'S VALUE: entry (p, q) of the output array after the region (`VA5`, `VH5`, `VB5`: the three
    input arrays as the region finds them, `Vi c (Pipeline.arrRef spec5 w)` read at literal index types). -/
theorem final5 (c : Dev nD) (p : Fin 8192) (q : Fin 128) :
    (dat5 (F := Ideal) Vi c).arrAt 3 cfg5.N (ix2 p q)
      = max ((∑ k : Fin 8192, VA5 Vi c (ix2 p k) * VH5 Vi c (ix2 k q)) + VB5 Vi c (ix2 0 q)) 0 := by
  rw [arrAt5_final Vi c]
  rfl

end Value

end Cert.KernelIdeal.Hand

end
-- ==== Proof.KI.Final6.lean ====
import proofs.«179362_j6141803233546_1_alg».proof.Proof.KI.Region6
import Idealize.ShloMosaic.PureOps.Ideal.Laws
import Idealize.ShloMosaic.Lib.ValueIdx

/-! # Region 6 at the ideal numbers: the output array is the matrix product of the two input arrays -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The region's value at the ideal numbers

Read at the ideal numbers, rounding is the identity and a matrix product into a zero accumulator is the plain sum of
products. Each grid point writes back one row block of the product of the two input arrays, and the eight row blocks
tile the output array: after the region the output array IS the matrix product of the two input arrays as the region
found them. -/

section Value

open Idealize.ShloMosaic.ValueIdx

variable (V : (c : Dev nD) → (b : Ref sig .tc) → Buf (Elt Ideal) ((c : Thread nD τ).loc b))

theorem hz6 : (![0, 0] : Fin 2 → Nat) = fun _ => 0 := funext fun a => by fin_cases a <;> rfl

/-- The operand entries that entry `y` of a block product reads at contraction coordinate `k`: row `y 0` of the left
    block, column `y 1` of the right one. -/
abbrev li6 (y : S1024x512.Idx) (k : Fin 128) : S1024x128.Idx := fun a => match a with
  | ⟨0, _⟩ => ⟨(y 0).val, (y 0).isLt⟩
  | ⟨1, _⟩ => ⟨k.val, k.isLt⟩
abbrev ri6 (y : S1024x512.Idx) (k : Fin 128) : S128x512.Idx := fun a => match a with
  | ⟨0, _⟩ => ⟨k.val, k.isLt⟩
  | ⟨1, _⟩ => ⟨(y 1).val, (y 1).isLt⟩

theorem lhs6_0 (y : S1024x512.Idx) (q : dot_S1024x128_S128x512_S1024x512_1_0_0_1_n_n.contr.Idx) : (dot_S1024x128_S128x512_S1024x512_1_0_0_1_n_n.lhsIdx y q 0).val = (y 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs6_1 (y : S1024x512.Idx) (q : dot_S1024x128_S128x512_S1024x512_1_0_0_1_n_n.contr.Idx) : (dot_S1024x128_S128x512_S1024x512_1_0_0_1_n_n.lhsIdx y q 1).val = (q ⟨0, by decide⟩).val :=
  dot_S1024x128_S128x512_S1024x512_1_0_0_1_n_n.lhsIdx_val_of_single rfl y q
theorem rhs6_0 (y : S1024x512.Idx) (q : dot_S1024x128_S128x512_S1024x512_1_0_0_1_n_n.contr.Idx) : (dot_S1024x128_S128x512_S1024x512_1_0_0_1_n_n.rhsIdx y q 0).val = (q ⟨0, by decide⟩).val :=
  dot_S1024x128_S128x512_S1024x512_1_0_0_1_n_n.rhsIdx_val_of_single rfl y q
theorem rhs6_1 (y : S1024x512.Idx) (q : dot_S1024x128_S128x512_S1024x512_1_0_0_1_n_n.contr.Idx) : (dot_S1024x128_S128x512_S1024x512_1_0_0_1_n_n.rhsIdx y q 1).val = (y 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The body's payload, entry by entry: the sum over the contraction coordinate of the operands' products. -/
theorem pay6_at (x0 : S1024x128.Idx → EReal) (x1 : S128x512.Idx → EReal) (y : S1024x512.Idx) :
    k6_pay1 (F := Ideal) x0 x1 y = ∑ k : Fin 128, x0 (li6 y k) * x1 (ri6 y k) := by
  show FloatOps.matmul (F := Ideal) (φ₁ := .bf16) (φ₂ := .bf16) dot_S1024x128_S128x512_S1024x512_1_0_0_1_n_n none (shapeCast S1024x128 x0 _) (shapeCast S128x512 x1 _)
    (constant S1024x512 .f32 0x00000000#32) y = _
  rw [shapeCast_self, shapeCast_self, Ideal.matmul_constant_zero_apply,
    ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx y ((contrEquiv1 dot_S1024x128_S128x512_S1024x512_1_0_0_1_n_n 128 rfl rfl).symm k) = li6 y k := funext fun a => Fin.ext (by
    match a with
    | ⟨0, _⟩ => exact lhs6_0 _ _
    | ⟨1, _⟩ => exact (lhs6_1 _ _).trans hk)
  have er : dot_S1024x128_S128x512_S1024x512_1_0_0_1_n_n.rhsIdx y ((contrEquiv1 dot_S1024x128_S128x512_S1024x512_1_0_0_1_n_n 128 rfl rfl).symm k) = ri6 y k := funext fun a => Fin.ext (by
    match a with
    | ⟨0, _⟩ => exact (rhs6_0 _ _).trans hk
    | ⟨1, _⟩ => exact rhs6_1 _ _)
  rw [el, er]

/-- The array entries that entry `i` of the product of two arrays reads at contraction coordinate `k`. -/
abbrev Li6 (i : S8192x512.Idx) (k : Fin 128) : S8192x128.Idx := fun a => match a with
  | ⟨0, _⟩ => ⟨(i 0).val, (i 0).isLt⟩
  | ⟨1, _⟩ => ⟨k.val, k.isLt⟩
abbrev Ri6 (i : S8192x512.Idx) (k : Fin 128) : S128x512.Idx := fun a => match a with
  | ⟨0, _⟩ => ⟨k.val, k.isLt⟩
  | ⟨1, _⟩ => ⟨(i 1).val, (i 1).isLt⟩

/-- The matrix product of two arrays, entry by entry. -/
def G6 (a0 : S8192x128.Idx → EReal) (a1 : S128x512.Idx → EReal) : S8192x512.Idx → EReal :=
  fun i => ∑ k : Fin 128, a0 (Li6 i k) * a1 (Ri6 i k)

/-- The printed index maps over the grid: the left operand's row block moves with the output's, every other block
    coordinate stays at zero, and the output's row block index is below 8. -/
theorem idx_facts6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) ≤ 7 :=
  (by decide +kernel : ∀ t : Fin grid6.N, _)

/-- Every row block of the output is some point's. -/
theorem idx_onto6 : ∀ (q0 : Fin 8), ∃ t : Fin cfg6.N, win6_2.index t = ![q0.val, 0] :=
  (by decide +kernel : ∀ (q0 : Fin 8), ∃ t : Fin grid6.N, win6_2.index t = ![q0.val, 0])

/-- An entry of an input window's block is the array's entry at the block's place. -/
theorem iblk6_0_apply (c : Dev nD) (t : Fin cfg6.N) (y : S1024x128.Idx) :
    (iblk6 V c 0 t : S1024x128.Idx → EReal) y = (V c (Pipeline.arrRef spec6 0) : S8192x128.Idx → EReal) (((cfg6.win 0).blk t).view.emb y) := rfl
theorem iblk6_1_apply (c : Dev nD) (t : Fin cfg6.N) (y : S128x512.Idx) :
    (iblk6 V c 1 t : S128x512.Idx → EReal) y = (V c (Pipeline.arrRef spec6 1) : S128x512.Idx → EReal) (((cfg6.win 1).blk t).view.emb y) := rfl
/-- An entry of the output window's block of any array is the array's entry at the block's place. -/
theorem read_blk6_2 (t : Fin cfg6.N) (A : S8192x512.Idx → EReal) (j : ((cfg6.win 2).xblock (cfg6.grid.coords t)).Idx) :
    (((cfg6.win 2).blk t).view.read (Elt Ideal) A : _ → EReal) j = A (((cfg6.win 2).blk t).view.emb j) := rfl

set_option maxHeartbeats 1000000 in
/-- What point `t` writes back is its row block of the product of the two input arrays. -/
theorem flushed6_eq (c : Dev nD) (t : Fin cfg6.N) :
    (dat6 (F := Ideal) V c).flushed 2 t
      = ((cfg6.win 2).blk t).view.read (Elt Ideal) (G6 (V c (Pipeline.arrRef spec6 0)) (V c (Pipeline.arrRef spec6 1))) := by
  show (cfg6.win 2).cut (grid6.coords t) ((dat6 V c).after 2 t) = _
  rw [after6_2]
  unfold out6_2
  rw [View.canon_unit_zero hz6]
  simp only [View.ld_unit_zero (S := S1024x128) hz6, View.ld_unit_zero (S := S128x512) hz6]
  obtain ⟨e0, e1, e2, e3, e4, e5⟩ := idx_facts6 t
  funext j
  refine (pay6_at (iblk6 V c 0 t) (iblk6 V c 1 t) _).trans ?_
  refine Eq.trans ?_ (read_blk6_2 t (G6 (V c (Pipeline.arrRef spec6 0)) (V c (Pipeline.arrRef spec6 1))) j).symm
  unfold G6
  refine Finset.sum_congr rfl fun k _ => ?_
  have h0 : ((cfg6.win 0).blk t).view.emb (li6 ((cfg6.win 2).xinj (grid6.coords t) j) k)
      = Li6 (((cfg6.win 2).blk t).view.emb j) k := by
    funext a; apply Fin.ext
    match a with
    | ⟨0, _⟩ => show win6_0.index t (0 : Fin 2) * 1024 + 1 * (j 0).val = win6_2.index t (0 : Fin 2) * 1024 + 1 * (j 0).val; omega
    | ⟨1, _⟩ => show win6_0.index t (1 : Fin 2) * 128 + 1 * k.val = k.val; omega
  have h1 : ((cfg6.win 1).blk t).view.emb (ri6 ((cfg6.win 2).xinj (grid6.coords t) j) k)
      = Ri6 (((cfg6.win 2).blk t).view.emb j) k := by
    funext a; apply Fin.ext
    match a with
    | ⟨0, _⟩ => show win6_1.index t (0 : Fin 2) * 128 + 1 * k.val = k.val; omega
    | ⟨1, _⟩ => show win6_1.index t (1 : Fin 2) * 512 + 1 * (j 1).val = win6_2.index t (1 : Fin 2) * 512 + 1 * (j 1).val; omega
  rw [iblk6_0_apply, iblk6_1_apply, h0, h1]

/-- An index of the output array is in point `t`'s block iff each coordinate is in the block's range on its axis. -/
theorem mem_blk6 (t : Fin cfg6.N) (i : S8192x512.Idx) :
    i ∈ ((cfg6.win 2).blk t).view.set ↔ ∀ a : Fin 2, win6_2.index t a * S1024x512.size a ≤ (i a).val ∧ (i a).val < win6_2.index t a * S1024x512.size a + S1024x512.size a := by
  show i ∈ ((View.whole main_v61).slice (win6_2.rect t)).set ↔ _
  rw [View.set_slice_whole, Rect.mem_set_unit]
  exact Iff.rfl

/-- The eight row blocks tile the output array: row `r` lies in the block of the point whose row block index is `r / 1024`. -/
theorem cover6_arr (i : S8192x512.Idx) :
    ∃ t : Fin cfg6.N, (cfg6.win 2).flush t = true ∧ i ∈ ((cfg6.win 2).blk t).view.set := by
  have hi0 : (i 0).val < 8192 := (i 0).isLt
  have hi1 : (i 1).val < 512 := (i 1).isLt
  obtain ⟨t, ht⟩ := idx_onto6 ⟨(i 0).val / 1024, by omega⟩
  have q0 : win6_2.index t (0 : Fin 2) = (i 0).val / 1024 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 1024 ≤ (i 0).val ∧ (i 0).val < win6_2.index t (0 : Fin 2) * 1024 + 1024; omega
  | ⟨1, _⟩ => show win6_2.index t (1 : Fin 2) * 512 ≤ (i 1).val ∧ (i 1).val < win6_2.index t (1 : Fin 2) * 512 + 512; omega

/-- After the region the output array is the product of the two input arrays as the region found them. -/
theorem final6_arr (c : Dev nD) :
    (dat6 (F := Ideal) V c).arrAt 2 cfg6.N = G6 (V c (Pipeline.arrRef spec6 0)) (V c (Pipeline.arrRef spec6 1)) :=
  (dat6 V c).arrAt_eq_of_cover 2 _ (fun t _ => flushed6_eq V c t) cover6_arr

/-- The product of two arrays at row `p`, column `q`: the sum over `k` of the left array's entry at (p, k) times the
    right array's at (k, q). -/
theorem G6_apply (a0 : S8192x128.Idx → EReal) (a1 : S128x512.Idx → EReal) (p : Fin 8192) (q : Fin 512) :
    G6 a0 a1 (ix2 p q) = ∑ k : Fin 128, a0 (ix2 p k) * a1 (ix2 k q) := by
  unfold G6
  refine Finset.sum_congr rfl fun k _ => ?_
  have hl : Li6 (ix2 p q) k = ix2 p k := funext fun a => by match a with | ⟨0, _⟩ => rfl | ⟨1, _⟩ => rfl
  have hr : Ri6 (ix2 p q) k = ix2 k q := funext fun a => by match a with | ⟨0, _⟩ => rfl | ⟨1, _⟩ => rfl
  rw [hl, hr]

/-- The region's two input arrays as it finds them and its output array as it leaves it, as plain functions of the index. -/
abbrev arrIn6_0 (c : Dev nD) : S8192x128.Idx → EReal := V c (Pipeline.arrRef spec6 0)
abbrev arrIn6_1 (c : Dev nD) : S128x512.Idx → EReal := V c (Pipeline.arrRef spec6 1)
abbrev arrOut6 (c : Dev nD) : S8192x512.Idx → EReal := (dat6 (F := Ideal) V c).arrAt 2 cfg6.N

/-- Entry by entry: row `p`, column `q` of the output array is the sum over `k` of the products of the left array's
    entry at (p, k) and the right array's at (k, q). -/
theorem final6 (c : Dev nD) (p : Fin 8192) (q : Fin 512) :
    arrOut6 V c (ix2 p q) = ∑ k : Fin 128, arrIn6_0 V c (ix2 p k) * arrIn6_1 V c (ix2 k q) :=
  (congrFun (final6_arr V c) (ix2 p q)).trans (G6_apply _ _ p q)

end Value

end Cert.KernelIdeal.Hand

end
-- ==== Proof.KI.Final7.lean ====
import proofs.«179362_j6141803233546_1_alg».proof.Proof.KI.Region7
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The region's value at the ideal instance: O = max(A·H + b, 0), index by index -/

section Value

open ValueIdx

variable (Vi : (c : Dev nD) → (b : Ref sig .tc) → Buf (Elt Ideal) ((c : Thread nD τ).loc b))

theorem hz7 : (![0, 0] : Fin 2 → Nat) = fun _ => 0 := funext fun a => by fin_cases a <;> rfl

/-! ## The product of two blocks at an index -/

theorem lhs7_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl

theorem rhs7_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The block product into the zero accumulator, at row `a` and column `b`: the sum over the 2048 contracted
    positions of the products. -/
theorem mm7_apply (x0 : FVec Ideal S1024x2048 .bf16) (x1 : FVec Ideal S2048x512 .bf16) (a : Fin 1024) (b : Fin 512) :
    matmul dot_S1024x2048_S2048x512_S1024x512_1_0_0_1_n_n none x0 x1 (constant S1024x512 .f32 0x00000000#32) (ix2 a b)
      = ∑ k : Fin 2048, x0 (ix2 a k) * x1 (ix2 k b) := by
  simp only [matmul]
  rw [Ideal.matmul_constant_zero_apply, ← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 a b) ((ValueIdx.contrEquiv1 dot_S1024x2048_S2048x512_S1024x512_1_0_0_1_n_n 2048 rfl rfl).symm k) = ix2 a k := funext fun d => Fin.ext (by
    match d with
    | ⟨0, _⟩ => exact lhs7_0 _ _
    | ⟨1, _⟩ => exact (dot_S1024x2048_S2048x512_S1024x512_1_0_0_1_n_n.lhsIdx_val_of_single rfl _ _).trans hk)
  have er : dot_S1024x2048_S2048x512_S1024x512_1_0_0_1_n_n.rhsIdx (ix2 a b) ((ValueIdx.contrEquiv1 dot_S1024x2048_S2048x512_S1024x512_1_0_0_1_n_n 2048 rfl rfl).symm k) = ix2 k b := funext fun d => Fin.ext (by
    match d with
    | ⟨0, _⟩ => exact (dot_S1024x2048_S2048x512_S1024x512_1_0_0_1_n_n.rhsIdx_val_of_single rfl _ _).trans hk
    | ⟨1, _⟩ => exact rhs7_1 _ _)
  rw [el, er]

/-! ## What the body leaves, at an index -/

theorem accA7_apply (x0 : Vec Ideal S1024x2048 .bf16) (x1 : Vec Ideal S2048x512 .bf16) (a : Fin 1024) (b : Fin 512) :
    accA7 x0 x1 (ix2 a b) = 0 + ∑ k : Fin 2048, (x0 (ix2 a k) : EReal) * x1 (ix2 k b) := by
  unfold accA7
  rw [View.canon_cons_unit_zero hz7]
  unfold k7_pay2 k7_pay1
  simp only [View.canon_unit_zero (S := S1024x512) hz7, View.ld_unit_zero (S := S1024x2048) hz7, View.ld_unit_zero (S := S2048x512) hz7, View.ld_unit_zero (S := S1024x512) hz7, shapeCast_self]
  show Ideal.ofBits .f32 0x00000000#32 + matmul (F := Ideal) dot_S1024x2048_S2048x512_S1024x512_1_0_0_1_n_n none x0 x1 (constant (F := Ideal) S1024x512 .f32 0x00000000#32) (ix2 a b) = _
  rw [Ideal.ofBits_zero_f32, mm7_apply]

theorem accB7_apply (x0 : Vec Ideal S1024x2048 .bf16) (x1 : Vec Ideal S2048x512 .bf16) (acc : Vec Ideal S1024x512 .f32) (a : Fin 1024) (b : Fin 512) :
    accB7 x0 x1 acc (ix2 a b) = (acc (ix2 a b) : EReal) + ∑ k : Fin 2048, (x0 (ix2 a k) : EReal) * x1 (ix2 k b) := by
  unfold accB7
  rw [View.canon_unit_zero hz7]
  unfold k7_pay2
  simp only [View.ld_unit_zero (S := S1024x2048) hz7, View.ld_unit_zero (S := S2048x512) hz7, View.ld_unit_zero (S := S1024x512) hz7, shapeCast_self]
  show (acc (ix2 a b) : EReal) + matmul (F := Ideal) dot_S1024x2048_S2048x512_S1024x512_1_0_0_1_n_n none x0 x1 (constant (F := Ideal) S1024x512 .f32 0x00000000#32) (ix2 a b) = _
  rw [mm7_apply]

theorem out7_3_apply (acc : Vec Ideal S1024x512 .f32) (x2 : Vec Ideal S1x512 .f32) (a : Fin 1024) (b : Fin 512) :
    (out7_3 acc x2 (ix2 a b) : EReal) = max ((acc (ix2 a b) : EReal) + x2 (ix2 0 b)) 0 := by
  unfold out7_3
  rw [View.canon_unit_zero hz7]
  unfold k7_pay3
  simp only [View.ld_unit_zero (S := S1024x512) hz7, View.ld_unit_zero (S := S1x512) hz7, shapeCast_self]
  show max ((acc (ix2 a b) : EReal) + broadcastTo S1024x512 x2 broadcasts_S1x512_S1024x512 (ix2 a b)) (Ideal.ofBits .f32 0x00000000#32) = _
  rw [Ideal.ofBits_zero_f32, broadcastTo_apply x2 _ (ix2 a b) (ix2 0 b) (fun d => by
    match d with
    | ⟨0, _⟩ => rfl
    | ⟨1, _⟩ => rfl)]

/-! ## The windows' blocks as entries of their arrays -/

/-- The printed index maps, decided over the grid: point `t` is row block `t / 4`, column block `t % 4`. -/
theorem idx7 : ∀ t : Fin cfg7.N,
    win7_0.index t (0 : Fin 2) = t.val / 4 ∧ win7_0.index t (1 : Fin 2) = t.val % 4
    ∧ win7_1.index t (0 : Fin 2) = t.val % 4 ∧ win7_1.index t (1 : Fin 2) = 0
    ∧ win7_2.index t (0 : Fin 2) = 0 ∧ win7_2.index t (1 : Fin 2) = 0
    ∧ win7_3.index t (0 : Fin 2) = t.val / 4 ∧ win7_3.index t (1 : Fin 2) = 0 :=
  (by decide +kernel : ∀ t : Fin grid7.N, _)

/-- The three input arrays as the region finds them, read as functions of a literal index. -/
abbrev VA7 (c : Dev nD) : S8192x8192.Idx → EReal := Vi c (Pipeline.arrRef spec7 0)
abbrev VH7 (c : Dev nD) : S8192x512.Idx → EReal := Vi c (Pipeline.arrRef spec7 1)
abbrev VB7 (c : Dev nD) : S1x512.Idx → EReal := Vi c (Pipeline.arrRef spec7 2)

theorem iblk7_0_apply (c : Dev nD) (t : Fin cfg7.N) (x : S1024x2048.Idx) (k : S8192x8192.Idx)
    (hk0 : (k 0).val = 1024 * (t.val / 4) + (x 0).val) (hk1 : (k 1).val = 2048 * (t.val % 4) + (x 1).val) :
    (iblk7 Vi c 0 t : Vec Ideal S1024x2048 .bf16) x = VA7 Vi c k := by
  obtain ⟨e0, e1, -⟩ := idx7 t
  unfold iblk7
  rw [View.read_apply]
  show Vi c (Pipeline.arrRef spec7 0) _ = Vi c (Pipeline.arrRef spec7 0) _
  congr 1
  funext a
  apply Fin.ext
  match a with
  | ⟨0, _⟩ => show win7_0.index t 0 * 1024 + 1 * (x 0).val = (k 0).val; rw [e0, hk0]; omega
  | ⟨1, _⟩ => show win7_0.index t 1 * 2048 + 1 * (x 1).val = (k 1).val; rw [e1, hk1]; omega

theorem iblk7_1_apply (c : Dev nD) (t : Fin cfg7.N) (x : S2048x512.Idx) (k : S8192x512.Idx)
    (hk0 : (k 0).val = 2048 * (t.val % 4) + (x 0).val) (hk1 : (k 1).val = (x 1).val) :
    (iblk7 Vi c 1 t : Vec Ideal S2048x512 .bf16) x = VH7 Vi c k := by
  obtain ⟨-, -, e0, e1, -⟩ := idx7 t
  unfold iblk7
  rw [View.read_apply]
  show Vi c (Pipeline.arrRef spec7 1) _ = Vi c (Pipeline.arrRef spec7 1) _
  congr 1
  funext a
  apply Fin.ext
  match a with
  | ⟨0, _⟩ => show win7_1.index t 0 * 2048 + 1 * (x 0).val = (k 0).val; rw [e0, hk0]; omega
  | ⟨1, _⟩ => show win7_1.index t 1 * 512 + 1 * (x 1).val = (k 1).val; rw [e1, hk1]; omega

theorem iblk7_2_apply (c : Dev nD) (t : Fin cfg7.N) (x : S1x512.Idx) (k : S1x512.Idx)
    (hk0 : (k 0).val = (x 0).val) (hk1 : (k 1).val = (x 1).val) :
    (iblk7 Vi c 2 t : Vec Ideal S1x512 .f32) x = VB7 Vi c k := by
  obtain ⟨-, -, -, -, e0, e1, -⟩ := idx7 t
  unfold iblk7
  rw [View.read_apply]
  show Vi c (Pipeline.arrRef spec7 2) _ = Vi c (Pipeline.arrRef spec7 2) _
  congr 1
  funext a
  apply Fin.ext
  match a with
  | ⟨0, _⟩ => show win7_2.index t 0 * 1 + 1 * (x 0).val = (k 0).val; rw [e0, hk0]; omega
  | ⟨1, _⟩ => show win7_2.index t 1 * 512 + 1 * (x 1).val = (k 1).val; rw [e1, hk1]; omega

/-! ## The four column blocks of a row sum to the whole row -/

/-- The product of row `p` of A with column `q` of H at contracted position `k` (zero past the arrays). -/
def term7 (c : Dev nD) (p : Fin 8192) (q : Fin 512) (k : ℕ) : EReal :=
  if h : k < 8192 then VA7 Vi c (ix2 p ⟨k, h⟩) * VH7 Vi c (ix2 ⟨k, h⟩ q) else 0

theorem term7_sum (c : Dev nD) (p : Fin 8192) (q : Fin 512) :
    ∑ k : Fin 8192, term7 Vi c p q k.val = ∑ k : Fin 8192, VA7 Vi c (ix2 p k) * VH7 Vi c (ix2 k q) :=
  Finset.sum_congr rfl fun k _ => by unfold term7; rw [dif_pos k.isLt]

/-- A sum over 8192 positions is the sum over four blocks of 2048. -/
theorem sum_blocks7 (f : ℕ → EReal) :
    ∑ k : Fin 8192, f k.val = ∑ j : Fin 4, ∑ k : Fin 2048, f (2048 * j.val + k.val) :=
  calc ∑ k : Fin 8192, f k.val = ∑ k : Fin (4 * 2048), f k.val := rfl
    _ = ∑ x : Fin 4 × Fin 2048, f (finProdFinEquiv x).val :=
        (Equiv.sum_comp finProdFinEquiv (fun k : Fin (4 * 2048) => f k.val)).symm
    _ = ∑ j : Fin 4, ∑ k : Fin 2048, f (finProdFinEquiv (j, k)).val := Fintype.sum_prod_type _
    _ = _ := Finset.sum_congr rfl fun j _ => Finset.sum_congr rfl fun k _ => by
        refine congrArg f ?_
        show k.val + 2048 * j.val = 2048 * j.val + k.val
        omega

/-- A block product whose operands are column block `j` of row `p` of A and row block `j` of column `b` of H is
    that block's part of the row's sum. -/
theorem mmAt7 (c : Dev nD) (x0 : Vec Ideal S1024x2048 .bf16) (x1 : Vec Ideal S2048x512 .bf16) (j : ℕ) (hj : j < 4)
    (a : Fin 1024) (b : Fin 512) (p : Fin 8192)
    (h0 : ∀ (k : Fin 2048) (hlt : 2048 * j + k.val < 8192), x0 (ix2 a k) = VA7 Vi c (ix2 p ⟨2048 * j + k.val, hlt⟩))
    (h1 : ∀ (k : Fin 2048) (hlt : 2048 * j + k.val < 8192), x1 (ix2 k b) = VH7 Vi c (ix2 ⟨2048 * j + k.val, hlt⟩ b)) :
    ∑ k : Fin 2048, (x0 (ix2 a k) : EReal) * x1 (ix2 k b) = ∑ k : Fin 2048, term7 Vi c p b (2048 * j + k.val) := by
  refine Finset.sum_congr rfl fun k _ => ?_
  have hlt : 2048 * j + k.val < 8192 := by have := k.isLt; omega
  unfold term7
  rw [dif_pos hlt, h0 k hlt, h1 k hlt]

/-! ## The accumulator where the row block's last point leaves it -/

theorem accN7_succ_A (c : Dev nD) (n : ℕ) (h : n < cfg7.N) (h0 : n % 4 = 0) :
    accN7 Vi c (n + 1) = accA7 (iblk7 Vi c 0 ⟨n, h⟩) (iblk7 Vi c 1 ⟨n, h⟩) :=
  accN7_A Vi c ⟨n, h⟩ h0

theorem accN7_succ_B (c : Dev nD) (n : ℕ) (h : n < cfg7.N) (h0 : ¬n % 4 = 0) :
    accN7 Vi c (n + 1) = accB7 (iblk7 Vi c 0 ⟨n, h⟩) (iblk7 Vi c 1 ⟨n, h⟩) (accN7 Vi c n) :=
  accN7_B Vi c ⟨n, h⟩ h0

/-- After the point whose column block is 3 the accumulator holds, at row `a` of the block and column `b`, the
    whole product of row `p` of A with column `b` of H. -/
theorem accN7_flush (c : Dev nD) (t : Fin cfg7.N) (h3 : t.val % 4 = 3) (a : Fin 1024) (b : Fin 512) (p : Fin 8192)
    (hp : p.val = 1024 * (t.val / 4) + a.val) :
    (accN7 Vi c (t.val + 1) (ix2 a b) : EReal) = ∑ k : Fin 8192, VA7 Vi c (ix2 p k) * VH7 Vi c (ix2 k b) := by
  have hN : t.val < 32 := lt_of_lt_of_eq t.isLt (show cfg7.N = 32 from N_7)
  obtain ⟨n, hn⟩ : ∃ n, t.val = n + 1 + 1 + 1 := ⟨t.val - 3, by omega⟩
  have hc : cfg7.N = 32 := N_7
  have l0 : n < cfg7.N := by omega
  have l1 : n + 1 < cfg7.N := by omega
  have l2 : n + 1 + 1 < cfg7.N := by omega
  have l3 : n + 1 + 1 + 1 < cfg7.N := by omega
  have e3 := (congrFun (accN7_succ_B Vi c (n + 1 + 1 + 1) l3 (by omega)) (ix2 a b)).trans (accB7_apply _ _ _ a b)
  have e2 := (congrFun (accN7_succ_B Vi c (n + 1 + 1) l2 (by omega)) (ix2 a b)).trans (accB7_apply _ _ _ a b)
  have e1 := (congrFun (accN7_succ_B Vi c (n + 1) l1 (by omega)) (ix2 a b)).trans (accB7_apply _ _ _ a b)
  have e0 := (congrFun (accN7_succ_A Vi c n l0 (by omega)) (ix2 a b)).trans (accA7_apply _ _ a b)
  have m0 := mmAt7 Vi c (iblk7 Vi c 0 ⟨n, l0⟩) (iblk7 Vi c 1 ⟨n, l0⟩) 0 (by omega) a b p
    (fun k hlt => iblk7_0_apply Vi c ⟨n, l0⟩ (ix2 a k) (ix2 p ⟨2048 * 0 + k.val, hlt⟩)
      (by show p.val = 1024 * ((n) / 4) + a.val; omega) (by show 2048 * 0 + k.val = 2048 * ((n) % 4) + k.val; omega))
    (fun k hlt => iblk7_1_apply Vi c ⟨n, l0⟩ (ix2 k b) (ix2 ⟨2048 * 0 + k.val, hlt⟩ b)
      (by show 2048 * 0 + k.val = 2048 * ((n) % 4) + k.val; omega) rfl)
  have m1 := mmAt7 Vi c (iblk7 Vi c 0 ⟨n + 1, l1⟩) (iblk7 Vi c 1 ⟨n + 1, l1⟩) 1 (by omega) a b p
    (fun k hlt => iblk7_0_apply Vi c ⟨n + 1, l1⟩ (ix2 a k) (ix2 p ⟨2048 * 1 + k.val, hlt⟩)
      (by show p.val = 1024 * ((n + 1) / 4) + a.val; omega) (by show 2048 * 1 + k.val = 2048 * ((n + 1) % 4) + k.val; omega))
    (fun k hlt => iblk7_1_apply Vi c ⟨n + 1, l1⟩ (ix2 k b) (ix2 ⟨2048 * 1 + k.val, hlt⟩ b)
      (by show 2048 * 1 + k.val = 2048 * ((n + 1) % 4) + k.val; omega) rfl)
  have m2 := mmAt7 Vi c (iblk7 Vi c 0 ⟨n + 1 + 1, l2⟩) (iblk7 Vi c 1 ⟨n + 1 + 1, l2⟩) 2 (by omega) a b p
    (fun k hlt => iblk7_0_apply Vi c ⟨n + 1 + 1, l2⟩ (ix2 a k) (ix2 p ⟨2048 * 2 + k.val, hlt⟩)
      (by show p.val = 1024 * ((n + 1 + 1) / 4) + a.val; omega) (by show 2048 * 2 + k.val = 2048 * ((n + 1 + 1) % 4) + k.val; omega))
    (fun k hlt => iblk7_1_apply Vi c ⟨n + 1 + 1, l2⟩ (ix2 k b) (ix2 ⟨2048 * 2 + k.val, hlt⟩ b)
      (by show 2048 * 2 + k.val = 2048 * ((n + 1 + 1) % 4) + k.val; omega) rfl)
  have m3 := mmAt7 Vi c (iblk7 Vi c 0 ⟨n + 1 + 1 + 1, l3⟩) (iblk7 Vi c 1 ⟨n + 1 + 1 + 1, l3⟩) 3 (by omega) a b p
    (fun k hlt => iblk7_0_apply Vi c ⟨n + 1 + 1 + 1, l3⟩ (ix2 a k) (ix2 p ⟨2048 * 3 + k.val, hlt⟩)
      (by show p.val = 1024 * ((n + 1 + 1 + 1) / 4) + a.val; omega) (by show 2048 * 3 + k.val = 2048 * ((n + 1 + 1 + 1) % 4) + k.val; omega))
    (fun k hlt => iblk7_1_apply Vi c ⟨n + 1 + 1 + 1, l3⟩ (ix2 k b) (ix2 ⟨2048 * 3 + k.val, hlt⟩ b)
      (by show 2048 * 3 + k.val = 2048 * ((n + 1 + 1 + 1) % 4) + k.val; omega) rfl)
  rw [hn, e3, e2, e1, e0, m0, m1, m2, m3, zero_add, ← term7_sum Vi c p b, sum_blocks7 (term7 Vi c p b), Fin.sum_univ_four]
  rfl

/-! ## The write-backs and the array -/

/-- Entry (p, q) of the result: the row of A times the column of H, plus the bias, clamped below at zero. -/
def g7 (c : Dev nD) (p : Fin 8192) (q : Fin 512) : EReal :=
  max ((∑ k : Fin 8192, VA7 Vi c (ix2 p k) * VH7 Vi c (ix2 k q)) + VB7 Vi c (ix2 0 q)) 0

/-- The result array, index by index. -/
abbrev G7 (c : Dev nD) : S8192x512.Idx → EReal := fun i => g7 Vi c (i 0) (i 1)

/-- What a point that writes back writes is its block of the result. -/
theorem flushed7_eq (c : Dev nD) (t : Fin cfg7.N) (hf : (cfg7.win 3).flush t = true) :
    (dat7 (F := Ideal) Vi c).flushed 3 t = ((cfg7.win 3).blk t).view.read (Elt Ideal) (G7 Vi c) := by
  have h3 : t.val % 4 = 3 := (flush7_3 t).mp hf
  have hN : t.val < 32 := lt_of_lt_of_eq t.isLt (show cfg7.N = 32 from N_7)
  obtain ⟨-, -, -, -, -, -, e6, e7⟩ := idx7 t
  show (cfg7.win 3).cut (grid7.coords t) ((dat7 (F := Ideal) Vi c).after 3 t) = _
  rw [after7_3]
  funext y
  obtain ⟨a, b, rfl⟩ : ∃ (a : Fin 1024) (b : Fin 512), y = ix2 a b := ⟨y 0, y 1, eq_ix2 y⟩
  have hP : 1024 * (t.val / 4) + a.val < 8192 := by have := a.isLt; omega
  have e : ((cfg7.win 3).blk t).view.emb (ix2 a b) = (ix2 (⟨1024 * (t.val / 4) + a.val, hP⟩ : Fin 8192) b : S8192x512.Idx) :=
    funext fun d => Fin.ext (by
      match d with
      | ⟨0, _⟩ => show win7_3.index t 0 * 1024 + 1 * a.val = 1024 * (t.val / 4) + a.val; rw [e6]; omega
      | ⟨1, _⟩ => show win7_3.index t 1 * 512 + 1 * b.val = b.val; rw [e7]; omega)
  rw [View.read_apply]
  show (out7_3 (accN7 Vi c (t.val + 1)) (iblk7 Vi c 2 t) (ix2 a b) : EReal) = G7 Vi c (((cfg7.win 3).blk t).view.emb (ix2 a b))
  rw [e]
  refine (out7_3_apply _ _ a b).trans ?_
  show _ = g7 Vi c ⟨1024 * (t.val / 4) + a.val, hP⟩ b
  unfold g7
  rw [accN7_flush Vi c t h3 a b ⟨1024 * (t.val / 4) + a.val, hP⟩ rfl,
    iblk7_2_apply Vi c t (ix2 0 b) (ix2 0 b) rfl rfl]

/-- An index of the result array is in point `t`'s block iff each coordinate is in the block's range on its axis. -/
theorem mem_blk7 (t : Fin cfg7.N) (i : S8192x512.Idx) :
    i ∈ ((cfg7.win 3).blk t).view.set ↔ ∀ a : Fin 2, win7_3.index t a * S1024x512.size a ≤ (i a).val ∧ (i a).val < win7_3.index t a * S1024x512.size a + S1024x512.size a := by
  show i ∈ ((View.whole main_v63).slice (win7_3.rect t)).set ↔ _
  rw [View.set_slice_whole, Rect.mem_set_unit]
  exact Iff.rfl

/-- THE ARRAY after the region: the result, index by index. -/
theorem arrAt7_final (c : Dev nD) : (dat7 (F := Ideal) Vi c).arrAt 3 cfg7.N = G7 Vi c :=
  (dat7 (F := Ideal) Vi c).arrAt_eq_of_cover 3 (G7 Vi c) (flushed7_eq Vi c) fun i => by
    have hi0 : (i 0).val < 8192 := (i 0).isLt
    have hi1 : (i 1).val < 512 := (i 1).isLt
    have hc : cfg7.N = 32 := N_7
    have ht : 4 * ((i 0).val / 1024) + 3 < cfg7.N := by omega
    obtain ⟨-, -, -, -, -, -, e6, e7⟩ := idx7 ⟨4 * ((i 0).val / 1024) + 3, ht⟩
    refine ⟨⟨4 * ((i 0).val / 1024) + 3, ht⟩, (flush7_3 _).mpr (by show (4 * ((i 0).val / 1024) + 3) % 4 = 3; omega), ?_⟩
    refine (mem_blk7 _ i).mpr fun a => ?_
    match a with
    | ⟨0, _⟩ =>
      show win7_3.index ⟨4 * ((i 0).val / 1024) + 3, ht⟩ (0 : Fin 2) * 1024 ≤ (i 0).val ∧ (i 0).val < win7_3.index ⟨4 * ((i 0).val / 1024) + 3, ht⟩ (0 : Fin 2) * 1024 + 1024
      rw [e6]; show (4 * ((i 0).val / 1024) + 3) / 4 * 1024 ≤ (i 0).val ∧ (i 0).val < (4 * ((i 0).val / 1024) + 3) / 4 * 1024 + 1024; omega
    | ⟨1, _⟩ =>
      show win7_3.index ⟨4 * ((i 0).val / 1024) + 3, ht⟩ (1 : Fin 2) * 512 ≤ (i 1).val ∧ (i 1).val < win7_3.index ⟨4 * ((i 0).val / 1024) + 3, ht⟩ (1 : Fin 2) * 512 + 512
      rw [e7]; omega

/-- THE REGION'S VALUE: entry (p, q) of the output array after the region (`VA7`, `VH7`, `VB7`: the three
    input arrays as the region finds them, `Vi c (Pipeline.arrRef spec7 w)` read at literal index types). -/
theorem final7 (c : Dev nD) (p : Fin 8192) (q : Fin 512) :
    (dat7 (F := Ideal) Vi c).arrAt 3 cfg7.N (ix2 p q)
      = max ((∑ k : Fin 8192, VA7 Vi c (ix2 p k) * VH7 Vi c (ix2 k q)) + VB7 Vi c (ix2 0 q)) 0 := by
  rw [arrAt7_final Vi c]
  rfl

end Value

end Cert.KernelIdeal.Hand

end
-- ==== Proof.KI.Final8.lean ====
import proofs.«179362_j6141803233546_1_alg».proof.Proof.KI.Region8
import Idealize.ShloMosaic.PureOps.Ideal.Laws
import Idealize.ShloMosaic.Lib.ValueIdx

/-! # Region 8 at the ideal numbers: the output array is the matrix product of the two input arrays -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The region's value at the ideal numbers

Read at the ideal numbers, rounding is the identity and a matrix product into a zero accumulator is the plain sum of
products. Each grid point writes back one row block of the product of the two input arrays, and the eight row blocks
tile the output array: after the region the output array IS the matrix product of the two input arrays as the region
found them. -/

section Value

open Idealize.ShloMosaic.ValueIdx

variable (V : (c : Dev nD) → (b : Ref sig .tc) → Buf (Elt Ideal) ((c : Thread nD τ).loc b))

theorem hz8 : (![0, 0] : Fin 2 → Nat) = fun _ => 0 := funext fun a => by fin_cases a <;> rfl

/-- The operand entries that entry `y` of a block product reads at contraction coordinate `k`: row `y 0` of the left
    block, column `y 1` of the right one. -/
abbrev li8 (y : S1024x128.Idx) (k : Fin 128) : S1024x128.Idx := fun a => match a with
  | ⟨0, _⟩ => ⟨(y 0).val, (y 0).isLt⟩
  | ⟨1, _⟩ => ⟨k.val, k.isLt⟩
abbrev ri8 (y : S1024x128.Idx) (k : Fin 128) : S128x128.Idx := fun a => match a with
  | ⟨0, _⟩ => ⟨k.val, k.isLt⟩
  | ⟨1, _⟩ => ⟨(y 1).val, (y 1).isLt⟩

theorem lhs8_0 (y : S1024x128.Idx) (q : dot_S1024x128_S128x128_S1024x128_1_0_0_1_n_n.contr.Idx) : (dot_S1024x128_S128x128_S1024x128_1_0_0_1_n_n.lhsIdx y q 0).val = (y 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs8_1 (y : S1024x128.Idx) (q : dot_S1024x128_S128x128_S1024x128_1_0_0_1_n_n.contr.Idx) : (dot_S1024x128_S128x128_S1024x128_1_0_0_1_n_n.lhsIdx y q 1).val = (q ⟨0, by decide⟩).val :=
  dot_S1024x128_S128x128_S1024x128_1_0_0_1_n_n.lhsIdx_val_of_single rfl y q
theorem rhs8_0 (y : S1024x128.Idx) (q : dot_S1024x128_S128x128_S1024x128_1_0_0_1_n_n.contr.Idx) : (dot_S1024x128_S128x128_S1024x128_1_0_0_1_n_n.rhsIdx y q 0).val = (q ⟨0, by decide⟩).val :=
  dot_S1024x128_S128x128_S1024x128_1_0_0_1_n_n.rhsIdx_val_of_single rfl y q
theorem rhs8_1 (y : S1024x128.Idx) (q : dot_S1024x128_S128x128_S1024x128_1_0_0_1_n_n.contr.Idx) : (dot_S1024x128_S128x128_S1024x128_1_0_0_1_n_n.rhsIdx y q 1).val = (y 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The body's payload, entry by entry: the sum over the contraction coordinate of the operands' products. -/
theorem pay8_at (x0 : S1024x128.Idx → EReal) (x1 : S128x128.Idx → EReal) (y : S1024x128.Idx) :
    k8_pay1 (F := Ideal) x0 x1 y = ∑ k : Fin 128, x0 (li8 y k) * x1 (ri8 y k) := by
  show FloatOps.matmul (F := Ideal) (φ₁ := .bf16) (φ₂ := .bf16) dot_S1024x128_S128x128_S1024x128_1_0_0_1_n_n none (shapeCast S1024x128 x0 _) (shapeCast S128x128 x1 _)
    (constant S1024x128 .f32 0x00000000#32) y = _
  rw [shapeCast_self, shapeCast_self, Ideal.matmul_constant_zero_apply,
    ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx y ((contrEquiv1 dot_S1024x128_S128x128_S1024x128_1_0_0_1_n_n 128 rfl rfl).symm k) = li8 y k := funext fun a => Fin.ext (by
    match a with
    | ⟨0, _⟩ => exact lhs8_0 _ _
    | ⟨1, _⟩ => exact (lhs8_1 _ _).trans hk)
  have er : dot_S1024x128_S128x128_S1024x128_1_0_0_1_n_n.rhsIdx y ((contrEquiv1 dot_S1024x128_S128x128_S1024x128_1_0_0_1_n_n 128 rfl rfl).symm k) = ri8 y k := funext fun a => Fin.ext (by
    match a with
    | ⟨0, _⟩ => exact (rhs8_0 _ _).trans hk
    | ⟨1, _⟩ => exact rhs8_1 _ _)
  rw [el, er]

/-- The array entries that entry `i` of the product of two arrays reads at contraction coordinate `k`. -/
abbrev Li8 (i : S8192x128.Idx) (k : Fin 128) : S8192x128.Idx := fun a => match a with
  | ⟨0, _⟩ => ⟨(i 0).val, (i 0).isLt⟩
  | ⟨1, _⟩ => ⟨k.val, k.isLt⟩
abbrev Ri8 (i : S8192x128.Idx) (k : Fin 128) : S128x128.Idx := fun a => match a with
  | ⟨0, _⟩ => ⟨k.val, k.isLt⟩
  | ⟨1, _⟩ => ⟨(i 1).val, (i 1).isLt⟩

/-- The matrix product of two arrays, entry by entry. -/
def G8 (a0 : S8192x128.Idx → EReal) (a1 : S128x128.Idx → EReal) : S8192x128.Idx → EReal :=
  fun i => ∑ k : Fin 128, a0 (Li8 i k) * a1 (Ri8 i k)

/-- The printed index maps over the grid: the left operand's row block moves with the output's, every other block
    coordinate stays at zero, and the output's row block index is below 8. -/
theorem idx_facts8 : ∀ t : Fin cfg8.N, win8_0.index t (0 : Fin 2) = win8_2.index t (0 : Fin 2)
    ∧ win8_0.index t (1 : Fin 2) = 0 ∧ win8_1.index t (0 : Fin 2) = 0 ∧ win8_1.index t (1 : Fin 2) = 0
    ∧ win8_2.index t (1 : Fin 2) = 0 ∧ win8_2.index t (0 : Fin 2) ≤ 7 :=
  (by decide +kernel : ∀ t : Fin grid8.N, _)

/-- Every row block of the output is some point's. -/
theorem idx_onto8 : ∀ (q0 : Fin 8), ∃ t : Fin cfg8.N, win8_2.index t = ![q0.val, 0] :=
  (by decide +kernel : ∀ (q0 : Fin 8), ∃ t : Fin grid8.N, win8_2.index t = ![q0.val, 0])

/-- An entry of an input window's block is the array's entry at the block's place. -/
theorem iblk8_0_apply (c : Dev nD) (t : Fin cfg8.N) (y : S1024x128.Idx) :
    (iblk8 V c 0 t : S1024x128.Idx → EReal) y = (V c (Pipeline.arrRef spec8 0) : S8192x128.Idx → EReal) (((cfg8.win 0).blk t).view.emb y) := rfl
theorem iblk8_1_apply (c : Dev nD) (t : Fin cfg8.N) (y : S128x128.Idx) :
    (iblk8 V c 1 t : S128x128.Idx → EReal) y = (V c (Pipeline.arrRef spec8 1) : S128x128.Idx → EReal) (((cfg8.win 1).blk t).view.emb y) := rfl
/-- An entry of the output window's block of any array is the array's entry at the block's place. -/
theorem read_blk8_2 (t : Fin cfg8.N) (A : S8192x128.Idx → EReal) (j : ((cfg8.win 2).xblock (cfg8.grid.coords t)).Idx) :
    (((cfg8.win 2).blk t).view.read (Elt Ideal) A : _ → EReal) j = A (((cfg8.win 2).blk t).view.emb j) := rfl

set_option maxHeartbeats 1000000 in
/-- What point `t` writes back is its row block of the product of the two input arrays. -/
theorem flushed8_eq (c : Dev nD) (t : Fin cfg8.N) :
    (dat8 (F := Ideal) V c).flushed 2 t
      = ((cfg8.win 2).blk t).view.read (Elt Ideal) (G8 (V c (Pipeline.arrRef spec8 0)) (V c (Pipeline.arrRef spec8 1))) := by
  show (cfg8.win 2).cut (grid8.coords t) ((dat8 V c).after 2 t) = _
  rw [after8_2]
  unfold out8_2
  rw [View.canon_unit_zero hz8]
  simp only [View.ld_unit_zero (S := S1024x128) hz8, View.ld_unit_zero (S := S128x128) hz8]
  obtain ⟨e0, e1, e2, e3, e4, e5⟩ := idx_facts8 t
  funext j
  refine (pay8_at (iblk8 V c 0 t) (iblk8 V c 1 t) _).trans ?_
  refine Eq.trans ?_ (read_blk8_2 t (G8 (V c (Pipeline.arrRef spec8 0)) (V c (Pipeline.arrRef spec8 1))) j).symm
  unfold G8
  refine Finset.sum_congr rfl fun k _ => ?_
  have h0 : ((cfg8.win 0).blk t).view.emb (li8 ((cfg8.win 2).xinj (grid8.coords t) j) k)
      = Li8 (((cfg8.win 2).blk t).view.emb j) k := by
    funext a; apply Fin.ext
    match a with
    | ⟨0, _⟩ => show win8_0.index t (0 : Fin 2) * 1024 + 1 * (j 0).val = win8_2.index t (0 : Fin 2) * 1024 + 1 * (j 0).val; omega
    | ⟨1, _⟩ => show win8_0.index t (1 : Fin 2) * 128 + 1 * k.val = k.val; omega
  have h1 : ((cfg8.win 1).blk t).view.emb (ri8 ((cfg8.win 2).xinj (grid8.coords t) j) k)
      = Ri8 (((cfg8.win 2).blk t).view.emb j) k := by
    funext a; apply Fin.ext
    match a with
    | ⟨0, _⟩ => show win8_1.index t (0 : Fin 2) * 128 + 1 * k.val = k.val; omega
    | ⟨1, _⟩ => show win8_1.index t (1 : Fin 2) * 128 + 1 * (j 1).val = win8_2.index t (1 : Fin 2) * 128 + 1 * (j 1).val; omega
  rw [iblk8_0_apply, iblk8_1_apply, h0, h1]

/-- An index of the output array is in point `t`'s block iff each coordinate is in the block's range on its axis. -/
theorem mem_blk8 (t : Fin cfg8.N) (i : S8192x128.Idx) :
    i ∈ ((cfg8.win 2).blk t).view.set ↔ ∀ a : Fin 2, win8_2.index t a * S1024x128.size a ≤ (i a).val ∧ (i a).val < win8_2.index t a * S1024x128.size a + S1024x128.size a := by
  show i ∈ ((View.whole main_v64).slice (win8_2.rect t)).set ↔ _
  rw [View.set_slice_whole, Rect.mem_set_unit]
  exact Iff.rfl

/-- The eight row blocks tile the output array: row `r` lies in the block of the point whose row block index is `r / 1024`. -/
theorem cover8_arr (i : S8192x128.Idx) :
    ∃ t : Fin cfg8.N, (cfg8.win 2).flush t = true ∧ i ∈ ((cfg8.win 2).blk t).view.set := by
  have hi0 : (i 0).val < 8192 := (i 0).isLt
  have hi1 : (i 1).val < 128 := (i 1).isLt
  obtain ⟨t, ht⟩ := idx_onto8 ⟨(i 0).val / 1024, by omega⟩
  have q0 : win8_2.index t (0 : Fin 2) = (i 0).val / 1024 := congrFun ht 0
  have q1 : win8_2.index t (1 : Fin 2) = 0 := congrFun ht 1
  refine ⟨t, flush8_2 t, ?_⟩
  rw [mem_blk8]
  intro a
  match a with
  | ⟨0, _⟩ => show win8_2.index t (0 : Fin 2) * 1024 ≤ (i 0).val ∧ (i 0).val < win8_2.index t (0 : Fin 2) * 1024 + 1024; omega
  | ⟨1, _⟩ => show win8_2.index t (1 : Fin 2) * 128 ≤ (i 1).val ∧ (i 1).val < win8_2.index t (1 : Fin 2) * 128 + 128; omega

/-- After the region the output array is the product of the two input arrays as the region found them. -/
theorem final8_arr (c : Dev nD) :
    (dat8 (F := Ideal) V c).arrAt 2 cfg8.N = G8 (V c (Pipeline.arrRef spec8 0)) (V c (Pipeline.arrRef spec8 1)) :=
  (dat8 V c).arrAt_eq_of_cover 2 _ (fun t _ => flushed8_eq V c t) cover8_arr

/-- The product of two arrays at row `p`, column `q`: the sum over `k` of the left array's entry at (p, k) times the
    right array's at (k, q). -/
theorem G8_apply (a0 : S8192x128.Idx → EReal) (a1 : S128x128.Idx → EReal) (p : Fin 8192) (q : Fin 128) :
    G8 a0 a1 (ix2 p q) = ∑ k : Fin 128, a0 (ix2 p k) * a1 (ix2 k q) := by
  unfold G8
  refine Finset.sum_congr rfl fun k _ => ?_
  have hl : Li8 (ix2 p q) k = ix2 p k := funext fun a => by match a with | ⟨0, _⟩ => rfl | ⟨1, _⟩ => rfl
  have hr : Ri8 (ix2 p q) k = ix2 k q := funext fun a => by match a with | ⟨0, _⟩ => rfl | ⟨1, _⟩ => rfl
  rw [hl, hr]

/-- The region's two input arrays as it finds them and its output array as it leaves it, as plain functions of the index. -/
abbrev arrIn8_0 (c : Dev nD) : S8192x128.Idx → EReal := V c (Pipeline.arrRef spec8 0)
abbrev arrIn8_1 (c : Dev nD) : S128x128.Idx → EReal := V c (Pipeline.arrRef spec8 1)
abbrev arrOut8 (c : Dev nD) : S8192x128.Idx → EReal := (dat8 (F := Ideal) V c).arrAt 2 cfg8.N

/-- Entry by entry: row `p`, column `q` of the output array is the sum over `k` of the products of the left array's
    entry at (p, k) and the right array's at (k, q). -/
theorem final8 (c : Dev nD) (p : Fin 8192) (q : Fin 128) :
    arrOut8 V c (ix2 p q) = ∑ k : Fin 128, arrIn8_0 V c (ix2 p k) * arrIn8_1 V c (ix2 k q) :=
  (congrFun (final8_arr V c) (ix2 p q)).trans (G8_apply _ _ p q)

end Value

end Cert.KernelIdeal.Hand

end
-- ==== Proof.KI.Final9.lean ====
import proofs.«179362_j6141803233546_1_alg».proof.Proof.KI.Region9
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The region's value at the ideal instance: O = max(A·H + b, 0), index by index -/

section Value

open ValueIdx

variable (Vi : (c : Dev nD) → (b : Ref sig .tc) → Buf (Elt Ideal) ((c : Thread nD τ).loc b))

theorem hz9 : (![0, 0] : Fin 2 → Nat) = fun _ => 0 := funext fun a => by fin_cases a <;> rfl

/-! ## The product of two blocks at an index -/

theorem lhs9_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

theorem rhs9_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The block product into the zero accumulator, at row `a` and column `b`: the sum over the 2048 contracted
    positions of the products. -/
theorem mm9_apply (x0 : FVec Ideal S1024x2048 .bf16) (x1 : FVec Ideal S2048x128 .bf16) (a : Fin 1024) (b : Fin 128) :
    matmul dot_S1024x2048_S2048x128_S1024x128_1_0_0_1_n_n none x0 x1 (constant S1024x128 .f32 0x00000000#32) (ix2 a b)
      = ∑ k : Fin 2048, x0 (ix2 a k) * x1 (ix2 k b) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 a b) ((ValueIdx.contrEquiv1 dot_S1024x2048_S2048x128_S1024x128_1_0_0_1_n_n 2048 rfl rfl).symm k) = ix2 a k := funext fun d => Fin.ext (by
    match d with
    | ⟨0, _⟩ => exact lhs9_0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 a b) ((ValueIdx.contrEquiv1 dot_S1024x2048_S2048x128_S1024x128_1_0_0_1_n_n 2048 rfl rfl).symm k) = ix2 k b := funext fun d => Fin.ext (by
    match d with
    | ⟨0, _⟩ => exact (dot_S1024x2048_S2048x128_S1024x128_1_0_0_1_n_n.rhsIdx_val_of_single rfl _ _).trans hk
    | ⟨1, _⟩ => exact rhs9_1 _ _)
  rw [el, er]

/-! ## What the body leaves, at an index -/

theorem accA9_apply (x0 : Vec Ideal S1024x2048 .bf16) (x1 : Vec Ideal S2048x128 .bf16) (a : Fin 1024) (b : Fin 128) :
    accA9 x0 x1 (ix2 a b) = 0 + ∑ k : Fin 2048, (x0 (ix2 a k) : EReal) * x1 (ix2 k b) := by
  unfold accA9
  rw [View.canon_cons_unit_zero hz9]
  unfold k9_pay2 k9_pay1
  simp only [View.canon_unit_zero (S := S1024x128) hz9, View.ld_unit_zero (S := S1024x2048) hz9, View.ld_unit_zero (S := S2048x128) hz9, View.ld_unit_zero (S := S1024x128) hz9, shapeCast_self]
  show Ideal.ofBits .f32 0x00000000#32 + matmul (F := Ideal) dot_S1024x2048_S2048x128_S1024x128_1_0_0_1_n_n none x0 x1 (constant (F := Ideal) S1024x128 .f32 0x00000000#32) (ix2 a b) = _
  rw [Ideal.ofBits_zero_f32, mm9_apply]

theorem accB9_apply (x0 : Vec Ideal S1024x2048 .bf16) (x1 : Vec Ideal S2048x128 .bf16) (acc : Vec Ideal S1024x128 .f32) (a : Fin 1024) (b : Fin 128) :
    accB9 x0 x1 acc (ix2 a b) = (acc (ix2 a b) : EReal) + ∑ k : Fin 2048, (x0 (ix2 a k) : EReal) * x1 (ix2 k b) := by
  unfold accB9
  rw [View.canon_unit_zero hz9]
  unfold k9_pay2
  simp only [View.ld_unit_zero (S := S1024x2048) hz9, View.ld_unit_zero (S := S2048x128) hz9, View.ld_unit_zero (S := S1024x128) hz9, shapeCast_self]
  show (acc (ix2 a b) : EReal) + matmul (F := Ideal) dot_S1024x2048_S2048x128_S1024x128_1_0_0_1_n_n none x0 x1 (constant (F := Ideal) S1024x128 .f32 0x00000000#32) (ix2 a b) = _
  rw [mm9_apply]

theorem out9_3_apply (acc : Vec Ideal S1024x128 .f32) (x2 : Vec Ideal S1x128 .f32) (a : Fin 1024) (b : Fin 128) :
    (out9_3 acc x2 (ix2 a b) : EReal) = max ((acc (ix2 a b) : EReal) + x2 (ix2 0 b)) 0 := by
  unfold out9_3
  rw [View.canon_unit_zero hz9]
  unfold k9_pay3
  simp only [View.ld_unit_zero (S := S1024x128) hz9, View.ld_unit_zero (S := S1x128) hz9, shapeCast_self]
  show max ((acc (ix2 a b) : EReal) + broadcastTo S1024x128 x2 broadcasts_S1x128_S1024x128 (ix2 a b)) (Ideal.ofBits .f32 0x00000000#32) = _
  rw [Ideal.ofBits_zero_f32, broadcastTo_apply x2 _ (ix2 a b) (ix2 0 b) (fun d => by
    match d with
    | ⟨0, _⟩ => rfl
    | ⟨1, _⟩ => rfl)]

/-! ## The windows' blocks as entries of their arrays -/

/-- The printed index maps, decided over the grid: point `t` is row block `t / 4`, column block `t % 4`. -/
theorem idx9 : ∀ t : Fin cfg9.N,
    win9_0.index t (0 : Fin 2) = t.val / 4 ∧ win9_0.index t (1 : Fin 2) = t.val % 4
    ∧ win9_1.index t (0 : Fin 2) = t.val % 4 ∧ win9_1.index t (1 : Fin 2) = 0
    ∧ win9_2.index t (0 : Fin 2) = 0 ∧ win9_2.index t (1 : Fin 2) = 0
    ∧ win9_3.index t (0 : Fin 2) = t.val / 4 ∧ win9_3.index t (1 : Fin 2) = 0 :=
  (by decide +kernel : ∀ t : Fin grid9.N, _)

/-- The three input arrays as the region finds them, read as functions of a literal index. -/
abbrev VA9 (c : Dev nD) : S8192x8192.Idx → EReal := Vi c (Pipeline.arrRef spec9 0)
abbrev VH9 (c : Dev nD) : S8192x128.Idx → EReal := Vi c (Pipeline.arrRef spec9 1)
abbrev VB9 (c : Dev nD) : S1x128.Idx → EReal := Vi c (Pipeline.arrRef spec9 2)

theorem iblk9_0_apply (c : Dev nD) (t : Fin cfg9.N) (x : S1024x2048.Idx) (k : S8192x8192.Idx)
    (hk0 : (k 0).val = 1024 * (t.val / 4) + (x 0).val) (hk1 : (k 1).val = 2048 * (t.val % 4) + (x 1).val) :
    (iblk9 Vi c 0 t : Vec Ideal S1024x2048 .bf16) x = VA9 Vi c k := by
  obtain ⟨e0, e1, -⟩ := idx9 t
  unfold iblk9
  rw [View.read_apply]
  show Vi c (Pipeline.arrRef spec9 0) _ = Vi c (Pipeline.arrRef spec9 0) _
  congr 1
  funext a
  apply Fin.ext
  match a with
  | ⟨0, _⟩ => show win9_0.index t 0 * 1024 + 1 * (x 0).val = (k 0).val; rw [e0, hk0]; omega
  | ⟨1, _⟩ => show win9_0.index t 1 * 2048 + 1 * (x 1).val = (k 1).val; rw [e1, hk1]; omega

theorem iblk9_1_apply (c : Dev nD) (t : Fin cfg9.N) (x : S2048x128.Idx) (k : S8192x128.Idx)
    (hk0 : (k 0).val = 2048 * (t.val % 4) + (x 0).val) (hk1 : (k 1).val = (x 1).val) :
    (iblk9 Vi c 1 t : Vec Ideal S2048x128 .bf16) x = VH9 Vi c k := by
  obtain ⟨-, -, e0, e1, -⟩ := idx9 t
  unfold iblk9
  rw [View.read_apply]
  show Vi c (Pipeline.arrRef spec9 1) _ = Vi c (Pipeline.arrRef spec9 1) _
  congr 1
  funext a
  apply Fin.ext
  match a with
  | ⟨0, _⟩ => show win9_1.index t 0 * 2048 + 1 * (x 0).val = (k 0).val; rw [e0, hk0]; omega
  | ⟨1, _⟩ => show win9_1.index t 1 * 128 + 1 * (x 1).val = (k 1).val; rw [e1, hk1]; omega

theorem iblk9_2_apply (c : Dev nD) (t : Fin cfg9.N) (x : S1x128.Idx) (k : S1x128.Idx)
    (hk0 : (k 0).val = (x 0).val) (hk1 : (k 1).val = (x 1).val) :
    (iblk9 Vi c 2 t : Vec Ideal S1x128 .f32) x = VB9 Vi c k := by
  obtain ⟨-, -, -, -, e0, e1, -⟩ := idx9 t
  unfold iblk9
  rw [View.read_apply]
  show Vi c (Pipeline.arrRef spec9 2) _ = Vi c (Pipeline.arrRef spec9 2) _
  congr 1
  funext a
  apply Fin.ext
  match a with
  | ⟨0, _⟩ => show win9_2.index t 0 * 1 + 1 * (x 0).val = (k 0).val; rw [e0, hk0]; omega
  | ⟨1, _⟩ => show win9_2.index t 1 * 128 + 1 * (x 1).val = (k 1).val; rw [e1, hk1]; omega

/-! ## The four column blocks of a row sum to the whole row -/

/-- The product of row `p` of A with column `q` of H at contracted position `k` (zero past the arrays). -/
def term9 (c : Dev nD) (p : Fin 8192) (q : Fin 128) (k : ℕ) : EReal :=
  if h : k < 8192 then VA9 Vi c (ix2 p ⟨k, h⟩) * VH9 Vi c (ix2 ⟨k, h⟩ q) else 0

theorem term9_sum (c : Dev nD) (p : Fin 8192) (q : Fin 128) :
    ∑ k : Fin 8192, term9 Vi c p q k.val = ∑ k : Fin 8192, VA9 Vi c (ix2 p k) * VH9 Vi c (ix2 k q) :=
  Finset.sum_congr rfl fun k _ => by unfold term9; rw [dif_pos k.isLt]

/-- A sum over 8192 positions is the sum over four blocks of 2048. -/
theorem sum_blocks9 (f : ℕ → EReal) :
    ∑ k : Fin 8192, f k.val = ∑ j : Fin 4, ∑ k : Fin 2048, f (2048 * j.val + k.val) :=
  calc ∑ k : Fin 8192, f k.val = ∑ k : Fin (4 * 2048), f k.val := rfl
    _ = ∑ x : Fin 4 × Fin 2048, f (finProdFinEquiv x).val :=
        (Equiv.sum_comp finProdFinEquiv (fun k : Fin (4 * 2048) => f k.val)).symm
    _ = ∑ j : Fin 4, ∑ k : Fin 2048, f (finProdFinEquiv (j, k)).val := Fintype.sum_prod_type _
    _ = _ := Finset.sum_congr rfl fun j _ => Finset.sum_congr rfl fun k _ => by
        refine congrArg f ?_
        show k.val + 2048 * j.val = 2048 * j.val + k.val
        omega

/-- A block product whose operands are column block `j` of row `p` of A and row block `j` of column `b` of H is
    that block's part of the row's sum. -/
theorem mmAt9 (c : Dev nD) (x0 : Vec Ideal S1024x2048 .bf16) (x1 : Vec Ideal S2048x128 .bf16) (j : ℕ) (hj : j < 4)
    (a : Fin 1024) (b : Fin 128) (p : Fin 8192)
    (h0 : ∀ (k : Fin 2048) (hlt : 2048 * j + k.val < 8192), x0 (ix2 a k) = VA9 Vi c (ix2 p ⟨2048 * j + k.val, hlt⟩))
    (h1 : ∀ (k : Fin 2048) (hlt : 2048 * j + k.val < 8192), x1 (ix2 k b) = VH9 Vi c (ix2 ⟨2048 * j + k.val, hlt⟩ b)) :
    ∑ k : Fin 2048, (x0 (ix2 a k) : EReal) * x1 (ix2 k b) = ∑ k : Fin 2048, term9 Vi c p b (2048 * j + k.val) := by
  refine Finset.sum_congr rfl fun k _ => ?_
  have hlt : 2048 * j + k.val < 8192 := by have := k.isLt; omega
  unfold term9
  rw [dif_pos hlt, h0 k hlt, h1 k hlt]

/-! ## The accumulator where the row block's last point leaves it -/

theorem accN9_succ_A (c : Dev nD) (n : ℕ) (h : n < cfg9.N) (h0 : n % 4 = 0) :
    accN9 Vi c (n + 1) = accA9 (iblk9 Vi c 0 ⟨n, h⟩) (iblk9 Vi c 1 ⟨n, h⟩) :=
  accN9_A Vi c ⟨n, h⟩ h0

theorem accN9_succ_B (c : Dev nD) (n : ℕ) (h : n < cfg9.N) (h0 : ¬n % 4 = 0) :
    accN9 Vi c (n + 1) = accB9 (iblk9 Vi c 0 ⟨n, h⟩) (iblk9 Vi c 1 ⟨n, h⟩) (accN9 Vi c n) :=
  accN9_B Vi c ⟨n, h⟩ h0

/-- After the point whose column block is 3 the accumulator holds, at row `a` of the block and column `b`, the
    whole product of row `p` of A with column `b` of H. -/
theorem accN9_flush (c : Dev nD) (t : Fin cfg9.N) (h3 : t.val % 4 = 3) (a : Fin 1024) (b : Fin 128) (p : Fin 8192)
    (hp : p.val = 1024 * (t.val / 4) + a.val) :
    (accN9 Vi c (t.val + 1) (ix2 a b) : EReal) = ∑ k : Fin 8192, VA9 Vi c (ix2 p k) * VH9 Vi c (ix2 k b) := by
  have hN : t.val < 32 := lt_of_lt_of_eq t.isLt (show cfg9.N = 32 from N_9)
  obtain ⟨n, hn⟩ : ∃ n, t.val = n + 1 + 1 + 1 := ⟨t.val - 3, by omega⟩
  have hc : cfg9.N = 32 := N_9
  have l0 : n < cfg9.N := by omega
  have l1 : n + 1 < cfg9.N := by omega
  have l2 : n + 1 + 1 < cfg9.N := by omega
  have l3 : n + 1 + 1 + 1 < cfg9.N := by omega
  have e3 := (congrFun (accN9_succ_B Vi c (n + 1 + 1 + 1) l3 (by omega)) (ix2 a b)).trans (accB9_apply _ _ _ a b)
  have e2 := (congrFun (accN9_succ_B Vi c (n + 1 + 1) l2 (by omega)) (ix2 a b)).trans (accB9_apply _ _ _ a b)
  have e1 := (congrFun (accN9_succ_B Vi c (n + 1) l1 (by omega)) (ix2 a b)).trans (accB9_apply _ _ _ a b)
  have e0 := (congrFun (accN9_succ_A Vi c n l0 (by omega)) (ix2 a b)).trans (accA9_apply _ _ a b)
  have m0 := mmAt9 Vi c (iblk9 Vi c 0 ⟨n, l0⟩) (iblk9 Vi c 1 ⟨n, l0⟩) 0 (by omega) a b p
    (fun k hlt => iblk9_0_apply Vi c ⟨n, l0⟩ (ix2 a k) (ix2 p ⟨2048 * 0 + k.val, hlt⟩)
      (by show p.val = 1024 * ((n) / 4) + a.val; omega) (by show 2048 * 0 + k.val = 2048 * ((n) % 4) + k.val; omega))
    (fun k hlt => iblk9_1_apply Vi c ⟨n, l0⟩ (ix2 k b) (ix2 ⟨2048 * 0 + k.val, hlt⟩ b)
      (by show 2048 * 0 + k.val = 2048 * ((n) % 4) + k.val; omega) rfl)
  have m1 := mmAt9 Vi c (iblk9 Vi c 0 ⟨n + 1, l1⟩) (iblk9 Vi c 1 ⟨n + 1, l1⟩) 1 (by omega) a b p
    (fun k hlt => iblk9_0_apply Vi c ⟨n + 1, l1⟩ (ix2 a k) (ix2 p ⟨2048 * 1 + k.val, hlt⟩)
      (by show p.val = 1024 * ((n + 1) / 4) + a.val; omega) (by show 2048 * 1 + k.val = 2048 * ((n + 1) % 4) + k.val; omega))
    (fun k hlt => iblk9_1_apply Vi c ⟨n + 1, l1⟩ (ix2 k b) (ix2 ⟨2048 * 1 + k.val, hlt⟩ b)
      (by show 2048 * 1 + k.val = 2048 * ((n + 1) % 4) + k.val; omega) rfl)
  have m2 := mmAt9 Vi c (iblk9 Vi c 0 ⟨n + 1 + 1, l2⟩) (iblk9 Vi c 1 ⟨n + 1 + 1, l2⟩) 2 (by omega) a b p
    (fun k hlt => iblk9_0_apply Vi c ⟨n + 1 + 1, l2⟩ (ix2 a k) (ix2 p ⟨2048 * 2 + k.val, hlt⟩)
      (by show p.val = 1024 * ((n + 1 + 1) / 4) + a.val; omega) (by show 2048 * 2 + k.val = 2048 * ((n + 1 + 1) % 4) + k.val; omega))
    (fun k hlt => iblk9_1_apply Vi c ⟨n + 1 + 1, l2⟩ (ix2 k b) (ix2 ⟨2048 * 2 + k.val, hlt⟩ b)
      (by show 2048 * 2 + k.val = 2048 * ((n + 1 + 1) % 4) + k.val; omega) rfl)
  have m3 := mmAt9 Vi c (iblk9 Vi c 0 ⟨n + 1 + 1 + 1, l3⟩) (iblk9 Vi c 1 ⟨n + 1 + 1 + 1, l3⟩) 3 (by omega) a b p
    (fun k hlt => iblk9_0_apply Vi c ⟨n + 1 + 1 + 1, l3⟩ (ix2 a k) (ix2 p ⟨2048 * 3 + k.val, hlt⟩)
      (by show p.val = 1024 * ((n + 1 + 1 + 1) / 4) + a.val; omega) (by show 2048 * 3 + k.val = 2048 * ((n + 1 + 1 + 1) % 4) + k.val; omega))
    (fun k hlt => iblk9_1_apply Vi c ⟨n + 1 + 1 + 1, l3⟩ (ix2 k b) (ix2 ⟨2048 * 3 + k.val, hlt⟩ b)
      (by show 2048 * 3 + k.val = 2048 * ((n + 1 + 1 + 1) % 4) + k.val; omega) rfl)
  rw [hn, e3, e2, e1, e0, m0, m1, m2, m3, zero_add, ← term9_sum Vi c p b, sum_blocks9 (term9 Vi c p b), Fin.sum_univ_four]
  rfl

/-! ## The write-backs and the array -/

/-- Entry (p, q) of the result: the row of A times the column of H, plus the bias, clamped below at zero. -/
def g9 (c : Dev nD) (p : Fin 8192) (q : Fin 128) : EReal :=
  max ((∑ k : Fin 8192, VA9 Vi c (ix2 p k) * VH9 Vi c (ix2 k q)) + VB9 Vi c (ix2 0 q)) 0

/-- The result array, index by index. -/
abbrev G9 (c : Dev nD) : S8192x128.Idx → EReal := fun i => g9 Vi c (i 0) (i 1)

/-- What a point that writes back writes is its block of the result. -/
theorem flushed9_eq (c : Dev nD) (t : Fin cfg9.N) (hf : (cfg9.win 3).flush t = true) :
    (dat9 (F := Ideal) Vi c).flushed 3 t = ((cfg9.win 3).blk t).view.read (Elt Ideal) (G9 Vi c) := by
  have h3 : t.val % 4 = 3 := (flush9_3 t).mp hf
  have hN : t.val < 32 := lt_of_lt_of_eq t.isLt (show cfg9.N = 32 from N_9)
  obtain ⟨-, -, -, -, -, -, e6, e7⟩ := idx9 t
  show (cfg9.win 3).cut (grid9.coords t) ((dat9 (F := Ideal) Vi c).after 3 t) = _
  rw [after9_3]
  funext y
  obtain ⟨a, b, rfl⟩ : ∃ (a : Fin 1024) (b : Fin 128), y = ix2 a b := ⟨y 0, y 1, eq_ix2 y⟩
  have hP : 1024 * (t.val / 4) + a.val < 8192 := by have := a.isLt; omega
  have e : ((cfg9.win 3).blk t).view.emb (ix2 a b) = (ix2 (⟨1024 * (t.val / 4) + a.val, hP⟩ : Fin 8192) b : S8192x128.Idx) :=
    funext fun d => Fin.ext (by
      match d with
      | ⟨0, _⟩ => show win9_3.index t 0 * 1024 + 1 * a.val = 1024 * (t.val / 4) + a.val; rw [e6]; omega
      | ⟨1, _⟩ => show win9_3.index t 1 * 128 + 1 * b.val = b.val; rw [e7]; omega)
  rw [View.read_apply]
  show (out9_3 (accN9 Vi c (t.val + 1)) (iblk9 Vi c 2 t) (ix2 a b) : EReal) = G9 Vi c (((cfg9.win 3).blk t).view.emb (ix2 a b))
  rw [e]
  refine (out9_3_apply _ _ a b).trans ?_
  show _ = g9 Vi c ⟨1024 * (t.val / 4) + a.val, hP⟩ b
  unfold g9
  rw [accN9_flush Vi c t h3 a b ⟨1024 * (t.val / 4) + a.val, hP⟩ rfl,
    iblk9_2_apply Vi c t (ix2 0 b) (ix2 0 b) rfl rfl]

/-- An index of the result array is in point `t`'s block iff each coordinate is in the block's range on its axis. -/
theorem mem_blk9 (t : Fin cfg9.N) (i : S8192x128.Idx) :
    i ∈ ((cfg9.win 3).blk t).view.set ↔ ∀ a : Fin 2, win9_3.index t a * S1024x128.size a ≤ (i a).val ∧ (i a).val < win9_3.index t a * S1024x128.size a + S1024x128.size a := by
  show i ∈ ((View.whole main_v66).slice (win9_3.rect t)).set ↔ _
  rw [View.set_slice_whole, Rect.mem_set_unit]
  exact Iff.rfl

/-- THE ARRAY after the region: the result, index by index. -/
theorem arrAt9_final (c : Dev nD) : (dat9 (F := Ideal) Vi c).arrAt 3 cfg9.N = G9 Vi c :=
  (dat9 (F := Ideal) Vi c).arrAt_eq_of_cover 3 (G9 Vi c) (flushed9_eq Vi c) fun i => by
    have hi0 : (i 0).val < 8192 := (i 0).isLt
    have hi1 : (i 1).val < 128 := (i 1).isLt
    have hc : cfg9.N = 32 := N_9
    have ht : 4 * ((i 0).val / 1024) + 3 < cfg9.N := by omega
    obtain ⟨-, -, -, -, -, -, e6, e7⟩ := idx9 ⟨4 * ((i 0).val / 1024) + 3, ht⟩
    refine ⟨⟨4 * ((i 0).val / 1024) + 3, ht⟩, (flush9_3 _).mpr (by show (4 * ((i 0).val / 1024) + 3) % 4 = 3; omega), ?_⟩
    refine (mem_blk9 _ i).mpr fun a => ?_
    match a with
    | ⟨0, _⟩ =>
      show win9_3.index ⟨4 * ((i 0).val / 1024) + 3, ht⟩ (0 : Fin 2) * 1024 ≤ (i 0).val ∧ (i 0).val < win9_3.index ⟨4 * ((i 0).val / 1024) + 3, ht⟩ (0 : Fin 2) * 1024 + 1024
      rw [e6]; show (4 * ((i 0).val / 1024) + 3) / 4 * 1024 ≤ (i 0).val ∧ (i 0).val < (4 * ((i 0).val / 1024) + 3) / 4 * 1024 + 1024; omega
    | ⟨1, _⟩ =>
      show win9_3.index ⟨4 * ((i 0).val / 1024) + 3, ht⟩ (1 : Fin 2) * 128 ≤ (i 1).val ∧ (i 1).val < win9_3.index ⟨4 * ((i 0).val / 1024) + 3, ht⟩ (1 : Fin 2) * 128 + 128
      rw [e7]; omega

/-- THE REGION'S VALUE: entry (p, q) of the output array after the region (`VA9`, `VH9`, `VB9`: the three
    input arrays as the region finds them, `Vi c (Pipeline.arrRef spec9 w)` read at literal index types). -/
theorem final9 (c : Dev nD) (p : Fin 8192) (q : Fin 128) :
    (dat9 (F := Ideal) Vi c).arrAt 3 cfg9.N (ix2 p q)
      = max ((∑ k : Fin 8192, VA9 Vi c (ix2 p k) * VH9 Vi c (ix2 k q)) + VB9 Vi c (ix2 0 q)) 0 := by
  rw [arrAt9_final Vi c]
  rfl

end Value

end Cert.KernelIdeal.Hand

end
-- ==== Proof.KHost.lean ====
import proofs.«179362_j6141803233546_1_alg».proof.Proof.Gen.KernelIdeal.Launch
import Idealize.ShloMosaic.Lib.StableHlo.Run
import Idealize.ShloMosaic.Lib.ValueIdx
import Idealize.ShloMosaic.Lib.Pipeline.Value

/-!
The host operations of the kernel program, read at the ideal instance, index by index.

Before the first region: the feature matrix and the five weight matrices are converted to a
narrower format, which is the identity on extended reals.  Between the regions: a bias vector
`[n]` is viewed as a one-row matrix `[1, n]`, whose entry `(0, q)` is the vector's entry `q`.
-/

noncomputable section

namespace Cert.KernelIdeal.HostValue

open Idealize.ShloMosaic Idealize.ShloMosaic.ValueIdx Idealize.ShloMosaic.StableHlo
open Cert.KernelIdeal Cert.KernelIdeal.Gen Idealize.ShloMosaic.TcCoe

/-- What the device's buffers hold when the first region is entered: the three stretches of host
    operations run from the launch memory. -/
abbrev Wpre (m : (ℓ : Loc nD τ sig) → Buf (Elt Ideal) ℓ) (c : Dev nD) : Valuation τ sig (Elt Ideal) :=
  StableHlo.after hostOps0_2 (StableHlo.after hostOps0_1 (StableHlo.after hostOps0 (fun b => m (c, b))))

/-! ## A vector viewed as a one-row matrix -/

/-- Entry `(0, q)` of the one-row view of a vector is the vector's entry `q`. -/
theorem oneRow_apply {α : Type} {n : Nat} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_one, Shape.rowMajor_val_two]
    show q.val = 0 * _ + q.val
    omega)

theorem bias_v53 (V : Valuation τ sig (Elt Ideal)) (q : Fin 128) :
    (StableHlo.after (hostOps1 (F := Ideal)) V (Proc.devRef .tc main_v53) : S1x128.Idx → EReal) (ix2 (0 : Fin 1) q)
      = (V (Proc.devRef .tc main_arg3) : S128.Idx → EReal) (ix1 q) := by
  have e : (StableHlo.after (hostOps1 (F := Ideal)) V (Proc.devRef .tc main_v53) : S1x128.Idx → EReal)
      = shapeCast S1x128 (V (Proc.devRef .tc main_arg3) : S128.Idx → EReal) shapeCasts_S128_S1x128 := by
    after_results; rfl
  rw [e]; exact oneRow_apply _ _ q

theorem bias_v56 (V : Valuation τ sig (Elt Ideal)) (q : Fin 128) :
    (StableHlo.after (hostOps3 (F := Ideal)) V (Proc.devRef .tc main_v56) : S1x128.Idx → EReal) (ix2 (0 : Fin 1) q)
      = (V (Proc.devRef .tc main_arg5) : S128.Idx → EReal) (ix1 q) := by
  have e : (StableHlo.after (hostOps3 (F := Ideal)) V (Proc.devRef .tc main_v56) : S1x128.Idx → EReal)
      = shapeCast S1x128 (V (Proc.devRef .tc main_arg5) : S128.Idx → EReal) shapeCasts_S128_S1x128 := by
    after_results; rfl
  rw [e]; exact oneRow_apply _ _ q

theorem bias_v59 (V : Valuation τ sig (Elt Ideal)) (q : Fin 128) :
    (StableHlo.after (hostOps5 (F := Ideal)) V (Proc.devRef .tc main_v59) : S1x128.Idx → EReal) (ix2 (0 : Fin 1) q)
      = (V (Proc.devRef .tc main_arg7) : S128.Idx → EReal) (ix1 q) := by
  have e : (StableHlo.after (hostOps5 (F := Ideal)) V (Proc.devRef .tc main_v59) : S1x128.Idx → EReal)
      = shapeCast S1x128 (V (Proc.devRef .tc main_arg7) : S128.Idx → EReal) shapeCasts_S128_S1x128 := by
    after_results; rfl
  rw [e]; exact oneRow_apply _ _ q

theorem bias_v62 (V : Valuation τ sig (Elt Ideal)) (q : Fin 512) :
    (StableHlo.after (hostOps7 (F := Ideal)) V (Proc.devRef .tc main_v62) : S1x512.Idx → EReal) (ix2 (0 : Fin 1) q)
      = (V (Proc.devRef .tc main_arg9) : S512.Idx → EReal) (ix1 q) := by
  have e : (StableHlo.after (hostOps7 (F := Ideal)) V (Proc.devRef .tc main_v62) : S1x512.Idx → EReal)
      = shapeCast S1x512 (V (Proc.devRef .tc main_arg9) : S512.Idx → EReal) shapeCasts_S512_S1x512 := by
    after_results; rfl
  rw [e]; exact oneRow_apply _ _ q

theorem bias_v65 (V : Valuation τ sig (Elt Ideal)) (q : Fin 128) :
    (StableHlo.after (hostOps9 (F := Ideal)) V (Proc.devRef .tc main_v65) : S1x128.Idx → EReal) (ix2 (0 : Fin 1) q)
      = (V (Proc.devRef .tc main_arg11) : S128.Idx → EReal) (ix1 q) := by
  have e : (StableHlo.after (hostOps9 (F := Ideal)) V (Proc.devRef .tc main_v65) : S1x128.Idx → EReal)
      = shapeCast S1x128 (V (Proc.devRef .tc main_arg11) : S128.Idx → EReal) shapeCasts_S128_S1x128 := by
    after_results; rfl
  rw [e]; exact oneRow_apply _ _ q

/-! ## The conversions of the arguments before the first region -/

/-- The converted feature matrix is the feature matrix. -/
theorem cast_v46_eq (m : (ℓ : Loc nD τ sig) → Buf (Elt Ideal) ℓ) (c : Dev nD) :
    (Wpre m c (Proc.devRef .tc main_v46) : S8192x512.Idx → EReal)
      = (m ((c : Thread nD τ).loc main_arg0) : S8192x512.Idx → EReal) := by
  after_results_simp; rfl

/-- The converted first encoder weight is that weight. -/
theorem cast_v47_eq (m : (ℓ : Loc nD τ sig) → Buf (Elt Ideal) ℓ) (c : Dev nD) :
    (Wpre m c (Proc.devRef .tc main_v47) : S512x128.Idx → EReal)
      = (m ((c : Thread nD τ).loc main_arg2) : S512x128.Idx → EReal) := by
  after_results_simp; rfl

/-- The converted second encoder weight is that weight. -/
theorem cast_v48_eq (m : (ℓ : Loc nD τ sig) → Buf (Elt Ideal) ℓ) (c : Dev nD) :
    (Wpre m c (Proc.devRef .tc main_v48) : S128x128.Idx → EReal)
      = (m ((c : Thread nD τ).loc main_arg4) : S128x128.Idx → EReal) := by
  after_results_simp; rfl

/-- The converted first attribute-decoder weight is that weight. -/
theorem cast_v49_eq (m : (ℓ : Loc nD τ sig) → Buf (Elt Ideal) ℓ) (c : Dev nD) :
    (Wpre m c (Proc.devRef .tc main_v49) : S128x128.Idx → EReal)
      = (m ((c : Thread nD τ).loc main_arg6) : S128x128.Idx → EReal) := by
  after_results_simp; rfl

/-- The converted second attribute-decoder weight is that weight. -/
theorem cast_v50_eq (m : (ℓ : Loc nD τ sig) → Buf (Elt Ideal) ℓ) (c : Dev nD) :
    (Wpre m c (Proc.devRef .tc main_v50) : S128x512.Idx → EReal)
      = (m ((c : Thread nD τ).loc main_arg8) : S128x512.Idx → EReal) := by
  after_results_simp; rfl

/-- The converted structure-decoder weight is that weight. -/
theorem cast_v51_eq (m : (ℓ : Loc nD τ sig) → Buf (Elt Ideal) ℓ) (c : Dev nD) :
    (Wpre m c (Proc.devRef .tc main_v51) : S128x128.Idx → EReal)
      = (m ((c : Thread nD τ).loc main_arg10) : S128x128.Idx → EReal) := by
  after_results_simp; rfl

theorem cast_v46 (m : (ℓ : Loc nD τ sig) → Buf (Elt Ideal) ℓ) (c : Dev nD) (p : Fin 8192) (k : Fin 512) :
    (Wpre m c (Proc.devRef .tc main_v46) : S8192x512.Idx → EReal) (ix2 p k)
      = (m ((c : Thread nD τ).loc main_arg0) : S8192x512.Idx → EReal) (ix2 p k) :=
  congrFun (cast_v46_eq m c) (ix2 p k)
theorem cast_v47 (m : (ℓ : Loc nD τ sig) → Buf (Elt Ideal) ℓ) (c : Dev nD) (p : Fin 512) (k : Fin 128) :
    (Wpre m c (Proc.devRef .tc main_v47) : S512x128.Idx → EReal) (ix2 p k)
      = (m ((c : Thread nD τ).loc main_arg2) : S512x128.Idx → EReal) (ix2 p k) :=
  congrFun (cast_v47_eq m c) (ix2 p k)
theorem cast_v48 (m : (ℓ : Loc nD τ sig) → Buf (Elt Ideal) ℓ) (c : Dev nD) (p : Fin 128) (k : Fin 128) :
    (Wpre m c (Proc.devRef .tc main_v48) : S128x128.Idx → EReal) (ix2 p k)
      = (m ((c : Thread nD τ).loc main_arg4) : S128x128.Idx → EReal) (ix2 p k) :=
  congrFun (cast_v48_eq m c) (ix2 p k)
theorem cast_v49 (m : (ℓ : Loc nD τ sig) → Buf (Elt Ideal) ℓ) (c : Dev nD) (p : Fin 128) (k : Fin 128) :
    (Wpre m c (Proc.devRef .tc main_v49) : S128x128.Idx → EReal) (ix2 p k)
      = (m ((c : Thread nD τ).loc main_arg6) : S128x128.Idx → EReal) (ix2 p k) :=
  congrFun (cast_v49_eq m c) (ix2 p k)
theorem cast_v50 (m : (ℓ : Loc nD τ sig) → Buf (Elt Ideal) ℓ) (c : Dev nD) (p : Fin 128) (k : Fin 512) :
    (Wpre m c (Proc.devRef .tc main_v50) : S128x512.Idx → EReal) (ix2 p k)
      = (m ((c : Thread nD τ).loc main_arg8) : S128x512.Idx → EReal) (ix2 p k) :=
  congrFun (cast_v50_eq m c) (ix2 p k)
theorem cast_v51 (m : (ℓ : Loc nD τ sig) → Buf (Elt Ideal) ℓ) (c : Dev nD) (p : Fin 128) (k : Fin 128) :
    (Wpre m c (Proc.devRef .tc main_v51) : S128x128.Idx → EReal) (ix2 p k)
      = (m ((c : Thread nD τ).loc main_arg10) : S128x128.Idx → EReal) (ix2 p k) :=
  congrFun (cast_v51_eq m c) (ix2 p k)

end Cert.KernelIdeal.HostValue
-- ==== Proof.Spec.lean ====
import Mathlib.Data.EReal.Basic
import Mathlib.Algebra.BigOperators.Group.Finset.Basic
import Idealize.ShloMosaic.PureOps.Ideal
import Idealize.ShloMosaic.Lib.ValueIdx

/-!
The mathematical specification that both programs are compared against.

A graph-convolution layer is written twice: in the *dense* arrangement
`relu(A · (H · W) + b)` with the normalised adjacency matrix `A` formed first, and in the
*edge* arrangement, where every edge `e : src e → dst e` adds its message
`(H · W)[src e] · nrm e` to row `dst e`.  All values are extended reals.
-/

noncomputable section

namespace Cert.Spec
open Idealize.ShloMosaic

/-- matrix product entry: `H[i,·]·W[·,f]` -/
def lin {C D : ℕ} (H : Fin 8192 → Fin C → EReal) (W : Fin C → Fin D → EReal)
    (i : Fin 8192) (f : Fin D) : EReal := ∑ k, H i k * W k f

section
variable (src dst : Fin 270336 → Fin 8192) (nrm : Fin 270336 → EReal)

/-- dense adjacency: 0 plus the coefficients of the edges `j → i` -/
def adj (i j : Fin 8192) : EReal :=
  0 + ∑ e ∈ Finset.univ.filter (fun e => dst e = i ∧ src e = j), nrm e

/-- one layer, dense arrangement: `relu(A·(H·W) + b)` -/
def layerK {C D : ℕ} (H : Fin 8192 → Fin C → EReal) (W : Fin C → Fin D → EReal)
    (b : Fin D → EReal) (i : Fin 8192) (f : Fin D) : EReal :=
  max ((∑ j, adj src dst nrm i j * lin H W j f) + b f) 0

/-- one layer, edge arrangement: relu of the sum over the edges into `i` of
`(H·W)[src e]·nrm e`, plus `b` -/
def layerR {C D : ℕ} (H : Fin 8192 → Fin C → EReal) (W : Fin C → Fin D → EReal)
    (b : Fin D → EReal) (i : Fin 8192) (f : Fin D) : EReal :=
  max ((0 + ∑ e ∈ Finset.univ.filter (fun e => dst e = i), lin H W (src e) f * nrm e) + b f) 0

end

/-- the Gram matrix `S · Sᵀ` -/
def outer (S : Fin 8192 → Fin 128 → EReal) (i j : Fin 8192) : EReal := ∑ k, S i k * S j k

/-- a value is a real number (neither infinity) -/
def IsFin (x : EReal) : Prop := x ≠ ⊤ ∧ x ≠ ⊥

end Cert.Spec
-- ==== Proof.SpecLaws.lean ====
import proofs.«179362_j6141803233546_1_alg».proof.Proof.Spec
import Mathlib.Data.EReal.Operations
import Mathlib.Algebra.BigOperators.Fin
import Mathlib.Algebra.BigOperators.Ring.Finset

/-!
Laws of the specification.

* Finite extended reals (the real numbers inside `EReal`) are closed under `+`, `*`, `max`
  and finite sums, so every quantity of the specification is finite on finite inputs.
* The dense and the edge arrangement of a layer agree on finite inputs: grouping the edges
  into a node by their source turns the sum over edges into the product with the adjacency
  matrix.  Multiplication distributes over sums only on the reals, which is why finiteness is
  assumed.
* A sum over `8192` indices is the four sums over its consecutive blocks of `2048`,
  accumulated from zero.
-/

open scoped BigOperators

namespace Cert.Spec
open Idealize.ShloMosaic

/-! ### Finite values -/

theorem isFin_coe (r : ℝ) : IsFin (r : EReal) := ⟨EReal.coe_ne_top r, EReal.coe_ne_bot r⟩

/-- a finite extended real is (the image of) a real number -/
theorem IsFin.exists_real {x : EReal} (h : IsFin x) : ∃ r : ℝ, x = (r : EReal) :=
  ⟨x.toReal, (EReal.coe_toReal h.1 h.2).symm⟩

theorem isFin_iff_exists_real {x : EReal} : IsFin x ↔ ∃ r : ℝ, x = (r : EReal) :=
  ⟨IsFin.exists_real, fun ⟨r, hr⟩ => hr ▸ isFin_coe r⟩

theorem isFin_zero : IsFin (0 : EReal) := by
  have := isFin_coe 0; rwa [EReal.coe_zero] at this

theorem IsFin.add {x y : EReal} (hx : IsFin x) (hy : IsFin y) : IsFin (x + y) := by
  obtain ⟨r, rfl⟩ := hx.exists_real
  obtain ⟨s, rfl⟩ := hy.exists_real
  rw [← EReal.coe_add]; exact isFin_coe _

theorem IsFin.mul {x y : EReal} (hx : IsFin x) (hy : IsFin y) : IsFin (x * y) := by
  obtain ⟨r, rfl⟩ := hx.exists_real
  obtain ⟨s, rfl⟩ := hy.exists_real
  rw [← EReal.coe_mul]; exact isFin_coe _

theorem IsFin.max {x y : EReal} (hx : IsFin x) (hy : IsFin y) : IsFin (max x y) := by
  rcases max_choice x y with h | h <;> rw [h] <;> assumption

/-- the coercion of the reals commutes with finite sums -/
theorem coe_finset_sum {ι : Type*} (s : Finset ι) (g : ι → ℝ) :
    ((∑ i ∈ s, g i : ℝ) : EReal) = ∑ i ∈ s, (g i : EReal) := by
  classical
  refine Finset.induction_on s (by simp) (fun a s ha ih => ?_)
  rw [Finset.sum_insert ha, Finset.sum_insert ha, EReal.coe_add, ih]

theorem isFin_sum {ι : Type*} (s : Finset ι) (g : ι → EReal) (h : ∀ i ∈ s, IsFin (g i)) :
    IsFin (∑ i ∈ s, g i) := by
  classical
  induction s using Finset.induction_on with
  | empty => simpa using isFin_zero
  | insert a s ha ih =>
    rw [Finset.sum_insert ha]
    exact (h a (Finset.mem_insert_self a s)).add
      (ih (fun i hi => h i (Finset.mem_insert_of_mem hi)))

/-! ### Finiteness of the specification -/

section fin
variable {src dst : Fin 270336 → Fin 8192} {nrm : Fin 270336 → EReal}
variable {C D : ℕ} {H : Fin 8192 → Fin C → EReal} {W : Fin C → Fin D → EReal} {b : Fin D → EReal}

theorem lin_fin (hH : ∀ i k, IsFin (H i k)) (hW : ∀ k f, IsFin (W k f)) (i : Fin 8192)
    (f : Fin D) : IsFin (lin H W i f) :=
  isFin_sum _ _ (fun k _ => (hH i k).mul (hW k f))

theorem adj_fin (hn : ∀ e, IsFin (nrm e)) (i j : Fin 8192) : IsFin (adj src dst nrm i j) :=
  isFin_zero.add (isFin_sum _ _ (fun e _ => hn e))

theorem layerK_fin (hn : ∀ e, IsFin (nrm e)) (hH : ∀ i k, IsFin (H i k))
    (hW : ∀ k f, IsFin (W k f)) (hb : ∀ f, IsFin (b f)) (i : Fin 8192) (f : Fin D) :
    IsFin (layerK src dst nrm H W b i f) :=
  (((isFin_sum _ _ (fun j _ => (adj_fin hn i j).mul (lin_fin hH hW j f))).add (hb f)).max
    isFin_zero)

theorem layerR_fin (hn : ∀ e, IsFin (nrm e)) (hH : ∀ i k, IsFin (H i k))
    (hW : ∀ k f, IsFin (W k f)) (hb : ∀ f, IsFin (b f)) (i : Fin 8192) (f : Fin D) :
    IsFin (layerR src dst nrm H W b i f) :=
  (((isFin_zero.add (isFin_sum _ _ (fun e _ => (lin_fin hH hW (src e) f).mul (hn e)))).add
    (hb f)).max isFin_zero)

end fin

theorem outer_fin {S : Fin 8192 → Fin 128 → EReal} (hS : ∀ i k, IsFin (S i k))
    (i j : Fin 8192) : IsFin (outer S i j) :=
  isFin_sum _ _ (fun k _ => (hS i k).mul (hS j k))

/-! ### The two arrangements of a layer agree -/

/-- On the reals: the edges into `i`, grouped by their source `j`, give the row `i` of the
adjacency matrix times the vector `L`. -/
theorem real_regroup {E N : Type*} [Fintype E] [Fintype N] [DecidableEq N]
    (src dst : E → N) (n : E → ℝ) (L : N → ℝ) (i : N) :
    ∑ j, (∑ e ∈ Finset.univ.filter (fun e => dst e = i ∧ src e = j), n e) * L j
      = ∑ e ∈ Finset.univ.filter (fun e => dst e = i), L (src e) * n e := by
  rw [← Finset.sum_fiberwise (Finset.univ.filter (fun e => dst e = i)) src]
  refine Finset.sum_congr rfl (fun j _ => ?_)
  rw [Finset.filter_filter, Finset.sum_mul]
  refine Finset.sum_congr rfl (fun e he => ?_)
  rw [Finset.mem_filter] at he
  rw [he.2.2, mul_comm]

section eq
variable (src dst : Fin 270336 → Fin 8192) (nrm : Fin 270336 → EReal)
variable {C D : ℕ} (H : Fin 8192 → Fin C → EReal) (W : Fin C → Fin D → EReal) (b : Fin D → EReal)

/-- the dense sum `∑ j, A[i,j]·L[j,f]` is the scatter-add over the edges into `i` -/
theorem dense_eq_edges (hn : ∀ e, IsFin (nrm e)) (hH : ∀ i k, IsFin (H i k))
    (hW : ∀ k f, IsFin (W k f)) (i : Fin 8192) (f : Fin D) :
    ∑ j, adj src dst nrm i j * lin H W j f
      = 0 + ∑ e ∈ Finset.univ.filter (fun e => dst e = i), lin H W (src e) f * nrm e := by
  choose n hn' using fun e => (hn e).exists_real
  choose L hL using fun j => (lin_fin hH hW j f).exists_real
  have hA : ∀ j, adj src dst nrm i j
      = ((∑ e ∈ Finset.univ.filter (fun e => dst e = i ∧ src e = j), n e : ℝ) : EReal) := by
    intro j
    unfold adj
    rw [zero_add, coe_finset_sum]
    exact Finset.sum_congr rfl (fun e _ => hn' e)
  have hl : ∑ j, adj src dst nrm i j * lin H W j f
      = ((∑ j, (∑ e ∈ Finset.univ.filter (fun e => dst e = i ∧ src e = j), n e) * L j : ℝ)
          : EReal) := by
    rw [coe_finset_sum]
    refine Finset.sum_congr rfl (fun j _ => ?_)
    rw [hA j, hL j, EReal.coe_mul]
  have hr : ∑ e ∈ Finset.univ.filter (fun e => dst e = i), lin H W (src e) f * nrm e
      = ((∑ e ∈ Finset.univ.filter (fun e => dst e = i), L (src e) * n e : ℝ) : EReal) := by
    rw [coe_finset_sum]
    refine Finset.sum_congr rfl (fun e _ => ?_)
    rw [hL (src e), hn' e, EReal.coe_mul]
  rw [zero_add, hl, hr, real_regroup]

theorem layer_eq (hn : ∀ e, IsFin (nrm e)) (hH : ∀ i k, IsFin (H i k))
    (hW : ∀ k f, IsFin (W k f)) :
    layerK src dst nrm H W b = layerR src dst nrm H W b := by
  funext i f
  unfold layerK layerR
  rw [dense_eq_edges src dst nrm H W hn hH hW i f]

end eq

/-! ### A contracted axis in four blocks -/

/-- the four `2048`-blocks of a sum over `8192` indices, accumulated from zero -/
theorem blocks4 (f : Fin 8192 → EReal) :
    (((0 + ∑ k : Fin 2048, f ⟨k, by omega⟩) + ∑ k : Fin 2048, f ⟨2048 + k, by omega⟩)
        + ∑ k : Fin 2048, f ⟨4096 + k, by omega⟩) + ∑ k : Fin 2048, f ⟨6144 + k, by omega⟩
      = ∑ k : Fin 8192, f k := by
  have h1 := Fin.sum_univ_add (M := EReal) (a := 6144) (b := 2048) f
  have h2 := Fin.sum_univ_add (M := EReal) (a := 4096) (b := 2048)
    (fun i => f (Fin.castAdd 2048 i))
  have h3 := Fin.sum_univ_add (M := EReal) (a := 2048) (b := 2048)
    (fun i => f (Fin.castAdd 2048 (Fin.castAdd 2048 i)))
  rw [zero_add]
  refine Eq.trans ?_ h1.symm
  refine Eq.trans ?_ (congrArg (· + _) h2.symm)
  refine Eq.trans ?_ (congrArg (fun x => x + _ + _) h3.symm)
  rfl

/-! ### The normalisation coefficients are finite -/

/-- the reciprocal square root of a positive extended real is a real number
(`+∞` goes to `0`) -/
theorem rsqrt_fin_of_pos {d : EReal} (h : 0 < d) : IsFin (Ideal.rsqrt d) := by
  induction d using EReal.rec with
  | bot => exact absurd h (by simp)
  | top => rw [Ideal.rsqrt_top]; exact isFin_zero
  | coe r =>
    have hr : 0 < r := by exact_mod_cast h
    rw [Ideal.rsqrt_coe, if_neg (not_lt.mpr hr.le), if_neg hr.ne']
    exact isFin_coe _

/-- the guarded reciprocal square root `d > 0 ? rsqrt d : 0` is finite for EVERY `d` -/
theorem guarded_rsqrt_fin (d : EReal) : IsFin (if 0 < d then Ideal.rsqrt d else 0) := by
  split
  · next h => exact rsqrt_fin_of_pos h
  · exact isFin_zero

end Cert.Spec
-- ==== Proof.SpecNet.lean ====
import proofs.«179362_j6141803233546_1_alg».proof.Proof.SpecLaws

/-!
The whole network, in the dense and in the edge arrangement.

Two encoder layers produce the hidden features; the attribute decoder applies two more
layers to them; the structure decoder applies one layer and forms the Gram matrix of the
result.  On finite inputs every layer's two arrangements agree and produce finite values,
so the agreement passes from layer to layer.
-/

noncomputable section

namespace Cert.Spec

/-- the reconstructed attributes, dense arrangement -/
def netXK (src dst : Fin 270336 → Fin 8192) (nrm : Fin 270336 → EReal)
    (x : Fin 8192 → Fin 512 → EReal)
    (We1 : Fin 512 → Fin 128 → EReal) (be1 : Fin 128 → EReal)
    (We2 : Fin 128 → Fin 128 → EReal) (be2 : Fin 128 → EReal)
    (Wa1 : Fin 128 → Fin 128 → EReal) (ba1 : Fin 128 → EReal)
    (Wa2 : Fin 128 → Fin 512 → EReal) (ba2 : Fin 512 → EReal) :
    Fin 8192 → Fin 512 → EReal :=
  layerK src dst nrm
    (layerK src dst nrm
      (layerK src dst nrm (layerK src dst nrm x We1 be1) We2 be2) Wa1 ba1) Wa2 ba2

/-- the reconstructed attributes, edge arrangement -/
def netXR (src dst : Fin 270336 → Fin 8192) (nrm : Fin 270336 → EReal)
    (x : Fin 8192 → Fin 512 → EReal)
    (We1 : Fin 512 → Fin 128 → EReal) (be1 : Fin 128 → EReal)
    (We2 : Fin 128 → Fin 128 → EReal) (be2 : Fin 128 → EReal)
    (Wa1 : Fin 128 → Fin 128 → EReal) (ba1 : Fin 128 → EReal)
    (Wa2 : Fin 128 → Fin 512 → EReal) (ba2 : Fin 512 → EReal) :
    Fin 8192 → Fin 512 → EReal :=
  layerR src dst nrm
    (layerR src dst nrm
      (layerR src dst nrm (layerR src dst nrm x We1 be1) We2 be2) Wa1 ba1) Wa2 ba2

/-- the reconstructed structure, dense arrangement -/
def netAK (src dst : Fin 270336 → Fin 8192) (nrm : Fin 270336 → EReal)
    (x : Fin 8192 → Fin 512 → EReal)
    (We1 : Fin 512 → Fin 128 → EReal) (be1 : Fin 128 → EReal)
    (We2 : Fin 128 → Fin 128 → EReal) (be2 : Fin 128 → EReal)
    (Ws1 : Fin 128 → Fin 128 → EReal) (bs1 : Fin 128 → EReal) :
    Fin 8192 → Fin 8192 → EReal :=
  outer (layerK src dst nrm
    (layerK src dst nrm (layerK src dst nrm x We1 be1) We2 be2) Ws1 bs1)

/-- the reconstructed structure, edge arrangement -/
def netAR (src dst : Fin 270336 → Fin 8192) (nrm : Fin 270336 → EReal)
    (x : Fin 8192 → Fin 512 → EReal)
    (We1 : Fin 512 → Fin 128 → EReal) (be1 : Fin 128 → EReal)
    (We2 : Fin 128 → Fin 128 → EReal) (be2 : Fin 128 → EReal)
    (Ws1 : Fin 128 → Fin 128 → EReal) (bs1 : Fin 128 → EReal) :
    Fin 8192 → Fin 8192 → EReal :=
  outer (layerR src dst nrm
    (layerR src dst nrm (layerR src dst nrm x We1 be1) We2 be2) Ws1 bs1)

section
variable {src dst : Fin 270336 → Fin 8192} {nrm : Fin 270336 → EReal}
  {x : Fin 8192 → Fin 512 → EReal}
  {We1 : Fin 512 → Fin 128 → EReal} {be1 : Fin 128 → EReal}
  {We2 : Fin 128 → Fin 128 → EReal} {be2 : Fin 128 → EReal}
  {Wa1 : Fin 128 → Fin 128 → EReal} {ba1 : Fin 128 → EReal}
  {Wa2 : Fin 128 → Fin 512 → EReal} {ba2 : Fin 512 → EReal}
  {Ws1 : Fin 128 → Fin 128 → EReal} {bs1 : Fin 128 → EReal}

/-- the two encoder layers agree, and their common value is finite -/
theorem enc_eq (hn : ∀ e, IsFin (nrm e)) (hx : ∀ i k, IsFin (x i k))
    (hWe1 : ∀ k f, IsFin (We1 k f)) (hbe1 : ∀ f, IsFin (be1 f))
    (hWe2 : ∀ k f, IsFin (We2 k f)) (hbe2 : ∀ f, IsFin (be2 f)) :
    layerK src dst nrm (layerK src dst nrm x We1 be1) We2 be2
        = layerR src dst nrm (layerR src dst nrm x We1 be1) We2 be2
      ∧ ∀ i k, IsFin (layerR src dst nrm (layerR src dst nrm x We1 be1) We2 be2 i k) := by
  have f1 : ∀ i k, IsFin (layerR src dst nrm x We1 be1 i k) := layerR_fin hn hx hWe1 hbe1
  refine ⟨?_, layerR_fin hn f1 hWe2 hbe2⟩
  rw [layer_eq src dst nrm x We1 be1 hn hx hWe1,
    layer_eq src dst nrm (layerR src dst nrm x We1 be1) We2 be2 hn f1 hWe2]

theorem netX_eq (hn : ∀ e, IsFin (nrm e)) (hx : ∀ i k, IsFin (x i k))
    (hWe1 : ∀ k f, IsFin (We1 k f)) (hbe1 : ∀ f, IsFin (be1 f))
    (hWe2 : ∀ k f, IsFin (We2 k f)) (hbe2 : ∀ f, IsFin (be2 f))
    (hWa1 : ∀ k f, IsFin (Wa1 k f)) (hba1 : ∀ f, IsFin (ba1 f))
    (hWa2 : ∀ k f, IsFin (Wa2 k f)) :
    netXK src dst nrm x We1 be1 We2 be2 Wa1 ba1 Wa2 ba2
      = netXR src dst nrm x We1 be1 We2 be2 Wa1 ba1 Wa2 ba2 := by
  obtain ⟨h2, f2⟩ := enc_eq (src := src) (dst := dst) hn hx hWe1 hbe1 hWe2 hbe2
  have f3 : ∀ i k, IsFin (layerR src dst nrm
      (layerR src dst nrm (layerR src dst nrm x We1 be1) We2 be2) Wa1 ba1 i k) :=
    layerR_fin hn f2 hWa1 hba1
  unfold netXK netXR
  rw [h2, layer_eq src dst nrm _ Wa1 ba1 hn f2 hWa1, layer_eq src dst nrm _ Wa2 ba2 hn f3 hWa2]

theorem netA_eq (hn : ∀ e, IsFin (nrm e)) (hx : ∀ i k, IsFin (x i k))
    (hWe1 : ∀ k f, IsFin (We1 k f)) (hbe1 : ∀ f, IsFin (be1 f))
    (hWe2 : ∀ k f, IsFin (We2 k f)) (hbe2 : ∀ f, IsFin (be2 f))
    (hWs1 : ∀ k f, IsFin (Ws1 k f)) :
    netAK src dst nrm x We1 be1 We2 be2 Ws1 bs1
      = netAR src dst nrm x We1 be1 We2 be2 Ws1 bs1 := by
  obtain ⟨h2, f2⟩ := enc_eq (src := src) (dst := dst) hn hx hWe1 hbe1 hWe2 hbe2
  unfold netAK netAR
  rw [h2, layer_eq src dst nrm _ Ws1 bs1 hn f2 hWs1]

/-- the reconstructed attributes are finite -/
theorem netXR_fin (hn : ∀ e, IsFin (nrm e)) (hx : ∀ i k, IsFin (x i k))
    (hWe1 : ∀ k f, IsFin (We1 k f)) (hbe1 : ∀ f, IsFin (be1 f))
    (hWe2 : ∀ k f, IsFin (We2 k f)) (hbe2 : ∀ f, IsFin (be2 f))
    (hWa1 : ∀ k f, IsFin (Wa1 k f)) (hba1 : ∀ f, IsFin (ba1 f))
    (hWa2 : ∀ k f, IsFin (Wa2 k f)) (hba2 : ∀ f, IsFin (ba2 f)) (i : Fin 8192) (f : Fin 512) :
    IsFin (netXR src dst nrm x We1 be1 We2 be2 Wa1 ba1 Wa2 ba2 i f) := by
  obtain ⟨_, f2⟩ := enc_eq (src := src) (dst := dst) hn hx hWe1 hbe1 hWe2 hbe2
  exact layerR_fin hn (layerR_fin hn f2 hWa1 hba1) hWa2 hba2 i f

/-- the reconstructed structure is finite -/
theorem netAR_fin (hn : ∀ e, IsFin (nrm e)) (hx : ∀ i k, IsFin (x i k))
    (hWe1 : ∀ k f, IsFin (We1 k f)) (hbe1 : ∀ f, IsFin (be1 f))
    (hWe2 : ∀ k f, IsFin (We2 k f)) (hbe2 : ∀ f, IsFin (be2 f))
    (hWs1 : ∀ k f, IsFin (Ws1 k f)) (hbs1 : ∀ f, IsFin (bs1 f)) (i j : Fin 8192) :
    IsFin (netAR src dst nrm x We1 be1 We2 be2 Ws1 bs1 i j) := by
  obtain ⟨_, f2⟩ := enc_eq (src := src) (dst := dst) hn hx hWe1 hbe1 hWe2 hbe2
  exact outer_fin (layerR_fin hn f2 hWs1 hbs1) i j

end

end Cert.Spec
-- ==== Proof.KI.KValue.lean ====
/- The kernel program's two results at the ideal numbers, as the network in its dense arrangement: each linear region
   multiplies the array it reads by a weight, each aggregation region applies the adjacency matrix, adds the bias and
   clamps at zero, the last region forms the Gram matrix; between the regions every array is found where the region
   that wrote it left it, the weights and the biases are the program's arguments, and the adjacency matrix is what
   the host operations before the first region built. -/
import proofs.«179362_j6141803233546_1_alg».proof.Proof.KI.Fold
import proofs.«179362_j6141803233546_1_alg».proof.Proof.KI.Final0
import proofs.«179362_j6141803233546_1_alg».proof.Proof.KI.Final1
import proofs.«179362_j6141803233546_1_alg».proof.Proof.KI.Final2
import proofs.«179362_j6141803233546_1_alg».proof.Proof.KI.Final3
import proofs.«179362_j6141803233546_1_alg».proof.Proof.KI.Final4
import proofs.«179362_j6141803233546_1_alg».proof.Proof.KI.Final5
import proofs.«179362_j6141803233546_1_alg».proof.Proof.KI.Final6
import proofs.«179362_j6141803233546_1_alg».proof.Proof.KI.Final7
import proofs.«179362_j6141803233546_1_alg».proof.Proof.KI.Final8
import proofs.«179362_j6141803233546_1_alg».proof.Proof.KI.Final9
import proofs.«179362_j6141803233546_1_alg».proof.Proof.KHost
import proofs.«179362_j6141803233546_1_alg».proof.Proof.SpecNet

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Arrays as matrices and vectors -/

/-- A rank-2 array as a matrix. -/
def mat {n k : Nat} (A : (⟨2, ![n, k]⟩ : Shape).Idx → EReal) : Fin n → Fin k → EReal := fun i j => A (ix2 i j)
/-- A rank-1 array as a vector. -/
def vec {n : Nat} (b : (⟨1, ![n]⟩ : Shape).Idx → EReal) : Fin n → EReal := fun f => b (ix1 f)

theorem mat_apply {n k : Nat} (A : (⟨2, ![n, k]⟩ : Shape).Idx → EReal) (j : (⟨2, ![n, k]⟩ : Shape).Idx) : mat A (j 0) (j 1) = A j :=
  congrArg A (eq_ix2 j).symm

/-! ## One region's value as a layer of the specification -/

/-- An array whose entries are the products' sums is the matrix product. -/
theorem lin_of {C D : ℕ} (X : (⟨2, ![8192, C]⟩ : Shape).Idx → EReal) (Wt : (⟨2, ![C, D]⟩ : Shape).Idx → EReal)
    (Y : (⟨2, ![8192, D]⟩ : Shape).Idx → EReal)
    (h : ∀ (p : Fin 8192) (q : Fin D), Y (ix2 p q) = ∑ k : Fin C, X (ix2 p k) * Wt (ix2 k q)) :
    mat Y = Cert.Spec.lin (mat X) (mat Wt) :=
  funext fun p => funext fun q => h p q

/-- An array whose entries are the adjacency rows against the columns of a matrix product, plus the bias, clamped at
    zero, is the dense layer. -/
theorem layer_of {C D : ℕ} (src dst : Fin 270336 → Fin 8192) (nrm : Fin 270336 → EReal)
    (A : (⟨2, ![8192, 8192]⟩ : Shape).Idx → EReal) (H O : (⟨2, ![8192, D]⟩ : Shape).Idx → EReal)
    (Hin : Fin 8192 → Fin C → EReal) (Wt : Fin C → Fin D → EReal) (bias : Fin D → EReal)
    (hO : ∀ (p : Fin 8192) (q : Fin D), O (ix2 p q) = max ((∑ k : Fin 8192, A (ix2 p k) * H (ix2 k q)) + bias q) 0)
    (hA : ∀ i j : Fin 8192, A (ix2 i j) = Cert.Spec.adj src dst nrm i j) (hH : mat H = Cert.Spec.lin Hin Wt) :
    mat O = Cert.Spec.layerK src dst nrm Hin Wt bias := by
  funext p q
  show O (ix2 p q) = max ((∑ j, Cert.Spec.adj src dst nrm p j * Cert.Spec.lin Hin Wt j q) + bias q) 0
  rw [hO]
  refine congrArg (fun s => max (s + bias q) 0) (Finset.sum_congr rfl fun k _ => ?_)
  rw [hA]
  exact congrArg _ (congrFun (congrFun hH k) q)

/-! ## The arrays of the run -/

section Run

variable (m : (ℓ : Loc nD τ sig) → Buf (Elt Ideal) ℓ)

/-- Argument 0 as launched. -/
abbrev arg0 (c : Dev nD) : S8192x512.Idx → EReal := m ((c : Thread nD τ).loc main_arg0)
/-- Argument 2 as launched. -/
abbrev arg2 (c : Dev nD) : S512x128.Idx → EReal := m ((c : Thread nD τ).loc main_arg2)
/-- Argument 3 as launched. -/
abbrev arg3 (c : Dev nD) : S128.Idx → EReal := m ((c : Thread nD τ).loc main_arg3)
/-- Argument 4 as launched. -/
abbrev arg4 (c : Dev nD) : S128x128.Idx → EReal := m ((c : Thread nD τ).loc main_arg4)
/-- Argument 5 as launched. -/
abbrev arg5 (c : Dev nD) : S128.Idx → EReal := m ((c : Thread nD τ).loc main_arg5)
/-- Argument 6 as launched. -/
abbrev arg6 (c : Dev nD) : S128x128.Idx → EReal := m ((c : Thread nD τ).loc main_arg6)
/-- Argument 7 as launched. -/
abbrev arg7 (c : Dev nD) : S128.Idx → EReal := m ((c : Thread nD τ).loc main_arg7)
/-- Argument 8 as launched. -/
abbrev arg8 (c : Dev nD) : S128x512.Idx → EReal := m ((c : Thread nD τ).loc main_arg8)
/-- Argument 9 as launched. -/
abbrev arg9 (c : Dev nD) : S512.Idx → EReal := m ((c : Thread nD τ).loc main_arg9)
/-- Argument 10 as launched. -/
abbrev arg10 (c : Dev nD) : S128x128.Idx → EReal := m ((c : Thread nD τ).loc main_arg10)
/-- Argument 11 as launched. -/
abbrev arg11 (c : Dev nD) : S128.Idx → EReal := m ((c : Thread nD τ).loc main_arg11)
/-- The adjacency matrix the host operations before the first region leave. -/
abbrev Adj (c : Dev nD) : S8192x8192.Idx → EReal := W3 (F := Ideal) m c (Proc.devRef .tc main_v45)
/-- What the region writing `main_v52` leaves there. -/
abbrev A52 (c : Dev nD) : S8192x128.Idx → EReal := W4 (F := Ideal) m c (Proc.devRef .tc main_v52)
/-- What the region writing `main_v54` leaves there. -/
abbrev A54 (c : Dev nD) : S8192x128.Idx → EReal := W6 (F := Ideal) m c (Proc.devRef .tc main_v54)
/-- What the region writing `main_v55` leaves there. -/
abbrev A55 (c : Dev nD) : S8192x128.Idx → EReal := W7 (F := Ideal) m c (Proc.devRef .tc main_v55)
/-- What the region writing `main_v57` leaves there. -/
abbrev A57 (c : Dev nD) : S8192x128.Idx → EReal := W9 (F := Ideal) m c (Proc.devRef .tc main_v57)
/-- What the region writing `main_v58` leaves there. -/
abbrev A58 (c : Dev nD) : S8192x128.Idx → EReal := W10 (F := Ideal) m c (Proc.devRef .tc main_v58)
/-- What the region writing `main_v60` leaves there. -/
abbrev A60 (c : Dev nD) : S8192x128.Idx → EReal := W12 (F := Ideal) m c (Proc.devRef .tc main_v60)
/-- What the region writing `main_v61` leaves there. -/
abbrev A61 (c : Dev nD) : S8192x512.Idx → EReal := W13 (F := Ideal) m c (Proc.devRef .tc main_v61)
/-- What the region writing `main_v63` leaves there. -/
abbrev A63 (c : Dev nD) : S8192x512.Idx → EReal := W15 (F := Ideal) m c (Proc.devRef .tc main_v63)
/-- What the region writing `main_v64` leaves there. -/
abbrev A64 (c : Dev nD) : S8192x128.Idx → EReal := W16 (F := Ideal) m c (Proc.devRef .tc main_v64)
/-- What the region writing `main_v66` leaves there. -/
abbrev A66 (c : Dev nD) : S8192x128.Idx → EReal := W18 (F := Ideal) m c (Proc.devRef .tc main_v66)
/-- What the region writing `main_v67` leaves there. -/
abbrev A67 (c : Dev nD) : S8192x8192.Idx → EReal := W19 (F := Ideal) m c (Proc.devRef .tc main_v67)

/-! ## An argument is found as launched at every boundary -/

theorem W4_arg3 (c : Dev nD) : (W4 (F := Ideal) m c (Proc.devRef .tc main_arg3) : S128.Idx → EReal) = arg3 m c :=
  (W4_of m c main_arg3 (by decide)).trans <| (W3_of m c main_arg3 (by decide)).trans <| (W2_of m c main_arg3 (by decide)).trans <| (W1_of m c main_arg3 (by decide)).trans <| rfl
theorem W7_arg5 (c : Dev nD) : (W7 (F := Ideal) m c (Proc.devRef .tc main_arg5) : S128.Idx → EReal) = arg5 m c :=
  (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W10_arg7 (c : Dev nD) : (W10 (F := Ideal) m c (Proc.devRef .tc main_arg7) : S128.Idx → EReal) = arg7 m c :=
  (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W13_arg9 (c : Dev nD) : (W13 (F := Ideal) m c (Proc.devRef .tc main_arg9) : S512.Idx → EReal) = arg9 m c :=
  (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W16_arg11 (c : Dev nD) : (W16 (F := Ideal) m c (Proc.devRef .tc main_arg11) : S128.Idx → EReal) = arg11 m c :=
  (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl

/-! ## Each region's output, entry by entry, over the arrays of the run -/

/-- Region 0: the array it reads times the weight. -/
theorem out_A52 (c : Dev nD) (p : Fin 8192) (q : Fin 128) :
    A52 m c (ix2 p q) = ∑ k : Fin 512, arg0 m c (ix2 p k) * arg2 m c (ix2 k q) := by
  have e : A52 m c = arrOut0 (T3 m) c := W4_out m c
  have e0 : arrIn0_0 (T3 m) c = arg0 m c := Cert.KernelIdeal.HostValue.cast_v46_eq m c
  have e1 : arrIn0_1 (T3 m) c = arg2 m c := Cert.KernelIdeal.HostValue.cast_v47_eq m c
  rw [e, final0 (T3 m) c p q, e0, e1]

/-- Region 2: the array it reads times the weight. -/
theorem out_A55 (c : Dev nD) (p : Fin 8192) (q : Fin 128) :
    A55 m c (ix2 p q) = ∑ k : Fin 128, A54 m c (ix2 p k) * arg4 m c (ix2 k q) := by
  have e : A55 m c = arrOut2 (T6 m) c := W7_out m c
  have e0 : arrIn2_0 (T6 m) c = A54 m c := rfl
  have e1 : arrIn2_1 (T6 m) c = arg4 m c := (show (W6 (F := Ideal) m c (Proc.devRef .tc main_v48) : S128x128.Idx → EReal) = W3 (F := Ideal) m c (Proc.devRef .tc main_v48) from (W6_of m c main_v48 (by decide)).trans <| (W5_of m c main_v48 (by decide)).trans <| (W4_of m c main_v48 (by decide))).trans (Cert.KernelIdeal.HostValue.cast_v48_eq m c)
  rw [e, final2 (T6 m) c p q, e0, e1]

/-- Region 4: the array it reads times the weight. -/
theorem out_A58 (c : Dev nD) (p : Fin 8192) (q : Fin 128) :
    A58 m c (ix2 p q) = ∑ k : Fin 128, A57 m c (ix2 p k) * arg6 m c (ix2 k q) := by
  have e : A58 m c = arrOut4 (T9 m) c := W10_out m c
  have e0 : arrIn4_0 (T9 m) c = A57 m c := rfl
  have e1 : arrIn4_1 (T9 m) c = arg6 m c := (show (W9 (F := Ideal) m c (Proc.devRef .tc main_v49) : S128x128.Idx → EReal) = W3 (F := Ideal) m c (Proc.devRef .tc main_v49) from (W9_of m c main_v49 (by decide)).trans <| (W8_of m c main_v49 (by decide)).trans <| (W7_of m c main_v49 (by decide)).trans <| (W6_of m c main_v49 (by decide)).trans <| (W5_of m c main_v49 (by decide)).trans <| (W4_of m c main_v49 (by decide))).trans (Cert.KernelIdeal.HostValue.cast_v49_eq m c)
  rw [e, final4 (T9 m) c p q, e0, e1]

/-- Region 6: the array it reads times the weight. -/
theorem out_A61 (c : Dev nD) (p : Fin 8192) (q : Fin 512) :
    A61 m c (ix2 p q) = ∑ k : Fin 128, A60 m c (ix2 p k) * arg8 m c (ix2 k q) := by
  have e : A61 m c = arrOut6 (T12 m) c := W13_out m c
  have e0 : arrIn6_0 (T12 m) c = A60 m c := rfl
  have e1 : arrIn6_1 (T12 m) c = arg8 m c := (show (W12 (F := Ideal) m c (Proc.devRef .tc main_v50) : S128x512.Idx → EReal) = W3 (F := Ideal) m c (Proc.devRef .tc main_v50) from (W12_of m c main_v50 (by decide)).trans <| (W11_of m c main_v50 (by decide)).trans <| (W10_of m c main_v50 (by decide)).trans <| (W9_of m c main_v50 (by decide)).trans <| (W8_of m c main_v50 (by decide)).trans <| (W7_of m c main_v50 (by decide)).trans <| (W6_of m c main_v50 (by decide)).trans <| (W5_of m c main_v50 (by decide)).trans <| (W4_of m c main_v50 (by decide))).trans (Cert.KernelIdeal.HostValue.cast_v50_eq m c)
  rw [e, final6 (T12 m) c p q, e0, e1]

/-- Region 8: the array it reads times the weight. -/
theorem out_A64 (c : Dev nD) (p : Fin 8192) (q : Fin 128) :
    A64 m c (ix2 p q) = ∑ k : Fin 128, A57 m c (ix2 p k) * arg10 m c (ix2 k q) := by
  have e : A64 m c = arrOut8 (T15 m) c := W16_out m c
  have e0 : arrIn8_0 (T15 m) c = A57 m c := (W15_of m c main_v57 (by decide)).trans <| (W14_of m c main_v57 (by decide)).trans <| (W13_of m c main_v57 (by decide)).trans <| (W12_of m c main_v57 (by decide)).trans <| (W11_of m c main_v57 (by decide)).trans <| (W10_of m c main_v57 (by decide))
  have e1 : arrIn8_1 (T15 m) c = arg10 m c := (show (W15 (F := Ideal) m c (Proc.devRef .tc main_v51) : S128x128.Idx → EReal) = W3 (F := Ideal) m c (Proc.devRef .tc main_v51) from (W15_of m c main_v51 (by decide)).trans <| (W14_of m c main_v51 (by decide)).trans <| (W13_of m c main_v51 (by decide)).trans <| (W12_of m c main_v51 (by decide)).trans <| (W11_of m c main_v51 (by decide)).trans <| (W10_of m c main_v51 (by decide)).trans <| (W9_of m c main_v51 (by decide)).trans <| (W8_of m c main_v51 (by decide)).trans <| (W7_of m c main_v51 (by decide)).trans <| (W6_of m c main_v51 (by decide)).trans <| (W5_of m c main_v51 (by decide)).trans <| (W4_of m c main_v51 (by decide))).trans (Cert.KernelIdeal.HostValue.cast_v51_eq m c)
  rw [e, final8 (T15 m) c p q, e0, e1]

/-- Region 1: the adjacency rows against the array it reads, plus the bias, clamped at zero. -/
theorem out_A54 (c : Dev nD) (p : Fin 8192) (q : Fin 128) :
    A54 m c (ix2 p q) = max ((∑ k : Fin 8192, Adj m c (ix2 p k) * A52 m c (ix2 k q)) + vec (arg3 m c) q) 0 := by
  have e : A54 m c = ((dat1 (F := Ideal) (T5 m) c).arrAt 3 cfg1.N : S8192x128.Idx → EReal) := W6_out m c
  have eA : VA1 (T5 m) c = Adj m c := (W5_of m c main_v45 (by decide)).trans <| (W4_of m c main_v45 (by decide))
  have eH : VH1 (T5 m) c = A52 m c := (W5_of m c main_v52 (by decide))
  have eb : VB1 (T5 m) c (ix2 (0 : Fin 1) q) = vec (arg3 m c) q :=
    (Cert.KernelIdeal.HostValue.bias_v53 (W4 (F := Ideal) m c) q).trans (congrFun (W4_arg3 m c) (ix1 q))
  rw [e, final1 (T5 m) c p q, eA, eH, eb]

/-- Region 3: the adjacency rows against the array it reads, plus the bias, clamped at zero. -/
theorem out_A57 (c : Dev nD) (p : Fin 8192) (q : Fin 128) :
    A57 m c (ix2 p q) = max ((∑ k : Fin 8192, Adj m c (ix2 p k) * A55 m c (ix2 k q)) + vec (arg5 m c) q) 0 := by
  have e : A57 m c = ((dat3 (F := Ideal) (T8 m) c).arrAt 3 cfg3.N : S8192x128.Idx → EReal) := W9_out m c
  have eA : VA3 (T8 m) c = Adj m c := (W8_of m c main_v45 (by decide)).trans <| (W7_of m c main_v45 (by decide)).trans <| (W6_of m c main_v45 (by decide)).trans <| (W5_of m c main_v45 (by decide)).trans <| (W4_of m c main_v45 (by decide))
  have eH : VH3 (T8 m) c = A55 m c := (W8_of m c main_v55 (by decide))
  have eb : VB3 (T8 m) c (ix2 (0 : Fin 1) q) = vec (arg5 m c) q :=
    (Cert.KernelIdeal.HostValue.bias_v56 (W7 (F := Ideal) m c) q).trans (congrFun (W7_arg5 m c) (ix1 q))
  rw [e, final3 (T8 m) c p q, eA, eH, eb]

/-- Region 5: the adjacency rows against the array it reads, plus the bias, clamped at zero. -/
theorem out_A60 (c : Dev nD) (p : Fin 8192) (q : Fin 128) :
    A60 m c (ix2 p q) = max ((∑ k : Fin 8192, Adj m c (ix2 p k) * A58 m c (ix2 k q)) + vec (arg7 m c) q) 0 := by
  have e : A60 m c = ((dat5 (F := Ideal) (T11 m) c).arrAt 3 cfg5.N : S8192x128.Idx → EReal) := W12_out m c
  have eA : VA5 (T11 m) c = Adj m c := (W11_of m c main_v45 (by decide)).trans <| (W10_of m c main_v45 (by decide)).trans <| (W9_of m c main_v45 (by decide)).trans <| (W8_of m c main_v45 (by decide)).trans <| (W7_of m c main_v45 (by decide)).trans <| (W6_of m c main_v45 (by decide)).trans <| (W5_of m c main_v45 (by decide)).trans <| (W4_of m c main_v45 (by decide))
  have eH : VH5 (T11 m) c = A58 m c := (W11_of m c main_v58 (by decide))
  have eb : VB5 (T11 m) c (ix2 (0 : Fin 1) q) = vec (arg7 m c) q :=
    (Cert.KernelIdeal.HostValue.bias_v59 (W10 (F := Ideal) m c) q).trans (congrFun (W10_arg7 m c) (ix1 q))
  rw [e, final5 (T11 m) c p q, eA, eH, eb]

/-- Region 7: the adjacency rows against the array it reads, plus the bias, clamped at zero. -/
theorem out_A63 (c : Dev nD) (p : Fin 8192) (q : Fin 512) :
    A63 m c (ix2 p q) = max ((∑ k : Fin 8192, Adj m c (ix2 p k) * A61 m c (ix2 k q)) + vec (arg9 m c) q) 0 := by
  have e : A63 m c = ((dat7 (F := Ideal) (T14 m) c).arrAt 3 cfg7.N : S8192x512.Idx → EReal) := W15_out m c
  have eA : VA7 (T14 m) c = Adj m c := (W14_of m c main_v45 (by decide)).trans <| (W13_of m c main_v45 (by decide)).trans <| (W12_of m c main_v45 (by decide)).trans <| (W11_of m c main_v45 (by decide)).trans <| (W10_of m c main_v45 (by decide)).trans <| (W9_of m c main_v45 (by decide)).trans <| (W8_of m c main_v45 (by decide)).trans <| (W7_of m c main_v45 (by decide)).trans <| (W6_of m c main_v45 (by decide)).trans <| (W5_of m c main_v45 (by decide)).trans <| (W4_of m c main_v45 (by decide))
  have eH : VH7 (T14 m) c = A61 m c := (W14_of m c main_v61 (by decide))
  have eb : VB7 (T14 m) c (ix2 (0 : Fin 1) q) = vec (arg9 m c) q :=
    (Cert.KernelIdeal.HostValue.bias_v62 (W13 (F := Ideal) m c) q).trans (congrFun (W13_arg9 m c) (ix1 q))
  rw [e, final7 (T14 m) c p q, eA, eH, eb]

/-- Region 9: the adjacency rows against the array it reads, plus the bias, clamped at zero. -/
theorem out_A66 (c : Dev nD) (p : Fin 8192) (q : Fin 128) :
    A66 m c (ix2 p q) = max ((∑ k : Fin 8192, Adj m c (ix2 p k) * A64 m c (ix2 k q)) + vec (arg11 m c) q) 0 := by
  have e : A66 m c = ((dat9 (F := Ideal) (T17 m) c).arrAt 3 cfg9.N : S8192x128.Idx → EReal) := W18_out m c
  have eA : VA9 (T17 m) c = Adj m c := (W17_of m c main_v45 (by decide)).trans <| (W16_of m c main_v45 (by decide)).trans <| (W15_of m c main_v45 (by decide)).trans <| (W14_of m c main_v45 (by decide)).trans <| (W13_of m c main_v45 (by decide)).trans <| (W12_of m c main_v45 (by decide)).trans <| (W11_of m c main_v45 (by decide)).trans <| (W10_of m c main_v45 (by decide)).trans <| (W9_of m c main_v45 (by decide)).trans <| (W8_of m c main_v45 (by decide)).trans <| (W7_of m c main_v45 (by decide)).trans <| (W6_of m c main_v45 (by decide)).trans <| (W5_of m c main_v45 (by decide)).trans <| (W4_of m c main_v45 (by decide))
  have eH : VH9 (T17 m) c = A64 m c := (W17_of m c main_v64 (by decide))
  have eb : VB9 (T17 m) c (ix2 (0 : Fin 1) q) = vec (arg11 m c) q :=
    (Cert.KernelIdeal.HostValue.bias_v65 (W16 (F := Ideal) m c) q).trans (congrFun (W16_arg11 m c) (ix1 q))
  rw [e, final9 (T17 m) c p q, eA, eH, eb]

/-- Region 10: the Gram matrix of the array it reads. -/
theorem out_A67 (c : Dev nD) (p q : Fin 8192) :
    A67 m c (ix2 p q) = ∑ k : Fin 128, A66 m c (ix2 p k) * A66 m c (ix2 q k) := by
  have e : A67 m c = ((dat10 (F := Ideal) (T18 m) c).arrAt 2 cfg10.N : S8192x8192.Idx → EReal) := W19_out m c
  rw [e]
  exact (final10 (T18 m) c p q).trans (gram10_def (A66 m c) p q)

/-! ## The arrays of the run as the layers of the network -/

variable (src dst : Fin 270336 → Fin 8192) (nrm : Fin 270336 → EReal)

theorem lay_A52 (c : Dev nD) : mat (A52 m c) = Cert.Spec.lin (mat (arg0 m c)) (mat (arg2 m c)) :=
  lin_of (arg0 m c) (arg2 m c) (A52 m c) (out_A52 m c)

section Layers
variable (c : Dev nD) (hadj : ∀ i j : Fin 8192, Adj m c (ix2 i j) = Cert.Spec.adj src dst nrm i j)
include hadj

/-- The first encoder layer. -/
theorem lay_A54 : mat (A54 m c) = Cert.Spec.layerK src dst nrm (mat (arg0 m c)) (mat (arg2 m c)) (vec (arg3 m c)) :=
  layer_of src dst nrm (Adj m c) (A52 m c) (A54 m c) _ _ _ (out_A54 m c) hadj (lay_A52 m c)

/-- The second encoder layer: the hidden features. -/
theorem lay_A57 : mat (A57 m c) = Cert.Spec.layerK src dst nrm (mat (A54 m c)) (mat (arg4 m c)) (vec (arg5 m c)) :=
  layer_of src dst nrm (Adj m c) (A55 m c) (A57 m c) _ _ _ (out_A57 m c) hadj (lin_of (A54 m c) (arg4 m c) (A55 m c) (out_A55 m c))

/-- The attribute decoder's first layer. -/
theorem lay_A60 : mat (A60 m c) = Cert.Spec.layerK src dst nrm (mat (A57 m c)) (mat (arg6 m c)) (vec (arg7 m c)) :=
  layer_of src dst nrm (Adj m c) (A58 m c) (A60 m c) _ _ _ (out_A60 m c) hadj (lin_of (A57 m c) (arg6 m c) (A58 m c) (out_A58 m c))

/-- The attribute decoder's second layer: the reconstructed attributes. -/
theorem lay_A63 : mat (A63 m c) = Cert.Spec.layerK src dst nrm (mat (A60 m c)) (mat (arg8 m c)) (vec (arg9 m c)) :=
  layer_of src dst nrm (Adj m c) (A61 m c) (A63 m c) _ _ _ (out_A63 m c) hadj (lin_of (A60 m c) (arg8 m c) (A61 m c) (out_A61 m c))

/-- The structure decoder's layer. -/
theorem lay_A66 : mat (A66 m c) = Cert.Spec.layerK src dst nrm (mat (A57 m c)) (mat (arg10 m c)) (vec (arg11 m c)) :=
  layer_of src dst nrm (Adj m c) (A64 m c) (A66 m c) _ _ _ (out_A66 m c) hadj (lin_of (A57 m c) (arg10 m c) (A64 m c) (out_A64 m c))

/-- THE RECONSTRUCTED ATTRIBUTES the kernel program returns are the network's, dense arrangement. -/
theorem kernel_X :
    (W19 (F := Ideal) m c (Proc.devRef .tc main_v63) : S8192x512.Idx → EReal)
      = fun j => Cert.Spec.netXK src dst nrm (mat (arg0 m c)) (mat (arg2 m c)) (vec (arg3 m c)) (mat (arg4 m c)) (vec (arg5 m c))
          (mat (arg6 m c)) (vec (arg7 m c)) (mat (arg8 m c)) (vec (arg9 m c)) (j 0) (j 1) := by
  have e : (W19 (F := Ideal) m c (Proc.devRef .tc main_v63) : S8192x512.Idx → EReal) = A63 m c := (W19_of m c main_v63 (by decide)).trans <| (W18_of m c main_v63 (by decide)).trans <| (W17_of m c main_v63 (by decide)).trans <| (W16_of m c main_v63 (by decide))
  rw [e]
  funext j
  unfold Cert.Spec.netXK
  rw [← lay_A54 m src dst nrm c hadj, ← lay_A57 m src dst nrm c hadj, ← lay_A60 m src dst nrm c hadj, ← lay_A63 m src dst nrm c hadj]
  exact (mat_apply (A63 m c) j).symm

/-- THE RECONSTRUCTED STRUCTURE the kernel program returns is the network's, dense arrangement. -/
theorem kernel_A :
    (W19 (F := Ideal) m c (Proc.devRef .tc main_v67) : S8192x8192.Idx → EReal)
      = fun j => Cert.Spec.netAK src dst nrm (mat (arg0 m c)) (mat (arg2 m c)) (vec (arg3 m c)) (mat (arg4 m c)) (vec (arg5 m c))
          (mat (arg10 m c)) (vec (arg11 m c)) (j 0) (j 1) := by
  funext (j : S8192x8192.Idx)
  unfold Cert.Spec.netAK
  rw [← lay_A54 m src dst nrm c hadj, ← lay_A57 m src dst nrm c hadj, ← lay_A66 m src dst nrm c hadj]
  exact (congrArg (A67 m c) (eq_ix2 j)).trans (out_A67 m c (j 0) (j 1))

end Layers

end Run

end Cert.KernelIdeal.Hand

end
-- ==== Proof.LibEdge.lean ====
import Mathlib.Data.EReal.Basic
import Idealize.ShloMosaic.PureOps.Ideal
import Idealize.ShloMosaic.PureOps.Ideal.Laws
import Idealize.ShloMosaic.Lib.ValueIdx
import Idealize.ShloMosaic.Lib.Pipeline.Value

/-!
Host index operations read at an index, over pure functions (no program is imported):
a two-piece concatenation of flat arrays, `x[idx]` gathers of a flat array and of the rows of a
matrix, and the accumulating scatters `x.at[idx].add(u)` of a flat array and of rows, all at
start indices of shape `[E, 1]`; and the two facts about 32-bit index words that make the
negative-index wrap and the clamp the identity on an index already in range.
-/

noncomputable section

open scoped BigOperators

namespace Cert.LibEdge

open Idealize.ShloMosaic Idealize.ShloMosaic.ValueIdx

/-! ## Sums over a rank-1 index set -/

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Index words -/

/-- The negative-index wrap `select (x < 0) a x` keeps a word that is not negative. -/
theorem wrap_of_nonneg (x a : BitVec 32) (h : 0 ≤ x.toInt) :
    Scalar.select (IntOp.cmpi .slt x 0#32) a x = x := by
  have hs : x.slt 0#32 = false := by
    simp only [BitVec.slt, BitVec.toInt_zero, decide_eq_false_iff_not, not_lt]; exact h
  unfold Scalar.select IntOp.cmpi
  simp [hs]

/-- The clamp into `[0, N − 1]` keeps a position below `N`. -/
theorem clamp_of_lt {N : Nat} (x : BitVec 32) (h1 : x.toInt < N) :
    min x.toInt.toNat (N - 1) = x.toInt.toNat := by
  omega

/-- The word of a position below `2³¹` reads back, signed, as that position. -/
theorem toInt_ofNat_of_lt (n : Nat) (h : n < 2147483648) : (BitVec.ofNat 32 n).toInt = n := by
  have h1 : (BitVec.ofNat 32 n).toNat = n := by
    rw [BitVec.toNat_ofNat]; exact Nat.mod_eq_of_lt (by omega)
  rw [BitVec.toInt_eq_toNat_cond, h1]
  split <;> omega

/-! ## Concatenation of two flat arrays -/

section Concat
variable {α : Type}

/-- A flat array of length `T = E₀ + N` joined from pieces of lengths `E₀` and `N` reads the first
    piece below `E₀` and the second, `E₀` less, from there on. -/
theorem concat1_apply {E₀ N T : Nat} (hT : T = E₀ + N)
    (x₁ : (⟨1, ![E₀]⟩ : Shape).Idx → α) (x₂ : (⟨1, ![N]⟩ : Shape).Idx → α)
    (h : Shape.Concatenates [(⟨1, ![E₀]⟩ : Shape), ⟨1, ![N]⟩] ⟨1, ![T]⟩ 0) (e : Fin T) :
    concatenate ⟨1, ![T]⟩ 0 [⟨⟨1, ![E₀]⟩, x₁⟩, ⟨⟨1, ![N]⟩, x₂⟩] h (ix1 e)
      = if he : e.val < E₀ then x₁ (ix1 ⟨e.val, he⟩) else x₂ (ix1 ⟨e.val - E₀, by omega⟩) := by
  split
  · rename_i he
    exact concatenate_pair_apply_left 0 x₁ x₂ h (ix1 e) rfl (ix1 ⟨e.val, he⟩)
      (fun b => by obtain rfl : b = 0 := Subsingleton.elim _ _; rfl)
  · rename_i he
    exact concatenate_pair_apply_right 0 x₁ x₂ h (ix1 e) rfl rfl (ix1 ⟨e.val - E₀, by omega⟩)
      (fun b hb => absurd (Subsingleton.elim _ _) hb)
      (by show e.val - E₀ + E₀ = e.val; omega)

end Concat

/-! ## `x[idx]` of a flat array, and of the rows of a matrix, at start indices `[E, 1]` -/

section Gather
variable {α : Type}

/-- The dimension numbers of `x[idx]` for a flat operand `[N]`, start indices `[E, 1]`, result `[E]`. -/
abbrev take1Dims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at the start index `idx[e, 0]`, read signed and
    clamped into `[0, N − 1]`. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of `x[idx]` (whole rows) for an operand `[N, D]`, start indices `[E, 1]`,
    result `[E, D]`. -/
abbrev takeRowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `(e, f)` of the row gather is the operand at row `idx[e, 0]` (read signed and clamped
    into `[0, N − 1]`), column `f`. -/
theorem gather_takeRow_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (takeRowDims N D E wf) x idx (ix2 e f)
      = x (ix2 ⟨min (idx (ix2 e 0)).toInt.toNat (N - 1), by omega⟩ f) := by
  unfold Host.gather
  congr 1
  funext a
  refine Fin.ext ?_
  show (takeRowDims N D E wf).start (ix2 e f) idx a + (takeRowDims N D E wf).batchCoord (ix2 e f) a
    + (takeRowDims N D E wf).offCoord (ix2 e f) a = _
  rw [GatherDims.batchCoord_eq_zero _ _ _ List.not_mem_nil]
  simp only [Nat.add_zero]
  match a with
  | ⟨0, _⟩ =>
    rw [GatherDims.offCoord_eq_zero _ _ _
      (fun h => ((GatherDims.mem_sKept _ _).mp h).1 (List.mem_singleton.mpr rfl))]
    simp only [Nat.add_zero]
    unfold GatherDims.start
    rw [dif_pos (show (⟨0, Nat.zero_lt_two⟩ : Fin 2) ∈ (takeRowDims N D E wf).startIndexMap from List.mem_singleton.mpr rfl)]
    have hsi : (takeRowDims N D E wf).siIdx (ix2 e f)
        ⟨List.idxOf (⟨0, Nat.zero_lt_two⟩ : Fin 2) (takeRowDims N D E wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    have hst : (takeRowDims N D E wf).start (ix2 e f) idx ⟨1, h1⟩ = 0 := by
      unfold GatherDims.start
      rw [dif_neg (fun h => absurd (List.mem_singleton.mp h) (fun h' => absurd (congrArg Fin.val h') Nat.one_ne_zero))]
    rw [hst, Nat.zero_add]
    rfl

end Gather

/-! ## `x.at[idx].add(u)` of a flat array, and of the rows of a matrix, at scatter indices `[E, 1]` -/

section Scatter

/-- The dimension numbers of `x.at[idx].add(u)` for a flat operand `[N]`, scatter indices `[E, 1]`,
    updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` of the flat scatter lands at position `i` exactly when its index word, read signed, is `i`. -/
theorem scat1_resultIdx_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (i : Fin N) :
    (scat1Dims N E wf).resultIdx? (ix1 e) idx = some (ix1 i) ↔ (idx (ix2 e 0)).toInt = (i.val : Int) := by
  have hsw : ∀ a, (scat1Dims N E wf).start (ix1 e) idx a + ((scat1Dims N E wf).window (ix1 e) a : Int)
      = (idx (ix2 e 0)).toInt := by
    intro a
    obtain rfl : a = 0 := Subsingleton.elim _ _
    have hw : (scat1Dims N E wf).window (ix1 e) 0 = 0 := by
      unfold ScatterDims.window
      rw [dif_neg (by simp [ScatterDims.sKept, Shape.kept])]
    have hs : (scat1Dims N E wf).start (ix1 e) idx 0 = (idx (ix2 e 0)).toInt := by
      unfold ScatterDims.start
      rw [dif_pos (show (0 : Fin 1) ∈ (scat1Dims N E wf).scatterDimsToOperandDims from List.mem_singleton.mpr rfl)]
      have hsi : (scat1Dims N E wf).siIdx (ix1 e)
          ⟨List.idxOf (0 : Fin 1) (scat1Dims N E wf).scatterDimsToOperandDims,
            List.idxOf_lt_length_iff.2 (List.mem_singleton.mpr rfl)⟩ = ix2 e 0 := by
        funext b; refine Fin.ext ?_
        match b with
        | ⟨0, _⟩ => rfl
        | ⟨1, _⟩ => rfl
      rw [hsi]
    rw [hs, hw]; simp
  have hN : ((⟨1, ![N]⟩ : Shape).size 0) = N := rfl
  unfold ScatterDims.resultIdx?
  split
  · rename_i h
    constructor
    · intro hs
      have h1 : ((scat1Dims N E wf).start (ix1 e) idx 0 + ((scat1Dims N E wf).window (ix1 e) 0 : Int)).toNat = i.val :=
        congrArg Fin.val (congrFun (Option.some.inj hs) 0)
      have h2 := h 0
      rw [hsw 0] at h1 h2
      omega
    · intro hi
      congr 1
      funext a
      obtain rfl : a = 0 := Subsingleton.elim _ _
      refine Fin.ext ?_
      show ((scat1Dims N E wf).start (ix1 e) idx 0 + ((scat1Dims N E wf).window (ix1 e) 0 : Int)).toNat = i.val
      rw [hsw 0, hi]; simp
  · rename_i h
    constructor
    · intro hs; cases hs
    · intro hi
      exfalso; apply h
      intro a
      obtain rfl : a = 0 := Subsingleton.elim _ _
      rw [hsw 0, hi, hN]
      have := i.isLt
      omega

/-- The flat accumulating scatter at position `i`: the operand there plus the updates whose index word,
    read signed, is `i` (an index outside the operand names no position, and its update is dropped). -/
theorem hostScatterAdd_scat1_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (i : Fin N) :
    Ideal.hostScatterAdd (scat1Dims N E wf) x idx upd (ix1 i)
      = x (ix1 i) + ∑ e ∈ Finset.univ.filter (fun e : Fin E => (idx (ix2 e 0)).toInt = (i.val : Int)),
          upd (ix1 e) := by
  simp only [Ideal.hostScatterAdd]
  congr 1
  rw [Finset.sum_filter, Finset.sum_filter, sum_idx1]
  exact Finset.sum_congr rfl (fun e _ => if_congr (scat1_resultIdx_eq_some_iff wf idx e i) rfl rfl)

/-- The dimension numbers of `x.at[idx].add(u)` (whole rows) for an operand `[N, D]`, scatter indices
    `[E, 1]`, updates `[E, D]`. -/
abbrev scatRowDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update `(e, f')` of the row scatter lands at `(i, f)` exactly when `e`'s index word, read signed, is
    `i` and the columns agree. -/
theorem scatRow_resultIdx_eq_some_iff {N D E w : Nat}
    (wf : ScatterDims.WF ⟨2, ![N, D]⟩ ⟨2, ![E, 1]⟩ ⟨2, ![E, D]⟩ [1] [0] [0] 1)
    (idx : IVec ⟨2, ![E, 1]⟩ w) (e : Fin E) (f' : Fin D) (i : Fin N) (f : Fin D) :
    (scatRowDims N D E wf).resultIdx? (ix2 e f') idx = some (ix2 i f)
      ↔ (idx (ix2 e 0)).toInt = (i.val : Int) ∧ f' = f := by
  have hsw0 : ∀ h0, (scatRowDims N D E wf).start (ix2 e f') idx ⟨0, h0⟩
      + ((scatRowDims N D E wf).window (ix2 e f') ⟨0, h0⟩ : Int) = (idx (ix2 e 0)).toInt := by
    intro h0
    have hw : (scatRowDims N D E wf).window (ix2 e f') ⟨0, h0⟩ = 0 := by
      unfold ScatterDims.window
      rw [dif_neg (by simp [ScatterDims.sKept, Shape.kept])]
    have hs : (scatRowDims N D E wf).start (ix2 e f') idx ⟨0, h0⟩ = (idx (ix2 e 0)).toInt := by
      unfold ScatterDims.start
      rw [dif_pos (show (⟨0, h0⟩ : Fin 2) ∈ (scatRowDims N D E wf).scatterDimsToOperandDims from
        List.mem_singleton.mpr rfl)]
      have hsi : (scatRowDims N D E wf).siIdx (ix2 e f')
          ⟨List.idxOf (⟨0, h0⟩ : Fin 2) (scatRowDims N D E wf).scatterDimsToOperandDims,
            List.idxOf_lt_length_iff.2 (List.mem_singleton.mpr rfl)⟩ = ix2 e 0 := by
        funext b; refine Fin.ext ?_
        match b with
        | ⟨0, _⟩ => rfl
        | ⟨1, _⟩ => rfl
      rw [hsi]
    rw [hs, hw]; simp
  have hsw1 : ∀ h1, (scatRowDims N D E wf).start (ix2 e f') idx ⟨1, h1⟩
      + ((scatRowDims N D E wf).window (ix2 e f') ⟨1, h1⟩ : Int) = (f'.val : Int) := by
    intro h1
    have hs : (scatRowDims N D E wf).start (ix2 e f') idx ⟨1, h1⟩ = 0 := by
      unfold ScatterDims.start
      rw [dif_neg (fun h => absurd (List.mem_singleton.mp h)
        (fun h' => absurd (congrArg Fin.val h') Nat.one_ne_zero))]
    have hw : (scatRowDims N D E wf).window (ix2 e f') ⟨1, h1⟩ = f'.val := rfl
    rw [hs, hw]; simp
  have hN : ∀ h0, ((⟨2, ![N, D]⟩ : Shape).size ⟨0, h0⟩) = N := fun _ => rfl
  have hD : ∀ h1, ((⟨2, ![N, D]⟩ : Shape).size ⟨1, h1⟩) = D := fun _ => rfl
  unfold ScatterDims.resultIdx?
  split
  · rename_i h
    constructor
    · intro hs
      have e0 : ((scatRowDims N D E wf).start (ix2 e f') idx ⟨0, Nat.zero_lt_two⟩
          + ((scatRowDims N D E wf).window (ix2 e f') ⟨0, Nat.zero_lt_two⟩ : Int)).toNat = i.val :=
        congrArg Fin.val (congrFun (Option.some.inj hs) ⟨0, Nat.zero_lt_two⟩)
      have e1 : ((scatRowDims N D E wf).start (ix2 e f') idx ⟨1, Nat.one_lt_two⟩
          + ((scatRowDims N D E wf).window (ix2 e f') ⟨1, Nat.one_lt_two⟩ : Int)).toNat = f.val :=
        congrArg Fin.val (congrFun (Option.some.inj hs) ⟨1, Nat.one_lt_two⟩)
      have h2 := h ⟨0, Nat.zero_lt_two⟩
      rw [hsw0] at e0 h2
      rw [hsw1] at e1
      exact ⟨by omega, Fin.ext (by omega)⟩
    · rintro ⟨hi, rfl⟩
      congr 1
      funext a
      refine Fin.ext ?_
      match a with
      | ⟨0, h0⟩ =>
        show ((scatRowDims N D E wf).start (ix2 e f') idx ⟨0, h0⟩
          + ((scatRowDims N D E wf).window (ix2 e f') ⟨0, h0⟩ : Int)).toNat = i.val
        rw [hsw0, hi]; simp
      | ⟨1, h1⟩ =>
        show ((scatRowDims N D E wf).start (ix2 e f') idx ⟨1, h1⟩
          + ((scatRowDims N D E wf).window (ix2 e f') ⟨1, h1⟩ : Int)).toNat = f'.val
        rw [hsw1]; simp
  · rename_i h
    constructor
    · intro hs; cases hs
    · rintro ⟨hi, rfl⟩
      exfalso; apply h
      intro a
      match a with
      | ⟨0, h0⟩ =>
        rw [hsw0, hi, hN]
        have := i.isLt
        omega
      | ⟨1, h1⟩ =>
        rw [hsw1, hD]
        have := f'.isLt
        omega

/-- The accumulating row scatter at `(i, f)`: the operand there plus column `f` of the update rows whose
    index word, read signed, is `i`. -/
theorem hostScatterAdd_scatRow_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (i : Fin N) (f : Fin D) :
    Ideal.hostScatterAdd (scatRowDims N D E wf) x idx upd (ix2 i f)
      = x (ix2 i f) + ∑ e ∈ Finset.univ.filter (fun e : Fin E => (idx (ix2 e 0)).toInt = (i.val : Int)),
          upd (ix2 e f) := by
  simp only [Ideal.hostScatterAdd]
  congr 1
  rw [Finset.sum_filter, Finset.sum_filter, sum_idx2]
  refine Finset.sum_congr rfl (fun e _ => ?_)
  rw [Finset.sum_eq_single f]
  · exact if_congr ((scatRow_resultIdx_eq_some_iff wf idx e f i f).trans (and_iff_left rfl)) rfl rfl
  · intro f' _ hf
    exact if_neg (fun h => hf ((scatRow_resultIdx_eq_some_iff wf idx e f' i f).mp h).2)
  · intro h; exact absurd (Finset.mem_univ f) h

end Scatter

end Cert.LibEdge
-- ==== Proof.EdgeData.lean ====
import proofs.«179362_j6141803233546_1_alg».proof.Proof.Spec
import proofs.«179362_j6141803233546_1_alg».proof.Proof.LibEdge

/-!
The graph's edge data as functions of the edge-index array `ei : [2, 262144]` of 32-bit words.

The extended edge list has `270336 = 262144 + 8192` entries: the given edges `ei[0, e] → ei[1, e]`
first, then one self loop `n → n` for every node `n`.  From it: the in-degree of a node (a sum of
ones, in floating point), its inverse square root where the degree is positive, and the
symmetric normalisation coefficient of an edge.
-/

noncomputable section

open scoped BigOperators

namespace Cert.EdgeData

open Idealize.ShloMosaic Idealize.ShloMosaic.ValueIdx

/-- The edge-index array: two rows of 262144 words. -/
abbrev EI : Type := (⟨2, ![2, 262144]⟩ : Shape).Idx → BitVec 32

/-- The word naming an end of entry `e` of the extended edge list — row `r = 0` the source, `r = 1` the
    destination: the array's word for a given edge, the node's own number for a self loop. -/
def endW (ei : EI) (r : Fin 2) (e : Fin 270336) : BitVec 32 :=
  if h : e.val < 262144 then ei (ix2 r ⟨e.val, h⟩) else BitVec.ofNat 32 (e.val - 262144)

/-- That end as a node (total: the word is read signed and reduced modulo the number of nodes, which
    changes nothing for a word already in `[0, 8192)`). -/
def endF (ei : EI) (r : Fin 2) (e : Fin 270336) : Fin 8192 :=
  ⟨(endW ei r e).toInt.toNat % 8192, Nat.mod_lt _ (by decide)⟩

/-- The source node of an entry of the extended edge list. -/
def srcF (ei : EI) : Fin 270336 → Fin 8192 := endF ei 0
/-- The destination node of an entry of the extended edge list. -/
def dstF (ei : EI) : Fin 270336 → Fin 8192 := endF ei 1

/-- The in-degree of node `i`, self loop included: zero plus a one for every entry that ends at `i`. -/
def deg (ei : EI) (i : Fin 8192) : EReal :=
  0 + ∑ _e ∈ Finset.univ.filter (fun e => dstF ei e = i), Ideal.ofBits .f32 0x3F800000#32

/-- The inverse square root of the degree where the degree is positive, else zero. -/
def dinv (ei : EI) (i : Fin 8192) : EReal :=
  if 0 < deg ei i then Ideal.rsqrt (deg ei i) else 0

/-- The normalisation coefficient of an entry of the extended edge list. -/
def nrm (ei : EI) (e : Fin 270336) : EReal := dinv ei (srcF ei e) * dinv ei (dstF ei e)

/-- The inverse square root of a positive value is a real number. -/
theorem rsqrt_fin_of_pos {x : EReal} (hx : 0 < x) : Cert.Spec.IsFin (Ideal.rsqrt x) := by
  induction x using EReal.rec with
  | bot => exact absurd hx (by simp)
  | top => simp [Cert.Spec.IsFin]
  | coe r =>
    have hr : 0 < r := by exact_mod_cast hx
    rw [Ideal.rsqrt_coe, if_neg (not_lt.mpr hr.le), if_neg hr.ne']
    exact ⟨EReal.coe_ne_top _, EReal.coe_ne_bot _⟩

/-- Every node's inverse-square-root degree is a real number. -/
theorem dinv_fin (ei : EI) (i : Fin 8192) : Cert.Spec.IsFin (dinv ei i) := by
  unfold dinv
  split
  · rename_i h; exact rsqrt_fin_of_pos h
  · exact ⟨EReal.zero_ne_top, EReal.zero_ne_bot⟩

/-- Every normalisation coefficient is a real number. -/
theorem nrm_fin (ei : EI) (e : Fin 270336) : Cert.Spec.IsFin (nrm ei e) := by
  unfold nrm
  obtain ⟨a1, a2⟩ := dinv_fin ei (srcF ei e)
  obtain ⟨b1, b2⟩ := dinv_fin ei (dstF ei e)
  lift dinv ei (srcF ei e) to ℝ using ⟨a1, a2⟩ with a
  lift dinv ei (dstF ei e) to ℝ using ⟨b1, b2⟩ with b
  rw [← EReal.coe_mul]
  exact ⟨EReal.coe_ne_top _, EReal.coe_ne_bot _⟩

/-! ## Indices in range -/

/-- Every word of the edge-index array, read signed, names a node. -/
def InRange (ei : EI) : Prop :=
  ∀ (r : Fin 2) (e : Fin 262144), 0 ≤ (ei (ix2 r e)).toInt ∧ (ei (ix2 r e)).toInt < 8192

/-- Then so does every end word of the extended list (a self loop's is the node's own number). -/
theorem endW_range {ei : EI} (h : InRange ei) (r : Fin 2) (e : Fin 270336) :
    0 ≤ (endW ei r e).toInt ∧ (endW ei r e).toInt < 8192 := by
  unfold endW
  split
  · exact h r _
  · rename_i he
    have := e.isLt
    rw [Cert.LibEdge.toInt_ofNat_of_lt _ (by omega)]
    omega

/-- … and the word, read signed, is the node `endF` names. -/
theorem endW_toInt {ei : EI} (h : InRange ei) (r : Fin 2) (e : Fin 270336) :
    (endW ei r e).toInt = ((endF ei r e).val : Int) := by
  obtain ⟨h0, h1⟩ := endW_range h r e
  show _ = (((endW ei r e).toInt.toNat % 8192 : Nat) : Int)
  omega

/-- The same, as a natural number. -/
theorem endW_toNat {ei : EI} (h : InRange ei) (r : Fin 2) (e : Fin 270336) :
    (endW ei r e).toInt.toNat = (endF ei r e).val := by
  have := endW_toInt h r e
  omega

/-- An end word names node `i` exactly when `endF` is `i`. -/
theorem endW_toInt_eq_iff {ei : EI} (h : InRange ei) (r : Fin 2) (e : Fin 270336) (i : Fin 8192) :
    (endW ei r e).toInt = (i.val : Int) ↔ endF ei r e = i := by
  rw [endW_toInt h r e, Fin.ext_iff]
  omega

end Cert.EdgeData
-- ==== Proof.EdgeRead.lean ====
import proofs.«179362_j6141803233546_1_alg».proof.Proof.EdgeData
import Idealize.ShloMosaic.PureOps.Contract

/-!
The host's edge-data operations read at an index, over pure functions: the arrays of end words of the
extended edge list, the accumulating scatters that land at the destination node, the gathers that
read at an end node, and the degree, its inverse square root and the normalisation coefficient that
result.  The shape facts an operation takes are hypotheses, and what an operand holds is a hypothesis
about its elements, so that every copy of these operations in a program instantiates the same lemma.
-/

noncomputable section

open scoped BigOperators

namespace Cert.EdgeRead

open Idealize.ShloMosaic Idealize.ShloMosaic.ValueIdx Cert.LibEdge Cert.EdgeData

/-! ## Broadcasts at an index -/

section Bcast
variable {α : Type}

/-- A broadcast scalar reads the scalar everywhere. -/
theorem bcastScalar_apply {t : Shape} (dims : Fin 0 → Fin t.rank)
    (hb : (⟨0, ![]⟩ : Shape).BroadcastsInDim t dims) (c : (⟨0, ![]⟩ : Shape).Idx → α) (j : t.Idx) :
    broadcastInDim t dims hb c j = c ix0 :=
  broadcastInDim_apply dims hb c j ix0 (fun a => a.elim0)

/-- A flat array as a one-column matrix reads the array at the row. -/
theorem bcastCol_apply {T : Nat} (hT : T ≠ 1)
    (hb : (⟨1, ![T]⟩ : Shape).BroadcastsInDim ⟨2, ![T, 1]⟩ ![0]) (w : (⟨1, ![T]⟩ : Shape).Idx → α)
    (e : Fin T) (z : Fin 1) :
    broadcastInDim ⟨2, ![T, 1]⟩ ![0] hb w (ix2 e z) = w (ix1 e) :=
  broadcastInDim_apply _ hb w _ (ix1 e) (fun a => match a with
    | ⟨0, _⟩ => by show e.val = if T = 1 then 0 else e.val; rw [if_neg hT])

/-- A one-column matrix repeated along its columns reads the column at the row. -/
theorem bcastCols_apply {T D : Nat} (hT : T ≠ 1)
    (hb : (⟨2, ![T, 1]⟩ : Shape).BroadcastsInDim ⟨2, ![T, D]⟩ ![0, 1])
    (y : (⟨2, ![T, 1]⟩ : Shape).Idx → α) (e : Fin T) (f : Fin D) :
    broadcastInDim ⟨2, ![T, D]⟩ ![0, 1] hb y (ix2 e f) = y (ix2 e 0) :=
  broadcastInDim_apply _ hb y _ (ix2 e 0) (fun a => match a with
    | ⟨0, _⟩ => by show e.val = if T = 1 then 0 else e.val; rw [if_neg hT]
    | ⟨1, _⟩ => by show (0 : Nat) = if (1 : Nat) = 1 then 0 else f.val; rw [if_pos rfl])

/-- A row vector as a one-row matrix, then repeated along the rows, reads the vector at the column. -/
theorem bcastRow_apply {D : Nat} (hb : (⟨1, ![D]⟩ : Shape).BroadcastsInDim ⟨2, ![1, D]⟩ ![1])
    (b : (⟨1, ![D]⟩ : Shape).Idx → α) (z : Fin 1) (f : Fin D) :
    broadcastInDim ⟨2, ![1, D]⟩ ![1] hb b (ix2 z f) = b (ix1 f) :=
  broadcastInDim_apply _ hb b _ (ix1 f) (fun a => match a with
    | ⟨0, _⟩ => by
      show f.val = if D = 1 then 0 else f.val
      split
      · rename_i h; have := f.isLt; omega
      · rfl)

theorem bcastRows_apply {N D : Nat} (hD : D ≠ 1)
    (hb : (⟨2, ![1, D]⟩ : Shape).BroadcastsInDim ⟨2, ![N, D]⟩ ![0, 1])
    (y : (⟨2, ![1, D]⟩ : Shape).Idx → α) (i : Fin N) (f : Fin D) :
    broadcastInDim ⟨2, ![N, D]⟩ ![0, 1] hb y (ix2 i f) = y (ix2 0 f) :=
  broadcastInDim_apply _ hb y _ (ix2 0 f) (fun a => match a with
    | ⟨0, _⟩ => by show (0 : Nat) = if (1 : Nat) = 1 then 0 else i.val; rw [if_pos rfl]
    | ⟨1, _⟩ => by show f.val = if D = 1 then 0 else f.val; rw [if_neg hD])

end Bcast

/-! ## The arrays of end words -/

/-- Row `r` of the edge-index array, flattened, followed by the node numbers: entry `e` is the end word
    `endW ei r e`. -/
theorem endArr_apply (ei : EI) (r : Fin 2) (off : Fin 2 → Nat) (hoff0 : off 0 = r.val) (hoff1 : off 1 = 0)
    (hs : (⟨2, ![2, 262144]⟩ : Shape).Slices off ⟨2, ![1, 262144]⟩)
    (hc : (⟨2, ![1, 262144]⟩ : Shape).ShapeCasts ⟨1, ![262144]⟩)
    (hk : Shape.Concatenates [(⟨1, ![262144]⟩ : Shape), ⟨1, ![8192]⟩] ⟨1, ![270336]⟩ 0) (e : Fin 270336) :
    concatenate ⟨1, ![270336]⟩ 0
        [⟨⟨1, ![262144]⟩, shapeCast ⟨1, ![262144]⟩ (extractStridedSlice ⟨2, ![1, 262144]⟩ off ei hs) hc⟩,
          ⟨⟨1, ![8192]⟩, iotaInDim ⟨1, ![8192]⟩ 32 0⟩] hk (ix1 e)
      = endW ei r e := by
  rw [concat1_apply (by norm_num) _ _ hk e]
  unfold endW
  split
  · rename_i he
    rw [shapeCast_apply _ hc (ix1 ⟨e.val, he⟩) (ix2 0 ⟨e.val, he⟩)
      (by rewrite [Shape.rowMajor_val_two, Shape.rowMajor_val_one]; show 0 * 262144 + e.val = e.val; omega)]
    exact extractStridedSlice_apply off ei hs _ (ix2 r ⟨e.val, he⟩) (fun a => match a with
      | ⟨0, h0⟩ => by
        have h : off ⟨0, h0⟩ = r.val := hoff0
        show r.val = off ⟨0, h0⟩ + 0
        omega
      | ⟨1, h1⟩ => by
        have h : off ⟨1, h1⟩ = 0 := hoff1
        show e.val = off ⟨1, h1⟩ + e.val
        omega)
  · rfl

/-- The negative-index wrap of an array of end words changes nothing when the indices are in range. -/
theorem wrapEnd_apply {ei : EI} (h : InRange ei) (r : Fin 2)
    (w z k : (⟨1, ![270336]⟩ : Shape).Idx → BitVec 32) (e : Fin 270336)
    (hw : w (ix1 e) = endW ei r e) (hz : z (ix1 e) = 0#32) :
    select (cmpi .slt w z) (addi w k) w (ix1 e) = endW ei r e := by
  show Scalar.select (IntOp.cmpi .slt (w (ix1 e)) (z (ix1 e))) (IntOp.addi (w (ix1 e)) (k (ix1 e))) (w (ix1 e)) = _
  rw [hz, hw]
  exact wrap_of_nonneg _ _ (endW_range h r e).1

/-! ## Gathers at an end node, scatters at the destination node -/

section GatherScatter
variable {α : Type}

/-- `x[idx]` of a per-node array at (the wrapped, one-column) end words reads `x` at the end node. -/
theorem gatherEnd_apply {ei : EI} (h : InRange ei) (r : Fin 2)
    (wf : GatherDims.WF ⟨1, ![8192]⟩ ⟨2, ![270336, 1]⟩ ⟨1, ![270336]⟩ [] [0] [] [0] [] 1 ![1])
    (x : (⟨1, ![8192]⟩ : Shape).Idx → α) (idx : IVec ⟨2, ![270336, 1]⟩ 32)
    (hidx : ∀ e, idx (ix2 e 0) = endW ei r e) (e : Fin 270336) :
    Host.gather (take1Dims 8192 270336 wf) x idx (ix1 e) = x (ix1 (endF ei r e)) := by
  rw [gather_take1_apply (by decide) wf x idx e]
  congr 2
  refine Fin.ext ?_
  show min (idx (ix2 e 0)).toInt.toNat (8192 - 1) = (endF ei r e).val
  rw [hidx e, clamp_of_lt _ (by have := (endW_range h r e).2; exact_mod_cast this), endW_toNat h r e]

/-- `x[idx]` of the rows of a per-node matrix at end words reads the end node's row. -/
theorem gatherRowEnd_apply {D : Nat} {ei : EI} (h : InRange ei) (r : Fin 2)
    (wf : GatherDims.WF ⟨2, ![8192, D]⟩ ⟨2, ![270336, 1]⟩ ⟨2, ![270336, D]⟩ [1] [0] [] [0] [] 1 ![1, D])
    (x : (⟨2, ![8192, D]⟩ : Shape).Idx → α) (idx : IVec ⟨2, ![270336, 1]⟩ 32)
    (hidx : ∀ e, idx (ix2 e 0) = endW ei r e) (e : Fin 270336) (f : Fin D) :
    Host.gather (takeRowDims 8192 D 270336 wf) x idx (ix2 e f) = x (ix2 (endF ei r e) f) := by
  rw [gather_takeRow_apply (by decide) wf x idx e f]
  congr 2
  refine Fin.ext ?_
  show min (idx (ix2 e 0)).toInt.toNat (8192 - 1) = (endF ei r e).val
  rw [hidx e, clamp_of_lt _ (by have := (endW_range h r e).2; exact_mod_cast this), endW_toNat h r e]

/-- The accumulating scatter of per-entry values at the destination words: node `i` receives the operand
    there plus the values of the entries that end at `i`. -/
theorem scatterDst_apply {ei : EI} (h : InRange ei)
    (wf : ScatterDims.WF ⟨1, ![8192]⟩ ⟨2, ![270336, 1]⟩ ⟨1, ![270336]⟩ [] [0] [0] 1)
    (x : FVec Ideal ⟨1, ![8192]⟩ .f32) (idx : IVec ⟨2, ![270336, 1]⟩ 32)
    (upd : FVec Ideal ⟨1, ![270336]⟩ .f32)
    (hidx : ∀ e, idx (ix2 e 0) = endW ei 1 e) (i : Fin 8192) :
    Host.scatterAdd (scat1Dims 8192 270336 wf) x idx upd (ix1 i)
      = x (ix1 i) + ∑ e ∈ Finset.univ.filter (fun e => dstF ei e = i), upd (ix1 e) := by
  show Ideal.hostScatterAdd (scat1Dims 8192 270336 wf) x idx upd (ix1 i) = _
  rw [hostScatterAdd_scat1_apply wf x idx upd i]
  have hf : Finset.univ.filter (fun e : Fin 270336 => (idx (ix2 e 0)).toInt = (i.val : Int))
      = Finset.univ.filter (fun e => dstF ei e = i) :=
    Finset.filter_congr (fun e _ => by rw [hidx e]; exact endW_toInt_eq_iff h 1 e i)
  rw [hf]

/-- The accumulating scatter of per-entry rows at the destination words: row `i` receives the operand's row
    plus the rows of the entries that end at `i`. -/
theorem scatterRowDst_apply {D : Nat} {ei : EI} (h : InRange ei)
    (wf : ScatterDims.WF ⟨2, ![8192, D]⟩ ⟨2, ![270336, 1]⟩ ⟨2, ![270336, D]⟩ [1] [0] [0] 1)
    (x : FVec Ideal ⟨2, ![8192, D]⟩ .f32) (idx : IVec ⟨2, ![270336, 1]⟩ 32)
    (upd : FVec Ideal ⟨2, ![270336, D]⟩ .f32)
    (hidx : ∀ e, idx (ix2 e 0) = endW ei 1 e) (i : Fin 8192) (f : Fin D) :
    Host.scatterAdd (scatRowDims 8192 D 270336 wf) x idx upd (ix2 i f)
      = x (ix2 i f) + ∑ e ∈ Finset.univ.filter (fun e => dstF ei e = i), upd (ix2 e f) := by
  show Ideal.hostScatterAdd (scatRowDims 8192 D 270336 wf) x idx upd (ix2 i f) = _
  rw [hostScatterAdd_scatRow_apply wf x idx upd i f]
  have hf : Finset.univ.filter (fun e : Fin 270336 => (idx (ix2 e 0)).toInt = (i.val : Int))
      = Finset.univ.filter (fun e => dstF ei e = i) :=
    Finset.filter_congr (fun e _ => by rw [hidx e]; exact endW_toInt_eq_iff h 1 e i)
  rw [hf]

end GatherScatter

/-! ## Degree, inverse square root, coefficient -/

/-- The scatter of ones at the destination words is the degree. -/
theorem deg_apply {ei : EI} (h : InRange ei)
    (wf : ScatterDims.WF ⟨1, ![8192]⟩ ⟨2, ![270336, 1]⟩ ⟨1, ![270336]⟩ [] [0] [0] 1)
    (x : FVec Ideal ⟨1, ![8192]⟩ .f32) (idx : IVec ⟨2, ![270336, 1]⟩ 32)
    (upd : FVec Ideal ⟨1, ![270336]⟩ .f32)
    (hx : ∀ i, x i = Ideal.ofBits .f32 0x00000000#32)
    (hidx : ∀ e, idx (ix2 e 0) = endW ei 1 e)
    (hupd : ∀ e, upd e = Ideal.ofBits .f32 0x3F800000#32) (i : Fin 8192) :
    Host.scatterAdd (scat1Dims 8192 270336 wf) x idx upd (ix1 i) = deg ei i := by
  rw [scatterDst_apply h wf x idx upd hidx i, hx, Ideal.ofBits_zero_f32]
  unfold deg
  rw [Finset.sum_congr rfl (fun e _ => hupd (ix1 e))]

/-- `select (d > 0) (rsqrt d) 0` on one element. -/
theorem dinv_word (d z z' : Ideal .f32) (hz : z = Ideal.ofBits .f32 0x00000000#32)
    (hz' : z' = Ideal.ofBits .f32 0x00000000#32) :
    Scalar.select (FloatOps.cmpf .ogt d z) (FloatOps.hostUnary .rsqrt d) z'
      = if 0 < d then Ideal.rsqrt d else 0 := by
  subst hz hz'
  rw [Ideal.ofBits_zero_f32]
  show Scalar.select (Ideal.cmp .ogt d 0) (Ideal.rsqrt d) 0 = _
  unfold Scalar.select Ideal.cmp
  by_cases hd : (0 : EReal) < d
  · simp [hd]
  · simp [hd]

end Cert.EdgeRead
-- ==== Proof.LibScatterPair.lean ====
import proofs.«179362_j6141803233546_1_alg».proof.Proof.LibEdge

/-!
The accumulating scatter `x.at[r, c].add(u)` of a matrix at PAIRS of indices: operand `[N, M]`,
scatter indices `[E, 2]` (row `e` holds the pair `(r, c)` of update `e`), updates `[E]`.
Update `e` lands at `(i, j)` exactly when its two index words, read signed, are `i` and `j`;
an update whose pair names no element of the operand is dropped.
-/

noncomputable section

open scoped BigOperators

namespace Cert.LibEdge

open Idealize.ShloMosaic Idealize.ShloMosaic.ValueIdx

section ScatterPair

/-- The dimension numbers of `x.at[r, c].add(u)` for an operand `[N, M]`, scatter indices `[E, 2]`,
    updates `[E]`: both operand axes inserted, the index pair along axis 1 of the indices. -/
abbrev scatPairDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- Update `e` of the pair scatter lands at `(i, j)` exactly when its two index words, read signed,
    are `i` and `j`. -/
theorem scatPair_resultIdx_eq_some_iff {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (i : Fin N) (j : Fin M) :
    (scatPairDims N M E wf).resultIdx? (ix1 e) idx = some (ix2 i j)
      ↔ (idx (ix2 e 0)).toInt = (i.val : Int) ∧ (idx (ix2 e 1)).toInt = (j.val : Int) := by
  have hw : ∀ a, (scatPairDims N M E wf).window (ix1 e) a = 0 := by
    intro a
    unfold ScatterDims.window
    have hk : (scatPairDims N M E wf).sKept = [] := rfl
    rw [dif_neg (by rw [hk]; exact List.not_mem_nil)]
  have hsw0 : ∀ h0, (scatPairDims N M E wf).start (ix1 e) idx ⟨0, h0⟩
      + ((scatPairDims N M E wf).window (ix1 e) ⟨0, h0⟩ : Int) = (idx (ix2 e 0)).toInt := by
    intro h0
    have hs : (scatPairDims N M E wf).start (ix1 e) idx ⟨0, h0⟩ = (idx (ix2 e 0)).toInt := by
      unfold ScatterDims.start
      have hm0 : (⟨0, h0⟩ : Fin 2) ∈ (scatPairDims N M E wf).scatterDimsToOperandDims :=
        List.mem_cons.mpr (Or.inl rfl)
      rw [dif_pos hm0]
      have hsi : (scatPairDims N M E wf).siIdx (ix1 e)
          ⟨List.idxOf (⟨0, h0⟩ : Fin 2) (scatPairDims N M E wf).scatterDimsToOperandDims,
            List.idxOf_lt_length_iff.2 hm0⟩ = ix2 e 0 := by
        funext b; refine Fin.ext ?_
        match b with
        | ⟨0, _⟩ => rfl
        | ⟨1, _⟩ => rfl
      rw [hsi]
    rw [hs, hw]; simp
  have hsw1 : ∀ h1, (scatPairDims N M E wf).start (ix1 e) idx ⟨1, h1⟩
      + ((scatPairDims N M E wf).window (ix1 e) ⟨1, h1⟩ : Int) = (idx (ix2 e 1)).toInt := by
    intro h1
    have hs : (scatPairDims N M E wf).start (ix1 e) idx ⟨1, h1⟩ = (idx (ix2 e 1)).toInt := by
      unfold ScatterDims.start
      have hm1 : (⟨1, h1⟩ : Fin 2) ∈ (scatPairDims N M E wf).scatterDimsToOperandDims :=
        List.mem_cons.mpr (Or.inr (List.mem_singleton.mpr rfl))
      rw [dif_pos hm1]
      have hsi : (scatPairDims N M E wf).siIdx (ix1 e)
          ⟨List.idxOf (⟨1, h1⟩ : Fin 2) (scatPairDims N M E wf).scatterDimsToOperandDims,
            List.idxOf_lt_length_iff.2 hm1⟩ = ix2 e 1 := by
        funext b; refine Fin.ext ?_
        match b with
        | ⟨0, _⟩ => rfl
        | ⟨1, _⟩ => rfl
      rw [hsi]
    rw [hs, hw]; simp
  have hN : ∀ h0, ((⟨2, ![N, M]⟩ : Shape).size ⟨0, h0⟩) = N := fun _ => rfl
  have hM : ∀ h1, ((⟨2, ![N, M]⟩ : Shape).size ⟨1, h1⟩) = M := fun _ => rfl
  unfold ScatterDims.resultIdx?
  split
  · rename_i h
    constructor
    · intro hs
      have e0 : ((scatPairDims N M E wf).start (ix1 e) idx ⟨0, Nat.zero_lt_two⟩
          + ((scatPairDims N M E wf).window (ix1 e) ⟨0, Nat.zero_lt_two⟩ : Int)).toNat = i.val :=
        congrArg Fin.val (congrFun (Option.some.inj hs) ⟨0, Nat.zero_lt_two⟩)
      have e1 : ((scatPairDims N M E wf).start (ix1 e) idx ⟨1, Nat.one_lt_two⟩
          + ((scatPairDims N M E wf).window (ix1 e) ⟨1, Nat.one_lt_two⟩ : Int)).toNat = j.val :=
        congrArg Fin.val (congrFun (Option.some.inj hs) ⟨1, Nat.one_lt_two⟩)
      have h2 := h ⟨0, Nat.zero_lt_two⟩
      have h3 := h ⟨1, Nat.one_lt_two⟩
      rw [hsw0] at e0 h2
      rw [hsw1] at e1 h3
      exact ⟨by omega, by omega⟩
    · rintro ⟨hi, hj⟩
      congr 1
      funext a
      refine Fin.ext ?_
      match a with
      | ⟨0, h0⟩ =>
        show ((scatPairDims N M E wf).start (ix1 e) idx ⟨0, h0⟩
          + ((scatPairDims N M E wf).window (ix1 e) ⟨0, h0⟩ : Int)).toNat = i.val
        rw [hsw0, hi]; simp
      | ⟨1, h1⟩ =>
        show ((scatPairDims N M E wf).start (ix1 e) idx ⟨1, h1⟩
          + ((scatPairDims N M E wf).window (ix1 e) ⟨1, h1⟩ : Int)).toNat = j.val
        rw [hsw1, hj]; simp
  · rename_i h
    constructor
    · intro hs; cases hs
    · rintro ⟨hi, hj⟩
      exfalso; apply h
      intro a
      match a with
      | ⟨0, h0⟩ =>
        rw [hsw0, hi, hN]
        have := i.isLt
        omega
      | ⟨1, h1⟩ =>
        rw [hsw1, hj, hM]
        have := j.isLt
        omega

/-- The accumulating pair scatter at `(i, j)`: the operand there plus the updates whose index pair,
    read signed, is `(i, j)`. -/
theorem hostScatterAdd_scatPair_apply {N M E w : Nat}
    (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w)
    (upd : (⟨1, ![E]⟩ : Shape).Idx → EReal) (i : Fin N) (j : Fin M) :
    Ideal.hostScatterAdd (scatPairDims N M E wf) x idx upd (ix2 i j)
      = x (ix2 i j) + ∑ e ∈ Finset.univ.filter (fun e : Fin E =>
          (idx (ix2 e 0)).toInt = (i.val : Int) ∧ (idx (ix2 e 1)).toInt = (j.val : Int)), upd (ix1 e) := by
  simp only [Ideal.hostScatterAdd]
  congr 1
  rw [Finset.sum_filter, Finset.sum_filter, sum_idx1]
  exact Finset.sum_congr rfl (fun e _ => if_congr (scatPair_resultIdx_eq_some_iff wf idx e i j) rfl rfl)

/-- Column `c` of two `[E, 1]` columns joined along axis 1 is that column. -/
theorem concatCols_apply {α : Type} {E : Nat} (x₀ x₁ : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, x₀⟩, ⟨⟨2, ![E, 1]⟩, x₁⟩] h (ix2 e 0) = x₀ (ix2 e 0)
    ∧ concatenate ⟨2, ![E, 2]⟩ 1 [⟨⟨2, ![E, 1]⟩, x₀⟩, ⟨⟨2, ![E, 1]⟩, x₁⟩] h (ix2 e 1) = x₁ (ix2 e 0) := by
  constructor
  · exact concatenate_pair_apply_left 1 x₀ x₁ h (ix2 e 0) rfl (ix2 e 0)
      (fun b => by match b with | ⟨0, _⟩ => rfl | ⟨1, _⟩ => rfl)
  · exact concatenate_pair_apply_right 1 x₀ x₁ h (ix2 e 1) rfl rfl (ix2 e 0)
      (fun b hb => by
        match b with
        | ⟨0, _⟩ => rfl
        | ⟨1, _⟩ => exact absurd rfl hb)
      rfl

end ScatterPair

end Cert.LibEdge
-- ==== Proof.AdjRead.lean ====
import proofs.«179362_j6141803233546_1_alg».proof.Proof.EdgeRead
import proofs.«179362_j6141803233546_1_alg».proof.Proof.LibScatterPair

/-!
The dense adjacency matrix read at an index, over pure functions.

Three compositions of the host's edge-data operations: the per-node inverse square root of the
degree (a scatter of ones, a comparison with zero, a reciprocal square root, a select); the
per-entry normalisation coefficient (two gathers of it, at the source and at the destination,
multiplied); and the matrix that receives coefficient `e` at row `dst e`, column `src e`, from a
zero matrix.  What an operand holds is a hypothesis about its elements.
-/

noncomputable section

open scoped BigOperators

namespace Cert.AdjRead

open Idealize.ShloMosaic Idealize.ShloMosaic.ValueIdx Cert.LibEdge Cert.EdgeData Cert.EdgeRead

/-- `where(deg > 0, rsqrt(deg), 0)` with `deg` the scatter of ones at the destination words: node
    `i`'s inverse-square-root degree. -/
theorem dinvArr_apply {ei : EI} (h : InRange ei)
    (wf : ScatterDims.WF ⟨1, ![8192]⟩ ⟨2, ![270336, 1]⟩ ⟨1, ![270336]⟩ [] [0] [0] 1)
    (x : FVec Ideal ⟨1, ![8192]⟩ .f32) (idx : IVec ⟨2, ![270336, 1]⟩ 32)
    (upd : FVec Ideal ⟨1, ![270336]⟩ .f32) (z z' : FVec Ideal ⟨1, ![8192]⟩ .f32)
    (hx : ∀ i, x i = Ideal.ofBits .f32 0x00000000#32)
    (hidx : ∀ e, idx (ix2 e 0) = endW ei 1 e)
    (hupd : ∀ e, upd e = Ideal.ofBits .f32 0x3F800000#32)
    (hz : ∀ i, z i = Ideal.ofBits .f32 0x00000000#32)
    (hz' : ∀ i, z' i = Ideal.ofBits .f32 0x00000000#32) (i : Fin 8192) :
    select (cmpf .ogt (Host.scatterAdd (scat1Dims 8192 270336 wf) x idx upd) z)
        (Host.rsqrt (Host.scatterAdd (scat1Dims 8192 270336 wf) x idx upd)) z' (ix1 i)
      = dinv ei i := by
  show Scalar.select
      (FloatOps.cmpf .ogt (Host.scatterAdd (scat1Dims 8192 270336 wf) x idx upd (ix1 i)) (z (ix1 i)))
      (FloatOps.hostUnary .rsqrt (Host.scatterAdd (scat1Dims 8192 270336 wf) x idx upd (ix1 i)))
      (z' (ix1 i)) = _
  rw [dinv_word _ _ _ (hz _) (hz' _), deg_apply h wf x idx upd hx hidx hupd i]
  rfl

/-- The product of the gathers of the inverse-square-root degrees at the source words and at the
    destination words: entry `e`'s normalisation coefficient. -/
theorem nrmArr_apply {ei : EI} (h : InRange ei)
    (wf : GatherDims.WF ⟨1, ![8192]⟩ ⟨2, ![270336, 1]⟩ ⟨1, ![270336]⟩ [] [0] [] [0] [] 1 ![1])
    (dv : FVec Ideal ⟨1, ![8192]⟩ .f32) (idxS idxD : IVec ⟨2, ![270336, 1]⟩ 32)
    (hdv : ∀ i, dv (ix1 i) = dinv ei i)
    (hS : ∀ e, idxS (ix2 e 0) = endW ei 0 e) (hD : ∀ e, idxD (ix2 e 0) = endW ei 1 e)
    (e : Fin 270336) :
    mulf (Host.gather (take1Dims 8192 270336 wf) dv idxS)
        (Host.gather (take1Dims 8192 270336 wf) dv idxD) (ix1 e)
      = nrm ei e := by
  show Host.gather (take1Dims 8192 270336 wf) dv idxS (ix1 e)
      * Host.gather (take1Dims 8192 270336 wf) dv idxD (ix1 e) = _
  rw [gatherEnd_apply h 0 wf dv idxS hS e, gatherEnd_apply h 1 wf dv idxD hD e, hdv, hdv]
  rfl

/-- The accumulating scatter of the coefficients into a zero matrix at the pairs (destination word,
    source word): entry `(i, j)` is zero plus the coefficients of the entries `j → i`, the dense
    adjacency of the specification. -/
theorem adjDense_apply {ei : EI} (h : InRange ei)
    (wf : ScatterDims.WF ⟨2, ![8192, 8192]⟩ ⟨2, ![270336, 2]⟩ ⟨1, ![270336]⟩ [] [0, 1] [0, 1] 1)
    (x : FVec Ideal ⟨2, ![8192, 8192]⟩ .f32) (idx : IVec ⟨2, ![270336, 2]⟩ 32)
    (upd : FVec Ideal ⟨1, ![270336]⟩ .f32)
    (hx : ∀ i, x i = Ideal.ofBits .f32 0x00000000#32)
    (hidx0 : ∀ e, idx (ix2 e 0) = endW ei 1 e) (hidx1 : ∀ e, idx (ix2 e 1) = endW ei 0 e)
    (hupd : ∀ e, upd (ix1 e) = nrm ei e) (i j : Fin 8192) :
    Host.scatterAdd (scatPairDims 8192 8192 270336 wf) x idx upd (ix2 i j)
      = Cert.Spec.adj (srcF ei) (dstF ei) (nrm ei) i j := by
  show Ideal.hostScatterAdd (scatPairDims 8192 8192 270336 wf) x idx upd (ix2 i j) = _
  rw [hostScatterAdd_scatPair_apply wf x idx upd i j, hx, Ideal.ofBits_zero_f32]
  unfold Cert.Spec.adj
  have hf : Finset.univ.filter (fun e : Fin 270336 =>
        (idx (ix2 e 0)).toInt = (i.val : Int) ∧ (idx (ix2 e 1)).toInt = (j.val : Int))
      = Finset.univ.filter (fun e => dstF ei e = i ∧ srcF ei e = j) :=
    Finset.filter_congr (fun e _ => by
      rw [hidx0 e, hidx1 e]
      exact and_congr (endW_toInt_eq_iff h 1 e i) (endW_toInt_eq_iff h 0 e j))
  rw [hf]
  exact congrArg (fun s => (0 : EReal) + s) (Finset.sum_congr rfl (fun e _ => hupd e))

end Cert.AdjRead
-- ==== Proof.KHostAdj.lean ====
import proofs.«179362_j6141803233546_1_alg».proof.Proof.KHost
import proofs.«179362_j6141803233546_1_alg».proof.Proof.AdjRead

/-!
The dense adjacency matrix the kernel program's host operations build, at the ideal instance.

The host operations before the first region compute, from the edge-index array, the two arrays
of end words of the extended edge list, the degree and its inverse square root, the
normalisation coefficients, and scatter the coefficients into a zero matrix at the pairs
(destination, source).  Entry `(i, j)` of the result is the specification's dense adjacency.
-/

-- reading a reference's type off the program's table of 166 references recurses past the default depth
set_option maxRecDepth 16384

noncomputable section

namespace Cert.KernelIdeal.HostValue

open Idealize.ShloMosaic Idealize.ShloMosaic.ValueIdx Idealize.ShloMosaic.StableHlo
open Cert.KernelIdeal Cert.KernelIdeal.Gen Idealize.ShloMosaic.TcCoe
open Cert.LibEdge Cert.EdgeData Cert.EdgeRead Cert.AdjRead

/-- Reads a line of host operations at one buffer in one pass, each operation's result replaced by its
    function of the operands' contents.  No β-reduction while it runs: the operands of a `concatenate`
    sit inside a list that the operation's shape fact depends on, and are rewritten while they are
    still arguments of the operation's function. -/
macro "host_results" : tactic =>
  `(tactic| (simp (config := { beta := false }) (disch := decide) only [after_cons, after_nil,
      nullary_result', unary_result', binary_result', ternary_result', quaternary_result', reshape_result',
      nary4_result', nary_result', unaryIndexed_result', binaryIndexed_result',
      nullary_result_ne', unary_result_ne', binary_result_ne', ternary_result_ne', quaternary_result_ne',
      reshape_result_ne', nary_result_ne', unaryIndexed_result_ne', binaryIndexed_result_ne']))

/-- What the device's buffers hold after the first two stretches of host operations. -/
def W1 (m : (ℓ : Loc nD τ sig) → Buf (Elt Ideal) ℓ) (c : Dev nD) : Valuation τ sig (Elt Ideal) :=
  StableHlo.after hostOps0_1 (StableHlo.after hostOps0 (fun b => m (c, b)))

theorem Wpre_eq (m : (ℓ : Loc nD τ sig) → Buf (Elt Ideal) ℓ) (c : Dev nD) :
    Wpre m c = StableHlo.after hostOps0_2 (W1 m c) := rfl

/-- The edge-index array of device `c`. -/
abbrev eiOf (m : (ℓ : Loc nD τ sig) → Buf (Elt Ideal) ℓ) (c : Dev nD) : EI :=
  m ((c : Thread nD τ).loc main_arg1)

/-- The array of source words. -/
theorem W1_v3 (m : (ℓ : Loc nD τ sig) → Buf (Elt Ideal) ℓ) (c : Dev nD) (e : Fin 270336) :
    (W1 m c (Proc.devRef .tc main_v3) : S270336.Idx → BitVec 32) (ix1 e) = endW (eiOf m c) 0 e := by
  unfold W1
  host_results
  exact endArr_apply (eiOf m c) 0 ![0, 0] rfl rfl slices_S2x262144_S1x262144_0_0
    shapeCasts_S1x262144_S262144 concatenates_S262144_S8192_S270336_d0 e

/-- The array of destination words. -/
theorem W1_v6 (m : (ℓ : Loc nD τ sig) → Buf (Elt Ideal) ℓ) (c : Dev nD) (e : Fin 270336) :
    (W1 m c (Proc.devRef .tc main_v6) : S270336.Idx → BitVec 32) (ix1 e) = endW (eiOf m c) 1 e := by
  unfold W1
  host_results
  exact endArr_apply (eiOf m c) 1 ![1, 0] rfl rfl slices_S2x262144_S1x262144_1_0
    shapeCasts_S1x262144_S262144 concatenates_S262144_S8192_S270336_d0 e

/-- The inverse-square-root degrees. -/
theorem W1_v14 (m : (ℓ : Loc nD τ sig) → Buf (Elt Ideal) ℓ) (c : Dev nD) (h : InRange (eiOf m c))
    (i : Fin 8192) :
    (W1 m c (Proc.devRef .tc main_v14) : S8192.Idx → EReal) (ix1 i) = dinv (eiOf m c) i := by
  unfold W1
  host_results
  generalize hD : Host.scatterAdd (F := Ideal) scatter_S8192_S270336x1_S270336_n_0_0_1 _ _ _ = D
  have hdeg : D (ix1 i) = deg (eiOf m c) i := by
    rw [← hD]
    refine deg_apply h _ _ _ _ ?_ ?_ ?_ i
    · intro k; exact (bcastScalar_apply _ _ _ k).trans rfl
    · intro e
      refine (bcastCol_apply (by norm_num) _ _ e 0).trans ?_
      exact endArr_apply (eiOf m c) 1 ![1, 0] rfl rfl slices_S2x262144_S1x262144_1_0
        shapeCasts_S1x262144_S262144 concatenates_S262144_S8192_S270336_d0 e
    · intro k; exact (bcastScalar_apply _ _ _ k).trans rfl
  refine (dinv_word (D (ix1 i)) _ _ ?_ ?_).trans ?_
  · exact (bcastScalar_apply _ _ _ _).trans rfl
  · rfl
  · rw [hdeg]; rfl

/-- THE DENSE ADJACENCY: entry `(i, j)` of the matrix the host operations hand to the regions is zero
    plus the normalisation coefficients of the entries `j → i` of the extended edge list. -/
theorem adj_v45 (m : (ℓ : Loc nD τ sig) → Buf (Elt Ideal) ℓ) (c : Dev nD) (h : InRange (eiOf m c))
    (i j : Fin 8192) :
    (Wpre m c (Proc.devRef .tc main_v45) : S8192x8192.Idx → EReal) (ix2 i j)
      = Cert.Spec.adj (srcF (eiOf m c)) (dstF (eiOf m c)) (nrm (eiOf m c)) i j := by
  have h3 := W1_v3 m c
  have h6 := W1_v6 m c
  have h14 := W1_v14 m c h
  rw [Wpre_eq]
  generalize W1 m c = W at h3 h6 h14 ⊢
  host_results
  rw [truncf_apply]
  refine adjDense_apply h _ _ _ _ ?_ ?_ ?_ ?_ i j
  · intro k; exact (bcastScalar_apply _ _ _ k).trans rfl
  · intro e
    refine ((concatCols_apply _ _ _ e).1).trans ?_
    host_results
    refine (bcastCol_apply (by norm_num) _ _ e 0).trans ?_
    exact wrapEnd_apply h 1 _ _ _ e (h6 e) ((bcastScalar_apply _ _ _ _).trans rfl)
  · intro e
    refine ((concatCols_apply _ _ _ e).2).trans ?_
    host_results
    refine (bcastCol_apply (by norm_num) _ _ e 0).trans ?_
    exact wrapEnd_apply h 0 _ _ _ e (h3 e) ((bcastScalar_apply _ _ _ _).trans rfl)
  · intro e
    refine nrmArr_apply h _ _ _ _ h14 ?_ ?_ e
    · intro e'
      refine (bcastCol_apply (by norm_num) _ _ e' 0).trans ?_
      exact wrapEnd_apply h 0 _ _ _ e' (h3 e') ((bcastScalar_apply _ _ _ _).trans rfl)
    · intro e'
      refine (bcastCol_apply (by norm_num) _ _ e' 0).trans ?_
      exact wrapEnd_apply h 1 _ _ _ e' (h6 e') ((bcastScalar_apply _ _ _ _).trans rfl)

end Cert.KernelIdeal.HostValue
-- ==== Proof.PreDecode.lean ====
/- The precondition read back at the ideal numbers: the printed predicate is a conjunction of twelve "all" reductions,
   one per float argument (every entry's absolute value below +∞: the entry is a real) and one for the index array
   (every index at least 0 and below 8192, as signed words); it being all ones gives each of them, entry by entry. -/
import proofs.«179362_j6141803233546_1_alg».proof.Pre_finite_inputs
import Idealize.ShloMosaic.Lib.ReduceAll
import Idealize.ShloMosaic.Lib.ValueIdx
import Idealize.ShloMosaic.PureOps.Ideal
import Idealize.ShloMosaic.PureOps.Ideal.Laws

set_option maxRecDepth 16384

noncomputable section

namespace Cert.PreDecode

open Idealize.ShloMosaic
open Cert.Pre_finite_inputs

variable [Cert.Pre_finite_inputs.Facts]

/-- The scalar shape has one index. -/
instance : Subsingleton S_.Idx := ⟨fun a b => funext fun d => d.elim0⟩

/-- An extended real whose absolute value is below +∞ is neither infinity. -/
theorem finite_of_abs_lt_inf (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have hlt : max x (-x) < ⊤ := by
    by_contra hn
    simp [hn] at h'
  rw [max_lt_iff] at hlt
  refine ⟨ne_of_lt hlt.1, fun hb => ?_⟩
  rw [hb] at hlt
  simp at hlt

/-- A signed word at least 0 and below 8192. -/
theorem range_of_cmpi (w : BitVec 32) (h0 : IntOp.cmpi .sge w 0#32 = 1#1) (h1 : IntOp.cmpi .slt w 8192#32 = 1#1) :
    0 ≤ w.toInt ∧ w.toInt < 8192 := by
  have e0 := IntOp.cmpi_sge.1 h0
  have e1 := IntOp.cmpi_slt.1 h1
  have z : (0#32 : BitVec 32).toInt = 0 := by decide
  have k : (8192#32 : BitVec 32).toInt = 8192 := by decide
  rw [z] at e0; rw [k] at e1
  exact ⟨e0, e1⟩

/-- THE PRECONDITION DECODED: every float argument's entries are reals, every index is in [0, 8192). -/
theorem decode (a0 : FVec Ideal S8192x512 .f32) (a1 : IVec S2x262144 32) (a2 : FVec Ideal S512x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x512 .f32) (a9 : FVec Ideal S512 .f32) (a10 : FVec Ideal S128x128 .f32) (a11 : FVec Ideal S128 .f32)
    (h : Cert.Pre_finite_inputs.fn (F := Ideal) a0 a1 a2 a3 a4 a5 a6 a7 a8 a9 a10 a11 = (fun _ => 1#1)) :
    (∀ i, a0 i ≠ ⊤ ∧ a0 i ≠ ⊥)
      ∧ (∀ i, 0 ≤ (a1 i).toInt ∧ (a1 i).toInt < 8192)
      ∧ (∀ i, a2 i ≠ ⊤ ∧ a2 i ≠ ⊥)
      ∧ (∀ i, a3 i ≠ ⊤ ∧ a3 i ≠ ⊥)
      ∧ (∀ i, a4 i ≠ ⊤ ∧ a4 i ≠ ⊥)
      ∧ (∀ i, a5 i ≠ ⊤ ∧ a5 i ≠ ⊥)
      ∧ (∀ i, a6 i ≠ ⊤ ∧ a6 i ≠ ⊥)
      ∧ (∀ i, a7 i ≠ ⊤ ∧ a7 i ≠ ⊥)
      ∧ (∀ i, a8 i ≠ ⊤ ∧ a8 i ≠ ⊥)
      ∧ (∀ i, a9 i ≠ ⊤ ∧ a9 i ≠ ⊥)
      ∧ (∀ i, a10 i ≠ ⊤ ∧ a10 i ≠ ⊥)
      ∧ (∀ i, a11 i ≠ ⊤ ∧ a11 i ≠ ⊥) := by
  have e := congrFun h ValueIdx.ix0
  dsimp only [fn, fn_part1, fn_part2, fn_part3, andi] at e
  simp only [IntOp.andi_eq_one] at e
  obtain ⟨⟨⟨⟨⟨⟨⟨⟨⟨⟨⟨h0, h2⟩, h3⟩, h4⟩, h5⟩, h6⟩, h7⟩, h8⟩, h9⟩, h10⟩, h11⟩, h1⟩ := e
  refine ⟨fun i => finite_of_abs_lt_inf (a0 i) (Host.reduce_andi_all _ _ _ _ _ h0 i), fun i => ?_,
    fun i => finite_of_abs_lt_inf (a2 i) (Host.reduce_andi_all _ _ _ _ _ h2 i),
    fun i => finite_of_abs_lt_inf (a3 i) (Host.reduce_andi_all _ _ _ _ _ h3 i),
    fun i => finite_of_abs_lt_inf (a4 i) (Host.reduce_andi_all _ _ _ _ _ h4 i),
    fun i => finite_of_abs_lt_inf (a5 i) (Host.reduce_andi_all _ _ _ _ _ h5 i),
    fun i => finite_of_abs_lt_inf (a6 i) (Host.reduce_andi_all _ _ _ _ _ h6 i),
    fun i => finite_of_abs_lt_inf (a7 i) (Host.reduce_andi_all _ _ _ _ _ h7 i),
    fun i => finite_of_abs_lt_inf (a8 i) (Host.reduce_andi_all _ _ _ _ _ h8 i),
    fun i => finite_of_abs_lt_inf (a9 i) (Host.reduce_andi_all _ _ _ _ _ h9 i),
    fun i => finite_of_abs_lt_inf (a10 i) (Host.reduce_andi_all _ _ _ _ _ h10 i),
    fun i => finite_of_abs_lt_inf (a11 i) (Host.reduce_andi_all _ _ _ _ _ h11 i)⟩
  have hi := Host.reduce_andi_all _ _ _ _ _ h1 i
  obtain ⟨hge, hlt⟩ := IntOp.andi_eq_one.1 hi
  exact range_of_cmpi (a1 i) hge hlt

end Cert.PreDecode

end
-- ==== Proof.RefSeg1.lean ====
import proofs.«179362_j6141803233546_1_alg».proof.Proof.RefVals
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! # Operations 0–62 of the reference's @main: the stretch that ends by writing `main_v47` -/

set_option maxHeartbeats 4000000 in
/-- The stretch, in order (the text of the program's operation list). -/
abbrev seg1 : List (HloOp τ sig (Elt F)) :=
  [ nullary main_v0 (iotaInDim S8192 32 0),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    binary main_v2 main_v0 main_v3 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    binary main_v5 main_v0 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v7 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v8 (broadcastInDim S8192 ![] bcast_S_S8192 : (⟨S_, .f32⟩ : BufTy).Contents (Elt F) → (⟨S8192, .f32⟩ : BufTy).Contents (Elt F)),
    unary main_v6 main_v9 (broadcastInDim S270336x1 ![0] bcast_S270336_S270336x1_0 : (⟨S270336, .i32⟩ : BufTy).Contents (Elt F) → (⟨S270336x1, .i32⟩ : BufTy).Contents (Elt F)),
    ternary main_v8 main_v9 main_v7 main_v10 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v11 (broadcastInDim S8192 ![] bcast_S_S8192 : (⟨S_, .f32⟩ : BufTy).Contents (Elt F) → (⟨S8192, .f32⟩ : BufTy).Contents (Elt F)),
    binary main_v10 main_v11 main_v12 (cmpf .ogt : (⟨S8192, .f32⟩ : BufTy).Contents (Elt F) → (⟨S8192, .f32⟩ : BufTy).Contents (Elt F) → (⟨S8192, .i1⟩ : BufTy).Contents (Elt F)),
    unary main_v10 main_v13 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v12) (TRef.of (T := ⟨S8192, .f32⟩) main_v13) (TRef.of (T := ⟨S8192, .f32⟩) main_call0_v1) (TRef.of (T := ⟨S8192, .f32⟩) main_v14) select,
    nullary main_c (constantI S_ 32 0#32),
    unary main_c main_v15 (broadcastInDim S270336 ![] bcast_S_S270336 : (⟨S_, .i32⟩ : BufTy).Contents (Elt F) → (⟨S270336, .i32⟩ : BufTy).Contents (Elt F)),
    binary main_v3 main_v15 main_v16 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v17 (broadcastInDim S270336 ![] bcast_S_S270336 : (⟨S_, .i32⟩ : BufTy).Contents (Elt F) → (⟨S270336, .i32⟩ : BufTy).Contents (Elt F)),
    binary main_v3 main_v17 main_v18 (addi : (⟨S270336, .i32⟩ : BufTy).Contents (Elt F) → (⟨S270336, .i32⟩ : BufTy).Contents (Elt F) → (⟨S270336, .i32⟩ : BufTy).Contents (Elt F)),
    ternary main_v16 main_v18 main_v3 main_v19 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v19 main_v20 (broadcastInDim S270336x1 ![0] bcast_S270336_S270336x1_0 : (⟨S270336, .i32⟩ : BufTy).Contents (Elt F) → (⟨S270336x1, .i32⟩ : BufTy).Contents (Elt F)),
    binary main_v14 main_v20 main_v21 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v22 (broadcastInDim S270336 ![] bcast_S_S270336 : (⟨S_, .i32⟩ : BufTy).Contents (Elt F) → (⟨S270336, .i32⟩ : BufTy).Contents (Elt F)),
    binary main_v6 main_v22 main_v23 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v24 (broadcastInDim S270336 ![] bcast_S_S270336 : (⟨S_, .i32⟩ : BufTy).Contents (Elt F) → (⟨S270336, .i32⟩ : BufTy).Contents (Elt F)),
    binary main_v6 main_v24 main_v25 (addi : (⟨S270336, .i32⟩ : BufTy).Contents (Elt F) → (⟨S270336, .i32⟩ : BufTy).Contents (Elt F) → (⟨S270336, .i32⟩ : BufTy).Contents (Elt F)),
    ternary main_v23 main_v25 main_v6 main_v26 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v26 main_v27 (broadcastInDim S270336x1 ![0] bcast_S270336_S270336x1_0 : (⟨S270336, .i32⟩ : BufTy).Contents (Elt F) → (⟨S270336x1, .i32⟩ : BufTy).Contents (Elt F)),
    binary main_v14 main_v27 main_v28 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v21 main_v28 main_v29 (mulf : (⟨S270336, .f32⟩ : BufTy).Contents (Elt F) → (⟨S270336, .f32⟩ : BufTy).Contents (Elt F) → (⟨S270336, .f32⟩ : BufTy).Contents (Elt F)),
    binary main_arg0 main_arg2 main_v30 ((fun l r => Host.dotGeneral dot_S8192x512_S512x128_S8192x128_1_0_0_1_n_n none l r) : (⟨S8192x512, .f32⟩ : BufTy).Contents (Elt F) → (⟨S512x128, .f32⟩ : BufTy).Contents (Elt F) → (⟨S8192x128, .f32⟩ : BufTy).Contents (Elt F)),
    nullary main_c_6 (constantI S_ 32 0#32),
    unary main_c_6 main_v31 (broadcastInDim S270336 ![] bcast_S_S270336 : (⟨S_, .i32⟩ : BufTy).Contents (Elt F) → (⟨S270336, .i32⟩ : BufTy).Contents (Elt F)),
    binary main_v3 main_v31 main_v32 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v33 (broadcastInDim S270336 ![] bcast_S_S270336 : (⟨S_, .i32⟩ : BufTy).Contents (Elt F) → (⟨S270336, .i32⟩ : BufTy).Contents (Elt F)),
    binary main_v3 main_v33 main_v34 (addi : (⟨S270336, .i32⟩ : BufTy).Contents (Elt F) → (⟨S270336, .i32⟩ : BufTy).Contents (Elt F) → (⟨S270336, .i32⟩ : BufTy).Contents (Elt F)),
    ternary main_v32 main_v34 main_v3 main_v35 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v35 main_v36 (broadcastInDim S270336x1 ![0] bcast_S270336_S270336x1_0 : (⟨S270336, .i32⟩ : BufTy).Contents (Elt F) → (⟨S270336x1, .i32⟩ : BufTy).Contents (Elt F)),
    binary main_v30 main_v36 main_v37 ((fun x i => Host.gather gather_S8192x128_S270336x1_S270336x128_1_0_n_n_0_1_1128 x i) : (⟨S8192x128, .f32⟩ : BufTy).Contents (Elt F) → (⟨S270336x1, .i32⟩ : BufTy).Contents (Elt F) → (⟨S270336x128, .f32⟩ : BufTy).Contents (Elt F)),
    unary main_v29 main_v38 (broadcastInDim S270336x1 ![0] bcast_S270336_S270336x1_0 : (⟨S270336, .f32⟩ : BufTy).Contents (Elt F) → (⟨S270336x1, .f32⟩ : BufTy).Contents (Elt F)),
    unary main_v38 main_v39 (broadcastInDim S270336x128 ![0, 1] bcast_S270336x1_S270336x128_0_1 : (⟨S270336x1, .f32⟩ : BufTy).Contents (Elt F) → (⟨S270336x128, .f32⟩ : BufTy).Contents (Elt F)),
    binary main_v37 main_v39 main_v40 (mulf : (⟨S270336x128, .f32⟩ : BufTy).Contents (Elt F) → (⟨S270336x128, .f32⟩ : BufTy).Contents (Elt F) → (⟨S270336x128, .f32⟩ : BufTy).Contents (Elt F)),
    nullary main_cst_8 (constant S_ .f32 0x00000000#32),
    unary main_cst_8 main_v41 (broadcastInDim S8192x128 ![] bcast_S_S8192x128 : (⟨S_, .f32⟩ : BufTy).Contents (Elt F) → (⟨S8192x128, .f32⟩ : BufTy).Contents (Elt F)),
    unary main_v6 main_v42 (broadcastInDim S270336x1 ![0] bcast_S270336_S270336x1_0 : (⟨S270336, .i32⟩ : BufTy).Contents (Elt F) → (⟨S270336x1, .i32⟩ : BufTy).Contents (Elt F)),
    ternary main_v41 main_v42 main_v40 main_v43 ((fun x i u => Host.scatterAdd scatter_S8192x128_S270336x1_S270336x128_1_0_0_1 x i u) : (⟨S8192x128, .f32⟩ : BufTy).Contents (Elt F) → (⟨S270336x1, .i32⟩ : BufTy).Contents (Elt F) → (⟨S270336x128, .f32⟩ : BufTy).Contents (Elt F) → (⟨S8192x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S8192x128 ![0, 1] bcast_S1x128_S8192x128_0_1 : (⟨S1x128, .f32⟩ : BufTy).Contents (Elt F) → (⟨S8192x128, .f32⟩ : BufTy).Contents (Elt F)),
    binary main_v43 main_v45 main_v46 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x128, .f32⟩) main_call1_v0) (broadcastInDim S8192x128 ![] bcast_S_S8192x128),
    TRef.binary (TRef.of (T := ⟨S8192x128, .f32⟩) main_v46) (TRef.of (T := ⟨S8192x128, .f32⟩) main_call1_v0) (TRef.of (T := ⟨S8192x128, .f32⟩) main_v47) maximumf ]

/-- The concatenation of the edge list with the self loops, as a function of its two operands. -/
def cat1 {α : Type} (a : S262144.Idx → α) (b : S8192.Idx → α) : S270336.Idx → α :=
  concatenate S270336 0 [⟨S262144, a⟩, ⟨S8192, b⟩] concatenates_S262144_S8192_S270336_d0
theorem cat1_fold {α : Type} (a : S262144.Idx → α) (b : S8192.Idx → α) :
    concatenate S270336 0 [⟨S262144, a⟩, ⟨S8192, b⟩] concatenates_S262144_S8192_S270336_d0 = cat1 a b := rfl

set_option maxHeartbeats 8000000 in
set_option maxRecDepth 8192 in
/-- From contents `W` that hold the arguments the stretch reads, the stretch leaves
    `main_v47` at its value as a function of @main's arguments. -/
theorem layer1 (W : Valuation τ sig (Elt F)) (x0 : (⟨S8192x512, .f32⟩ : BufTy).Contents (Elt F)) (x1 : (⟨S2x262144, .i32⟩ : BufTy).Contents (Elt F)) (x2 : (⟨S512x128, .f32⟩ : BufTy).Contents (Elt F)) (x3 : (⟨S128, .f32⟩ : BufTy).Contents (Elt F))
    (h0 : W (Proc.devRef .tc main_arg0) = x0)
    (h1 : W (Proc.devRef .tc main_arg1) = x1)
    (h2 : W (Proc.devRef .tc main_arg2) = x2)
    (h3 : W (Proc.devRef .tc main_arg3) = x3) :
    after (seg1 (F := F)) W (Proc.devRef .tc main_v47) = val_main_v47 (F := F) x0 x1 x2 x3 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat1_fold]
  rw [h0, h1, h2, h3]
  rfl

/-! ## What the stretch does not write keeps its contents -/

set_option maxHeartbeats 4000000 in
theorem keep1_arg1 (W : Valuation τ sig (Elt F)) :
    after (seg1 (F := F)) W (Proc.devRef .tc main_arg1) = W (Proc.devRef .tc main_arg1) := by
  after_results_simp <;> rfl

set_option maxHeartbeats 4000000 in
theorem keep1_arg4 (W : Valuation τ sig (Elt F)) :
    after (seg1 (F := F)) W (Proc.devRef .tc main_arg4) = W (Proc.devRef .tc main_arg4) := by
  after_results_simp <;> rfl

set_option maxHeartbeats 4000000 in
theorem keep1_arg5 (W : Valuation τ sig (Elt F)) :
    after (seg1 (F := F)) W (Proc.devRef .tc main_arg5) = W (Proc.devRef .tc main_arg5) := by
  after_results_simp <;> rfl

set_option maxHeartbeats 4000000 in
theorem keep1_arg6 (W : Valuation τ sig (Elt F)) :
    after (seg1 (F := F)) W (Proc.devRef .tc main_arg6) = W (Proc.devRef .tc main_arg6) := by
  after_results_simp <;> rfl

set_option maxHeartbeats 4000000 in
theorem keep1_arg7 (W : Valuation τ sig (Elt F)) :
    after (seg1 (F := F)) W (Proc.devRef .tc main_arg7) = W (Proc.devRef .tc main_arg7) := by
  after_results_simp <;> rfl

set_option maxHeartbeats 4000000 in
theorem keep1_arg8 (W : Valuation τ sig (Elt F)) :
    after (seg1 (F := F)) W (Proc.devRef .tc main_arg8) = W (Proc.devRef .tc main_arg8) := by
  after_results_simp <;> rfl

set_option maxHeartbeats 4000000 in
theorem keep1_arg9 (W : Valuation τ sig (Elt F)) :
    after (seg1 (F := F)) W (Proc.devRef .tc main_arg9) = W (Proc.devRef .tc main_arg9) := by
  after_results_simp <;> rfl

set_option maxHeartbeats 4000000 in
theorem keep1_arg10 (W : Valuation τ sig (Elt F)) :
    after (seg1 (F := F)) W (Proc.devRef .tc main_arg10) = W (Proc.devRef .tc main_arg10) := by
  after_results_simp <;> rfl

set_option maxHeartbeats 4000000 in
theorem keep1_arg11 (W : Valuation τ sig (Elt F)) :
    after (seg1 (F := F)) W (Proc.devRef .tc main_arg11) = W (Proc.devRef .tc main_arg11) := by
  after_results_simp <;> rfl

end Cert.ReferenceIdeal.Value

end
-- ==== Proof.RefSeg2.lean ====
import proofs.«179362_j6141803233546_1_alg».proof.Proof.RefVals
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! # Operations 63–125 of the reference's @main: the stretch that ends by writing `main_v95` -/

set_option maxHeartbeats 4000000 in
/-- The stretch, in order (the text of the program's operation list). -/
abbrev seg2 : List (HloOp τ sig (Elt F)) :=
  [ nullary main_v48 (iotaInDim S8192 32 0),
    unary main_arg1 main_v49 ((extractStridedSlice S1x262144 ![0, 0] · slices_S2x262144_S1x262144_0_0) : (⟨S2x262144, .i32⟩ : BufTy).Contents (Elt F) → (⟨S1x262144, .i32⟩ : BufTy).Contents (Elt F)),
    reshape main_v49 main_v50 rfl shapeCasts_S1x262144_S262144,
    binary main_v50 main_v48 main_v51 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v52 ((extractStridedSlice S1x262144 ![1, 0] · slices_S2x262144_S1x262144_1_0) : (⟨S2x262144, .i32⟩ : BufTy).Contents (Elt F) → (⟨S1x262144, .i32⟩ : BufTy).Contents (Elt F)),
    reshape main_v52 main_v53 rfl shapeCasts_S1x262144_S262144,
    binary main_v53 main_v48 main_v54 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_9 (constant S_ .f32 0x3F800000#32),
    unary main_cst_9 main_v55 (broadcastInDim S270336 ![] bcast_S_S270336 : (⟨S_, .f32⟩ : BufTy).Contents (Elt F) → (⟨S270336, .f32⟩ : BufTy).Contents (Elt F)),
    nullary main_cst_10 (constant S_ .f32 0x00000000#32),
    unary main_cst_10 main_v56 (broadcastInDim S8192 ![] bcast_S_S8192 : (⟨S_, .f32⟩ : BufTy).Contents (Elt F) → (⟨S8192, .f32⟩ : BufTy).Contents (Elt F)),
    unary main_v54 main_v57 (broadcastInDim S270336x1 ![0] bcast_S270336_S270336x1_0 : (⟨S270336, .i32⟩ : BufTy).Contents (Elt F) → (⟨S270336x1, .i32⟩ : BufTy).Contents (Elt F)),
    ternary main_v56 main_v57 main_v55 main_v58 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_11 (constant S_ .f32 0x00000000#32),
    unary main_cst_11 main_v59 (broadcastInDim S8192 ![] bcast_S_S8192 : (⟨S_, .f32⟩ : BufTy).Contents (Elt F) → (⟨S8192, .f32⟩ : BufTy).Contents (Elt F)),
    binary main_v58 main_v59 main_v60 (cmpf .ogt : (⟨S8192, .f32⟩ : BufTy).Contents (Elt F) → (⟨S8192, .f32⟩ : BufTy).Contents (Elt F) → (⟨S8192, .i1⟩ : BufTy).Contents (Elt F)),
    unary main_v58 main_v61 (Host.rsqrt : (⟨S8192, .f32⟩ : BufTy).Contents (Elt F) → (⟨S8192, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v60) (TRef.of (T := ⟨S8192, .f32⟩) main_v61) (TRef.of (T := ⟨S8192, .f32⟩) main_call2_v1) (TRef.of (T := ⟨S8192, .f32⟩) main_v62) select,
    nullary main_c_13 (constantI S_ 32 0#32),
    unary main_c_13 main_v63 (broadcastInDim S270336 ![] bcast_S_S270336 : (⟨S_, .i32⟩ : BufTy).Contents (Elt F) → (⟨S270336, .i32⟩ : BufTy).Contents (Elt F)),
    binary main_v51 main_v63 main_v64 (cmpi .slt : (⟨S270336, .i32⟩ : BufTy).Contents (Elt F) → (⟨S270336, .i32⟩ : BufTy).Contents (Elt F) → (⟨S270336, .i1⟩ : BufTy).Contents (Elt F)),
    nullary main_c_14 (constantI S_ 32 8192#32),
    unary main_c_14 main_v65 (broadcastInDim S270336 ![] bcast_S_S270336 : (⟨S_, .i32⟩ : BufTy).Contents (Elt F) → (⟨S270336, .i32⟩ : BufTy).Contents (Elt F)),
    binary main_v51 main_v65 main_v66 (addi : (⟨S270336, .i32⟩ : BufTy).Contents (Elt F) → (⟨S270336, .i32⟩ : BufTy).Contents (Elt F) → (⟨S270336, .i32⟩ : BufTy).Contents (Elt F)),
    ternary main_v64 main_v66 main_v51 main_v67 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v67 main_v68 (broadcastInDim S270336x1 ![0] bcast_S270336_S270336x1_0 : (⟨S270336, .i32⟩ : BufTy).Contents (Elt F) → (⟨S270336x1, .i32⟩ : BufTy).Contents (Elt F)),
    binary main_v62 main_v68 main_v69 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_15 (constantI S_ 32 0#32),
    unary main_c_15 main_v70 (broadcastInDim S270336 ![] bcast_S_S270336 : (⟨S_, .i32⟩ : BufTy).Contents (Elt F) → (⟨S270336, .i32⟩ : BufTy).Contents (Elt F)),
    binary main_v54 main_v70 main_v71 (cmpi .slt : (⟨S270336, .i32⟩ : BufTy).Contents (Elt F) → (⟨S270336, .i32⟩ : BufTy).Contents (Elt F) → (⟨S270336, .i1⟩ : BufTy).Contents (Elt F)),
    nullary main_c_16 (constantI S_ 32 8192#32),
    unary main_c_16 main_v72 (broadcastInDim S270336 ![] bcast_S_S270336 : (⟨S_, .i32⟩ : BufTy).Contents (Elt F) → (⟨S270336, .i32⟩ : BufTy).Contents (Elt F)),
    binary main_v54 main_v72 main_v73 (addi : (⟨S270336, .i32⟩ : BufTy).Contents (Elt F) → (⟨S270336, .i32⟩ : BufTy).Contents (Elt F) → (⟨S270336, .i32⟩ : BufTy).Contents (Elt F)),
    ternary main_v71 main_v73 main_v54 main_v74 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v74 main_v75 (broadcastInDim S270336x1 ![0] bcast_S270336_S270336x1_0 : (⟨S270336, .i32⟩ : BufTy).Contents (Elt F) → (⟨S270336x1, .i32⟩ : BufTy).Contents (Elt F)),
    binary main_v62 main_v75 main_v76 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v69 main_v76 main_v77 (mulf : (⟨S270336, .f32⟩ : BufTy).Contents (Elt F) → (⟨S270336, .f32⟩ : BufTy).Contents (Elt F) → (⟨S270336, .f32⟩ : BufTy).Contents (Elt F)),
    binary main_v47 main_arg4 main_v78 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_c_17 (constantI S_ 32 0#32),
    unary main_c_17 main_v79 (broadcastInDim S270336 ![] bcast_S_S270336 : (⟨S_, .i32⟩ : BufTy).Contents (Elt F) → (⟨S270336, .i32⟩ : BufTy).Contents (Elt F)),
    binary main_v51 main_v79 main_v80 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v81 (broadcastInDim S270336 ![] bcast_S_S270336 : (⟨S_, .i32⟩ : BufTy).Contents (Elt F) → (⟨S270336, .i32⟩ : BufTy).Contents (Elt F)),
    binary main_v51 main_v81 main_v82 (addi : (⟨S270336, .i32⟩ : BufTy).Contents (Elt F) → (⟨S270336, .i32⟩ : BufTy).Contents (Elt F) → (⟨S270336, .i32⟩ : BufTy).Contents (Elt F)),
    ternary main_v80 main_v82 main_v51 main_v83 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v83 main_v84 (broadcastInDim S270336x1 ![0] bcast_S270336_S270336x1_0 : (⟨S270336, .i32⟩ : BufTy).Contents (Elt F) → (⟨S270336x1, .i32⟩ : BufTy).Contents (Elt F)),
    binary main_v78 main_v84 main_v85 ((fun x i => Host.gather gather_S8192x128_S270336x1_S270336x128_1_0_n_n_0_1_1128 x i) : (⟨S8192x128, .f32⟩ : BufTy).Contents (Elt F) → (⟨S270336x1, .i32⟩ : BufTy).Contents (Elt F) → (⟨S270336x128, .f32⟩ : BufTy).Contents (Elt F)),
    unary main_v77 main_v86 (broadcastInDim S270336x1 ![0] bcast_S270336_S270336x1_0 : (⟨S270336, .f32⟩ : BufTy).Contents (Elt F) → (⟨S270336x1, .f32⟩ : BufTy).Contents (Elt F)),
    unary main_v86 main_v87 (broadcastInDim S270336x128 ![0, 1] bcast_S270336x1_S270336x128_0_1 : (⟨S270336x1, .f32⟩ : BufTy).Contents (Elt F) → (⟨S270336x128, .f32⟩ : BufTy).Contents (Elt F)),
    binary main_v85 main_v87 main_v88 (mulf : (⟨S270336x128, .f32⟩ : BufTy).Contents (Elt F) → (⟨S270336x128, .f32⟩ : BufTy).Contents (Elt F) → (⟨S270336x128, .f32⟩ : BufTy).Contents (Elt F)),
    nullary main_cst_19 (constant S_ .f32 0x00000000#32),
    unary main_cst_19 main_v89 (broadcastInDim S8192x128 ![] bcast_S_S8192x128 : (⟨S_, .f32⟩ : BufTy).Contents (Elt F) → (⟨S8192x128, .f32⟩ : BufTy).Contents (Elt F)),
    unary main_v54 main_v90 (broadcastInDim S270336x1 ![0] bcast_S270336_S270336x1_0 : (⟨S270336, .i32⟩ : BufTy).Contents (Elt F) → (⟨S270336x1, .i32⟩ : BufTy).Contents (Elt F)),
    ternary main_v89 main_v90 main_v88 main_v91 ((fun x i u => Host.scatterAdd scatter_S8192x128_S270336x1_S270336x128_1_0_0_1 x i u) : (⟨S8192x128, .f32⟩ : BufTy).Contents (Elt F) → (⟨S270336x1, .i32⟩ : BufTy).Contents (Elt F) → (⟨S270336x128, .f32⟩ : BufTy).Contents (Elt F) → (⟨S8192x128, .f32⟩ : BufTy).Contents (Elt F)),
    unary main_arg5 main_v92 (broadcastInDim S1x128 ![1] bcast_S128_S1x128_1 : (⟨S128, .f32⟩ : BufTy).Contents (Elt F) → (⟨S1x128, .f32⟩ : BufTy).Contents (Elt F)),
    unary main_v92 main_v93 (broadcastInDim S8192x128 ![0, 1] bcast_S1x128_S8192x128_0_1 : (⟨S1x128, .f32⟩ : BufTy).Contents (Elt F) → (⟨S8192x128, .f32⟩ : BufTy).Contents (Elt F)),
    binary main_v91 main_v93 main_v94 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x128, .f32⟩) main_call3_v0) (broadcastInDim S8192x128 ![] bcast_S_S8192x128),
    TRef.binary (TRef.of (T := ⟨S8192x128, .f32⟩) main_v94) (TRef.of (T := ⟨S8192x128, .f32⟩) main_call3_v0) (TRef.of (T := ⟨S8192x128, .f32⟩) main_v95) maximumf ]

/-- The concatenation of the edge list with the self loops, as a function of its two operands. -/
def cat2 {α : Type} (a : S262144.Idx → α) (b : S8192.Idx → α) : S270336.Idx → α :=
  concatenate S270336 0 [⟨S262144, a⟩, ⟨S8192, b⟩] concatenates_S262144_S8192_S270336_d0
theorem cat2_fold {α : Type} (a : S262144.Idx → α) (b : S8192.Idx → α) :
    concatenate S270336 0 [⟨S262144, a⟩, ⟨S8192, b⟩] concatenates_S262144_S8192_S270336_d0 = cat2 a b := rfl

set_option maxHeartbeats 8000000 in
set_option maxRecDepth 8192 in
/-- From contents `W` that hold the previous stretch's result at its value and the arguments the stretch reads, the stretch leaves
    `main_v95` at its value as a function of @main's arguments. -/
theorem layer2 (W : Valuation τ sig (Elt F)) (x0 : (⟨S8192x512, .f32⟩ : BufTy).Contents (Elt F)) (x1 : (⟨S2x262144, .i32⟩ : BufTy).Contents (Elt F)) (x2 : (⟨S512x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F))
    (hp : W (Proc.devRef .tc main_v47) = val_main_v47 (F := F) x0 x1 x2 x3)
    (h1 : W (Proc.devRef .tc main_arg1) = x1)
    (h4 : W (Proc.devRef .tc main_arg4) = x4)
    (h5 : W (Proc.devRef .tc main_arg5) = x5) :
    after (seg2 (F := F)) W (Proc.devRef .tc main_v95) = val_main_v95 (F := F) x0 x1 x2 x3 x4 x5 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_fold]
  rw [hp, h1, h4, h5]
  rfl

/-! ## What the stretch does not write keeps its contents -/

set_option maxHeartbeats 4000000 in
theorem keep2_arg1 (W : Valuation τ sig (Elt F)) :
    after (seg2 (F := F)) W (Proc.devRef .tc main_arg1) = W (Proc.devRef .tc main_arg1) := by
  after_results_simp <;> rfl

set_option maxHeartbeats 4000000 in
theorem keep2_arg6 (W : Valuation τ sig (Elt F)) :
    after (seg2 (F := F)) W (Proc.devRef .tc main_arg6) = W (Proc.devRef .tc main_arg6) := by
  after_results_simp <;> rfl

set_option maxHeartbeats 4000000 in
theorem keep2_arg7 (W : Valuation τ sig (Elt F)) :
    after (seg2 (F := F)) W (Proc.devRef .tc main_arg7) = W (Proc.devRef .tc main_arg7) := by
  after_results_simp <;> rfl

set_option maxHeartbeats 4000000 in
theorem keep2_arg8 (W : Valuation τ sig (Elt F)) :
    after (seg2 (F := F)) W (Proc.devRef .tc main_arg8) = W (Proc.devRef .tc main_arg8) := by
  after_results_simp <;> rfl

set_option maxHeartbeats 4000000 in
theorem keep2_arg9 (W : Valuation τ sig (Elt F)) :
    after (seg2 (F := F)) W (Proc.devRef .tc main_arg9) = W (Proc.devRef .tc main_arg9) := by
  after_results_simp <;> rfl

set_option maxHeartbeats 4000000 in
theorem keep2_arg10 (W : Valuation τ sig (Elt F)) :
    after (seg2 (F := F)) W (Proc.devRef .tc main_arg10) = W (Proc.devRef .tc main_arg10) := by
  after_results_simp <;> rfl

set_option maxHeartbeats 4000000 in
theorem keep2_arg11 (W : Valuation τ sig (Elt F)) :
    after (seg2 (F := F)) W (Proc.devRef .tc main_arg11) = W (Proc.devRef .tc main_arg11) := by
  after_results_simp <;> rfl

end Cert.ReferenceIdeal.Value

end
-- ==== Proof.RefSeg3.lean ====
import proofs.«179362_j6141803233546_1_alg».proof.Proof.RefVals
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! # Operations 126–188 of the reference's @main: the stretch that ends by writing `main_v143` -/

set_option maxHeartbeats 4000000 in
/-- The stretch, in order (the text of the program's operation list). -/
abbrev seg3 : List (HloOp τ sig (Elt F)) :=
  [ nullary main_v96 (iotaInDim S8192 32 0),
    unary main_arg1 main_v97 ((extractStridedSlice S1x262144 ![0, 0] · slices_S2x262144_S1x262144_0_0) : (⟨S2x262144, .i32⟩ : BufTy).Contents (Elt F) → (⟨S1x262144, .i32⟩ : BufTy).Contents (Elt F)),
    reshape main_v97 main_v98 rfl shapeCasts_S1x262144_S262144,
    binary main_v98 main_v96 main_v99 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v100 ((extractStridedSlice S1x262144 ![1, 0] · slices_S2x262144_S1x262144_1_0) : (⟨S2x262144, .i32⟩ : BufTy).Contents (Elt F) → (⟨S1x262144, .i32⟩ : BufTy).Contents (Elt F)),
    reshape main_v100 main_v101 rfl shapeCasts_S1x262144_S262144,
    binary main_v101 main_v96 main_v102 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_20 (constant S_ .f32 0x3F800000#32),
    unary main_cst_20 main_v103 (broadcastInDim S270336 ![] bcast_S_S270336 : (⟨S_, .f32⟩ : BufTy).Contents (Elt F) → (⟨S270336, .f32⟩ : BufTy).Contents (Elt F)),
    nullary main_cst_21 (constant S_ .f32 0x00000000#32),
    unary main_cst_21 main_v104 (broadcastInDim S8192 ![] bcast_S_S8192 : (⟨S_, .f32⟩ : BufTy).Contents (Elt F) → (⟨S8192, .f32⟩ : BufTy).Contents (Elt F)),
    unary main_v102 main_v105 (broadcastInDim S270336x1 ![0] bcast_S270336_S270336x1_0 : (⟨S270336, .i32⟩ : BufTy).Contents (Elt F) → (⟨S270336x1, .i32⟩ : BufTy).Contents (Elt F)),
    ternary main_v104 main_v105 main_v103 main_v106 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_22 (constant S_ .f32 0x00000000#32),
    unary main_cst_22 main_v107 (broadcastInDim S8192 ![] bcast_S_S8192 : (⟨S_, .f32⟩ : BufTy).Contents (Elt F) → (⟨S8192, .f32⟩ : BufTy).Contents (Elt F)),
    binary main_v106 main_v107 main_v108 (cmpf .ogt : (⟨S8192, .f32⟩ : BufTy).Contents (Elt F) → (⟨S8192, .f32⟩ : BufTy).Contents (Elt F) → (⟨S8192, .i1⟩ : BufTy).Contents (Elt F)),
    unary main_v106 main_v109 (Host.rsqrt : (⟨S8192, .f32⟩ : BufTy).Contents (Elt F) → (⟨S8192, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v108) (TRef.of (T := ⟨S8192, .f32⟩) main_v109) (TRef.of (T := ⟨S8192, .f32⟩) main_call4_v1) (TRef.of (T := ⟨S8192, .f32⟩) main_v110) select,
    nullary main_c_24 (constantI S_ 32 0#32),
    unary main_c_24 main_v111 (broadcastInDim S270336 ![] bcast_S_S270336 : (⟨S_, .i32⟩ : BufTy).Contents (Elt F) → (⟨S270336, .i32⟩ : BufTy).Contents (Elt F)),
    binary main_v99 main_v111 main_v112 (cmpi .slt : (⟨S270336, .i32⟩ : BufTy).Contents (Elt F) → (⟨S270336, .i32⟩ : BufTy).Contents (Elt F) → (⟨S270336, .i1⟩ : BufTy).Contents (Elt F)),
    nullary main_c_25 (constantI S_ 32 8192#32),
    unary main_c_25 main_v113 (broadcastInDim S270336 ![] bcast_S_S270336 : (⟨S_, .i32⟩ : BufTy).Contents (Elt F) → (⟨S270336, .i32⟩ : BufTy).Contents (Elt F)),
    binary main_v99 main_v113 main_v114 (addi : (⟨S270336, .i32⟩ : BufTy).Contents (Elt F) → (⟨S270336, .i32⟩ : BufTy).Contents (Elt F) → (⟨S270336, .i32⟩ : BufTy).Contents (Elt F)),
    ternary main_v112 main_v114 main_v99 main_v115 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v115 main_v116 (broadcastInDim S270336x1 ![0] bcast_S270336_S270336x1_0 : (⟨S270336, .i32⟩ : BufTy).Contents (Elt F) → (⟨S270336x1, .i32⟩ : BufTy).Contents (Elt F)),
    binary main_v110 main_v116 main_v117 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_26 (constantI S_ 32 0#32),
    unary main_c_26 main_v118 (broadcastInDim S270336 ![] bcast_S_S270336 : (⟨S_, .i32⟩ : BufTy).Contents (Elt F) → (⟨S270336, .i32⟩ : BufTy).Contents (Elt F)),
    binary main_v102 main_v118 main_v119 (cmpi .slt : (⟨S270336, .i32⟩ : BufTy).Contents (Elt F) → (⟨S270336, .i32⟩ : BufTy).Contents (Elt F) → (⟨S270336, .i1⟩ : BufTy).Contents (Elt F)),
    nullary main_c_27 (constantI S_ 32 8192#32),
    unary main_c_27 main_v120 (broadcastInDim S270336 ![] bcast_S_S270336 : (⟨S_, .i32⟩ : BufTy).Contents (Elt F) → (⟨S270336, .i32⟩ : BufTy).Contents (Elt F)),
    binary main_v102 main_v120 main_v121 (addi : (⟨S270336, .i32⟩ : BufTy).Contents (Elt F) → (⟨S270336, .i32⟩ : BufTy).Contents (Elt F) → (⟨S270336, .i32⟩ : BufTy).Contents (Elt F)),
    ternary main_v119 main_v121 main_v102 main_v122 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v122 main_v123 (broadcastInDim S270336x1 ![0] bcast_S270336_S270336x1_0 : (⟨S270336, .i32⟩ : BufTy).Contents (Elt F) → (⟨S270336x1, .i32⟩ : BufTy).Contents (Elt F)),
    binary main_v110 main_v123 main_v124 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v117 main_v124 main_v125 (mulf : (⟨S270336, .f32⟩ : BufTy).Contents (Elt F) → (⟨S270336, .f32⟩ : BufTy).Contents (Elt F) → (⟨S270336, .f32⟩ : BufTy).Contents (Elt F)),
    binary main_v95 main_arg6 main_v126 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_c_28 (constantI S_ 32 0#32),
    unary main_c_28 main_v127 (broadcastInDim S270336 ![] bcast_S_S270336 : (⟨S_, .i32⟩ : BufTy).Contents (Elt F) → (⟨S270336, .i32⟩ : BufTy).Contents (Elt F)),
    binary main_v99 main_v127 main_v128 (cmpi .slt : (⟨S270336, .i32⟩ : BufTy).Contents (Elt F) → (⟨S270336, .i32⟩ : BufTy).Contents (Elt F) → (⟨S270336, .i1⟩ : BufTy).Contents (Elt F)),
    nullary main_c_29 (constantI S_ 32 8192#32),
    unary main_c_29 main_v129 (broadcastInDim S270336 ![] bcast_S_S270336 : (⟨S_, .i32⟩ : BufTy).Contents (Elt F) → (⟨S270336, .i32⟩ : BufTy).Contents (Elt F)),
    binary main_v99 main_v129 main_v130 (addi : (⟨S270336, .i32⟩ : BufTy).Contents (Elt F) → (⟨S270336, .i32⟩ : BufTy).Contents (Elt F) → (⟨S270336, .i32⟩ : BufTy).Contents (Elt F)),
    ternary main_v128 main_v130 main_v99 main_v131 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v131 main_v132 (broadcastInDim S270336x1 ![0] bcast_S270336_S270336x1_0 : (⟨S270336, .i32⟩ : BufTy).Contents (Elt F) → (⟨S270336x1, .i32⟩ : BufTy).Contents (Elt F)),
    binary main_v126 main_v132 main_v133 ((fun x i => Host.gather gather_S8192x128_S270336x1_S270336x128_1_0_n_n_0_1_1128 x i) : (⟨S8192x128, .f32⟩ : BufTy).Contents (Elt F) → (⟨S270336x1, .i32⟩ : BufTy).Contents (Elt F) → (⟨S270336x128, .f32⟩ : BufTy).Contents (Elt F)),
    unary main_v125 main_v134 (broadcastInDim S270336x1 ![0] bcast_S270336_S270336x1_0 : (⟨S270336, .f32⟩ : BufTy).Contents (Elt F) → (⟨S270336x1, .f32⟩ : BufTy).Contents (Elt F)),
    unary main_v134 main_v135 (broadcastInDim S270336x128 ![0, 1] bcast_S270336x1_S270336x128_0_1 : (⟨S270336x1, .f32⟩ : BufTy).Contents (Elt F) → (⟨S270336x128, .f32⟩ : BufTy).Contents (Elt F)),
    binary main_v133 main_v135 main_v136 (mulf : (⟨S270336x128, .f32⟩ : BufTy).Contents (Elt F) → (⟨S270336x128, .f32⟩ : BufTy).Contents (Elt F) → (⟨S270336x128, .f32⟩ : BufTy).Contents (Elt F)),
    nullary main_cst_30 (constant S_ .f32 0x00000000#32),
    unary main_cst_30 main_v137 (broadcastInDim S8192x128 ![] bcast_S_S8192x128 : (⟨S_, .f32⟩ : BufTy).Contents (Elt F) → (⟨S8192x128, .f32⟩ : BufTy).Contents (Elt F)),
    unary main_v102 main_v138 (broadcastInDim S270336x1 ![0] bcast_S270336_S270336x1_0 : (⟨S270336, .i32⟩ : BufTy).Contents (Elt F) → (⟨S270336x1, .i32⟩ : BufTy).Contents (Elt F)),
    ternary main_v137 main_v138 main_v136 main_v139 ((fun x i u => Host.scatterAdd scatter_S8192x128_S270336x1_S270336x128_1_0_0_1 x i u) : (⟨S8192x128, .f32⟩ : BufTy).Contents (Elt F) → (⟨S270336x1, .i32⟩ : BufTy).Contents (Elt F) → (⟨S270336x128, .f32⟩ : BufTy).Contents (Elt F) → (⟨S8192x128, .f32⟩ : BufTy).Contents (Elt F)),
    unary main_arg7 main_v140 (broadcastInDim S1x128 ![1] bcast_S128_S1x128_1 : (⟨S128, .f32⟩ : BufTy).Contents (Elt F) → (⟨S1x128, .f32⟩ : BufTy).Contents (Elt F)),
    unary main_v140 main_v141 (broadcastInDim S8192x128 ![0, 1] bcast_S1x128_S8192x128_0_1 : (⟨S1x128, .f32⟩ : BufTy).Contents (Elt F) → (⟨S8192x128, .f32⟩ : BufTy).Contents (Elt F)),
    binary main_v139 main_v141 main_v142 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x128, .f32⟩) main_call5_v0) (broadcastInDim S8192x128 ![] bcast_S_S8192x128),
    TRef.binary (TRef.of (T := ⟨S8192x128, .f32⟩) main_v142) (TRef.of (T := ⟨S8192x128, .f32⟩) main_call5_v0) (TRef.of (T := ⟨S8192x128, .f32⟩) main_v143) maximumf ]

/-- The concatenation of the edge list with the self loops, as a function of its two operands. -/
def cat3 {α : Type} (a : S262144.Idx → α) (b : S8192.Idx → α) : S270336.Idx → α :=
  concatenate S270336 0 [⟨S262144, a⟩, ⟨S8192, b⟩] concatenates_S262144_S8192_S270336_d0
theorem cat3_fold {α : Type} (a : S262144.Idx → α) (b : S8192.Idx → α) :
    concatenate S270336 0 [⟨S262144, a⟩, ⟨S8192, b⟩] concatenates_S262144_S8192_S270336_d0 = cat3 a b := rfl

set_option maxHeartbeats 8000000 in
set_option maxRecDepth 8192 in
/-- From contents `W` that hold the previous stretch's result at its value and the arguments the stretch reads, the stretch leaves
    `main_v143` at its value as a function of @main's arguments. -/
theorem layer3 (W : Valuation τ sig (Elt F)) (x0 : (⟨S8192x512, .f32⟩ : BufTy).Contents (Elt F)) (x1 : (⟨S2x262144, .i32⟩ : BufTy).Contents (Elt F)) (x2 : (⟨S512x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (hp : W (Proc.devRef .tc main_v95) = val_main_v95 (F := F) x0 x1 x2 x3 x4 x5)
    (h1 : W (Proc.devRef .tc main_arg1) = x1)
    (h6 : W (Proc.devRef .tc main_arg6) = x6)
    (h7 : W (Proc.devRef .tc main_arg7) = x7) :
    after (seg3 (F := F)) W (Proc.devRef .tc main_v143) = val_main_v143 (F := F) x0 x1 x2 x3 x4 x5 x6 x7 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat3_fold]
  rw [hp, h1, h6, h7]
  rfl

/-! ## What the stretch does not write keeps its contents -/

set_option maxHeartbeats 4000000 in
theorem keep3_arg1 (W : Valuation τ sig (Elt F)) :
    after (seg3 (F := F)) W (Proc.devRef .tc main_arg1) = W (Proc.devRef .tc main_arg1) := by
  after_results_simp <;> rfl

set_option maxHeartbeats 4000000 in
theorem keep3_arg8 (W : Valuation τ sig (Elt F)) :
    after (seg3 (F := F)) W (Proc.devRef .tc main_arg8) = W (Proc.devRef .tc main_arg8) := by
  after_results_simp <;> rfl

set_option maxHeartbeats 4000000 in
theorem keep3_arg9 (W : Valuation τ sig (Elt F)) :
    after (seg3 (F := F)) W (Proc.devRef .tc main_arg9) = W (Proc.devRef .tc main_arg9) := by
  after_results_simp <;> rfl

set_option maxHeartbeats 4000000 in
theorem keep3_arg10 (W : Valuation τ sig (Elt F)) :
    after (seg3 (F := F)) W (Proc.devRef .tc main_arg10) = W (Proc.devRef .tc main_arg10) := by
  after_results_simp <;> rfl

set_option maxHeartbeats 4000000 in
theorem keep3_arg11 (W : Valuation τ sig (Elt F)) :
    after (seg3 (F := F)) W (Proc.devRef .tc main_arg11) = W (Proc.devRef .tc main_arg11) := by
  after_results_simp <;> rfl

set_option maxHeartbeats 4000000 in
theorem keep3_v95 (W : Valuation τ sig (Elt F)) :
    after (seg3 (F := F)) W (Proc.devRef .tc main_v95) = W (Proc.devRef .tc main_v95) := by
  after_results_simp <;> rfl

end Cert.ReferenceIdeal.Value

end
-- ==== Proof.RefSeg4.lean ====
import proofs.«179362_j6141803233546_1_alg».proof.Proof.RefVals
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! # Operations 189–251 of the reference's @main: the stretch that ends by writing `main_v191` -/

set_option maxHeartbeats 4000000 in
/-- The stretch, in order (the text of the program's operation list). -/
abbrev seg4 : List (HloOp τ sig (Elt F)) :=
  [ nullary main_v144 (iotaInDim S8192 32 0),
    unary main_arg1 main_v145 ((extractStridedSlice S1x262144 ![0, 0] · slices_S2x262144_S1x262144_0_0) : (⟨S2x262144, .i32⟩ : BufTy).Contents (Elt F) → (⟨S1x262144, .i32⟩ : BufTy).Contents (Elt F)),
    reshape main_v145 main_v146 rfl shapeCasts_S1x262144_S262144,
    binary main_v146 main_v144 main_v147 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v148 ((extractStridedSlice S1x262144 ![1, 0] · slices_S2x262144_S1x262144_1_0) : (⟨S2x262144, .i32⟩ : BufTy).Contents (Elt F) → (⟨S1x262144, .i32⟩ : BufTy).Contents (Elt F)),
    reshape main_v148 main_v149 rfl shapeCasts_S1x262144_S262144,
    binary main_v149 main_v144 main_v150 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_31 (constant S_ .f32 0x3F800000#32),
    unary main_cst_31 main_v151 (broadcastInDim S270336 ![] bcast_S_S270336 : (⟨S_, .f32⟩ : BufTy).Contents (Elt F) → (⟨S270336, .f32⟩ : BufTy).Contents (Elt F)),
    nullary main_cst_32 (constant S_ .f32 0x00000000#32),
    unary main_cst_32 main_v152 (broadcastInDim S8192 ![] bcast_S_S8192 : (⟨S_, .f32⟩ : BufTy).Contents (Elt F) → (⟨S8192, .f32⟩ : BufTy).Contents (Elt F)),
    unary main_v150 main_v153 (broadcastInDim S270336x1 ![0] bcast_S270336_S270336x1_0 : (⟨S270336, .i32⟩ : BufTy).Contents (Elt F) → (⟨S270336x1, .i32⟩ : BufTy).Contents (Elt F)),
    ternary main_v152 main_v153 main_v151 main_v154 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_33 (constant S_ .f32 0x00000000#32),
    unary main_cst_33 main_v155 (broadcastInDim S8192 ![] bcast_S_S8192 : (⟨S_, .f32⟩ : BufTy).Contents (Elt F) → (⟨S8192, .f32⟩ : BufTy).Contents (Elt F)),
    binary main_v154 main_v155 main_v156 (cmpf .ogt : (⟨S8192, .f32⟩ : BufTy).Contents (Elt F) → (⟨S8192, .f32⟩ : BufTy).Contents (Elt F) → (⟨S8192, .i1⟩ : BufTy).Contents (Elt F)),
    unary main_v154 main_v157 (Host.rsqrt : (⟨S8192, .f32⟩ : BufTy).Contents (Elt F) → (⟨S8192, .f32⟩ : BufTy).Contents (Elt F)),
    nullary main_cst_34 (constant S_ .f32 0x00000000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S8192, .f32⟩) main_call6_v1) (broadcastInDim S8192 ![] bcast_S_S8192),
    TRef.ternary (TRef.of (T := ⟨S8192, .i1⟩) main_v156) (TRef.of (T := ⟨S8192, .f32⟩) main_v157) (TRef.of (T := ⟨S8192, .f32⟩) main_call6_v1) (TRef.of (T := ⟨S8192, .f32⟩) main_v158) select,
    nullary main_c_35 (constantI S_ 32 0#32),
    unary main_c_35 main_v159 (broadcastInDim S270336 ![] bcast_S_S270336 : (⟨S_, .i32⟩ : BufTy).Contents (Elt F) → (⟨S270336, .i32⟩ : BufTy).Contents (Elt F)),
    binary main_v147 main_v159 main_v160 (cmpi .slt : (⟨S270336, .i32⟩ : BufTy).Contents (Elt F) → (⟨S270336, .i32⟩ : BufTy).Contents (Elt F) → (⟨S270336, .i1⟩ : BufTy).Contents (Elt F)),
    nullary main_c_36 (constantI S_ 32 8192#32),
    unary main_c_36 main_v161 (broadcastInDim S270336 ![] bcast_S_S270336 : (⟨S_, .i32⟩ : BufTy).Contents (Elt F) → (⟨S270336, .i32⟩ : BufTy).Contents (Elt F)),
    binary main_v147 main_v161 main_v162 (addi : (⟨S270336, .i32⟩ : BufTy).Contents (Elt F) → (⟨S270336, .i32⟩ : BufTy).Contents (Elt F) → (⟨S270336, .i32⟩ : BufTy).Contents (Elt F)),
    ternary main_v160 main_v162 main_v147 main_v163 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v163 main_v164 (broadcastInDim S270336x1 ![0] bcast_S270336_S270336x1_0 : (⟨S270336, .i32⟩ : BufTy).Contents (Elt F) → (⟨S270336x1, .i32⟩ : BufTy).Contents (Elt F)),
    binary main_v158 main_v164 main_v165 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_37 (constantI S_ 32 0#32),
    unary main_c_37 main_v166 (broadcastInDim S270336 ![] bcast_S_S270336 : (⟨S_, .i32⟩ : BufTy).Contents (Elt F) → (⟨S270336, .i32⟩ : BufTy).Contents (Elt F)),
    binary main_v150 main_v166 main_v167 (cmpi .slt : (⟨S270336, .i32⟩ : BufTy).Contents (Elt F) → (⟨S270336, .i32⟩ : BufTy).Contents (Elt F) → (⟨S270336, .i1⟩ : BufTy).Contents (Elt F)),
    nullary main_c_38 (constantI S_ 32 8192#32),
    unary main_c_38 main_v168 (broadcastInDim S270336 ![] bcast_S_S270336 : (⟨S_, .i32⟩ : BufTy).Contents (Elt F) → (⟨S270336, .i32⟩ : BufTy).Contents (Elt F)),
    binary main_v150 main_v168 main_v169 (addi : (⟨S270336, .i32⟩ : BufTy).Contents (Elt F) → (⟨S270336, .i32⟩ : BufTy).Contents (Elt F) → (⟨S270336, .i32⟩ : BufTy).Contents (Elt F)),
    ternary main_v167 main_v169 main_v150 main_v170 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v170 main_v171 (broadcastInDim S270336x1 ![0] bcast_S270336_S270336x1_0 : (⟨S270336, .i32⟩ : BufTy).Contents (Elt F) → (⟨S270336x1, .i32⟩ : BufTy).Contents (Elt F)),
    binary main_v158 main_v171 main_v172 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v165 main_v172 main_v173 (mulf : (⟨S270336, .f32⟩ : BufTy).Contents (Elt F) → (⟨S270336, .f32⟩ : BufTy).Contents (Elt F) → (⟨S270336, .f32⟩ : BufTy).Contents (Elt F)),
    binary main_v143 main_arg8 main_v174 ((fun l r => Host.dotGeneral dot_S8192x128_S128x512_S8192x512_1_0_0_1_n_n none l r) : (⟨S8192x128, .f32⟩ : BufTy).Contents (Elt F) → (⟨S128x512, .f32⟩ : BufTy).Contents (Elt F) → (⟨S8192x512, .f32⟩ : BufTy).Contents (Elt F)),
    nullary main_c_39 (constantI S_ 32 0#32),
    unary main_c_39 main_v175 (broadcastInDim S270336 ![] bcast_S_S270336 : (⟨S_, .i32⟩ : BufTy).Contents (Elt F) → (⟨S270336, .i32⟩ : BufTy).Contents (Elt F)),
    binary main_v147 main_v175 main_v176 (cmpi .slt : (⟨S270336, .i32⟩ : BufTy).Contents (Elt F) → (⟨S270336, .i32⟩ : BufTy).Contents (Elt F) → (⟨S270336, .i1⟩ : BufTy).Contents (Elt F)),
    nullary main_c_40 (constantI S_ 32 8192#32),
    unary main_c_40 main_v177 (broadcastInDim S270336 ![] bcast_S_S270336 : (⟨S_, .i32⟩ : BufTy).Contents (Elt F) → (⟨S270336, .i32⟩ : BufTy).Contents (Elt F)),
    binary main_v147 main_v177 main_v178 (addi : (⟨S270336, .i32⟩ : BufTy).Contents (Elt F) → (⟨S270336, .i32⟩ : BufTy).Contents (Elt F) → (⟨S270336, .i32⟩ : BufTy).Contents (Elt F)),
    ternary main_v176 main_v178 main_v147 main_v179 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v179 main_v180 (broadcastInDim S270336x1 ![0] bcast_S270336_S270336x1_0 : (⟨S270336, .i32⟩ : BufTy).Contents (Elt F) → (⟨S270336x1, .i32⟩ : BufTy).Contents (Elt F)),
    binary main_v174 main_v180 main_v181 ((fun x i => Host.gather gather_S8192x512_S270336x1_S270336x512_1_0_n_n_0_1_1512 x i) : (⟨S8192x512, .f32⟩ : BufTy).Contents (Elt F) → (⟨S270336x1, .i32⟩ : BufTy).Contents (Elt F) → (⟨S270336x512, .f32⟩ : BufTy).Contents (Elt F)),
    unary main_v173 main_v182 (broadcastInDim S270336x1 ![0] bcast_S270336_S270336x1_0 : (⟨S270336, .f32⟩ : BufTy).Contents (Elt F) → (⟨S270336x1, .f32⟩ : BufTy).Contents (Elt F)),
    unary main_v182 main_v183 (broadcastInDim S270336x512 ![0, 1] bcast_S270336x1_S270336x512_0_1 : (⟨S270336x1, .f32⟩ : BufTy).Contents (Elt F) → (⟨S270336x512, .f32⟩ : BufTy).Contents (Elt F)),
    binary main_v181 main_v183 main_v184 (mulf : (⟨S270336x512, .f32⟩ : BufTy).Contents (Elt F) → (⟨S270336x512, .f32⟩ : BufTy).Contents (Elt F) → (⟨S270336x512, .f32⟩ : BufTy).Contents (Elt F)),
    nullary main_cst_41 (constant S_ .f32 0x00000000#32),
    unary main_cst_41 main_v185 (broadcastInDim S8192x512 ![] bcast_S_S8192x512 : (⟨S_, .f32⟩ : BufTy).Contents (Elt F) → (⟨S8192x512, .f32⟩ : BufTy).Contents (Elt F)),
    unary main_v150 main_v186 (broadcastInDim S270336x1 ![0] bcast_S270336_S270336x1_0 : (⟨S270336, .i32⟩ : BufTy).Contents (Elt F) → (⟨S270336x1, .i32⟩ : BufTy).Contents (Elt F)),
    ternary main_v185 main_v186 main_v184 main_v187 ((fun x i u => Host.scatterAdd scatter_S8192x512_S270336x1_S270336x512_1_0_0_1 x i u) : (⟨S8192x512, .f32⟩ : BufTy).Contents (Elt F) → (⟨S270336x1, .i32⟩ : BufTy).Contents (Elt F) → (⟨S270336x512, .f32⟩ : BufTy).Contents (Elt F) → (⟨S8192x512, .f32⟩ : BufTy).Contents (Elt F)),
    unary main_arg9 main_v188 (broadcastInDim S1x512 ![1] bcast_S512_S1x512_1 : (⟨S512, .f32⟩ : BufTy).Contents (Elt F) → (⟨S1x512, .f32⟩ : BufTy).Contents (Elt F)),
    unary main_v188 main_v189 (broadcastInDim S8192x512 ![0, 1] bcast_S1x512_S8192x512_0_1 : (⟨S1x512, .f32⟩ : BufTy).Contents (Elt F) → (⟨S8192x512, .f32⟩ : BufTy).Contents (Elt F)),
    binary main_v187 main_v189 main_v190 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x512, .f32⟩) main_call7_v0) (broadcastInDim S8192x512 ![] bcast_S_S8192x512),
    TRef.binary (TRef.of (T := ⟨S8192x512, .f32⟩) main_v190) (TRef.of (T := ⟨S8192x512, .f32⟩) main_call7_v0) (TRef.of (T := ⟨S8192x512, .f32⟩) main_v191) maximumf ]

/-- The concatenation of the edge list with the self loops, as a function of its two operands. -/
def cat4 {α : Type} (a : S262144.Idx → α) (b : S8192.Idx → α) : S270336.Idx → α :=
  concatenate S270336 0 [⟨S262144, a⟩, ⟨S8192, b⟩] concatenates_S262144_S8192_S270336_d0
theorem cat4_fold {α : Type} (a : S262144.Idx → α) (b : S8192.Idx → α) :
    concatenate S270336 0 [⟨S262144, a⟩, ⟨S8192, b⟩] concatenates_S262144_S8192_S270336_d0 = cat4 a b := rfl

set_option maxHeartbeats 8000000 in
set_option maxRecDepth 8192 in
/-- From contents `W` that hold the previous stretch's result at its value and the arguments the stretch reads, the stretch leaves
    `main_v191` at its value as a function of @main's arguments. -/
theorem layer4 (W : Valuation τ sig (Elt F)) (x0 : (⟨S8192x512, .f32⟩ : BufTy).Contents (Elt F)) (x1 : (⟨S2x262144, .i32⟩ : BufTy).Contents (Elt F)) (x2 : (⟨S512x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x512, .f32⟩ : BufTy).Contents (Elt F)) (x9 : (⟨S512, .f32⟩ : BufTy).Contents (Elt F))
    (hp : W (Proc.devRef .tc main_v143) = val_main_v143 (F := F) x0 x1 x2 x3 x4 x5 x6 x7)
    (h1 : W (Proc.devRef .tc main_arg1) = x1)
    (h8 : W (Proc.devRef .tc main_arg8) = x8)
    (h9 : W (Proc.devRef .tc main_arg9) = x9) :
    after (seg4 (F := F)) W (Proc.devRef .tc main_v191) = val_main_v191 (F := F) x0 x1 x2 x3 x4 x5 x6 x7 x8 x9 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat4_fold]
  rw [hp, h1, h8, h9]
  rfl

/-! ## What the stretch does not write keeps its contents -/

set_option maxHeartbeats 4000000 in
theorem keep4_arg1 (W : Valuation τ sig (Elt F)) :
    after (seg4 (F := F)) W (Proc.devRef .tc main_arg1) = W (Proc.devRef .tc main_arg1) := by
  after_results_simp <;> rfl

set_option maxHeartbeats 4000000 in
theorem keep4_arg10 (W : Valuation τ sig (Elt F)) :
    after (seg4 (F := F)) W (Proc.devRef .tc main_arg10) = W (Proc.devRef .tc main_arg10) := by
  after_results_simp <;> rfl

set_option maxHeartbeats 4000000 in
theorem keep4_arg11 (W : Valuation τ sig (Elt F)) :
    after (seg4 (F := F)) W (Proc.devRef .tc main_arg11) = W (Proc.devRef .tc main_arg11) := by
  after_results_simp <;> rfl

set_option maxHeartbeats 4000000 in
theorem keep4_v95 (W : Valuation τ sig (Elt F)) :
    after (seg4 (F := F)) W (Proc.devRef .tc main_v95) = W (Proc.devRef .tc main_v95) := by
  after_results_simp <;> rfl

end Cert.ReferenceIdeal.Value

end
-- ==== Proof.RefSeg5.lean ====
import proofs.«179362_j6141803233546_1_alg».proof.Proof.RefVals
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! # Operations 252–314 of the reference's @main: the stretch that ends by writing `main_v239` -/

set_option maxHeartbeats 4000000 in
/-- The stretch, in order (the text of the program's operation list). -/
abbrev seg5 : List (HloOp τ sig (Elt F)) :=
  [ nullary main_v192 (iotaInDim S8192 32 0),
    unary main_arg1 main_v193 ((extractStridedSlice S1x262144 ![0, 0] · slices_S2x262144_S1x262144_0_0) : (⟨S2x262144, .i32⟩ : BufTy).Contents (Elt F) → (⟨S1x262144, .i32⟩ : BufTy).Contents (Elt F)),
    reshape main_v193 main_v194 rfl shapeCasts_S1x262144_S262144,
    binary main_v194 main_v192 main_v195 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    unary main_arg1 main_v196 ((extractStridedSlice S1x262144 ![1, 0] · slices_S2x262144_S1x262144_1_0) : (⟨S2x262144, .i32⟩ : BufTy).Contents (Elt F) → (⟨S1x262144, .i32⟩ : BufTy).Contents (Elt F)),
    reshape main_v196 main_v197 rfl shapeCasts_S1x262144_S262144,
    binary main_v197 main_v192 main_v198 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_42 (constant S_ .f32 0x3F800000#32),
    unary main_cst_42 main_v199 (broadcastInDim S270336 ![] bcast_S_S270336 : (⟨S_, .f32⟩ : BufTy).Contents (Elt F) → (⟨S270336, .f32⟩ : BufTy).Contents (Elt F)),
    nullary main_cst_43 (constant S_ .f32 0x00000000#32),
    unary main_cst_43 main_v200 (broadcastInDim S8192 ![] bcast_S_S8192 : (⟨S_, .f32⟩ : BufTy).Contents (Elt F) → (⟨S8192, .f32⟩ : BufTy).Contents (Elt F)),
    unary main_v198 main_v201 (broadcastInDim S270336x1 ![0] bcast_S270336_S270336x1_0 : (⟨S270336, .i32⟩ : BufTy).Contents (Elt F) → (⟨S270336x1, .i32⟩ : BufTy).Contents (Elt F)),
    ternary main_v200 main_v201 main_v199 main_v202 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_44 (constant S_ .f32 0x00000000#32),
    unary main_cst_44 main_v203 (broadcastInDim S8192 ![] bcast_S_S8192 : (⟨S_, .f32⟩ : BufTy).Contents (Elt F) → (⟨S8192, .f32⟩ : BufTy).Contents (Elt F)),
    binary main_v202 main_v203 main_v204 (cmpf .ogt : (⟨S8192, .f32⟩ : BufTy).Contents (Elt F) → (⟨S8192, .f32⟩ : BufTy).Contents (Elt F) → (⟨S8192, .i1⟩ : BufTy).Contents (Elt F)),
    unary main_v202 main_v205 (Host.rsqrt : (⟨S8192, .f32⟩ : BufTy).Contents (Elt F) → (⟨S8192, .f32⟩ : BufTy).Contents (Elt F)),
    nullary main_cst_45 (constant S_ .f32 0x00000000#32),
    TRef.unary (TRef.of (T := ⟨S_, .f32⟩) main_cst_45) (TRef.of (T := ⟨S_, .f32⟩) main_call8_v0) id,
    TRef.unary (TRef.of (T := ⟨S_, .f32⟩) main_call8_v0) (TRef.of (T := ⟨S8192, .f32⟩) main_call8_v1) (broadcastInDim S8192 ![] bcast_S_S8192),
    TRef.ternary (TRef.of (T := ⟨S8192, .i1⟩) main_v204) (TRef.of (T := ⟨S8192, .f32⟩) main_v205) (TRef.of (T := ⟨S8192, .f32⟩) main_call8_v1) (TRef.of (T := ⟨S8192, .f32⟩) main_v206) select,
    nullary main_c_46 (constantI S_ 32 0#32),
    unary main_c_46 main_v207 (broadcastInDim S270336 ![] bcast_S_S270336 : (⟨S_, .i32⟩ : BufTy).Contents (Elt F) → (⟨S270336, .i32⟩ : BufTy).Contents (Elt F)),
    binary main_v195 main_v207 main_v208 (cmpi .slt : (⟨S270336, .i32⟩ : BufTy).Contents (Elt F) → (⟨S270336, .i32⟩ : BufTy).Contents (Elt F) → (⟨S270336, .i1⟩ : BufTy).Contents (Elt F)),
    nullary main_c_47 (constantI S_ 32 8192#32),
    unary main_c_47 main_v209 (broadcastInDim S270336 ![] bcast_S_S270336 : (⟨S_, .i32⟩ : BufTy).Contents (Elt F) → (⟨S270336, .i32⟩ : BufTy).Contents (Elt F)),
    binary main_v195 main_v209 main_v210 (addi : (⟨S270336, .i32⟩ : BufTy).Contents (Elt F) → (⟨S270336, .i32⟩ : BufTy).Contents (Elt F) → (⟨S270336, .i32⟩ : BufTy).Contents (Elt F)),
    ternary main_v208 main_v210 main_v195 main_v211 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v211 main_v212 (broadcastInDim S270336x1 ![0] bcast_S270336_S270336x1_0 : (⟨S270336, .i32⟩ : BufTy).Contents (Elt F) → (⟨S270336x1, .i32⟩ : BufTy).Contents (Elt F)),
    binary main_v206 main_v212 main_v213 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_48 (constantI S_ 32 0#32),
    unary main_c_48 main_v214 (broadcastInDim S270336 ![] bcast_S_S270336 : (⟨S_, .i32⟩ : BufTy).Contents (Elt F) → (⟨S270336, .i32⟩ : BufTy).Contents (Elt F)),
    binary main_v198 main_v214 main_v215 (cmpi .slt : (⟨S270336, .i32⟩ : BufTy).Contents (Elt F) → (⟨S270336, .i32⟩ : BufTy).Contents (Elt F) → (⟨S270336, .i1⟩ : BufTy).Contents (Elt F)),
    nullary main_c_49 (constantI S_ 32 8192#32),
    unary main_c_49 main_v216 (broadcastInDim S270336 ![] bcast_S_S270336 : (⟨S_, .i32⟩ : BufTy).Contents (Elt F) → (⟨S270336, .i32⟩ : BufTy).Contents (Elt F)),
    binary main_v198 main_v216 main_v217 (addi : (⟨S270336, .i32⟩ : BufTy).Contents (Elt F) → (⟨S270336, .i32⟩ : BufTy).Contents (Elt F) → (⟨S270336, .i32⟩ : BufTy).Contents (Elt F)),
    ternary main_v215 main_v217 main_v198 main_v218 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v218 main_v219 (broadcastInDim S270336x1 ![0] bcast_S270336_S270336x1_0 : (⟨S270336, .i32⟩ : BufTy).Contents (Elt F) → (⟨S270336x1, .i32⟩ : BufTy).Contents (Elt F)),
    binary main_v206 main_v219 main_v220 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v213 main_v220 main_v221 (mulf : (⟨S270336, .f32⟩ : BufTy).Contents (Elt F) → (⟨S270336, .f32⟩ : BufTy).Contents (Elt F) → (⟨S270336, .f32⟩ : BufTy).Contents (Elt F)),
    binary main_v95 main_arg10 main_v222 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    nullary main_c_50 (constantI S_ 32 0#32),
    unary main_c_50 main_v223 (broadcastInDim S270336 ![] bcast_S_S270336 : (⟨S_, .i32⟩ : BufTy).Contents (Elt F) → (⟨S270336, .i32⟩ : BufTy).Contents (Elt F)),
    binary main_v195 main_v223 main_v224 (cmpi .slt : (⟨S270336, .i32⟩ : BufTy).Contents (Elt F) → (⟨S270336, .i32⟩ : BufTy).Contents (Elt F) → (⟨S270336, .i1⟩ : BufTy).Contents (Elt F)),
    nullary main_c_51 (constantI S_ 32 8192#32),
    unary main_c_51 main_v225 (broadcastInDim S270336 ![] bcast_S_S270336 : (⟨S_, .i32⟩ : BufTy).Contents (Elt F) → (⟨S270336, .i32⟩ : BufTy).Contents (Elt F)),
    binary main_v195 main_v225 main_v226 (addi : (⟨S270336, .i32⟩ : BufTy).Contents (Elt F) → (⟨S270336, .i32⟩ : BufTy).Contents (Elt F) → (⟨S270336, .i32⟩ : BufTy).Contents (Elt F)),
    ternary main_v224 main_v226 main_v195 main_v227 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v227 main_v228 (broadcastInDim S270336x1 ![0] bcast_S270336_S270336x1_0 : (⟨S270336, .i32⟩ : BufTy).Contents (Elt F) → (⟨S270336x1, .i32⟩ : BufTy).Contents (Elt F)),
    binary main_v222 main_v228 main_v229 ((fun x i => Host.gather gather_S8192x128_S270336x1_S270336x128_1_0_n_n_0_1_1128 x i) : (⟨S8192x128, .f32⟩ : BufTy).Contents (Elt F) → (⟨S270336x1, .i32⟩ : BufTy).Contents (Elt F) → (⟨S270336x128, .f32⟩ : BufTy).Contents (Elt F)),
    unary main_v221 main_v230 (broadcastInDim S270336x1 ![0] bcast_S270336_S270336x1_0 : (⟨S270336, .f32⟩ : BufTy).Contents (Elt F) → (⟨S270336x1, .f32⟩ : BufTy).Contents (Elt F)),
    unary main_v230 main_v231 (broadcastInDim S270336x128 ![0, 1] bcast_S270336x1_S270336x128_0_1 : (⟨S270336x1, .f32⟩ : BufTy).Contents (Elt F) → (⟨S270336x128, .f32⟩ : BufTy).Contents (Elt F)),
    binary main_v229 main_v231 main_v232 (mulf : (⟨S270336x128, .f32⟩ : BufTy).Contents (Elt F) → (⟨S270336x128, .f32⟩ : BufTy).Contents (Elt F) → (⟨S270336x128, .f32⟩ : BufTy).Contents (Elt F)),
    nullary main_cst_52 (constant S_ .f32 0x00000000#32),
    unary main_cst_52 main_v233 (broadcastInDim S8192x128 ![] bcast_S_S8192x128 : (⟨S_, .f32⟩ : BufTy).Contents (Elt F) → (⟨S8192x128, .f32⟩ : BufTy).Contents (Elt F)),
    unary main_v198 main_v234 (broadcastInDim S270336x1 ![0] bcast_S270336_S270336x1_0 : (⟨S270336, .i32⟩ : BufTy).Contents (Elt F) → (⟨S270336x1, .i32⟩ : BufTy).Contents (Elt F)),
    ternary main_v233 main_v234 main_v232 main_v235 ((fun x i u => Host.scatterAdd scatter_S8192x128_S270336x1_S270336x128_1_0_0_1 x i u) : (⟨S8192x128, .f32⟩ : BufTy).Contents (Elt F) → (⟨S270336x1, .i32⟩ : BufTy).Contents (Elt F) → (⟨S270336x128, .f32⟩ : BufTy).Contents (Elt F) → (⟨S8192x128, .f32⟩ : BufTy).Contents (Elt F)),
    unary main_arg11 main_v236 (broadcastInDim S1x128 ![1] bcast_S128_S1x128_1 : (⟨S128, .f32⟩ : BufTy).Contents (Elt F) → (⟨S1x128, .f32⟩ : BufTy).Contents (Elt F)),
    unary main_v236 main_v237 (broadcastInDim S8192x128 ![0, 1] bcast_S1x128_S8192x128_0_1 : (⟨S1x128, .f32⟩ : BufTy).Contents (Elt F) → (⟨S8192x128, .f32⟩ : BufTy).Contents (Elt F)),
    binary main_v235 main_v237 main_v238 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8192x128, .f32⟩) main_call9_v0) (broadcastInDim S8192x128 ![] bcast_S_S8192x128),
    TRef.binary (TRef.of (T := ⟨S8192x128, .f32⟩) main_v238) (TRef.of (T := ⟨S8192x128, .f32⟩) main_call9_v0) (TRef.of (T := ⟨S8192x128, .f32⟩) main_v239) maximumf ]

/-- The concatenation of the edge list with the self loops, as a function of its two operands. -/
def cat5 {α : Type} (a : S262144.Idx → α) (b : S8192.Idx → α) : S270336.Idx → α :=
  concatenate S270336 0 [⟨S262144, a⟩, ⟨S8192, b⟩] concatenates_S262144_S8192_S270336_d0
theorem cat5_fold {α : Type} (a : S262144.Idx → α) (b : S8192.Idx → α) :
    concatenate S270336 0 [⟨S262144, a⟩, ⟨S8192, b⟩] concatenates_S262144_S8192_S270336_d0 = cat5 a b := rfl

set_option maxHeartbeats 8000000 in
set_option maxRecDepth 8192 in
/-- From contents `W` that hold the previous stretch's result at its value and the arguments the stretch reads, the stretch leaves
    `main_v239` at its value as a function of @main's arguments. -/
theorem layer5 (W : Valuation τ sig (Elt F)) (x0 : (⟨S8192x512, .f32⟩ : BufTy).Contents (Elt F)) (x1 : (⟨S2x262144, .i32⟩ : BufTy).Contents (Elt F)) (x2 : (⟨S512x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x10 : (⟨S128x128, .f32⟩ : BufTy).Contents (Elt F)) (x11 : (⟨S128, .f32⟩ : BufTy).Contents (Elt F))
    (hp : W (Proc.devRef .tc main_v95) = val_main_v95 (F := F) x0 x1 x2 x3 x4 x5)
    (h1 : W (Proc.devRef .tc main_arg1) = x1)
    (h10 : W (Proc.devRef .tc main_arg10) = x10)
    (h11 : W (Proc.devRef .tc main_arg11) = x11) :
    after (seg5 (F := F)) W (Proc.devRef .tc main_v239) = val_main_v239 (F := F) x0 x1 x2 x3 x4 x5 x10 x11 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat5_fold]
  rw [hp, h1, h10, h11]
  rfl

/-! ## What the stretch does not write keeps its contents -/

set_option maxHeartbeats 4000000 in
theorem keep5_v191 (W : Valuation τ sig (Elt F)) :
    after (seg5 (F := F)) W (Proc.devRef .tc main_v191) = W (Proc.devRef .tc main_v191) := by
  after_results_simp <;> rfl

end Cert.ReferenceIdeal.Value

end
-- ==== Proof.RefRes.lean ====
import proofs.«179362_j6141803233546_1_alg».proof.Proof.RefRun
import proofs.«179362_j6141803233546_1_alg».proof.Proof.RefVals
import proofs.«179362_j6141803233546_1_alg».proof.Proof.RefSeg1
import proofs.«179362_j6141803233546_1_alg».proof.Proof.RefSeg2
import proofs.«179362_j6141803233546_1_alg».proof.Proof.RefSeg3
import proofs.«179362_j6141803233546_1_alg».proof.Proof.RefSeg4
import proofs.«179362_j6141803233546_1_alg».proof.Proof.RefSeg5
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! # The reference's two results and its arguments, read off the fold of its operations

@main's operation list is six consecutive stretches: five layers, each ending by writing its activation, and the
transpose and product that make the first result. Each stretch's result is its value as a function of @main's
arguments given that what it reads is (`layerK`), and what a stretch does not write it keeps (`keepK_…`); chained
along the list they give the two results and the arguments after the whole list. -/

/-- The last two operations: the transpose of the last activation and its product with it. -/
abbrev seg6 : List (HloOp τ sig (Elt F)) :=
  [ unary main_v239 main_v240 ((transpose S128x8192 [1, 0] · transposes_S8192x128_S128x8192_1_0) : (⟨S8192x128, .f32⟩ : BufTy).Contents (Elt F) → (⟨S128x8192, .f32⟩ : BufTy).Contents (Elt F)),
    binary main_v239 main_v240 main_v241 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)) ]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 65536 in
set_option maxHeartbeats 16000000 in
/-- The operation list is the six stretches in order. -/
theorem ops_split : (ops (F := F)) = seg1 ++ (seg2 ++ (seg3 ++ (seg4 ++ (seg5 ++ seg6)))) := rfl

set_option maxHeartbeats 4000000 in
theorem layer6 (W : Valuation τ sig (Elt F)) (x0 : (⟨S8192x512, .f32⟩ : BufTy).Contents (Elt F)) (x1 : (⟨S2x262144, .i32⟩ : BufTy).Contents (Elt F)) (x2 : (⟨S512x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x10 : (⟨S128x128, .f32⟩ : BufTy).Contents (Elt F)) (x11 : (⟨S128, .f32⟩ : BufTy).Contents (Elt F))
    (hp : W (Proc.devRef .tc main_v239) = val_main_v239 (F := F) x0 x1 x2 x3 x4 x5 x10 x11) :
    after (seg6 (F := F)) W (Proc.devRef .tc main_v241) = val_main_v241 (F := F) x0 x1 x2 x3 x4 x5 x10 x11 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [hp]
  rfl

theorem keep6_v191 (W : Valuation τ sig (Elt F)) :
    after (seg6 (F := F)) W (Proc.devRef .tc main_v191) = W (Proc.devRef .tc main_v191) := by
  after_results_simp <;> rfl

/-! ## The activations, stretch by stretch -/

theorem pre1 (V : Valuation τ sig (Elt F)) :
    after (seg1 (F := F)) V (Proc.devRef .tc main_v47) = val_main_v47 (F := F) (V (Proc.devRef .tc main_arg0)) (V (Proc.devRef .tc main_arg1)) (V (Proc.devRef .tc main_arg2)) (V (Proc.devRef .tc main_arg3)) :=
  layer1 V _ _ _ _ rfl rfl rfl rfl

theorem pre2 (V : Valuation τ sig (Elt F)) :
    after (seg2 (F := F)) (after (seg1 (F := F)) V) (Proc.devRef .tc main_v95) = val_main_v95 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  layer2 _ _ _ _ _ _ _ (pre1 V) (keep1_arg1 _) (keep1_arg4 _) (keep1_arg5 _)

theorem pre3 (V : Valuation τ sig (Elt F)) :
    after (seg3 (F := F)) (after (seg2 (F := F)) (after (seg1 (F := F)) V)) (Proc.devRef .tc main_v143) = val_main_v143 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  layer3 _ _ _ _ _ _ _ _ _ (pre2 V) ((keep2_arg1 _).trans (keep1_arg1 _)) ((keep2_arg6 _).trans (keep1_arg6 _)) ((keep2_arg7 _).trans (keep1_arg7 _))

theorem pre4 (V : Valuation τ sig (Elt F)) :
    after (seg4 (F := F)) (after (seg3 (F := F)) (after (seg2 (F := F)) (after (seg1 (F := F)) V))) (Proc.devRef .tc main_v191) = val_main_v191 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  layer4 _ _ _ _ _ _ _ _ _ _ _ (pre3 V) ((keep3_arg1 _).trans ((keep2_arg1 _).trans (keep1_arg1 _))) ((keep3_arg8 _).trans ((keep2_arg8 _).trans (keep1_arg8 _))) ((keep3_arg9 _).trans ((keep2_arg9 _).trans (keep1_arg9 _)))

theorem pre5 (V : Valuation τ sig (Elt F)) :
    after (seg5 (F := F)) (after (seg4 (F := F)) (after (seg3 (F := F)) (after (seg2 (F := F)) (after (seg1 (F := F)) V)))) (Proc.devRef .tc main_v239) = val_main_v239 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) :=
  layer5 _ _ _ _ _ _ _ _ _ ((keep4_v95 _).trans ((keep3_v95 _).trans (pre2 V))) ((keep4_arg1 _).trans ((keep3_arg1 _).trans ((keep2_arg1 _).trans (keep1_arg1 _)))) ((keep4_arg10 _).trans ((keep3_arg10 _).trans ((keep2_arg10 _).trans (keep1_arg10 _)))) ((keep4_arg11 _).trans ((keep3_arg11 _).trans ((keep2_arg11 _).trans (keep1_arg11 _))))

/-! ## The two results and the arguments after the whole list -/

/-- The first result: the product of the last activation with its transpose. -/
theorem fold_v241 (V : Valuation τ sig (Elt F)) :
    after (ops (F := F)) V (Proc.devRef .tc main_v241) = val_main_v241 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) := by
  rw [ops_split]
  simp only [after_app]
  exact layer6 _ _ _ _ _ _ _ _ _ (pre5 V)

/-- The second result: the fourth stretch's activation, which the later stretches do not write. -/
theorem fold_v191 (V : Valuation τ sig (Elt F)) :
    after (ops (F := F)) V (Proc.devRef .tc main_v191) = val_main_v191 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split]
  simp only [after_app]
  exact (keep6_v191 _).trans ((keep5_v191 _).trans (pre4 V))

set_option maxRecDepth 16384 in
set_option maxHeartbeats 16000000 in
/-- No operation writes argument 0. -/
theorem fold_arg0 (V : Valuation τ sig (Elt F)) :
    after (ops (F := F)) V (Proc.devRef .tc main_arg0) = V (Proc.devRef .tc main_arg0) := by
  after_results_simp <;> rfl

set_option maxRecDepth 16384 in
set_option maxHeartbeats 16000000 in
/-- No operation writes argument 1. -/
theorem fold_arg1 (V : Valuation τ sig (Elt F)) :
    after (ops (F := F)) V (Proc.devRef .tc main_arg1) = V (Proc.devRef .tc main_arg1) := by
  after_results_simp <;> rfl

set_option maxRecDepth 16384 in
set_option maxHeartbeats 16000000 in
/-- No operation writes argument 2. -/
theorem fold_arg2 (V : Valuation τ sig (Elt F)) :
    after (ops (F := F)) V (Proc.devRef .tc main_arg2) = V (Proc.devRef .tc main_arg2) := by
  after_results_simp <;> rfl

set_option maxRecDepth 16384 in
set_option maxHeartbeats 16000000 in
/-- No operation writes argument 3. -/
theorem fold_arg3 (V : Valuation τ sig (Elt F)) :
    after (ops (F := F)) V (Proc.devRef .tc main_arg3) = V (Proc.devRef .tc main_arg3) := by
  after_results_simp <;> rfl

set_option maxRecDepth 16384 in
set_option maxHeartbeats 16000000 in
/-- No operation writes argument 4. -/
theorem fold_arg4 (V : Valuation τ sig (Elt F)) :
    after (ops (F := F)) V (Proc.devRef .tc main_arg4) = V (Proc.devRef .tc main_arg4) := by
  after_results_simp <;> rfl

set_option maxRecDepth 16384 in
set_option maxHeartbeats 16000000 in
/-- No operation writes argument 5. -/
theorem fold_arg5 (V : Valuation τ sig (Elt F)) :
    after (ops (F := F)) V (Proc.devRef .tc main_arg5) = V (Proc.devRef .tc main_arg5) := by
  after_results_simp <;> rfl

set_option maxRecDepth 16384 in
set_option maxHeartbeats 16000000 in
/-- No operation writes argument 6. -/
theorem fold_arg6 (V : Valuation τ sig (Elt F)) :
    after (ops (F := F)) V (Proc.devRef .tc main_arg6) = V (Proc.devRef .tc main_arg6) := by
  after_results_simp <;> rfl

set_option maxRecDepth 16384 in
set_option maxHeartbeats 16000000 in
/-- No operation writes argument 7. -/
theorem fold_arg7 (V : Valuation τ sig (Elt F)) :
    after (ops (F := F)) V (Proc.devRef .tc main_arg7) = V (Proc.devRef .tc main_arg7) := by
  after_results_simp <;> rfl

set_option maxRecDepth 16384 in
set_option maxHeartbeats 16000000 in
/-- No operation writes argument 8. -/
theorem fold_arg8 (V : Valuation τ sig (Elt F)) :
    after (ops (F := F)) V (Proc.devRef .tc main_arg8) = V (Proc.devRef .tc main_arg8) := by
  after_results_simp <;> rfl

set_option maxRecDepth 16384 in
set_option maxHeartbeats 16000000 in
/-- No operation writes argument 9. -/
theorem fold_arg9 (V : Valuation τ sig (Elt F)) :
    after (ops (F := F)) V (Proc.devRef .tc main_arg9) = V (Proc.devRef .tc main_arg9) := by
  after_results_simp <;> rfl

set_option maxRecDepth 16384 in
set_option maxHeartbeats 16000000 in
/-- No operation writes argument 10. -/
theorem fold_arg10 (V : Valuation τ sig (Elt F)) :
    after (ops (F := F)) V (Proc.devRef .tc main_arg10) = V (Proc.devRef .tc main_arg10) := by
  after_results_simp <;> rfl

set_option maxRecDepth 16384 in
set_option maxHeartbeats 16000000 in
/-- No operation writes argument 11. -/
theorem fold_arg11 (V : Valuation τ sig (Elt F)) :
    after (ops (F := F)) V (Proc.devRef .tc main_arg11) = V (Proc.devRef .tc main_arg11) := by
  after_results_simp <;> rfl

/-- On every device, for any float values, from any memory with zero counters: every weakly fair execution of @main
    terminates with each result at its value as a function of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v241) = val_main_v241 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_v191) = val_main_v191 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v241).trans (fold_v241 (launchContents m c)),
      (h c main_v191).trans (fold_v191 (launchContents m c)),
      (h c main_arg0).trans (fold_arg0 (launchContents m c)),
      (h c main_arg1).trans (fold_arg1 (launchContents m c)),
      (h c main_arg2).trans (fold_arg2 (launchContents m c)),
      (h c main_arg3).trans (fold_arg3 (launchContents m c)),
      (h c main_arg4).trans (fold_arg4 (launchContents m c)),
      (h c main_arg5).trans (fold_arg5 (launchContents m c)),
      (h c main_arg6).trans (fold_arg6 (launchContents m c)),
      (h c main_arg7).trans (fold_arg7 (launchContents m c)),
      (h c main_arg8).trans (fold_arg8 (launchContents m c)),
      (h c main_arg9).trans (fold_arg9 (launchContents m c)),
      (h c main_arg10).trans (fold_arg10 (launchContents m c)),
      (h c main_arg11).trans (fold_arg11 (launchContents m c))⟩)
    (run_fold m ρ)

end Cert.ReferenceIdeal.Value

end
-- ==== Proof.RefLayers.lean ====
import proofs.«179362_j6141803233546_1_alg».proof.Proof.RefVals
import proofs.«179362_j6141803233546_1_alg».proof.Proof.EdgeRead

/-!
The reference program's layers read index by index: each graph-convolution layer of the reference —
end words, degree, normalisation, feature product, gather at the source, scale, scatter-add at the
destination, bias, rectifier — is the edge arrangement `Cert.Spec.layerR` of the layer before it.
-/

noncomputable section

open scoped BigOperators

namespace Cert.RefValue

open Cert.ReferenceIdeal Cert.ReferenceIdeal.Read Idealize.ShloMosaic Idealize.ShloMosaic.ValueIdx
open Cert.LibEdge Cert.EdgeData Cert.EdgeRead Cert.Spec

/-- A rank-2 array as a function of its two coordinates. -/
def mat {n m : Nat} (A : (⟨2, ![n, m]⟩ : Shape).Idx → EReal) : Fin n → Fin m → EReal := fun i k => A (ix2 i k)
/-- A rank-1 array as a function of its coordinate. -/
def vec {n : Nat} (b : (⟨1, ![n]⟩ : Shape).Idx → EReal) : Fin n → EReal := fun f => b (ix1 f)

/-! ## Layer 1 (operations %0 … %47) -/

theorem srcW_0 (x1 : (⟨S2x262144, .i32⟩ : BufTy).Contents (Elt Ideal)) (e : Fin 270336) : val_main_v3 (F := Ideal) x1 (ix1 e) = endW x1 0 e := by
  unfold val_main_v3 val_main_v2 val_main_v1 val_main_v0
  exact endArr_apply x1 0 ![0, 0] rfl rfl _ _ _ e

theorem dstW_0 (x1 : (⟨S2x262144, .i32⟩ : BufTy).Contents (Elt Ideal)) (e : Fin 270336) : val_main_v6 (F := Ideal) x1 (ix1 e) = endW x1 1 e := by
  unfold val_main_v6 val_main_v5 val_main_v4 val_main_v0
  exact endArr_apply x1 1 ![1, 0] rfl rfl _ _ _ e

theorem deg_0 (x1 : (⟨S2x262144, .i32⟩ : BufTy).Contents (Elt Ideal)) (h : InRange x1) (i : Fin 8192) : val_main_v10 (F := Ideal) x1 (ix1 i) = deg x1 i := by
  unfold val_main_v10
  refine deg_apply h _ _ _ _ (fun _ => rfl) (fun e => ?_) (fun _ => rfl) i
  unfold val_main_v9
  exact (bcastCol_apply (by decide) _ _ e 0).trans (dstW_0 x1 e)

theorem dinv_0 (x1 : (⟨S2x262144, .i32⟩ : BufTy).Contents (Elt Ideal)) (h : InRange x1) (i : Fin 8192) : val_main_v14 (F := Ideal) x1 (ix1 i) = dinv x1 i := by
  rw [val_main_v14_apply, val_main_v12_apply, val_main_v13_apply, deg_0 x1 h i]
  exact dinv_word _ _ _ rfl rfl

theorem srcColA_0 (x1 : (⟨S2x262144, .i32⟩ : BufTy).Contents (Elt Ideal)) (h : InRange x1) (e : Fin 270336) : val_main_v20 (F := Ideal) x1 (ix2 e 0) = endW x1 0 e := by
  unfold val_main_v20 val_main_v19 val_main_v16 val_main_v18
  exact (bcastCol_apply (by decide) _ _ e 0).trans (wrapEnd_apply h 0 _ _ _ e (srcW_0 x1 e) rfl)

theorem dstColA_0 (x1 : (⟨S2x262144, .i32⟩ : BufTy).Contents (Elt Ideal)) (h : InRange x1) (e : Fin 270336) : val_main_v27 (F := Ideal) x1 (ix2 e 0) = endW x1 1 e := by
  unfold val_main_v27 val_main_v26 val_main_v23 val_main_v25
  exact (bcastCol_apply (by decide) _ _ e 0).trans (wrapEnd_apply h 1 _ _ _ e (dstW_0 x1 e) rfl)

theorem srcColB_0 (x1 : (⟨S2x262144, .i32⟩ : BufTy).Contents (Elt Ideal)) (h : InRange x1) (e : Fin 270336) : val_main_v36 (F := Ideal) x1 (ix2 e 0) = endW x1 0 e := by
  unfold val_main_v36 val_main_v35 val_main_v32 val_main_v34
  exact (bcastCol_apply (by decide) _ _ e 0).trans (wrapEnd_apply h 0 _ _ _ e (srcW_0 x1 e) rfl)

theorem nrm_0 (x1 : (⟨S2x262144, .i32⟩ : BufTy).Contents (Elt Ideal)) (h : InRange x1) (e : Fin 270336) : val_main_v29 (F := Ideal) x1 (ix1 e) = nrm x1 e := by
  have g1 : val_main_v21 (F := Ideal) x1 (ix1 e) = dinv x1 (srcF x1 e) := by
    unfold val_main_v21
    exact (gatherEnd_apply h 0 _ _ _ (srcColA_0 x1 h) e).trans (dinv_0 x1 h _)
  have g2 : val_main_v28 (F := Ideal) x1 (ix1 e) = dinv x1 (dstF x1 e) := by
    unfold val_main_v28
    exact (gatherEnd_apply h 1 _ _ _ (dstColA_0 x1 h) e).trans (dinv_0 x1 h _)
  rw [val_main_v29_apply, g1, g2]
  rfl

theorem lin_0 (x0 : (⟨S8192x512, .f32⟩ : BufTy).Contents (Elt Ideal)) (x2 : (⟨S512x128, .f32⟩ : BufTy).Contents (Elt Ideal)) (j : Fin 8192) (f : Fin 128) :
    val_main_v30 (F := Ideal) x0 x2 (ix2 j f) = lin (mat (x0)) (mat x2) j f := by
  rw [val_main_v30_apply]
  refine Finset.sum_congr rfl (fun k _ => ?_)
  have hl : lidx_main_v30 (ix2 j f) k = ix2 j k :=
    funext fun a => by match a with | ⟨0, _⟩ => rfl | ⟨1, _⟩ => rfl
  have hr : ridx_main_v30 (ix2 j f) k = ix2 k f :=
    funext fun a => by match a with | ⟨0, _⟩ => rfl | ⟨1, _⟩ => rfl
  rw [hl, hr]
  rfl

theorem msg_0 (x0 : (⟨S8192x512, .f32⟩ : BufTy).Contents (Elt Ideal)) (x1 : (⟨S2x262144, .i32⟩ : BufTy).Contents (Elt Ideal)) (x2 : (⟨S512x128, .f32⟩ : BufTy).Contents (Elt Ideal)) (h : InRange x1) (e : Fin 270336) (f : Fin 128) :
    val_main_v40 (F := Ideal) x0 x1 x2 (ix2 e f) = lin (mat (x0)) (mat x2) (srcF x1 e) f * nrm x1 e := by
  have g : val_main_v37 (F := Ideal) x0 x1 x2 (ix2 e f) = lin (mat (x0)) (mat x2) (srcF x1 e) f := by
    unfold val_main_v37
    exact (gatherRowEnd_apply h 0 _ _ _ (srcColB_0 x1 h) e f).trans (lin_0 x0 x2 _ f)
  have n : val_main_v39 (F := Ideal) x1 (ix2 e f) = nrm x1 e := by
    unfold val_main_v39 val_main_v38
    exact (bcastCols_apply (by decide) _ _ e f).trans
      ((bcastCol_apply (by decide) _ _ e 0).trans (nrm_0 x1 h e))
  rw [val_main_v40_apply, g, n]
  rfl

/-- Layer 1 of the reference is the edge arrangement of the graph convolution. -/
theorem layer_0 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (h : InRange x1) :
    mat (val_main_v47 (F := Ideal) x0 x1 x2 x3) = layerR (srcF x1) (dstF x1) (nrm x1) (mat (x0)) (mat x2) (vec x3) := by
  funext i f
  show val_main_v47 (F := Ideal) x0 x1 x2 x3 (ix2 i f) = _
  have s : val_main_v43 (F := Ideal) x0 x1 x2 (ix2 i f)
      = 0 + ∑ e ∈ Finset.univ.filter (fun e => dstF x1 e = i), lin (mat (x0)) (mat x2) (srcF x1 e) f * nrm x1 e := by
    unfold val_main_v43
    refine (scatterRowDst_apply h _ _ _ _ (fun e => ?_) i f).trans ?_
    · unfold val_main_v42
      exact (bcastCol_apply (by decide) _ _ e 0).trans (dstW_0 x1 e)
    · have z : val_main_v41 (F := Ideal) (ix2 i f) = 0 := Ideal.ofBits_zero_f32
      rw [z, Finset.sum_congr rfl (fun e _ => msg_0 x0 x1 x2 h e f)]
  have bb : val_main_v45 (F := Ideal) x3 (ix2 i f) = x3 (ix1 f) := by
    unfold val_main_v45 val_main_v44
    exact (bcastRows_apply (by decide) _ _ i f).trans (bcastRow_apply _ _ 0 f)
  have zz : val_main_call1_v0 (F := Ideal) (ix2 i f) = 0 := Ideal.ofBits_zero_f32
  rw [val_main_v47_apply, val_main_v46_apply, s, bb, zz]
  rfl

/-! ## Layer 2 (operations %48 … %95) -/

theorem srcW_1 (x1 : (⟨S2x262144, .i32⟩ : BufTy).Contents (Elt Ideal)) (e : Fin 270336) : val_main_v51 (F := Ideal) x1 (ix1 e) = endW x1 0 e := by
  unfold val_main_v51 val_main_v50 val_main_v49 val_main_v48
  exact endArr_apply x1 0 ![0, 0] rfl rfl _ _ _ e

theorem dstW_1 (x1 : (⟨S2x262144, .i32⟩ : BufTy).Contents (Elt Ideal)) (e : Fin 270336) : val_main_v54 (F := Ideal) x1 (ix1 e) = endW x1 1 e := by
  unfold val_main_v54 val_main_v53 val_main_v52 val_main_v48
  exact endArr_apply x1 1 ![1, 0] rfl rfl _ _ _ e

theorem deg_1 (x1 : (⟨S2x262144, .i32⟩ : BufTy).Contents (Elt Ideal)) (h : InRange x1) (i : Fin 8192) : val_main_v58 (F := Ideal) x1 (ix1 i) = deg x1 i := by
  unfold val_main_v58
  refine deg_apply h _ _ _ _ (fun _ => rfl) (fun e => ?_) (fun _ => rfl) i
  unfold val_main_v57
  exact (bcastCol_apply (by decide) _ _ e 0).trans (dstW_1 x1 e)

theorem dinv_1 (x1 : (⟨S2x262144, .i32⟩ : BufTy).Contents (Elt Ideal)) (h : InRange x1) (i : Fin 8192) : val_main_v62 (F := Ideal) x1 (ix1 i) = dinv x1 i := by
  rw [val_main_v62_apply, val_main_v60_apply, val_main_v61_apply, deg_1 x1 h i]
  exact dinv_word _ _ _ rfl rfl

theorem srcColA_1 (x1 : (⟨S2x262144, .i32⟩ : BufTy).Contents (Elt Ideal)) (h : InRange x1) (e : Fin 270336) : val_main_v68 (F := Ideal) x1 (ix2 e 0) = endW x1 0 e := by
  unfold val_main_v68 val_main_v67 val_main_v64 val_main_v66
  exact (bcastCol_apply (by decide) _ _ e 0).trans (wrapEnd_apply h 0 _ _ _ e (srcW_1 x1 e) rfl)

theorem dstColA_1 (x1 : (⟨S2x262144, .i32⟩ : BufTy).Contents (Elt Ideal)) (h : InRange x1) (e : Fin 270336) : val_main_v75 (F := Ideal) x1 (ix2 e 0) = endW x1 1 e := by
  unfold val_main_v75 val_main_v74 val_main_v71 val_main_v73
  exact (bcastCol_apply (by decide) _ _ e 0).trans (wrapEnd_apply h 1 _ _ _ e (dstW_1 x1 e) rfl)

theorem srcColB_1 (x1 : (⟨S2x262144, .i32⟩ : BufTy).Contents (Elt Ideal)) (h : InRange x1) (e : Fin 270336) : val_main_v84 (F := Ideal) x1 (ix2 e 0) = endW x1 0 e := by
  unfold val_main_v84 val_main_v83 val_main_v80 val_main_v82
  exact (bcastCol_apply (by decide) _ _ e 0).trans (wrapEnd_apply h 0 _ _ _ e (srcW_1 x1 e) rfl)

theorem nrm_1 (x1 : (⟨S2x262144, .i32⟩ : BufTy).Contents (Elt Ideal)) (h : InRange x1) (e : Fin 270336) : val_main_v77 (F := Ideal) x1 (ix1 e) = nrm x1 e := by
  have g1 : val_main_v69 (F := Ideal) x1 (ix1 e) = dinv x1 (srcF x1 e) := by
    unfold val_main_v69
    exact (gatherEnd_apply h 0 _ _ _ (srcColA_1 x1 h) e).trans (dinv_1 x1 h _)
  have g2 : val_main_v76 (F := Ideal) x1 (ix1 e) = dinv x1 (dstF x1 e) := by
    unfold val_main_v76
    exact (gatherEnd_apply h 1 _ _ _ (dstColA_1 x1 h) e).trans (dinv_1 x1 h _)
  rw [val_main_v77_apply, g1, g2]
  rfl

theorem lin_1 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (j : Fin 8192) (f : Fin 128) :
    val_main_v78 (F := Ideal) x0 x1 x2 x3 x4 (ix2 j f) = lin (mat (val_main_v47 (F := Ideal) x0 x1 x2 x3)) (mat x4) j f := by
  rw [val_main_v78_apply]
  refine Finset.sum_congr rfl (fun k _ => ?_)
  have hl : lidx_main_v78 (ix2 j f) k = ix2 j k :=
    funext fun a => by match a with | ⟨0, _⟩ => rfl | ⟨1, _⟩ => rfl
  have hr : ridx_main_v78 (ix2 j f) k = ix2 k f :=
    funext fun a => by match a with | ⟨0, _⟩ => rfl | ⟨1, _⟩ => rfl
  rw [hl, hr]
  rfl

theorem msg_1 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (h : InRange x1) (e : Fin 270336) (f : Fin 128) :
    val_main_v88 (F := Ideal) x0 x1 x2 x3 x4 (ix2 e f) = lin (mat (val_main_v47 (F := Ideal) x0 x1 x2 x3)) (mat x4) (srcF x1 e) f * nrm x1 e := by
  have g : val_main_v85 (F := Ideal) x0 x1 x2 x3 x4 (ix2 e f) = lin (mat (val_main_v47 (F := Ideal) x0 x1 x2 x3)) (mat x4) (srcF x1 e) f := by
    unfold val_main_v85
    exact (gatherRowEnd_apply h 0 _ _ _ (srcColB_1 x1 h) e f).trans (lin_1 x0 x1 x2 x3 x4 _ f)
  have n : val_main_v87 (F := Ideal) x1 (ix2 e f) = nrm x1 e := by
    unfold val_main_v87 val_main_v86
    exact (bcastCols_apply (by decide) _ _ e f).trans
      ((bcastCol_apply (by decide) _ _ e 0).trans (nrm_1 x1 h e))
  rw [val_main_v88_apply, g, n]
  rfl

/-- Layer 2 of the reference is the edge arrangement of the graph convolution. -/
theorem layer_1 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (h : InRange x1) :
    mat (val_main_v95 (F := Ideal) x0 x1 x2 x3 x4 x5) = layerR (srcF x1) (dstF x1) (nrm x1) (mat (val_main_v47 (F := Ideal) x0 x1 x2 x3)) (mat x4) (vec x5) := by
  funext i f
  show val_main_v95 (F := Ideal) x0 x1 x2 x3 x4 x5 (ix2 i f) = _
  have s : val_main_v91 (F := Ideal) x0 x1 x2 x3 x4 (ix2 i f)
      = 0 + ∑ e ∈ Finset.univ.filter (fun e => dstF x1 e = i), lin (mat (val_main_v47 (F := Ideal) x0 x1 x2 x3)) (mat x4) (srcF x1 e) f * nrm x1 e := by
    unfold val_main_v91
    refine (scatterRowDst_apply h _ _ _ _ (fun e => ?_) i f).trans ?_
    · unfold val_main_v90
      exact (bcastCol_apply (by decide) _ _ e 0).trans (dstW_1 x1 e)
    · have z : val_main_v89 (F := Ideal) (ix2 i f) = 0 := Ideal.ofBits_zero_f32
      rw [z, Finset.sum_congr rfl (fun e _ => msg_1 x0 x1 x2 x3 x4 h e f)]
  have bb : val_main_v93 (F := Ideal) x5 (ix2 i f) = x5 (ix1 f) := by
    unfold val_main_v93 val_main_v92
    exact (bcastRows_apply (by decide) _ _ i f).trans (bcastRow_apply _ _ 0 f)
  have zz : val_main_call3_v0 (F := Ideal) (ix2 i f) = 0 := Ideal.ofBits_zero_f32
  rw [val_main_v95_apply, val_main_v94_apply, s, bb, zz]
  rfl

/-! ## Layer 3 (operations %96 … %143) -/

theorem srcW_2 (x1 : (⟨S2x262144, .i32⟩ : BufTy).Contents (Elt Ideal)) (e : Fin 270336) : val_main_v99 (F := Ideal) x1 (ix1 e) = endW x1 0 e := by
  unfold val_main_v99 val_main_v98 val_main_v97 val_main_v96
  exact endArr_apply x1 0 ![0, 0] rfl rfl _ _ _ e

theorem dstW_2 (x1 : (⟨S2x262144, .i32⟩ : BufTy).Contents (Elt Ideal)) (e : Fin 270336) : val_main_v102 (F := Ideal) x1 (ix1 e) = endW x1 1 e := by
  unfold val_main_v102 val_main_v101 val_main_v100 val_main_v96
  exact endArr_apply x1 1 ![1, 0] rfl rfl _ _ _ e

theorem deg_2 (x1 : (⟨S2x262144, .i32⟩ : BufTy).Contents (Elt Ideal)) (h : InRange x1) (i : Fin 8192) : val_main_v106 (F := Ideal) x1 (ix1 i) = deg x1 i := by
  unfold val_main_v106
  refine deg_apply h _ _ _ _ (fun _ => rfl) (fun e => ?_) (fun _ => rfl) i
  unfold val_main_v105
  exact (bcastCol_apply (by decide) _ _ e 0).trans (dstW_2 x1 e)

theorem dinv_2 (x1 : (⟨S2x262144, .i32⟩ : BufTy).Contents (Elt Ideal)) (h : InRange x1) (i : Fin 8192) : val_main_v110 (F := Ideal) x1 (ix1 i) = dinv x1 i := by
  rw [val_main_v110_apply, val_main_v108_apply, val_main_v109_apply, deg_2 x1 h i]
  exact dinv_word _ _ _ rfl rfl

theorem srcColA_2 (x1 : (⟨S2x262144, .i32⟩ : BufTy).Contents (Elt Ideal)) (h : InRange x1) (e : Fin 270336) : val_main_v116 (F := Ideal) x1 (ix2 e 0) = endW x1 0 e := by
  unfold val_main_v116 val_main_v115 val_main_v112 val_main_v114
  exact (bcastCol_apply (by decide) _ _ e 0).trans (wrapEnd_apply h 0 _ _ _ e (srcW_2 x1 e) rfl)

theorem dstColA_2 (x1 : (⟨S2x262144, .i32⟩ : BufTy).Contents (Elt Ideal)) (h : InRange x1) (e : Fin 270336) : val_main_v123 (F := Ideal) x1 (ix2 e 0) = endW x1 1 e := by
  unfold val_main_v123 val_main_v122 val_main_v119 val_main_v121
  exact (bcastCol_apply (by decide) _ _ e 0).trans (wrapEnd_apply h 1 _ _ _ e (dstW_2 x1 e) rfl)

theorem srcColB_2 (x1 : (⟨S2x262144, .i32⟩ : BufTy).Contents (Elt Ideal)) (h : InRange x1) (e : Fin 270336) : val_main_v132 (F := Ideal) x1 (ix2 e 0) = endW x1 0 e := by
  unfold val_main_v132 val_main_v131 val_main_v128 val_main_v130
  exact (bcastCol_apply (by decide) _ _ e 0).trans (wrapEnd_apply h 0 _ _ _ e (srcW_2 x1 e) rfl)

theorem nrm_2 (x1 : (⟨S2x262144, .i32⟩ : BufTy).Contents (Elt Ideal)) (h : InRange x1) (e : Fin 270336) : val_main_v125 (F := Ideal) x1 (ix1 e) = nrm x1 e := by
  have g1 : val_main_v117 (F := Ideal) x1 (ix1 e) = dinv x1 (srcF x1 e) := by
    unfold val_main_v117
    exact (gatherEnd_apply h 0 _ _ _ (srcColA_2 x1 h) e).trans (dinv_2 x1 h _)
  have g2 : val_main_v124 (F := Ideal) x1 (ix1 e) = dinv x1 (dstF x1 e) := by
    unfold val_main_v124
    exact (gatherEnd_apply h 1 _ _ _ (dstColA_2 x1 h) e).trans (dinv_2 x1 h _)
  rw [val_main_v125_apply, g1, g2]
  rfl

theorem lin_2 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (j : Fin 8192) (f : Fin 128) :
    val_main_v126 (F := Ideal) x0 x1 x2 x3 x4 x5 x6 (ix2 j f) = lin (mat (val_main_v95 (F := Ideal) x0 x1 x2 x3 x4 x5)) (mat x6) j f := by
  rw [val_main_v126_apply]
  refine Finset.sum_congr rfl (fun k _ => ?_)
  have hl : lidx_main_v126 (ix2 j f) k = ix2 j k :=
    funext fun a => by match a with | ⟨0, _⟩ => rfl | ⟨1, _⟩ => rfl
  have hr : ridx_main_v126 (ix2 j f) k = ix2 k f :=
    funext fun a => by match a with | ⟨0, _⟩ => rfl | ⟨1, _⟩ => rfl
  rw [hl, hr]
  rfl

theorem msg_2 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (h : InRange x1) (e : Fin 270336) (f : Fin 128) :
    val_main_v136 (F := Ideal) x0 x1 x2 x3 x4 x5 x6 (ix2 e f) = lin (mat (val_main_v95 (F := Ideal) x0 x1 x2 x3 x4 x5)) (mat x6) (srcF x1 e) f * nrm x1 e := by
  have g : val_main_v133 (F := Ideal) x0 x1 x2 x3 x4 x5 x6 (ix2 e f) = lin (mat (val_main_v95 (F := Ideal) x0 x1 x2 x3 x4 x5)) (mat x6) (srcF x1 e) f := by
    unfold val_main_v133
    exact (gatherRowEnd_apply h 0 _ _ _ (srcColB_2 x1 h) e f).trans (lin_2 x0 x1 x2 x3 x4 x5 x6 _ f)
  have n : val_main_v135 (F := Ideal) x1 (ix2 e f) = nrm x1 e := by
    unfold val_main_v135 val_main_v134
    exact (bcastCols_apply (by decide) _ _ e f).trans
      ((bcastCol_apply (by decide) _ _ e 0).trans (nrm_2 x1 h e))
  rw [val_main_v136_apply, g, n]
  rfl

/-- Layer 3 of the reference is the edge arrangement of the graph convolution. -/
theorem layer_2 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (h : InRange x1) :
    mat (val_main_v143 (F := Ideal) x0 x1 x2 x3 x4 x5 x6 x7) = layerR (srcF x1) (dstF x1) (nrm x1) (mat (val_main_v95 (F := Ideal) x0 x1 x2 x3 x4 x5)) (mat x6) (vec x7) := by
  funext i f
  show val_main_v143 (F := Ideal) x0 x1 x2 x3 x4 x5 x6 x7 (ix2 i f) = _
  have s : val_main_v139 (F := Ideal) x0 x1 x2 x3 x4 x5 x6 (ix2 i f)
      = 0 + ∑ e ∈ Finset.univ.filter (fun e => dstF x1 e = i), lin (mat (val_main_v95 (F := Ideal) x0 x1 x2 x3 x4 x5)) (mat x6) (srcF x1 e) f * nrm x1 e := by
    unfold val_main_v139
    refine (scatterRowDst_apply h _ _ _ _ (fun e => ?_) i f).trans ?_
    · unfold val_main_v138
      exact (bcastCol_apply (by decide) _ _ e 0).trans (dstW_2 x1 e)
    · have z : val_main_v137 (F := Ideal) (ix2 i f) = 0 := Ideal.ofBits_zero_f32
      rw [z, Finset.sum_congr rfl (fun e _ => msg_2 x0 x1 x2 x3 x4 x5 x6 h e f)]
  have bb : val_main_v141 (F := Ideal) x7 (ix2 i f) = x7 (ix1 f) := by
    unfold val_main_v141 val_main_v140
    exact (bcastRows_apply (by decide) _ _ i f).trans (bcastRow_apply _ _ 0 f)
  have zz : val_main_call5_v0 (F := Ideal) (ix2 i f) = 0 := Ideal.ofBits_zero_f32
  rw [val_main_v143_apply, val_main_v142_apply, s, bb, zz]
  rfl

/-! ## Layer 4 (operations %144 … %191) -/

theorem srcW_3 (x1 : (⟨S2x262144, .i32⟩ : BufTy).Contents (Elt Ideal)) (e : Fin 270336) : val_main_v147 (F := Ideal) x1 (ix1 e) = endW x1 0 e := by
  unfold val_main_v147 val_main_v146 val_main_v145 val_main_v144
  exact endArr_apply x1 0 ![0, 0] rfl rfl _ _ _ e

theorem dstW_3 (x1 : (⟨S2x262144, .i32⟩ : BufTy).Contents (Elt Ideal)) (e : Fin 270336) : val_main_v150 (F := Ideal) x1 (ix1 e) = endW x1 1 e := by
  unfold val_main_v150 val_main_v149 val_main_v148 val_main_v144
  exact endArr_apply x1 1 ![1, 0] rfl rfl _ _ _ e

theorem deg_3 (x1 : (⟨S2x262144, .i32⟩ : BufTy).Contents (Elt Ideal)) (h : InRange x1) (i : Fin 8192) : val_main_v154 (F := Ideal) x1 (ix1 i) = deg x1 i := by
  unfold val_main_v154
  refine deg_apply h _ _ _ _ (fun _ => rfl) (fun e => ?_) (fun _ => rfl) i
  unfold val_main_v153
  exact (bcastCol_apply (by decide) _ _ e 0).trans (dstW_3 x1 e)

theorem dinv_3 (x1 : (⟨S2x262144, .i32⟩ : BufTy).Contents (Elt Ideal)) (h : InRange x1) (i : Fin 8192) : val_main_v158 (F := Ideal) x1 (ix1 i) = dinv x1 i := by
  rw [val_main_v158_apply, val_main_v156_apply, val_main_v157_apply, deg_3 x1 h i]
  exact dinv_word _ _ _ rfl rfl

theorem srcColA_3 (x1 : (⟨S2x262144, .i32⟩ : BufTy).Contents (Elt Ideal)) (h : InRange x1) (e : Fin 270336) : val_main_v164 (F := Ideal) x1 (ix2 e 0) = endW x1 0 e := by
  unfold val_main_v164 val_main_v163 val_main_v160 val_main_v162
  exact (bcastCol_apply (by decide) _ _ e 0).trans (wrapEnd_apply h 0 _ _ _ e (srcW_3 x1 e) rfl)

theorem dstColA_3 (x1 : (⟨S2x262144, .i32⟩ : BufTy).Contents (Elt Ideal)) (h : InRange x1) (e : Fin 270336) : val_main_v171 (F := Ideal) x1 (ix2 e 0) = endW x1 1 e := by
  unfold val_main_v171 val_main_v170 val_main_v167 val_main_v169
  exact (bcastCol_apply (by decide) _ _ e 0).trans (wrapEnd_apply h 1 _ _ _ e (dstW_3 x1 e) rfl)

theorem srcColB_3 (x1 : (⟨S2x262144, .i32⟩ : BufTy).Contents (Elt Ideal)) (h : InRange x1) (e : Fin 270336) : val_main_v180 (F := Ideal) x1 (ix2 e 0) = endW x1 0 e := by
  unfold val_main_v180 val_main_v179 val_main_v176 val_main_v178
  exact (bcastCol_apply (by decide) _ _ e 0).trans (wrapEnd_apply h 0 _ _ _ e (srcW_3 x1 e) rfl)

theorem nrm_3 (x1 : (⟨S2x262144, .i32⟩ : BufTy).Contents (Elt Ideal)) (h : InRange x1) (e : Fin 270336) : val_main_v173 (F := Ideal) x1 (ix1 e) = nrm x1 e := by
  have g1 : val_main_v165 (F := Ideal) x1 (ix1 e) = dinv x1 (srcF x1 e) := by
    unfold val_main_v165
    exact (gatherEnd_apply h 0 _ _ _ (srcColA_3 x1 h) e).trans (dinv_3 x1 h _)
  have g2 : val_main_v172 (F := Ideal) x1 (ix1 e) = dinv x1 (dstF x1 e) := by
    unfold val_main_v172
    exact (gatherEnd_apply h 1 _ _ _ (dstColA_3 x1 h) e).trans (dinv_3 x1 h _)
  rw [val_main_v173_apply, g1, g2]
  rfl

theorem lin_3 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x512, .f32⟩ : BufTy).Contents (Elt Ideal)) (j : Fin 8192) (f : Fin 512) :
    val_main_v174 (F := Ideal) x0 x1 x2 x3 x4 x5 x6 x7 x8 (ix2 j f) = lin (mat (val_main_v143 (F := Ideal) x0 x1 x2 x3 x4 x5 x6 x7)) (mat x8) j f := by
  rw [val_main_v174_apply]
  refine Finset.sum_congr rfl (fun k _ => ?_)
  have hl : lidx_main_v174 (ix2 j f) k = ix2 j k :=
    funext fun a => by match a with | ⟨0, _⟩ => rfl | ⟨1, _⟩ => rfl
  have hr : ridx_main_v174 (ix2 j f) k = ix2 k f :=
    funext fun a => by match a with | ⟨0, _⟩ => rfl | ⟨1, _⟩ => rfl
  rw [hl, hr]
  rfl

theorem msg_3 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x512, .f32⟩ : BufTy).Contents (Elt Ideal)) (h : InRange x1) (e : Fin 270336) (f : Fin 512) :
    val_main_v184 (F := Ideal) x0 x1 x2 x3 x4 x5 x6 x7 x8 (ix2 e f) = lin (mat (val_main_v143 (F := Ideal) x0 x1 x2 x3 x4 x5 x6 x7)) (mat x8) (srcF x1 e) f * nrm x1 e := by
  have g : val_main_v181 (F := Ideal) x0 x1 x2 x3 x4 x5 x6 x7 x8 (ix2 e f) = lin (mat (val_main_v143 (F := Ideal) x0 x1 x2 x3 x4 x5 x6 x7)) (mat x8) (srcF x1 e) f := by
    unfold val_main_v181
    exact (gatherRowEnd_apply h 0 _ _ _ (srcColB_3 x1 h) e f).trans (lin_3 x0 x1 x2 x3 x4 x5 x6 x7 x8 _ f)
  have n : val_main_v183 (F := Ideal) x1 (ix2 e f) = nrm x1 e := by
    unfold val_main_v183 val_main_v182
    exact (bcastCols_apply (by decide) _ _ e f).trans
      ((bcastCol_apply (by decide) _ _ e 0).trans (nrm_3 x1 h e))
  rw [val_main_v184_apply, g, n]
  rfl

/-- Layer 4 of the reference is the edge arrangement of the graph convolution. -/
theorem layer_3 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x512, .f32⟩ : BufTy).Contents (Elt Ideal)) (x9 : (⟨S512, .f32⟩ : BufTy).Contents (Elt Ideal)) (h : InRange x1) :
    mat (val_main_v191 (F := Ideal) x0 x1 x2 x3 x4 x5 x6 x7 x8 x9) = layerR (srcF x1) (dstF x1) (nrm x1) (mat (val_main_v143 (F := Ideal) x0 x1 x2 x3 x4 x5 x6 x7)) (mat x8) (vec x9) := by
  funext i f
  show val_main_v191 (F := Ideal) x0 x1 x2 x3 x4 x5 x6 x7 x8 x9 (ix2 i f) = _
  have s : val_main_v187 (F := Ideal) x0 x1 x2 x3 x4 x5 x6 x7 x8 (ix2 i f)
      = 0 + ∑ e ∈ Finset.univ.filter (fun e => dstF x1 e = i), lin (mat (val_main_v143 (F := Ideal) x0 x1 x2 x3 x4 x5 x6 x7)) (mat x8) (srcF x1 e) f * nrm x1 e := by
    unfold val_main_v187
    refine (scatterRowDst_apply h _ _ _ _ (fun e => ?_) i f).trans ?_
    · unfold val_main_v186
      exact (bcastCol_apply (by decide) _ _ e 0).trans (dstW_3 x1 e)
    · have z : val_main_v185 (F := Ideal) (ix2 i f) = 0 := Ideal.ofBits_zero_f32
      rw [z, Finset.sum_congr rfl (fun e _ => msg_3 x0 x1 x2 x3 x4 x5 x6 x7 x8 h e f)]
  have bb : val_main_v189 (F := Ideal) x9 (ix2 i f) = x9 (ix1 f) := by
    unfold val_main_v189 val_main_v188
    exact (bcastRows_apply (by decide) _ _ i f).trans (bcastRow_apply _ _ 0 f)
  have zz : val_main_call7_v0 (F := Ideal) (ix2 i f) = 0 := Ideal.ofBits_zero_f32
  rw [val_main_v191_apply, val_main_v190_apply, s, bb, zz]
  rfl

/-! ## Layer 5 (operations %192 … %239) -/

theorem srcW_4 (x1 : (⟨S2x262144, .i32⟩ : BufTy).Contents (Elt Ideal)) (e : Fin 270336) : val_main_v195 (F := Ideal) x1 (ix1 e) = endW x1 0 e := by
  unfold val_main_v195 val_main_v194 val_main_v193 val_main_v192
  exact endArr_apply x1 0 ![0, 0] rfl rfl _ _ _ e

theorem dstW_4 (x1 : (⟨S2x262144, .i32⟩ : BufTy).Contents (Elt Ideal)) (e : Fin 270336) : val_main_v198 (F := Ideal) x1 (ix1 e) = endW x1 1 e := by
  unfold val_main_v198 val_main_v197 val_main_v196 val_main_v192
  exact endArr_apply x1 1 ![1, 0] rfl rfl _ _ _ e

theorem deg_4 (x1 : (⟨S2x262144, .i32⟩ : BufTy).Contents (Elt Ideal)) (h : InRange x1) (i : Fin 8192) : val_main_v202 (F := Ideal) x1 (ix1 i) = deg x1 i := by
  unfold val_main_v202
  refine deg_apply h _ _ _ _ (fun _ => rfl) (fun e => ?_) (fun _ => rfl) i
  unfold val_main_v201
  exact (bcastCol_apply (by decide) _ _ e 0).trans (dstW_4 x1 e)

theorem dinv_4 (x1 : (⟨S2x262144, .i32⟩ : BufTy).Contents (Elt Ideal)) (h : InRange x1) (i : Fin 8192) : val_main_v206 (F := Ideal) x1 (ix1 i) = dinv x1 i := by
  rw [val_main_v206_apply, val_main_v204_apply, val_main_v205_apply, deg_4 x1 h i]
  exact dinv_word _ _ _ rfl rfl

theorem srcColA_4 (x1 : (⟨S2x262144, .i32⟩ : BufTy).Contents (Elt Ideal)) (h : InRange x1) (e : Fin 270336) : val_main_v212 (F := Ideal) x1 (ix2 e 0) = endW x1 0 e := by
  unfold val_main_v212 val_main_v211 val_main_v208 val_main_v210
  exact (bcastCol_apply (by decide) _ _ e 0).trans (wrapEnd_apply h 0 _ _ _ e (srcW_4 x1 e) rfl)

theorem dstColA_4 (x1 : (⟨S2x262144, .i32⟩ : BufTy).Contents (Elt Ideal)) (h : InRange x1) (e : Fin 270336) : val_main_v219 (F := Ideal) x1 (ix2 e 0) = endW x1 1 e := by
  unfold val_main_v219 val_main_v218 val_main_v215 val_main_v217
  exact (bcastCol_apply (by decide) _ _ e 0).trans (wrapEnd_apply h 1 _ _ _ e (dstW_4 x1 e) rfl)

theorem srcColB_4 (x1 : (⟨S2x262144, .i32⟩ : BufTy).Contents (Elt Ideal)) (h : InRange x1) (e : Fin 270336) : val_main_v228 (F := Ideal) x1 (ix2 e 0) = endW x1 0 e := by
  unfold val_main_v228 val_main_v227 val_main_v224 val_main_v226
  exact (bcastCol_apply (by decide) _ _ e 0).trans (wrapEnd_apply h 0 _ _ _ e (srcW_4 x1 e) rfl)

theorem nrm_4 (x1 : (⟨S2x262144, .i32⟩ : BufTy).Contents (Elt Ideal)) (h : InRange x1) (e : Fin 270336) : val_main_v221 (F := Ideal) x1 (ix1 e) = nrm x1 e := by
  have g1 : val_main_v213 (F := Ideal) x1 (ix1 e) = dinv x1 (srcF x1 e) := by
    unfold val_main_v213
    exact (gatherEnd_apply h 0 _ _ _ (srcColA_4 x1 h) e).trans (dinv_4 x1 h _)
  have g2 : val_main_v220 (F := Ideal) x1 (ix1 e) = dinv x1 (dstF x1 e) := by
    unfold val_main_v220
    exact (gatherEnd_apply h 1 _ _ _ (dstColA_4 x1 h) e).trans (dinv_4 x1 h _)
  rw [val_main_v221_apply, g1, g2]
  rfl

theorem lin_4 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x128, .f32⟩ : BufTy).Contents (Elt Ideal)) (j : Fin 8192) (f : Fin 128) :
    val_main_v222 (F := Ideal) x0 x1 x2 x3 x4 x5 x10 (ix2 j f) = lin (mat (val_main_v95 (F := Ideal) x0 x1 x2 x3 x4 x5)) (mat x10) j f := by
  rw [val_main_v222_apply]
  refine Finset.sum_congr rfl (fun k _ => ?_)
  have hl : lidx_main_v222 (ix2 j f) k = ix2 j k :=
    funext fun a => by match a with | ⟨0, _⟩ => rfl | ⟨1, _⟩ => rfl
  have hr : ridx_main_v222 (ix2 j f) k = ix2 k f :=
    funext fun a => by match a with | ⟨0, _⟩ => rfl | ⟨1, _⟩ => rfl
  rw [hl, hr]
  rfl

theorem msg_4 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x128, .f32⟩ : BufTy).Contents (Elt Ideal)) (h : InRange x1) (e : Fin 270336) (f : Fin 128) :
    val_main_v232 (F := Ideal) x0 x1 x2 x3 x4 x5 x10 (ix2 e f) = lin (mat (val_main_v95 (F := Ideal) x0 x1 x2 x3 x4 x5)) (mat x10) (srcF x1 e) f * nrm x1 e := by
  have g : val_main_v229 (F := Ideal) x0 x1 x2 x3 x4 x5 x10 (ix2 e f) = lin (mat (val_main_v95 (F := Ideal) x0 x1 x2 x3 x4 x5)) (mat x10) (srcF x1 e) f := by
    unfold val_main_v229
    exact (gatherRowEnd_apply h 0 _ _ _ (srcColB_4 x1 h) e f).trans (lin_4 x0 x1 x2 x3 x4 x5 x10 _ f)
  have n : val_main_v231 (F := Ideal) x1 (ix2 e f) = nrm x1 e := by
    unfold val_main_v231 val_main_v230
    exact (bcastCols_apply (by decide) _ _ e f).trans
      ((bcastCol_apply (by decide) _ _ e 0).trans (nrm_4 x1 h e))
  rw [val_main_v232_apply, g, n]
  rfl

/-- Layer 5 of the reference is the edge arrangement of the graph convolution. -/
theorem layer_4 (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x128, .f32⟩ : BufTy).Contents (Elt Ideal)) (x11 : (⟨S128, .f32⟩ : BufTy).Contents (Elt Ideal)) (h : InRange x1) :
    mat (val_main_v239 (F := Ideal) x0 x1 x2 x3 x4 x5 x10 x11) = layerR (srcF x1) (dstF x1) (nrm x1) (mat (val_main_v95 (F := Ideal) x0 x1 x2 x3 x4 x5)) (mat x10) (vec x11) := by
  funext i f
  show val_main_v239 (F := Ideal) x0 x1 x2 x3 x4 x5 x10 x11 (ix2 i f) = _
  have s : val_main_v235 (F := Ideal) x0 x1 x2 x3 x4 x5 x10 (ix2 i f)
      = 0 + ∑ e ∈ Finset.univ.filter (fun e => dstF x1 e = i), lin (mat (val_main_v95 (F := Ideal) x0 x1 x2 x3 x4 x5)) (mat x10) (srcF x1 e) f * nrm x1 e := by
    unfold val_main_v235
    refine (scatterRowDst_apply h _ _ _ _ (fun e => ?_) i f).trans ?_
    · unfold val_main_v234
      exact (bcastCol_apply (by decide) _ _ e 0).trans (dstW_4 x1 e)
    · have z : val_main_v233 (F := Ideal) (ix2 i f) = 0 := Ideal.ofBits_zero_f32
      rw [z, Finset.sum_congr rfl (fun e _ => msg_4 x0 x1 x2 x3 x4 x5 x10 h e f)]
  have bb : val_main_v237 (F := Ideal) x11 (ix2 i f) = x11 (ix1 f) := by
    unfold val_main_v237 val_main_v236
    exact (bcastRows_apply (by decide) _ _ i f).trans (bcastRow_apply _ _ 0 f)
  have zz : val_main_call9_v0 (F := Ideal) (ix2 i f) = 0 := Ideal.ofBits_zero_f32
  rw [val_main_v239_apply, val_main_v238_apply, s, bb, zz]
  rfl

/-! ## The structure decoder's Gram matrix (operations %240, %241) -/

theorem outer_ref (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x128, .f32⟩ : BufTy).Contents (Elt Ideal)) (x11 : (⟨S128, .f32⟩ : BufTy).Contents (Elt Ideal)) :
    mat (val_main_v241 (F := Ideal) x0 x1 x2 x3 x4 x5 x10 x11) = outer (mat (val_main_v239 (F := Ideal) x0 x1 x2 x3 x4 x5 x10 x11)) := by
  funext i j
  show val_main_v241 (F := Ideal) x0 x1 x2 x3 x4 x5 x10 x11 (ix2 i j) = _
  rw [val_main_v241_apply]
  refine Finset.sum_congr rfl (fun k _ => ?_)
  rw [val_main_v240_apply]
  have hl : lidx_main_v241 (ix2 i j) k = ix2 i k :=
    funext fun a => by match a with | ⟨0, _⟩ => rfl | ⟨1, _⟩ => rfl
  have hr : idx_main_v240 (ridx_main_v241 (ix2 i j) k) = ix2 j k :=
    funext fun a => by match a with | ⟨0, _⟩ => rfl | ⟨1, _⟩ => rfl
  rw [hl, hr]
  rfl

end Cert.RefValue
-- ==== Proof.RefFinal.lean ====
import proofs.«179362_j6141803233546_1_alg».proof.Proof.RefLayers
import proofs.«179362_j6141803233546_1_alg».proof.Proof.SpecNet

/-!
The reference program's two results, index by index, as the specification's networks in the edge
arrangement: the reconstructed attributes are four graph-convolution layers of the input features,
the reconstructed structure is the Gram matrix of three.  The edge data are those of the edge-index
argument, whose words are assumed to name nodes.
-/

noncomputable section

open scoped BigOperators

namespace Cert.RefValue

open Cert.ReferenceIdeal Cert.ReferenceIdeal.Read Idealize.ShloMosaic Idealize.ShloMosaic.ValueIdx
open Cert.EdgeData Cert.Spec

/-- The reference's reconstructed attributes (its second result), as a function of its arguments. -/
theorem ref_X (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x512, .f32⟩ : BufTy).Contents (Elt Ideal)) (x9 : (⟨S512, .f32⟩ : BufTy).Contents (Elt Ideal))
    (h : InRange x1) :
    val_main_v191 (F := Ideal) x0 x1 x2 x3 x4 x5 x6 x7 x8 x9
      = fun (j : S8192x512.Idx) =>
          netXR (srcF x1) (dstF x1) (nrm x1) (mat x0) (mat x2) (vec x3) (mat x4) (vec x5)
            (mat x6) (vec x7) (mat x8) (vec x9) (j 0) (j 1) := by
  funext j
  obtain ⟨p, q, rfl⟩ : ∃ (p : Fin 8192) (q : Fin 512), j = ix2 p q := ⟨j 0, j 1, eq_ix2 j⟩
  refine (congrFun (congrFun (layer_3 x0 x1 x2 x3 x4 x5 x6 x7 x8 x9 h) p) q).trans ?_
  rw [layer_2 x0 x1 x2 x3 x4 x5 x6 x7 h, layer_1 x0 x1 x2 x3 x4 x5 h, layer_0 x0 x1 x2 x3 h]
  rfl

/-- The reference's reconstructed structure (its first result), as a function of its arguments. -/
theorem ref_A (x0 : (⟨S8192x512, .f32⟩ : BufTy).Contents (Elt Ideal)) (x1 : (⟨S2x262144, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x128, .f32⟩ : BufTy).Contents (Elt Ideal)) (x11 : (⟨S128, .f32⟩ : BufTy).Contents (Elt Ideal))
    (h : InRange x1) :
    val_main_v241 (F := Ideal) x0 x1 x2 x3 x4 x5 x10 x11
      = fun (j : S8192x8192.Idx) =>
          netAR (srcF x1) (dstF x1) (nrm x1) (mat x0) (mat x2) (vec x3) (mat x4) (vec x5)
            (mat x10) (vec x11) (j 0) (j 1) := by
  funext j
  obtain ⟨p, q, rfl⟩ : ∃ (p : Fin 8192) (q : Fin 8192), j = ix2 p q := ⟨j 0, j 1, eq_ix2 j⟩
  refine (congrFun (congrFun (outer_ref x0 x1 x2 x3 x4 x5 x10 x11) p) q).trans ?_
  rw [layer_4 x0 x1 x2 x3 x4 x5 x10 x11 h, layer_1 x0 x1 x2 x3 x4 x5 h, layer_0 x0 x1 x2 x3 h]
  rfl

end Cert.RefValue
-- ==== Proof.Bridge.lean ====
/- The value claim assembled: the kernel program's run, read through its eleven regions as the network in the dense
   arrangement over the adjacency matrix its host operations build; the reference's run, read as the network in the
   edge arrangement; and the two arrangements' equality on finite arguments whose indices name nodes, which is what
   the precondition grants. -/
import proofs.«179362_j6141803233546_1_alg».proof.Defs
import proofs.«179362_j6141803233546_1_alg».proof.Proof.Gen.KernelIdeal
import proofs.«179362_j6141803233546_1_alg».proof.Proof.Gen.ReferenceIdeal
import proofs.«179362_j6141803233546_1_alg».proof.Proof.Gen.Pre_finite_inputs
import proofs.«179362_j6141803233546_1_alg».proof.Proof.KI.Run
import proofs.«179362_j6141803233546_1_alg».proof.Proof.KI.KValue
import proofs.«179362_j6141803233546_1_alg».proof.Proof.KHostAdj
import proofs.«179362_j6141803233546_1_alg».proof.Proof.PreDecode
import proofs.«179362_j6141803233546_1_alg».proof.Proof.RefRes
import proofs.«179362_j6141803233546_1_alg».proof.Proof.RefFinal
import proofs.«179362_j6141803233546_1_alg».proof.Proof.SpecNet

set_option maxRecDepth 16384

noncomputable section

namespace Cert.Bridge

open Idealize.ShloMosaic Idealize.ShloMosaic.TcCoe Idealize.SL.Sem Idealize.ShloMosaic.ValueIdx
open Cert.Spec Cert.EdgeData Cert.RefValue

/-! ## The common value of the two programs' results

Both programs compute, from the same twelve argument arrays, a graph auto-encoder: two encoder layers, then an
attribute decoder of two more layers and a structure decoder of one layer followed by a Gram matrix. The kernel
program applies a dense normalised adjacency matrix; the reference adds, edge by edge, the source row's message
into the destination row. On finite arguments with node indices in range the two arrangements are one function. -/

section Witness

variable (m : (ℓ : Loc Cert.KernelIdeal.nD Cert.KernelIdeal.τ Cert.KernelIdeal.sig) → Buf (Elt Ideal) ℓ)

/-- The kernel program's argument arrays on device `c`, as plain functions of the index. -/
abbrev a0 (c : Dev Cert.KernelIdeal.nD) : Cert.KernelIdeal.S8192x512.Idx → EReal := m ((c.tc : Thread Cert.KernelIdeal.nD Cert.KernelIdeal.τ).loc Cert.KernelIdeal.main_arg0)
abbrev a1 (c : Dev Cert.KernelIdeal.nD) : EI := m ((c.tc : Thread Cert.KernelIdeal.nD Cert.KernelIdeal.τ).loc Cert.KernelIdeal.main_arg1)
abbrev a2 (c : Dev Cert.KernelIdeal.nD) : Cert.KernelIdeal.S512x128.Idx → EReal := m ((c.tc : Thread Cert.KernelIdeal.nD Cert.KernelIdeal.τ).loc Cert.KernelIdeal.main_arg2)
abbrev a3 (c : Dev Cert.KernelIdeal.nD) : Cert.KernelIdeal.S128.Idx → EReal := m ((c.tc : Thread Cert.KernelIdeal.nD Cert.KernelIdeal.τ).loc Cert.KernelIdeal.main_arg3)
abbrev a4 (c : Dev Cert.KernelIdeal.nD) : Cert.KernelIdeal.S128x128.Idx → EReal := m ((c.tc : Thread Cert.KernelIdeal.nD Cert.KernelIdeal.τ).loc Cert.KernelIdeal.main_arg4)
abbrev a5 (c : Dev Cert.KernelIdeal.nD) : Cert.KernelIdeal.S128.Idx → EReal := m ((c.tc : Thread Cert.KernelIdeal.nD Cert.KernelIdeal.τ).loc Cert.KernelIdeal.main_arg5)
abbrev a6 (c : Dev Cert.KernelIdeal.nD) : Cert.KernelIdeal.S128x128.Idx → EReal := m ((c.tc : Thread Cert.KernelIdeal.nD Cert.KernelIdeal.τ).loc Cert.KernelIdeal.main_arg6)
abbrev a7 (c : Dev Cert.KernelIdeal.nD) : Cert.KernelIdeal.S128.Idx → EReal := m ((c.tc : Thread Cert.KernelIdeal.nD Cert.KernelIdeal.τ).loc Cert.KernelIdeal.main_arg7)
abbrev a8 (c : Dev Cert.KernelIdeal.nD) : Cert.KernelIdeal.S128x512.Idx → EReal := m ((c.tc : Thread Cert.KernelIdeal.nD Cert.KernelIdeal.τ).loc Cert.KernelIdeal.main_arg8)
abbrev a9 (c : Dev Cert.KernelIdeal.nD) : Cert.KernelIdeal.S512.Idx → EReal := m ((c.tc : Thread Cert.KernelIdeal.nD Cert.KernelIdeal.τ).loc Cert.KernelIdeal.main_arg9)
abbrev a10 (c : Dev Cert.KernelIdeal.nD) : Cert.KernelIdeal.S128x128.Idx → EReal := m ((c.tc : Thread Cert.KernelIdeal.nD Cert.KernelIdeal.τ).loc Cert.KernelIdeal.main_arg10)
abbrev a11 (c : Dev Cert.KernelIdeal.nD) : Cert.KernelIdeal.S128.Idx → EReal := m ((c.tc : Thread Cert.KernelIdeal.nD Cert.KernelIdeal.τ).loc Cert.KernelIdeal.main_arg11)

/-- The reconstructed structure: the network's, in the dense arrangement, of device `c`'s arguments. -/
def specA (c : Dev Cert.KernelIdeal.nD) : Cert.KernelIdeal.S8192x8192.Idx → EReal := fun j =>
  netAK (srcF (a1 m c)) (dstF (a1 m c)) (nrm (a1 m c)) (mat (a0 m c)) (mat (a2 m c)) (vec (a3 m c)) (mat (a4 m c)) (vec (a5 m c))
    (mat (a10 m c)) (vec (a11 m c)) (j 0) (j 1)

/-- The reconstructed attributes: the network's, in the dense arrangement, of device `c`'s arguments. -/
def specX (c : Dev Cert.KernelIdeal.nD) : Cert.KernelIdeal.S8192x512.Idx → EReal := fun j =>
  netXK (srcF (a1 m c)) (dstF (a1 m c)) (nrm (a1 m c)) (mat (a0 m c)) (mat (a2 m c)) (vec (a3 m c)) (mat (a4 m c)) (vec (a5 m c))
    (mat (a6 m c)) (vec (a7 m c)) (mat (a8 m c)) (vec (a9 m c)) (j 0) (j 1)

end Witness

/-- A rank-2 array of real entries is a matrix of real entries. -/
theorem mat_fin {n k : Nat} (A : (⟨2, ![n, k]⟩ : Shape).Idx → EReal) (h : ∀ i, A i ≠ ⊤ ∧ A i ≠ ⊥) (i : Fin n) (j : Fin k) :
    IsFin (mat A i j) := h (ix2 i j)
/-- A rank-1 array of real entries is a vector of real entries. -/
theorem vec_fin {n : Nat} (b : (⟨1, ![n]⟩ : Shape).Idx → EReal) (h : ∀ i, b i ≠ ⊤ ∧ b i ≠ ⊥) (f : Fin n) :
    IsFin (vec b f) := h (ix1 f)

/-- THE VALUE CLAIM: at the ideal numbers, from memories agreeing on the arguments, both programs run; the kernel
    program's two results are the network in its dense arrangement, the reference's the network in its edge
    arrangement, and on the finite, in-range arguments the precondition grants the two are equal. -/
theorem algebraic : Cert.algebraic_KernelIdeal_ReferenceIdeal := by
  intro m g m' g' hpre hagree
  -- what the precondition says of each device's arguments
  have hdec := fun c : Dev Cert.KernelIdeal.nD => Cert.PreDecode.decode _ _ _ _ _ _ _ _ _ _ _ _ (hpre c)
  have hin : ∀ c : Dev Cert.KernelIdeal.nD, InRange (a1 m c) := fun c r e => (hdec c).2.1 (ix2 r e)
  refine ⟨specA m, specX m, ?_, ?_⟩
  · -- the kernel program
    refine (θ_run _ _ _).mono (fun r h c => ?_) (Cert.KernelIdeal.Hand.run (F := Ideal) m g)
    have hadj := Cert.KernelIdeal.HostValue.adj_v45 m c (hin c)
    exact ⟨(h c _ (Cert.KernelIdeal.Hand.mem_uc Cert.KernelIdeal.main_v67 (by decide))).trans
        (Cert.KernelIdeal.Hand.kernel_A m _ _ _ c hadj),
      (h c _ (Cert.KernelIdeal.Hand.mem_uc Cert.KernelIdeal.main_v63 (by decide))).trans
        (Cert.KernelIdeal.Hand.kernel_X m _ _ _ c hadj),
      (h c _ (Cert.KernelIdeal.Hand.mem_uc Cert.KernelIdeal.main_arg0 (by decide))).trans (Cert.KernelIdeal.Hand.W19_main_arg0 m c),
      (h c _ (Cert.KernelIdeal.Hand.mem_uc Cert.KernelIdeal.main_arg1 (by decide))).trans (Cert.KernelIdeal.Hand.W19_main_arg1 m c),
      (h c _ (Cert.KernelIdeal.Hand.mem_uc Cert.KernelIdeal.main_arg2 (by decide))).trans (Cert.KernelIdeal.Hand.W19_main_arg2 m c),
      (h c _ (Cert.KernelIdeal.Hand.mem_uc Cert.KernelIdeal.main_arg3 (by decide))).trans (Cert.KernelIdeal.Hand.W19_main_arg3 m c),
      (h c _ (Cert.KernelIdeal.Hand.mem_uc Cert.KernelIdeal.main_arg4 (by decide))).trans (Cert.KernelIdeal.Hand.W19_main_arg4 m c),
      (h c _ (Cert.KernelIdeal.Hand.mem_uc Cert.KernelIdeal.main_arg5 (by decide))).trans (Cert.KernelIdeal.Hand.W19_main_arg5 m c),
      (h c _ (Cert.KernelIdeal.Hand.mem_uc Cert.KernelIdeal.main_arg6 (by decide))).trans (Cert.KernelIdeal.Hand.W19_main_arg6 m c),
      (h c _ (Cert.KernelIdeal.Hand.mem_uc Cert.KernelIdeal.main_arg7 (by decide))).trans (Cert.KernelIdeal.Hand.W19_main_arg7 m c),
      (h c _ (Cert.KernelIdeal.Hand.mem_uc Cert.KernelIdeal.main_arg8 (by decide))).trans (Cert.KernelIdeal.Hand.W19_main_arg8 m c),
      (h c _ (Cert.KernelIdeal.Hand.mem_uc Cert.KernelIdeal.main_arg9 (by decide))).trans (Cert.KernelIdeal.Hand.W19_main_arg9 m c),
      (h c _ (Cert.KernelIdeal.Hand.mem_uc Cert.KernelIdeal.main_arg10 (by decide))).trans (Cert.KernelIdeal.Hand.W19_main_arg10 m c),
      (h c _ (Cert.KernelIdeal.Hand.mem_uc Cert.KernelIdeal.main_arg11 (by decide))).trans (Cert.KernelIdeal.Hand.W19_main_arg11 m c)⟩
  · -- the reference
    refine (θ_run _ _ _).mono (fun r h c => ?_) (Cert.ReferenceIdeal.Value.run m' g')
    obtain ⟨hA, hX, hargs⟩ := h c
    obtain ⟨e0, e1, e2, e3, e4, e5, e6, e7, e8, e9, e10, e11⟩ := hagree c
    obtain ⟨f0, -, f2, f3, f4, f5, f6, f7, f8, f9, f10, f11⟩ := hdec c
    have hn : ∀ e, IsFin (nrm (a1 m c) e) := nrm_fin (a1 m c)
    refine ⟨hA.trans ?_, hX.trans ?_, hargs⟩
    · rw [e0, e1, e2, e3, e4, e5, e10, e11]
      refine (ref_A _ _ _ _ _ _ _ _ (hin c)).trans ?_
      funext j
      exact (congrFun (congrFun (netA_eq (bs1 := vec (a11 m c)) hn (mat_fin _ f0) (mat_fin _ f2) (vec_fin _ f3) (mat_fin _ f4) (vec_fin _ f5)
        (mat_fin _ f10)) (j 0)) (j 1)).symm
    · rw [e0, e1, e2, e3, e4, e5, e6, e7, e8, e9]
      refine (ref_X _ _ _ _ _ _ _ _ _ _ (hin c)).trans ?_
      funext j
      exact (congrFun (congrFun (netX_eq (ba2 := vec (a9 m c)) hn (mat_fin _ f0) (mat_fin _ f2) (vec_fin _ f3) (mat_fin _ f4) (vec_fin _ f5)
        (mat_fin _ f6) (vec_fin _ f7) (mat_fin _ f8)) (j 0)) (j 1)).symm

/-- The reference runs and its argument arrays end as launched: the last twelve conjuncts of its run's post. -/
theorem frame_ref : Cert.frame_ReferenceIdeal := fun m g _ =>
  (θ_run _ _ _).mono (fun r h c => (h c).2.2) (Cert.ReferenceIdeal.Value.run m g)

end Cert.Bridge

end
-- ==== Proof.lean ====
/- The certificate's claims assembled. Both printed kernel programs — the same text read at the word level and at the
   extended reals — run as eleven pipelined regions between stretches of host operations: every region's proof data and
   body obligation (Proof/K, Proof/KI: a row-blocked matrix product; a product accumulated over four column blocks of the
   adjacency with bias and rectifier at the last block; a Gram matrix whose two input windows read one array) give the
   run of the whole program, whose boundary contents are a fold from the launch memory; no stretch and no region writes
   an argument, which is the frame. The reference is a straight-line host program. The idealization rewrote nothing. At
   the extended reals the kernel's dense arrangement relu(A·(H·W) + b), A the adjacency scattered from the normalised
   edge coefficients, and the reference's edge arrangement (gather, scale, scatter-add) are one function of finite
   inputs with edge endpoints in range: grouping the edges into a node by their source is a regrouping of a finite
   sum of real numbers (Proof/Spec*, Proof/Bridge). -/
import proofs.«179362_j6141803233546_1_alg».proof.Defs
import proofs.«179362_j6141803233546_1_alg».proof.Proof.Gen.Kernel
import proofs.«179362_j6141803233546_1_alg».proof.Proof.Gen.KernelIdeal
import proofs.«179362_j6141803233546_1_alg».proof.Proof.Gen.ReferenceIdeal
import proofs.«179362_j6141803233546_1_alg».proof.Proof.Gen.Pre_finite_inputs
import proofs.«179362_j6141803233546_1_alg».proof.Proof.K.Run
import proofs.«179362_j6141803233546_1_alg».proof.Proof.KI.Run
import proofs.«179362_j6141803233546_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.Bridge.frame_ref,
    trivial,
    Cert.Bridge.algebraic⟩

end Cert.Proof

end
